-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v1018)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1018) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x20 : Shape := ⟨2, ![8192, 20]⟩
abbrev S8192 : Shape := ⟨1, ![8192]⟩
abbrev S50000x300 : Shape := ⟨2, ![50000, 300]⟩
abbrev S1000x64 : Shape := ⟨2, ![1000, 64]⟩
abbrev S5000x64 : Shape := ⟨2, ![5000, 64]⟩
abbrev S10000x64 : Shape := ⟨2, ![10000, 64]⟩
abbrev S100x64 : Shape := ⟨2, ![100, 64]⟩
abbrev S50x64 : Shape := ⟨2, ![50, 64]⟩
abbrev S20x64 : Shape := ⟨2, ![20, 64]⟩
abbrev S1000x1 : Shape := ⟨2, ![1000, 1]⟩
abbrev S5000x1 : Shape := ⟨2, ![5000, 1]⟩
abbrev S10000x1 : Shape := ⟨2, ![10000, 1]⟩
abbrev S100x1 : Shape := ⟨2, ![100, 1]⟩
abbrev S50x1 : Shape := ⟨2, ![50, 1]⟩
abbrev S20x1 : Shape := ⟨2, ![20, 1]⟩
abbrev S748x1024 : Shape := ⟨2, ![748, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S5000x64 : S_.BroadcastsInDim S5000x64 (![] : Fin 0 → Fin S5000x64.rank)
  reducesTo_S5000x64_S_d0_1 : S5000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S100x64 : S_.BroadcastsInDim S100x64 (![] : Fin 0 → Fin S100x64.rank)
  reducesTo_S100x64_S_d0_1 : S100x64.ReducesTo [0, 1] S_
  bcast_S_S50x64 : S_.BroadcastsInDim S50x64 (![] : Fin 0 → Fin S50x64.rank)
  reducesTo_S50x64_S_d0_1 : S50x64.ReducesTo [0, 1] S_
  bcast_S_S20x64 : S_.BroadcastsInDim S20x64 (![] : Fin 0 → Fin S20x64.rank)
  reducesTo_S20x64_S_d0_1 : S20x64.ReducesTo [0, 1] S_
  bcast_S_S1000x1 : S_.BroadcastsInDim S1000x1 (![] : Fin 0 → Fin S1000x1.rank)
  reducesTo_S1000x1_S_d0_1 : S1000x1.ReducesTo [0, 1] S_
  bcast_S_S5000x1 : S_.BroadcastsInDim S5000x1 (![] : Fin 0 → Fin S5000x1.rank)
  reducesTo_S5000x1_S_d0_1 : S5000x1.ReducesTo [0, 1] S_
  bcast_S_S10000x1 : S_.BroadcastsInDim S10000x1 (![] : Fin 0 → Fin S10000x1.rank)
  reducesTo_S10000x1_S_d0_1 : S10000x1.ReducesTo [0, 1] S_
  bcast_S_S100x1 : S_.BroadcastsInDim S100x1 (![] : Fin 0 → Fin S100x1.rank)
  reducesTo_S100x1_S_d0_1 : S100x1.ReducesTo [0, 1] S_
  bcast_S_S50x1 : S_.BroadcastsInDim S50x1 (![] : Fin 0 → Fin S50x1.rank)
  reducesTo_S50x1_S_d0_1 : S50x1.ReducesTo [0, 1] S_
  bcast_S_S20x1 : S_.BroadcastsInDim S20x1 (![] : Fin 0 → Fin S20x1.rank)
  reducesTo_S20x1_S_d0_1 : S20x1.ReducesTo [0, 1] S_
  bcast_S_S748x1024 : S_.BroadcastsInDim S748x1024 (![] : Fin 0 → Fin S748x1024.rank)
  reducesTo_S748x1024_S_d0_1 : S748x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg29 : FVec F S256x1 .f32) (main_arg30 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x1 .f32 := Host.absf main_arg29
  let main_cst_40 : FVec F S_ .f32 := constant S_ .f32 0x7F800000#32
  let main_v105 : FVec F S256x1 .f32 := broadcastInDim S256x1 ![] bcast_S_S256x1 main_cst_40
  let main_v106 : IVec S256x1 1 := cmpf .olt main_v104 main_v105
  let main_c_41 : IVec S_ 1 := constantI S_ 1 1#1
  let main_v107 : IVec S_ 1 := (fun x v => Host.reduce IntOp.andi x v reducesTo_S256x1_S_d0_1 h_S_) main_v106 main_c_41
  let main_v108 : IVec S_ 1 := andi main_v103 main_v107
  let main_v109 : FVec F S1 .f32 := Host.absf main_arg30
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg26 : FVec F S512 .f32) (main_arg27 : FVec F S512x256 .f32) (main_arg28 : FVec F S256 .f32) (main_arg29 : FVec F S256x1 .f32) (main_arg30 : FVec F S1 .f32) (main_v83 : IVec S_ 1) (main_v84 : FVec F S1024x512 .f32) (main_cst_32 : FVec F S_ .f32) : IVec S_ 1 :=
  let main_v85 : FVec F S1024x512 .f32 := broadcastInDim S1024x512 ![] bcast_S_S1024x512 main_cst_32
  let main_v86 : IVec S1024x512 1 := cmpf .olt main_v84 main_v85
  let main_c_33 : IVec S_ 1 := constantI S_ 1 1#1
  let main_v87 : IVec S_ 1 := (fun x v => Host.reduce IntOp.andi x v reducesTo_S1024x512_S_d0_1 h_S_) main_v86 main_c_33
  let main_v88 : IVec S_ 1 := andi main_v83 main_v87
  let main_v89 : FVec F S512 .f32 := Host.absf main_arg26
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x256 .f32 := Host.absf main_arg27
  let main_cst_36 : FVec F S_ .f32 := constant S_ .f32 0x7F800000#32
  let main_v95 : FVec F S512x256 .f32 := broadcastInDim S512x256 ![] bcast_S_S512x256 main_cst_36
  let main_v96 : IVec S512x256 1 := cmpf .olt main_v94 main_v95
  let main_c_37 : IVec S_ 1 := constantI S_ 1 1#1
  let main_v97 : IVec S_ 1 := (fun x v => Host.reduce IntOp.andi x v reducesTo_S512x256_S_d0_1 h_S_) main_v96 main_c_37
  let main_v98 : IVec S_ 1 := andi main_v93 main_v97
  let main_v99 : FVec F S256 .f32 := Host.absf main_arg28
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg29 main_arg30 main_v98 main_v101 main_c_39

def fn_part4 {F : FTy → Type} [FloatOps F] (main_arg22 : FVec F S1000x1 .f32) (main_arg23 : FVec F S748x1024 .f32) (main_arg24 : FVec F S1024 .f32) (main_arg25 : FVec F S1024x512 .f32) (main_arg26 : FVec F S512 .f32) (main_arg27 : FVec F S512x256 .f32) (main_arg28 : FVec F S256 .f32) (main_arg29 : FVec F S256x1 .f32) (main_arg30 : FVec F S1 .f32) (main_v63 : IVec S_ 1) (main_v67 : IVec S_ 1) : IVec S_ 1 :=
  let main_v68 : IVec S_ 1 := andi main_v63 main_v67
  let main_v69 : FVec F S1000x1 .f32 := Host.absf main_arg22
  let main_cst_26 : FVec F S_ .f32 := constant S_ .f32 0x7F800000#32
  let main_v70 : FVec F S1000x1 .f32 := broadcastInDim S1000x1 ![] bcast_S_S1000x1 main_cst_26
  let main_v71 : IVec S1000x1 1 := cmpf .olt main_v69 main_v70
  let main_c_27 : IVec S_ 1 := constantI S_ 1 1#1
  let main_v72 : IVec S_ 1 := (fun x v => Host.reduce IntOp.andi x v reducesTo_S1000x1_S_d0_1 h_S_) main_v71 main_c_27
  let main_v73 : IVec S_ 1 := andi main_v68 main_v72
  let main_v74 : FVec F S748x1024 .f32 := Host.absf main_arg23
  let main_cst_28 : FVec F S_ .f32 := constant S_ .f32 0x7F800000#32
  let main_v75 : FVec F S748x1024 .f32 := broadcastInDim S748x1024 ![] bcast_S_S748x1024 main_cst_28
  let main_v76 : IVec S748x1024 1 := cmpf .olt main_v74 main_v75
  let main_c_29 : IVec S_ 1 := constantI S_ 1 1#1
  let main_v77 : IVec S_ 1 := (fun x v => Host.reduce IntOp.andi x v reducesTo_S748x1024_S_d0_1 h_S_) main_v76 main_c_29
  let main_v78 : IVec S_ 1 := andi main_v73 main_v77
  let main_v79 : FVec F S1024 .f32 := Host.absf main_arg24
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x512 .f32 := Host.absf main_arg25
  let main_cst_32 : FVec F S_ .f32 := constant S_ .f32 0x7F800000#32
  fn_part5 (F := F) main_arg26 main_arg27 main_arg28 main_arg29 main_arg30 main_v83 main_v84 main_cst_32

def fn_part3 {F : FTy → Type} [FloatOps F] (main_arg19 : FVec F S100x1 .f32) (main_arg20 : FVec F S50x1 .f32) (main_arg21 : FVec F S20x1 .f32) (main_arg22 : FVec F S1000x1 .f32) (main_arg23 : FVec F S748x1024 .f32) (main_arg24 : FVec F S1024 .f32) (main_arg25 : FVec F S1024x512 .f32) (main_arg26 : FVec F S512 .f32) (main_arg27 : FVec F S512x256 .f32) (main_arg28 : FVec F S256 .f32) (main_arg29 : FVec F S256x1 .f32) (main_arg30 : FVec F S1 .f32) (main_v48 : IVec S_ 1) (main_v49 : FVec F S10000x1 .f32) (main_v50 : FVec F S10000x1 .f32) : IVec S_ 1 :=
  let main_v51 : IVec S10000x1 1 := cmpf .olt main_v49 main_v50
  let main_c_19 : IVec S_ 1 := constantI S_ 1 1#1
  let main_v52 : IVec S_ 1 := (fun x v => Host.reduce IntOp.andi x v reducesTo_S10000x1_S_d0_1 h_S_) main_v51 main_c_19
  let main_v53 : IVec S_ 1 := andi main_v48 main_v52
  let main_v54 : FVec F S100x1 .f32 := Host.absf main_arg19
  let main_cst_20 : FVec F S_ .f32 := constant S_ .f32 0x7F800000#32
  let main_v55 : FVec F S100x1 .f32 := broadcastInDim S100x1 ![] bcast_S_S100x1 main_cst_20
  let main_v56 : IVec S100x1 1 := cmpf .olt main_v54 main_v55
  let main_c_21 : IVec S_ 1 := constantI S_ 1 1#1
  let main_v57 : IVec S_ 1 := (fun x v => Host.reduce IntOp.andi x v reducesTo_S100x1_S_d0_1 h_S_) main_v56 main_c_21
  let main_v58 : IVec S_ 1 := andi main_v53 main_v57
  let main_v59 : FVec F S50x1 .f32 := Host.absf main_arg20
  let main_cst_22 : FVec F S_ .f32 := constant S_ .f32 0x7F800000#32
  let main_v60 : FVec F S50x1 .f32 := broadcastInDim S50x1 ![] bcast_S_S50x1 main_cst_22
  let main_v61 : IVec S50x1 1 := cmpf .olt main_v59 main_v60
  let main_c_23 : IVec S_ 1 := constantI S_ 1 1#1
  let main_v62 : IVec S_ 1 := (fun x v => Host.reduce IntOp.andi x v reducesTo_S50x1_S_d0_1 h_S_) main_v61 main_c_23
  let main_v63 : IVec S_ 1 := andi main_v58 main_v62
  let main_v64 : FVec F S20x1 .f32 := Host.absf main_arg21
  let main_cst_24 : FVec F S_ .f32 := constant S_ .f32 0x7F800000#32
  let main_v65 : FVec F S20x1 .f32 := broadcastInDim S20x1 ![] bcast_S_S20x1 main_cst_24
  let main_v66 : IVec S20x1 1 := cmpf .olt main_v64 main_v65
  let main_c_25 : IVec S_ 1 := constantI S_ 1 1#1
  let main_v67 : IVec S_ 1 := (fun x v => Host.reduce IntOp.andi x v reducesTo_S20x1_S_d0_1 h_S_) main_v66 main_c_25
  fn_part4 (F := F) main_arg22 main_arg23 main_arg24 main_arg25 main_arg26 main_arg27 main_arg28 main_arg29 main_arg30 main_v63 main_v67

def fn_part2 {F : FTy → Type} [FloatOps F] (main_arg15 : FVec F S1000x64 .f32) (main_arg16 : FVec F S1000x1 .f32) (main_arg17 : FVec F S5000x1 .f32) (main_arg18 : FVec F S10000x1 .f32) (main_arg19 : FVec F S100x1 .f32) (main_arg20 : FVec F S50x1 .f32) (main_arg21 : FVec F S20x1 .f32) (main_arg22 : FVec F S1000x1 .f32) (main_arg23 : FVec F S748x1024 .f32) (main_arg24 : FVec F S1024 .f32) (main_arg25 : FVec F S1024x512 .f32) (main_arg26 : FVec F S512 .f32) (main_arg27 : FVec F S512x256 .f32) (main_arg28 : FVec F S256 .f32) (main_arg29 : FVec F S256x1 .f32) (main_arg30 : FVec F S1 .f32) (main_v33 : IVec S_ 1) : IVec S_ 1 :=
  let main_v34 : FVec F S1000x64 .f32 := Host.absf main_arg15
  let main_cst_12 : FVec F S_ .f32 := constant S_ .f32 0x7F800000#32
  let main_v35 : FVec F S1000x64 .f32 := broadcastInDim S1000x64 ![] bcast_S_S1000x64 main_cst_12
  let main_v36 : IVec S1000x64 1 := cmpf .olt main_v34 main_v35
  let main_c_13 : IVec S_ 1 := constantI S_ 1 1#1
  let main_v37 : IVec S_ 1 := (fun x v => Host.reduce IntOp.andi x v reducesTo_S1000x64_S_d0_1 h_S_) main_v36 main_c_13
  let main_v38 : IVec S_ 1 := andi main_v33 main_v37
  let main_v39 : FVec F S1000x1 .f32 := Host.absf main_arg16
  let main_cst_14 : FVec F S_ .f32 := constant S_ .f32 0x7F800000#32
  let main_v40 : FVec F S1000x1 .f32 := broadcastInDim S1000x1 ![] bcast_S_S1000x1 main_cst_14
  let main_v41 : IVec S1000x1 1 := cmpf .olt main_v39 main_v40
  let main_c_15 : IVec S_ 1 := constantI S_ 1 1#1
  let main_v42 : IVec S_ 1 := (fun x v => Host.reduce IntOp.andi x v reducesTo_S1000x1_S_d0_1 h_S_) main_v41 main_c_15
  let main_v43 : IVec S_ 1 := andi main_v38 main_v42
  let main_v44 : FVec F S5000x1 .f32 := Host.absf main_arg17
  let main_cst_16 : FVec F S_ .f32 := constant S_ .f32 0x7F800000#32
  let main_v45 : FVec F S5000x1 .f32 := broadcastInDim S5000x1 ![] bcast_S_S5000x1 main_cst_16
  let main_v46 : IVec S5000x1 1 := cmpf .olt main_v44 main_v45
  let main_c_17 : IVec S_ 1 := constantI S_ 1 1#1
  let main_v47 : IVec S_ 1 := (fun x v => Host.reduce IntOp.andi x v reducesTo_S5000x1_S_d0_1 h_S_) main_v46 main_c_17
  let main_v48 : IVec S_ 1 := andi main_v43 main_v47
  let main_v49 : FVec F S10000x1 .f32 := Host.absf main_arg18
  let main_cst_18 : FVec F S_ .f32 := constant S_ .f32 0x7F800000#32
  let main_v50 : FVec F S10000x1 .f32 := broadcastInDim S10000x1 ![] bcast_S_S10000x1 main_cst_18
  fn_part3 (F := F) main_arg19 main_arg20 main_arg21 main_arg22 main_arg23 main_arg24 main_arg25 main_arg26 main_arg27 main_arg28 main_arg29 main_arg30 main_v48 main_v49 main_v50

def fn_part1 {F : FTy → Type} [FloatOps F] (main_arg12 : FVec F S100x64 .f32) (main_arg13 : FVec F S50x64 .f32) (main_arg14 : FVec F S20x64 .f32) (main_arg15 : FVec F S1000x64 .f32) (main_arg16 : FVec F S1000x1 .f32) (main_arg17 : FVec F S5000x1 .f32) (main_arg18 : FVec F S10000x1 .f32) (main_arg19 : FVec F S100x1 .f32) (main_arg20 : FVec F S50x1 .f32) (main_arg21 : FVec F S20x1 .f32) (main_arg22 : FVec F S1000x1 .f32) (main_arg23 : FVec F S748x1024 .f32) (main_arg24 : FVec F S1024 .f32) (main_arg25 : FVec F S1024x512 .f32) (main_arg26 : FVec F S512 .f32) (main_arg27 : FVec F S512x256 .f32) (main_arg28 : FVec F S256 .f32) (main_arg29 : FVec F S256x1 .f32) (main_arg30 : FVec F S1 .f32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S100x64 .f32 := Host.absf main_arg12
  let main_cst_6 : FVec F S_ .f32 := constant S_ .f32 0x7F800000#32
  let main_v20 : FVec F S100x64 .f32 := broadcastInDim S100x64 ![] bcast_S_S100x64 main_cst_6
  let main_v21 : IVec S100x64 1 := cmpf .olt main_v19 main_v20
  let main_c_7 : IVec S_ 1 := constantI S_ 1 1#1
  let main_v22 : IVec S_ 1 := (fun x v => Host.reduce IntOp.andi x v reducesTo_S100x64_S_d0_1 h_S_) main_v21 main_c_7
  let main_v23 : IVec S_ 1 := andi main_v18 main_v22
  let main_v24 : FVec F S50x64 .f32 := Host.absf main_arg13
  let main_cst_8 : FVec F S_ .f32 := constant S_ .f32 0x7F800000#32
  let main_v25 : FVec F S50x64 .f32 := broadcastInDim S50x64 ![] bcast_S_S50x64 main_cst_8
  let main_v26 : IVec S50x64 1 := cmpf .olt main_v24 main_v25
  let main_c_9 : IVec S_ 1 := constantI S_ 1 1#1
  let main_v27 : IVec S_ 1 := (fun x v => Host.reduce IntOp.andi x v reducesTo_S50x64_S_d0_1 h_S_) main_v26 main_c_9
  let main_v28 : IVec S_ 1 := andi main_v23 main_v27
  let main_v29 : FVec F S20x64 .f32 := Host.absf main_arg14
  let main_cst_10 : FVec F S_ .f32 := constant S_ .f32 0x7F800000#32
  let main_v30 : FVec F S20x64 .f32 := broadcastInDim S20x64 ![] bcast_S_S20x64 main_cst_10
  let main_v31 : IVec S20x64 1 := cmpf .olt main_v29 main_v30
  let main_c_11 : IVec S_ 1 := constantI S_ 1 1#1
  let main_v32 : IVec S_ 1 := (fun x v => Host.reduce IntOp.andi x v reducesTo_S20x64_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : IVec S8192x32 32) (main_arg1 : IVec S8192x20 32) (main_arg2 : IVec S8192x20 32) (main_arg3 : IVec S8192x20 32) (main_arg4 : IVec S8192 32) (main_arg5 : IVec S8192 32) (main_arg6 : IVec S8192 32) (main_arg7 : IVec S8192 32) (main_arg8 : FVec F S50000x300 .f32) (main_arg9 : FVec F S1000x64 .f32) (main_arg10 : FVec F S5000x64 .f32) (main_arg11 : FVec F S10000x64 .f32) (main_arg12 : FVec F S100x64 .f32) (main_arg13 : FVec F S50x64 .f32) (main_arg14 : FVec F S20x64 .f32) (main_arg15 : FVec F S1000x64 .f32) (main_arg16 : FVec F S1000x1 .f32) (main_arg17 : FVec F S5000x1 .f32) (main_arg18 : FVec F S10000x1 .f32) (main_arg19 : FVec F S100x1 .f32) (main_arg20 : FVec F S50x1 .f32) (main_arg21 : FVec F S20x1 .f32) (main_arg22 : FVec F S1000x1 .f32) (main_arg23 : FVec F S748x1024 .f32) (main_arg24 : FVec F S1024 .f32) (main_arg25 : FVec F S1024x512 .f32) (main_arg26 : FVec F S512 .f32) (main_arg27 : FVec F S512x256 .f32) (main_arg28 : FVec F S256 .f32) (main_arg29 : FVec F S256x1 .f32) (main_arg30 : FVec F S1 .f32) : IVec S_ 1 :=
  let main_v0 : FVec F S50000x300 .f32 := Host.absf main_arg8
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S1000x64 .f32 := Host.absf main_arg9
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S5000x64 .f32 := Host.absf main_arg10
  let main_cst_2 : FVec F S_ .f32 := constant S_ .f32 0x7F800000#32
  let main_v10 : FVec F S5000x64 .f32 := broadcastInDim S5000x64 ![] bcast_S_S5000x64 main_cst_2
  let main_v11 : IVec S5000x64 1 := cmpf .olt main_v9 main_v10
  let main_c_3 : IVec S_ 1 := constantI S_ 1 1#1
  let main_v12 : IVec S_ 1 := (fun x v => Host.reduce IntOp.andi x v reducesTo_S5000x64_S_d0_1 h_S_) main_v11 main_c_3
  let main_v13 : IVec S_ 1 := andi main_v8 main_v12
  let main_v14 : FVec F S10000x64 .f32 := Host.absf main_arg11
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S8192x32 : Shape := ⟨2, ![8192, 32]⟩
abbrev S8192x20 : Shape := ⟨2, ![8192, 20]⟩
abbrev S8192 : Shape := ⟨1, ![8192]⟩
abbrev S50000x300 : Shape := ⟨2, ![50000, 300]⟩
abbrev S1000x64 : Shape := ⟨2, ![1000, 64]⟩
abbrev S5000x64 : Shape := ⟨2, ![5000, 64]⟩
abbrev S10000x64 : Shape := ⟨2, ![10000, 64]⟩
abbrev S100x64 : Shape := ⟨2, ![100, 64]⟩
abbrev S50x64 : Shape := ⟨2, ![50, 64]⟩
abbrev S20x64 : Shape := ⟨2, ![20, 64]⟩
abbrev S1000x1 : Shape := ⟨2, ![1000, 1]⟩
abbrev S5000x1 : Shape := ⟨2, ![5000, 1]⟩
abbrev S10000x1 : Shape := ⟨2, ![10000, 1]⟩
abbrev S100x1 : Shape := ⟨2, ![100, 1]⟩
abbrev S50x1 : Shape := ⟨2, ![50, 1]⟩
abbrev S20x1 : Shape := ⟨2, ![20, 1]⟩
abbrev S748x1024 : Shape := ⟨2, ![748, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S8192x300 : Shape := ⟨2, ![8192, 300]⟩
abbrev S8192x1 : Shape := ⟨2, ![8192, 1]⟩
abbrev S1000x65 : Shape := ⟨2, ![1000, 65]⟩
abbrev S8192x65 : Shape := ⟨2, ![8192, 65]⟩
abbrev S8192x64 : Shape := ⟨2, ![8192, 64]⟩
abbrev S5000x65 : Shape := ⟨2, ![5000, 65]⟩
abbrev S10000x65 : Shape := ⟨2, ![10000, 65]⟩
abbrev S100x65 : Shape := ⟨2, ![100, 65]⟩
abbrev S50x65 : Shape := ⟨2, ![50, 65]⟩
abbrev S20x65 : Shape := ⟨2, ![20, 65]⟩
abbrev S300x1024 : Shape := ⟨2, ![300, 1024]⟩
abbrev S64x1024 : Shape := ⟨2, ![64, 1024]⟩
abbrev S1x1024 : Shape := ⟨2, ![1, 1024]⟩
abbrev S1x512 : Shape := ⟨2, ![1, 512]⟩
abbrev S1x256 : Shape := ⟨2, ![1, 256]⟩
abbrev S1x1 : Shape := ⟨2, ![1, 1]⟩
abbrev S1024x300 : Shape := ⟨2, ![1024, 300]⟩
abbrev S1024x64 : Shape := ⟨2, ![1024, 64]⟩
abbrev S1024x1 : Shape := ⟨2, ![1024, 1]⟩
abbrev S1024x1024 : Shape := ⟨2, ![1024, 1024]⟩
abbrev S1024x256 : Shape := ⟨2, ![1024, 256]⟩

abbrev nBuf : Space → Nat
  | .hbm => 1250
  | .vmem => 36
  | .smem => 0
  | _ => 0

abbrev hbmTy0_0 (i : Nat) : BufTy := match i % 128 with
  | 0 => ⟨S8192x32, .i32⟩
  | 1 => ⟨S8192x20, .i32⟩
  | 2 => ⟨S8192x20, .i32⟩
  | 3 => ⟨S8192x20, .i32⟩
  | 4 => ⟨S8192, .i32⟩
  | 5 => ⟨S8192, .i32⟩
  | 6 => ⟨S8192, .i32⟩
  | 7 => ⟨S8192, .i32⟩
  | 8 => ⟨S50000x300, .f32⟩
  | 9 => ⟨S1000x64, .f32⟩
  | 10 => ⟨S5000x64, .f32⟩
  | 11 => ⟨S10000x64, .f32⟩
  | 12 => ⟨S100x64, .f32⟩
  | 13 => ⟨S50x64, .f32⟩
  | 14 => ⟨S20x64, .f32⟩
  | 15 => ⟨S1000x64, .f32⟩
  | 16 => ⟨S1000x1, .f32⟩
  | 17 => ⟨S5000x1, .f32⟩
  | 18 => ⟨S10000x1, .f32⟩
  | 19 => ⟨S100x1, .f32⟩
  | 20 => ⟨S50x1, .f32⟩
  | 21 => ⟨S20x1, .f32⟩
  | 22 => ⟨S1000x1, .f32⟩
  | 23 => ⟨S748x1024, .f32⟩
  | 24 => ⟨S1024, .f32⟩
  | 25 => ⟨S1024x512, .f32⟩
  | 26 => ⟨S512, .f32⟩
  | 27 => ⟨S512x256, .f32⟩
  | 28 => ⟨S256, .f32⟩
  | 29 => ⟨S256x1, .f32⟩
  | 30 => ⟨S1, .f32⟩
  | 31 => ⟨S_, .f32⟩
  | 32 => ⟨S8192x300, .f32⟩
  | 33 => ⟨S8192x1, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192x300, .f32⟩
  | 44 => ⟨S8192x300, .f32⟩
  | 45 => ⟨S8192x1, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x300, .f32⟩
  | 56 => ⟨S8192x300, .f32⟩
  | 57 => ⟨S8192x1, .i32⟩
  | 58 => ⟨S8192, .i32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S8192x300, .f32⟩
  | 68 => ⟨S8192x300, .f32⟩
  | 69 => ⟨S8192x1, .i32⟩
  | 70 => ⟨S8192, .i32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S8192x1, .i32⟩
  | 79 => ⟨S8192x300, .f32⟩
  | 80 => ⟨S8192x300, .f32⟩
  | 81 => ⟨S8192x1, .i32⟩
  | 82 => ⟨S8192, .i32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x300, .f32⟩
  | 92 => ⟨S8192x300, .f32⟩
  | 93 => ⟨S8192x1, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x300, .f32⟩
  | 104 => ⟨S8192x300, .f32⟩
  | 105 => ⟨S8192x1, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x300, .f32⟩
  | 116 => ⟨S8192x300, .f32⟩
  | 117 => ⟨S8192x1, .i32⟩
  | 118 => ⟨S8192, .i32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x300, .f32⟩
  | _ => ⟨S8192x32, .i32⟩

abbrev hbmTy0_1 (i : Nat) : BufTy := match i % 128 with
  | 0 => ⟨S8192x300, .f32⟩
  | 1 => ⟨S8192x1, .i32⟩
  | 2 => ⟨S8192, .i32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x300, .f32⟩
  | 12 => ⟨S8192x300, .f32⟩
  | 13 => ⟨S8192x1, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x300, .f32⟩
  | 24 => ⟨S8192x300, .f32⟩
  | 25 => ⟨S8192x1, .i32⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x300, .f32⟩
  | 36 => ⟨S8192x300, .f32⟩
  | 37 => ⟨S8192x1, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x300, .f32⟩
  | 48 => ⟨S8192x300, .f32⟩
  | 49 => ⟨S8192x1, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S8192x300, .f32⟩
  | 60 => ⟨S8192x300, .f32⟩
  | 61 => ⟨S8192x1, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x300, .f32⟩
  | 72 => ⟨S8192x300, .f32⟩
  | 73 => ⟨S8192x1, .i32⟩
  | 74 => ⟨S8192, .i32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S8192x300, .f32⟩
  | 84 => ⟨S8192x300, .f32⟩
  | 85 => ⟨S8192x1, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x300, .f32⟩
  | 96 => ⟨S8192x300, .f32⟩
  | 97 => ⟨S8192x1, .i32⟩
  | 98 => ⟨S8192, .i32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S8192x300, .f32⟩
  | 108 => ⟨S8192x300, .f32⟩
  | 109 => ⟨S8192x1, .i32⟩
  | 110 => ⟨S8192, .i32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x300, .f32⟩
  | 120 => ⟨S8192x300, .f32⟩
  | 121 => ⟨S8192x1, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S8192x32, .i32⟩

abbrev hbmTy0_2 (i : Nat) : BufTy := match i % 128 with
  | 0 => ⟨S8192, .i32⟩
  | 1 => ⟨S8192, .i32⟩
  | 2 => ⟨S8192x1, .i32⟩
  | 3 => ⟨S8192x300, .f32⟩
  | 4 => ⟨S8192x300, .f32⟩
  | 5 => ⟨S8192x1, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x300, .f32⟩
  | 16 => ⟨S8192x300, .f32⟩
  | 17 => ⟨S8192x1, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x300, .f32⟩
  | 28 => ⟨S8192x300, .f32⟩
  | 29 => ⟨S8192x1, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x300, .f32⟩
  | 40 => ⟨S8192x300, .f32⟩
  | 41 => ⟨S8192x1, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x300, .f32⟩
  | 52 => ⟨S8192x300, .f32⟩
  | 53 => ⟨S8192x1, .i32⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x300, .f32⟩
  | 64 => ⟨S8192x300, .f32⟩
  | 65 => ⟨S8192x1, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x300, .f32⟩
  | 76 => ⟨S8192x300, .f32⟩
  | 77 => ⟨S8192x1, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x300, .f32⟩
  | 88 => ⟨S8192x300, .f32⟩
  | 89 => ⟨S8192x1, .i32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S8192x300, .f32⟩
  | 100 => ⟨S8192x300, .f32⟩
  | 101 => ⟨S8192x1, .i32⟩
  | 102 => ⟨S8192, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x300, .f32⟩
  | 112 => ⟨S8192x300, .f32⟩
  | 113 => ⟨S8192x1, .i32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x300, .f32⟩
  | 124 => ⟨S8192x300, .f32⟩
  | 125 => ⟨S8192x1, .i32⟩
  | 126 => ⟨S8192, .i32⟩
  | 127 => ⟨S_, .i32⟩
  | _ => ⟨S8192x32, .i32⟩

abbrev hbmTy0_3 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x300, .f32⟩
  | 8 => ⟨S8192x300, .f32⟩
  | 9 => ⟨S8192x1, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x300, .f32⟩
  | 20 => ⟨S8192x300, .f32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x300, .f32⟩
  | 32 => ⟨S8192x300, .f32⟩
  | 33 => ⟨S_, .f32⟩
  | 34 => ⟨S8192x300, .f32⟩
  | 35 => ⟨S8192x300, .f32⟩
  | 36 => ⟨S1000x65, .f32⟩
  | 37 => ⟨S_, .f32⟩
  | 38 => ⟨S8192x65, .f32⟩
  | 39 => ⟨S8192x1, .i32⟩
  | 40 => ⟨S8192, .i32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S8192x1, .i32⟩
  | 49 => ⟨S8192x65, .f32⟩
  | 50 => ⟨S8192x65, .f32⟩
  | 51 => ⟨S8192x1, .i32⟩
  | 52 => ⟨S8192, .i32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x65, .f32⟩
  | 62 => ⟨S8192x65, .f32⟩
  | 63 => ⟨S8192x1, .i32⟩
  | 64 => ⟨S8192, .i32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x65, .f32⟩
  | 74 => ⟨S8192x65, .f32⟩
  | 75 => ⟨S8192x1, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x65, .f32⟩
  | 86 => ⟨S8192x65, .f32⟩
  | 87 => ⟨S8192x1, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x65, .f32⟩
  | 98 => ⟨S8192x65, .f32⟩
  | 99 => ⟨S8192x1, .i32⟩
  | 100 => ⟨S8192, .i32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x65, .f32⟩
  | 110 => ⟨S8192x65, .f32⟩
  | 111 => ⟨S8192x1, .i32⟩
  | 112 => ⟨S8192, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x65, .f32⟩
  | 122 => ⟨S8192x65, .f32⟩
  | 123 => ⟨S8192x1, .i32⟩
  | 124 => ⟨S8192, .i32⟩
  | 125 => ⟨S_, .i32⟩
  | 126 => ⟨S8192, .i32⟩
  | 127 => ⟨S8192, .i1⟩
  | _ => ⟨S8192x32, .i32⟩

abbrev hbmTy0_4 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S8192x65, .f32⟩
  | 6 => ⟨S8192x65, .f32⟩
  | 7 => ⟨S8192x1, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x65, .f32⟩
  | 18 => ⟨S8192x65, .f32⟩
  | 19 => ⟨S8192x1, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x65, .f32⟩
  | 30 => ⟨S8192x65, .f32⟩
  | 31 => ⟨S8192x1, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192x65, .f32⟩
  | 42 => ⟨S8192x65, .f32⟩
  | 43 => ⟨S8192x1, .i32⟩
  | 44 => ⟨S8192, .i32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x65, .f32⟩
  | 54 => ⟨S8192x65, .f32⟩
  | 55 => ⟨S8192x1, .i32⟩
  | 56 => ⟨S8192, .i32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x65, .f32⟩
  | 66 => ⟨S8192x65, .f32⟩
  | 67 => ⟨S8192x1, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x65, .f32⟩
  | 78 => ⟨S8192x65, .f32⟩
  | 79 => ⟨S8192x1, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x65, .f32⟩
  | 90 => ⟨S8192x65, .f32⟩
  | 91 => ⟨S8192x1, .i32⟩
  | 92 => ⟨S8192, .i32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S8192x65, .f32⟩
  | 102 => ⟨S8192x65, .f32⟩
  | 103 => ⟨S8192x1, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x65, .f32⟩
  | 114 => ⟨S8192x65, .f32⟩
  | 115 => ⟨S8192x1, .i32⟩
  | 116 => ⟨S8192, .i32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x65, .f32⟩
  | 126 => ⟨S8192x65, .f32⟩
  | 127 => ⟨S8192x1, .i32⟩
  | _ => ⟨S8192x32, .i32⟩

abbrev hbmTy0_5 (i : Nat) : BufTy := match i % 128 with
  | 0 => ⟨S8192, .i32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S8192x65, .f32⟩
  | 10 => ⟨S8192x65, .f32⟩
  | 11 => ⟨S8192x1, .i32⟩
  | 12 => ⟨S8192, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x65, .f32⟩
  | 22 => ⟨S8192x65, .f32⟩
  | 23 => ⟨S8192x64, .f32⟩
  | 24 => ⟨S_, .f32⟩
  | 25 => ⟨S8192x64, .f32⟩
  | 26 => ⟨S8192x64, .f32⟩
  | 27 => ⟨S8192x1, .f32⟩
  | 28 => ⟨S8192, .f32⟩
  | 29 => ⟨S5000x65, .f32⟩
  | 30 => ⟨S_, .f32⟩
  | 31 => ⟨S8192x65, .f32⟩
  | 32 => ⟨S8192x1, .i32⟩
  | 33 => ⟨S8192, .i32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x65, .f32⟩
  | 43 => ⟨S8192x65, .f32⟩
  | 44 => ⟨S8192x1, .i32⟩
  | 45 => ⟨S8192, .i32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x65, .f32⟩
  | 55 => ⟨S8192x65, .f32⟩
  | 56 => ⟨S8192x1, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x65, .f32⟩
  | 67 => ⟨S8192x65, .f32⟩
  | 68 => ⟨S8192x1, .i32⟩
  | 69 => ⟨S8192, .i32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x65, .f32⟩
  | 79 => ⟨S8192x65, .f32⟩
  | 80 => ⟨S8192x1, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x65, .f32⟩
  | 91 => ⟨S8192x65, .f32⟩
  | 92 => ⟨S8192x1, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x65, .f32⟩
  | 103 => ⟨S8192x65, .f32⟩
  | 104 => ⟨S8192x1, .i32⟩
  | 105 => ⟨S8192, .i32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x65, .f32⟩
  | 115 => ⟨S8192x65, .f32⟩
  | 116 => ⟨S8192x1, .i32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x65, .f32⟩
  | 127 => ⟨S8192x65, .f32⟩
  | _ => ⟨S8192x32, .i32⟩

abbrev hbmTy0_6 (i : Nat) : BufTy := match i % 128 with
  | 0 => ⟨S8192x1, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x65, .f32⟩
  | 11 => ⟨S8192x65, .f32⟩
  | 12 => ⟨S8192x1, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x65, .f32⟩
  | 23 => ⟨S8192x65, .f32⟩
  | 24 => ⟨S8192x1, .i32⟩
  | 25 => ⟨S8192, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x65, .f32⟩
  | 35 => ⟨S8192x65, .f32⟩
  | 36 => ⟨S8192x1, .i32⟩
  | 37 => ⟨S8192, .i32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x65, .f32⟩
  | 47 => ⟨S8192x65, .f32⟩
  | 48 => ⟨S8192x1, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x65, .f32⟩
  | 59 => ⟨S8192x65, .f32⟩
  | 60 => ⟨S8192x1, .i32⟩
  | 61 => ⟨S8192, .i32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x65, .f32⟩
  | 71 => ⟨S8192x65, .f32⟩
  | 72 => ⟨S8192x1, .i32⟩
  | 73 => ⟨S8192, .i32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x65, .f32⟩
  | 83 => ⟨S8192x65, .f32⟩
  | 84 => ⟨S8192x1, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x65, .f32⟩
  | 95 => ⟨S8192x65, .f32⟩
  | 96 => ⟨S8192x1, .i32⟩
  | 97 => ⟨S8192, .i32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x65, .f32⟩
  | 107 => ⟨S8192x65, .f32⟩
  | 108 => ⟨S8192x1, .i32⟩
  | 109 => ⟨S8192, .i32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S8192x65, .f32⟩
  | 119 => ⟨S8192x65, .f32⟩
  | 120 => ⟨S8192x1, .i32⟩
  | 121 => ⟨S8192, .i32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x32, .i32⟩

abbrev hbmTy0_7 (i : Nat) : BufTy := match i % 128 with
  | 0 => ⟨S8192, .i32⟩
  | 1 => ⟨S8192x1, .i32⟩
  | 2 => ⟨S8192x65, .f32⟩
  | 3 => ⟨S8192x65, .f32⟩
  | 4 => ⟨S8192x1, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x65, .f32⟩
  | 15 => ⟨S8192x65, .f32⟩
  | 16 => ⟨S8192x64, .f32⟩
  | 17 => ⟨S_, .f32⟩
  | 18 => ⟨S8192x64, .f32⟩
  | 19 => ⟨S8192x64, .f32⟩
  | 20 => ⟨S8192x1, .f32⟩
  | 21 => ⟨S8192, .f32⟩
  | 22 => ⟨S10000x65, .f32⟩
  | 23 => ⟨S_, .f32⟩
  | 24 => ⟨S8192x65, .f32⟩
  | 25 => ⟨S8192x1, .i32⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x65, .f32⟩
  | 36 => ⟨S8192x65, .f32⟩
  | 37 => ⟨S8192x1, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x65, .f32⟩
  | 48 => ⟨S8192x65, .f32⟩
  | 49 => ⟨S8192x1, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S8192x65, .f32⟩
  | 60 => ⟨S8192x65, .f32⟩
  | 61 => ⟨S8192x1, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x65, .f32⟩
  | 72 => ⟨S8192x65, .f32⟩
  | 73 => ⟨S8192x1, .i32⟩
  | 74 => ⟨S8192, .i32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S8192x65, .f32⟩
  | 84 => ⟨S8192x65, .f32⟩
  | 85 => ⟨S8192x1, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x65, .f32⟩
  | 96 => ⟨S8192x65, .f32⟩
  | 97 => ⟨S8192x1, .i32⟩
  | 98 => ⟨S8192, .i32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S8192x65, .f32⟩
  | 108 => ⟨S8192x65, .f32⟩
  | 109 => ⟨S8192x1, .i32⟩
  | 110 => ⟨S8192, .i32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x65, .f32⟩
  | 120 => ⟨S8192x65, .f32⟩
  | 121 => ⟨S8192x1, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S8192x32, .i32⟩

abbrev hbmTy0_8 (i : Nat) : BufTy := match i % 128 with
  | 0 => ⟨S8192, .i32⟩
  | 1 => ⟨S8192, .i32⟩
  | 2 => ⟨S8192x1, .i32⟩
  | 3 => ⟨S8192x65, .f32⟩
  | 4 => ⟨S8192x65, .f32⟩
  | 5 => ⟨S8192x1, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x65, .f32⟩
  | 16 => ⟨S8192x65, .f32⟩
  | 17 => ⟨S8192x1, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x65, .f32⟩
  | 28 => ⟨S8192x65, .f32⟩
  | 29 => ⟨S8192x1, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x65, .f32⟩
  | 40 => ⟨S8192x65, .f32⟩
  | 41 => ⟨S8192x1, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x65, .f32⟩
  | 52 => ⟨S8192x65, .f32⟩
  | 53 => ⟨S8192x1, .i32⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x65, .f32⟩
  | 64 => ⟨S8192x65, .f32⟩
  | 65 => ⟨S8192x1, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x65, .f32⟩
  | 76 => ⟨S8192x65, .f32⟩
  | 77 => ⟨S8192x1, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x65, .f32⟩
  | 88 => ⟨S8192x65, .f32⟩
  | 89 => ⟨S8192x1, .i32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S8192x65, .f32⟩
  | 100 => ⟨S8192x65, .f32⟩
  | 101 => ⟨S8192x1, .i32⟩
  | 102 => ⟨S8192, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x65, .f32⟩
  | 112 => ⟨S8192x65, .f32⟩
  | 113 => ⟨S8192x1, .i32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x65, .f32⟩
  | 124 => ⟨S8192x65, .f32⟩
  | 125 => ⟨S8192x1, .i32⟩
  | 126 => ⟨S8192, .i32⟩
  | 127 => ⟨S_, .i32⟩
  | _ => ⟨S8192x32, .i32⟩

abbrev hbmTy0_9 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x65, .f32⟩
  | 8 => ⟨S8192x65, .f32⟩
  | 9 => ⟨S8192x64, .f32⟩
  | 10 => ⟨S_, .f32⟩
  | 11 => ⟨S8192x64, .f32⟩
  | 12 => ⟨S8192x64, .f32⟩
  | 13 => ⟨S8192x1, .f32⟩
  | 14 => ⟨S8192, .f32⟩
  | 15 => ⟨S100x65, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x65, .f32⟩
  | 25 => ⟨S8192x64, .f32⟩
  | 26 => ⟨S8192x1, .f32⟩
  | 27 => ⟨S8192, .f32⟩
  | 28 => ⟨S50x65, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x65, .f32⟩
  | 38 => ⟨S8192x64, .f32⟩
  | 39 => ⟨S8192x1, .f32⟩
  | 40 => ⟨S8192, .f32⟩
  | 41 => ⟨S20x65, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x65, .f32⟩
  | 51 => ⟨S8192x64, .f32⟩
  | 52 => ⟨S8192x1, .f32⟩
  | 53 => ⟨S8192, .f32⟩
  | 54 => ⟨S1000x65, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x65, .f32⟩
  | 64 => ⟨S8192x64, .f32⟩
  | 65 => ⟨S8192x1, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192x1, .f32⟩
  | 74 => ⟨S300x1024, .f32⟩
  | 75 => ⟨S300x1024, .bf16⟩
  | 76 => ⟨S64x1024, .f32⟩
  | 77 => ⟨S64x1024, .bf16⟩
  | 78 => ⟨S64x1024, .f32⟩
  | 79 => ⟨S64x1024, .bf16⟩
  | 80 => ⟨S64x1024, .f32⟩
  | 81 => ⟨S64x1024, .bf16⟩
  | 82 => ⟨S64x1024, .f32⟩
  | 83 => ⟨S64x1024, .bf16⟩
  | 84 => ⟨S64x1024, .f32⟩
  | 85 => ⟨S64x1024, .bf16⟩
  | 86 => ⟨S64x1024, .f32⟩
  | 87 => ⟨S64x1024, .bf16⟩
  | 88 => ⟨S64x1024, .f32⟩
  | 89 => ⟨S64x1024, .bf16⟩
  | 90 => ⟨S1024x512, .bf16⟩
  | 91 => ⟨S512x256, .bf16⟩
  | 92 => ⟨S256x1, .bf16⟩
  | 93 => ⟨S1x1024, .f32⟩
  | 94 => ⟨S1x512, .f32⟩
  | 95 => ⟨S1x256, .f32⟩
  | 96 => ⟨S1x1, .f32⟩
  | 97 => ⟨S8192x1, .f32⟩
  | _ => ⟨S8192x32, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S8192x32, .i32⟩

abbrev bufTy : (tb : Table) → Fin (tcTables nBuf tb) → BufTy
  | .hbm, ⟨i, _⟩ => hbmTy i
  | .local _ .vmem, ⟨0, _⟩ => ⟨S1024x300, .f32⟩
  | .local _ .vmem, ⟨1, _⟩ => ⟨S1024x300, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x1, .f32⟩
  | .local _ .vmem, ⟨17, _⟩ => ⟨S1024x1, .f32⟩
  | .local _ .vmem, ⟨18, _⟩ => ⟨S300x1024, .bf16⟩
  | .local _ .vmem, ⟨19, _⟩ => ⟨S64x1024, .bf16⟩
  | .local _ .vmem, ⟨20, _⟩ => ⟨S64x1024, .bf16⟩
  | .local _ .vmem, ⟨21, _⟩ => ⟨S64x1024, .bf16⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S64x1024, .bf16⟩
  | .local _ .vmem, ⟨26, _⟩ => ⟨S1x1024, .f32⟩
  | .local _ .vmem, ⟨27, _⟩ => ⟨S1024x512, .bf16⟩
  | .local _ .vmem, ⟨28, _⟩ => ⟨S1x512, .f32⟩
  | .local _ .vmem, ⟨29, _⟩ => ⟨S512x256, .bf16⟩
  | .local _ .vmem, ⟨30, _⟩ => ⟨S1x256, .f32⟩
  | .local _ .vmem, ⟨31, _⟩ => ⟨S256x1, .bf16⟩
  | .local _ .vmem, ⟨32, _⟩ => ⟨S1x1, .f32⟩
  | .local _ .vmem, ⟨33, _⟩ => ⟨S1024x1, .f32⟩
  | .local _ .vmem, ⟨34, _⟩ => ⟨S1024x1, .f32⟩
  | .local _ .vmem, ⟨35, _⟩ => ⟨S1024x1024, .f32⟩
  | _, _ => ⟨S8192x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_cst : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_c : Ref sig .tc := ⟨.hbm, 35, rfl⟩
abbrev main_v3 : Ref sig .tc := ⟨.hbm, 36, rfl⟩
abbrev main_v4 : Ref sig .tc := ⟨.hbm, 37, rfl⟩
abbrev main_c_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_1 : Ref sig .tc := ⟨.hbm, 47, rfl⟩
abbrev main_v13 : Ref sig .tc := ⟨.hbm, 48, rfl⟩
abbrev main_v14 : Ref sig .tc := ⟨.hbm, 49, rfl⟩
abbrev main_c_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_3 : Ref sig .tc := ⟨.hbm, 59, rfl⟩
abbrev main_v23 : Ref sig .tc := ⟨.hbm, 60, rfl⟩
abbrev main_v24 : Ref sig .tc := ⟨.hbm, 61, rfl⟩
abbrev main_c_4 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_5 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_7 : Ref sig .tc := ⟨.hbm, 83, rfl⟩
abbrev main_v43 : Ref sig .tc := ⟨.hbm, 84, rfl⟩
abbrev main_v44 : Ref sig .tc := ⟨.hbm, 85, rfl⟩
abbrev main_c_8 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_c_9 : Ref sig .tc := ⟨.hbm, 95, rfl⟩
abbrev main_v53 : Ref sig .tc := ⟨.hbm, 96, rfl⟩
abbrev main_v54 : Ref sig .tc := ⟨.hbm, 97, rfl⟩
abbrev main_c_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_11 : Ref sig .tc := ⟨.hbm, 107, rfl⟩
abbrev main_v63 : Ref sig .tc := ⟨.hbm, 108, rfl⟩
abbrev main_v64 : Ref sig .tc := ⟨.hbm, 109, rfl⟩
abbrev main_c_12 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_13 : Ref sig .tc := ⟨.hbm, 119, rfl⟩
abbrev main_v73 : Ref sig .tc := ⟨.hbm, 120, rfl⟩
abbrev main_v74 : Ref sig .tc := ⟨.hbm, 121, rfl⟩
abbrev main_c_14 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_15 : Ref sig .tc := ⟨.hbm, 131, rfl⟩
abbrev main_v83 : Ref sig .tc := ⟨.hbm, 132, rfl⟩
abbrev main_v84 : Ref sig .tc := ⟨.hbm, 133, rfl⟩
abbrev main_c_16 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_c_17 : Ref sig .tc := ⟨.hbm, 143, rfl⟩
abbrev main_v93 : Ref sig .tc := ⟨.hbm, 144, rfl⟩
abbrev main_v94 : Ref sig .tc := ⟨.hbm, 145, rfl⟩
abbrev main_c_18 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_19 : Ref sig .tc := ⟨.hbm, 155, rfl⟩
abbrev main_v103 : Ref sig .tc := ⟨.hbm, 156, rfl⟩
abbrev main_v104 : Ref sig .tc := ⟨.hbm, 157, rfl⟩
abbrev main_c_20 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_21 : Ref sig .tc := ⟨.hbm, 167, rfl⟩
abbrev main_v113 : Ref sig .tc := ⟨.hbm, 168, rfl⟩
abbrev main_v114 : Ref sig .tc := ⟨.hbm, 169, rfl⟩
abbrev main_c_22 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_c_23 : Ref sig .tc := ⟨.hbm, 179, rfl⟩
abbrev main_v123 : Ref sig .tc := ⟨.hbm, 180, rfl⟩
abbrev main_v124 : Ref sig .tc := ⟨.hbm, 181, rfl⟩
abbrev main_c_24 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_c_25 : Ref sig .tc := ⟨.hbm, 191, rfl⟩
abbrev main_v133 : Ref sig .tc := ⟨.hbm, 192, rfl⟩
abbrev main_v134 : Ref sig .tc := ⟨.hbm, 193, rfl⟩
abbrev main_c_26 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_c_27 : Ref sig .tc := ⟨.hbm, 203, rfl⟩
abbrev main_v143 : Ref sig .tc := ⟨.hbm, 204, rfl⟩
abbrev main_v144 : Ref sig .tc := ⟨.hbm, 205, rfl⟩
abbrev main_c_28 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_c_29 : Ref sig .tc := ⟨.hbm, 215, rfl⟩
abbrev main_v153 : Ref sig .tc := ⟨.hbm, 216, rfl⟩
abbrev main_v154 : Ref sig .tc := ⟨.hbm, 217, rfl⟩
abbrev main_c_30 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_c_31 : Ref sig .tc := ⟨.hbm, 227, rfl⟩
abbrev main_v163 : Ref sig .tc := ⟨.hbm, 228, rfl⟩
abbrev main_v164 : Ref sig .tc := ⟨.hbm, 229, rfl⟩
abbrev main_c_32 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_c_33 : Ref sig .tc := ⟨.hbm, 239, rfl⟩
abbrev main_v173 : Ref sig .tc := ⟨.hbm, 240, rfl⟩
abbrev main_v174 : Ref sig .tc := ⟨.hbm, 241, rfl⟩
abbrev main_c_34 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_c_35 : Ref sig .tc := ⟨.hbm, 251, rfl⟩
abbrev main_v183 : Ref sig .tc := ⟨.hbm, 252, rfl⟩
abbrev main_v184 : Ref sig .tc := ⟨.hbm, 253, rfl⟩
abbrev main_c_36 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_c_37 : Ref sig .tc := ⟨.hbm, 263, rfl⟩
abbrev main_v193 : Ref sig .tc := ⟨.hbm, 264, rfl⟩
abbrev main_v194 : Ref sig .tc := ⟨.hbm, 265, rfl⟩
abbrev main_c_38 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_c_39 : Ref sig .tc := ⟨.hbm, 275, rfl⟩
abbrev main_v203 : Ref sig .tc := ⟨.hbm, 276, rfl⟩
abbrev main_v204 : Ref sig .tc := ⟨.hbm, 277, rfl⟩
abbrev main_c_40 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_c_41 : Ref sig .tc := ⟨.hbm, 287, rfl⟩
abbrev main_v213 : Ref sig .tc := ⟨.hbm, 288, rfl⟩
abbrev main_v214 : Ref sig .tc := ⟨.hbm, 289, rfl⟩
abbrev main_c_42 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_c_43 : Ref sig .tc := ⟨.hbm, 299, rfl⟩
abbrev main_v223 : Ref sig .tc := ⟨.hbm, 300, rfl⟩
abbrev main_v224 : Ref sig .tc := ⟨.hbm, 301, rfl⟩
abbrev main_c_44 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_c_45 : Ref sig .tc := ⟨.hbm, 311, rfl⟩
abbrev main_v233 : Ref sig .tc := ⟨.hbm, 312, rfl⟩
abbrev main_v234 : Ref sig .tc := ⟨.hbm, 313, rfl⟩
abbrev main_c_46 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_c_47 : Ref sig .tc := ⟨.hbm, 323, rfl⟩
abbrev main_v243 : Ref sig .tc := ⟨.hbm, 324, rfl⟩
abbrev main_v244 : Ref sig .tc := ⟨.hbm, 325, rfl⟩
abbrev main_c_48 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_c_49 : Ref sig .tc := ⟨.hbm, 335, rfl⟩
abbrev main_v253 : Ref sig .tc := ⟨.hbm, 336, rfl⟩
abbrev main_v254 : Ref sig .tc := ⟨.hbm, 337, rfl⟩
abbrev main_c_50 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_c_51 : Ref sig .tc := ⟨.hbm, 347, rfl⟩
abbrev main_v263 : Ref sig .tc := ⟨.hbm, 348, rfl⟩
abbrev main_v264 : Ref sig .tc := ⟨.hbm, 349, rfl⟩
abbrev main_c_52 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_c_53 : Ref sig .tc := ⟨.hbm, 359, rfl⟩
abbrev main_v273 : Ref sig .tc := ⟨.hbm, 360, rfl⟩
abbrev main_v274 : Ref sig .tc := ⟨.hbm, 361, rfl⟩
abbrev main_c_54 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_c_55 : Ref sig .tc := ⟨.hbm, 371, rfl⟩
abbrev main_v283 : Ref sig .tc := ⟨.hbm, 372, rfl⟩
abbrev main_v284 : Ref sig .tc := ⟨.hbm, 373, rfl⟩
abbrev main_c_56 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_c_57 : Ref sig .tc := ⟨.hbm, 383, rfl⟩
abbrev main_v293 : Ref sig .tc := ⟨.hbm, 384, rfl⟩
abbrev main_v294 : Ref sig .tc := ⟨.hbm, 385, rfl⟩
abbrev main_c_58 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_c_59 : Ref sig .tc := ⟨.hbm, 395, rfl⟩
abbrev main_v303 : Ref sig .tc := ⟨.hbm, 396, rfl⟩
abbrev main_v304 : Ref sig .tc := ⟨.hbm, 397, rfl⟩
abbrev main_c_60 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_c_61 : Ref sig .tc := ⟨.hbm, 407, rfl⟩
abbrev main_v313 : Ref sig .tc := ⟨.hbm, 408, rfl⟩
abbrev main_v314 : Ref sig .tc := ⟨.hbm, 409, rfl⟩
abbrev main_c_62 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_cst_63 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_cst_64 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_c_65 : Ref sig .tc := ⟨.hbm, 425, rfl⟩
abbrev main_v327 : Ref sig .tc := ⟨.hbm, 426, rfl⟩
abbrev main_v328 : Ref sig .tc := ⟨.hbm, 427, rfl⟩
abbrev main_c_66 : Ref sig .tc := ⟨.hbm, 428, rfl⟩
abbrev main_v329 : Ref sig .tc := ⟨.hbm, 429, rfl⟩
abbrev main_v330 : Ref sig .tc := ⟨.hbm, 430, rfl⟩
abbrev main_v331 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_v336 : Ref sig .tc := ⟨.hbm, 436, rfl⟩
abbrev main_c_67 : Ref sig .tc := ⟨.hbm, 437, rfl⟩
abbrev main_v337 : Ref sig .tc := ⟨.hbm, 438, rfl⟩
abbrev main_v338 : Ref sig .tc := ⟨.hbm, 439, rfl⟩
abbrev main_c_68 : Ref sig .tc := ⟨.hbm, 440, rfl⟩
abbrev main_v339 : Ref sig .tc := ⟨.hbm, 441, rfl⟩
abbrev main_v340 : Ref sig .tc := ⟨.hbm, 442, rfl⟩
abbrev main_v341 : Ref sig .tc := ⟨.hbm, 443, rfl⟩
abbrev main_v342 : Ref sig .tc := ⟨.hbm, 444, rfl⟩
abbrev main_v343 : Ref sig .tc := ⟨.hbm, 445, rfl⟩
abbrev main_v344 : Ref sig .tc := ⟨.hbm, 446, rfl⟩
abbrev main_v345 : Ref sig .tc := ⟨.hbm, 447, rfl⟩
abbrev main_v346 : Ref sig .tc := ⟨.hbm, 448, rfl⟩
abbrev main_c_69 : Ref sig .tc := ⟨.hbm, 449, rfl⟩
abbrev main_v347 : Ref sig .tc := ⟨.hbm, 450, rfl⟩
abbrev main_v348 : Ref sig .tc := ⟨.hbm, 451, rfl⟩
abbrev main_c_70 : Ref sig .tc := ⟨.hbm, 452, rfl⟩
abbrev main_v349 : Ref sig .tc := ⟨.hbm, 453, rfl⟩
abbrev main_v350 : Ref sig .tc := ⟨.hbm, 454, rfl⟩
abbrev main_v351 : Ref sig .tc := ⟨.hbm, 455, rfl⟩
abbrev main_v352 : Ref sig .tc := ⟨.hbm, 456, rfl⟩
abbrev main_v353 : Ref sig .tc := ⟨.hbm, 457, rfl⟩
abbrev main_v354 : Ref sig .tc := ⟨.hbm, 458, rfl⟩
abbrev main_v355 : Ref sig .tc := ⟨.hbm, 459, rfl⟩
abbrev main_v356 : Ref sig .tc := ⟨.hbm, 460, rfl⟩
abbrev main_c_71 : Ref sig .tc := ⟨.hbm, 461, rfl⟩
abbrev main_v357 : Ref sig .tc := ⟨.hbm, 462, rfl⟩
abbrev main_v358 : Ref sig .tc := ⟨.hbm, 463, rfl⟩
abbrev main_c_72 : Ref sig .tc := ⟨.hbm, 464, rfl⟩
abbrev main_v359 : Ref sig .tc := ⟨.hbm, 465, rfl⟩
abbrev main_v360 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_v366 : Ref sig .tc := ⟨.hbm, 472, rfl⟩
abbrev main_c_73 : Ref sig .tc := ⟨.hbm, 473, rfl⟩
abbrev main_v367 : Ref sig .tc := ⟨.hbm, 474, rfl⟩
abbrev main_v368 : Ref sig .tc := ⟨.hbm, 475, rfl⟩
abbrev main_c_74 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_v373 : Ref sig .tc := ⟨.hbm, 481, rfl⟩
abbrev main_v374 : Ref sig .tc := ⟨.hbm, 482, rfl⟩
abbrev main_v375 : Ref sig .tc := ⟨.hbm, 483, rfl⟩
abbrev main_v376 : Ref sig .tc := ⟨.hbm, 484, rfl⟩
abbrev main_c_75 : Ref sig .tc := ⟨.hbm, 485, rfl⟩
abbrev main_v377 : Ref sig .tc := ⟨.hbm, 486, rfl⟩
abbrev main_v378 : Ref sig .tc := ⟨.hbm, 487, rfl⟩
abbrev main_c_76 : Ref sig .tc := ⟨.hbm, 488, rfl⟩
abbrev main_v379 : Ref sig .tc := ⟨.hbm, 489, rfl⟩
abbrev main_v380 : Ref sig .tc := ⟨.hbm, 490, rfl⟩
abbrev main_v381 : Ref sig .tc := ⟨.hbm, 491, rfl⟩
abbrev main_v382 : Ref sig .tc := ⟨.hbm, 492, rfl⟩
abbrev main_v383 : Ref sig .tc := ⟨.hbm, 493, rfl⟩
abbrev main_v384 : Ref sig .tc := ⟨.hbm, 494, rfl⟩
abbrev main_v385 : Ref sig .tc := ⟨.hbm, 495, rfl⟩
abbrev main_v386 : Ref sig .tc := ⟨.hbm, 496, rfl⟩
abbrev main_c_77 : Ref sig .tc := ⟨.hbm, 497, rfl⟩
abbrev main_v387 : Ref sig .tc := ⟨.hbm, 498, rfl⟩
abbrev main_v388 : Ref sig .tc := ⟨.hbm, 499, rfl⟩
abbrev main_c_78 : Ref sig .tc := ⟨.hbm, 500, rfl⟩
abbrev main_v389 : Ref sig .tc := ⟨.hbm, 501, rfl⟩
abbrev main_v390 : Ref sig .tc := ⟨.hbm, 502, rfl⟩
abbrev main_v391 : Ref sig .tc := ⟨.hbm, 503, rfl⟩
abbrev main_v392 : Ref sig .tc := ⟨.hbm, 504, rfl⟩
abbrev main_v393 : Ref sig .tc := ⟨.hbm, 505, rfl⟩
abbrev main_v394 : Ref sig .tc := ⟨.hbm, 506, rfl⟩
abbrev main_v395 : Ref sig .tc := ⟨.hbm, 507, rfl⟩
abbrev main_v396 : Ref sig .tc := ⟨.hbm, 508, rfl⟩
abbrev main_c_79 : Ref sig .tc := ⟨.hbm, 509, rfl⟩
abbrev main_v397 : Ref sig .tc := ⟨.hbm, 510, rfl⟩
abbrev main_v398 : Ref sig .tc := ⟨.hbm, 511, rfl⟩
abbrev main_c_80 : Ref sig .tc := ⟨.hbm, 512, rfl⟩
abbrev main_v399 : Ref sig .tc := ⟨.hbm, 513, rfl⟩
abbrev main_v400 : Ref sig .tc := ⟨.hbm, 514, rfl⟩
abbrev main_v401 : Ref sig .tc := ⟨.hbm, 515, rfl⟩
abbrev main_v402 : Ref sig .tc := ⟨.hbm, 516, rfl⟩
abbrev main_v403 : Ref sig .tc := ⟨.hbm, 517, rfl⟩
abbrev main_v404 : Ref sig .tc := ⟨.hbm, 518, rfl⟩
abbrev main_v405 : Ref sig .tc := ⟨.hbm, 519, rfl⟩
abbrev main_v406 : Ref sig .tc := ⟨.hbm, 520, rfl⟩
abbrev main_c_81 : Ref sig .tc := ⟨.hbm, 521, rfl⟩
abbrev main_v407 : Ref sig .tc := ⟨.hbm, 522, rfl⟩
abbrev main_v408 : Ref sig .tc := ⟨.hbm, 523, rfl⟩
abbrev main_c_82 : Ref sig .tc := ⟨.hbm, 524, rfl⟩
abbrev main_v409 : Ref sig .tc := ⟨.hbm, 525, rfl⟩
abbrev main_v410 : Ref sig .tc := ⟨.hbm, 526, rfl⟩
abbrev main_v411 : Ref sig .tc := ⟨.hbm, 527, rfl⟩
abbrev main_v412 : Ref sig .tc := ⟨.hbm, 528, rfl⟩
abbrev main_v413 : Ref sig .tc := ⟨.hbm, 529, rfl⟩
abbrev main_v414 : Ref sig .tc := ⟨.hbm, 530, rfl⟩
abbrev main_v415 : Ref sig .tc := ⟨.hbm, 531, rfl⟩
abbrev main_v416 : Ref sig .tc := ⟨.hbm, 532, rfl⟩
abbrev main_c_83 : Ref sig .tc := ⟨.hbm, 533, rfl⟩
abbrev main_v417 : Ref sig .tc := ⟨.hbm, 534, rfl⟩
abbrev main_v418 : Ref sig .tc := ⟨.hbm, 535, rfl⟩
abbrev main_c_84 : Ref sig .tc := ⟨.hbm, 536, rfl⟩
abbrev main_v419 : Ref sig .tc := ⟨.hbm, 537, rfl⟩
abbrev main_v420 : Ref sig .tc := ⟨.hbm, 538, rfl⟩
abbrev main_v421 : Ref sig .tc := ⟨.hbm, 539, rfl⟩
abbrev main_v422 : Ref sig .tc := ⟨.hbm, 540, rfl⟩
abbrev main_v423 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_c_85 : Ref sig .tc := ⟨.hbm, 545, rfl⟩
abbrev main_v427 : Ref sig .tc := ⟨.hbm, 546, rfl⟩
abbrev main_v428 : Ref sig .tc := ⟨.hbm, 547, rfl⟩
abbrev main_c_86 : Ref sig .tc := ⟨.hbm, 548, rfl⟩
abbrev main_v429 : Ref sig .tc := ⟨.hbm, 549, rfl⟩
abbrev main_v430 : Ref sig .tc := ⟨.hbm, 550, rfl⟩
abbrev main_v431 : Ref sig .tc := ⟨.hbm, 551, rfl⟩
abbrev main_v432 : Ref sig .tc := ⟨.hbm, 552, rfl⟩
abbrev main_v433 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_c_87 : Ref sig .tc := ⟨.hbm, 557, rfl⟩
abbrev main_v437 : Ref sig .tc := ⟨.hbm, 558, rfl⟩
abbrev main_v438 : Ref sig .tc := ⟨.hbm, 559, rfl⟩
abbrev main_c_88 : Ref sig .tc := ⟨.hbm, 560, rfl⟩
abbrev main_v439 : Ref sig .tc := ⟨.hbm, 561, rfl⟩
abbrev main_v440 : Ref sig .tc := ⟨.hbm, 562, rfl⟩
abbrev main_v441 : Ref sig .tc := ⟨.hbm, 563, rfl⟩
abbrev main_v442 : Ref sig .tc := ⟨.hbm, 564, rfl⟩
abbrev main_v443 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_c_89 : Ref sig .tc := ⟨.hbm, 569, rfl⟩
abbrev main_v447 : Ref sig .tc := ⟨.hbm, 570, rfl⟩
abbrev main_v448 : Ref sig .tc := ⟨.hbm, 571, rfl⟩
abbrev main_c_90 : Ref sig .tc := ⟨.hbm, 572, rfl⟩
abbrev main_v449 : Ref sig .tc := ⟨.hbm, 573, rfl⟩
abbrev main_v450 : Ref sig .tc := ⟨.hbm, 574, rfl⟩
abbrev main_v451 : Ref sig .tc := ⟨.hbm, 575, rfl⟩
abbrev main_v452 : Ref sig .tc := ⟨.hbm, 576, rfl⟩
abbrev main_v453 : Ref sig .tc := ⟨.hbm, 577, rfl⟩
abbrev main_v454 : Ref sig .tc := ⟨.hbm, 578, rfl⟩
abbrev main_v455 : Ref sig .tc := ⟨.hbm, 579, rfl⟩
abbrev main_v456 : Ref sig .tc := ⟨.hbm, 580, rfl⟩
abbrev main_c_91 : Ref sig .tc := ⟨.hbm, 581, rfl⟩
abbrev main_v457 : Ref sig .tc := ⟨.hbm, 582, rfl⟩
abbrev main_v458 : Ref sig .tc := ⟨.hbm, 583, rfl⟩
abbrev main_c_92 : Ref sig .tc := ⟨.hbm, 584, rfl⟩
abbrev main_v459 : Ref sig .tc := ⟨.hbm, 585, rfl⟩
abbrev main_v460 : Ref sig .tc := ⟨.hbm, 586, rfl⟩
abbrev main_v461 : Ref sig .tc := ⟨.hbm, 587, rfl⟩
abbrev main_v462 : Ref sig .tc := ⟨.hbm, 588, rfl⟩
abbrev main_v463 : Ref sig .tc := ⟨.hbm, 589, rfl⟩
abbrev main_v464 : Ref sig .tc := ⟨.hbm, 590, rfl⟩
abbrev main_v465 : Ref sig .tc := ⟨.hbm, 591, rfl⟩
abbrev main_v466 : Ref sig .tc := ⟨.hbm, 592, rfl⟩
abbrev main_c_93 : Ref sig .tc := ⟨.hbm, 593, rfl⟩
abbrev main_v467 : Ref sig .tc := ⟨.hbm, 594, rfl⟩
abbrev main_v468 : Ref sig .tc := ⟨.hbm, 595, rfl⟩
abbrev main_c_94 : Ref sig .tc := ⟨.hbm, 596, rfl⟩
abbrev main_v469 : Ref sig .tc := ⟨.hbm, 597, rfl⟩
abbrev main_v470 : Ref sig .tc := ⟨.hbm, 598, rfl⟩
abbrev main_v471 : Ref sig .tc := ⟨.hbm, 599, rfl⟩
abbrev main_v472 : Ref sig .tc := ⟨.hbm, 600, rfl⟩
abbrev main_v473 : Ref sig .tc := ⟨.hbm, 601, rfl⟩
abbrev main_v474 : Ref sig .tc := ⟨.hbm, 602, rfl⟩
abbrev main_v475 : Ref sig .tc := ⟨.hbm, 603, rfl⟩
abbrev main_v476 : Ref sig .tc := ⟨.hbm, 604, rfl⟩
abbrev main_c_95 : Ref sig .tc := ⟨.hbm, 605, rfl⟩
abbrev main_v477 : Ref sig .tc := ⟨.hbm, 606, rfl⟩
abbrev main_v478 : Ref sig .tc := ⟨.hbm, 607, rfl⟩
abbrev main_c_96 : Ref sig .tc := ⟨.hbm, 608, rfl⟩
abbrev main_v479 : Ref sig .tc := ⟨.hbm, 609, rfl⟩
abbrev main_v480 : Ref sig .tc := ⟨.hbm, 610, rfl⟩
abbrev main_v481 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_v485 : Ref sig .tc := ⟨.hbm, 615, rfl⟩
abbrev main_v486 : Ref sig .tc := ⟨.hbm, 616, rfl⟩
abbrev main_c_97 : Ref sig .tc := ⟨.hbm, 617, rfl⟩
abbrev main_v487 : Ref sig .tc := ⟨.hbm, 618, rfl⟩
abbrev main_v488 : Ref sig .tc := ⟨.hbm, 619, rfl⟩
abbrev main_c_98 : Ref sig .tc := ⟨.hbm, 620, rfl⟩
abbrev main_v489 : Ref sig .tc := ⟨.hbm, 621, rfl⟩
abbrev main_v490 : Ref sig .tc := ⟨.hbm, 622, rfl⟩
abbrev main_v491 : Ref sig .tc := ⟨.hbm, 623, rfl⟩
abbrev main_v492 : Ref sig .tc := ⟨.hbm, 624, rfl⟩
abbrev main_v493 : Ref sig .tc := ⟨.hbm, 625, rfl⟩
abbrev main_v494 : Ref sig .tc := ⟨.hbm, 626, rfl⟩
abbrev main_v495 : Ref sig .tc := ⟨.hbm, 627, rfl⟩
abbrev main_v496 : Ref sig .tc := ⟨.hbm, 628, rfl⟩
abbrev main_c_99 : Ref sig .tc := ⟨.hbm, 629, rfl⟩
abbrev main_v497 : Ref sig .tc := ⟨.hbm, 630, rfl⟩
abbrev main_v498 : Ref sig .tc := ⟨.hbm, 631, rfl⟩
abbrev main_c_100 : Ref sig .tc := ⟨.hbm, 632, rfl⟩
abbrev main_v499 : Ref sig .tc := ⟨.hbm, 633, rfl⟩
abbrev main_v500 : Ref sig .tc := ⟨.hbm, 634, rfl⟩
abbrev main_v501 : Ref sig .tc := ⟨.hbm, 635, rfl⟩
abbrev main_v502 : Ref sig .tc := ⟨.hbm, 636, rfl⟩
abbrev main_v503 : Ref sig .tc := ⟨.hbm, 637, rfl⟩
abbrev main_v504 : Ref sig .tc := ⟨.hbm, 638, rfl⟩
abbrev main_v505 : Ref sig .tc := ⟨.hbm, 639, rfl⟩
abbrev main_v506 : Ref sig .tc := ⟨.hbm, 640, rfl⟩
abbrev main_c_101 : Ref sig .tc := ⟨.hbm, 641, rfl⟩
abbrev main_v507 : Ref sig .tc := ⟨.hbm, 642, rfl⟩
abbrev main_v508 : Ref sig .tc := ⟨.hbm, 643, rfl⟩
abbrev main_c_102 : Ref sig .tc := ⟨.hbm, 644, rfl⟩
abbrev main_v509 : Ref sig .tc := ⟨.hbm, 645, rfl⟩
abbrev main_v510 : Ref sig .tc := ⟨.hbm, 646, rfl⟩
abbrev main_v511 : Ref sig .tc := ⟨.hbm, 647, rfl⟩
abbrev main_v512 : Ref sig .tc := ⟨.hbm, 648, rfl⟩
abbrev main_v513 : Ref sig .tc := ⟨.hbm, 649, rfl⟩
abbrev main_v514 : Ref sig .tc := ⟨.hbm, 650, rfl⟩
abbrev main_v515 : Ref sig .tc := ⟨.hbm, 651, rfl⟩
abbrev main_v516 : Ref sig .tc := ⟨.hbm, 652, rfl⟩
abbrev main_c_103 : Ref sig .tc := ⟨.hbm, 653, rfl⟩
abbrev main_v517 : Ref sig .tc := ⟨.hbm, 654, rfl⟩
abbrev main_v518 : Ref sig .tc := ⟨.hbm, 655, rfl⟩
abbrev main_c_104 : Ref sig .tc := ⟨.hbm, 656, rfl⟩
abbrev main_v519 : Ref sig .tc := ⟨.hbm, 657, rfl⟩
abbrev main_v520 : Ref sig .tc := ⟨.hbm, 658, rfl⟩
abbrev main_v521 : Ref sig .tc := ⟨.hbm, 659, rfl⟩
abbrev main_v522 : Ref sig .tc := ⟨.hbm, 660, rfl⟩
abbrev main_v523 : Ref sig .tc := ⟨.hbm, 661, rfl⟩
abbrev main_v524 : Ref sig .tc := ⟨.hbm, 662, rfl⟩
abbrev main_v525 : Ref sig .tc := ⟨.hbm, 663, rfl⟩
abbrev main_cst_105 : Ref sig .tc := ⟨.hbm, 664, rfl⟩
abbrev main_v526 : Ref sig .tc := ⟨.hbm, 665, rfl⟩
abbrev main_v527 : Ref sig .tc := ⟨.hbm, 666, rfl⟩
abbrev main_v528 : Ref sig .tc := ⟨.hbm, 667, rfl⟩
abbrev main_v529 : Ref sig .tc := ⟨.hbm, 668, rfl⟩
abbrev main_v530 : Ref sig .tc := ⟨.hbm, 669, rfl⟩
abbrev main_cst_106 : Ref sig .tc := ⟨.hbm, 670, rfl⟩
abbrev main_v531 : Ref sig .tc := ⟨.hbm, 671, rfl⟩
abbrev main_v532 : Ref sig .tc := ⟨.hbm, 672, rfl⟩
abbrev main_v533 : Ref sig .tc := ⟨.hbm, 673, rfl⟩
abbrev main_c_107 : Ref sig .tc := ⟨.hbm, 674, rfl⟩
abbrev main_v534 : Ref sig .tc := ⟨.hbm, 675, rfl⟩
abbrev main_v535 : Ref sig .tc := ⟨.hbm, 676, rfl⟩
abbrev main_c_108 : Ref sig .tc := ⟨.hbm, 677, rfl⟩
abbrev main_v536 : Ref sig .tc := ⟨.hbm, 678, rfl⟩
abbrev main_v537 : Ref sig .tc := ⟨.hbm, 679, rfl⟩
abbrev main_v538 : Ref sig .tc := ⟨.hbm, 680, rfl⟩
abbrev main_v539 : Ref sig .tc := ⟨.hbm, 681, rfl⟩
abbrev main_v540 : Ref sig .tc := ⟨.hbm, 682, rfl⟩
abbrev main_v541 : Ref sig .tc := ⟨.hbm, 683, rfl⟩
abbrev main_v542 : Ref sig .tc := ⟨.hbm, 684, rfl⟩
abbrev main_v543 : Ref sig .tc := ⟨.hbm, 685, rfl⟩
abbrev main_c_109 : Ref sig .tc := ⟨.hbm, 686, rfl⟩
abbrev main_v544 : Ref sig .tc := ⟨.hbm, 687, rfl⟩
abbrev main_v545 : Ref sig .tc := ⟨.hbm, 688, rfl⟩
abbrev main_c_110 : Ref sig .tc := ⟨.hbm, 689, rfl⟩
abbrev main_v546 : Ref sig .tc := ⟨.hbm, 690, rfl⟩
abbrev main_v547 : Ref sig .tc := ⟨.hbm, 691, rfl⟩
abbrev main_v548 : Ref sig .tc := ⟨.hbm, 692, rfl⟩
abbrev main_v549 : Ref sig .tc := ⟨.hbm, 693, rfl⟩
abbrev main_v550 : Ref sig .tc := ⟨.hbm, 694, rfl⟩
abbrev main_v551 : Ref sig .tc := ⟨.hbm, 695, rfl⟩
abbrev main_v552 : Ref sig .tc := ⟨.hbm, 696, rfl⟩
abbrev main_v553 : Ref sig .tc := ⟨.hbm, 697, rfl⟩
abbrev main_c_111 : Ref sig .tc := ⟨.hbm, 698, rfl⟩
abbrev main_v554 : Ref sig .tc := ⟨.hbm, 699, rfl⟩
abbrev main_v555 : Ref sig .tc := ⟨.hbm, 700, rfl⟩
abbrev main_c_112 : Ref sig .tc := ⟨.hbm, 701, rfl⟩
abbrev main_v556 : Ref sig .tc := ⟨.hbm, 702, rfl⟩
abbrev main_v557 : Ref sig .tc := ⟨.hbm, 703, rfl⟩
abbrev main_v558 : Ref sig .tc := ⟨.hbm, 704, rfl⟩
abbrev main_v559 : Ref sig .tc := ⟨.hbm, 705, rfl⟩
abbrev main_v560 : Ref sig .tc := ⟨.hbm, 706, rfl⟩
abbrev main_v561 : Ref sig .tc := ⟨.hbm, 707, rfl⟩
abbrev main_v562 : Ref sig .tc := ⟨.hbm, 708, rfl⟩
abbrev main_v563 : Ref sig .tc := ⟨.hbm, 709, rfl⟩
abbrev main_c_113 : Ref sig .tc := ⟨.hbm, 710, rfl⟩
abbrev main_v564 : Ref sig .tc := ⟨.hbm, 711, rfl⟩
abbrev main_v565 : Ref sig .tc := ⟨.hbm, 712, rfl⟩
abbrev main_c_114 : Ref sig .tc := ⟨.hbm, 713, rfl⟩
abbrev main_v566 : Ref sig .tc := ⟨.hbm, 714, rfl⟩
abbrev main_v567 : Ref sig .tc := ⟨.hbm, 715, rfl⟩
abbrev main_v568 : Ref sig .tc := ⟨.hbm, 716, rfl⟩
abbrev main_v569 : Ref sig .tc := ⟨.hbm, 717, rfl⟩
abbrev main_v570 : Ref sig .tc := ⟨.hbm, 718, rfl⟩
abbrev main_v571 : Ref sig .tc := ⟨.hbm, 719, rfl⟩
abbrev main_v572 : Ref sig .tc := ⟨.hbm, 720, rfl⟩
abbrev main_v573 : Ref sig .tc := ⟨.hbm, 721, rfl⟩
abbrev main_c_115 : Ref sig .tc := ⟨.hbm, 722, rfl⟩
abbrev main_v574 : Ref sig .tc := ⟨.hbm, 723, rfl⟩
abbrev main_v575 : Ref sig .tc := ⟨.hbm, 724, rfl⟩
abbrev main_c_116 : Ref sig .tc := ⟨.hbm, 725, rfl⟩
abbrev main_v576 : Ref sig .tc := ⟨.hbm, 726, rfl⟩
abbrev main_v577 : Ref sig .tc := ⟨.hbm, 727, rfl⟩
abbrev main_v578 : Ref sig .tc := ⟨.hbm, 728, rfl⟩
abbrev main_v579 : Ref sig .tc := ⟨.hbm, 729, rfl⟩
abbrev main_v580 : Ref sig .tc := ⟨.hbm, 730, rfl⟩
abbrev main_v581 : Ref sig .tc := ⟨.hbm, 731, rfl⟩
abbrev main_v582 : Ref sig .tc := ⟨.hbm, 732, rfl⟩
abbrev main_v583 : Ref sig .tc := ⟨.hbm, 733, rfl⟩
abbrev main_c_117 : Ref sig .tc := ⟨.hbm, 734, rfl⟩
abbrev main_v584 : Ref sig .tc := ⟨.hbm, 735, rfl⟩
abbrev main_v585 : Ref sig .tc := ⟨.hbm, 736, rfl⟩
abbrev main_c_118 : Ref sig .tc := ⟨.hbm, 737, rfl⟩
abbrev main_v586 : Ref sig .tc := ⟨.hbm, 738, rfl⟩
abbrev main_v587 : Ref sig .tc := ⟨.hbm, 739, rfl⟩
abbrev main_v588 : Ref sig .tc := ⟨.hbm, 740, rfl⟩
abbrev main_v589 : Ref sig .tc := ⟨.hbm, 741, rfl⟩
abbrev main_v590 : Ref sig .tc := ⟨.hbm, 742, rfl⟩
abbrev main_v591 : Ref sig .tc := ⟨.hbm, 743, rfl⟩
abbrev main_v592 : Ref sig .tc := ⟨.hbm, 744, rfl⟩
abbrev main_v593 : Ref sig .tc := ⟨.hbm, 745, rfl⟩
abbrev main_c_119 : Ref sig .tc := ⟨.hbm, 746, rfl⟩
abbrev main_v594 : Ref sig .tc := ⟨.hbm, 747, rfl⟩
abbrev main_v595 : Ref sig .tc := ⟨.hbm, 748, rfl⟩
abbrev main_c_120 : Ref sig .tc := ⟨.hbm, 749, rfl⟩
abbrev main_v596 : Ref sig .tc := ⟨.hbm, 750, rfl⟩
abbrev main_v597 : Ref sig .tc := ⟨.hbm, 751, rfl⟩
abbrev main_v598 : Ref sig .tc := ⟨.hbm, 752, rfl⟩
abbrev main_v599 : Ref sig .tc := ⟨.hbm, 753, rfl⟩
abbrev main_v600 : Ref sig .tc := ⟨.hbm, 754, rfl⟩
abbrev main_v601 : Ref sig .tc := ⟨.hbm, 755, rfl⟩
abbrev main_v602 : Ref sig .tc := ⟨.hbm, 756, rfl⟩
abbrev main_v603 : Ref sig .tc := ⟨.hbm, 757, rfl⟩
abbrev main_c_121 : Ref sig .tc := ⟨.hbm, 758, rfl⟩
abbrev main_v604 : Ref sig .tc := ⟨.hbm, 759, rfl⟩
abbrev main_v605 : Ref sig .tc := ⟨.hbm, 760, rfl⟩
abbrev main_c_122 : Ref sig .tc := ⟨.hbm, 761, rfl⟩
abbrev main_v606 : Ref sig .tc := ⟨.hbm, 762, rfl⟩
abbrev main_v607 : Ref sig .tc := ⟨.hbm, 763, rfl⟩
abbrev main_v608 : Ref sig .tc := ⟨.hbm, 764, rfl⟩
abbrev main_v609 : Ref sig .tc := ⟨.hbm, 765, rfl⟩
abbrev main_v610 : Ref sig .tc := ⟨.hbm, 766, rfl⟩
abbrev main_v611 : Ref sig .tc := ⟨.hbm, 767, rfl⟩
abbrev main_v612 : Ref sig .tc := ⟨.hbm, 768, rfl⟩
abbrev main_v613 : Ref sig .tc := ⟨.hbm, 769, rfl⟩
abbrev main_c_123 : Ref sig .tc := ⟨.hbm, 770, rfl⟩
abbrev main_v614 : Ref sig .tc := ⟨.hbm, 771, rfl⟩
abbrev main_v615 : Ref sig .tc := ⟨.hbm, 772, rfl⟩
abbrev main_c_124 : Ref sig .tc := ⟨.hbm, 773, rfl⟩
abbrev main_v616 : Ref sig .tc := ⟨.hbm, 774, rfl⟩
abbrev main_v617 : Ref sig .tc := ⟨.hbm, 775, rfl⟩
abbrev main_v618 : Ref sig .tc := ⟨.hbm, 776, rfl⟩
abbrev main_v619 : Ref sig .tc := ⟨.hbm, 777, rfl⟩
abbrev main_v620 : Ref sig .tc := ⟨.hbm, 778, rfl⟩
abbrev main_v621 : Ref sig .tc := ⟨.hbm, 779, rfl⟩
abbrev main_v622 : Ref sig .tc := ⟨.hbm, 780, rfl⟩
abbrev main_v623 : Ref sig .tc := ⟨.hbm, 781, rfl⟩
abbrev main_c_125 : Ref sig .tc := ⟨.hbm, 782, rfl⟩
abbrev main_v624 : Ref sig .tc := ⟨.hbm, 783, rfl⟩
abbrev main_v625 : Ref sig .tc := ⟨.hbm, 784, rfl⟩
abbrev main_c_126 : Ref sig .tc := ⟨.hbm, 785, rfl⟩
abbrev main_v626 : Ref sig .tc := ⟨.hbm, 786, rfl⟩
abbrev main_v627 : Ref sig .tc := ⟨.hbm, 787, rfl⟩
abbrev main_v628 : Ref sig .tc := ⟨.hbm, 788, rfl⟩
abbrev main_v629 : Ref sig .tc := ⟨.hbm, 789, rfl⟩
abbrev main_v630 : Ref sig .tc := ⟨.hbm, 790, rfl⟩
abbrev main_v631 : Ref sig .tc := ⟨.hbm, 791, rfl⟩
abbrev main_v632 : Ref sig .tc := ⟨.hbm, 792, rfl⟩
abbrev main_v633 : Ref sig .tc := ⟨.hbm, 793, rfl⟩
abbrev main_c_127 : Ref sig .tc := ⟨.hbm, 794, rfl⟩
abbrev main_v634 : Ref sig .tc := ⟨.hbm, 795, rfl⟩
abbrev main_v635 : Ref sig .tc := ⟨.hbm, 796, rfl⟩
abbrev main_c_128 : Ref sig .tc := ⟨.hbm, 797, rfl⟩
abbrev main_v636 : Ref sig .tc := ⟨.hbm, 798, rfl⟩
abbrev main_v637 : Ref sig .tc := ⟨.hbm, 799, rfl⟩
abbrev main_v638 : Ref sig .tc := ⟨.hbm, 800, rfl⟩
abbrev main_v639 : Ref sig .tc := ⟨.hbm, 801, rfl⟩
abbrev main_v640 : Ref sig .tc := ⟨.hbm, 802, rfl⟩
abbrev main_v641 : Ref sig .tc := ⟨.hbm, 803, rfl⟩
abbrev main_v642 : Ref sig .tc := ⟨.hbm, 804, rfl⟩
abbrev main_v643 : Ref sig .tc := ⟨.hbm, 805, rfl⟩
abbrev main_c_129 : Ref sig .tc := ⟨.hbm, 806, rfl⟩
abbrev main_v644 : Ref sig .tc := ⟨.hbm, 807, rfl⟩
abbrev main_v645 : Ref sig .tc := ⟨.hbm, 808, rfl⟩
abbrev main_c_130 : Ref sig .tc := ⟨.hbm, 809, rfl⟩
abbrev main_v646 : Ref sig .tc := ⟨.hbm, 810, rfl⟩
abbrev main_v647 : Ref sig .tc := ⟨.hbm, 811, rfl⟩
abbrev main_v648 : Ref sig .tc := ⟨.hbm, 812, rfl⟩
abbrev main_v649 : Ref sig .tc := ⟨.hbm, 813, rfl⟩
abbrev main_v650 : Ref sig .tc := ⟨.hbm, 814, rfl⟩
abbrev main_v651 : Ref sig .tc := ⟨.hbm, 815, rfl⟩
abbrev main_v652 : Ref sig .tc := ⟨.hbm, 816, rfl⟩
abbrev main_v653 : Ref sig .tc := ⟨.hbm, 817, rfl⟩
abbrev main_c_131 : Ref sig .tc := ⟨.hbm, 818, rfl⟩
abbrev main_v654 : Ref sig .tc := ⟨.hbm, 819, rfl⟩
abbrev main_v655 : Ref sig .tc := ⟨.hbm, 820, rfl⟩
abbrev main_c_132 : Ref sig .tc := ⟨.hbm, 821, rfl⟩
abbrev main_v656 : Ref sig .tc := ⟨.hbm, 822, rfl⟩
abbrev main_v657 : Ref sig .tc := ⟨.hbm, 823, rfl⟩
abbrev main_v658 : Ref sig .tc := ⟨.hbm, 824, rfl⟩
abbrev main_v659 : Ref sig .tc := ⟨.hbm, 825, rfl⟩
abbrev main_v660 : Ref sig .tc := ⟨.hbm, 826, rfl⟩
abbrev main_v661 : Ref sig .tc := ⟨.hbm, 827, rfl⟩
abbrev main_v662 : Ref sig .tc := ⟨.hbm, 828, rfl⟩
abbrev main_v663 : Ref sig .tc := ⟨.hbm, 829, rfl⟩
abbrev main_c_133 : Ref sig .tc := ⟨.hbm, 830, rfl⟩
abbrev main_v664 : Ref sig .tc := ⟨.hbm, 831, rfl⟩
abbrev main_v665 : Ref sig .tc := ⟨.hbm, 832, rfl⟩
abbrev main_c_134 : Ref sig .tc := ⟨.hbm, 833, rfl⟩
abbrev main_v666 : Ref sig .tc := ⟨.hbm, 834, rfl⟩
abbrev main_v667 : Ref sig .tc := ⟨.hbm, 835, rfl⟩
abbrev main_v668 : Ref sig .tc := ⟨.hbm, 836, rfl⟩
abbrev main_v669 : Ref sig .tc := ⟨.hbm, 837, rfl⟩
abbrev main_v670 : Ref sig .tc := ⟨.hbm, 838, rfl⟩
abbrev main_v671 : Ref sig .tc := ⟨.hbm, 839, rfl⟩
abbrev main_v672 : Ref sig .tc := ⟨.hbm, 840, rfl⟩
abbrev main_v673 : Ref sig .tc := ⟨.hbm, 841, rfl⟩
abbrev main_c_135 : Ref sig .tc := ⟨.hbm, 842, rfl⟩
abbrev main_v674 : Ref sig .tc := ⟨.hbm, 843, rfl⟩
abbrev main_v675 : Ref sig .tc := ⟨.hbm, 844, rfl⟩
abbrev main_c_136 : Ref sig .tc := ⟨.hbm, 845, rfl⟩
abbrev main_v676 : Ref sig .tc := ⟨.hbm, 846, rfl⟩
abbrev main_v677 : Ref sig .tc := ⟨.hbm, 847, rfl⟩
abbrev main_v678 : Ref sig .tc := ⟨.hbm, 848, rfl⟩
abbrev main_v679 : Ref sig .tc := ⟨.hbm, 849, rfl⟩
abbrev main_v680 : Ref sig .tc := ⟨.hbm, 850, rfl⟩
abbrev main_v681 : Ref sig .tc := ⟨.hbm, 851, rfl⟩
abbrev main_v682 : Ref sig .tc := ⟨.hbm, 852, rfl⟩
abbrev main_v683 : Ref sig .tc := ⟨.hbm, 853, rfl⟩
abbrev main_c_137 : Ref sig .tc := ⟨.hbm, 854, rfl⟩
abbrev main_v684 : Ref sig .tc := ⟨.hbm, 855, rfl⟩
abbrev main_v685 : Ref sig .tc := ⟨.hbm, 856, rfl⟩
abbrev main_c_138 : Ref sig .tc := ⟨.hbm, 857, rfl⟩
abbrev main_v686 : Ref sig .tc := ⟨.hbm, 858, rfl⟩
abbrev main_v687 : Ref sig .tc := ⟨.hbm, 859, rfl⟩
abbrev main_v688 : Ref sig .tc := ⟨.hbm, 860, rfl⟩
abbrev main_v689 : Ref sig .tc := ⟨.hbm, 861, rfl⟩
abbrev main_v690 : Ref sig .tc := ⟨.hbm, 862, rfl⟩
abbrev main_v691 : Ref sig .tc := ⟨.hbm, 863, rfl⟩
abbrev main_v692 : Ref sig .tc := ⟨.hbm, 864, rfl⟩
abbrev main_v693 : Ref sig .tc := ⟨.hbm, 865, rfl⟩
abbrev main_c_139 : Ref sig .tc := ⟨.hbm, 866, rfl⟩
abbrev main_v694 : Ref sig .tc := ⟨.hbm, 867, rfl⟩
abbrev main_v695 : Ref sig .tc := ⟨.hbm, 868, rfl⟩
abbrev main_c_140 : Ref sig .tc := ⟨.hbm, 869, rfl⟩
abbrev main_v696 : Ref sig .tc := ⟨.hbm, 870, rfl⟩
abbrev main_v697 : Ref sig .tc := ⟨.hbm, 871, rfl⟩
abbrev main_v698 : Ref sig .tc := ⟨.hbm, 872, rfl⟩
abbrev main_v699 : Ref sig .tc := ⟨.hbm, 873, rfl⟩
abbrev main_v700 : Ref sig .tc := ⟨.hbm, 874, rfl⟩
abbrev main_v701 : Ref sig .tc := ⟨.hbm, 875, rfl⟩
abbrev main_v702 : Ref sig .tc := ⟨.hbm, 876, rfl⟩
abbrev main_v703 : Ref sig .tc := ⟨.hbm, 877, rfl⟩
abbrev main_c_141 : Ref sig .tc := ⟨.hbm, 878, rfl⟩
abbrev main_v704 : Ref sig .tc := ⟨.hbm, 879, rfl⟩
abbrev main_v705 : Ref sig .tc := ⟨.hbm, 880, rfl⟩
abbrev main_c_142 : Ref sig .tc := ⟨.hbm, 881, rfl⟩
abbrev main_v706 : Ref sig .tc := ⟨.hbm, 882, rfl⟩
abbrev main_v707 : Ref sig .tc := ⟨.hbm, 883, rfl⟩
abbrev main_v708 : Ref sig .tc := ⟨.hbm, 884, rfl⟩
abbrev main_v709 : Ref sig .tc := ⟨.hbm, 885, rfl⟩
abbrev main_v710 : Ref sig .tc := ⟨.hbm, 886, rfl⟩
abbrev main_v711 : Ref sig .tc := ⟨.hbm, 887, rfl⟩
abbrev main_v712 : Ref sig .tc := ⟨.hbm, 888, rfl⟩
abbrev main_v713 : Ref sig .tc := ⟨.hbm, 889, rfl⟩
abbrev main_c_143 : Ref sig .tc := ⟨.hbm, 890, rfl⟩
abbrev main_v714 : Ref sig .tc := ⟨.hbm, 891, rfl⟩
abbrev main_v715 : Ref sig .tc := ⟨.hbm, 892, rfl⟩
abbrev main_c_144 : Ref sig .tc := ⟨.hbm, 893, rfl⟩
abbrev main_v716 : Ref sig .tc := ⟨.hbm, 894, rfl⟩
abbrev main_v717 : Ref sig .tc := ⟨.hbm, 895, rfl⟩
abbrev main_v718 : Ref sig .tc := ⟨.hbm, 896, rfl⟩
abbrev main_v719 : Ref sig .tc := ⟨.hbm, 897, rfl⟩
abbrev main_v720 : Ref sig .tc := ⟨.hbm, 898, rfl⟩
abbrev main_v721 : Ref sig .tc := ⟨.hbm, 899, rfl⟩
abbrev main_v722 : Ref sig .tc := ⟨.hbm, 900, rfl⟩
abbrev main_v723 : Ref sig .tc := ⟨.hbm, 901, rfl⟩
abbrev main_c_145 : Ref sig .tc := ⟨.hbm, 902, rfl⟩
abbrev main_v724 : Ref sig .tc := ⟨.hbm, 903, rfl⟩
abbrev main_v725 : Ref sig .tc := ⟨.hbm, 904, rfl⟩
abbrev main_c_146 : Ref sig .tc := ⟨.hbm, 905, rfl⟩
abbrev main_v726 : Ref sig .tc := ⟨.hbm, 906, rfl⟩
abbrev main_v727 : Ref sig .tc := ⟨.hbm, 907, rfl⟩
abbrev main_v728 : Ref sig .tc := ⟨.hbm, 908, rfl⟩
abbrev main_v729 : Ref sig .tc := ⟨.hbm, 909, rfl⟩
abbrev main_v730 : Ref sig .tc := ⟨.hbm, 910, rfl⟩
abbrev main_v731 : Ref sig .tc := ⟨.hbm, 911, rfl⟩
abbrev main_v732 : Ref sig .tc := ⟨.hbm, 912, rfl⟩
abbrev main_cst_147 : Ref sig .tc := ⟨.hbm, 913, rfl⟩
abbrev main_v733 : Ref sig .tc := ⟨.hbm, 914, rfl⟩
abbrev main_v734 : Ref sig .tc := ⟨.hbm, 915, rfl⟩
abbrev main_v735 : Ref sig .tc := ⟨.hbm, 916, rfl⟩
abbrev main_v736 : Ref sig .tc := ⟨.hbm, 917, rfl⟩
abbrev main_v737 : Ref sig .tc := ⟨.hbm, 918, rfl⟩
abbrev main_cst_148 : Ref sig .tc := ⟨.hbm, 919, rfl⟩
abbrev main_v738 : Ref sig .tc := ⟨.hbm, 920, rfl⟩
abbrev main_v739 : Ref sig .tc := ⟨.hbm, 921, rfl⟩
abbrev main_v740 : Ref sig .tc := ⟨.hbm, 922, rfl⟩
abbrev main_c_149 : Ref sig .tc := ⟨.hbm, 923, rfl⟩
abbrev main_v741 : Ref sig .tc := ⟨.hbm, 924, rfl⟩
abbrev main_v742 : Ref sig .tc := ⟨.hbm, 925, rfl⟩
abbrev main_c_150 : Ref sig .tc := ⟨.hbm, 926, rfl⟩
abbrev main_v743 : Ref sig .tc := ⟨.hbm, 927, rfl⟩
abbrev main_v744 : Ref sig .tc := ⟨.hbm, 928, rfl⟩
abbrev main_v745 : Ref sig .tc := ⟨.hbm, 929, rfl⟩
abbrev main_v746 : Ref sig .tc := ⟨.hbm, 930, rfl⟩
abbrev main_v747 : Ref sig .tc := ⟨.hbm, 931, rfl⟩
abbrev main_v748 : Ref sig .tc := ⟨.hbm, 932, rfl⟩
abbrev main_v749 : Ref sig .tc := ⟨.hbm, 933, rfl⟩
abbrev main_v750 : Ref sig .tc := ⟨.hbm, 934, rfl⟩
abbrev main_c_151 : Ref sig .tc := ⟨.hbm, 935, rfl⟩
abbrev main_v751 : Ref sig .tc := ⟨.hbm, 936, rfl⟩
abbrev main_v752 : Ref sig .tc := ⟨.hbm, 937, rfl⟩
abbrev main_c_152 : Ref sig .tc := ⟨.hbm, 938, rfl⟩
abbrev main_v753 : Ref sig .tc := ⟨.hbm, 939, rfl⟩
abbrev main_v754 : Ref sig .tc := ⟨.hbm, 940, rfl⟩
abbrev main_v755 : Ref sig .tc := ⟨.hbm, 941, rfl⟩
abbrev main_v756 : Ref sig .tc := ⟨.hbm, 942, rfl⟩
abbrev main_v757 : Ref sig .tc := ⟨.hbm, 943, rfl⟩
abbrev main_v758 : Ref sig .tc := ⟨.hbm, 944, rfl⟩
abbrev main_v759 : Ref sig .tc := ⟨.hbm, 945, rfl⟩
abbrev main_v760 : Ref sig .tc := ⟨.hbm, 946, rfl⟩
abbrev main_c_153 : Ref sig .tc := ⟨.hbm, 947, rfl⟩
abbrev main_v761 : Ref sig .tc := ⟨.hbm, 948, rfl⟩
abbrev main_v762 : Ref sig .tc := ⟨.hbm, 949, rfl⟩
abbrev main_c_154 : Ref sig .tc := ⟨.hbm, 950, rfl⟩
abbrev main_v763 : Ref sig .tc := ⟨.hbm, 951, rfl⟩
abbrev main_v764 : Ref sig .tc := ⟨.hbm, 952, rfl⟩
abbrev main_v765 : Ref sig .tc := ⟨.hbm, 953, rfl⟩
abbrev main_v766 : Ref sig .tc := ⟨.hbm, 954, rfl⟩
abbrev main_v767 : Ref sig .tc := ⟨.hbm, 955, rfl⟩
abbrev main_v768 : Ref sig .tc := ⟨.hbm, 956, rfl⟩
abbrev main_v769 : Ref sig .tc := ⟨.hbm, 957, rfl⟩
abbrev main_v770 : Ref sig .tc := ⟨.hbm, 958, rfl⟩
abbrev main_c_155 : Ref sig .tc := ⟨.hbm, 959, rfl⟩
abbrev main_v771 : Ref sig .tc := ⟨.hbm, 960, rfl⟩
abbrev main_v772 : Ref sig .tc := ⟨.hbm, 961, rfl⟩
abbrev main_c_156 : Ref sig .tc := ⟨.hbm, 962, rfl⟩
abbrev main_v773 : Ref sig .tc := ⟨.hbm, 963, rfl⟩
abbrev main_v774 : Ref sig .tc := ⟨.hbm, 964, rfl⟩
abbrev main_v775 : Ref sig .tc := ⟨.hbm, 965, rfl⟩
abbrev main_v776 : Ref sig .tc := ⟨.hbm, 966, rfl⟩
abbrev main_v777 : Ref sig .tc := ⟨.hbm, 967, rfl⟩
abbrev main_v778 : Ref sig .tc := ⟨.hbm, 968, rfl⟩
abbrev main_v779 : Ref sig .tc := ⟨.hbm, 969, rfl⟩
abbrev main_v780 : Ref sig .tc := ⟨.hbm, 970, rfl⟩
abbrev main_c_157 : Ref sig .tc := ⟨.hbm, 971, rfl⟩
abbrev main_v781 : Ref sig .tc := ⟨.hbm, 972, rfl⟩
abbrev main_v782 : Ref sig .tc := ⟨.hbm, 973, rfl⟩
abbrev main_c_158 : Ref sig .tc := ⟨.hbm, 974, rfl⟩
abbrev main_v783 : Ref sig .tc := ⟨.hbm, 975, rfl⟩
abbrev main_v784 : Ref sig .tc := ⟨.hbm, 976, rfl⟩
abbrev main_v785 : Ref sig .tc := ⟨.hbm, 977, rfl⟩
abbrev main_v786 : Ref sig .tc := ⟨.hbm, 978, rfl⟩
abbrev main_v787 : Ref sig .tc := ⟨.hbm, 979, rfl⟩
abbrev main_v788 : Ref sig .tc := ⟨.hbm, 980, rfl⟩
abbrev main_v789 : Ref sig .tc := ⟨.hbm, 981, rfl⟩
abbrev main_v790 : Ref sig .tc := ⟨.hbm, 982, rfl⟩
abbrev main_c_159 : Ref sig .tc := ⟨.hbm, 983, rfl⟩
abbrev main_v791 : Ref sig .tc := ⟨.hbm, 984, rfl⟩
abbrev main_v792 : Ref sig .tc := ⟨.hbm, 985, rfl⟩
abbrev main_c_160 : Ref sig .tc := ⟨.hbm, 986, rfl⟩
abbrev main_v793 : Ref sig .tc := ⟨.hbm, 987, rfl⟩
abbrev main_v794 : Ref sig .tc := ⟨.hbm, 988, rfl⟩
abbrev main_v795 : Ref sig .tc := ⟨.hbm, 989, rfl⟩
abbrev main_v796 : Ref sig .tc := ⟨.hbm, 990, rfl⟩
abbrev main_v797 : Ref sig .tc := ⟨.hbm, 991, rfl⟩
abbrev main_v798 : Ref sig .tc := ⟨.hbm, 992, rfl⟩
abbrev main_v799 : Ref sig .tc := ⟨.hbm, 993, rfl⟩
abbrev main_v800 : Ref sig .tc := ⟨.hbm, 994, rfl⟩
abbrev main_c_161 : Ref sig .tc := ⟨.hbm, 995, rfl⟩
abbrev main_v801 : Ref sig .tc := ⟨.hbm, 996, rfl⟩
abbrev main_v802 : Ref sig .tc := ⟨.hbm, 997, rfl⟩
abbrev main_c_162 : Ref sig .tc := ⟨.hbm, 998, rfl⟩
abbrev main_v803 : Ref sig .tc := ⟨.hbm, 999, rfl⟩
abbrev main_v804 : Ref sig .tc := ⟨.hbm, 1000, rfl⟩
abbrev main_v805 : Ref sig .tc := ⟨.hbm, 1001, rfl⟩
abbrev main_v806 : Ref sig .tc := ⟨.hbm, 1002, rfl⟩
abbrev main_v807 : Ref sig .tc := ⟨.hbm, 1003, rfl⟩
abbrev main_v808 : Ref sig .tc := ⟨.hbm, 1004, rfl⟩
abbrev main_v809 : Ref sig .tc := ⟨.hbm, 1005, rfl⟩
abbrev main_v810 : Ref sig .tc := ⟨.hbm, 1006, rfl⟩
abbrev main_c_163 : Ref sig .tc := ⟨.hbm, 1007, rfl⟩
abbrev main_v811 : Ref sig .tc := ⟨.hbm, 1008, rfl⟩
abbrev main_v812 : Ref sig .tc := ⟨.hbm, 1009, rfl⟩
abbrev main_c_164 : Ref sig .tc := ⟨.hbm, 1010, rfl⟩
abbrev main_v813 : Ref sig .tc := ⟨.hbm, 1011, rfl⟩
abbrev main_v814 : Ref sig .tc := ⟨.hbm, 1012, rfl⟩
abbrev main_v815 : Ref sig .tc := ⟨.hbm, 1013, rfl⟩
abbrev main_v816 : Ref sig .tc := ⟨.hbm, 1014, rfl⟩
abbrev main_v817 : Ref sig .tc := ⟨.hbm, 1015, rfl⟩
abbrev main_v818 : Ref sig .tc := ⟨.hbm, 1016, rfl⟩
abbrev main_v819 : Ref sig .tc := ⟨.hbm, 1017, rfl⟩
abbrev main_v820 : Ref sig .tc := ⟨.hbm, 1018, rfl⟩
abbrev main_c_165 : Ref sig .tc := ⟨.hbm, 1019, rfl⟩
abbrev main_v821 : Ref sig .tc := ⟨.hbm, 1020, rfl⟩
abbrev main_v822 : Ref sig .tc := ⟨.hbm, 1021, rfl⟩
abbrev main_c_166 : Ref sig .tc := ⟨.hbm, 1022, rfl⟩
abbrev main_v823 : Ref sig .tc := ⟨.hbm, 1023, rfl⟩
abbrev main_v824 : Ref sig .tc := ⟨.hbm, 1024, rfl⟩
abbrev main_v825 : Ref sig .tc := ⟨.hbm, 1025, rfl⟩
abbrev main_v826 : Ref sig .tc := ⟨.hbm, 1026, rfl⟩
abbrev main_v827 : Ref sig .tc := ⟨.hbm, 1027, rfl⟩
abbrev main_v828 : Ref sig .tc := ⟨.hbm, 1028, rfl⟩
abbrev main_v829 : Ref sig .tc := ⟨.hbm, 1029, rfl⟩
abbrev main_v830 : Ref sig .tc := ⟨.hbm, 1030, rfl⟩
abbrev main_c_167 : Ref sig .tc := ⟨.hbm, 1031, rfl⟩
abbrev main_v831 : Ref sig .tc := ⟨.hbm, 1032, rfl⟩
abbrev main_v832 : Ref sig .tc := ⟨.hbm, 1033, rfl⟩
abbrev main_c_168 : Ref sig .tc := ⟨.hbm, 1034, rfl⟩
abbrev main_v833 : Ref sig .tc := ⟨.hbm, 1035, rfl⟩
abbrev main_v834 : Ref sig .tc := ⟨.hbm, 1036, rfl⟩
abbrev main_v835 : Ref sig .tc := ⟨.hbm, 1037, rfl⟩
abbrev main_v836 : Ref sig .tc := ⟨.hbm, 1038, rfl⟩
abbrev main_v837 : Ref sig .tc := ⟨.hbm, 1039, rfl⟩
abbrev main_v838 : Ref sig .tc := ⟨.hbm, 1040, rfl⟩
abbrev main_v839 : Ref sig .tc := ⟨.hbm, 1041, rfl⟩
abbrev main_v840 : Ref sig .tc := ⟨.hbm, 1042, rfl⟩
abbrev main_c_169 : Ref sig .tc := ⟨.hbm, 1043, rfl⟩
abbrev main_v841 : Ref sig .tc := ⟨.hbm, 1044, rfl⟩
abbrev main_v842 : Ref sig .tc := ⟨.hbm, 1045, rfl⟩
abbrev main_c_170 : Ref sig .tc := ⟨.hbm, 1046, rfl⟩
abbrev main_v843 : Ref sig .tc := ⟨.hbm, 1047, rfl⟩
abbrev main_v844 : Ref sig .tc := ⟨.hbm, 1048, rfl⟩
abbrev main_v845 : Ref sig .tc := ⟨.hbm, 1049, rfl⟩
abbrev main_v846 : Ref sig .tc := ⟨.hbm, 1050, rfl⟩
abbrev main_v847 : Ref sig .tc := ⟨.hbm, 1051, rfl⟩
abbrev main_v848 : Ref sig .tc := ⟨.hbm, 1052, rfl⟩
abbrev main_v849 : Ref sig .tc := ⟨.hbm, 1053, rfl⟩
abbrev main_v850 : Ref sig .tc := ⟨.hbm, 1054, rfl⟩
abbrev main_c_171 : Ref sig .tc := ⟨.hbm, 1055, rfl⟩
abbrev main_v851 : Ref sig .tc := ⟨.hbm, 1056, rfl⟩
abbrev main_v852 : Ref sig .tc := ⟨.hbm, 1057, rfl⟩
abbrev main_c_172 : Ref sig .tc := ⟨.hbm, 1058, rfl⟩
abbrev main_v853 : Ref sig .tc := ⟨.hbm, 1059, rfl⟩
abbrev main_v854 : Ref sig .tc := ⟨.hbm, 1060, rfl⟩
abbrev main_v855 : Ref sig .tc := ⟨.hbm, 1061, rfl⟩
abbrev main_v856 : Ref sig .tc := ⟨.hbm, 1062, rfl⟩
abbrev main_v857 : Ref sig .tc := ⟨.hbm, 1063, rfl⟩
abbrev main_v858 : Ref sig .tc := ⟨.hbm, 1064, rfl⟩
abbrev main_v859 : Ref sig .tc := ⟨.hbm, 1065, rfl⟩
abbrev main_v860 : Ref sig .tc := ⟨.hbm, 1066, rfl⟩
abbrev main_c_173 : Ref sig .tc := ⟨.hbm, 1067, rfl⟩
abbrev main_v861 : Ref sig .tc := ⟨.hbm, 1068, rfl⟩
abbrev main_v862 : Ref sig .tc := ⟨.hbm, 1069, rfl⟩
abbrev main_c_174 : Ref sig .tc := ⟨.hbm, 1070, rfl⟩
abbrev main_v863 : Ref sig .tc := ⟨.hbm, 1071, rfl⟩
abbrev main_v864 : Ref sig .tc := ⟨.hbm, 1072, rfl⟩
abbrev main_v865 : Ref sig .tc := ⟨.hbm, 1073, rfl⟩
abbrev main_v866 : Ref sig .tc := ⟨.hbm, 1074, rfl⟩
abbrev main_v867 : Ref sig .tc := ⟨.hbm, 1075, rfl⟩
abbrev main_v868 : Ref sig .tc := ⟨.hbm, 1076, rfl⟩
abbrev main_v869 : Ref sig .tc := ⟨.hbm, 1077, rfl⟩
abbrev main_v870 : Ref sig .tc := ⟨.hbm, 1078, rfl⟩
abbrev main_c_175 : Ref sig .tc := ⟨.hbm, 1079, rfl⟩
abbrev main_v871 : Ref sig .tc := ⟨.hbm, 1080, rfl⟩
abbrev main_v872 : Ref sig .tc := ⟨.hbm, 1081, rfl⟩
abbrev main_c_176 : Ref sig .tc := ⟨.hbm, 1082, rfl⟩
abbrev main_v873 : Ref sig .tc := ⟨.hbm, 1083, rfl⟩
abbrev main_v874 : Ref sig .tc := ⟨.hbm, 1084, rfl⟩
abbrev main_v875 : Ref sig .tc := ⟨.hbm, 1085, rfl⟩
abbrev main_v876 : Ref sig .tc := ⟨.hbm, 1086, rfl⟩
abbrev main_v877 : Ref sig .tc := ⟨.hbm, 1087, rfl⟩
abbrev main_v878 : Ref sig .tc := ⟨.hbm, 1088, rfl⟩
abbrev main_v879 : Ref sig .tc := ⟨.hbm, 1089, rfl⟩
abbrev main_v880 : Ref sig .tc := ⟨.hbm, 1090, rfl⟩
abbrev main_c_177 : Ref sig .tc := ⟨.hbm, 1091, rfl⟩
abbrev main_v881 : Ref sig .tc := ⟨.hbm, 1092, rfl⟩
abbrev main_v882 : Ref sig .tc := ⟨.hbm, 1093, rfl⟩
abbrev main_c_178 : Ref sig .tc := ⟨.hbm, 1094, rfl⟩
abbrev main_v883 : Ref sig .tc := ⟨.hbm, 1095, rfl⟩
abbrev main_v884 : Ref sig .tc := ⟨.hbm, 1096, rfl⟩
abbrev main_v885 : Ref sig .tc := ⟨.hbm, 1097, rfl⟩
abbrev main_v886 : Ref sig .tc := ⟨.hbm, 1098, rfl⟩
abbrev main_v887 : Ref sig .tc := ⟨.hbm, 1099, rfl⟩
abbrev main_v888 : Ref sig .tc := ⟨.hbm, 1100, rfl⟩
abbrev main_v889 : Ref sig .tc := ⟨.hbm, 1101, rfl⟩
abbrev main_v890 : Ref sig .tc := ⟨.hbm, 1102, rfl⟩
abbrev main_c_179 : Ref sig .tc := ⟨.hbm, 1103, rfl⟩
abbrev main_v891 : Ref sig .tc := ⟨.hbm, 1104, rfl⟩
abbrev main_v892 : Ref sig .tc := ⟨.hbm, 1105, rfl⟩
abbrev main_c_180 : Ref sig .tc := ⟨.hbm, 1106, rfl⟩
abbrev main_v893 : Ref sig .tc := ⟨.hbm, 1107, rfl⟩
abbrev main_v894 : Ref sig .tc := ⟨.hbm, 1108, rfl⟩
abbrev main_v895 : Ref sig .tc := ⟨.hbm, 1109, rfl⟩
abbrev main_v896 : Ref sig .tc := ⟨.hbm, 1110, rfl⟩
abbrev main_v897 : Ref sig .tc := ⟨.hbm, 1111, rfl⟩
abbrev main_v898 : Ref sig .tc := ⟨.hbm, 1112, rfl⟩
abbrev main_v899 : Ref sig .tc := ⟨.hbm, 1113, rfl⟩
abbrev main_v900 : Ref sig .tc := ⟨.hbm, 1114, rfl⟩
abbrev main_c_181 : Ref sig .tc := ⟨.hbm, 1115, rfl⟩
abbrev main_v901 : Ref sig .tc := ⟨.hbm, 1116, rfl⟩
abbrev main_v902 : Ref sig .tc := ⟨.hbm, 1117, rfl⟩
abbrev main_c_182 : Ref sig .tc := ⟨.hbm, 1118, rfl⟩
abbrev main_v903 : Ref sig .tc := ⟨.hbm, 1119, rfl⟩
abbrev main_v904 : Ref sig .tc := ⟨.hbm, 1120, rfl⟩
abbrev main_v905 : Ref sig .tc := ⟨.hbm, 1121, rfl⟩
abbrev main_v906 : Ref sig .tc := ⟨.hbm, 1122, rfl⟩
abbrev main_v907 : Ref sig .tc := ⟨.hbm, 1123, rfl⟩
abbrev main_v908 : Ref sig .tc := ⟨.hbm, 1124, rfl⟩
abbrev main_v909 : Ref sig .tc := ⟨.hbm, 1125, rfl⟩
abbrev main_v910 : Ref sig .tc := ⟨.hbm, 1126, rfl⟩
abbrev main_c_183 : Ref sig .tc := ⟨.hbm, 1127, rfl⟩
abbrev main_v911 : Ref sig .tc := ⟨.hbm, 1128, rfl⟩
abbrev main_v912 : Ref sig .tc := ⟨.hbm, 1129, rfl⟩
abbrev main_c_184 : Ref sig .tc := ⟨.hbm, 1130, rfl⟩
abbrev main_v913 : Ref sig .tc := ⟨.hbm, 1131, rfl⟩
abbrev main_v914 : Ref sig .tc := ⟨.hbm, 1132, rfl⟩
abbrev main_v915 : Ref sig .tc := ⟨.hbm, 1133, rfl⟩
abbrev main_v916 : Ref sig .tc := ⟨.hbm, 1134, rfl⟩
abbrev main_v917 : Ref sig .tc := ⟨.hbm, 1135, rfl⟩
abbrev main_v918 : Ref sig .tc := ⟨.hbm, 1136, rfl⟩
abbrev main_v919 : Ref sig .tc := ⟨.hbm, 1137, rfl⟩
abbrev main_v920 : Ref sig .tc := ⟨.hbm, 1138, rfl⟩
abbrev main_c_185 : Ref sig .tc := ⟨.hbm, 1139, rfl⟩
abbrev main_v921 : Ref sig .tc := ⟨.hbm, 1140, rfl⟩
abbrev main_v922 : Ref sig .tc := ⟨.hbm, 1141, rfl⟩
abbrev main_c_186 : Ref sig .tc := ⟨.hbm, 1142, rfl⟩
abbrev main_v923 : Ref sig .tc := ⟨.hbm, 1143, rfl⟩
abbrev main_v924 : Ref sig .tc := ⟨.hbm, 1144, rfl⟩
abbrev main_v925 : Ref sig .tc := ⟨.hbm, 1145, rfl⟩
abbrev main_v926 : Ref sig .tc := ⟨.hbm, 1146, rfl⟩
abbrev main_v927 : Ref sig .tc := ⟨.hbm, 1147, rfl⟩
abbrev main_v928 : Ref sig .tc := ⟨.hbm, 1148, rfl⟩
abbrev main_v929 : Ref sig .tc := ⟨.hbm, 1149, rfl⟩
abbrev main_v930 : Ref sig .tc := ⟨.hbm, 1150, rfl⟩
abbrev main_c_187 : Ref sig .tc := ⟨.hbm, 1151, rfl⟩
abbrev main_v931 : Ref sig .tc := ⟨.hbm, 1152, rfl⟩
abbrev main_v932 : Ref sig .tc := ⟨.hbm, 1153, rfl⟩
abbrev main_c_188 : Ref sig .tc := ⟨.hbm, 1154, rfl⟩
abbrev main_v933 : Ref sig .tc := ⟨.hbm, 1155, rfl⟩
abbrev main_v934 : Ref sig .tc := ⟨.hbm, 1156, rfl⟩
abbrev main_v935 : Ref sig .tc := ⟨.hbm, 1157, rfl⟩
abbrev main_v936 : Ref sig .tc := ⟨.hbm, 1158, rfl⟩
abbrev main_v937 : Ref sig .tc := ⟨.hbm, 1159, rfl⟩
abbrev main_v938 : Ref sig .tc := ⟨.hbm, 1160, rfl⟩
abbrev main_v939 : Ref sig .tc := ⟨.hbm, 1161, rfl⟩
abbrev main_cst_189 : Ref sig .tc := ⟨.hbm, 1162, rfl⟩
abbrev main_v940 : Ref sig .tc := ⟨.hbm, 1163, rfl⟩
abbrev main_v941 : Ref sig .tc := ⟨.hbm, 1164, rfl⟩
abbrev main_v942 : Ref sig .tc := ⟨.hbm, 1165, rfl⟩
abbrev main_v943 : Ref sig .tc := ⟨.hbm, 1166, rfl⟩
abbrev main_v944 : Ref sig .tc := ⟨.hbm, 1167, rfl⟩
abbrev main_c_190 : Ref sig .tc := ⟨.hbm, 1168, rfl⟩
abbrev main_v945 : Ref sig .tc := ⟨.hbm, 1169, rfl⟩
abbrev main_v946 : Ref sig .tc := ⟨.hbm, 1170, rfl⟩
abbrev main_c_191 : Ref sig .tc := ⟨.hbm, 1171, rfl⟩
abbrev main_v947 : Ref sig .tc := ⟨.hbm, 1172, rfl⟩
abbrev main_v948 : Ref sig .tc := ⟨.hbm, 1173, rfl⟩
abbrev main_v949 : Ref sig .tc := ⟨.hbm, 1174, rfl⟩
abbrev main_v950 : Ref sig .tc := ⟨.hbm, 1175, rfl⟩
abbrev main_v951 : Ref sig .tc := ⟨.hbm, 1176, rfl⟩
abbrev main_v952 : Ref sig .tc := ⟨.hbm, 1177, rfl⟩
abbrev main_v953 : Ref sig .tc := ⟨.hbm, 1178, rfl⟩
abbrev main_v954 : Ref sig .tc := ⟨.hbm, 1179, rfl⟩
abbrev main_v955 : Ref sig .tc := ⟨.hbm, 1180, rfl⟩
abbrev main_c_192 : Ref sig .tc := ⟨.hbm, 1181, rfl⟩
abbrev main_v956 : Ref sig .tc := ⟨.hbm, 1182, rfl⟩
abbrev main_v957 : Ref sig .tc := ⟨.hbm, 1183, rfl⟩
abbrev main_c_193 : Ref sig .tc := ⟨.hbm, 1184, rfl⟩
abbrev main_v958 : Ref sig .tc := ⟨.hbm, 1185, rfl⟩
abbrev main_v959 : Ref sig .tc := ⟨.hbm, 1186, rfl⟩
abbrev main_v960 : Ref sig .tc := ⟨.hbm, 1187, rfl⟩
abbrev main_v961 : Ref sig .tc := ⟨.hbm, 1188, rfl⟩
abbrev main_v962 : Ref sig .tc := ⟨.hbm, 1189, rfl⟩
abbrev main_v963 : Ref sig .tc := ⟨.hbm, 1190, rfl⟩
abbrev main_v964 : Ref sig .tc := ⟨.hbm, 1191, rfl⟩
abbrev main_v965 : Ref sig .tc := ⟨.hbm, 1192, rfl⟩
abbrev main_v966 : Ref sig .tc := ⟨.hbm, 1193, rfl⟩
abbrev main_c_194 : Ref sig .tc := ⟨.hbm, 1194, rfl⟩
abbrev main_v967 : Ref sig .tc := ⟨.hbm, 1195, rfl⟩
abbrev main_v968 : Ref sig .tc := ⟨.hbm, 1196, rfl⟩
abbrev main_c_195 : Ref sig .tc := ⟨.hbm, 1197, rfl⟩
abbrev main_v969 : Ref sig .tc := ⟨.hbm, 1198, rfl⟩
abbrev main_v970 : Ref sig .tc := ⟨.hbm, 1199, rfl⟩
abbrev main_v971 : Ref sig .tc := ⟨.hbm, 1200, rfl⟩
abbrev main_v972 : Ref sig .tc := ⟨.hbm, 1201, rfl⟩
abbrev main_v973 : Ref sig .tc := ⟨.hbm, 1202, rfl⟩
abbrev main_v974 : Ref sig .tc := ⟨.hbm, 1203, rfl⟩
abbrev main_v975 : Ref sig .tc := ⟨.hbm, 1204, rfl⟩
abbrev main_v976 : Ref sig .tc := ⟨.hbm, 1205, rfl⟩
abbrev main_v977 : Ref sig .tc := ⟨.hbm, 1206, rfl⟩
abbrev main_c_196 : Ref sig .tc := ⟨.hbm, 1207, rfl⟩
abbrev main_v978 : Ref sig .tc := ⟨.hbm, 1208, rfl⟩
abbrev main_v979 : Ref sig .tc := ⟨.hbm, 1209, rfl⟩
abbrev main_c_197 : Ref sig .tc := ⟨.hbm, 1210, rfl⟩
abbrev main_v980 : Ref sig .tc := ⟨.hbm, 1211, rfl⟩
abbrev main_v981 : Ref sig .tc := ⟨.hbm, 1212, rfl⟩
abbrev main_v982 : Ref sig .tc := ⟨.hbm, 1213, rfl⟩
abbrev main_v983 : Ref sig .tc := ⟨.hbm, 1214, rfl⟩
abbrev main_v984 : Ref sig .tc := ⟨.hbm, 1215, rfl⟩
abbrev main_v985 : Ref sig .tc := ⟨.hbm, 1216, rfl⟩
abbrev main_v986 : Ref sig .tc := ⟨.hbm, 1217, rfl⟩
abbrev main_v987 : Ref sig .tc := ⟨.hbm, 1218, rfl⟩
abbrev main_v988 : Ref sig .tc := ⟨.hbm, 1219, rfl⟩
abbrev main_v989 : Ref sig .tc := ⟨.hbm, 1220, rfl⟩
abbrev main_v990 : Ref sig .tc := ⟨.hbm, 1221, rfl⟩
abbrev main_v991 : Ref sig .tc := ⟨.hbm, 1222, rfl⟩
abbrev main_v992 : Ref sig .tc := ⟨.hbm, 1223, rfl⟩
abbrev main_v993 : Ref sig .tc := ⟨.hbm, 1224, rfl⟩
abbrev main_v994 : Ref sig .tc := ⟨.hbm, 1225, rfl⟩
abbrev main_v995 : Ref sig .tc := ⟨.hbm, 1226, rfl⟩
abbrev main_v996 : Ref sig .tc := ⟨.hbm, 1227, rfl⟩
abbrev main_v997 : Ref sig .tc := ⟨.hbm, 1228, rfl⟩
abbrev main_v998 : Ref sig .tc := ⟨.hbm, 1229, rfl⟩
abbrev main_v999 : Ref sig .tc := ⟨.hbm, 1230, rfl⟩
abbrev main_v1000 : Ref sig .tc := ⟨.hbm, 1231, rfl⟩
abbrev main_v1001 : Ref sig .tc := ⟨.hbm, 1232, rfl⟩
abbrev main_v1002 : Ref sig .tc := ⟨.hbm, 1233, rfl⟩
abbrev main_v1003 : Ref sig .tc := ⟨.hbm, 1234, rfl⟩
abbrev main_v1004 : Ref sig .tc := ⟨.hbm, 1235, rfl⟩
abbrev main_v1005 : Ref sig .tc := ⟨.hbm, 1236, rfl⟩
abbrev main_v1006 : Ref sig .tc := ⟨.hbm, 1237, rfl⟩
abbrev main_v1007 : Ref sig .tc := ⟨.hbm, 1238, rfl⟩
abbrev main_v1008 : Ref sig .tc := ⟨.hbm, 1239, rfl⟩
abbrev main_v1009 : Ref sig .tc := ⟨.hbm, 1240, rfl⟩
abbrev main_v1010 : Ref sig .tc := ⟨.hbm, 1241, rfl⟩
abbrev main_v1011 : Ref sig .tc := ⟨.hbm, 1242, rfl⟩
abbrev main_v1012 : Ref sig .tc := ⟨.hbm, 1243, rfl⟩
abbrev main_v1013 : Ref sig .tc := ⟨.hbm, 1244, rfl⟩
abbrev main_v1014 : Ref sig .tc := ⟨.hbm, 1245, rfl⟩
abbrev main_v1015 : Ref sig .tc := ⟨.hbm, 1246, rfl⟩
abbrev main_v1016 : Ref sig .tc := ⟨.hbm, 1247, rfl⟩
abbrev main_v1017 : Ref sig .tc := ⟨.hbm, 1248, rfl⟩
abbrev main_v1018 : Ref sig .tc := ⟨.hbm, 1249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg24_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem24_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S300x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1024x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bcast_S_S8192x300 : S_.BroadcastsInDim S8192x300 (![] : Fin 0 → Fin S8192x300.rank)
  slices_S8192x32_S8192x1_0_0 : S8192x32.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x32_S8192x1_0_1 : S8192x32.Slices ![0, 1] S8192x1
  slices_S8192x32_S8192x1_0_2 : S8192x32.Slices ![0, 2] S8192x1
  slices_S8192x32_S8192x1_0_3 : S8192x32.Slices ![0, 3] S8192x1
  slices_S8192x32_S8192x1_0_4 : S8192x32.Slices ![0, 4] S8192x1
  slices_S8192x32_S8192x1_0_5 : S8192x32.Slices ![0, 5] S8192x1
  slices_S8192x32_S8192x1_0_6 : S8192x32.Slices ![0, 6] S8192x1
  slices_S8192x32_S8192x1_0_7 : S8192x32.Slices ![0, 7] S8192x1
  slices_S8192x32_S8192x1_0_8 : S8192x32.Slices ![0, 8] S8192x1
  slices_S8192x32_S8192x1_0_9 : S8192x32.Slices ![0, 9] S8192x1
  slices_S8192x32_S8192x1_0_10 : S8192x32.Slices ![0, 10] S8192x1
  slices_S8192x32_S8192x1_0_11 : S8192x32.Slices ![0, 11] S8192x1
  slices_S8192x32_S8192x1_0_12 : S8192x32.Slices ![0, 12] S8192x1
  slices_S8192x32_S8192x1_0_13 : S8192x32.Slices ![0, 13] S8192x1
  slices_S8192x32_S8192x1_0_14 : S8192x32.Slices ![0, 14] S8192x1
  slices_S8192x32_S8192x1_0_15 : S8192x32.Slices ![0, 15] S8192x1
  slices_S8192x32_S8192x1_0_16 : S8192x32.Slices ![0, 16] S8192x1
  slices_S8192x32_S8192x1_0_17 : S8192x32.Slices ![0, 17] S8192x1
  slices_S8192x32_S8192x1_0_18 : S8192x32.Slices ![0, 18] S8192x1
  slices_S8192x32_S8192x1_0_19 : S8192x32.Slices ![0, 19] S8192x1
  slices_S8192x32_S8192x1_0_20 : S8192x32.Slices ![0, 20] S8192x1
  slices_S8192x32_S8192x1_0_21 : S8192x32.Slices ![0, 21] S8192x1
  slices_S8192x32_S8192x1_0_22 : S8192x32.Slices ![0, 22] S8192x1
  slices_S8192x32_S8192x1_0_23 : S8192x32.Slices ![0, 23] S8192x1
  slices_S8192x32_S8192x1_0_24 : S8192x32.Slices ![0, 24] S8192x1
  slices_S8192x32_S8192x1_0_25 : S8192x32.Slices ![0, 25] S8192x1
  slices_S8192x32_S8192x1_0_26 : S8192x32.Slices ![0, 26] S8192x1
  slices_S8192x32_S8192x1_0_27 : S8192x32.Slices ![0, 27] S8192x1
  slices_S8192x32_S8192x1_0_28 : S8192x32.Slices ![0, 28] S8192x1
  slices_S8192x32_S8192x1_0_29 : S8192x32.Slices ![0, 29] S8192x1
  slices_S8192x32_S8192x1_0_30 : S8192x32.Slices ![0, 30] S8192x1
  slices_S8192x32_S8192x1_0_31 : S8192x32.Slices ![0, 31] S8192x1
  concatenates_S1000x64_S1000x1_S1000x65_d1 : Shape.Concatenates [S1000x64, S1000x1] S1000x65 1
  bcast_S_S8192x65 : S_.BroadcastsInDim S8192x65 (![] : Fin 0 → Fin S8192x65.rank)
  slices_S8192x20_S8192x1_0_0 : S8192x20.Slices ![0, 0] S8192x1
  slices_S8192x20_S8192x1_0_1 : S8192x20.Slices ![0, 1] S8192x1
  slices_S8192x20_S8192x1_0_2 : S8192x20.Slices ![0, 2] S8192x1
  slices_S8192x20_S8192x1_0_3 : S8192x20.Slices ![0, 3] S8192x1
  slices_S8192x20_S8192x1_0_4 : S8192x20.Slices ![0, 4] S8192x1
  slices_S8192x20_S8192x1_0_5 : S8192x20.Slices ![0, 5] S8192x1
  slices_S8192x20_S8192x1_0_6 : S8192x20.Slices ![0, 6] S8192x1
  slices_S8192x20_S8192x1_0_7 : S8192x20.Slices ![0, 7] S8192x1
  slices_S8192x20_S8192x1_0_8 : S8192x20.Slices ![0, 8] S8192x1
  slices_S8192x20_S8192x1_0_9 : S8192x20.Slices ![0, 9] S8192x1
  slices_S8192x20_S8192x1_0_10 : S8192x20.Slices ![0, 10] S8192x1
  slices_S8192x20_S8192x1_0_11 : S8192x20.Slices ![0, 11] S8192x1
  slices_S8192x20_S8192x1_0_12 : S8192x20.Slices ![0, 12] S8192x1
  slices_S8192x20_S8192x1_0_13 : S8192x20.Slices ![0, 13] S8192x1
  slices_S8192x20_S8192x1_0_14 : S8192x20.Slices ![0, 14] S8192x1
  slices_S8192x20_S8192x1_0_15 : S8192x20.Slices ![0, 15] S8192x1
  slices_S8192x20_S8192x1_0_16 : S8192x20.Slices ![0, 16] S8192x1
  slices_S8192x20_S8192x1_0_17 : S8192x20.Slices ![0, 17] S8192x1
  slices_S8192x20_S8192x1_0_18 : S8192x20.Slices ![0, 18] S8192x1
  slices_S8192x20_S8192x1_0_19 : S8192x20.Slices ![0, 19] S8192x1
  slices_S8192x65_S8192x64_0_0 : S8192x65.Slices ![0, 0] S8192x64
  bcast_S_S8192x64 : S_.BroadcastsInDim S8192x64 (![] : Fin 0 → Fin S8192x64.rank)
  slices_S8192x65_S8192x1_0_64 : S8192x65.Slices ![0, 64] S8192x1
  concatenates_S5000x64_S5000x1_S5000x65_d1 : Shape.Concatenates [S5000x64, S5000x1] S5000x65 1
  concatenates_S10000x64_S10000x1_S10000x65_d1 : Shape.Concatenates [S10000x64, S10000x1] S10000x65 1
  concatenates_S100x64_S100x1_S100x65_d1 : Shape.Concatenates [S100x64, S100x1] S100x65 1
  concatenates_S50x64_S50x1_S50x65_d1 : Shape.Concatenates [S50x64, S50x1] S50x65 1
  concatenates_S20x64_S20x1_S20x65_d1 : Shape.Concatenates [S20x64, S20x1] S20x65 1
  slices_S748x1024_S300x1024_0_0 : S748x1024.Slices ![0, 0] S300x1024
  bitsLt_bf16_f32 : FTy.bits .bf16 < FTy.bits .f32
  slices_S748x1024_S64x1024_300_0 : S748x1024.Slices ![300, 0] S64x1024
  slices_S748x1024_S64x1024_364_0 : S748x1024.Slices ![364, 0] S64x1024
  slices_S748x1024_S64x1024_428_0 : S748x1024.Slices ![428, 0] S64x1024
  slices_S748x1024_S64x1024_492_0 : S748x1024.Slices ![492, 0] S64x1024
  slices_S748x1024_S64x1024_556_0 : S748x1024.Slices ![556, 0] S64x1024
  slices_S748x1024_S64x1024_620_0 : S748x1024.Slices ![620, 0] S64x1024
  slices_S748x1024_S64x1024_684_0 : S748x1024.Slices ![684, 0] S64x1024
  shapeCasts_S1024_S1x1024 : S1024.ShapeCasts S1x1024
  shapeCasts_S512_S1x512 : S512.ShapeCasts S1x512
  shapeCasts_S256_S1x256 : S256.ShapeCasts S1x256
  shapeCasts_S1_S1x1 : S1.ShapeCasts S1x1
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S300x1024_S300x1024_0_0 : ∀ a, (![0, 0] : Fin 2 → Nat) a + S300x1024.size a ≤ S300x1024.size a
  h_S300x1024 : 0 < S300x1024.numel
  shapeCasts_S300x1024_S300x1024 : S300x1024.ShapeCasts S300x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  gather_S50000x300_S8192x1_S8192x300_1_0_n_n_0_1_1300_wf : GatherDims.WF S50000x300 S8192x1 S8192x300 [1] [0] [] [0] [] 1 ![1, 300]
  gather_S1000x65_S8192x1_S8192x65_1_0_n_n_0_1_165_wf : GatherDims.WF S1000x65 S8192x1 S8192x65 [1] [0] [] [0] [] 1 ![1, 65]
  gather_S5000x65_S8192x1_S8192x65_1_0_n_n_0_1_165_wf : GatherDims.WF S5000x65 S8192x1 S8192x65 [1] [0] [] [0] [] 1 ![1, 65]
  gather_S10000x65_S8192x1_S8192x65_1_0_n_n_0_1_165_wf : GatherDims.WF S10000x65 S8192x1 S8192x65 [1] [0] [] [0] [] 1 ![1, 65]
  gather_S100x65_S8192x1_S8192x65_1_0_n_n_0_1_165_wf : GatherDims.WF S100x65 S8192x1 S8192x65 [1] [0] [] [0] [] 1 ![1, 65]
  gather_S50x65_S8192x1_S8192x65_1_0_n_n_0_1_165_wf : GatherDims.WF S50x65 S8192x1 S8192x65 [1] [0] [] [0] [] 1 ![1, 65]
  gather_S20x65_S8192x1_S8192x65_1_0_n_n_0_1_165_wf : GatherDims.WF S20x65 S8192x1 S8192x65 [1] [0] [] [0] [] 1 ![1, 65]
  dot_S1024x300_S300x1024_S1024x1024_1_0_0_1_n_n_wf : DotDims.WF S1024x300 S300x1024 S1024x1024 [1] [0] [0] [1] [] []
  dot_S1024x64_S64x1024_S1024x1024_1_0_0_1_n_n_wf : DotDims.WF S1024x64 S64x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x300.size a ≤ S8192x300.size a
  hwx0_0 : ∀ i : grid0.Coords, EltTy.bits .f32 = 32 ∨ (Rect.block (s := S8192x300) S1024x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .f32 = 32 ∨ (Rect.block (s := S8192x64) S1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S300x1024.size a ≤ S300x1024.size a
  hwx0_9 : ∀ i : grid0.Coords, EltTy.bits .bf16 = 32 ∨ (Rect.block (s := S300x1024) S300x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1024.size a ≤ S64x1024.size a
  hwx0_10 : ∀ i : grid0.Coords, EltTy.bits .bf16 = 32 ∨ (Rect.block (s := S64x1024) S64x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1024.size a ≤ S64x1024.size a
  hwx0_11 : ∀ i : grid0.Coords, EltTy.bits .bf16 = 32 ∨ (Rect.block (s := S64x1024) S64x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1024.size a ≤ S64x1024.size a
  hwx0_12 : ∀ i : grid0.Coords, EltTy.bits .bf16 = 32 ∨ (Rect.block (s := S64x1024) S64x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1024.size a ≤ S64x1024.size a
  hwx0_13 : ∀ i : grid0.Coords, EltTy.bits .bf16 = 32 ∨ (Rect.block (s := S64x1024) S64x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x1024.size a ≤ S64x1024.size a
  hwx0_14 : ∀ i : grid0.Coords, EltTy.bits .bf16 = 32 ∨ (Rect.block (s := S64x1024) S64x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x1024.size a ≤ S64x1024.size a
  hwx0_15 : ∀ i : grid0.Coords, EltTy.bits .bf16 = 32 ∨ (Rect.block (s := S64x1024) S64x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x1024.size a ≤ S64x1024.size a
  hwx0_16 : ∀ i : grid0.Coords, EltTy.bits .bf16 = 32 ∨ (Rect.block (s := S64x1024) S64x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024x512.size a ≤ S1024x512.size a
  hwx0_18 : ∀ i : grid0.Coords, EltTy.bits .bf16 = 32 ∨ (Rect.block (s := S1024x512) S1024x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x512.size a ≤ S1x512.size a
  hwx0_19 : ∀ i : grid0.Coords, EltTy.bits .f32 = 32 ∨ (Rect.block (s := S1x512) S1x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x256.size a ≤ S512x256.size a
  hwx0_20 : ∀ i : grid0.Coords, EltTy.bits .bf16 = 32 ∨ (Rect.block (s := S512x256) S512x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x1.size a ≤ S256x1.size a
  hwx0_22 : ∀ i : grid0.Coords, EltTy.bits .bf16 = 32 ∨ (Rect.block (s := S256x1) S256x1.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x1.size a ≤ S1x1.size a
  hwx0_23 : ∀ i : grid0.Coords, EltTy.bits .f32 = 32 ∨ (Rect.block (s := S1x1) S1x1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x1.size a ≤ S8192x1.size a
  hwx0_24 : ∀ i : grid0.Coords, EltTy.bits .f32 = 32 ∨ (Rect.block (s := S8192x1) S1024x1.size (cc0_transform_24 i) (hinb0_24 i)).WholeWords (EltTy.packing .f32)

variable [Facts₀]

def gather_S50000x300_S8192x1_S8192x300_1_0_n_n_0_1_1300 : GatherDims S50000x300 S8192x1 S8192x300 where
  offsetDims := [1]
  collapsedSliceDims := [0]
  operandBatchingDims := []
  startIndicesBatchingDims := []
  startIndexMap := [0]
  indexVectorDim := 1
  sliceSizes := ![1, 300]
  wf := gather_S50000x300_S8192x1_S8192x300_1_0_n_n_0_1_1300_wf
def gather_S1000x65_S8192x1_S8192x65_1_0_n_n_0_1_165 : GatherDims S1000x65 S8192x1 S8192x65 where
  offsetDims := [1]
  collapsedSliceDims := [0]
  operandBatchingDims := []
  startIndicesBatchingDims := []
  startIndexMap := [0]
  indexVectorDim := 1
  sliceSizes := ![1, 65]
  wf := gather_S1000x65_S8192x1_S8192x65_1_0_n_n_0_1_165_wf
def gather_S5000x65_S8192x1_S8192x65_1_0_n_n_0_1_165 : GatherDims S5000x65 S8192x1 S8192x65 where
  offsetDims := [1]
  collapsedSliceDims := [0]
  operandBatchingDims := []
  startIndicesBatchingDims := []
  startIndexMap := [0]
  indexVectorDim := 1
  sliceSizes := ![1, 65]
  wf := gather_S5000x65_S8192x1_S8192x65_1_0_n_n_0_1_165_wf
def gather_S10000x65_S8192x1_S8192x65_1_0_n_n_0_1_165 : GatherDims S10000x65 S8192x1 S8192x65 where
  offsetDims := [1]
  collapsedSliceDims := [0]
  operandBatchingDims := []
  startIndicesBatchingDims := []
  startIndexMap := [0]
  indexVectorDim := 1
  sliceSizes := ![1, 65]
  wf := gather_S10000x65_S8192x1_S8192x65_1_0_n_n_0_1_165_wf
def gather_S100x65_S8192x1_S8192x65_1_0_n_n_0_1_165 : GatherDims S100x65 S8192x1 S8192x65 where
  offsetDims := [1]
  collapsedSliceDims := [0]
  operandBatchingDims := []
  startIndicesBatchingDims := []
  startIndexMap := [0]
  indexVectorDim := 1
  sliceSizes := ![1, 65]
  wf := gather_S100x65_S8192x1_S8192x65_1_0_n_n_0_1_165_wf
def gather_S50x65_S8192x1_S8192x65_1_0_n_n_0_1_165 : GatherDims S50x65 S8192x1 S8192x65 where
  offsetDims := [1]
  collapsedSliceDims := [0]
  operandBatchingDims := []
  startIndicesBatchingDims := []
  startIndexMap := [0]
  indexVectorDim := 1
  sliceSizes := ![1, 65]
  wf := gather_S50x65_S8192x1_S8192x65_1_0_n_n_0_1_165_wf
def gather_S20x65_S8192x1_S8192x65_1_0_n_n_0_1_165 : GatherDims S20x65 S8192x1 S8192x65 where
  offsetDims := [1]
  collapsedSliceDims := [0]
  operandBatchingDims := []
  startIndicesBatchingDims := []
  startIndexMap := [0]
  indexVectorDim := 1
  sliceSizes := ![1, 65]
  wf := gather_S20x65_S8192x1_S8192x65_1_0_n_n_0_1_165_wf
def dot_S1024x300_S300x1024_S1024x1024_1_0_0_1_n_n : DotDims S1024x300 S300x1024 S1024x1024 where
  lhsContracting := [1]
  rhsContracting := [0]
  lhsNonContracting := [0]
  rhsNonContracting := [1]
  lhsBatch := []
  rhsBatch := []
  wf := dot_S1024x300_S300x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v322) S1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v527) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v734) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v941) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v952) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v963) S1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v974) S1024x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v985) S1024x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v994) S1024x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v996) S300x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v998) S64x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1000) S64x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1002) S64x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v1004) S64x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1006) S64x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1008) S64x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v1010) S64x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v1014) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v1011) S1024x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v1015) S1x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v1012) S512x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v1016) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v1013) S256x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v1017) S1x1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v1018) S1024x1.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S8192x32 : Shape := ⟨2, ![8192, 32]⟩
abbrev S8192x20 : Shape := ⟨2, ![8192, 20]⟩
abbrev S8192 : Shape := ⟨1, ![8192]⟩
abbrev S50000x300 : Shape := ⟨2, ![50000, 300]⟩
abbrev S1000x64 : Shape := ⟨2, ![1000, 64]⟩
abbrev S5000x64 : Shape := ⟨2, ![5000, 64]⟩
abbrev S10000x64 : Shape := ⟨2, ![10000, 64]⟩
abbrev S100x64 : Shape := ⟨2, ![100, 64]⟩
abbrev S50x64 : Shape := ⟨2, ![50, 64]⟩
abbrev S20x64 : Shape := ⟨2, ![20, 64]⟩
abbrev S1000x1 : Shape := ⟨2, ![1000, 1]⟩
abbrev S5000x1 : Shape := ⟨2, ![5000, 1]⟩
abbrev S10000x1 : Shape := ⟨2, ![10000, 1]⟩
abbrev S100x1 : Shape := ⟨2, ![100, 1]⟩
abbrev S50x1 : Shape := ⟨2, ![50, 1]⟩
abbrev S20x1 : Shape := ⟨2, ![20, 1]⟩
abbrev S748x1024 : Shape := ⟨2, ![748, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S8192x32x1 : Shape := ⟨3, ![8192, 32, 1]⟩
abbrev S8192x32x300 : Shape := ⟨3, ![8192, 32, 300]⟩
abbrev S8192x300 : Shape := ⟨2, ![8192, 300]⟩
abbrev S8192x20x1 : Shape := ⟨3, ![8192, 20, 1]⟩
abbrev S8192x20x64 : Shape := ⟨3, ![8192, 20, 64]⟩
abbrev S8192x64 : Shape := ⟨2, ![8192, 64]⟩
abbrev S8192x1 : Shape := ⟨2, ![8192, 1]⟩
abbrev S8192x748 : Shape := ⟨2, ![8192, 748]⟩
abbrev S8192x1024 : Shape := ⟨2, ![8192, 1024]⟩
abbrev S1x1024 : Shape := ⟨2, ![1, 1024]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S1x1 : Shape := ⟨2, ![1, 1]⟩

abbrev nBuf : Space → Nat
  | .hbm => 238
  | .vmem => 0
  | .smem => 0
  | _ => 0

abbrev hbmTy0_0 (i : Nat) : BufTy := match i % 128 with
  | 0 => ⟨S8192x32, .i32⟩
  | 1 => ⟨S8192x20, .i32⟩
  | 2 => ⟨S8192x20, .i32⟩
  | 3 => ⟨S8192x20, .i32⟩
  | 4 => ⟨S8192, .i32⟩
  | 5 => ⟨S8192, .i32⟩
  | 6 => ⟨S8192, .i32⟩
  | 7 => ⟨S8192, .i32⟩
  | 8 => ⟨S50000x300, .f32⟩
  | 9 => ⟨S1000x64, .f32⟩
  | 10 => ⟨S5000x64, .f32⟩
  | 11 => ⟨S10000x64, .f32⟩
  | 12 => ⟨S100x64, .f32⟩
  | 13 => ⟨S50x64, .f32⟩
  | 14 => ⟨S20x64, .f32⟩
  | 15 => ⟨S1000x64, .f32⟩
  | 16 => ⟨S1000x1, .f32⟩
  | 17 => ⟨S5000x1, .f32⟩
  | 18 => ⟨S10000x1, .f32⟩
  | 19 => ⟨S100x1, .f32⟩
  | 20 => ⟨S50x1, .f32⟩
  | 21 => ⟨S20x1, .f32⟩
  | 22 => ⟨S1000x1, .f32⟩
  | 23 => ⟨S748x1024, .f32⟩
  | 24 => ⟨S1024, .f32⟩
  | 25 => ⟨S1024x512, .f32⟩
  | 26 => ⟨S512, .f32⟩
  | 27 => ⟨S512x256, .f32⟩
  | 28 => ⟨S256, .f32⟩
  | 29 => ⟨S256x1, .f32⟩
  | 30 => ⟨S1, .f32⟩
  | 31 => ⟨S_, .i32⟩
  | 32 => ⟨S8192x32, .i32⟩
  | 33 => ⟨S8192x32, .i1⟩
  | 34 => ⟨S_, .i32⟩
  | 35 => ⟨S8192x32, .i32⟩
  | 36 => ⟨S8192x32, .i32⟩
  | 37 => ⟨S8192x32, .i32⟩
  | 38 => ⟨S8192x32x1, .i32⟩
  | 39 => ⟨S8192x32x300, .f32⟩
  | 40 => ⟨S_, .f32⟩
  | 41 => ⟨S8192x300, .f32⟩
  | 42 => ⟨S_, .f32⟩
  | 43 => ⟨S8192x300, .f32⟩
  | 44 => ⟨S8192x300, .f32⟩
  | 45 => ⟨S_, .i32⟩
  | 46 => ⟨S8192x20, .i32⟩
  | 47 => ⟨S8192x20, .i1⟩
  | 48 => ⟨S_, .i32⟩
  | 49 => ⟨S8192x20, .i32⟩
  | 50 => ⟨S8192x20, .i32⟩
  | 51 => ⟨S8192x20, .i32⟩
  | 52 => ⟨S8192x20x1, .i32⟩
  | 53 => ⟨S8192x20x64, .f32⟩
  | 54 => ⟨S_, .f32⟩
  | 55 => ⟨S8192x64, .f32⟩
  | 56 => ⟨S_, .f32⟩
  | 57 => ⟨S8192x64, .f32⟩
  | 58 => ⟨S8192x64, .f32⟩
  | 59 => ⟨S_, .i32⟩
  | 60 => ⟨S8192x20, .i32⟩
  | 61 => ⟨S8192x20, .i1⟩
  | 62 => ⟨S_, .i32⟩
  | 63 => ⟨S8192x20, .i32⟩
  | 64 => ⟨S8192x20, .i32⟩
  | 65 => ⟨S8192x20, .i32⟩
  | 66 => ⟨S8192x20x1, .i32⟩
  | 67 => ⟨S8192x20x64, .f32⟩
  | 68 => ⟨S_, .f32⟩
  | 69 => ⟨S8192x64, .f32⟩
  | 70 => ⟨S_, .f32⟩
  | 71 => ⟨S8192x64, .f32⟩
  | 72 => ⟨S8192x64, .f32⟩
  | 73 => ⟨S_, .i32⟩
  | 74 => ⟨S8192x20, .i32⟩
  | 75 => ⟨S8192x20, .i1⟩
  | 76 => ⟨S_, .i32⟩
  | 77 => ⟨S8192x20, .i32⟩
  | 78 => ⟨S8192x20, .i32⟩
  | 79 => ⟨S8192x20, .i32⟩
  | 80 => ⟨S8192x20x1, .i32⟩
  | 81 => ⟨S8192x20x64, .f32⟩
  | 82 => ⟨S_, .f32⟩
  | 83 => ⟨S8192x64, .f32⟩
  | 84 => ⟨S_, .f32⟩
  | 85 => ⟨S8192x64, .f32⟩
  | 86 => ⟨S8192x64, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x64, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x64, .f32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x64, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x64, .f32⟩
  | 123 => ⟨S8192x748, .f32⟩
  | 124 => ⟨S_, .i32⟩
  | 125 => ⟨S8192x20, .i32⟩
  | 126 => ⟨S8192x20, .i1⟩
  | 127 => ⟨S_, .i32⟩
  | _ => ⟨S8192x32, .i32⟩

abbrev hbmTy0_1 (i : Nat) : BufTy := match i % 128 with
  | 0 => ⟨S8192x20, .i32⟩
  | 1 => ⟨S8192x20, .i32⟩
  | 2 => ⟨S8192x20, .i32⟩
  | 3 => ⟨S8192x20x1, .i32⟩
  | 4 => ⟨S8192x20x1, .f32⟩
  | 5 => ⟨S_, .f32⟩
  | 6 => ⟨S8192, .f32⟩
  | 7 => ⟨S_, .i32⟩
  | 8 => ⟨S8192x20, .i32⟩
  | 9 => ⟨S8192x20, .i1⟩
  | 10 => ⟨S_, .i32⟩
  | 11 => ⟨S8192x20, .i32⟩
  | 12 => ⟨S8192x20, .i32⟩
  | 13 => ⟨S8192x20, .i32⟩
  | 14 => ⟨S8192x20x1, .i32⟩
  | 15 => ⟨S8192x20x1, .f32⟩
  | 16 => ⟨S_, .f32⟩
  | 17 => ⟨S8192, .f32⟩
  | 18 => ⟨S8192, .f32⟩
  | 19 => ⟨S_, .i32⟩
  | 20 => ⟨S8192x20, .i32⟩
  | 21 => ⟨S8192x20, .i1⟩
  | 22 => ⟨S_, .i32⟩
  | 23 => ⟨S8192x20, .i32⟩
  | 24 => ⟨S8192x20, .i32⟩
  | 25 => ⟨S8192x20, .i32⟩
  | 26 => ⟨S8192x20x1, .i32⟩
  | 27 => ⟨S8192x20x1, .f32⟩
  | 28 => ⟨S_, .f32⟩
  | 29 => ⟨S8192, .f32⟩
  | 30 => ⟨S8192, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x1, .f32⟩
  | 40 => ⟨S8192, .f32⟩
  | 41 => ⟨S8192, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x1, .f32⟩
  | 51 => ⟨S8192, .f32⟩
  | 52 => ⟨S8192, .f32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x1, .f32⟩
  | 62 => ⟨S8192, .f32⟩
  | 63 => ⟨S8192, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x1, .f32⟩
  | 73 => ⟨S8192, .f32⟩
  | 74 => ⟨S8192, .f32⟩
  | 75 => ⟨S8192x1, .f32⟩
  | 76 => ⟨S8192x1024, .f32⟩
  | 77 => ⟨S1x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S8192x512, .f32⟩
  | 84 => ⟨S1x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S8192x256, .f32⟩
  | 91 => ⟨S1x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S8192x1, .f32⟩
  | 98 => ⟨S1x1, .f32⟩
  | 99 => ⟨S8192x1, .f32⟩
  | 100 => ⟨S8192x1, .f32⟩
  | 101 => ⟨S8192x1, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192x1, .f32⟩
  | 109 => ⟨S8192x1, .f32⟩
  | _ => ⟨S8192x32, .i32⟩

abbrev hbmTy (i : Nat) : BufTy := match i / 128 with
  | 0 => hbmTy0_0 i
  | 1 => hbmTy0_1 i
  | _ => ⟨S8192x32, .i32⟩

abbrev bufTy : (tb : Table) → Fin (tcTables nBuf tb) → BufTy
  | .hbm, ⟨i, _⟩ => hbmTy i
  | _, _ => ⟨S8192x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_cst_1 : Ref sig .tc := ⟨.hbm, 42, rfl⟩
abbrev main_v8 : Ref sig .tc := ⟨.hbm, 43, rfl⟩
abbrev main_v9 : Ref sig .tc := ⟨.hbm, 44, rfl⟩
abbrev main_c_2 : Ref sig .tc := ⟨.hbm, 45, rfl⟩
abbrev main_v10 : Ref sig .tc := ⟨.hbm, 46, rfl⟩
abbrev main_v11 : Ref sig .tc := ⟨.hbm, 47, rfl⟩
abbrev main_c_3 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_4 : Ref sig .tc := ⟨.hbm, 54, rfl⟩
abbrev main_v17 : Ref sig .tc := ⟨.hbm, 55, rfl⟩
abbrev main_cst_5 : Ref sig .tc := ⟨.hbm, 56, rfl⟩
abbrev main_v18 : Ref sig .tc := ⟨.hbm, 57, rfl⟩
abbrev main_v19 : Ref sig .tc := ⟨.hbm, 58, rfl⟩
abbrev main_c_6 : Ref sig .tc := ⟨.hbm, 59, rfl⟩
abbrev main_v20 : Ref sig .tc := ⟨.hbm, 60, rfl⟩
abbrev main_v21 : Ref sig .tc := ⟨.hbm, 61, rfl⟩
abbrev main_c_7 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_8 : Ref sig .tc := ⟨.hbm, 68, rfl⟩
abbrev main_v27 : Ref sig .tc := ⟨.hbm, 69, rfl⟩
abbrev main_cst_9 : Ref sig .tc := ⟨.hbm, 70, rfl⟩
abbrev main_v28 : Ref sig .tc := ⟨.hbm, 71, rfl⟩
abbrev main_v29 : Ref sig .tc := ⟨.hbm, 72, rfl⟩
abbrev main_c_10 : Ref sig .tc := ⟨.hbm, 73, rfl⟩
abbrev main_v30 : Ref sig .tc := ⟨.hbm, 74, rfl⟩
abbrev main_v31 : Ref sig .tc := ⟨.hbm, 75, rfl⟩
abbrev main_c_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_12 : Ref sig .tc := ⟨.hbm, 82, rfl⟩
abbrev main_v37 : Ref sig .tc := ⟨.hbm, 83, rfl⟩
abbrev main_cst_13 : Ref sig .tc := ⟨.hbm, 84, rfl⟩
abbrev main_v38 : Ref sig .tc := ⟨.hbm, 85, rfl⟩
abbrev main_v39 : Ref sig .tc := ⟨.hbm, 86, rfl⟩
abbrev main_c_14 : Ref sig .tc := ⟨.hbm, 87, rfl⟩
abbrev main_v40 : Ref sig .tc := ⟨.hbm, 88, rfl⟩
abbrev main_v41 : Ref sig .tc := ⟨.hbm, 89, rfl⟩
abbrev main_c_15 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_c_16 : Ref sig .tc := ⟨.hbm, 96, rfl⟩
abbrev main_v47 : Ref sig .tc := ⟨.hbm, 97, rfl⟩
abbrev main_v48 : Ref sig .tc := ⟨.hbm, 98, rfl⟩
abbrev main_c_17 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_18 : Ref sig .tc := ⟨.hbm, 105, rfl⟩
abbrev main_v54 : Ref sig .tc := ⟨.hbm, 106, rfl⟩
abbrev main_v55 : Ref sig .tc := ⟨.hbm, 107, rfl⟩
abbrev main_c_19 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_c_20 : Ref sig .tc := ⟨.hbm, 114, rfl⟩
abbrev main_v61 : Ref sig .tc := ⟨.hbm, 115, rfl⟩
abbrev main_v62 : Ref sig .tc := ⟨.hbm, 116, rfl⟩
abbrev main_c_21 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_22 : Ref sig .tc := ⟨.hbm, 124, rfl⟩
abbrev main_v69 : Ref sig .tc := ⟨.hbm, 125, rfl⟩
abbrev main_v70 : Ref sig .tc := ⟨.hbm, 126, rfl⟩
abbrev main_c_23 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_24 : Ref sig .tc := ⟨.hbm, 133, rfl⟩
abbrev main_v76 : Ref sig .tc := ⟨.hbm, 134, rfl⟩
abbrev main_c_25 : Ref sig .tc := ⟨.hbm, 135, rfl⟩
abbrev main_v77 : Ref sig .tc := ⟨.hbm, 136, rfl⟩
abbrev main_v78 : Ref sig .tc := ⟨.hbm, 137, rfl⟩
abbrev main_c_26 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_27 : Ref sig .tc := ⟨.hbm, 144, rfl⟩
abbrev main_v84 : Ref sig .tc := ⟨.hbm, 145, rfl⟩
abbrev main_v85 : Ref sig .tc := ⟨.hbm, 146, rfl⟩
abbrev main_c_28 : Ref sig .tc := ⟨.hbm, 147, rfl⟩
abbrev main_v86 : Ref sig .tc := ⟨.hbm, 148, rfl⟩
abbrev main_v87 : Ref sig .tc := ⟨.hbm, 149, rfl⟩
abbrev main_c_29 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_30 : Ref sig .tc := ⟨.hbm, 156, rfl⟩
abbrev main_v93 : Ref sig .tc := ⟨.hbm, 157, rfl⟩
abbrev main_v94 : Ref sig .tc := ⟨.hbm, 158, rfl⟩
abbrev main_c_31 : Ref sig .tc := ⟨.hbm, 159, rfl⟩
abbrev main_v95 : Ref sig .tc := ⟨.hbm, 160, rfl⟩
abbrev main_v96 : Ref sig .tc := ⟨.hbm, 161, rfl⟩
abbrev main_c_32 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_c_33 : Ref sig .tc := ⟨.hbm, 170, rfl⟩
abbrev main_v104 : Ref sig .tc := ⟨.hbm, 171, rfl⟩
abbrev main_v105 : Ref sig .tc := ⟨.hbm, 172, rfl⟩
abbrev main_c_34 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_c_35 : Ref sig .tc := ⟨.hbm, 181, rfl⟩
abbrev main_v113 : Ref sig .tc := ⟨.hbm, 182, rfl⟩
abbrev main_v114 : Ref sig .tc := ⟨.hbm, 183, rfl⟩
abbrev main_c_36 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_c_37 : Ref sig .tc := ⟨.hbm, 192, rfl⟩
abbrev main_v122 : Ref sig .tc := ⟨.hbm, 193, rfl⟩
abbrev main_v123 : Ref sig .tc := ⟨.hbm, 194, rfl⟩
abbrev main_c_38 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_call0_cst : Ref sig .tc := ⟨.hbm, 208, rfl⟩
abbrev main_call0_v0 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_call1_cst : Ref sig .tc := ⟨.hbm, 215, rfl⟩
abbrev main_call1_v0 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_call2_cst : Ref sig .tc := ⟨.hbm, 222, rfl⟩
abbrev main_call2_v0 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_cst_39 : Ref sig .tc := ⟨.hbm, 232, rfl⟩
abbrev main_v154 : Ref sig .tc := ⟨.hbm, 233, rfl⟩
abbrev main_v155 : Ref sig .tc := ⟨.hbm, 234, rfl⟩
abbrev main_cst_40 : Ref sig .tc := ⟨.hbm, 235, rfl⟩
abbrev main_v156 : Ref sig .tc := ⟨.hbm, 236, rfl⟩
abbrev main_v157 : Ref sig .tc := ⟨.hbm, 237, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  reducesTo_S8192x32x300_S8192x300_d1 : S8192x32x300.ReducesTo [1] S8192x300
  h_S_ : 0 < S_.numel
  bcast_S_S8192x300 : S_.BroadcastsInDim S8192x300 (![] : Fin 0 → Fin S8192x300.rank)
  bcast_S_S8192x20 : S_.BroadcastsInDim S8192x20 (![] : Fin 0 → Fin S8192x20.rank)
  bcast_S8192x20_S8192x20x1_0_1 : S8192x20.BroadcastsInDim S8192x20x1 (![0, 1] : Fin 2 → Fin S8192x20x1.rank)
  reducesTo_S8192x20x64_S8192x64_d1 : S8192x20x64.ReducesTo [1] S8192x64
  bcast_S_S8192x64 : S_.BroadcastsInDim S8192x64 (![] : Fin 0 → Fin S8192x64.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x300_S8192x64_S8192x64_S8192x64_S8192x64_S8192x64_S8192x64_S8192x64_S8192x748_d1 : Shape.Concatenates [S8192x300, S8192x64, S8192x64, S8192x64, S8192x64, S8192x64, S8192x64, S8192x64] S8192x748 1
  reducesTo_S8192x20x1_S8192_d1_2 : S8192x20x1.ReducesTo [1, 2] S8192
  shapeCasts_S8192x1_S8192 : S8192x1.ShapeCasts S8192
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  gather_S50000x300_S8192x32x1_S8192x32x300_2_0_n_n_0_2_1300_wf : GatherDims.WF S50000x300 S8192x32x1 S8192x32x300 [2] [0] [] [0] [] 2 ![1, 300]
  gather_S1000x64_S8192x20x1_S8192x20x64_2_0_n_n_0_2_164_wf : GatherDims.WF S1000x64 S8192x20x1 S8192x20x64 [2] [0] [] [0] [] 2 ![1, 64]
  gather_S5000x64_S8192x20x1_S8192x20x64_2_0_n_n_0_2_164_wf : GatherDims.WF S5000x64 S8192x20x1 S8192x20x64 [2] [0] [] [0] [] 2 ![1, 64]
  gather_S10000x64_S8192x20x1_S8192x20x64_2_0_n_n_0_2_164_wf : GatherDims.WF S10000x64 S8192x20x1 S8192x20x64 [2] [0] [] [0] [] 2 ![1, 64]
  gather_S100x64_S8192x1_S8192x64_1_0_n_n_0_1_164_wf : GatherDims.WF S100x64 S8192x1 S8192x64 [1] [0] [] [0] [] 1 ![1, 64]
  gather_S50x64_S8192x1_S8192x64_1_0_n_n_0_1_164_wf : GatherDims.WF S50x64 S8192x1 S8192x64 [1] [0] [] [0] [] 1 ![1, 64]
  gather_S20x64_S8192x1_S8192x64_1_0_n_n_0_1_164_wf : GatherDims.WF S20x64 S8192x1 S8192x64 [1] [0] [] [0] [] 1 ![1, 64]
  gather_S1000x64_S8192x1_S8192x64_1_0_n_n_0_1_164_wf : GatherDims.WF S1000x64 S8192x1 S8192x64 [1] [0] [] [0] [] 1 ![1, 64]
  gather_S1000x1_S8192x20x1_S8192x20x1_2_0_n_n_0_2_11_wf : GatherDims.WF S1000x1 S8192x20x1 S8192x20x1 [2] [0] [] [0] [] 2 ![1, 1]
  gather_S5000x1_S8192x20x1_S8192x20x1_2_0_n_n_0_2_11_wf : GatherDims.WF S5000x1 S8192x20x1 S8192x20x1 [2] [0] [] [0] [] 2 ![1, 1]
  gather_S10000x1_S8192x20x1_S8192x20x1_2_0_n_n_0_2_11_wf : GatherDims.WF S10000x1 S8192x20x1 S8192x20x1 [2] [0] [] [0] [] 2 ![1, 1]
  gather_S100x1_S8192x1_S8192x1_1_0_n_n_0_1_11_wf : GatherDims.WF S100x1 S8192x1 S8192x1 [1] [0] [] [0] [] 1 ![1, 1]
  gather_S50x1_S8192x1_S8192x1_1_0_n_n_0_1_11_wf : GatherDims.WF S50x1 S8192x1 S8192x1 [1] [0] [] [0] [] 1 ![1, 1]
  gather_S20x1_S8192x1_S8192x1_1_0_n_n_0_1_11_wf : GatherDims.WF S20x1 S8192x1 S8192x1 [1] [0] [] [0] [] 1 ![1, 1]
  gather_S1000x1_S8192x1_S8192x1_1_0_n_n_0_1_11_wf : GatherDims.WF S1000x1 S8192x1 S8192x1 [1] [0] [] [0] [] 1 ![1, 1]
  dot_S8192x748_S748x1024_S8192x1024_1_0_0_1_n_n_wf : DotDims.WF S8192x748 S748x1024 S8192x1024 [1] [0] [0] [1] [] []
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []

variable [Facts₀]

def gather_S50000x300_S8192x32x1_S8192x32x300_2_0_n_n_0_2_1300 : GatherDims S50000x300 S8192x32x1 S8192x32x300 where
  offsetDims := [2]
  collapsedSliceDims := [0]
  operandBatchingDims := []
  startIndicesBatchingDims := []
  startIndexMap := [0]
  indexVectorDim := 2
  sliceSizes := ![1, 300]
  wf := gather_S50000x300_S8192x32x1_S8192x32x300_2_0_n_n_0_2_1300_wf
def gather_S1000x64_S8192x20x1_S8192x20x64_2_0_n_n_0_2_164 : GatherDims S1000x64 S8192x20x1 S8192x20x64 where
  offsetDims := [2]
  collapsedSliceDims := [0]
  operandBatchingDims := []
  startIndicesBatchingDims := []
  startIndexMap := [0]
  indexVectorDim := 2
  sliceSizes := ![1, 64]
  wf := gather_S1000x64_S8192x20x1_S8192x20x64_2_0_n_n_0_2_164_wf
def gather_S5000x64_S8192x20x1_S8192x20x64_2_0_n_n_0_2_164 : GatherDims S5000x64 S8192x20x1 S8192x20x64 where
  offsetDims := [2]
  collapsedSliceDims := [0]
  operandBatchingDims := []
  startIndicesBatchingDims := []
  startIndexMap := [0]
  indexVectorDim := 2
  sliceSizes := ![1, 64]
  wf := gather_S5000x64_S8192x20x1_S8192x20x64_2_0_n_n_0_2_164_wf
def gather_S10000x64_S8192x20x1_S8192x20x64_2_0_n_n_0_2_164 : GatherDims S10000x64 S8192x20x1 S8192x20x64 where
  offsetDims := [2]
  collapsedSliceDims := [0]
  operandBatchingDims := []
  startIndicesBatchingDims := []
  startIndexMap := [0]
  indexVectorDim := 2
  sliceSizes := ![1, 64]
  wf := gather_S10000x64_S8192x20x1_S8192x20x64_2_0_n_n_0_2_164_wf
def gather_S100x64_S8192x1_S8192x64_1_0_n_n_0_1_164 : GatherDims S100x64 S8192x1 S8192x64 where
  offsetDims := [1]
  collapsedSliceDims := [0]
  operandBatchingDims := []
  startIndicesBatchingDims := []
  startIndexMap := [0]
  indexVectorDim := 1
  sliceSizes := ![1, 64]
  wf := gather_S100x64_S8192x1_S8192x64_1_0_n_n_0_1_164_wf
def gather_S50x64_S8192x1_S8192x64_1_0_n_n_0_1_164 : GatherDims S50x64 S8192x1 S8192x64 where
  offsetDims := [1]
  collapsedSliceDims := [0]
  operandBatchingDims := []
  startIndicesBatchingDims := []
  startIndexMap := [0]
  indexVectorDim := 1
  sliceSizes := ![1, 64]
  wf := gather_S50x64_S8192x1_S8192x64_1_0_n_n_0_1_164_wf
def gather_S20x64_S8192x1_S8192x64_1_0_n_n_0_1_164 : GatherDims S20x64 S8192x1 S8192x64 where
  offsetDims := [1]
  collapsedSliceDims := [0]
  operandBatchingDims := []
  startIndicesBatchingDims := []
  startIndexMap := [0]
  indexVectorDim := 1
  sliceSizes := ![1, 64]
  wf := gather_S20x64_S8192x1_S8192x64_1_0_n_n_0_1_164_wf
def gather_S1000x64_S8192x1_S8192x64_1_0_n_n_0_1_164 : GatherDims S1000x64 S8192x1 S8192x64 where
  offsetDims := [1]
  collapsedSliceDims := [0]
  operandBatchingDims := []
  startIndicesBatchingDims := []
  startIndexMap := [0]
  indexVectorDim := 1
  sliceSizes := ![1, 64]
  wf := gather_S1000x64_S8192x1_S8192x64_1_0_n_n_0_1_164_wf
def gather_S1000x1_S8192x20x1_S8192x20x1_2_0_n_n_0_2_11 : GatherDims S1000x1 S8192x20x1 S8192x20x1 where
  offsetDims := [2]
  collapsedSliceDims := [0]
  operandBatchingDims := []
  startIndicesBatchingDims := []
  startIndexMap := [0]
  indexVectorDim := 2
  sliceSizes := ![1, 1]
  wf := gather_S1000x1_S8192x20x1_S8192x20x1_2_0_n_n_0_2_11_wf
def gather_S5000x1_S8192x20x1_S8192x20x1_2_0_n_n_0_2_11 : GatherDims S5000x1 S8192x20x1 S8192x20x1 where
  offsetDims := [2]
  collapsedSliceDims := [0]
  operandBatchingDims := []
  startIndicesBatchingDims := []
  startIndexMap := [0]
  indexVectorDim := 2
  sliceSizes := ![1, 1]
  wf := gather_S5000x1_S8192x20x1_S8192x20x1_2_0_n_n_0_2_11_wf
def gather_S10000x1_S8192x20x1_S8192x20x1_2_0_n_n_0_2_11 : GatherDims S10000x1 S8192x20x1 S8192x20x1 where
  offsetDims := [2]
  collapsedSliceDims := [0]
  operandBatchingDims := []
  startIndicesBatchingDims := []
  startIndexMap := [0]
  indexVectorDim := 2
  sliceSizes := ![1, 1]
  wf := gather_S10000x1_S8192x20x1_S8192x20x1_2_0_n_n_0_2_11_wf
def gather_S100x1_S8192x1_S8192x1_1_0_n_n_0_1_11 : GatherDims S100x1 S8192x1 S8192x1 where
  offsetDims := [1]
  collapsedSliceDims := [0]
  operandBatchingDims := []
  startIndicesBatchingDims := []
  startIndexMap := [0]
  indexVectorDim := 1
  sliceSizes := ![1, 1]
  wf := gather_S100x1_S8192x1_S8192x1_1_0_n_n_0_1_11_wf
def gather_S50x1_S8192x1_S8192x1_1_0_n_n_0_1_11 : GatherDims S50x1 S8192x1 S8192x1 where
  offsetDims := [1]
  collapsedSliceDims := [0]
  operandBatchingDims := []
  startIndicesBatchingDims := []
  startIndexMap := [0]
  indexVectorDim := 1
  sliceSizes := ![1, 1]
  wf := gather_S50x1_S8192x1_S8192x1_1_0_n_n_0_1_11_wf
def gather_S20x1_S8192x1_S8192x1_1_0_n_n_0_1_11 : GatherDims S20x1 S8192x1 S8192x1 where
  offsetDims := [1]
  collapsedSliceDims := [0]
  operandBatchingDims := []
  startIndicesBatchingDims := []
  startIndexMap := [0]
  indexVectorDim := 1
  sliceSizes := ![1, 1]
  wf := gather_S20x1_S8192x1_S8192x1_1_0_n_n_0_1_11_wf
def gather_S1000x1_S8192x1_S8192x1_1_0_n_n_0_1_11 : GatherDims S1000x1 S8192x1 S8192x1 where
  offsetDims := [1]
  collapsedSliceDims := [0]
  operandBatchingDims := []
  startIndicesBatchingDims := []
  startIndexMap := [0]
  indexVectorDim := 1
  sliceSizes := ![1, 1]
  wf := gather_S1000x1_S8192x1_S8192x1_1_0_n_n_0_1_11_wf
def dot_S8192x748_S748x1024_S8192x1024_1_0_0_1_n_n : DotDims S8192x748 S748x1024 S8192x1024 where
  lhsContracting := [1]
  rhsContracting := [0]
  lhsNonContracting := [0]
  rhsNonContracting := [1]
  lhsBatch := []
  rhsBatch := []
  wf := dot_S8192x748_S748x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.LibGatherRows3.lean ====
/-
  A row gather whose start indices are laid out as a matrix, read at an index, for any extents and any element type.

  Operand [N, C], start indices [A, B, 1], result [A, B, C] (what x[idx] lowers to for a table x of N rows and an integer
  matrix idx : [A, B]). Entry (a, b, q) of the result is the operand at column q of the row the word idx[a, b, 0] selects:
  the word read as a signed integer and clamped into [0, N − 1].

  So two such gathers of one table, at index matrices [A, B] and [B, A] that are transposes of each other, are transposes
  of each other in their two leading axes: entry (a, b, q) of the first is entry (b, a, q) of the second.
-/
import Idealize.ShloMosaic.PureOps.ShapeOps
import Idealize.ShloMosaic.Lib.ValueIdx

noncomputable section

namespace Cert.LibGatherRows3

open Idealize.ShloMosaic Idealize.ShloMosaic.ValueIdx

variable {α : Type}

/-- The row a start index word selects among N rows: read signed, clamped into [0, N − 1]. -/
def clampRow (N : Nat) (hN : 0 < N) {w : Nat} (v : BitVec w) : Fin N := ⟨min v.toInt.toNat (N - 1), by omega⟩

/-- The dimension numbers of x[idx] along axis 0 of a rank-2 operand at a matrix of indices:
    operand [N, C], start indices [A, B, 1], result [A, B, C]. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather at (a, b, q): the operand at the clamped row idx[a, b, 0] and column q. -/
theorem rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q)
      = x (ix2 (clampRow N hN (idx (ix3 a b (0 : Fin 1)))) q) := by
  unfold Host.gather
  congr 1
  funext ax
  refine Fin.ext ?_
  match ax with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = q.val
    rw [GatherDims.batchCoord_eq_zero _ _ _ List.not_mem_nil]
    unfold GatherDims.start
    rw [dif_neg (show (1 : Fin 2) ∉ (rows3Dims N C A B wf).startIndexMap from
      (by decide : (1 : Fin 2) ∉ ([0] : List (Fin 2))))]
    simp only [Nat.add_zero, Nat.zero_add]
    rfl

/-- Gathers of one table at index matrices that are transposes of each other are transposes of each other in the two
    leading axes. -/
theorem rows3_transposed {N C A B w : Nat} (hN : 0 < N)
    (wf : GatherDims.WF ⟨2, ![N, C]⟩ ⟨3, ![A, B, 1]⟩ ⟨3, ![A, B, C]⟩ [2] [0] [] [0] [] 2 ![1, C])
    (wf' : GatherDims.WF ⟨2, ![N, C]⟩ ⟨3, ![B, A, 1]⟩ ⟨3, ![B, A, C]⟩ [2] [0] [] [0] [] 2 ![1, C])
    (x : (⟨2, ![N, C]⟩ : Shape).Idx → α) (idx : IVec ⟨3, ![A, B, 1]⟩ w) (idx' : IVec ⟨3, ![B, A, 1]⟩ w)
    (a : Fin A) (b : Fin B) (q : Fin C) (h : idx (ix3 a b (0 : Fin 1)) = idx' (ix3 b a (0 : Fin 1))) :
    Host.gather (rows3Dims N C A B wf) x idx (ix3 a b q) = Host.gather (rows3Dims N C B A wf') x idx' (ix3 b a q) := by
  rw [rows3_apply hN wf, rows3_apply hN wf', h]

end Cert.LibGatherRows3

end
-- ==== Proof.Spec.lean ====
/-
  The wide-and-deep model's result as ONE function of its thirty-one argument arrays, index by index, on the
  extended reals. No program is imported here.

  A lookup x[idx] among N table rows reads the index word signed; a negative word counts from the end (N is added
  once), and the outcome is clamped into [0, N - 1] (rowOf).  A bag of L lookups is summed entry by entry (bagSum); a
  multi-hot field is the bag's mean (the sum divided by L), a one-hot field is a single row (pick).  The deep input of
  batch row b is the join of the eight fields, 300 + 7 * 64 = 748 entries (emb); three dense layers follow, each a
  matrix product plus a bias clipped below at zero, then a last product with a column, plus its bias, plus the wide sum
  (the seven wide tables' looked-up entries added up, multi-hot ones summed over their bags), under the logistic
  function.
-/
import Idealize.ShloMosaic.PureOps.Ideal
import Idealize.ShloMosaic.Lib.ValueIdx
import proofs.«151196_j43095701848227_2_alg».proof.Proof.LibGatherRows3

noncomputable section

namespace Cert.WideDeep

open Idealize.ShloMosaic Idealize.ShloMosaic.ValueIdx Cert.LibGatherRows3

/-- The row an index word selects among N rows, as x[idx] reads it. -/
def rowOf (N : Nat) (hN : 0 < N) (w : BitVec 32) : Fin N :=
  clampRow N hN (Scalar.select (IntOp.cmpi .slt w 0#32) (IntOp.addi w (BitVec.ofNat 32 N)) w)

/-- Entry d of the sum of the L table rows that batch row b's bag selects. -/
def bagSum {L N D : Nat} (hN : 0 < N) (I : IVec ⟨2, ![8192, L]⟩ 32) (T : FVec Ideal ⟨2, ![N, D]⟩ .f32)
    (b : Fin 8192) (d : Fin D) : EReal :=
  ∑ j : Fin L, T (ix2 (rowOf N hN (I (ix2 b j))) d)

/-- Entry d of the one table row that batch row b's index selects. -/
def pick {N D : Nat} (hN : 0 < N) (J : IVec ⟨1, ![8192]⟩ 32) (T : FVec Ideal ⟨2, ![N, D]⟩ .f32)
    (b : Fin 8192) (d : Fin D) : EReal :=
  T (ix2 (rowOf N hN (J (ix1 b))) d)

/-- The argument arrays, in the order the programs take them. -/
structure Args where
  tokIdx : IVec ⟨2, ![8192, 32]⟩ 32
  mh1Idx : IVec ⟨2, ![8192, 20]⟩ 32
  mh2Idx : IVec ⟨2, ![8192, 20]⟩ 32
  mh3Idx : IVec ⟨2, ![8192, 20]⟩ 32
  oh1Idx : IVec ⟨1, ![8192]⟩ 32
  oh2Idx : IVec ⟨1, ![8192]⟩ 32
  oh3Idx : IVec ⟨1, ![8192]⟩ 32
  oh4Idx : IVec ⟨1, ![8192]⟩ 32
  wordEmb : FVec Ideal ⟨2, ![50000, 300]⟩ .f32
  embMh1 : FVec Ideal ⟨2, ![1000, 64]⟩ .f32
  embMh2 : FVec Ideal ⟨2, ![5000, 64]⟩ .f32
  embMh3 : FVec Ideal ⟨2, ![10000, 64]⟩ .f32
  embOh1 : FVec Ideal ⟨2, ![100, 64]⟩ .f32
  embOh2 : FVec Ideal ⟨2, ![50, 64]⟩ .f32
  embOh3 : FVec Ideal ⟨2, ![20, 64]⟩ .f32
  embOh4 : FVec Ideal ⟨2, ![1000, 64]⟩ .f32
  wideMh1 : FVec Ideal ⟨2, ![1000, 1]⟩ .f32
  wideMh2 : FVec Ideal ⟨2, ![5000, 1]⟩ .f32
  wideMh3 : FVec Ideal ⟨2, ![10000, 1]⟩ .f32
  wideOh1 : FVec Ideal ⟨2, ![100, 1]⟩ .f32
  wideOh2 : FVec Ideal ⟨2, ![50, 1]⟩ .f32
  wideOh3 : FVec Ideal ⟨2, ![20, 1]⟩ .f32
  wideOh4 : FVec Ideal ⟨2, ![1000, 1]⟩ .f32
  W1 : FVec Ideal ⟨2, ![748, 1024]⟩ .f32
  b1 : FVec Ideal ⟨1, ![1024]⟩ .f32
  W2 : FVec Ideal ⟨2, ![1024, 512]⟩ .f32
  b2 : FVec Ideal ⟨1, ![512]⟩ .f32
  W3 : FVec Ideal ⟨2, ![512, 256]⟩ .f32
  b3 : FVec Ideal ⟨1, ![256]⟩ .f32
  Wd : FVec Ideal ⟨2, ![256, 1]⟩ .f32
  bd : FVec Ideal ⟨1, ![1]⟩ .f32

variable (a : Args)

/-- The bag sizes as the programs divide by them: the float words of 32 and 20. -/
abbrev w32 : BitVec 32 := 0x42000000#32
abbrev w20 : BitVec 32 := 0x41A00000#32

/-! ## The eight deep fields -/

def tok (b : Fin 8192) (d : Fin 300) : EReal :=
  Ideal.div (bagSum (by decide : 0 < 50000) a.tokIdx a.wordEmb b d) (Ideal.ofBits .f32 w32)
def e1 (b : Fin 8192) (d : Fin 64) : EReal :=
  Ideal.div (bagSum (by decide : 0 < 1000) a.mh1Idx a.embMh1 b d) (Ideal.ofBits .f32 w20)
def e2 (b : Fin 8192) (d : Fin 64) : EReal :=
  Ideal.div (bagSum (by decide : 0 < 5000) a.mh2Idx a.embMh2 b d) (Ideal.ofBits .f32 w20)
def e3 (b : Fin 8192) (d : Fin 64) : EReal :=
  Ideal.div (bagSum (by decide : 0 < 10000) a.mh3Idx a.embMh3 b d) (Ideal.ofBits .f32 w20)
def o1 (b : Fin 8192) (d : Fin 64) : EReal := pick (by decide : 0 < 100) a.oh1Idx a.embOh1 b d
def o2 (b : Fin 8192) (d : Fin 64) : EReal := pick (by decide : 0 < 50) a.oh2Idx a.embOh2 b d
def o3 (b : Fin 8192) (d : Fin 64) : EReal := pick (by decide : 0 < 20) a.oh3Idx a.embOh3 b d
def o4 (b : Fin 8192) (d : Fin 64) : EReal := pick (by decide : 0 < 1000) a.oh4Idx a.embOh4 b d

/-- The wide sum of batch row b: the seven wide tables' entries, added left to right. -/
def wide (b : Fin 8192) : EReal :=
  bagSum (by decide : 0 < 1000) a.mh1Idx a.wideMh1 b (0 : Fin 1)
    + bagSum (by decide : 0 < 5000) a.mh2Idx a.wideMh2 b (0 : Fin 1)
    + bagSum (by decide : 0 < 10000) a.mh3Idx a.wideMh3 b (0 : Fin 1)
    + pick (by decide : 0 < 100) a.oh1Idx a.wideOh1 b (0 : Fin 1)
    + pick (by decide : 0 < 50) a.oh2Idx a.wideOh2 b (0 : Fin 1)
    + pick (by decide : 0 < 20) a.oh3Idx a.wideOh3 b (0 : Fin 1)
    + pick (by decide : 0 < 1000) a.oh4Idx a.wideOh4 b (0 : Fin 1)

/-- The deep input: the eight fields joined, entry k of 748. -/
def emb (b : Fin 8192) (k : Fin 748) : EReal :=
  if h0 : k.val < 300 then tok a b ⟨k.val, h0⟩
  else if h1 : k.val < 364 then e1 a b ⟨k.val - 300, by omega⟩
  else if h2 : k.val < 428 then e2 a b ⟨k.val - 364, by omega⟩
  else if h3 : k.val < 492 then e3 a b ⟨k.val - 428, by omega⟩
  else if h4 : k.val < 556 then o1 a b ⟨k.val - 492, by omega⟩
  else if h5 : k.val < 620 then o2 a b ⟨k.val - 556, by omega⟩
  else if h6 : k.val < 684 then o3 a b ⟨k.val - 620, by omega⟩
  else o4 a b ⟨k.val - 684, by omega⟩

/-! ## The deep tower and the result -/

/-- The float word of zero, below which a layer's output is clipped. -/
abbrev z : EReal := Ideal.ofBits .f32 0x00000000#32

def h1 (b : Fin 8192) (n : Fin 1024) : EReal :=
  max ((∑ k : Fin 748, emb a b k * a.W1 (ix2 k n)) + a.b1 (ix1 n)) z
def h2 (b : Fin 8192) (n : Fin 512) : EReal :=
  max ((∑ k : Fin 1024, h1 a b k * a.W2 (ix2 k n)) + a.b2 (ix1 n)) z
def h3 (b : Fin 8192) (n : Fin 256) : EReal :=
  max ((∑ k : Fin 512, h2 a b k * a.W3 (ix2 k n)) + a.b3 (ix1 n)) z
def logit (b : Fin 8192) : EReal :=
  (∑ k : Fin 256, h3 a b k * a.Wd (ix2 k (0 : Fin 1))) + a.bd (ix1 (0 : Fin 1)) + wide a b

/-- The result array [8192, 1]. -/
def out : FVec Ideal ⟨2, ![8192, 1]⟩ .f32 := fun i => Ideal.logistic (logit a (i 0))

end Cert.WideDeep

end
-- ==== Proof.Tower.lean ====
/-
  One batch row of the model as a function of that row's eight fields, its wide sum and the weights, with the first
  layer's product taken field by field: the 748-term sum over the joined input is the sum of eight shorter sums, one per
  field against the matching rows of the first weight matrix (finite sums on the extended reals regroup freely).
  The specification's result at a batch row is this function of the specification's fields.
-/
import proofs.«151196_j43095701848227_2_alg».proof.Proof.Spec

noncomputable section

namespace Cert.WideDeep

open Idealize.ShloMosaic Idealize.ShloMosaic.ValueIdx

/-- A sum over the first m + n naturals is the sum over the first m plus the sum over the next n. -/
theorem sum_fin_add {A : Type} [AddCommMonoid A] (m n : Nat) (f : Fin (m + n) → A) :
    ∑ i, f i = (∑ i : Fin m, f ⟨i.val, by omega⟩) + ∑ i : Fin n, f ⟨m + i.val, by omega⟩ := by
  rw [Fin.sum_univ_add]
  rfl

/-- A layer's output entry: the products' sum plus the bias, clipped below at zero. -/
def layer {K : Nat} (x : Fin K → EReal) (w : Fin K → EReal) (bias : EReal) : EReal :=
  max ((∑ k : Fin K, x k * w k) + bias) z

/-- The first layer's sum for output n, field by field, added left to right. -/
def firstSum (f0 : Fin 300 → EReal) (f1 f2 f3 f4 f5 f6 f7 : Fin 64 → EReal)
    (u0 : Fin 300 → EReal) (u1 u2 u3 u4 u5 u6 u7 : Fin 64 → EReal) : EReal :=
  (∑ k, f0 k * u0 k) + (∑ k, f1 k * u1 k) + (∑ k, f2 k * u2 k) + (∑ k, f3 k * u3 k) + (∑ k, f4 k * u4 k)
    + (∑ k, f5 k * u5 k) + (∑ k, f6 k * u6 k) + (∑ k, f7 k * u7 k)

/-- One batch row: fields f0 … f7, wide sum wd; first weight matrix as eight row groups U0 … U7. -/
def towerRow (f0 : Fin 300 → EReal) (f1 f2 f3 f4 f5 f6 f7 : Fin 64 → EReal) (wd : EReal)
    (U0 : Fin 300 → Fin 1024 → EReal) (U1 U2 U3 U4 U5 U6 U7 : Fin 64 → Fin 1024 → EReal) (c1 : Fin 1024 → EReal)
    (V2 : Fin 1024 → Fin 512 → EReal) (c2 : Fin 512 → EReal) (V3 : Fin 512 → Fin 256 → EReal) (c3 : Fin 256 → EReal)
    (vd : Fin 256 → EReal) (cd : EReal) : EReal :=
  Ideal.logistic
    ((∑ k3 : Fin 256,
        layer (fun k2 : Fin 512 =>
          layer (fun k1 : Fin 1024 =>
            max (firstSum f0 f1 f2 f3 f4 f5 f6 f7 (fun k => U0 k k1) (fun k => U1 k k1) (fun k => U2 k k1)
              (fun k => U3 k k1) (fun k => U4 k k1) (fun k => U5 k k1) (fun k => U6 k k1) (fun k => U7 k k1) + c1 k1) z)
            (fun k1 => V2 k1 k2) (c2 k2))
          (fun k2 => V3 k2 k3) (c3 k3) * vd k3) + cd + wd)

variable (a : Args)

/-- The 748-term sum of the joined input against a column of weights is the eight fields' sums, left to right. -/
theorem emb_sum_split (b : Fin 8192) (w : Fin 748 → EReal) :
    ∑ k : Fin 748, emb a b k * w k
      = firstSum (tok a b) (e1 a b) (e2 a b) (e3 a b) (o1 a b) (o2 a b) (o3 a b) (o4 a b)
          (fun k => w ⟨k.val, by omega⟩) (fun k => w ⟨300 + k.val, by omega⟩) (fun k => w ⟨364 + k.val, by omega⟩)
          (fun k => w ⟨428 + k.val, by omega⟩) (fun k => w ⟨492 + k.val, by omega⟩) (fun k => w ⟨556 + k.val, by omega⟩)
          (fun k => w ⟨620 + k.val, by omega⟩) (fun k => w ⟨684 + k.val, by omega⟩) := by
  unfold firstSum
  rw [sum_fin_add 684 64 (fun k => emb a b k * w k), sum_fin_add 620 64, sum_fin_add 556 64, sum_fin_add 492 64,
    sum_fin_add 428 64, sum_fin_add 364 64, sum_fin_add 300 64]
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals refine Finset.sum_congr rfl fun k _ => ?_
  all_goals have hk := k.isLt
  · show emb a b ⟨k.val, _⟩ * _ = _
    unfold emb; rw [dif_pos (show k.val < 300 from hk)]
  · show emb a b ⟨300 + k.val, _⟩ * _ = _
    unfold emb
    rw [dif_neg (show ¬(300 + k.val < 300) by omega), dif_pos (show 300 + k.val < 364 by omega)]
    congr 2; exact Fin.ext (by show 300 + k.val - 300 = k.val; omega)
  · show emb a b ⟨364 + k.val, _⟩ * _ = _
    unfold emb
    rw [dif_neg (show ¬(364 + k.val < 300) by omega), dif_neg (show ¬(364 + k.val < 364) by omega),
      dif_pos (show 364 + k.val < 428 by omega)]
    congr 2; exact Fin.ext (by show 364 + k.val - 364 = k.val; omega)
  · show emb a b ⟨428 + k.val, _⟩ * _ = _
    unfold emb
    rw [dif_neg (show ¬(428 + k.val < 300) by omega), dif_neg (show ¬(428 + k.val < 364) by omega),
      dif_neg (show ¬(428 + k.val < 428) by omega), dif_pos (show 428 + k.val < 492 by omega)]
    congr 2; exact Fin.ext (by show 428 + k.val - 428 = k.val; omega)
  · show emb a b ⟨492 + k.val, _⟩ * _ = _
    unfold emb
    rw [dif_neg (show ¬(492 + k.val < 300) by omega), dif_neg (show ¬(492 + k.val < 364) by omega),
      dif_neg (show ¬(492 + k.val < 428) by omega), dif_neg (show ¬(492 + k.val < 492) by omega),
      dif_pos (show 492 + k.val < 556 by omega)]
    congr 2; exact Fin.ext (by show 492 + k.val - 492 = k.val; omega)
  · show emb a b ⟨556 + k.val, _⟩ * _ = _
    unfold emb
    rw [dif_neg (show ¬(556 + k.val < 300) by omega), dif_neg (show ¬(556 + k.val < 364) by omega),
      dif_neg (show ¬(556 + k.val < 428) by omega), dif_neg (show ¬(556 + k.val < 492) by omega),
      dif_neg (show ¬(556 + k.val < 556) by omega), dif_pos (show 556 + k.val < 620 by omega)]
    congr 2; exact Fin.ext (by show 556 + k.val - 556 = k.val; omega)
  · show emb a b ⟨620 + k.val, _⟩ * _ = _
    unfold emb
    rw [dif_neg (show ¬(620 + k.val < 300) by omega), dif_neg (show ¬(620 + k.val < 364) by omega),
      dif_neg (show ¬(620 + k.val < 428) by omega), dif_neg (show ¬(620 + k.val < 492) by omega),
      dif_neg (show ¬(620 + k.val < 556) by omega), dif_neg (show ¬(620 + k.val < 620) by omega),
      dif_pos (show 620 + k.val < 684 by omega)]
    congr 2; exact Fin.ext (by show 620 + k.val - 620 = k.val; omega)
  · show emb a b ⟨684 + k.val, _⟩ * _ = _
    unfold emb
    rw [dif_neg (show ¬(684 + k.val < 300) by omega), dif_neg (show ¬(684 + k.val < 364) by omega),
      dif_neg (show ¬(684 + k.val < 428) by omega), dif_neg (show ¬(684 + k.val < 492) by omega),
      dif_neg (show ¬(684 + k.val < 556) by omega), dif_neg (show ¬(684 + k.val < 620) by omega),
      dif_neg (show ¬(684 + k.val < 684) by omega)]
    congr 2; exact Fin.ext (by show 684 + k.val - 684 = k.val; omega)

/-- The specification's result at batch row b is the row function of the specification's fields and the weights, the
    first weight matrix cut into the eight row groups that face the eight fields. -/
theorem out_eq_towerRow (b : Fin 8192) (q : Fin 1) :
    out a (ix2 b q)
      = towerRow (tok a b) (e1 a b) (e2 a b) (e3 a b) (o1 a b) (o2 a b) (o3 a b) (o4 a b) (wide a b)
          (fun k n => a.W1 (ix2 ⟨k.val, by omega⟩ n)) (fun k n => a.W1 (ix2 ⟨300 + k.val, by omega⟩ n))
          (fun k n => a.W1 (ix2 ⟨364 + k.val, by omega⟩ n)) (fun k n => a.W1 (ix2 ⟨428 + k.val, by omega⟩ n))
          (fun k n => a.W1 (ix2 ⟨492 + k.val, by omega⟩ n)) (fun k n => a.W1 (ix2 ⟨556 + k.val, by omega⟩ n))
          (fun k n => a.W1 (ix2 ⟨620 + k.val, by omega⟩ n)) (fun k n => a.W1 (ix2 ⟨684 + k.val, by omega⟩ n))
          (fun n => a.b1 (ix1 n)) (fun k n => a.W2 (ix2 k n)) (fun n => a.b2 (ix1 n)) (fun k n => a.W3 (ix2 k n))
          (fun n => a.b3 (ix1 n)) (fun k => a.Wd (ix2 k (0 : Fin 1))) (a.bd (ix1 (0 : Fin 1))) := by
  show Ideal.logistic (logit a b) = _
  unfold towerRow logit layer
  refine congrArg Ideal.logistic (congrArg (· + wide a b) (congrArg (· + a.bd (ix1 (0 : Fin 1))) ?_))
  refine Finset.sum_congr rfl fun k3 _ => congrArg (· * a.Wd (ix2 k3 (0 : Fin 1))) ?_
  unfold h3
  refine congrArg (max · z) (congrArg (· + a.b3 (ix1 k3)) (Finset.sum_congr rfl fun k2 _ => congrArg (· * a.W3 (ix2 k2 k3)) ?_))
  unfold h2
  refine congrArg (max · z) (congrArg (· + a.b2 (ix1 k2)) (Finset.sum_congr rfl fun k1 _ => congrArg (· * a.W2 (ix2 k1 k2)) ?_))
  unfold h1
  refine congrArg (max · z) (congrArg (· + a.b1 (ix1 k1)) ?_)
  exact emb_sum_split a b (fun k => a.W1 (ix2 k k1))

end Cert.WideDeep

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Block.lean ====
/-
  The block of results the kernel body leaves at one grid point, read entry by entry on the extended reals.

  The body takes 1024 batch rows at a time.  It forms the first layer's sums field by field — the token block times its
  300 weight rows, then each 64-wide field times its 64 weight rows, every partial sum added to the running total —,
  adds the bias and clips below at zero, applies the two further dense layers the same way, takes the last product with
  the weight column, adds its bias and the block's wide sums, and applies the logistic function.  A change of float
  format is the identity here, and a matrix product into a zero accumulator is the plain sum of products.  So row p of
  the block is the row function of the tower at row p of each loaded block.
-/
import proofs.«151196_j43095701848227_2_alg».proof.Proof.Gen.KernelIdeal.Skeleton
import proofs.«151196_j43095701848227_2_alg».proof.Proof.Tower
import proofs.«151196_j43095701848227_2_alg».proof.Proof.LibMatmulPlain
import Idealize.ShloMosaic.Lib.Pipeline.Value

noncomputable section

namespace Cert.WideDeep.Block

open Idealize.ShloMosaic Idealize.ShloMosaic.ValueIdx Cert.KernelIdeal Cert.KernelIdeal.Gen Cert.LibMatmulPlain
open Cert.WideDeep

/-! ## The first layer's running sum -/

theorem pay2_apply (x : Vec Ideal S1024x300 .f32) (w : Vec Ideal S300x1024 .bf16) (p n : Fin 1024) :
    k0_pay2 (F := Ideal) x w (ix2 p n) = ∑ k : Fin 300, x (ix2 p k) * w (ix2 k n) := by
  unfold k0_pay2
  simp only [shapeCast_self]
  exact matmul_zero_apply dot_S1024x300_S300x1024_S1024x1024_1_0_0_1_n_n.wf none _ _ p n

theorem pay3_apply (s : Vec Ideal S1024x1024 .f32) (x : Vec Ideal S1024x64 .f32) (w : Vec Ideal S64x1024 .bf16)
    (p n : Fin 1024) :
    k0_pay3 (F := Ideal) s x w (ix2 p n) = s (ix2 p n) + ∑ k : Fin 64, x (ix2 p k) * w (ix2 k n) := by
  unfold k0_pay3
  simp only [shapeCast_self]
  exact congrArg (s (ix2 p n) + ·) (matmul_zero_apply dot_S1024x64_S64x1024_S1024x1024_1_0_0_1_n_n.wf none _ _ p n)

theorem pay4_apply (s : Vec Ideal S1024x1024 .f32) (x : Vec Ideal S1024x64 .f32) (w : Vec Ideal S64x1024 .bf16)
    (p n : Fin 1024) :
    k0_pay4 (F := Ideal) s x w (ix2 p n) = s (ix2 p n) + ∑ k : Fin 64, x (ix2 p k) * w (ix2 k n) := by
  unfold k0_pay4
  simp only [shapeCast_self]
  exact congrArg (s (ix2 p n) + ·) (matmul_zero_apply dot_S1024x64_S64x1024_S1024x1024_1_0_0_1_n_n.wf none _ _ p n)

theorem pay5_apply (s : Vec Ideal S1024x1024 .f32) (x : Vec Ideal S1024x64 .f32) (w : Vec Ideal S64x1024 .bf16)
    (p n : Fin 1024) :
    k0_pay5 (F := Ideal) s x w (ix2 p n) = s (ix2 p n) + ∑ k : Fin 64, x (ix2 p k) * w (ix2 k n) := by
  unfold k0_pay5
  simp only [shapeCast_self]
  exact congrArg (s (ix2 p n) + ·) (matmul_zero_apply dot_S1024x64_S64x1024_S1024x1024_1_0_0_1_n_n.wf none _ _ p n)

theorem pay6_apply (s : Vec Ideal S1024x1024 .f32) (x : Vec Ideal S1024x64 .f32) (w : Vec Ideal S64x1024 .bf16)
    (p n : Fin 1024) :
    k0_pay6 (F := Ideal) s x w (ix2 p n) = s (ix2 p n) + ∑ k : Fin 64, x (ix2 p k) * w (ix2 k n) := by
  unfold k0_pay6
  simp only [shapeCast_self]
  exact congrArg (s (ix2 p n) + ·) (matmul_zero_apply dot_S1024x64_S64x1024_S1024x1024_1_0_0_1_n_n.wf none _ _ p n)

theorem pay9_apply (s : Vec Ideal S1024x1024 .f32) (x : Vec Ideal S1024x64 .f32) (w : Vec Ideal S64x1024 .bf16)
    (p n : Fin 1024) :
    k0_pay9 (F := Ideal) s x w (ix2 p n) = s (ix2 p n) + ∑ k : Fin 64, x (ix2 p k) * w (ix2 k n) := by
  unfold k0_pay9
  simp only [shapeCast_self]
  exact congrArg (s (ix2 p n) + ·) (matmul_zero_apply dot_S1024x64_S64x1024_S1024x1024_1_0_0_1_n_n.wf none _ _ p n)

theorem pay10_apply (s : Vec Ideal S1024x1024 .f32) (x : Vec Ideal S1024x64 .f32) (w : Vec Ideal S64x1024 .bf16)
    (p n : Fin 1024) :
    k0_pay10 (F := Ideal) s x w (ix2 p n) = s (ix2 p n) + ∑ k : Fin 64, x (ix2 p k) * w (ix2 k n) := by
  unfold k0_pay10
  simp only [shapeCast_self]
  exact congrArg (s (ix2 p n) + ·) (matmul_zero_apply dot_S1024x64_S64x1024_S1024x1024_1_0_0_1_n_n.wf none _ _ p n)

theorem pay7_apply (s : Vec Ideal S1024x1024 .f32) (x : Vec Ideal S1024x64 .f32) (w : Vec Ideal S64x1024 .bf16)
    (p n : Fin 1024) :
    k0_pay7 (F := Ideal) s x w (ix2 p n) = s (ix2 p n) + ∑ k : Fin 64, x (ix2 p k) * w (ix2 k n) := by
  unfold k0_pay7
  simp only [shapeCast_self]
  exact congrArg (s (ix2 p n) + ·) (matmul_zero_apply dot_S1024x64_S64x1024_S1024x1024_1_0_0_1_n_n.wf none _ _ p n)

theorem pay8_eq (s : FVec Ideal S1024x1024 .f32) : k0_pay8 (F := Ideal) s = s := by
  unfold k0_pay8
  simp only [shapeCast_self]

/-! ## A dense layer's entry, for any extents -/

/-- Entry (p, n) of a product into a zero accumulator plus a row of biases spread over the rows, clipped below at
    zero: the layer function of row p of the input and column n of the weights. -/
theorem dense_apply {M K N : Nat} {φ₁ φ₂ : FTy}
    (wf : DotDims.WF ⟨2, ![M, K]⟩ ⟨2, ![K, N]⟩ ⟨2, ![M, N]⟩ [1] [0] [0] [1] [] [])
    (x : FVec Ideal ⟨2, ![M, K]⟩ φ₁) (w : FVec Ideal ⟨2, ![K, N]⟩ φ₂) (bias : FVec Ideal ⟨2, ![M, N]⟩ .f32)
    (p : Fin M) (n : Fin N) (c : EReal) (hc : bias (ix2 p n) = c) :
    maximumf (addf (FloatOps.matmul (plainDims M K N wf) none x w (constant ⟨2, ![M, N]⟩ .f32 0x00000000#32)) bias)
        (broadcast ⟨2, ![M, N]⟩ (Scalar.ofBits .f32 0x00000000#32)) (ix2 p n)
      = layer (fun k => x (ix2 p k)) (fun k => w (ix2 k n)) c := by
  show max (FloatOps.matmul (plainDims M K N wf) none x w (constant ⟨2, ![M, N]⟩ .f32 0x00000000#32) (ix2 p n)
    + bias (ix2 p n)) z = _
  rw [matmul_zero_apply wf none x w p n, hc]
  rfl

/-- A [1, N] row spread over M rows, read at (p, n): the row's entry n. -/
theorem row1024_apply (b : Vec Ideal S1x1024 .f32) (p n : Fin 1024) :
    broadcastTo S1024x1024 b broadcasts_S1x1024_S1024x1024 (ix2 p n) = b (ix2 (0 : Fin 1) n) :=
  broadcastTo_apply b _ (ix2 p n) (ix2 (0 : Fin 1) n) (fun a => by match a with | ⟨0, _⟩ => rfl | ⟨1, _⟩ => rfl)
theorem row512_apply (b : Vec Ideal S1x512 .f32) (p : Fin 1024) (n : Fin 512) :
    broadcastTo S1024x512 b broadcasts_S1x512_S1024x512 (ix2 p n) = b (ix2 (0 : Fin 1) n) :=
  broadcastTo_apply b _ (ix2 p n) (ix2 (0 : Fin 1) n) (fun a => by match a with | ⟨0, _⟩ => rfl | ⟨1, _⟩ => rfl)
theorem row256_apply (b : Vec Ideal S1x256 .f32) (p : Fin 1024) (n : Fin 256) :
    broadcastTo S1024x256 b broadcasts_S1x256_S1024x256 (ix2 p n) = b (ix2 (0 : Fin 1) n) :=
  broadcastTo_apply b _ (ix2 p n) (ix2 (0 : Fin 1) n) (fun a => by match a with | ⟨0, _⟩ => rfl | ⟨1, _⟩ => rfl)
theorem row1_apply (b : Vec Ideal S1x1 .f32) (p : Fin 1024) (n : Fin 1) :
    broadcastTo S1024x1 b broadcasts_S1x1_S1024x1 (ix2 p n) = b (ix2 (0 : Fin 1) (0 : Fin 1)) :=
  broadcastTo_apply b _ (ix2 p n) (ix2 (0 : Fin 1) (0 : Fin 1)) (fun a => by match a with | ⟨0, _⟩ => rfl | ⟨1, _⟩ => rfl)

/-! ## The first layer's bias and clip -/

theorem pay11_apply (s : Vec Ideal S1024x1024 .f32) (b : Vec Ideal S1x1024 .f32) (p n : Fin 1024) :
    k0_pay11 (F := Ideal) s b (ix2 p n) = max (s (ix2 p n) + b (ix2 (0 : Fin 1) n)) z := by
  unfold k0_pay11
  simp only [shapeCast_self]
  exact congrArg (fun t => max (s (ix2 p n) + t) z) (row1024_apply b p n)

/-! ## The last payload: two dense layers, the last product, the biases, the wide sum, the logistic function -/

theorem pay1_apply (h : FVec Ideal S1024x1024 .bf16) (w2 : Vec Ideal S1024x512 .bf16) (b2 : Vec Ideal S1x512 .f32)
    (w3 : Vec Ideal S512x256 .bf16) (b3 : Vec Ideal S1x256 .f32) (wd : Vec Ideal S256x1 .bf16) (bd : Vec Ideal S1x1 .f32)
    (wide : Vec Ideal S1024x1 .f32) (p : Fin 1024) (q : Fin 1) :
    k0_pay1 (F := Ideal) h w2 b2 w3 b3 wd bd wide (ix2 p q)
      = Ideal.logistic
          ((∑ k3 : Fin 256,
              layer (fun k2 : Fin 512 => layer (fun k1 : Fin 1024 => h (ix2 p k1)) (fun k1 => w2 (ix2 k1 k2))
                  (b2 (ix2 (0 : Fin 1) k2)))
                (fun k2 => w3 (ix2 k2 k3)) (b3 (ix2 (0 : Fin 1) k3)) * wd (ix2 k3 q))
            + bd (ix2 (0 : Fin 1) (0 : Fin 1)) + wide (ix2 p q)) := by
  unfold k0_pay1
  simp only [shapeCast_self]
  refine congrArg Ideal.logistic (congrArg₂ (· + ·) (congrArg₂ (· + ·) ?_ (row1_apply bd p q)) rfl)
  refine Eq.trans (matmul_zero_apply dot_S1024x256_S256x1_S1024x1_1_0_0_1_n_n.wf none _ wd p q) ?_
  refine Finset.sum_congr rfl fun k3 _ => ?_
  refine congrArg (· * wd (ix2 k3 q)) ?_
  refine Eq.trans (dense_apply dot_S1024x512_S512x256_S1024x256_1_0_0_1_n_n.wf _ w3 _ p k3 _ (row256_apply b3 p k3)) ?_
  refine congrArg (fun f => layer f (fun k2 => w3 (ix2 k2 k3)) (b3 (ix2 (0 : Fin 1) k3))) (funext fun k2 => ?_)
  exact dense_apply dot_S1024x1024_S1024x512_S1024x512_1_0_0_1_n_n.wf h w2 _ p k2 _ (row512_apply b2 p k2)

/-! ## The whole block -/

/-- The block the body leaves, from the blocks it loads: the eight partial sums in order, the bias and clip, then the
    last payload. (x0 … x7 the fields' blocks, x8 the wide sums, x9 … x16 the first weight matrix's row groups, x17 the
    first bias, x18 … x23 the later weights and biases.) -/
def blockOut (x0 : Vec Ideal S1024x300 .f32) (x1 : Vec Ideal S1024x64 .f32) (x2 : Vec Ideal S1024x64 .f32) (x3 : Vec Ideal S1024x64 .f32) (x4 : Vec Ideal S1024x64 .f32) (x5 : Vec Ideal S1024x64 .f32) (x6 : Vec Ideal S1024x64 .f32) (x7 : Vec Ideal S1024x64 .f32) (x8 : Vec Ideal S1024x1 .f32) (x9 : Vec Ideal S300x1024 .bf16) (x10 : Vec Ideal S64x1024 .bf16) (x11 : Vec Ideal S64x1024 .bf16) (x12 : Vec Ideal S64x1024 .bf16) (x13 : Vec Ideal S64x1024 .bf16) (x14 : Vec Ideal S64x1024 .bf16) (x15 : Vec Ideal S64x1024 .bf16) (x16 : Vec Ideal S64x1024 .bf16) (x17 : Vec Ideal S1x1024 .f32) (x18 : Vec Ideal S1024x512 .bf16) (x19 : Vec Ideal S1x512 .f32) (x20 : Vec Ideal S512x256 .bf16) (x21 : Vec Ideal S1x256 .f32) (x22 : Vec Ideal S256x1 .bf16) (x23 : Vec Ideal S1x1 .f32) : FVec Ideal S1024x1 .f32 :=
  k0_pay1 (F := Ideal)
    (k0_pay11 (F := Ideal)
      (k0_pay10 (F := Ideal) (k0_pay9 (F := Ideal) (k0_pay8 (F := Ideal) (k0_pay7 (F := Ideal) (k0_pay6 (F := Ideal)
        (k0_pay5 (F := Ideal) (k0_pay4 (F := Ideal) (k0_pay3 (F := Ideal) (k0_pay2 (F := Ideal) x0 x9) x1 x10) x2 x11) x3 x12)
        x4 x13) x5 x14)) x6 x15) x7 x16) x17)
    x18 x19 x20 x21 x22 x23 x8

/-- Row p of the block is the tower's row function at row p of every loaded block. -/
theorem blockOut_apply (x0 : Vec Ideal S1024x300 .f32) (x1 : Vec Ideal S1024x64 .f32) (x2 : Vec Ideal S1024x64 .f32) (x3 : Vec Ideal S1024x64 .f32) (x4 : Vec Ideal S1024x64 .f32) (x5 : Vec Ideal S1024x64 .f32) (x6 : Vec Ideal S1024x64 .f32) (x7 : Vec Ideal S1024x64 .f32) (x8 : Vec Ideal S1024x1 .f32) (x9 : Vec Ideal S300x1024 .bf16) (x10 : Vec Ideal S64x1024 .bf16) (x11 : Vec Ideal S64x1024 .bf16) (x12 : Vec Ideal S64x1024 .bf16) (x13 : Vec Ideal S64x1024 .bf16) (x14 : Vec Ideal S64x1024 .bf16) (x15 : Vec Ideal S64x1024 .bf16) (x16 : Vec Ideal S64x1024 .bf16) (x17 : Vec Ideal S1x1024 .f32) (x18 : Vec Ideal S1024x512 .bf16) (x19 : Vec Ideal S1x512 .f32) (x20 : Vec Ideal S512x256 .bf16) (x21 : Vec Ideal S1x256 .f32) (x22 : Vec Ideal S256x1 .bf16) (x23 : Vec Ideal S1x1 .f32) (p : Fin 1024) (q : Fin 1) :
    blockOut x0 x1 x2 x3 x4 x5 x6 x7 x8 x9 x10 x11 x12 x13 x14 x15 x16 x17 x18 x19 x20 x21 x22 x23 (ix2 p q)
      = towerRow (fun k => x0 (ix2 p k)) (fun k => x1 (ix2 p k)) (fun k => x2 (ix2 p k)) (fun k => x3 (ix2 p k))
          (fun k => x4 (ix2 p k)) (fun k => x5 (ix2 p k)) (fun k => x6 (ix2 p k)) (fun k => x7 (ix2 p k)) (x8 (ix2 p q))
          (fun k n => x9 (ix2 k n)) (fun k n => x10 (ix2 k n)) (fun k n => x11 (ix2 k n)) (fun k n => x12 (ix2 k n))
          (fun k n => x13 (ix2 k n)) (fun k n => x14 (ix2 k n)) (fun k n => x15 (ix2 k n)) (fun k n => x16 (ix2 k n))
          (fun n => x17 (ix2 (0 : Fin 1) n)) (fun k n => x18 (ix2 k n)) (fun n => x19 (ix2 (0 : Fin 1) n))
          (fun k n => x20 (ix2 k n)) (fun n => x21 (ix2 (0 : Fin 1) n)) (fun k => x22 (ix2 k q))
          (x23 (ix2 (0 : Fin 1) (0 : Fin 1))) := by
  unfold blockOut
  rw [pay1_apply]
  unfold towerRow firstSum
  simp only [pay11_apply, pay10_apply, pay9_apply, pay8_eq, pay7_apply, pay6_apply, pay5_apply, pay4_apply,
    pay3_apply, pay2_apply]

end Cert.WideDeep.Block

end
-- ==== Proof.Piece.lean ====
/-
  What one run of the kernel body leaves in the output block, whatever memory the blocks sit in: the body stores the
  running first-layer sum into its scratch buffer eight times and reads it back after each store, so every read-back
  is the sum just stored; the one store into the output block then holds the composition of the body's payloads of the
  loaded blocks — the block function `blockOut`.
-/
import proofs.«151196_j43095701848227_2_alg».proof.Proof.KernelIdealP.Frame
import proofs.«151196_j43095701848227_2_alg».proof.Proof.Block
import Idealize.ShloMosaic.Lib.Pipeline.Value

set_option maxRecDepth 16384

noncomputable section

namespace Cert.WideDeep.Piece

open Idealize.ShloMosaic Idealize.ShloMosaic.TcCoe Idealize.ShloMosaic.Tactic Idealize.ShloMosaic.ValueIdx Idealize.SL.Sem
open Cert.KernelIdeal Cert.KernelIdeal.Gen Cert.KernelIdeal.GenP Cert.WideDeep.Block

theorem hz : (![0, 0] : Fin 2 → Nat) = fun _ => 0 := funext fun a => by fin_cases a <;> rfl

/-- The output block after the body, as a function of the twenty-four loaded blocks. -/
theorem out_piece (c : Dev nD) (i : grid0.Coords) (arg1 : Memref sig .tc .vmem S1024x300 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S300x1024 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x1024 .bf16) (harg15 : arg15.IsWhole) (arg16 : Memref sig .tc .vmem S64x1024 .bf16) (harg16 : arg16.IsWhole) (arg17 : Memref sig .tc .vmem S64x1024 .bf16) (harg17 : arg17.IsWhole) (arg18 : Memref sig .tc .vmem S1x1024 .f32) (harg18 : arg18.IsWhole) (arg19 : Memref sig .tc .vmem S1024x512 .bf16) (harg19 : arg19.IsWhole) (arg20 : Memref sig .tc .vmem S1x512 .f32) (harg20 : arg20.IsWhole) (arg21 : Memref sig .tc .vmem S512x256 .bf16) (harg21 : arg21.IsWhole) (arg22 : Memref sig .tc .vmem S1x256 .f32) (harg22 : arg22.IsWhole) (arg23 : Memref sig .tc .vmem S256x1 .bf16) (harg23 : arg23.IsWhole) (arg24 : Memref sig .tc .vmem S1x1 .f32) (harg24 : arg24.IsWhole) (arg25 : Memref sig .tc .vmem S1024x1 .f32) (harg25 : arg25.IsWhole) (arg26 : Memref sig .tc .vmem S1024x1024 .f32) (harg26 : arg26.IsWhole)
    (x0 : Vec Ideal S1024x300 .f32) (x1 : Vec Ideal S1024x64 .f32) (x2 : Vec Ideal S1024x64 .f32) (x3 : Vec Ideal S1024x64 .f32) (x4 : Vec Ideal S1024x64 .f32) (x5 : Vec Ideal S1024x64 .f32) (x6 : Vec Ideal S1024x64 .f32) (x7 : Vec Ideal S1024x64 .f32) (x8 : Vec Ideal S1024x1 .f32) (x9 : Vec Ideal S300x1024 .bf16) (x10 : Vec Ideal S64x1024 .bf16) (x11 : Vec Ideal S64x1024 .bf16) (x12 : Vec Ideal S64x1024 .bf16) (x13 : Vec Ideal S64x1024 .bf16) (x14 : Vec Ideal S64x1024 .bf16) (x15 : Vec Ideal S64x1024 .bf16) (x16 : Vec Ideal S64x1024 .bf16) (x17 : Vec Ideal S1x1024 .f32) (x18 : Vec Ideal S1024x512 .bf16) (x19 : Vec Ideal S1x512 .f32) (x20 : Vec Ideal S512x256 .bf16) (x21 : Vec Ideal S1x256 .f32) (x22 : Vec Ideal S256x1 .bf16) (x23 : Vec Ideal S1x1 .f32) :
    out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 = blockOut x0 x1 x2 x3 x4 x5 x6 x7 x8 x9 x10 x11 x12 x13 x14 x15 x16 x17 x18 x19 x20 x21 x22 x23 := by
  unfold out0_A_24
  rw [View.read_writes_eq_canon _ _ _ (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23)]
  unfold kernelRun0_A
  dsimp only
  sl_unfold_words
  rw [View.canon_unit_zero hz]
  unfold blockOut
  simp only [View.readCov_cons_toLoadRect, View.readCov_unit_zero, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1024x300) hz, View.ld_unit_zero (S := S1024x64) hz, View.ld_unit_zero (S := S1024x1) hz, View.ld_unit_zero (S := S300x1024) hz, View.ld_unit_zero (S := S64x1024) hz, View.ld_unit_zero (S := S1x1024) hz, View.ld_unit_zero (S := S1024x512) hz, View.ld_unit_zero (S := S1x512) hz, View.ld_unit_zero (S := S512x256) hz, View.ld_unit_zero (S := S1x256) hz, View.ld_unit_zero (S := S256x1) hz, View.ld_unit_zero (S := S1x1) hz, View.ld_unit_zero (S := S1024x1024) hz]

end Cert.WideDeep.Piece

end
-- ==== Proof.KArgs.lean ====
/-
  The argument arrays of the idealized kernel program on one core, gathered into the record the specification is
  stated over: field k is the contents of the program's k-th argument buffer.
-/
import proofs.«151196_j43095701848227_2_alg».proof.KernelIdeal
import proofs.«151196_j43095701848227_2_alg».proof.Proof.Spec

noncomputable section

namespace Cert.WideDeep

open Idealize.ShloMosaic Idealize.SL.Sem Cert.KernelIdeal

/-- The kernel program's thirty-one argument arrays on core c, in order. -/
def kArgs (m : (ℓ : Loc nD τ sig) → Buf (Elt Ideal) ℓ) (c : Dev nD) : Args where
  tokIdx := m ((c.tc : Thread nD τ).loc main_arg0)
  mh1Idx := m ((c.tc : Thread nD τ).loc main_arg1)
  mh2Idx := m ((c.tc : Thread nD τ).loc main_arg2)
  mh3Idx := m ((c.tc : Thread nD τ).loc main_arg3)
  oh1Idx := m ((c.tc : Thread nD τ).loc main_arg4)
  oh2Idx := m ((c.tc : Thread nD τ).loc main_arg5)
  oh3Idx := m ((c.tc : Thread nD τ).loc main_arg6)
  oh4Idx := m ((c.tc : Thread nD τ).loc main_arg7)
  wordEmb := m ((c.tc : Thread nD τ).loc main_arg8)
  embMh1 := m ((c.tc : Thread nD τ).loc main_arg9)
  embMh2 := m ((c.tc : Thread nD τ).loc main_arg10)
  embMh3 := m ((c.tc : Thread nD τ).loc main_arg11)
  embOh1 := m ((c.tc : Thread nD τ).loc main_arg12)
  embOh2 := m ((c.tc : Thread nD τ).loc main_arg13)
  embOh3 := m ((c.tc : Thread nD τ).loc main_arg14)
  embOh4 := m ((c.tc : Thread nD τ).loc main_arg15)
  wideMh1 := m ((c.tc : Thread nD τ).loc main_arg16)
  wideMh2 := m ((c.tc : Thread nD τ).loc main_arg17)
  wideMh3 := m ((c.tc : Thread nD τ).loc main_arg18)
  wideOh1 := m ((c.tc : Thread nD τ).loc main_arg19)
  wideOh2 := m ((c.tc : Thread nD τ).loc main_arg20)
  wideOh3 := m ((c.tc : Thread nD τ).loc main_arg21)
  wideOh4 := m ((c.tc : Thread nD τ).loc main_arg22)
  W1 := m ((c.tc : Thread nD τ).loc main_arg23)
  b1 := m ((c.tc : Thread nD τ).loc main_arg24)
  W2 := m ((c.tc : Thread nD τ).loc main_arg25)
  b2 := m ((c.tc : Thread nD τ).loc main_arg26)
  W3 := m ((c.tc : Thread nD τ).loc main_arg27)
  b3 := m ((c.tc : Thread nD τ).loc main_arg28)
  Wd := m ((c.tc : Thread nD τ).loc main_arg29)
  bd := m ((c.tc : Thread nD τ).loc main_arg30)

end Cert.WideDeep

end
-- ==== Proof.Staged.lean ====
/-
  What the kernel's one region finds in its twenty-four operand arrays when it starts, as functions of the program's
  argument arrays: the eight fields and the wide sums as the specification defines them, the first weight matrix cut into
  the eight row groups that face the fields, the other weights unchanged, and each bias laid out as a single row.
-/
import proofs.«151196_j43095701848227_2_alg».proof.Proof.Gen.KernelIdeal.Launch
import Idealize.ShloMosaic.Lib.StableHlo.Run
import proofs.«151196_j43095701848227_2_alg».proof.Proof.KArgs

noncomputable section

namespace Cert.WideDeep

open Idealize.ShloMosaic Idealize.ShloMosaic.TcCoe Idealize.ShloMosaic.ValueIdx Idealize.SL.Sem Cert.KernelIdeal Cert.KernelIdeal.Gen

/-- Core c's buffers when the region is entered: the program's memory after the host operations that precede it. -/
abbrev found (m : (ℓ : Loc nD τ sig) → Buf (Elt Ideal) ℓ) (c : Dev nD) (b : Ref sig .tc) :
    Buf (Elt Ideal) ((c : Thread nD τ).loc b) :=
  StableHlo.after hostOps0 (fun b => m (c, b)) b

/-- The contents of the region's operand arrays on core c, in operand order. -/
structure Staged (m : (ℓ : Loc nD τ sig) → Buf (Elt Ideal) ℓ) (c : Dev nD) : Prop where
  tok : (found m c main_v322 : S8192x300.Idx → EReal) = fun i => tok (kArgs m c) (i 0) (i 1)
  e1 : (found m c main_v527 : S8192x64.Idx → EReal) = fun i => e1 (kArgs m c) (i 0) (i 1)
  e2 : (found m c main_v734 : S8192x64.Idx → EReal) = fun i => e2 (kArgs m c) (i 0) (i 1)
  e3 : (found m c main_v941 : S8192x64.Idx → EReal) = fun i => e3 (kArgs m c) (i 0) (i 1)
  o1 : (found m c main_v952 : S8192x64.Idx → EReal) = fun i => o1 (kArgs m c) (i 0) (i 1)
  o2 : (found m c main_v963 : S8192x64.Idx → EReal) = fun i => o2 (kArgs m c) (i 0) (i 1)
  o3 : (found m c main_v974 : S8192x64.Idx → EReal) = fun i => o3 (kArgs m c) (i 0) (i 1)
  o4 : (found m c main_v985 : S8192x64.Idx → EReal) = fun i => o4 (kArgs m c) (i 0) (i 1)
  wide : (found m c main_v994 : S8192x1.Idx → EReal) = fun i => wide (kArgs m c) (i 0)
  w1_0 : (found m c main_v996 : S300x1024.Idx → EReal)
    = fun i => (kArgs m c).W1 (ix2 ⟨(i 0).val, by have := idx2_lt0 i; omega⟩ (i 1))
  w1_1 : (found m c main_v998 : S64x1024.Idx → EReal)
    = fun i => (kArgs m c).W1 (ix2 ⟨300 + (i 0).val, by have := idx2_lt0 i; omega⟩ (i 1))
  w1_2 : (found m c main_v1000 : S64x1024.Idx → EReal)
    = fun i => (kArgs m c).W1 (ix2 ⟨364 + (i 0).val, by have := idx2_lt0 i; omega⟩ (i 1))
  w1_3 : (found m c main_v1002 : S64x1024.Idx → EReal)
    = fun i => (kArgs m c).W1 (ix2 ⟨428 + (i 0).val, by have := idx2_lt0 i; omega⟩ (i 1))
  w1_4 : (found m c main_v1004 : S64x1024.Idx → EReal)
    = fun i => (kArgs m c).W1 (ix2 ⟨492 + (i 0).val, by have := idx2_lt0 i; omega⟩ (i 1))
  w1_5 : (found m c main_v1006 : S64x1024.Idx → EReal)
    = fun i => (kArgs m c).W1 (ix2 ⟨556 + (i 0).val, by have := idx2_lt0 i; omega⟩ (i 1))
  w1_6 : (found m c main_v1008 : S64x1024.Idx → EReal)
    = fun i => (kArgs m c).W1 (ix2 ⟨620 + (i 0).val, by have := idx2_lt0 i; omega⟩ (i 1))
  w1_7 : (found m c main_v1010 : S64x1024.Idx → EReal)
    = fun i => (kArgs m c).W1 (ix2 ⟨684 + (i 0).val, by have := idx2_lt0 i; omega⟩ (i 1))
  b1 : (found m c main_v1014 : S1x1024.Idx → EReal) = fun i => (kArgs m c).b1 (ix1 (i 1))
  w2 : (found m c main_v1011 : S1024x512.Idx → EReal) = (kArgs m c).W2
  b2 : (found m c main_v1015 : S1x512.Idx → EReal) = fun i => (kArgs m c).b2 (ix1 (i 1))
  w3 : (found m c main_v1012 : S512x256.Idx → EReal) = (kArgs m c).W3
  b3 : (found m c main_v1016 : S1x256.Idx → EReal) = fun i => (kArgs m c).b3 (ix1 (i 1))
  wd : (found m c main_v1013 : S256x1.Idx → EReal) = (kArgs m c).Wd
  bd : (found m c main_v1017 : S1x1.Idx → EReal) = fun i => (kArgs m c).bd (ix1 (i 1))

end Cert.WideDeep

end
-- ==== Proof.WinPos.lean ====
/-
  Where each block of the kernel's arrays sits.

  The kernel walks a grid of eight points. The nine batch-indexed input arrays and the output array are cut into
  eight blocks of 1024 rows; at grid point t the block is rows 1024 t … 1024 t + 1023, all columns. The weight and
  bias arrays are not cut: at every grid point the block is the whole array. So an entry (p, k) of a block is the
  array's entry (1024 t + p, k), resp. (p, k); and every row r of the output lies in the block of point r / 1024.
-/
import proofs.«151196_j43095701848227_2_alg».proof.Proof.KernelIdealP.Frame
import Idealize.ShloMosaic.Lib.Pipeline.Value
import Idealize.ShloMosaic.Lib.ValueIdx

noncomputable section

namespace Cert.WideDeep.WinPos

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-- Window 0's block index at grid point t is (t, 0). -/
theorem idx_0 : ∀ t : Fin cfg0.N, win0_0.index t (0 : Fin 2) = t.val ∧ win0_0.index t (1 : Fin 2) = 0 :=
  (by decide +kernel : ∀ t : Fin grid0.N, _)

/-- Entry (p, k) of window 0's block at grid point t sits at (1024 t + p, k) of its array. -/
theorem emb_0 (t : Fin cfg0.N) (p : Fin 1024) (k : Fin 300) :
    ((cfg0.win 0).blk t).view.emb (ix2 p k)
      = ix2 (⟨t.val * 1024 + p.val, by have h : t.val < grid0.N := t.isLt; have := N_0; omega⟩ : Fin 8192) k := by
  obtain ⟨e0, e1⟩ := idx_0 t
  funext a; apply Fin.ext
  match a with
  | ⟨0, _⟩ => show win0_0.index t (0 : Fin 2) * 1024 + 1 * p.val = t.val * 1024 + p.val; omega
  | ⟨1, _⟩ => show win0_0.index t (1 : Fin 2) * 300 + 1 * k.val = k.val; omega

/-- Entry (p, k) of window 0's block at grid point t is the array's entry (1024 t + p, k). -/
theorem iblk_0 (c : Dev nD) (t : Fin cfg0.N) (p : Fin 1024) (k : Fin 300) :
    iblk m c 0 t (ix2 p k)
      = V m c (Pipeline.arrRef spec0 0) (ix2 (⟨t.val * 1024 + p.val, by have h : t.val < grid0.N := t.isLt; have := N_0; omega⟩ : Fin 8192) k) := by
  unfold iblk View.read
  exact (cast_eq _ _).trans (congrArg (V m c (Pipeline.arrRef spec0 0)) (emb_0 t p k))

/-- Window 1's block index at grid point t is (t, 0). -/
theorem idx_1 : ∀ t : Fin cfg0.N, win0_1.index t (0 : Fin 2) = t.val ∧ win0_1.index t (1 : Fin 2) = 0 :=
  (by decide +kernel : ∀ t : Fin grid0.N, _)

/-- Entry (p, k) of window 1's block at grid point t sits at (1024 t + p, k) of its array. -/
theorem emb_1 (t : Fin cfg0.N) (p : Fin 1024) (k : Fin 64) :
    ((cfg0.win 1).blk t).view.emb (ix2 p k)
      = ix2 (⟨t.val * 1024 + p.val, by have h : t.val < grid0.N := t.isLt; have := N_0; omega⟩ : Fin 8192) k := by
  obtain ⟨e0, e1⟩ := idx_1 t
  funext a; apply Fin.ext
  match a with
  | ⟨0, _⟩ => show win0_1.index t (0 : Fin 2) * 1024 + 1 * p.val = t.val * 1024 + p.val; omega
  | ⟨1, _⟩ => show win0_1.index t (1 : Fin 2) * 64 + 1 * k.val = k.val; omega

/-- Entry (p, k) of window 1's block at grid point t is the array's entry (1024 t + p, k). -/
theorem iblk_1 (c : Dev nD) (t : Fin cfg0.N) (p : Fin 1024) (k : Fin 64) :
    iblk m c 1 t (ix2 p k)
      = V m c (Pipeline.arrRef spec0 1) (ix2 (⟨t.val * 1024 + p.val, by have h : t.val < grid0.N := t.isLt; have := N_0; omega⟩ : Fin 8192) k) := by
  unfold iblk View.read
  exact (cast_eq _ _).trans (congrArg (V m c (Pipeline.arrRef spec0 1)) (emb_1 t p k))

/-- Window 2's block index at grid point t is (t, 0). -/
theorem idx_2 : ∀ t : Fin cfg0.N, win0_2.index t (0 : Fin 2) = t.val ∧ win0_2.index t (1 : Fin 2) = 0 :=
  (by decide +kernel : ∀ t : Fin grid0.N, _)

/-- Entry (p, k) of window 2's block at grid point t sits at (1024 t + p, k) of its array. -/
theorem emb_2 (t : Fin cfg0.N) (p : Fin 1024) (k : Fin 64) :
    ((cfg0.win 2).blk t).view.emb (ix2 p k)
      = ix2 (⟨t.val * 1024 + p.val, by have h : t.val < grid0.N := t.isLt; have := N_0; omega⟩ : Fin 8192) k := by
  obtain ⟨e0, e1⟩ := idx_2 t
  funext a; apply Fin.ext
  match a with
  | ⟨0, _⟩ => show win0_2.index t (0 : Fin 2) * 1024 + 1 * p.val = t.val * 1024 + p.val; omega
  | ⟨1, _⟩ => show win0_2.index t (1 : Fin 2) * 64 + 1 * k.val = k.val; omega

/-- Entry (p, k) of window 2's block at grid point t is the array's entry (1024 t + p, k). -/
theorem iblk_2 (c : Dev nD) (t : Fin cfg0.N) (p : Fin 1024) (k : Fin 64) :
    iblk m c 2 t (ix2 p k)
      = V m c (Pipeline.arrRef spec0 2) (ix2 (⟨t.val * 1024 + p.val, by have h : t.val < grid0.N := t.isLt; have := N_0; omega⟩ : Fin 8192) k) := by
  unfold iblk View.read
  exact (cast_eq _ _).trans (congrArg (V m c (Pipeline.arrRef spec0 2)) (emb_2 t p k))

/-- Window 3's block index at grid point t is (t, 0). -/
theorem idx_3 : ∀ t : Fin cfg0.N, win0_3.index t (0 : Fin 2) = t.val ∧ win0_3.index t (1 : Fin 2) = 0 :=
  (by decide +kernel : ∀ t : Fin grid0.N, _)

/-- Entry (p, k) of window 3's block at grid point t sits at (1024 t + p, k) of its array. -/
theorem emb_3 (t : Fin cfg0.N) (p : Fin 1024) (k : Fin 64) :
    ((cfg0.win 3).blk t).view.emb (ix2 p k)
      = ix2 (⟨t.val * 1024 + p.val, by have h : t.val < grid0.N := t.isLt; have := N_0; omega⟩ : Fin 8192) k := by
  obtain ⟨e0, e1⟩ := idx_3 t
  funext a; apply Fin.ext
  match a with
  | ⟨0, _⟩ => show win0_3.index t (0 : Fin 2) * 1024 + 1 * p.val = t.val * 1024 + p.val; omega
  | ⟨1, _⟩ => show win0_3.index t (1 : Fin 2) * 64 + 1 * k.val = k.val; omega

/-- Entry (p, k) of window 3's block at grid point t is the array's entry (1024 t + p, k). -/
theorem iblk_3 (c : Dev nD) (t : Fin cfg0.N) (p : Fin 1024) (k : Fin 64) :
    iblk m c 3 t (ix2 p k)
      = V m c (Pipeline.arrRef spec0 3) (ix2 (⟨t.val * 1024 + p.val, by have h : t.val < grid0.N := t.isLt; have := N_0; omega⟩ : Fin 8192) k) := by
  unfold iblk View.read
  exact (cast_eq _ _).trans (congrArg (V m c (Pipeline.arrRef spec0 3)) (emb_3 t p k))

/-- Window 4's block index at grid point t is (t, 0). -/
theorem idx_4 : ∀ t : Fin cfg0.N, win0_4.index t (0 : Fin 2) = t.val ∧ win0_4.index t (1 : Fin 2) = 0 :=
  (by decide +kernel : ∀ t : Fin grid0.N, _)

/-- Entry (p, k) of window 4's block at grid point t sits at (1024 t + p, k) of its array. -/
theorem emb_4 (t : Fin cfg0.N) (p : Fin 1024) (k : Fin 64) :
    ((cfg0.win 4).blk t).view.emb (ix2 p k)
      = ix2 (⟨t.val * 1024 + p.val, by have h : t.val < grid0.N := t.isLt; have := N_0; omega⟩ : Fin 8192) k := by
  obtain ⟨e0, e1⟩ := idx_4 t
  funext a; apply Fin.ext
  match a with
  | ⟨0, _⟩ => show win0_4.index t (0 : Fin 2) * 1024 + 1 * p.val = t.val * 1024 + p.val; omega
  | ⟨1, _⟩ => show win0_4.index t (1 : Fin 2) * 64 + 1 * k.val = k.val; omega

/-- Entry (p, k) of window 4's block at grid point t is the array's entry (1024 t + p, k). -/
theorem iblk_4 (c : Dev nD) (t : Fin cfg0.N) (p : Fin 1024) (k : Fin 64) :
    iblk m c 4 t (ix2 p k)
      = V m c (Pipeline.arrRef spec0 4) (ix2 (⟨t.val * 1024 + p.val, by have h : t.val < grid0.N := t.isLt; have := N_0; omega⟩ : Fin 8192) k) := by
  unfold iblk View.read
  exact (cast_eq _ _).trans (congrArg (V m c (Pipeline.arrRef spec0 4)) (emb_4 t p k))

/-- Window 5's block index at grid point t is (t, 0). -/
theorem idx_5 : ∀ t : Fin cfg0.N, win0_5.index t (0 : Fin 2) = t.val ∧ win0_5.index t (1 : Fin 2) = 0 :=
  (by decide +kernel : ∀ t : Fin grid0.N, _)

/-- Entry (p, k) of window 5's block at grid point t sits at (1024 t + p, k) of its array. -/
theorem emb_5 (t : Fin cfg0.N) (p : Fin 1024) (k : Fin 64) :
    ((cfg0.win 5).blk t).view.emb (ix2 p k)
      = ix2 (⟨t.val * 1024 + p.val, by have h : t.val < grid0.N := t.isLt; have := N_0; omega⟩ : Fin 8192) k := by
  obtain ⟨e0, e1⟩ := idx_5 t
  funext a; apply Fin.ext
  match a with
  | ⟨0, _⟩ => show win0_5.index t (0 : Fin 2) * 1024 + 1 * p.val = t.val * 1024 + p.val; omega
  | ⟨1, _⟩ => show win0_5.index t (1 : Fin 2) * 64 + 1 * k.val = k.val; omega

/-- Entry (p, k) of window 5's block at grid point t is the array's entry (1024 t + p, k). -/
theorem iblk_5 (c : Dev nD) (t : Fin cfg0.N) (p : Fin 1024) (k : Fin 64) :
    iblk m c 5 t (ix2 p k)
      = V m c (Pipeline.arrRef spec0 5) (ix2 (⟨t.val * 1024 + p.val, by have h : t.val < grid0.N := t.isLt; have := N_0; omega⟩ : Fin 8192) k) := by
  unfold iblk View.read
  exact (cast_eq _ _).trans (congrArg (V m c (Pipeline.arrRef spec0 5)) (emb_5 t p k))

/-- Window 6's block index at grid point t is (t, 0). -/
theorem idx_6 : ∀ t : Fin cfg0.N, win0_6.index t (0 : Fin 2) = t.val ∧ win0_6.index t (1 : Fin 2) = 0 :=
  (by decide +kernel : ∀ t : Fin grid0.N, _)

/-- Entry (p, k) of window 6's block at grid point t sits at (1024 t + p, k) of its array. -/
theorem emb_6 (t : Fin cfg0.N) (p : Fin 1024) (k : Fin 64) :
    ((cfg0.win 6).blk t).view.emb (ix2 p k)
      = ix2 (⟨t.val * 1024 + p.val, by have h : t.val < grid0.N := t.isLt; have := N_0; omega⟩ : Fin 8192) k := by
  obtain ⟨e0, e1⟩ := idx_6 t
  funext a; apply Fin.ext
  match a with
  | ⟨0, _⟩ => show win0_6.index t (0 : Fin 2) * 1024 + 1 * p.val = t.val * 1024 + p.val; omega
  | ⟨1, _⟩ => show win0_6.index t (1 : Fin 2) * 64 + 1 * k.val = k.val; omega

/-- Entry (p, k) of window 6's block at grid point t is the array's entry (1024 t + p, k). -/
theorem iblk_6 (c : Dev nD) (t : Fin cfg0.N) (p : Fin 1024) (k : Fin 64) :
    iblk m c 6 t (ix2 p k)
      = V m c (Pipeline.arrRef spec0 6) (ix2 (⟨t.val * 1024 + p.val, by have h : t.val < grid0.N := t.isLt; have := N_0; omega⟩ : Fin 8192) k) := by
  unfold iblk View.read
  exact (cast_eq _ _).trans (congrArg (V m c (Pipeline.arrRef spec0 6)) (emb_6 t p k))

/-- Window 7's block index at grid point t is (t, 0). -/
theorem idx_7 : ∀ t : Fin cfg0.N, win0_7.index t (0 : Fin 2) = t.val ∧ win0_7.index t (1 : Fin 2) = 0 :=
  (by decide +kernel : ∀ t : Fin grid0.N, _)

/-- Entry (p, k) of window 7's block at grid point t sits at (1024 t + p, k) of its array. -/
theorem emb_7 (t : Fin cfg0.N) (p : Fin 1024) (k : Fin 64) :
    ((cfg0.win 7).blk t).view.emb (ix2 p k)
      = ix2 (⟨t.val * 1024 + p.val, by have h : t.val < grid0.N := t.isLt; have := N_0; omega⟩ : Fin 8192) k := by
  obtain ⟨e0, e1⟩ := idx_7 t
  funext a; apply Fin.ext
  match a with
  | ⟨0, _⟩ => show win0_7.index t (0 : Fin 2) * 1024 + 1 * p.val = t.val * 1024 + p.val; omega
  | ⟨1, _⟩ => show win0_7.index t (1 : Fin 2) * 64 + 1 * k.val = k.val; omega

/-- Entry (p, k) of window 7's block at grid point t is the array's entry (1024 t + p, k). -/
theorem iblk_7 (c : Dev nD) (t : Fin cfg0.N) (p : Fin 1024) (k : Fin 64) :
    iblk m c 7 t (ix2 p k)
      = V m c (Pipeline.arrRef spec0 7) (ix2 (⟨t.val * 1024 + p.val, by have h : t.val < grid0.N := t.isLt; have := N_0; omega⟩ : Fin 8192) k) := by
  unfold iblk View.read
  exact (cast_eq _ _).trans (congrArg (V m c (Pipeline.arrRef spec0 7)) (emb_7 t p k))

/-- Window 8's block index at grid point t is (t, 0). -/
theorem idx_8 : ∀ t : Fin cfg0.N, win0_8.index t (0 : Fin 2) = t.val ∧ win0_8.index t (1 : Fin 2) = 0 :=
  (by decide +kernel : ∀ t : Fin grid0.N, _)

/-- Entry (p, k) of window 8's block at grid point t sits at (1024 t + p, k) of its array. -/
theorem emb_8 (t : Fin cfg0.N) (p : Fin 1024) (k : Fin 1) :
    ((cfg0.win 8).blk t).view.emb (ix2 p k)
      = ix2 (⟨t.val * 1024 + p.val, by have h : t.val < grid0.N := t.isLt; have := N_0; omega⟩ : Fin 8192) k := by
  obtain ⟨e0, e1⟩ := idx_8 t
  funext a; apply Fin.ext
  match a with
  | ⟨0, _⟩ => show win0_8.index t (0 : Fin 2) * 1024 + 1 * p.val = t.val * 1024 + p.val; omega
  | ⟨1, _⟩ => show win0_8.index t (1 : Fin 2) * 1 + 1 * k.val = k.val; omega

/-- Entry (p, k) of window 8's block at grid point t is the array's entry (1024 t + p, k). -/
theorem iblk_8 (c : Dev nD) (t : Fin cfg0.N) (p : Fin 1024) (k : Fin 1) :
    iblk m c 8 t (ix2 p k)
      = V m c (Pipeline.arrRef spec0 8) (ix2 (⟨t.val * 1024 + p.val, by have h : t.val < grid0.N := t.isLt; have := N_0; omega⟩ : Fin 8192) k) := by
  unfold iblk View.read
  exact (cast_eq _ _).trans (congrArg (V m c (Pipeline.arrRef spec0 8)) (emb_8 t p k))

/-- Window 9's block index at every grid point is (0, 0). -/
theorem idx_9 : ∀ t : Fin cfg0.N, win0_9.index t (0 : Fin 2) = 0 ∧ win0_9.index t (1 : Fin 2) = 0 :=
  (by decide +kernel : ∀ t : Fin grid0.N, _)

/-- Entry (p, k) of window 9's block at any grid point sits at (p, k) of its array: the block is the whole array. -/
theorem emb_9 (t : Fin cfg0.N) (p : Fin 300) (k : Fin 1024) :
    ((cfg0.win 9).blk t).view.emb (ix2 p k) = ix2 p k := by
  obtain ⟨e0, e1⟩ := idx_9 t
  funext a; apply Fin.ext
  match a with
  | ⟨0, _⟩ => show win0_9.index t (0 : Fin 2) * 300 + 1 * p.val = p.val; omega
  | ⟨1, _⟩ => show win0_9.index t (1 : Fin 2) * 1024 + 1 * k.val = k.val; omega

/-- Entry (p, k) of window 9's block at any grid point is the array's entry (p, k). -/
theorem iblk_9 (c : Dev nD) (t : Fin cfg0.N) (p : Fin 300) (k : Fin 1024) :
    iblk m c 9 t (ix2 p k) = V m c (Pipeline.arrRef spec0 9) (ix2 p k) := by
  unfold iblk View.read
  exact (cast_eq _ _).trans (congrArg (V m c (Pipeline.arrRef spec0 9)) (emb_9 t p k))

/-- Window 10's block index at every grid point is (0, 0). -/
theorem idx_10 : ∀ t : Fin cfg0.N, win0_10.index t (0 : Fin 2) = 0 ∧ win0_10.index t (1 : Fin 2) = 0 :=
  (by decide +kernel : ∀ t : Fin grid0.N, _)

/-- Entry (p, k) of window 10's block at any grid point sits at (p, k) of its array: the block is the whole array. -/
theorem emb_10 (t : Fin cfg0.N) (p : Fin 64) (k : Fin 1024) :
    ((cfg0.win 10).blk t).view.emb (ix2 p k) = ix2 p k := by
  obtain ⟨e0, e1⟩ := idx_10 t
  funext a; apply Fin.ext
  match a with
  | ⟨0, _⟩ => show win0_10.index t (0 : Fin 2) * 64 + 1 * p.val = p.val; omega
  | ⟨1, _⟩ => show win0_10.index t (1 : Fin 2) * 1024 + 1 * k.val = k.val; omega

/-- Entry (p, k) of window 10's block at any grid point is the array's entry (p, k). -/
theorem iblk_10 (c : Dev nD) (t : Fin cfg0.N) (p : Fin 64) (k : Fin 1024) :
    iblk m c 10 t (ix2 p k) = V m c (Pipeline.arrRef spec0 10) (ix2 p k) := by
  unfold iblk View.read
  exact (cast_eq _ _).trans (congrArg (V m c (Pipeline.arrRef spec0 10)) (emb_10 t p k))

/-- Window 11's block index at every grid point is (0, 0). -/
theorem idx_11 : ∀ t : Fin cfg0.N, win0_11.index t (0 : Fin 2) = 0 ∧ win0_11.index t (1 : Fin 2) = 0 :=
  (by decide +kernel : ∀ t : Fin grid0.N, _)

/-- Entry (p, k) of window 11's block at any grid point sits at (p, k) of its array: the block is the whole array. -/
theorem emb_11 (t : Fin cfg0.N) (p : Fin 64) (k : Fin 1024) :
    ((cfg0.win 11).blk t).view.emb (ix2 p k) = ix2 p k := by
  obtain ⟨e0, e1⟩ := idx_11 t
  funext a; apply Fin.ext
  match a with
  | ⟨0, _⟩ => show win0_11.index t (0 : Fin 2) * 64 + 1 * p.val = p.val; omega
  | ⟨1, _⟩ => show win0_11.index t (1 : Fin 2) * 1024 + 1 * k.val = k.val; omega

/-- Entry (p, k) of window 11's block at any grid point is the array's entry (p, k). -/
theorem iblk_11 (c : Dev nD) (t : Fin cfg0.N) (p : Fin 64) (k : Fin 1024) :
    iblk m c 11 t (ix2 p k) = V m c (Pipeline.arrRef spec0 11) (ix2 p k) := by
  unfold iblk View.read
  exact (cast_eq _ _).trans (congrArg (V m c (Pipeline.arrRef spec0 11)) (emb_11 t p k))

/-- Window 12's block index at every grid point is (0, 0). -/
theorem idx_12 : ∀ t : Fin cfg0.N, win0_12.index t (0 : Fin 2) = 0 ∧ win0_12.index t (1 : Fin 2) = 0 :=
  (by decide +kernel : ∀ t : Fin grid0.N, _)

/-- Entry (p, k) of window 12's block at any grid point sits at (p, k) of its array: the block is the whole array. -/
theorem emb_12 (t : Fin cfg0.N) (p : Fin 64) (k : Fin 1024) :
    ((cfg0.win 12).blk t).view.emb (ix2 p k) = ix2 p k := by
  obtain ⟨e0, e1⟩ := idx_12 t
  funext a; apply Fin.ext
  match a with
  | ⟨0, _⟩ => show win0_12.index t (0 : Fin 2) * 64 + 1 * p.val = p.val; omega
  | ⟨1, _⟩ => show win0_12.index t (1 : Fin 2) * 1024 + 1 * k.val = k.val; omega

/-- Entry (p, k) of window 12's block at any grid point is the array's entry (p, k). -/
theorem iblk_12 (c : Dev nD) (t : Fin cfg0.N) (p : Fin 64) (k : Fin 1024) :
    iblk m c 12 t (ix2 p k) = V m c (Pipeline.arrRef spec0 12) (ix2 p k) := by
  unfold iblk View.read
  exact (cast_eq _ _).trans (congrArg (V m c (Pipeline.arrRef spec0 12)) (emb_12 t p k))

/-- Window 13's block index at every grid point is (0, 0). -/
theorem idx_13 : ∀ t : Fin cfg0.N, win0_13.index t (0 : Fin 2) = 0 ∧ win0_13.index t (1 : Fin 2) = 0 :=
  (by decide +kernel : ∀ t : Fin grid0.N, _)

/-- Entry (p, k) of window 13's block at any grid point sits at (p, k) of its array: the block is the whole array. -/
theorem emb_13 (t : Fin cfg0.N) (p : Fin 64) (k : Fin 1024) :
    ((cfg0.win 13).blk t).view.emb (ix2 p k) = ix2 p k := by
  obtain ⟨e0, e1⟩ := idx_13 t
  funext a; apply Fin.ext
  match a with
  | ⟨0, _⟩ => show win0_13.index t (0 : Fin 2) * 64 + 1 * p.val = p.val; omega
  | ⟨1, _⟩ => show win0_13.index t (1 : Fin 2) * 1024 + 1 * k.val = k.val; omega

/-- Entry (p, k) of window 13's block at any grid point is the array's entry (p, k). -/
theorem iblk_13 (c : Dev nD) (t : Fin cfg0.N) (p : Fin 64) (k : Fin 1024) :
    iblk m c 13 t (ix2 p k) = V m c (Pipeline.arrRef spec0 13) (ix2 p k) := by
  unfold iblk View.read
  exact (cast_eq _ _).trans (congrArg (V m c (Pipeline.arrRef spec0 13)) (emb_13 t p k))

/-- Window 14's block index at every grid point is (0, 0). -/
theorem idx_14 : ∀ t : Fin cfg0.N, win0_14.index t (0 : Fin 2) = 0 ∧ win0_14.index t (1 : Fin 2) = 0 :=
  (by decide +kernel : ∀ t : Fin grid0.N, _)

/-- Entry (p, k) of window 14's block at any grid point sits at (p, k) of its array: the block is the whole array. -/
theorem emb_14 (t : Fin cfg0.N) (p : Fin 64) (k : Fin 1024) :
    ((cfg0.win 14).blk t).view.emb (ix2 p k) = ix2 p k := by
  obtain ⟨e0, e1⟩ := idx_14 t
  funext a; apply Fin.ext
  match a with
  | ⟨0, _⟩ => show win0_14.index t (0 : Fin 2) * 64 + 1 * p.val = p.val; omega
  | ⟨1, _⟩ => show win0_14.index t (1 : Fin 2) * 1024 + 1 * k.val = k.val; omega

/-- Entry (p, k) of window 14's block at any grid point is the array's entry (p, k). -/
theorem iblk_14 (c : Dev nD) (t : Fin cfg0.N) (p : Fin 64) (k : Fin 1024) :
    iblk m c 14 t (ix2 p k) = V m c (Pipeline.arrRef spec0 14) (ix2 p k) := by
  unfold iblk View.read
  exact (cast_eq _ _).trans (congrArg (V m c (Pipeline.arrRef spec0 14)) (emb_14 t p k))

/-- Window 15's block index at every grid point is (0, 0). -/
theorem idx_15 : ∀ t : Fin cfg0.N, win0_15.index t (0 : Fin 2) = 0 ∧ win0_15.index t (1 : Fin 2) = 0 :=
  (by decide +kernel : ∀ t : Fin grid0.N, _)

/-- Entry (p, k) of window 15's block at any grid point sits at (p, k) of its array: the block is the whole array. -/
theorem emb_15 (t : Fin cfg0.N) (p : Fin 64) (k : Fin 1024) :
    ((cfg0.win 15).blk t).view.emb (ix2 p k) = ix2 p k := by
  obtain ⟨e0, e1⟩ := idx_15 t
  funext a; apply Fin.ext
  match a with
  | ⟨0, _⟩ => show win0_15.index t (0 : Fin 2) * 64 + 1 * p.val = p.val; omega
  | ⟨1, _⟩ => show win0_15.index t (1 : Fin 2) * 1024 + 1 * k.val = k.val; omega

/-- Entry (p, k) of window 15's block at any grid point is the array's entry (p, k). -/
theorem iblk_15 (c : Dev nD) (t : Fin cfg0.N) (p : Fin 64) (k : Fin 1024) :
    iblk m c 15 t (ix2 p k) = V m c (Pipeline.arrRef spec0 15) (ix2 p k) := by
  unfold iblk View.read
  exact (cast_eq _ _).trans (congrArg (V m c (Pipeline.arrRef spec0 15)) (emb_15 t p k))

/-- Window 16's block index at every grid point is (0, 0). -/
theorem idx_16 : ∀ t : Fin cfg0.N, win0_16.index t (0 : Fin 2) = 0 ∧ win0_16.index t (1 : Fin 2) = 0 :=
  (by decide +kernel : ∀ t : Fin grid0.N, _)

/-- Entry (p, k) of window 16's block at any grid point sits at (p, k) of its array: the block is the whole array. -/
theorem emb_16 (t : Fin cfg0.N) (p : Fin 64) (k : Fin 1024) :
    ((cfg0.win 16).blk t).view.emb (ix2 p k) = ix2 p k := by
  obtain ⟨e0, e1⟩ := idx_16 t
  funext a; apply Fin.ext
  match a with
  | ⟨0, _⟩ => show win0_16.index t (0 : Fin 2) * 64 + 1 * p.val = p.val; omega
  | ⟨1, _⟩ => show win0_16.index t (1 : Fin 2) * 1024 + 1 * k.val = k.val; omega

/-- Entry (p, k) of window 16's block at any grid point is the array's entry (p, k). -/
theorem iblk_16 (c : Dev nD) (t : Fin cfg0.N) (p : Fin 64) (k : Fin 1024) :
    iblk m c 16 t (ix2 p k) = V m c (Pipeline.arrRef spec0 16) (ix2 p k) := by
  unfold iblk View.read
  exact (cast_eq _ _).trans (congrArg (V m c (Pipeline.arrRef spec0 16)) (emb_16 t p k))

/-- Window 17's block index at every grid point is (0, 0). -/
theorem idx_17 : ∀ t : Fin cfg0.N, win0_17.index t (0 : Fin 2) = 0 ∧ win0_17.index t (1 : Fin 2) = 0 :=
  (by decide +kernel : ∀ t : Fin grid0.N, _)

/-- Entry (p, k) of window 17's block at any grid point sits at (p, k) of its array: the block is the whole array. -/
theorem emb_17 (t : Fin cfg0.N) (p : Fin 1) (k : Fin 1024) :
    ((cfg0.win 17).blk t).view.emb (ix2 p k) = ix2 p k := by
  obtain ⟨e0, e1⟩ := idx_17 t
  funext a; apply Fin.ext
  match a with
  | ⟨0, _⟩ => show win0_17.index t (0 : Fin 2) * 1 + 1 * p.val = p.val; omega
  | ⟨1, _⟩ => show win0_17.index t (1 : Fin 2) * 1024 + 1 * k.val = k.val; omega

/-- Entry (p, k) of window 17's block at any grid point is the array's entry (p, k). -/
theorem iblk_17 (c : Dev nD) (t : Fin cfg0.N) (p : Fin 1) (k : Fin 1024) :
    iblk m c 17 t (ix2 p k) = V m c (Pipeline.arrRef spec0 17) (ix2 p k) := by
  unfold iblk View.read
  exact (cast_eq _ _).trans (congrArg (V m c (Pipeline.arrRef spec0 17)) (emb_17 t p k))

/-- Window 18's block index at every grid point is (0, 0). -/
theorem idx_18 : ∀ t : Fin cfg0.N, win0_18.index t (0 : Fin 2) = 0 ∧ win0_18.index t (1 : Fin 2) = 0 :=
  (by decide +kernel : ∀ t : Fin grid0.N, _)

/-- Entry (p, k) of window 18's block at any grid point sits at (p, k) of its array: the block is the whole array. -/
theorem emb_18 (t : Fin cfg0.N) (p : Fin 1024) (k : Fin 512) :
    ((cfg0.win 18).blk t).view.emb (ix2 p k) = ix2 p k := by
  obtain ⟨e0, e1⟩ := idx_18 t
  funext a; apply Fin.ext
  match a with
  | ⟨0, _⟩ => show win0_18.index t (0 : Fin 2) * 1024 + 1 * p.val = p.val; omega
  | ⟨1, _⟩ => show win0_18.index t (1 : Fin 2) * 512 + 1 * k.val = k.val; omega

/-- Entry (p, k) of window 18's block at any grid point is the array's entry (p, k). -/
theorem iblk_18 (c : Dev nD) (t : Fin cfg0.N) (p : Fin 1024) (k : Fin 512) :
    iblk m c 18 t (ix2 p k) = V m c (Pipeline.arrRef spec0 18) (ix2 p k) := by
  unfold iblk View.read
  exact (cast_eq _ _).trans (congrArg (V m c (Pipeline.arrRef spec0 18)) (emb_18 t p k))

/-- Window 19's block index at every grid point is (0, 0). -/
theorem idx_19 : ∀ t : Fin cfg0.N, win0_19.index t (0 : Fin 2) = 0 ∧ win0_19.index t (1 : Fin 2) = 0 :=
  (by decide +kernel : ∀ t : Fin grid0.N, _)

/-- Entry (p, k) of window 19's block at any grid point sits at (p, k) of its array: the block is the whole array. -/
theorem emb_19 (t : Fin cfg0.N) (p : Fin 1) (k : Fin 512) :
    ((cfg0.win 19).blk t).view.emb (ix2 p k) = ix2 p k := by
  obtain ⟨e0, e1⟩ := idx_19 t
  funext a; apply Fin.ext
  match a with
  | ⟨0, _⟩ => show win0_19.index t (0 : Fin 2) * 1 + 1 * p.val = p.val; omega
  | ⟨1, _⟩ => show win0_19.index t (1 : Fin 2) * 512 + 1 * k.val = k.val; omega

/-- Entry (p, k) of window 19's block at any grid point is the array's entry (p, k). -/
theorem iblk_19 (c : Dev nD) (t : Fin cfg0.N) (p : Fin 1) (k : Fin 512) :
    iblk m c 19 t (ix2 p k) = V m c (Pipeline.arrRef spec0 19) (ix2 p k) := by
  unfold iblk View.read
  exact (cast_eq _ _).trans (congrArg (V m c (Pipeline.arrRef spec0 19)) (emb_19 t p k))

/-- Window 20's block index at every grid point is (0, 0). -/
theorem idx_20 : ∀ t : Fin cfg0.N, win0_20.index t (0 : Fin 2) = 0 ∧ win0_20.index t (1 : Fin 2) = 0 :=
  (by decide +kernel : ∀ t : Fin grid0.N, _)

/-- Entry (p, k) of window 20's block at any grid point sits at (p, k) of its array: the block is the whole array. -/
theorem emb_20 (t : Fin cfg0.N) (p : Fin 512) (k : Fin 256) :
    ((cfg0.win 20).blk t).view.emb (ix2 p k) = ix2 p k := by
  obtain ⟨e0, e1⟩ := idx_20 t
  funext a; apply Fin.ext
  match a with
  | ⟨0, _⟩ => show win0_20.index t (0 : Fin 2) * 512 + 1 * p.val = p.val; omega
  | ⟨1, _⟩ => show win0_20.index t (1 : Fin 2) * 256 + 1 * k.val = k.val; omega

/-- Entry (p, k) of window 20's block at any grid point is the array's entry (p, k). -/
theorem iblk_20 (c : Dev nD) (t : Fin cfg0.N) (p : Fin 512) (k : Fin 256) :
    iblk m c 20 t (ix2 p k) = V m c (Pipeline.arrRef spec0 20) (ix2 p k) := by
  unfold iblk View.read
  exact (cast_eq _ _).trans (congrArg (V m c (Pipeline.arrRef spec0 20)) (emb_20 t p k))

/-- Window 21's block index at every grid point is (0, 0). -/
theorem idx_21 : ∀ t : Fin cfg0.N, win0_21.index t (0 : Fin 2) = 0 ∧ win0_21.index t (1 : Fin 2) = 0 :=
  (by decide +kernel : ∀ t : Fin grid0.N, _)

/-- Entry (p, k) of window 21's block at any grid point sits at (p, k) of its array: the block is the whole array. -/
theorem emb_21 (t : Fin cfg0.N) (p : Fin 1) (k : Fin 256) :
    ((cfg0.win 21).blk t).view.emb (ix2 p k) = ix2 p k := by
  obtain ⟨e0, e1⟩ := idx_21 t
  funext a; apply Fin.ext
  match a with
  | ⟨0, _⟩ => show win0_21.index t (0 : Fin 2) * 1 + 1 * p.val = p.val; omega
  | ⟨1, _⟩ => show win0_21.index t (1 : Fin 2) * 256 + 1 * k.val = k.val; omega

/-- Entry (p, k) of window 21's block at any grid point is the array's entry (p, k). -/
theorem iblk_21 (c : Dev nD) (t : Fin cfg0.N) (p : Fin 1) (k : Fin 256) :
    iblk m c 21 t (ix2 p k) = V m c (Pipeline.arrRef spec0 21) (ix2 p k) := by
  unfold iblk View.read
  exact (cast_eq _ _).trans (congrArg (V m c (Pipeline.arrRef spec0 21)) (emb_21 t p k))

/-- Window 22's block index at every grid point is (0, 0). -/
theorem idx_22 : ∀ t : Fin cfg0.N, win0_22.index t (0 : Fin 2) = 0 ∧ win0_22.index t (1 : Fin 2) = 0 :=
  (by decide +kernel : ∀ t : Fin grid0.N, _)

/-- Entry (p, k) of window 22's block at any grid point sits at (p, k) of its array: the block is the whole array. -/
theorem emb_22 (t : Fin cfg0.N) (p : Fin 256) (k : Fin 1) :
    ((cfg0.win 22).blk t).view.emb (ix2 p k) = ix2 p k := by
  obtain ⟨e0, e1⟩ := idx_22 t
  funext a; apply Fin.ext
  match a with
  | ⟨0, _⟩ => show win0_22.index t (0 : Fin 2) * 256 + 1 * p.val = p.val; omega
  | ⟨1, _⟩ => show win0_22.index t (1 : Fin 2) * 1 + 1 * k.val = k.val; omega

/-- Entry (p, k) of window 22's block at any grid point is the array's entry (p, k). -/
theorem iblk_22 (c : Dev nD) (t : Fin cfg0.N) (p : Fin 256) (k : Fin 1) :
    iblk m c 22 t (ix2 p k) = V m c (Pipeline.arrRef spec0 22) (ix2 p k) := by
  unfold iblk View.read
  exact (cast_eq _ _).trans (congrArg (V m c (Pipeline.arrRef spec0 22)) (emb_22 t p k))

/-- Window 23's block index at every grid point is (0, 0). -/
theorem idx_23 : ∀ t : Fin cfg0.N, win0_23.index t (0 : Fin 2) = 0 ∧ win0_23.index t (1 : Fin 2) = 0 :=
  (by decide +kernel : ∀ t : Fin grid0.N, _)

/-- Entry (p, k) of window 23's block at any grid point sits at (p, k) of its array: the block is the whole array. -/
theorem emb_23 (t : Fin cfg0.N) (p : Fin 1) (k : Fin 1) :
    ((cfg0.win 23).blk t).view.emb (ix2 p k) = ix2 p k := by
  obtain ⟨e0, e1⟩ := idx_23 t
  funext a; apply Fin.ext
  match a with
  | ⟨0, _⟩ => show win0_23.index t (0 : Fin 2) * 1 + 1 * p.val = p.val; omega
  | ⟨1, _⟩ => show win0_23.index t (1 : Fin 2) * 1 + 1 * k.val = k.val; omega

/-- Entry (p, k) of window 23's block at any grid point is the array's entry (p, k). -/
theorem iblk_23 (c : Dev nD) (t : Fin cfg0.N) (p : Fin 1) (k : Fin 1) :
    iblk m c 23 t (ix2 p k) = V m c (Pipeline.arrRef spec0 23) (ix2 p k) := by
  unfold iblk View.read
  exact (cast_eq _ _).trans (congrArg (V m c (Pipeline.arrRef spec0 23)) (emb_23 t p k))

/-- Window 24's block index at grid point t is (t, 0). -/
theorem idx_24 : ∀ t : Fin cfg0.N, win0_24.index t (0 : Fin 2) = t.val ∧ win0_24.index t (1 : Fin 2) = 0 :=
  (by decide +kernel : ∀ t : Fin grid0.N, _)

/-- Entry (p, k) of window 24's block at grid point t sits at (1024 t + p, k) of its array. -/
theorem emb_24 (t : Fin cfg0.N) (p : Fin 1024) (k : Fin 1) :
    ((cfg0.win 24).blk t).view.emb (ix2 p k)
      = ix2 (⟨t.val * 1024 + p.val, by have h : t.val < grid0.N := t.isLt; have := N_0; omega⟩ : Fin 8192) k := by
  obtain ⟨e0, e1⟩ := idx_24 t
  funext a; apply Fin.ext
  match a with
  | ⟨0, _⟩ => show win0_24.index t (0 : Fin 2) * 1024 + 1 * p.val = t.val * 1024 + p.val; omega
  | ⟨1, _⟩ => show win0_24.index t (1 : Fin 2) * 1 + 1 * k.val = k.val; omega

/-- The output window's block at grid point t: entry (p, q) sits at (1024 t + p, q) of the output array. -/
theorem emb24 (t : Fin cfg0.N) (p : Fin 1024) (q : Fin 1) :
    ((cfg0.win 24).blk t).view.emb (ix2 p q)
      = ix2 (⟨t.val * 1024 + p.val, by have h : t.val < grid0.N := t.isLt; have := N_0; omega⟩ : Fin 8192) q :=
  emb_24 t p q

/-- An index of the output array is in grid point t's block iff each coordinate is in the block's range on its axis. -/
theorem mem_blk24 (t : Fin cfg0.N) (i : S8192x1.Idx) :
    i ∈ ((cfg0.win 24).blk t).view.set ↔ ∀ a : Fin 2, win0_24.index t a * S1024x1.size a ≤ (i a).val
      ∧ (i a).val < win0_24.index t a * S1024x1.size a + S1024x1.size a := by
  show i ∈ ((View.whole main_v1018).slice (win0_24.rect t)).set ↔ _
  rw [View.set_slice_whole, Rect.mem_set_unit]
  exact Iff.rfl

/-- Every entry of the output array is written: row r lies in the block of grid point r / 1024, which is flushed. -/
theorem cover24 : ∀ i : S8192x1.Idx, ∃ t : Fin cfg0.N, (cfg0.win 24).flush t = true
    ∧ i ∈ ((cfg0.win 24).blk t).view.set := by
  intro i
  have hi0 : (i 0).val < 8192 := (i 0).isLt
  have hi1 : (i 1).val < 1 := (i 1).isLt
  have hlt : (i 0).val / 1024 < cfg0.N := by
    show (i 0).val / 1024 < grid0.N
    have := N_0
    omega
  obtain ⟨e0, e1⟩ := idx_24 ⟨(i 0).val / 1024, hlt⟩
  have e0' : win0_24.index ⟨(i 0).val / 1024, hlt⟩ (0 : Fin 2) = (i 0).val / 1024 := e0
  refine ⟨⟨(i 0).val / 1024, hlt⟩, flush0_24 _, ?_⟩
  rw [mem_blk24]
  intro a
  match a with
  | ⟨0, _⟩ =>
    show win0_24.index ⟨(i 0).val / 1024, hlt⟩ (0 : Fin 2) * 1024 ≤ (i 0).val
      ∧ (i 0).val < win0_24.index ⟨(i 0).val / 1024, hlt⟩ (0 : Fin 2) * 1024 + 1024
    omega
  | ⟨1, _⟩ =>
    show win0_24.index ⟨(i 0).val / 1024, hlt⟩ (1 : Fin 2) * 1 ≤ (i 1).val
      ∧ (i 1).val < win0_24.index ⟨(i 0).val / 1024, hlt⟩ (1 : Fin 2) * 1 + 1
    omega

end Cert.WideDeep.WinPos

end
-- ==== Proof.Final.lean ====
/-
  The result array after the kernel's run, and the claim's kernel side.

  The region's grid has eight points; point t loads rows 1024 t … 1024 t + 1023 of each field and of the wide sums,
  and all of every weight and bias, and writes back rows 1024 t … 1024 t + 1023 of the result.  Row p of what it writes
  is the tower's row function of row p of the loaded blocks, hence of row 1024 t + p of the arrays the region finds;
  those arrays are the specification's fields, wide sums and weights, so the written block is the specification's result
  on its rows.  The eight blocks cover all 8192 rows, so the array ends at the specification's result.
-/
import proofs.«151196_j43095701848227_2_alg».proof.Proof.KernelIdealP.Value
import proofs.«151196_j43095701848227_2_alg».proof.Proof.Piece
import proofs.«151196_j43095701848227_2_alg».proof.Proof.Staged
import proofs.«151196_j43095701848227_2_alg».proof.Proof.WinPos

set_option maxRecDepth 16384

noncomputable section

namespace Cert.WideDeep.Final

open Idealize.ShloMosaic Idealize.ShloMosaic.TcCoe Idealize.ShloMosaic.ValueIdx Idealize.SL.Sem
open Cert.KernelIdeal Cert.KernelIdeal.Gen Cert.KernelIdeal.GenP Cert.KernelIdeal.ValueP
open Cert.WideDeep Cert.WideDeep.Block Cert.WideDeep.Piece Cert.WideDeep.WinPos
open Idealize.ShloMosaic.Pipeline (Dat)

variable (m : (ℓ : Loc nD τ sig) → Buf (Elt Ideal) ℓ) (ρ : Dev nD → PrngReg)

/-- What point t writes back is block t of the specification's result. -/
theorem flushed_eq (c : Dev nD) (hS : Staged m c) (t : Fin cfg0.N) :
    (dats m 0 c).flushed 24 t = ((cfg0.win 24).blk t).view.read (Elt Ideal) (out (kArgs m c)) := by
  rw [flushed24_A, out_piece]
  funext y
  obtain ⟨p, q, rfl⟩ : ∃ (p : Fin 1024) (q : Fin 1), y = ix2 p q := ⟨y 0, y 1, eq_ix2 y⟩
  obtain rfl : q = 0 := Subsingleton.elim _ _
  have hb : t.val * 1024 + p.val < 8192 := by have h : t.val < grid0.N := t.isLt; have := N_0; omega
  show blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p (0 : Fin 1)) = out (kArgs m c) (((cfg0.win 24).blk t).view.emb (ix2 p (0 : Fin 1)))
  refine (blockOut_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p 0).trans ?_
  rw [emb24 t p 0, out_eq_towerRow (kArgs m c) ⟨t.val * 1024 + p.val, hb⟩ 0]
  have e0 : (fun k => iblk m c 0 t (ix2 p k)) = tok (kArgs m c) ⟨t.val * 1024 + p.val, hb⟩ :=
    funext fun k => (iblk_0 m c t p k).trans (congrFun hS.tok _)
  have e1 : (fun k => iblk m c 1 t (ix2 p k)) = e1 (kArgs m c) ⟨t.val * 1024 + p.val, hb⟩ :=
    funext fun k => (iblk_1 m c t p k).trans (congrFun hS.e1 _)
  have e2 : (fun k => iblk m c 2 t (ix2 p k)) = e2 (kArgs m c) ⟨t.val * 1024 + p.val, hb⟩ :=
    funext fun k => (iblk_2 m c t p k).trans (congrFun hS.e2 _)
  have e3 : (fun k => iblk m c 3 t (ix2 p k)) = e3 (kArgs m c) ⟨t.val * 1024 + p.val, hb⟩ :=
    funext fun k => (iblk_3 m c t p k).trans (congrFun hS.e3 _)
  have e4 : (fun k => iblk m c 4 t (ix2 p k)) = o1 (kArgs m c) ⟨t.val * 1024 + p.val, hb⟩ :=
    funext fun k => (iblk_4 m c t p k).trans (congrFun hS.o1 _)
  have e5 : (fun k => iblk m c 5 t (ix2 p k)) = o2 (kArgs m c) ⟨t.val * 1024 + p.val, hb⟩ :=
    funext fun k => (iblk_5 m c t p k).trans (congrFun hS.o2 _)
  have e6 : (fun k => iblk m c 6 t (ix2 p k)) = o3 (kArgs m c) ⟨t.val * 1024 + p.val, hb⟩ :=
    funext fun k => (iblk_6 m c t p k).trans (congrFun hS.o3 _)
  have e7 : (fun k => iblk m c 7 t (ix2 p k)) = o4 (kArgs m c) ⟨t.val * 1024 + p.val, hb⟩ :=
    funext fun k => (iblk_7 m c t p k).trans (congrFun hS.o4 _)
  have e8 : iblk m c 8 t (ix2 p (0 : Fin 1)) = wide (kArgs m c) ⟨t.val * 1024 + p.val, hb⟩ := (iblk_8 m c t p 0).trans (congrFun hS.wide _)
  have e9 : (fun k n => iblk m c 9 t (ix2 k n)) = fun k n => (kArgs m c).W1 (ix2 ⟨k.val, by have := k.isLt; omega⟩ n) :=
    funext fun k => funext fun n => (iblk_9 m c t k n).trans (congrFun hS.w1_0 _)
  have e10 : (fun k n => iblk m c 10 t (ix2 k n)) = fun k n => (kArgs m c).W1 (ix2 ⟨300 + k.val, by have := k.isLt; omega⟩ n) :=
    funext fun k => funext fun n => (iblk_10 m c t k n).trans (congrFun hS.w1_1 _)
  have e11 : (fun k n => iblk m c 11 t (ix2 k n)) = fun k n => (kArgs m c).W1 (ix2 ⟨364 + k.val, by have := k.isLt; omega⟩ n) :=
    funext fun k => funext fun n => (iblk_11 m c t k n).trans (congrFun hS.w1_2 _)
  have e12 : (fun k n => iblk m c 12 t (ix2 k n)) = fun k n => (kArgs m c).W1 (ix2 ⟨428 + k.val, by have := k.isLt; omega⟩ n) :=
    funext fun k => funext fun n => (iblk_12 m c t k n).trans (congrFun hS.w1_3 _)
  have e13 : (fun k n => iblk m c 13 t (ix2 k n)) = fun k n => (kArgs m c).W1 (ix2 ⟨492 + k.val, by have := k.isLt; omega⟩ n) :=
    funext fun k => funext fun n => (iblk_13 m c t k n).trans (congrFun hS.w1_4 _)
  have e14 : (fun k n => iblk m c 14 t (ix2 k n)) = fun k n => (kArgs m c).W1 (ix2 ⟨556 + k.val, by have := k.isLt; omega⟩ n) :=
    funext fun k => funext fun n => (iblk_14 m c t k n).trans (congrFun hS.w1_5 _)
  have e15 : (fun k n => iblk m c 15 t (ix2 k n)) = fun k n => (kArgs m c).W1 (ix2 ⟨620 + k.val, by have := k.isLt; omega⟩ n) :=
    funext fun k => funext fun n => (iblk_15 m c t k n).trans (congrFun hS.w1_6 _)
  have e16 : (fun k n => iblk m c 16 t (ix2 k n)) = fun k n => (kArgs m c).W1 (ix2 ⟨684 + k.val, by have := k.isLt; omega⟩ n) :=
    funext fun k => funext fun n => (iblk_16 m c t k n).trans (congrFun hS.w1_7 _)
  have e17 : (fun n => iblk m c 17 t (ix2 (0 : Fin 1) n)) = fun n => (kArgs m c).b1 (ix1 n) :=
    funext fun n => (iblk_17 m c t 0 n).trans (congrFun hS.b1 _)
  have e18 : (fun k n => iblk m c 18 t (ix2 k n)) = fun k n => (kArgs m c).W2 (ix2 k n) :=
    funext fun k => funext fun n => (iblk_18 m c t k n).trans (congrFun hS.w2 _)
  have e19 : (fun n => iblk m c 19 t (ix2 (0 : Fin 1) n)) = fun n => (kArgs m c).b2 (ix1 n) :=
    funext fun n => (iblk_19 m c t 0 n).trans (congrFun hS.b2 _)
  have e20 : (fun k n => iblk m c 20 t (ix2 k n)) = fun k n => (kArgs m c).W3 (ix2 k n) :=
    funext fun k => funext fun n => (iblk_20 m c t k n).trans (congrFun hS.w3 _)
  have e21 : (fun n => iblk m c 21 t (ix2 (0 : Fin 1) n)) = fun n => (kArgs m c).b3 (ix1 n) :=
    funext fun n => (iblk_21 m c t 0 n).trans (congrFun hS.b3 _)
  have e22 : (fun k => iblk m c 22 t (ix2 k (0 : Fin 1))) = fun k => (kArgs m c).Wd (ix2 k (0 : Fin 1)) :=
    funext fun k => (iblk_22 m c t k 0).trans (congrFun hS.wd _)
  have e23 : iblk m c 23 t (ix2 (0 : Fin 1) (0 : Fin 1)) = (kArgs m c).bd (ix1 (0 : Fin 1)) := (iblk_23 m c t 0 0).trans (congrFun hS.bd _)
  rw [e0, e1, e2, e3, e4, e5, e6, e7, e8, e9, e10, e11, e12, e13, e14, e15, e16, e17, e18, e19, e20, e21, e22, e23]

/-- After the run the result array is the specification's result of the argument arrays. -/
theorem final (c : Dev nD) (hS : Staged m c) : (dats m 0 c).arrAt 24 cfg0.N = out (kArgs m c) :=
  (dats m 0 c).arrAt_eq_of_cover 24 (out (kArgs m c)) (fun t _ => flushed_eq m c hS t) cover24

end Cert.WideDeep.Final

end
-- ==== Proof.GlueLib.lean ====
/-
  General facts the reading of the host stretch rests on.

  * Running two lists of operations one after the other is running their concatenation; the buffers a concatenation
    writes are those its two halves write.
  * A row gather with a column of start indices (operand [N, C], start indices [A, 1], result [A, C]) read at (a, q) is
    the operand at the clamped row idx[a, 0] and column q.
  * One step of a bag sum: the accumulator plus the table rows that one column of the index matrix selects, the index
    words wrapped once when negative. Partial sums over the first n columns, and their value at n = L.
  * The joined table [N, 65] read in its first 64 columns and in its last one; the two slices of the accumulator.
-/
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws
import proofs.«151196_j43095701848227_2_alg».proof.Proof.Spec

noncomputable section

namespace Cert.WideDeep.Glue

open Idealize.ShloMosaic Idealize.ShloMosaic.ValueIdx Idealize.ShloMosaic.StableHlo Cert.LibGatherRows3

/-! ## Lists of operations -/

section Lists

variable {τ : Topo} {sig : RefSig} {Val : EltTy → Type}

/-- Two lists run in order are their concatenation run as one. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What a concatenation writes is what its halves write. -/
theorem writes_append {W₁ W₂ : List (Ref sig .tc)} {l₁ l₂ : List (HloOp τ sig Val)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at h₁ h₂ ⊢
  intro op hop
  rcases List.mem_append.mp hop with h | h
  · refine (h₁ op h).trans fun x hx => ?_
    rw [List.map_append, List.toFinset_append]; exact Finset.mem_union_left _ hx
  · refine (h₂ op h).trans fun x hx => ?_
    rw [List.map_append, List.toFinset_append]; exact Finset.mem_union_right _ hx

end Lists

/-! ## A row gather at a column of indices -/

section Gather

variable {α : Type}

/-- The dimension numbers of x[idx] along axis 0 of a rank-2 operand at a column of indices:
    operand [N, C], start indices [A, 1], result [A, C]. -/
abbrev rows2Dims (N C A : Nat)
    (wf : GatherDims.WF ⟨2, ![N, C]⟩ ⟨2, ![A, 1]⟩ ⟨2, ![A, C]⟩ [1] [0] [] [0] [] 1 ![1, C]) :
    GatherDims ⟨2, ![N, C]⟩ ⟨2, ![A, 1]⟩ ⟨2, ![A, C]⟩ where
  offsetDims := [1]
  collapsedSliceDims := [0]
  operandBatchingDims := []
  startIndicesBatchingDims := []
  startIndexMap := [0]
  indexVectorDim := 1
  sliceSizes := ![1, C]
  wf := wf

/-- The gather at (a, q): the operand at the clamped row idx[a, 0] and column q. -/
theorem rows2_apply {N C A w : Nat} (hN : 0 < N)
    (wf : GatherDims.WF ⟨2, ![N, C]⟩ ⟨2, ![A, 1]⟩ ⟨2, ![A, C]⟩ [1] [0] [] [0] [] 1 ![1, C])
    (x : (⟨2, ![N, C]⟩ : Shape).Idx → α) (idx : IVec ⟨2, ![A, 1]⟩ w) (a : Fin A) (q : Fin C) :
    Host.gather (rows2Dims N C A wf) x idx (ix2 a q)
      = x (ix2 (clampRow N hN (idx (ix2 a (0 : Fin 1)))) q) := by
  unfold Host.gather
  congr 1
  funext ax
  refine Fin.ext ?_
  match ax with
  | ⟨0, _⟩ =>
    show (rows2Dims N C A wf).start (ix2 a q) idx 0 + (rows2Dims N C A wf).batchCoord (ix2 a q) 0
      + (rows2Dims N C A wf).offCoord (ix2 a q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2Dims N C A wf).startIndexMap from List.mem_singleton.mpr rfl)]
    have hsi : (rows2Dims N C A wf).siIdx (ix2 a q) ⟨List.idxOf (0 : Fin 2) (rows2Dims N C A wf).startIndexMap,
        List.idxOf_lt_length_iff.2 (List.mem_singleton.mpr rfl)⟩ = ix2 a (0 : Fin 1) := by
      funext c; refine Fin.ext ?_
      match c with
      | ⟨0, _⟩ => rfl
      | ⟨1, _⟩ => rfl
    rw [hsi]
    rfl
  | ⟨1, _⟩ =>
    show (rows2Dims N C A wf).start (ix2 a q) idx 1 + (rows2Dims N C A wf).batchCoord (ix2 a q) 1
      + (rows2Dims N C A wf).offCoord (ix2 a q) 1 = q.val
    rw [GatherDims.batchCoord_eq_zero _ _ _ List.not_mem_nil]
    unfold GatherDims.start
    rw [dif_neg (show (1 : Fin 2) ∉ (rows2Dims N C A wf).startIndexMap from
      (by decide : (1 : Fin 2) ∉ ([0] : List (Fin 2))))]
    simp only [Nat.add_zero, Nat.zero_add]
    rfl

end Gather

/-! ## One column of a matrix, as a vector -/

/-- Column jn of a matrix [8192, L], sliced out and flattened, read at b. -/
theorem column_apply {α : Type} {L : Nat} (x : (⟨2, ![8192, L]⟩ : Shape).Idx → α) (jn : Nat) (hj : jn < L)
    (hsl : (⟨2, ![8192, L]⟩ : Shape).Slices ![0, jn] ⟨2, ![8192, 1]⟩)
    (hsc : (⟨2, ![8192, 1]⟩ : Shape).ShapeCasts ⟨1, ![8192]⟩) (b : Fin 8192) :
    shapeCast ⟨1, ![8192]⟩ (extractStridedSlice ⟨2, ![8192, 1]⟩ ![0, jn] x hsl) hsc (ix1 b)
      = x (ix2 b ⟨jn, hj⟩) := by
  rw [shapeCast_apply _ hsc (ix1 b) (ix2 b (0 : Fin 1)) (by
    rw [Shape.rowMajor_val_two, Shape.rowMajor_val_one]; show b.val * 1 + 0 = b.val; omega)]
  exact extractStridedSlice_apply _ _ hsl _ (ix2 b ⟨jn, hj⟩) (fun a => by
    match a with
    | ⟨0, _⟩ => show b.val = 0 + b.val; omega
    | ⟨1, _⟩ => show jn = jn + 0; omega)

/-- The first 64 columns of a matrix [8192, 65], read at (b, d). -/
theorem slice64_apply {α : Type} (x : (⟨2, ![8192, 65]⟩ : Shape).Idx → α)
    (h : (⟨2, ![8192, 65]⟩ : Shape).Slices ![0, 0] ⟨2, ![8192, 64]⟩) (b : Fin 8192) (d : Fin 64) :
    extractStridedSlice ⟨2, ![8192, 64]⟩ ![0, 0] x h (ix2 b d) = x (ix2 b ⟨d.val, by omega⟩) :=
  extractStridedSlice_apply _ _ h _ (ix2 b ⟨d.val, by omega⟩) (fun a => by
    match a with
    | ⟨0, _⟩ => show b.val = 0 + b.val; omega
    | ⟨1, _⟩ => show d.val = 0 + d.val; omega)

/-! ## The joined table -/

section Joined

variable {N : Nat} (E : FVec Ideal ⟨2, ![N, 64]⟩ .f32) (Wd : FVec Ideal ⟨2, ![N, 1]⟩ .f32)
  (h : Shape.Concatenates [(⟨2, ![N, 64]⟩ : Shape), ⟨2, ![N, 1]⟩] ⟨2, ![N, 65]⟩ 1)

/-- The joined table in its first 64 columns is the embedding table. -/
theorem cat_left (r : Fin N) (d : Fin 64) :
    concatenate ⟨2, ![N, 65]⟩ 1 [⟨⟨2, ![N, 64]⟩, E⟩, ⟨⟨2, ![N, 1]⟩, Wd⟩] h (ix2 r ⟨d.val, by omega⟩) = E (ix2 r d) :=
  concatenate_pair_apply_left 1 E Wd h _ rfl (ix2 r d) (fun b => by
    match b with
    | ⟨0, _⟩ => rfl
    | ⟨1, _⟩ => rfl)

/-- The joined table in its last column is the wide table. -/
theorem cat_right (r : Fin N) :
    concatenate ⟨2, ![N, 65]⟩ 1 [⟨⟨2, ![N, 64]⟩, E⟩, ⟨⟨2, ![N, 1]⟩, Wd⟩] h (ix2 r ⟨64, by omega⟩) = Wd (ix2 r (0 : Fin 1)) :=
  concatenate_pair_apply_right 1 E Wd h _ rfl rfl (ix2 r (0 : Fin 1)) (fun b hb => by
    match b, hb with
    | ⟨0, _⟩, _ => rfl
    | ⟨1, _⟩, hb => exact absurd rfl hb) (by show 0 + 64 = 64; rfl)

end Joined

/-! ## One step of a bag sum -/

/-- A row gather at a column of index words wrapped once when negative: the table row rowOf selects. -/
theorem gatherWrap {N C : Nat} (hN : 0 < N)
    (dims : GatherDims ⟨2, ![N, C]⟩ ⟨2, ![8192, 1]⟩ ⟨2, ![8192, C]⟩)
    (wf : GatherDims.WF ⟨2, ![N, C]⟩ ⟨2, ![8192, 1]⟩ ⟨2, ![8192, C]⟩ [1] [0] [] [0] [] 1 ![1, C])
    (hd : dims = rows2Dims N C 8192 wf)
    (tab : FVec Ideal ⟨2, ![N, C]⟩ .f32) (col : IVec ⟨1, ![8192]⟩ 32)
    (hb0 : (⟨0, ![]⟩ : Shape).BroadcastsInDim ⟨1, ![8192]⟩ ![])
    (hb1 : (⟨1, ![8192]⟩ : Shape).BroadcastsInDim ⟨2, ![8192, 1]⟩ ![0]) (b : Fin 8192) (d : Fin C) :
    Host.gather dims tab (broadcastInDim ⟨2, ![8192, 1]⟩ ![0] hb1
      (select (cmpi .slt col (broadcastInDim ⟨1, ![8192]⟩ ![] hb0 (constantI ⟨0, ![]⟩ 32 0#32)))
        (addi col (broadcastInDim ⟨1, ![8192]⟩ ![] hb0 (constantI ⟨0, ![]⟩ 32 (BitVec.ofNat 32 N)))) col)) (ix2 b d)
      = tab (ix2 (rowOf N hN (col (ix1 b))) d) := by
  subst hd
  rw [rows2_apply hN wf]
  rw [broadcastInDim_apply _ hb1 _ (ix2 b (0 : Fin 1)) (ix1 b) (fun a => by
    match a with
    | ⟨0, _⟩ => rfl)]
  rw [select_apply]
  rfl

/-! ## Partial bag sums -/

section Partial

variable {L N D : Nat} (hN : 0 < N) (I : IVec ⟨2, ![8192, L]⟩ 32) (T : FVec Ideal ⟨2, ![N, D]⟩ .f32)

/-- The k-th term of a bag sum (zero past the bag's length). -/
def bagTerm (b : Fin 8192) (d : Fin D) (k : Nat) : EReal :=
  if h : k < L then T (ix2 (rowOf N hN (I (ix2 b ⟨k, h⟩))) d) else 0

/-- The sum of the first n terms of a bag sum. -/
def bagPart (b : Fin 8192) (d : Fin D) (n : Nat) : EReal := ∑ k ∈ Finset.range n, bagTerm hN I T b d k

theorem bagPart_zero (b : Fin 8192) (d : Fin D) : bagPart hN I T b d 0 = 0 := Finset.sum_range_zero _

theorem bagPart_succ (b : Fin 8192) (d : Fin D) (n : Nat) (hn : n < L) :
    bagPart hN I T b d n + T (ix2 (rowOf N hN (I (ix2 b ⟨n, hn⟩))) d) = bagPart hN I T b d (n + 1) := by
  unfold bagPart
  rw [Finset.sum_range_succ]
  congr 1
  unfold bagTerm
  rw [dif_pos hn]

theorem bagPart_full (b : Fin 8192) (d : Fin D) : bagPart hN I T b d L = bagSum hN I T b d := by
  unfold bagPart bagSum
  rw [← Fin.sum_univ_eq_sum_range (fun k => bagTerm hN I T b d k) L]
  refine Finset.sum_congr rfl fun j _ => ?_
  unfold bagTerm
  rw [dif_pos j.isLt]

end Partial

/-! ## The accumulation, step by step -/

/-- The zero accumulator is the empty partial sum. -/
theorem zeros_eq {L N C : Nat} (hN : 0 < N) (I : IVec ⟨2, ![8192, L]⟩ 32) (T : FVec Ideal ⟨2, ![N, C]⟩ .f32)
    (hb : (⟨0, ![]⟩ : Shape).BroadcastsInDim ⟨2, ![8192, C]⟩ ![]) :
    broadcastInDim ⟨2, ![8192, C]⟩ ![] hb (constant (F := Ideal) ⟨0, ![]⟩ .f32 0x00000000#32)
      = fun i => bagPart hN I T (i 0) (i 1) 0 := by
  funext i
  obtain ⟨b, d, rfl⟩ : ∃ (b : Fin 8192) (d : Fin C), i = ix2 b d := ⟨i 0, i 1, eq_ix2 i⟩
  rw [broadcastInDim_scalar_apply, constant_apply, Ideal.ofBits_zero_f32]
  exact (bagPart_zero hN I T b d).symm

/-- One more column added: partial sum n becomes partial sum n + 1. -/
theorem bagStepInv {N C L : Nat} (hN : 0 < N)
    (dims : GatherDims ⟨2, ![N, C]⟩ ⟨2, ![8192, 1]⟩ ⟨2, ![8192, C]⟩)
    (wf : GatherDims.WF ⟨2, ![N, C]⟩ ⟨2, ![8192, 1]⟩ ⟨2, ![8192, C]⟩ [1] [0] [] [0] [] 1 ![1, C])
    (hd : dims = rows2Dims N C 8192 wf)
    (A : FVec Ideal ⟨2, ![8192, C]⟩ .f32) (Tw T : FVec Ideal ⟨2, ![N, C]⟩ .f32) (Iw I : IVec ⟨2, ![8192, L]⟩ 32)
    (n : Nat) (hn : n < L) (col : IVec ⟨1, ![8192]⟩ 32)
    (hb0 : (⟨0, ![]⟩ : Shape).BroadcastsInDim ⟨1, ![8192]⟩ ![])
    (hb1 : (⟨1, ![8192]⟩ : Shape).BroadcastsInDim ⟨2, ![8192, 1]⟩ ![0])
    (hcol : ∀ b : Fin 8192, col (ix1 b) = Iw (ix2 b ⟨n, hn⟩))
    (hI : Iw = I) (hT : Tw = T) (hA : A = fun i => bagPart hN I T (i 0) (i 1) n) :
    addf A (Host.gather dims Tw (broadcastInDim ⟨2, ![8192, 1]⟩ ![0] hb1
      (select (cmpi .slt col (broadcastInDim ⟨1, ![8192]⟩ ![] hb0 (constantI ⟨0, ![]⟩ 32 0#32)))
        (addi col (broadcastInDim ⟨1, ![8192]⟩ ![] hb0 (constantI ⟨0, ![]⟩ 32 (BitVec.ofNat 32 N)))) col)))
      = fun i => bagPart hN I T (i 0) (i 1) (n + 1) := by
  subst hI hT hA
  funext i
  obtain ⟨b, d, rfl⟩ : ∃ (b : Fin 8192) (d : Fin C), i = ix2 b d := ⟨i 0, i 1, eq_ix2 i⟩
  rw [addf_apply, gatherWrap hN dims wf hd, hcol]
  exact bagPart_succ hN Iw Tw b d n hn

/-- The mean of a bag: the full accumulator divided by the bag size. -/
theorem meanPlain {L N C : Nat} (hN : 0 < N) (I : IVec ⟨2, ![8192, L]⟩ 32) (T : FVec Ideal ⟨2, ![N, C]⟩ .f32)
    (A : FVec Ideal ⟨2, ![8192, C]⟩ .f32) (c : BitVec 32) (hA : A = fun i => bagPart hN I T (i 0) (i 1) L)
    (hb : (⟨0, ![]⟩ : Shape).BroadcastsInDim ⟨2, ![8192, C]⟩ ![]) :
    Host.divf A (broadcastInDim ⟨2, ![8192, C]⟩ ![] hb (constant (F := Ideal) ⟨0, ![]⟩ .f32 c))
      = fun i => Ideal.div (bagSum hN I T (i 0) (i 1)) (Ideal.ofBits .f32 c) := by
  subst hA
  funext i
  obtain ⟨b, d, rfl⟩ : ∃ (b : Fin 8192) (d : Fin C), i = ix2 b d := ⟨i 0, i 1, eq_ix2 i⟩
  show Ideal.div (bagPart hN I T b d L)
    (broadcastInDim ⟨2, ![8192, C]⟩ ![] hb (constant (F := Ideal) ⟨0, ![]⟩ .f32 c) (ix2 b d))
      = Ideal.div (bagSum hN I T b d) (Ideal.ofBits .f32 c)
  rw [broadcastInDim_scalar_apply, constant_apply, bagPart_full]

/-! ## The ends of a field -/

section Ends

variable {L N : Nat} (hN : 0 < N) (I : IVec ⟨2, ![8192, L]⟩ 32)
  (E : FVec Ideal ⟨2, ![N, 64]⟩ .f32) (Wd : FVec Ideal ⟨2, ![N, 1]⟩ .f32)
  (hc : Shape.Concatenates [(⟨2, ![N, 64]⟩ : Shape), ⟨2, ![N, 1]⟩] ⟨2, ![N, 65]⟩ 1)

/-- A bag sum over the joined table, in a column below 64, is the bag sum over the embedding table. -/
theorem bagSum_cat_left (b : Fin 8192) (d : Fin 64) :
    bagSum hN I (concatenate ⟨2, ![N, 65]⟩ 1 [⟨⟨2, ![N, 64]⟩, E⟩, ⟨⟨2, ![N, 1]⟩, Wd⟩] hc) b ⟨d.val, by omega⟩
      = bagSum hN I E b d := by
  unfold bagSum
  exact Finset.sum_congr rfl fun j _ => cat_left E Wd hc _ d

/-- A bag sum over the joined table, in column 64, is the bag sum over the wide table. -/
theorem bagSum_cat_right (b : Fin 8192) :
    bagSum hN I (concatenate ⟨2, ![N, 65]⟩ 1 [⟨⟨2, ![N, 64]⟩, E⟩, ⟨⟨2, ![N, 1]⟩, Wd⟩] hc) b ⟨64, by omega⟩
      = bagSum hN I Wd b (0 : Fin 1) := by
  unfold bagSum
  exact Finset.sum_congr rfl fun j _ => cat_right E Wd hc _

/-- The embedding part of a multi-hot field: the first 64 columns of the full accumulator, divided by the bag size. -/
theorem meanTail (A : FVec Ideal ⟨2, ![8192, 65]⟩ .f32) (c : BitVec 32)
    (hA : A = fun i => bagPart hN I (concatenate ⟨2, ![N, 65]⟩ 1 [⟨⟨2, ![N, 64]⟩, E⟩, ⟨⟨2, ![N, 1]⟩, Wd⟩] hc) (i 0) (i 1) L)
    (hs : (⟨2, ![8192, 65]⟩ : Shape).Slices ![0, 0] ⟨2, ![8192, 64]⟩)
    (hb : (⟨0, ![]⟩ : Shape).BroadcastsInDim ⟨2, ![8192, 64]⟩ ![]) :
    Host.divf (extractStridedSlice ⟨2, ![8192, 64]⟩ ![0, 0] A hs)
        (broadcastInDim ⟨2, ![8192, 64]⟩ ![] hb (constant (F := Ideal) ⟨0, ![]⟩ .f32 c))
      = fun i => Ideal.div (bagSum hN I E (i 0) (i 1)) (Ideal.ofBits .f32 c) := by
  subst hA
  funext i
  obtain ⟨b, d, rfl⟩ : ∃ (b : Fin 8192) (d : Fin 64), i = ix2 b d := ⟨i 0, i 1, eq_ix2 i⟩
  refine Eq.trans (congrArg₂ Ideal.div (slice64_apply _ hs b d) (broadcastInDim_scalar_apply hb _ (ix2 b d))) ?_
  show Ideal.div (bagPart hN I _ b ⟨d.val, by omega⟩ L) (Ideal.ofBits .f32 c)
    = Ideal.div (bagSum hN I E b d) (Ideal.ofBits .f32 c)
  rw [bagPart_full, bagSum_cat_left]

/-- The wide part of a multi-hot field: column 64 of the full accumulator, flattened. -/
theorem wideTail (A : FVec Ideal ⟨2, ![8192, 65]⟩ .f32)
    (hA : A = fun i => bagPart hN I (concatenate ⟨2, ![N, 65]⟩ 1 [⟨⟨2, ![N, 64]⟩, E⟩, ⟨⟨2, ![N, 1]⟩, Wd⟩] hc) (i 0) (i 1) L)
    (hs : (⟨2, ![8192, 65]⟩ : Shape).Slices ![0, 64] ⟨2, ![8192, 1]⟩)
    (hsc : (⟨2, ![8192, 1]⟩ : Shape).ShapeCasts ⟨1, ![8192]⟩) (b : Fin 8192) :
    shapeCast ⟨1, ![8192]⟩ (extractStridedSlice ⟨2, ![8192, 1]⟩ ![0, 64] A hs) hsc (ix1 b)
      = bagSum hN I Wd b (0 : Fin 1) := by
  subst hA
  rw [column_apply _ 64 (by omega)]
  show bagPart hN I _ b ⟨64, by omega⟩ L = bagSum hN I Wd b (0 : Fin 1)
  rw [bagPart_full, bagSum_cat_right]

end Ends

/-! ## A one-hot field -/

/-- The embedding part of a one-hot field: the looked-up row of the joined table, in its first 64 columns. -/
theorem oneHotEmb {N : Nat} (hN : 0 < N) (J : IVec ⟨1, ![8192]⟩ 32)
    (E : FVec Ideal ⟨2, ![N, 64]⟩ .f32) (Wd : FVec Ideal ⟨2, ![N, 1]⟩ .f32)
    (hc : Shape.Concatenates [(⟨2, ![N, 64]⟩ : Shape), ⟨2, ![N, 1]⟩] ⟨2, ![N, 65]⟩ 1)
    (dims : GatherDims ⟨2, ![N, 65]⟩ ⟨2, ![8192, 1]⟩ ⟨2, ![8192, 65]⟩)
    (wf : GatherDims.WF ⟨2, ![N, 65]⟩ ⟨2, ![8192, 1]⟩ ⟨2, ![8192, 65]⟩ [1] [0] [] [0] [] 1 ![1, 65])
    (hd : dims = rows2Dims N 65 8192 wf)
    (hb0 : (⟨0, ![]⟩ : Shape).BroadcastsInDim ⟨1, ![8192]⟩ ![])
    (hb1 : (⟨1, ![8192]⟩ : Shape).BroadcastsInDim ⟨2, ![8192, 1]⟩ ![0])
    (hs : (⟨2, ![8192, 65]⟩ : Shape).Slices ![0, 0] ⟨2, ![8192, 64]⟩) :
    extractStridedSlice ⟨2, ![8192, 64]⟩ ![0, 0]
      (Host.gather dims (concatenate ⟨2, ![N, 65]⟩ 1 [⟨⟨2, ![N, 64]⟩, E⟩, ⟨⟨2, ![N, 1]⟩, Wd⟩] hc)
        (broadcastInDim ⟨2, ![8192, 1]⟩ ![0] hb1
          (select (cmpi .slt J (broadcastInDim ⟨1, ![8192]⟩ ![] hb0 (constantI ⟨0, ![]⟩ 32 0#32)))
            (addi J (broadcastInDim ⟨1, ![8192]⟩ ![] hb0 (constantI ⟨0, ![]⟩ 32 (BitVec.ofNat 32 N)))) J))) hs
      = fun i => pick hN J E (i 0) (i 1) := by
  funext i
  obtain ⟨b, d, rfl⟩ : ∃ (b : Fin 8192) (d : Fin 64), i = ix2 b d := ⟨i 0, i 1, eq_ix2 i⟩
  rw [slice64_apply, gatherWrap hN dims wf hd]
  exact cat_left E Wd hc _ d

/-- The wide part of a one-hot field: the looked-up row of the joined table, in its last column. -/
theorem oneHotWide {N : Nat} (hN : 0 < N) (J : IVec ⟨1, ![8192]⟩ 32)
    (E : FVec Ideal ⟨2, ![N, 64]⟩ .f32) (Wd : FVec Ideal ⟨2, ![N, 1]⟩ .f32)
    (hc : Shape.Concatenates [(⟨2, ![N, 64]⟩ : Shape), ⟨2, ![N, 1]⟩] ⟨2, ![N, 65]⟩ 1)
    (dims : GatherDims ⟨2, ![N, 65]⟩ ⟨2, ![8192, 1]⟩ ⟨2, ![8192, 65]⟩)
    (wf : GatherDims.WF ⟨2, ![N, 65]⟩ ⟨2, ![8192, 1]⟩ ⟨2, ![8192, 65]⟩ [1] [0] [] [0] [] 1 ![1, 65])
    (hd : dims = rows2Dims N 65 8192 wf)
    (hb0 : (⟨0, ![]⟩ : Shape).BroadcastsInDim ⟨1, ![8192]⟩ ![])
    (hb1 : (⟨1, ![8192]⟩ : Shape).BroadcastsInDim ⟨2, ![8192, 1]⟩ ![0])
    (hs : (⟨2, ![8192, 65]⟩ : Shape).Slices ![0, 64] ⟨2, ![8192, 1]⟩)
    (hsc : (⟨2, ![8192, 1]⟩ : Shape).ShapeCasts ⟨1, ![8192]⟩) (b : Fin 8192) :
    shapeCast ⟨1, ![8192]⟩ (extractStridedSlice ⟨2, ![8192, 1]⟩ ![0, 64]
      (Host.gather dims (concatenate ⟨2, ![N, 65]⟩ 1 [⟨⟨2, ![N, 64]⟩, E⟩, ⟨⟨2, ![N, 1]⟩, Wd⟩] hc)
        (broadcastInDim ⟨2, ![8192, 1]⟩ ![0] hb1
          (select (cmpi .slt J (broadcastInDim ⟨1, ![8192]⟩ ![] hb0 (constantI ⟨0, ![]⟩ 32 0#32)))
            (addi J (broadcastInDim ⟨1, ![8192]⟩ ![] hb0 (constantI ⟨0, ![]⟩ 32 (BitVec.ofNat 32 N)))) J))) hs) hsc (ix1 b)
      = pick hN J Wd b (0 : Fin 1) := by
  rw [column_apply _ 64 (by omega), gatherWrap hN dims wf hd]
  exact cat_right E Wd hc _

end Cert.WideDeep.Glue

end
-- ==== Proof.GlueOpsTok.lean ====
/-
  The host stretch's operations 0 … 388, cut into short lists (each a sublist of the program's own list,
  in order), with the buffers each list writes.
-/
import proofs.«151196_j43095701848227_2_alg».proof.Proof.Gen.KernelIdeal.Launch
import proofs.«151196_j43095701848227_2_alg».proof.Proof.KArgs
import proofs.«151196_j43095701848227_2_alg».proof.Proof.GlueLib

set_option maxRecDepth 8192

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable {F : FTy → Type} [FloatOps F]

/-- Operations 0 … 1 of the host stretch. -/
abbrev tokH : List (HloOp τ sig (Elt F)) :=
  [ StableHlo.nullary main_cst (constant S_ .f32 0x00000000#32),
    StableHlo.unary main_cst main_v0 (broadcastInDim S8192x300 ![] bcast_S_S8192x300 : (⟨S_, .f32⟩ : BufTy).Contents (Elt F) → (⟨S8192x300, .f32⟩ : BufTy).Contents (Elt F)) ]
abbrev tokH_W : List (Ref sig .tc) := [main_cst, main_v0]
theorem tokH_writes : (tokH : List (HloOp τ sig (Elt F))).Forall fun op => op.writes ⊆ (tokH_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 2 … 13 of the host stretch. -/
abbrev tokS0 : List (HloOp τ sig (Elt F)) :=
  [ StableHlo.unary main_arg0 main_v1 ((extractStridedSlice S8192x1 ![0, 0] · slices_S8192x32_S8192x1_0_0) : (⟨S8192x32, .i32⟩ : BufTy).Contents (Elt F) → (⟨S8192x1, .i32⟩ : BufTy).Contents (Elt F)),
    StableHlo.reshape main_v1 main_v2 rfl shapeCasts_S8192x1_S8192,
    StableHlo.nullary main_c (constantI S_ 32 0#32),
    StableHlo.unary main_c main_v3 (broadcastInDim S8192 ![] bcast_S_S8192 : (⟨S_, .i32⟩ : BufTy).Contents (Elt F) → (⟨S8192, .i32⟩ : BufTy).Contents (Elt F)),
    StableHlo.binary main_v2 main_v3 main_v4 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 50000#32),
    StableHlo.unary main_c_0 main_v5 (broadcastInDim S8192 ![] bcast_S_S8192 : (⟨S_, .i32⟩ : BufTy).Contents (Elt F) → (⟨S8192, .i32⟩ : BufTy).Contents (Elt F)),
    StableHlo.binary main_v2 main_v5 main_v6 (addi : (⟨S8192, .i32⟩ : BufTy).Contents (Elt F) → (⟨S8192, .i32⟩ : BufTy).Contents (Elt F) → (⟨S8192, .i32⟩ : BufTy).Contents (Elt F)),
    StableHlo.ternary main_v4 main_v6 main_v2 main_v7 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v7 main_v8 (broadcastInDim S8192x1 ![0] bcast_S8192_S8192x1_0 : (⟨S8192, .i32⟩ : BufTy).Contents (Elt F) → (⟨S8192x1, .i32⟩ : BufTy).Contents (Elt F)),
    StableHlo.binary main_arg8 main_v8 main_v9 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v0 main_v9 main_v10 (addf : (⟨S8192x300, .f32⟩ : BufTy).Contents (Elt F) → (⟨S8192x300, .f32⟩ : BufTy).Contents (Elt F) → (⟨S8192x300, .f32⟩ : BufTy).Contents (Elt F)) ]
abbrev tokS0_W : List (Ref sig .tc) := [main_v1, main_v2, main_c, main_v3, main_v4, main_c_0, main_v5, main_v6, main_v7, main_v8, main_v9, main_v10]
theorem tokS0_writes : (tokS0 : List (HloOp τ sig (Elt F))).Forall fun op => op.writes ⊆ (tokS0_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 14 … 25 of the host stretch. -/
abbrev tokS1 : List (HloOp τ sig (Elt F)) :=
  [ StableHlo.unary main_arg0 main_v11 ((extractStridedSlice S8192x1 ![0, 1] · slices_S8192x32_S8192x1_0_1) : (⟨S8192x32, .i32⟩ : BufTy).Contents (Elt F) → (⟨S8192x1, .i32⟩ : BufTy).Contents (Elt F)),
    StableHlo.reshape main_v11 main_v12 rfl shapeCasts_S8192x1_S8192,
    StableHlo.nullary main_c_1 (constantI S_ 32 0#32),
    StableHlo.unary main_c_1 main_v13 (broadcastInDim S8192 ![] bcast_S_S8192 : (⟨S_, .i32⟩ : BufTy).Contents (Elt F) → (⟨S8192, .i32⟩ : BufTy).Contents (Elt F)),
    StableHlo.binary main_v12 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 50000#32),
    StableHlo.unary main_c_2 main_v15 (broadcastInDim S8192 ![] bcast_S_S8192 : (⟨S_, .i32⟩ : BufTy).Contents (Elt F) → (⟨S8192, .i32⟩ : BufTy).Contents (Elt F)),
    StableHlo.binary main_v12 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v12 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v18 (broadcastInDim S8192x1 ![0] bcast_S8192_S8192x1_0 : (⟨S8192, .i32⟩ : BufTy).Contents (Elt F) → (⟨S8192x1, .i32⟩ : BufTy).Contents (Elt F)),
    StableHlo.binary main_arg8 main_v18 main_v19 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v10 main_v19 main_v20 (addf : (⟨S8192x300, .f32⟩ : BufTy).Contents (Elt F) → (⟨S8192x300, .f32⟩ : BufTy).Contents (Elt F) → (⟨S8192x300, .f32⟩ : BufTy).Contents (Elt F)) ]
abbrev tokS1_W : List (Ref sig .tc) := [main_v11, main_v12, main_c_1, main_v13, main_v14, main_c_2, main_v15, main_v16, main_v17, main_v18, main_v19, main_v20]
theorem tokS1_writes : (tokS1 : List (HloOp τ sig (Elt F))).Forall fun op => op.writes ⊆ (tokS1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 26 … 37 of the host stretch. -/
abbrev tokS2 : List (HloOp τ sig (Elt F)) :=
  [ StableHlo.unary main_arg0 main_v21 ((extractStridedSlice S8192x1 ![0, 2] · slices_S8192x32_S8192x1_0_2) : (⟨S8192x32, .i32⟩ : BufTy).Contents (Elt F) → (⟨S8192x1, .i32⟩ : BufTy).Contents (Elt F)),
    StableHlo.reshape main_v21 main_v22 rfl shapeCasts_S8192x1_S8192,
    StableHlo.nullary main_c_3 (constantI S_ 32 0#32),
    StableHlo.unary main_c_3 main_v23 (broadcastInDim S8192 ![] bcast_S_S8192 : (⟨S_, .i32⟩ : BufTy).Contents (Elt F) → (⟨S8192, .i32⟩ : BufTy).Contents (Elt F)),
    StableHlo.binary main_v22 main_v23 main_v24 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 50000#32),
    StableHlo.unary main_c_4 main_v25 (broadcastInDim S8192 ![] bcast_S_S8192 : (⟨S_, .i32⟩ : BufTy).Contents (Elt F) → (⟨S8192, .i32⟩ : BufTy).Contents (Elt F)),
    StableHlo.binary main_v22 main_v25 main_v26 (addi : (⟨S8192, .i32⟩ : BufTy).Contents (Elt F) → (⟨S8192, .i32⟩ : BufTy).Contents (Elt F) → (⟨S8192, .i32⟩ : BufTy).Contents (Elt F)),
    StableHlo.ternary main_v24 main_v26 main_v22 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v27 main_v28 (broadcastInDim S8192x1 ![0] bcast_S8192_S8192x1_0 : (⟨S8192, .i32⟩ : BufTy).Contents (Elt F) → (⟨S8192x1, .i32⟩ : BufTy).Contents (Elt F)),
    StableHlo.binary main_arg8 main_v28 main_v29 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v20 main_v29 main_v30 (addf : (⟨S8192x300, .f32⟩ : BufTy).Contents (Elt F) → (⟨S8192x300, .f32⟩ : BufTy).Contents (Elt F) → (⟨S8192x300, .f32⟩ : BufTy).Contents (Elt F)) ]
abbrev tokS2_W : List (Ref sig .tc) := [main_v21, main_v22, main_c_3, main_v23, main_v24, main_c_4, main_v25, main_v26, main_v27, main_v28, main_v29, main_v30]
theorem tokS2_writes : (tokS2 : List (HloOp τ sig (Elt F))).Forall fun op => op.writes ⊆ (tokS2_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 38 … 49 of the host stretch. -/
abbrev tokS3 : List (HloOp τ sig (Elt F)) :=
  [ StableHlo.unary main_arg0 main_v31 ((extractStridedSlice S8192x1 ![0, 3] · slices_S8192x32_S8192x1_0_3) : (⟨S8192x32, .i32⟩ : BufTy).Contents (Elt F) → (⟨S8192x1, .i32⟩ : BufTy).Contents (Elt F)),
    StableHlo.reshape main_v31 main_v32 rfl shapeCasts_S8192x1_S8192,
    StableHlo.nullary main_c_5 (constantI S_ 32 0#32),
    StableHlo.unary main_c_5 main_v33 (broadcastInDim S8192 ![] bcast_S_S8192 : (⟨S_, .i32⟩ : BufTy).Contents (Elt F) → (⟨S8192, .i32⟩ : BufTy).Contents (Elt F)),
    StableHlo.binary main_v32 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 50000#32),
    StableHlo.unary main_c_6 main_v35 (broadcastInDim S8192 ![] bcast_S_S8192 : (⟨S_, .i32⟩ : BufTy).Contents (Elt F) → (⟨S8192, .i32⟩ : BufTy).Contents (Elt F)),
    StableHlo.binary main_v32 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v32 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v38 (broadcastInDim S8192x1 ![0] bcast_S8192_S8192x1_0 : (⟨S8192, .i32⟩ : BufTy).Contents (Elt F) → (⟨S8192x1, .i32⟩ : BufTy).Contents (Elt F)),
    StableHlo.binary main_arg8 main_v38 main_v39 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v30 main_v39 main_v40 (addf : (⟨S8192x300, .f32⟩ : BufTy).Contents (Elt F) → (⟨S8192x300, .f32⟩ : BufTy).Contents (Elt F) → (⟨S8192x300, .f32⟩ : BufTy).Contents (Elt F)) ]
abbrev tokS3_W : List (Ref sig .tc) := [main_v31, main_v32, main_c_5, main_v33, main_v34, main_c_6, main_v35, main_v36, main_v37, main_v38, main_v39, main_v40]
theorem tokS3_writes : (tokS3 : List (HloOp τ sig (Elt F))).Forall fun op => op.writes ⊆ (tokS3_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 50 … 61 of the host stretch. -/
abbrev tokS4 : List (HloOp τ sig (Elt F)) :=
  [ StableHlo.unary main_arg0 main_v41 ((extractStridedSlice S8192x1 ![0, 4] · slices_S8192x32_S8192x1_0_4) : (⟨S8192x32, .i32⟩ : BufTy).Contents (Elt F) → (⟨S8192x1, .i32⟩ : BufTy).Contents (Elt F)),
    StableHlo.reshape main_v41 main_v42 rfl shapeCasts_S8192x1_S8192,
    StableHlo.nullary main_c_7 (constantI S_ 32 0#32),
    StableHlo.unary main_c_7 main_v43 (broadcastInDim S8192 ![] bcast_S_S8192 : (⟨S_, .i32⟩ : BufTy).Contents (Elt F) → (⟨S8192, .i32⟩ : BufTy).Contents (Elt F)),
    StableHlo.binary main_v42 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 50000#32),
    StableHlo.unary main_c_8 main_v45 (broadcastInDim S8192 ![] bcast_S_S8192 : (⟨S_, .i32⟩ : BufTy).Contents (Elt F) → (⟨S8192, .i32⟩ : BufTy).Contents (Elt F)),
    StableHlo.binary main_v42 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_v42 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v47 main_v48 (broadcastInDim S8192x1 ![0] bcast_S8192_S8192x1_0 : (⟨S8192, .i32⟩ : BufTy).Contents (Elt F) → (⟨S8192x1, .i32⟩ : BufTy).Contents (Elt F)),
    StableHlo.binary main_arg8 main_v48 main_v49 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v40 main_v49 main_v50 (addf : (⟨S8192x300, .f32⟩ : BufTy).Contents (Elt F) → (⟨S8192x300, .f32⟩ : BufTy).Contents (Elt F) → (⟨S8192x300, .f32⟩ : BufTy).Contents (Elt F)) ]
abbrev tokS4_W : List (Ref sig .tc) := [main_v41, main_v42, main_c_7, main_v43, main_v44, main_c_8, main_v45, main_v46, main_v47, main_v48, main_v49, main_v50]
theorem tokS4_writes : (tokS4 : List (HloOp τ sig (Elt F))).Forall fun op => op.writes ⊆ (tokS4_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 62 … 73 of the host stretch. -/
abbrev tokS5 : List (HloOp τ sig (Elt F)) :=
  [ StableHlo.unary main_arg0 main_v51 ((extractStridedSlice S8192x1 ![0, 5] · slices_S8192x32_S8192x1_0_5) : (⟨S8192x32, .i32⟩ : BufTy).Contents (Elt F) → (⟨S8192x1, .i32⟩ : BufTy).Contents (Elt F)),
    StableHlo.reshape main_v51 main_v52 rfl shapeCasts_S8192x1_S8192,
    StableHlo.nullary main_c_9 (constantI S_ 32 0#32),
    StableHlo.unary main_c_9 main_v53 (broadcastInDim S8192 ![] bcast_S_S8192 : (⟨S_, .i32⟩ : BufTy).Contents (Elt F) → (⟨S8192, .i32⟩ : BufTy).Contents (Elt F)),
    StableHlo.binary main_v52 main_v53 main_v54 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 50000#32),
    StableHlo.unary main_c_10 main_v55 (broadcastInDim S8192 ![] bcast_S_S8192 : (⟨S_, .i32⟩ : BufTy).Contents (Elt F) → (⟨S8192, .i32⟩ : BufTy).Contents (Elt F)),
    StableHlo.binary main_v52 main_v55 main_v56 (addi : (⟨S8192, .i32⟩ : BufTy).Contents (Elt F) → (⟨S8192, .i32⟩ : BufTy).Contents (Elt F) → (⟨S8192, .i32⟩ : BufTy).Contents (Elt F)),
    StableHlo.ternary main_v54 main_v56 main_v52 main_v57 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v57 main_v58 (broadcastInDim S8192x1 ![0] bcast_S8192_S8192x1_0 : (⟨S8192, .i32⟩ : BufTy).Contents (Elt F) → (⟨S8192x1, .i32⟩ : BufTy).Contents (Elt F)),
    StableHlo.binary main_arg8 main_v58 main_v59 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v50 main_v59 main_v60 (addf : (⟨S8192x300, .f32⟩ : BufTy).Contents (Elt F) → (⟨S8192x300, .f32⟩ : BufTy).Contents (Elt F) → (⟨S8192x300, .f32⟩ : BufTy).Contents (Elt F)) ]
abbrev tokS5_W : List (Ref sig .tc) := [main_v51, main_v52, main_c_9, main_v53, main_v54, main_c_10, main_v55, main_v56, main_v57, main_v58, main_v59, main_v60]
theorem tokS5_writes : (tokS5 : List (HloOp τ sig (Elt F))).Forall fun op => op.writes ⊆ (tokS5_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 74 … 85 of the host stretch. -/
abbrev tokS6 : List (HloOp τ sig (Elt F)) :=
  [ StableHlo.unary main_arg0 main_v61 ((extractStridedSlice S8192x1 ![0, 6] · slices_S8192x32_S8192x1_0_6) : (⟨S8192x32, .i32⟩ : BufTy).Contents (Elt F) → (⟨S8192x1, .i32⟩ : BufTy).Contents (Elt F)),
    StableHlo.reshape main_v61 main_v62 rfl shapeCasts_S8192x1_S8192,
    StableHlo.nullary main_c_11 (constantI S_ 32 0#32),
    StableHlo.unary main_c_11 main_v63 (broadcastInDim S8192 ![] bcast_S_S8192 : (⟨S_, .i32⟩ : BufTy).Contents (Elt F) → (⟨S8192, .i32⟩ : BufTy).Contents (Elt F)),
    StableHlo.binary main_v62 main_v63 main_v64 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 50000#32),
    StableHlo.unary main_c_12 main_v65 (broadcastInDim S8192 ![] bcast_S_S8192 : (⟨S_, .i32⟩ : BufTy).Contents (Elt F) → (⟨S8192, .i32⟩ : BufTy).Contents (Elt F)),
    StableHlo.binary main_v62 main_v65 main_v66 (addi : (⟨S8192, .i32⟩ : BufTy).Contents (Elt F) → (⟨S8192, .i32⟩ : BufTy).Contents (Elt F) → (⟨S8192, .i32⟩ : BufTy).Contents (Elt F)),
    StableHlo.ternary main_v64 main_v66 main_v62 main_v67 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v67 main_v68 (broadcastInDim S8192x1 ![0] bcast_S8192_S8192x1_0 : (⟨S8192, .i32⟩ : BufTy).Contents (Elt F) → (⟨S8192x1, .i32⟩ : BufTy).Contents (Elt F)),
    StableHlo.binary main_arg8 main_v68 main_v69 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v60 main_v69 main_v70 (addf : (⟨S8192x300, .f32⟩ : BufTy).Contents (Elt F) → (⟨S8192x300, .f32⟩ : BufTy).Contents (Elt F) → (⟨S8192x300, .f32⟩ : BufTy).Contents (Elt F)) ]
abbrev tokS6_W : List (Ref sig .tc) := [main_v61, main_v62, main_c_11, main_v63, main_v64, main_c_12, main_v65, main_v66, main_v67, main_v68, main_v69, main_v70]
theorem tokS6_writes : (tokS6 : List (HloOp τ sig (Elt F))).Forall fun op => op.writes ⊆ (tokS6_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 86 … 97 of the host stretch. -/
abbrev tokS7 : List (HloOp τ sig (Elt F)) :=
  [ StableHlo.unary main_arg0 main_v71 ((extractStridedSlice S8192x1 ![0, 7] · slices_S8192x32_S8192x1_0_7) : (⟨S8192x32, .i32⟩ : BufTy).Contents (Elt F) → (⟨S8192x1, .i32⟩ : BufTy).Contents (Elt F)),
    StableHlo.reshape main_v71 main_v72 rfl shapeCasts_S8192x1_S8192,
    StableHlo.nullary main_c_13 (constantI S_ 32 0#32),
    StableHlo.unary main_c_13 main_v73 (broadcastInDim S8192 ![] bcast_S_S8192 : (⟨S_, .i32⟩ : BufTy).Contents (Elt F) → (⟨S8192, .i32⟩ : BufTy).Contents (Elt F)),
    StableHlo.binary main_v72 main_v73 main_v74 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 50000#32),
    StableHlo.unary main_c_14 main_v75 (broadcastInDim S8192 ![] bcast_S_S8192 : (⟨S_, .i32⟩ : BufTy).Contents (Elt F) → (⟨S8192, .i32⟩ : BufTy).Contents (Elt F)),
    StableHlo.binary main_v72 main_v75 main_v76 (addi : (⟨S8192, .i32⟩ : BufTy).Contents (Elt F) → (⟨S8192, .i32⟩ : BufTy).Contents (Elt F) → (⟨S8192, .i32⟩ : BufTy).Contents (Elt F)),
    StableHlo.ternary main_v74 main_v76 main_v72 main_v77 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v77 main_v78 (broadcastInDim S8192x1 ![0] bcast_S8192_S8192x1_0 : (⟨S8192, .i32⟩ : BufTy).Contents (Elt F) → (⟨S8192x1, .i32⟩ : BufTy).Contents (Elt F)),
    StableHlo.binary main_arg8 main_v78 main_v79 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v70 main_v79 main_v80 (addf : (⟨S8192x300, .f32⟩ : BufTy).Contents (Elt F) → (⟨S8192x300, .f32⟩ : BufTy).Contents (Elt F) → (⟨S8192x300, .f32⟩ : BufTy).Contents (Elt F)) ]
abbrev tokS7_W : List (Ref sig .tc) := [main_v71, main_v72, main_c_13, main_v73, main_v74, main_c_14, main_v75, main_v76, main_v77, main_v78, main_v79, main_v80]
theorem tokS7_writes : (tokS7 : List (HloOp τ sig (Elt F))).Forall fun op => op.writes ⊆ (tokS7_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 98 … 109 of the host stretch. -/
abbrev tokS8 : List (HloOp τ sig (Elt F)) :=
  [ StableHlo.unary main_arg0 main_v81 ((extractStridedSlice S8192x1 ![0, 8] · slices_S8192x32_S8192x1_0_8) : (⟨S8192x32, .i32⟩ : BufTy).Contents (Elt F) → (⟨S8192x1, .i32⟩ : BufTy).Contents (Elt F)),
    StableHlo.reshape main_v81 main_v82 rfl shapeCasts_S8192x1_S8192,
    StableHlo.nullary main_c_15 (constantI S_ 32 0#32),
    StableHlo.unary main_c_15 main_v83 (broadcastInDim S8192 ![] bcast_S_S8192 : (⟨S_, .i32⟩ : BufTy).Contents (Elt F) → (⟨S8192, .i32⟩ : BufTy).Contents (Elt F)),
    StableHlo.binary main_v82 main_v83 main_v84 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 50000#32),
    StableHlo.unary main_c_16 main_v85 (broadcastInDim S8192 ![] bcast_S_S8192 : (⟨S_, .i32⟩ : BufTy).Contents (Elt F) → (⟨S8192, .i32⟩ : BufTy).Contents (Elt F)),
    StableHlo.binary main_v82 main_v85 main_v86 (addi : (⟨S8192, .i32⟩ : BufTy).Contents (Elt F) → (⟨S8192, .i32⟩ : BufTy).Contents (Elt F) → (⟨S8192, .i32⟩ : BufTy).Contents (Elt F)),
    StableHlo.ternary main_v84 main_v86 main_v82 main_v87 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v87 main_v88 (broadcastInDim S8192x1 ![0] bcast_S8192_S8192x1_0 : (⟨S8192, .i32⟩ : BufTy).Contents (Elt F) → (⟨S8192x1, .i32⟩ : BufTy).Contents (Elt F)),
    StableHlo.binary main_arg8 main_v88 main_v89 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v80 main_v89 main_v90 (addf : (⟨S8192x300, .f32⟩ : BufTy).Contents (Elt F) → (⟨S8192x300, .f32⟩ : BufTy).Contents (Elt F) → (⟨S8192x300, .f32⟩ : BufTy).Contents (Elt F)) ]
abbrev tokS8_W : List (Ref sig .tc) := [main_v81, main_v82, main_c_15, main_v83, main_v84, main_c_16, main_v85, main_v86, main_v87, main_v88, main_v89, main_v90]
theorem tokS8_writes : (tokS8 : List (HloOp τ sig (Elt F))).Forall fun op => op.writes ⊆ (tokS8_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 110 … 121 of the host stretch. -/
abbrev tokS9 : List (HloOp τ sig (Elt F)) :=
  [ StableHlo.unary main_arg0 main_v91 ((extractStridedSlice S8192x1 ![0, 9] · slices_S8192x32_S8192x1_0_9) : (⟨S8192x32, .i32⟩ : BufTy).Contents (Elt F) → (⟨S8192x1, .i32⟩ : BufTy).Contents (Elt F)),
    StableHlo.reshape main_v91 main_v92 rfl shapeCasts_S8192x1_S8192,
    StableHlo.nullary main_c_17 (constantI S_ 32 0#32),
    StableHlo.unary main_c_17 main_v93 (broadcastInDim S8192 ![] bcast_S_S8192 : (⟨S_, .i32⟩ : BufTy).Contents (Elt F) → (⟨S8192, .i32⟩ : BufTy).Contents (Elt F)),
    StableHlo.binary main_v92 main_v93 main_v94 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 50000#32),
    StableHlo.unary main_c_18 main_v95 (broadcastInDim S8192 ![] bcast_S_S8192 : (⟨S_, .i32⟩ : BufTy).Contents (Elt F) → (⟨S8192, .i32⟩ : BufTy).Contents (Elt F)),
    StableHlo.binary main_v92 main_v95 main_v96 (addi : (⟨S8192, .i32⟩ : BufTy).Contents (Elt F) → (⟨S8192, .i32⟩ : BufTy).Contents (Elt F) → (⟨S8192, .i32⟩ : BufTy).Contents (Elt F)),
    StableHlo.ternary main_v94 main_v96 main_v92 main_v97 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v97 main_v98 (broadcastInDim S8192x1 ![0] bcast_S8192_S8192x1_0 : (⟨S8192, .i32⟩ : BufTy).Contents (Elt F) → (⟨S8192x1, .i32⟩ : BufTy).Contents (Elt F)),
    StableHlo.binary main_arg8 main_v98 main_v99 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v90 main_v99 main_v100 (addf : (⟨S8192x300, .f32⟩ : BufTy).Contents (Elt F) → (⟨S8192x300, .f32⟩ : BufTy).Contents (Elt F) → (⟨S8192x300, .f32⟩ : BufTy).Contents (Elt F)) ]
abbrev tokS9_W : List (Ref sig .tc) := [main_v91, main_v92, main_c_17, main_v93, main_v94, main_c_18, main_v95, main_v96, main_v97, main_v98, main_v99, main_v100]
theorem tokS9_writes : (tokS9 : List (HloOp τ sig (Elt F))).Forall fun op => op.writes ⊆ (tokS9_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 122 … 133 of the host stretch. -/
abbrev tokS10 : List (HloOp τ sig (Elt F)) :=
  [ StableHlo.unary main_arg0 main_v101 ((extractStridedSlice S8192x1 ![0, 10] · slices_S8192x32_S8192x1_0_10) : (⟨S8192x32, .i32⟩ : BufTy).Contents (Elt F) → (⟨S8192x1, .i32⟩ : BufTy).Contents (Elt F)),
    StableHlo.reshape main_v101 main_v102 rfl shapeCasts_S8192x1_S8192,
    StableHlo.nullary main_c_19 (constantI S_ 32 0#32),
    StableHlo.unary main_c_19 main_v103 (broadcastInDim S8192 ![] bcast_S_S8192 : (⟨S_, .i32⟩ : BufTy).Contents (Elt F) → (⟨S8192, .i32⟩ : BufTy).Contents (Elt F)),
    StableHlo.binary main_v102 main_v103 main_v104 (cmpi .slt : (⟨S8192, .i32⟩ : BufTy).Contents (Elt F) → (⟨S8192, .i32⟩ : BufTy).Contents (Elt F) → (⟨S8192, .i1⟩ : BufTy).Contents (Elt F)),
    StableHlo.nullary main_c_20 (constantI S_ 32 50000#32),
    StableHlo.unary main_c_20 main_v105 (broadcastInDim S8192 ![] bcast_S_S8192 : (⟨S_, .i32⟩ : BufTy).Contents (Elt F) → (⟨S8192, .i32⟩ : BufTy).Contents (Elt F)),
    StableHlo.binary main_v102 main_v105 main_v106 (addi : (⟨S8192, .i32⟩ : BufTy).Contents (Elt F) → (⟨S8192, .i32⟩ : BufTy).Contents (Elt F) → (⟨S8192, .i32⟩ : BufTy).Contents (Elt F)),
    StableHlo.ternary main_v104 main_v106 main_v102 main_v107 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v107 main_v108 (broadcastInDim S8192x1 ![0] bcast_S8192_S8192x1_0 : (⟨S8192, .i32⟩ : BufTy).Contents (Elt F) → (⟨S8192x1, .i32⟩ : BufTy).Contents (Elt F)),
    StableHlo.binary main_arg8 main_v108 main_v109 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v100 main_v109 main_v110 (addf : (⟨S8192x300, .f32⟩ : BufTy).Contents (Elt F) → (⟨S8192x300, .f32⟩ : BufTy).Contents (Elt F) → (⟨S8192x300, .f32⟩ : BufTy).Contents (Elt F)) ]
abbrev tokS10_W : List (Ref sig .tc) := [main_v101, main_v102, main_c_19, main_v103, main_v104, main_c_20, main_v105, main_v106, main_v107, main_v108, main_v109, main_v110]
theorem tokS10_writes : (tokS10 : List (HloOp τ sig (Elt F))).Forall fun op => op.writes ⊆ (tokS10_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 134 … 145 of the host stretch. -/
abbrev tokS11 : List (HloOp τ sig (Elt F)) :=
  [ StableHlo.unary main_arg0 main_v111 ((extractStridedSlice S8192x1 ![0, 11] · slices_S8192x32_S8192x1_0_11) : (⟨S8192x32, .i32⟩ : BufTy).Contents (Elt F) → (⟨S8192x1, .i32⟩ : BufTy).Contents (Elt F)),
    StableHlo.reshape main_v111 main_v112 rfl shapeCasts_S8192x1_S8192,
    StableHlo.nullary main_c_21 (constantI S_ 32 0#32),
    StableHlo.unary main_c_21 main_v113 (broadcastInDim S8192 ![] bcast_S_S8192 : (⟨S_, .i32⟩ : BufTy).Contents (Elt F) → (⟨S8192, .i32⟩ : BufTy).Contents (Elt F)),
    StableHlo.binary main_v112 main_v113 main_v114 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 50000#32),
    StableHlo.unary main_c_22 main_v115 (broadcastInDim S8192 ![] bcast_S_S8192 : (⟨S_, .i32⟩ : BufTy).Contents (Elt F) → (⟨S8192, .i32⟩ : BufTy).Contents (Elt F)),
    StableHlo.binary main_v112 main_v115 main_v116 (addi : (⟨S8192, .i32⟩ : BufTy).Contents (Elt F) → (⟨S8192, .i32⟩ : BufTy).Contents (Elt F) → (⟨S8192, .i32⟩ : BufTy).Contents (Elt F)),
    StableHlo.ternary main_v114 main_v116 main_v112 main_v117 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v117 main_v118 (broadcastInDim S8192x1 ![0] bcast_S8192_S8192x1_0 : (⟨S8192, .i32⟩ : BufTy).Contents (Elt F) → (⟨S8192x1, .i32⟩ : BufTy).Contents (Elt F)),
    StableHlo.binary main_arg8 main_v118 main_v119 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v110 main_v119 main_v120 (addf : (⟨S8192x300, .f32⟩ : BufTy).Contents (Elt F) → (⟨S8192x300, .f32⟩ : BufTy).Contents (Elt F) → (⟨S8192x300, .f32⟩ : BufTy).Contents (Elt F)) ]
abbrev tokS11_W : List (Ref sig .tc) := [main_v111, main_v112, main_c_21, main_v113, main_v114, main_c_22, main_v115, main_v116, main_v117, main_v118, main_v119, main_v120]
theorem tokS11_writes : (tokS11 : List (HloOp τ sig (Elt F))).Forall fun op => op.writes ⊆ (tokS11_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 146 … 157 of the host stretch. -/
abbrev tokS12 : List (HloOp τ sig (Elt F)) :=
  [ StableHlo.unary main_arg0 main_v121 ((extractStridedSlice S8192x1 ![0, 12] · slices_S8192x32_S8192x1_0_12) : (⟨S8192x32, .i32⟩ : BufTy).Contents (Elt F) → (⟨S8192x1, .i32⟩ : BufTy).Contents (Elt F)),
    StableHlo.reshape main_v121 main_v122 rfl shapeCasts_S8192x1_S8192,
    StableHlo.nullary main_c_23 (constantI S_ 32 0#32),
    StableHlo.unary main_c_23 main_v123 (broadcastInDim S8192 ![] bcast_S_S8192 : (⟨S_, .i32⟩ : BufTy).Contents (Elt F) → (⟨S8192, .i32⟩ : BufTy).Contents (Elt F)),
    StableHlo.binary main_v122 main_v123 main_v124 (cmpi .slt : (⟨S8192, .i32⟩ : BufTy).Contents (Elt F) → (⟨S8192, .i32⟩ : BufTy).Contents (Elt F) → (⟨S8192, .i1⟩ : BufTy).Contents (Elt F)),
    StableHlo.nullary main_c_24 (constantI S_ 32 50000#32),
    StableHlo.unary main_c_24 main_v125 (broadcastInDim S8192 ![] bcast_S_S8192 : (⟨S_, .i32⟩ : BufTy).Contents (Elt F) → (⟨S8192, .i32⟩ : BufTy).Contents (Elt F)),
    StableHlo.binary main_v122 main_v125 main_v126 (addi : (⟨S8192, .i32⟩ : BufTy).Contents (Elt F) → (⟨S8192, .i32⟩ : BufTy).Contents (Elt F) → (⟨S8192, .i32⟩ : BufTy).Contents (Elt F)),
    StableHlo.ternary main_v124 main_v126 main_v122 main_v127 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v127 main_v128 (broadcastInDim S8192x1 ![0] bcast_S8192_S8192x1_0 : (⟨S8192, .i32⟩ : BufTy).Contents (Elt F) → (⟨S8192x1, .i32⟩ : BufTy).Contents (Elt F)),
    StableHlo.binary main_arg8 main_v128 main_v129 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v120 main_v129 main_v130 (addf : (⟨S8192x300, .f32⟩ : BufTy).Contents (Elt F) → (⟨S8192x300, .f32⟩ : BufTy).Contents (Elt F) → (⟨S8192x300, .f32⟩ : BufTy).Contents (Elt F)) ]
abbrev tokS12_W : List (Ref sig .tc) := [main_v121, main_v122, main_c_23, main_v123, main_v124, main_c_24, main_v125, main_v126, main_v127, main_v128, main_v129, main_v130]
theorem tokS12_writes : (tokS12 : List (HloOp τ sig (Elt F))).Forall fun op => op.writes ⊆ (tokS12_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 158 … 169 of the host stretch. -/
abbrev tokS13 : List (HloOp τ sig (Elt F)) :=
  [ StableHlo.unary main_arg0 main_v131 ((extractStridedSlice S8192x1 ![0, 13] · slices_S8192x32_S8192x1_0_13) : (⟨S8192x32, .i32⟩ : BufTy).Contents (Elt F) → (⟨S8192x1, .i32⟩ : BufTy).Contents (Elt F)),
    StableHlo.reshape main_v131 main_v132 rfl shapeCasts_S8192x1_S8192,
    StableHlo.nullary main_c_25 (constantI S_ 32 0#32),
    StableHlo.unary main_c_25 main_v133 (broadcastInDim S8192 ![] bcast_S_S8192 : (⟨S_, .i32⟩ : BufTy).Contents (Elt F) → (⟨S8192, .i32⟩ : BufTy).Contents (Elt F)),
    StableHlo.binary main_v132 main_v133 main_v134 (cmpi .slt : (⟨S8192, .i32⟩ : BufTy).Contents (Elt F) → (⟨S8192, .i32⟩ : BufTy).Contents (Elt F) → (⟨S8192, .i1⟩ : BufTy).Contents (Elt F)),
    StableHlo.nullary main_c_26 (constantI S_ 32 50000#32),
    StableHlo.unary main_c_26 main_v135 (broadcastInDim S8192 ![] bcast_S_S8192 : (⟨S_, .i32⟩ : BufTy).Contents (Elt F) → (⟨S8192, .i32⟩ : BufTy).Contents (Elt F)),
    StableHlo.binary main_v132 main_v135 main_v136 (addi : (⟨S8192, .i32⟩ : BufTy).Contents (Elt F) → (⟨S8192, .i32⟩ : BufTy).Contents (Elt F) → (⟨S8192, .i32⟩ : BufTy).Contents (Elt F)),
    StableHlo.ternary main_v134 main_v136 main_v132 main_v137 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v137 main_v138 (broadcastInDim S8192x1 ![0] bcast_S8192_S8192x1_0 : (⟨S8192, .i32⟩ : BufTy).Contents (Elt F) → (⟨S8192x1, .i32⟩ : BufTy).Contents (Elt F)),
    StableHlo.binary main_arg8 main_v138 main_v139 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v130 main_v139 main_v140 (addf : (⟨S8192x300, .f32⟩ : BufTy).Contents (Elt F) → (⟨S8192x300, .f32⟩ : BufTy).Contents (Elt F) → (⟨S8192x300, .f32⟩ : BufTy).Contents (Elt F)) ]
abbrev tokS13_W : List (Ref sig .tc) := [main_v131, main_v132, main_c_25, main_v133, main_v134, main_c_26, main_v135, main_v136, main_v137, main_v138, main_v139, main_v140]
theorem tokS13_writes : (tokS13 : List (HloOp τ sig (Elt F))).Forall fun op => op.writes ⊆ (tokS13_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 170 … 181 of the host stretch. -/
abbrev tokS14 : List (HloOp τ sig (Elt F)) :=
  [ StableHlo.unary main_arg0 main_v141 ((extractStridedSlice S8192x1 ![0, 14] · slices_S8192x32_S8192x1_0_14) : (⟨S8192x32, .i32⟩ : BufTy).Contents (Elt F) → (⟨S8192x1, .i32⟩ : BufTy).Contents (Elt F)),
    StableHlo.reshape main_v141 main_v142 rfl shapeCasts_S8192x1_S8192,
    StableHlo.nullary main_c_27 (constantI S_ 32 0#32),
    StableHlo.unary main_c_27 main_v143 (broadcastInDim S8192 ![] bcast_S_S8192 : (⟨S_, .i32⟩ : BufTy).Contents (Elt F) → (⟨S8192, .i32⟩ : BufTy).Contents (Elt F)),
    StableHlo.binary main_v142 main_v143 main_v144 (cmpi .slt : (⟨S8192, .i32⟩ : BufTy).Contents (Elt F) → (⟨S8192, .i32⟩ : BufTy).Contents (Elt F) → (⟨S8192, .i1⟩ : BufTy).Contents (Elt F)),
    StableHlo.nullary main_c_28 (constantI S_ 32 50000#32),
    StableHlo.unary main_c_28 main_v145 (broadcastInDim S8192 ![] bcast_S_S8192 : (⟨S_, .i32⟩ : BufTy).Contents (Elt F) → (⟨S8192, .i32⟩ : BufTy).Contents (Elt F)),
    StableHlo.binary main_v142 main_v145 main_v146 (addi : (⟨S8192, .i32⟩ : BufTy).Contents (Elt F) → (⟨S8192, .i32⟩ : BufTy).Contents (Elt F) → (⟨S8192, .i32⟩ : BufTy).Contents (Elt F)),
    StableHlo.ternary main_v144 main_v146 main_v142 main_v147 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v147 main_v148 (broadcastInDim S8192x1 ![0] bcast_S8192_S8192x1_0 : (⟨S8192, .i32⟩ : BufTy).Contents (Elt F) → (⟨S8192x1, .i32⟩ : BufTy).Contents (Elt F)),
    StableHlo.binary main_arg8 main_v148 main_v149 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v140 main_v149 main_v150 (addf : (⟨S8192x300, .f32⟩ : BufTy).Contents (Elt F) → (⟨S8192x300, .f32⟩ : BufTy).Contents (Elt F) → (⟨S8192x300, .f32⟩ : BufTy).Contents (Elt F)) ]
abbrev tokS14_W : List (Ref sig .tc) := [main_v141, main_v142, main_c_27, main_v143, main_v144, main_c_28, main_v145, main_v146, main_v147, main_v148, main_v149, main_v150]
theorem tokS14_writes : (tokS14 : List (HloOp τ sig (Elt F))).Forall fun op => op.writes ⊆ (tokS14_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 182 … 193 of the host stretch. -/
abbrev tokS15 : List (HloOp τ sig (Elt F)) :=
  [ StableHlo.unary main_arg0 main_v151 ((extractStridedSlice S8192x1 ![0, 15] · slices_S8192x32_S8192x1_0_15) : (⟨S8192x32, .i32⟩ : BufTy).Contents (Elt F) → (⟨S8192x1, .i32⟩ : BufTy).Contents (Elt F)),
    StableHlo.reshape main_v151 main_v152 rfl shapeCasts_S8192x1_S8192,
    StableHlo.nullary main_c_29 (constantI S_ 32 0#32),
    StableHlo.unary main_c_29 main_v153 (broadcastInDim S8192 ![] bcast_S_S8192 : (⟨S_, .i32⟩ : BufTy).Contents (Elt F) → (⟨S8192, .i32⟩ : BufTy).Contents (Elt F)),
    StableHlo.binary main_v152 main_v153 main_v154 (cmpi .slt : (⟨S8192, .i32⟩ : BufTy).Contents (Elt F) → (⟨S8192, .i32⟩ : BufTy).Contents (Elt F) → (⟨S8192, .i1⟩ : BufTy).Contents (Elt F)),
    StableHlo.nullary main_c_30 (constantI S_ 32 50000#32),
    StableHlo.unary main_c_30 main_v155 (broadcastInDim S8192 ![] bcast_S_S8192 : (⟨S_, .i32⟩ : BufTy).Contents (Elt F) → (⟨S8192, .i32⟩ : BufTy).Contents (Elt F)),
    StableHlo.binary main_v152 main_v155 main_v156 (addi : (⟨S8192, .i32⟩ : BufTy).Contents (Elt F) → (⟨S8192, .i32⟩ : BufTy).Contents (Elt F) → (⟨S8192, .i32⟩ : BufTy).Contents (Elt F)),
    StableHlo.ternary main_v154 main_v156 main_v152 main_v157 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v157 main_v158 (broadcastInDim S8192x1 ![0] bcast_S8192_S8192x1_0 : (⟨S8192, .i32⟩ : BufTy).Contents (Elt F) → (⟨S8192x1, .i32⟩ : BufTy).Contents (Elt F)),
    StableHlo.binary main_arg8 main_v158 main_v159 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v150 main_v159 main_v160 (addf : (⟨S8192x300, .f32⟩ : BufTy).Contents (Elt F) → (⟨S8192x300, .f32⟩ : BufTy).Contents (Elt F) → (⟨S8192x300, .f32⟩ : BufTy).Contents (Elt F)) ]
abbrev tokS15_W : List (Ref sig .tc) := [main_v151, main_v152, main_c_29, main_v153, main_v154, main_c_30, main_v155, main_v156, main_v157, main_v158, main_v159, main_v160]
theorem tokS15_writes : (tokS15 : List (HloOp τ sig (Elt F))).Forall fun op => op.writes ⊆ (tokS15_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 194 … 205 of the host stretch. -/
abbrev tokS16 : List (HloOp τ sig (Elt F)) :=
  [ StableHlo.unary main_arg0 main_v161 ((extractStridedSlice S8192x1 ![0, 16] · slices_S8192x32_S8192x1_0_16) : (⟨S8192x32, .i32⟩ : BufTy).Contents (Elt F) → (⟨S8192x1, .i32⟩ : BufTy).Contents (Elt F)),
    StableHlo.reshape main_v161 main_v162 rfl shapeCasts_S8192x1_S8192,
    StableHlo.nullary main_c_31 (constantI S_ 32 0#32),
    StableHlo.unary main_c_31 main_v163 (broadcastInDim S8192 ![] bcast_S_S8192 : (⟨S_, .i32⟩ : BufTy).Contents (Elt F) → (⟨S8192, .i32⟩ : BufTy).Contents (Elt F)),
    StableHlo.binary main_v162 main_v163 main_v164 (cmpi .slt : (⟨S8192, .i32⟩ : BufTy).Contents (Elt F) → (⟨S8192, .i32⟩ : BufTy).Contents (Elt F) → (⟨S8192, .i1⟩ : BufTy).Contents (Elt F)),
    StableHlo.nullary main_c_32 (constantI S_ 32 50000#32),
    StableHlo.unary main_c_32 main_v165 (broadcastInDim S8192 ![] bcast_S_S8192 : (⟨S_, .i32⟩ : BufTy).Contents (Elt F) → (⟨S8192, .i32⟩ : BufTy).Contents (Elt F)),
    StableHlo.binary main_v162 main_v165 main_v166 (addi : (⟨S8192, .i32⟩ : BufTy).Contents (Elt F) → (⟨S8192, .i32⟩ : BufTy).Contents (Elt F) → (⟨S8192, .i32⟩ : BufTy).Contents (Elt F)),
    StableHlo.ternary main_v164 main_v166 main_v162 main_v167 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v167 main_v168 (broadcastInDim S8192x1 ![0] bcast_S8192_S8192x1_0 : (⟨S8192, .i32⟩ : BufTy).Contents (Elt F) → (⟨S8192x1, .i32⟩ : BufTy).Contents (Elt F)),
    StableHlo.binary main_arg8 main_v168 main_v169 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v160 main_v169 main_v170 (addf : (⟨S8192x300, .f32⟩ : BufTy).Contents (Elt F) → (⟨S8192x300, .f32⟩ : BufTy).Contents (Elt F) → (⟨S8192x300, .f32⟩ : BufTy).Contents (Elt F)) ]
abbrev tokS16_W : List (Ref sig .tc) := [main_v161, main_v162, main_c_31, main_v163, main_v164, main_c_32, main_v165, main_v166, main_v167, main_v168, main_v169, main_v170]
theorem tokS16_writes : (tokS16 : List (HloOp τ sig (Elt F))).Forall fun op => op.writes ⊆ (tokS16_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 206 … 217 of the host stretch. -/
abbrev tokS17 : List (HloOp τ sig (Elt F)) :=
  [ StableHlo.unary main_arg0 main_v171 ((extractStridedSlice S8192x1 ![0, 17] · slices_S8192x32_S8192x1_0_17) : (⟨S8192x32, .i32⟩ : BufTy).Contents (Elt F) → (⟨S8192x1, .i32⟩ : BufTy).Contents (Elt F)),
    StableHlo.reshape main_v171 main_v172 rfl shapeCasts_S8192x1_S8192,
    StableHlo.nullary main_c_33 (constantI S_ 32 0#32),
    StableHlo.unary main_c_33 main_v173 (broadcastInDim S8192 ![] bcast_S_S8192 : (⟨S_, .i32⟩ : BufTy).Contents (Elt F) → (⟨S8192, .i32⟩ : BufTy).Contents (Elt F)),
    StableHlo.binary main_v172 main_v173 main_v174 (cmpi .slt : (⟨S8192, .i32⟩ : BufTy).Contents (Elt F) → (⟨S8192, .i32⟩ : BufTy).Contents (Elt F) → (⟨S8192, .i1⟩ : BufTy).Contents (Elt F)),
    StableHlo.nullary main_c_34 (constantI S_ 32 50000#32),
    StableHlo.unary main_c_34 main_v175 (broadcastInDim S8192 ![] bcast_S_S8192 : (⟨S_, .i32⟩ : BufTy).Contents (Elt F) → (⟨S8192, .i32⟩ : BufTy).Contents (Elt F)),
    StableHlo.binary main_v172 main_v175 main_v176 (addi : (⟨S8192, .i32⟩ : BufTy).Contents (Elt F) → (⟨S8192, .i32⟩ : BufTy).Contents (Elt F) → (⟨S8192, .i32⟩ : BufTy).Contents (Elt F)),
    StableHlo.ternary main_v174 main_v176 main_v172 main_v177 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v177 main_v178 (broadcastInDim S8192x1 ![0] bcast_S8192_S8192x1_0 : (⟨S8192, .i32⟩ : BufTy).Contents (Elt F) → (⟨S8192x1, .i32⟩ : BufTy).Contents (Elt F)),
    StableHlo.binary main_arg8 main_v178 main_v179 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v170 main_v179 main_v180 (addf : (⟨S8192x300, .f32⟩ : BufTy).Contents (Elt F) → (⟨S8192x300, .f32⟩ : BufTy).Contents (Elt F) → (⟨S8192x300, .f32⟩ : BufTy).Contents (Elt F)) ]
abbrev tokS17_W : List (Ref sig .tc) := [main_v171, main_v172, main_c_33, main_v173, main_v174, main_c_34, main_v175, main_v176, main_v177, main_v178, main_v179, main_v180]
theorem tokS17_writes : (tokS17 : List (HloOp τ sig (Elt F))).Forall fun op => op.writes ⊆ (tokS17_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 218 … 229 of the host stretch. -/
abbrev tokS18 : List (HloOp τ sig (Elt F)) :=
  [ StableHlo.unary main_arg0 main_v181 ((extractStridedSlice S8192x1 ![0, 18] · slices_S8192x32_S8192x1_0_18) : (⟨S8192x32, .i32⟩ : BufTy).Contents (Elt F) → (⟨S8192x1, .i32⟩ : BufTy).Contents (Elt F)),
    StableHlo.reshape main_v181 main_v182 rfl shapeCasts_S8192x1_S8192,
    StableHlo.nullary main_c_35 (constantI S_ 32 0#32),
    StableHlo.unary main_c_35 main_v183 (broadcastInDim S8192 ![] bcast_S_S8192 : (⟨S_, .i32⟩ : BufTy).Contents (Elt F) → (⟨S8192, .i32⟩ : BufTy).Contents (Elt F)),
    StableHlo.binary main_v182 main_v183 main_v184 (cmpi .slt : (⟨S8192, .i32⟩ : BufTy).Contents (Elt F) → (⟨S8192, .i32⟩ : BufTy).Contents (Elt F) → (⟨S8192, .i1⟩ : BufTy).Contents (Elt F)),
    StableHlo.nullary main_c_36 (constantI S_ 32 50000#32),
    StableHlo.unary main_c_36 main_v185 (broadcastInDim S8192 ![] bcast_S_S8192 : (⟨S_, .i32⟩ : BufTy).Contents (Elt F) → (⟨S8192, .i32⟩ : BufTy).Contents (Elt F)),
    StableHlo.binary main_v182 main_v185 main_v186 (addi : (⟨S8192, .i32⟩ : BufTy).Contents (Elt F) → (⟨S8192, .i32⟩ : BufTy).Contents (Elt F) → (⟨S8192, .i32⟩ : BufTy).Contents (Elt F)),
    StableHlo.ternary main_v184 main_v186 main_v182 main_v187 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v187 main_v188 (broadcastInDim S8192x1 ![0] bcast_S8192_S8192x1_0 : (⟨S8192, .i32⟩ : BufTy).Contents (Elt F) → (⟨S8192x1, .i32⟩ : BufTy).Contents (Elt F)),
    StableHlo.binary main_arg8 main_v188 main_v189 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v180 main_v189 main_v190 (addf : (⟨S8192x300, .f32⟩ : BufTy).Contents (Elt F) → (⟨S8192x300, .f32⟩ : BufTy).Contents (Elt F) → (⟨S8192x300, .f32⟩ : BufTy).Contents (Elt F)) ]
abbrev tokS18_W : List (Ref sig .tc) := [main_v181, main_v182, main_c_35, main_v183, main_v184, main_c_36, main_v185, main_v186, main_v187, main_v188, main_v189, main_v190]
theorem tokS18_writes : (tokS18 : List (HloOp τ sig (Elt F))).Forall fun op => op.writes ⊆ (tokS18_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 230 … 241 of the host stretch. -/
abbrev tokS19 : List (HloOp τ sig (Elt F)) :=
  [ StableHlo.unary main_arg0 main_v191 ((extractStridedSlice S8192x1 ![0, 19] · slices_S8192x32_S8192x1_0_19) : (⟨S8192x32, .i32⟩ : BufTy).Contents (Elt F) → (⟨S8192x1, .i32⟩ : BufTy).Contents (Elt F)),
    StableHlo.reshape main_v191 main_v192 rfl shapeCasts_S8192x1_S8192,
    StableHlo.nullary main_c_37 (constantI S_ 32 0#32),
    StableHlo.unary main_c_37 main_v193 (broadcastInDim S8192 ![] bcast_S_S8192 : (⟨S_, .i32⟩ : BufTy).Contents (Elt F) → (⟨S8192, .i32⟩ : BufTy).Contents (Elt F)),
    StableHlo.binary main_v192 main_v193 main_v194 (cmpi .slt : (⟨S8192, .i32⟩ : BufTy).Contents (Elt F) → (⟨S8192, .i32⟩ : BufTy).Contents (Elt F) → (⟨S8192, .i1⟩ : BufTy).Contents (Elt F)),
    StableHlo.nullary main_c_38 (constantI S_ 32 50000#32),
    StableHlo.unary main_c_38 main_v195 (broadcastInDim S8192 ![] bcast_S_S8192 : (⟨S_, .i32⟩ : BufTy).Contents (Elt F) → (⟨S8192, .i32⟩ : BufTy).Contents (Elt F)),
    StableHlo.binary main_v192 main_v195 main_v196 (addi : (⟨S8192, .i32⟩ : BufTy).Contents (Elt F) → (⟨S8192, .i32⟩ : BufTy).Contents (Elt F) → (⟨S8192, .i32⟩ : BufTy).Contents (Elt F)),
    StableHlo.ternary main_v194 main_v196 main_v192 main_v197 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v197 main_v198 (broadcastInDim S8192x1 ![0] bcast_S8192_S8192x1_0 : (⟨S8192, .i32⟩ : BufTy).Contents (Elt F) → (⟨S8192x1, .i32⟩ : BufTy).Contents (Elt F)),
    StableHlo.binary main_arg8 main_v198 main_v199 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v190 main_v199 main_v200 (addf : (⟨S8192x300, .f32⟩ : BufTy).Contents (Elt F) → (⟨S8192x300, .f32⟩ : BufTy).Contents (Elt F) → (⟨S8192x300, .f32⟩ : BufTy).Contents (Elt F)) ]
abbrev tokS19_W : List (Ref sig .tc) := [main_v191, main_v192, main_c_37, main_v193, main_v194, main_c_38, main_v195, main_v196, main_v197, main_v198, main_v199, main_v200]
theorem tokS19_writes : (tokS19 : List (HloOp τ sig (Elt F))).Forall fun op => op.writes ⊆ (tokS19_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 242 … 253 of the host stretch. -/
abbrev tokS20 : List (HloOp τ sig (Elt F)) :=
  [ StableHlo.unary main_arg0 main_v201 ((extractStridedSlice S8192x1 ![0, 20] · slices_S8192x32_S8192x1_0_20) : (⟨S8192x32, .i32⟩ : BufTy).Contents (Elt F) → (⟨S8192x1, .i32⟩ : BufTy).Contents (Elt F)),
    StableHlo.reshape main_v201 main_v202 rfl shapeCasts_S8192x1_S8192,
    StableHlo.nullary main_c_39 (constantI S_ 32 0#32),
    StableHlo.unary main_c_39 main_v203 (broadcastInDim S8192 ![] bcast_S_S8192 : (⟨S_, .i32⟩ : BufTy).Contents (Elt F) → (⟨S8192, .i32⟩ : BufTy).Contents (Elt F)),
    StableHlo.binary main_v202 main_v203 main_v204 (cmpi .slt : (⟨S8192, .i32⟩ : BufTy).Contents (Elt F) → (⟨S8192, .i32⟩ : BufTy).Contents (Elt F) → (⟨S8192, .i1⟩ : BufTy).Contents (Elt F)),
    StableHlo.nullary main_c_40 (constantI S_ 32 50000#32),
    StableHlo.unary main_c_40 main_v205 (broadcastInDim S8192 ![] bcast_S_S8192 : (⟨S_, .i32⟩ : BufTy).Contents (Elt F) → (⟨S8192, .i32⟩ : BufTy).Contents (Elt F)),
    StableHlo.binary main_v202 main_v205 main_v206 (addi : (⟨S8192, .i32⟩ : BufTy).Contents (Elt F) → (⟨S8192, .i32⟩ : BufTy).Contents (Elt F) → (⟨S8192, .i32⟩ : BufTy).Contents (Elt F)),
    StableHlo.ternary main_v204 main_v206 main_v202 main_v207 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v207 main_v208 (broadcastInDim S8192x1 ![0] bcast_S8192_S8192x1_0 : (⟨S8192, .i32⟩ : BufTy).Contents (Elt F) → (⟨S8192x1, .i32⟩ : BufTy).Contents (Elt F)),
    StableHlo.binary main_arg8 main_v208 main_v209 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v200 main_v209 main_v210 (addf : (⟨S8192x300, .f32⟩ : BufTy).Contents (Elt F) → (⟨S8192x300, .f32⟩ : BufTy).Contents (Elt F) → (⟨S8192x300, .f32⟩ : BufTy).Contents (Elt F)) ]
abbrev tokS20_W : List (Ref sig .tc) := [main_v201, main_v202, main_c_39, main_v203, main_v204, main_c_40, main_v205, main_v206, main_v207, main_v208, main_v209, main_v210]
theorem tokS20_writes : (tokS20 : List (HloOp τ sig (Elt F))).Forall fun op => op.writes ⊆ (tokS20_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 254 … 265 of the host stretch. -/
abbrev tokS21 : List (HloOp τ sig (Elt F)) :=
  [ StableHlo.unary main_arg0 main_v211 ((extractStridedSlice S8192x1 ![0, 21] · slices_S8192x32_S8192x1_0_21) : (⟨S8192x32, .i32⟩ : BufTy).Contents (Elt F) → (⟨S8192x1, .i32⟩ : BufTy).Contents (Elt F)),
    StableHlo.reshape main_v211 main_v212 rfl shapeCasts_S8192x1_S8192,
    StableHlo.nullary main_c_41 (constantI S_ 32 0#32),
    StableHlo.unary main_c_41 main_v213 (broadcastInDim S8192 ![] bcast_S_S8192 : (⟨S_, .i32⟩ : BufTy).Contents (Elt F) → (⟨S8192, .i32⟩ : BufTy).Contents (Elt F)),
    StableHlo.binary main_v212 main_v213 main_v214 (cmpi .slt : (⟨S8192, .i32⟩ : BufTy).Contents (Elt F) → (⟨S8192, .i32⟩ : BufTy).Contents (Elt F) → (⟨S8192, .i1⟩ : BufTy).Contents (Elt F)),
    StableHlo.nullary main_c_42 (constantI S_ 32 50000#32),
    StableHlo.unary main_c_42 main_v215 (broadcastInDim S8192 ![] bcast_S_S8192 : (⟨S_, .i32⟩ : BufTy).Contents (Elt F) → (⟨S8192, .i32⟩ : BufTy).Contents (Elt F)),
    StableHlo.binary main_v212 main_v215 main_v216 (addi : (⟨S8192, .i32⟩ : BufTy).Contents (Elt F) → (⟨S8192, .i32⟩ : BufTy).Contents (Elt F) → (⟨S8192, .i32⟩ : BufTy).Contents (Elt F)),
    StableHlo.ternary main_v214 main_v216 main_v212 main_v217 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v217 main_v218 (broadcastInDim S8192x1 ![0] bcast_S8192_S8192x1_0 : (⟨S8192, .i32⟩ : BufTy).Contents (Elt F) → (⟨S8192x1, .i32⟩ : BufTy).Contents (Elt F)),
    StableHlo.binary main_arg8 main_v218 main_v219 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v210 main_v219 main_v220 (addf : (⟨S8192x300, .f32⟩ : BufTy).Contents (Elt F) → (⟨S8192x300, .f32⟩ : BufTy).Contents (Elt F) → (⟨S8192x300, .f32⟩ : BufTy).Contents (Elt F)) ]
abbrev tokS21_W : List (Ref sig .tc) := [main_v211, main_v212, main_c_41, main_v213, main_v214, main_c_42, main_v215, main_v216, main_v217, main_v218, main_v219, main_v220]
theorem tokS21_writes : (tokS21 : List (HloOp τ sig (Elt F))).Forall fun op => op.writes ⊆ (tokS21_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 266 … 277 of the host stretch. -/
abbrev tokS22 : List (HloOp τ sig (Elt F)) :=
  [ StableHlo.unary main_arg0 main_v221 ((extractStridedSlice S8192x1 ![0, 22] · slices_S8192x32_S8192x1_0_22) : (⟨S8192x32, .i32⟩ : BufTy).Contents (Elt F) → (⟨S8192x1, .i32⟩ : BufTy).Contents (Elt F)),
    StableHlo.reshape main_v221 main_v222 rfl shapeCasts_S8192x1_S8192,
    StableHlo.nullary main_c_43 (constantI S_ 32 0#32),
    StableHlo.unary main_c_43 main_v223 (broadcastInDim S8192 ![] bcast_S_S8192 : (⟨S_, .i32⟩ : BufTy).Contents (Elt F) → (⟨S8192, .i32⟩ : BufTy).Contents (Elt F)),
    StableHlo.binary main_v222 main_v223 main_v224 (cmpi .slt : (⟨S8192, .i32⟩ : BufTy).Contents (Elt F) → (⟨S8192, .i32⟩ : BufTy).Contents (Elt F) → (⟨S8192, .i1⟩ : BufTy).Contents (Elt F)),
    StableHlo.nullary main_c_44 (constantI S_ 32 50000#32),
    StableHlo.unary main_c_44 main_v225 (broadcastInDim S8192 ![] bcast_S_S8192 : (⟨S_, .i32⟩ : BufTy).Contents (Elt F) → (⟨S8192, .i32⟩ : BufTy).Contents (Elt F)),
    StableHlo.binary main_v222 main_v225 main_v226 (addi : (⟨S8192, .i32⟩ : BufTy).Contents (Elt F) → (⟨S8192, .i32⟩ : BufTy).Contents (Elt F) → (⟨S8192, .i32⟩ : BufTy).Contents (Elt F)),
    StableHlo.ternary main_v224 main_v226 main_v222 main_v227 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v227 main_v228 (broadcastInDim S8192x1 ![0] bcast_S8192_S8192x1_0 : (⟨S8192, .i32⟩ : BufTy).Contents (Elt F) → (⟨S8192x1, .i32⟩ : BufTy).Contents (Elt F)),
    StableHlo.binary main_arg8 main_v228 main_v229 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v220 main_v229 main_v230 (addf : (⟨S8192x300, .f32⟩ : BufTy).Contents (Elt F) → (⟨S8192x300, .f32⟩ : BufTy).Contents (Elt F) → (⟨S8192x300, .f32⟩ : BufTy).Contents (Elt F)) ]
abbrev tokS22_W : List (Ref sig .tc) := [main_v221, main_v222, main_c_43, main_v223, main_v224, main_c_44, main_v225, main_v226, main_v227, main_v228, main_v229, main_v230]
theorem tokS22_writes : (tokS22 : List (HloOp τ sig (Elt F))).Forall fun op => op.writes ⊆ (tokS22_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 278 … 289 of the host stretch. -/
abbrev tokS23 : List (HloOp τ sig (Elt F)) :=
  [ StableHlo.unary main_arg0 main_v231 ((extractStridedSlice S8192x1 ![0, 23] · slices_S8192x32_S8192x1_0_23) : (⟨S8192x32, .i32⟩ : BufTy).Contents (Elt F) → (⟨S8192x1, .i32⟩ : BufTy).Contents (Elt F)),
    StableHlo.reshape main_v231 main_v232 rfl shapeCasts_S8192x1_S8192,
    StableHlo.nullary main_c_45 (constantI S_ 32 0#32),
    StableHlo.unary main_c_45 main_v233 (broadcastInDim S8192 ![] bcast_S_S8192 : (⟨S_, .i32⟩ : BufTy).Contents (Elt F) → (⟨S8192, .i32⟩ : BufTy).Contents (Elt F)),
    StableHlo.binary main_v232 main_v233 main_v234 (cmpi .slt : (⟨S8192, .i32⟩ : BufTy).Contents (Elt F) → (⟨S8192, .i32⟩ : BufTy).Contents (Elt F) → (⟨S8192, .i1⟩ : BufTy).Contents (Elt F)),
    StableHlo.nullary main_c_46 (constantI S_ 32 50000#32),
    StableHlo.unary main_c_46 main_v235 (broadcastInDim S8192 ![] bcast_S_S8192 : (⟨S_, .i32⟩ : BufTy).Contents (Elt F) → (⟨S8192, .i32⟩ : BufTy).Contents (Elt F)),
    StableHlo.binary main_v232 main_v235 main_v236 (addi : (⟨S8192, .i32⟩ : BufTy).Contents (Elt F) → (⟨S8192, .i32⟩ : BufTy).Contents (Elt F) → (⟨S8192, .i32⟩ : BufTy).Contents (Elt F)),
    StableHlo.ternary main_v234 main_v236 main_v232 main_v237 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v237 main_v238 (broadcastInDim S8192x1 ![0] bcast_S8192_S8192x1_0 : (⟨S8192, .i32⟩ : BufTy).Contents (Elt F) → (⟨S8192x1, .i32⟩ : BufTy).Contents (Elt F)),
    StableHlo.binary main_arg8 main_v238 main_v239 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v230 main_v239 main_v240 (addf : (⟨S8192x300, .f32⟩ : BufTy).Contents (Elt F) → (⟨S8192x300, .f32⟩ : BufTy).Contents (Elt F) → (⟨S8192x300, .f32⟩ : BufTy).Contents (Elt F)) ]
abbrev tokS23_W : List (Ref sig .tc) := [main_v231, main_v232, main_c_45, main_v233, main_v234, main_c_46, main_v235, main_v236, main_v237, main_v238, main_v239, main_v240]
theorem tokS23_writes : (tokS23 : List (HloOp τ sig (Elt F))).Forall fun op => op.writes ⊆ (tokS23_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 290 … 301 of the host stretch. -/
abbrev tokS24 : List (HloOp τ sig (Elt F)) :=
  [ StableHlo.unary main_arg0 main_v241 ((extractStridedSlice S8192x1 ![0, 24] · slices_S8192x32_S8192x1_0_24) : (⟨S8192x32, .i32⟩ : BufTy).Contents (Elt F) → (⟨S8192x1, .i32⟩ : BufTy).Contents (Elt F)),
    StableHlo.reshape main_v241 main_v242 rfl shapeCasts_S8192x1_S8192,
    StableHlo.nullary main_c_47 (constantI S_ 32 0#32),
    StableHlo.unary main_c_47 main_v243 (broadcastInDim S8192 ![] bcast_S_S8192 : (⟨S_, .i32⟩ : BufTy).Contents (Elt F) → (⟨S8192, .i32⟩ : BufTy).Contents (Elt F)),
    StableHlo.binary main_v242 main_v243 main_v244 (cmpi .slt : (⟨S8192, .i32⟩ : BufTy).Contents (Elt F) → (⟨S8192, .i32⟩ : BufTy).Contents (Elt F) → (⟨S8192, .i1⟩ : BufTy).Contents (Elt F)),
    StableHlo.nullary main_c_48 (constantI S_ 32 50000#32),
    StableHlo.unary main_c_48 main_v245 (broadcastInDim S8192 ![] bcast_S_S8192 : (⟨S_, .i32⟩ : BufTy).Contents (Elt F) → (⟨S8192, .i32⟩ : BufTy).Contents (Elt F)),
    StableHlo.binary main_v242 main_v245 main_v246 (addi : (⟨S8192, .i32⟩ : BufTy).Contents (Elt F) → (⟨S8192, .i32⟩ : BufTy).Contents (Elt F) → (⟨S8192, .i32⟩ : BufTy).Contents (Elt F)),
    StableHlo.ternary main_v244 main_v246 main_v242 main_v247 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v247 main_v248 (broadcastInDim S8192x1 ![0] bcast_S8192_S8192x1_0 : (⟨S8192, .i32⟩ : BufTy).Contents (Elt F) → (⟨S8192x1, .i32⟩ : BufTy).Contents (Elt F)),
    StableHlo.binary main_arg8 main_v248 main_v249 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v240 main_v249 main_v250 (addf : (⟨S8192x300, .f32⟩ : BufTy).Contents (Elt F) → (⟨S8192x300, .f32⟩ : BufTy).Contents (Elt F) → (⟨S8192x300, .f32⟩ : BufTy).Contents (Elt F)) ]
abbrev tokS24_W : List (Ref sig .tc) := [main_v241, main_v242, main_c_47, main_v243, main_v244, main_c_48, main_v245, main_v246, main_v247, main_v248, main_v249, main_v250]
theorem tokS24_writes : (tokS24 : List (HloOp τ sig (Elt F))).Forall fun op => op.writes ⊆ (tokS24_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 302 … 313 of the host stretch. -/
abbrev tokS25 : List (HloOp τ sig (Elt F)) :=
  [ StableHlo.unary main_arg0 main_v251 ((extractStridedSlice S8192x1 ![0, 25] · slices_S8192x32_S8192x1_0_25) : (⟨S8192x32, .i32⟩ : BufTy).Contents (Elt F) → (⟨S8192x1, .i32⟩ : BufTy).Contents (Elt F)),
    StableHlo.reshape main_v251 main_v252 rfl shapeCasts_S8192x1_S8192,
    StableHlo.nullary main_c_49 (constantI S_ 32 0#32),
    StableHlo.unary main_c_49 main_v253 (broadcastInDim S8192 ![] bcast_S_S8192 : (⟨S_, .i32⟩ : BufTy).Contents (Elt F) → (⟨S8192, .i32⟩ : BufTy).Contents (Elt F)),
    StableHlo.binary main_v252 main_v253 main_v254 (cmpi .slt : (⟨S8192, .i32⟩ : BufTy).Contents (Elt F) → (⟨S8192, .i32⟩ : BufTy).Contents (Elt F) → (⟨S8192, .i1⟩ : BufTy).Contents (Elt F)),
    StableHlo.nullary main_c_50 (constantI S_ 32 50000#32),
    StableHlo.unary main_c_50 main_v255 (broadcastInDim S8192 ![] bcast_S_S8192 : (⟨S_, .i32⟩ : BufTy).Contents (Elt F) → (⟨S8192, .i32⟩ : BufTy).Contents (Elt F)),
    StableHlo.binary main_v252 main_v255 main_v256 (addi : (⟨S8192, .i32⟩ : BufTy).Contents (Elt F) → (⟨S8192, .i32⟩ : BufTy).Contents (Elt F) → (⟨S8192, .i32⟩ : BufTy).Contents (Elt F)),
    StableHlo.ternary main_v254 main_v256 main_v252 main_v257 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v257 main_v258 (broadcastInDim S8192x1 ![0] bcast_S8192_S8192x1_0 : (⟨S8192, .i32⟩ : BufTy).Contents (Elt F) → (⟨S8192x1, .i32⟩ : BufTy).Contents (Elt F)),
    StableHlo.binary main_arg8 main_v258 main_v259 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v250 main_v259 main_v260 (addf : (⟨S8192x300, .f32⟩ : BufTy).Contents (Elt F) → (⟨S8192x300, .f32⟩ : BufTy).Contents (Elt F) → (⟨S8192x300, .f32⟩ : BufTy).Contents (Elt F)) ]
abbrev tokS25_W : List (Ref sig .tc) := [main_v251, main_v252, main_c_49, main_v253, main_v254, main_c_50, main_v255, main_v256, main_v257, main_v258, main_v259, main_v260]
theorem tokS25_writes : (tokS25 : List (HloOp τ sig (Elt F))).Forall fun op => op.writes ⊆ (tokS25_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 314 … 325 of the host stretch. -/
abbrev tokS26 : List (HloOp τ sig (Elt F)) :=
  [ StableHlo.unary main_arg0 main_v261 ((extractStridedSlice S8192x1 ![0, 26] · slices_S8192x32_S8192x1_0_26) : (⟨S8192x32, .i32⟩ : BufTy).Contents (Elt F) → (⟨S8192x1, .i32⟩ : BufTy).Contents (Elt F)),
    StableHlo.reshape main_v261 main_v262 rfl shapeCasts_S8192x1_S8192,
    StableHlo.nullary main_c_51 (constantI S_ 32 0#32),
    StableHlo.unary main_c_51 main_v263 (broadcastInDim S8192 ![] bcast_S_S8192 : (⟨S_, .i32⟩ : BufTy).Contents (Elt F) → (⟨S8192, .i32⟩ : BufTy).Contents (Elt F)),
    StableHlo.binary main_v262 main_v263 main_v264 (cmpi .slt : (⟨S8192, .i32⟩ : BufTy).Contents (Elt F) → (⟨S8192, .i32⟩ : BufTy).Contents (Elt F) → (⟨S8192, .i1⟩ : BufTy).Contents (Elt F)),
    StableHlo.nullary main_c_52 (constantI S_ 32 50000#32),
    StableHlo.unary main_c_52 main_v265 (broadcastInDim S8192 ![] bcast_S_S8192 : (⟨S_, .i32⟩ : BufTy).Contents (Elt F) → (⟨S8192, .i32⟩ : BufTy).Contents (Elt F)),
    StableHlo.binary main_v262 main_v265 main_v266 (addi : (⟨S8192, .i32⟩ : BufTy).Contents (Elt F) → (⟨S8192, .i32⟩ : BufTy).Contents (Elt F) → (⟨S8192, .i32⟩ : BufTy).Contents (Elt F)),
    StableHlo.ternary main_v264 main_v266 main_v262 main_v267 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v267 main_v268 (broadcastInDim S8192x1 ![0] bcast_S8192_S8192x1_0 : (⟨S8192, .i32⟩ : BufTy).Contents (Elt F) → (⟨S8192x1, .i32⟩ : BufTy).Contents (Elt F)),
    StableHlo.binary main_arg8 main_v268 main_v269 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v260 main_v269 main_v270 (addf : (⟨S8192x300, .f32⟩ : BufTy).Contents (Elt F) → (⟨S8192x300, .f32⟩ : BufTy).Contents (Elt F) → (⟨S8192x300, .f32⟩ : BufTy).Contents (Elt F)) ]
abbrev tokS26_W : List (Ref sig .tc) := [main_v261, main_v262, main_c_51, main_v263, main_v264, main_c_52, main_v265, main_v266, main_v267, main_v268, main_v269, main_v270]
theorem tokS26_writes : (tokS26 : List (HloOp τ sig (Elt F))).Forall fun op => op.writes ⊆ (tokS26_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 326 … 337 of the host stretch. -/
abbrev tokS27 : List (HloOp τ sig (Elt F)) :=
  [ StableHlo.unary main_arg0 main_v271 ((extractStridedSlice S8192x1 ![0, 27] · slices_S8192x32_S8192x1_0_27) : (⟨S8192x32, .i32⟩ : BufTy).Contents (Elt F) → (⟨S8192x1, .i32⟩ : BufTy).Contents (Elt F)),
    StableHlo.reshape main_v271 main_v272 rfl shapeCasts_S8192x1_S8192,
    StableHlo.nullary main_c_53 (constantI S_ 32 0#32),
    StableHlo.unary main_c_53 main_v273 (broadcastInDim S8192 ![] bcast_S_S8192 : (⟨S_, .i32⟩ : BufTy).Contents (Elt F) → (⟨S8192, .i32⟩ : BufTy).Contents (Elt F)),
    StableHlo.binary main_v272 main_v273 main_v274 (cmpi .slt : (⟨S8192, .i32⟩ : BufTy).Contents (Elt F) → (⟨S8192, .i32⟩ : BufTy).Contents (Elt F) → (⟨S8192, .i1⟩ : BufTy).Contents (Elt F)),
    StableHlo.nullary main_c_54 (constantI S_ 32 50000#32),
    StableHlo.unary main_c_54 main_v275 (broadcastInDim S8192 ![] bcast_S_S8192 : (⟨S_, .i32⟩ : BufTy).Contents (Elt F) → (⟨S8192, .i32⟩ : BufTy).Contents (Elt F)),
    StableHlo.binary main_v272 main_v275 main_v276 (addi : (⟨S8192, .i32⟩ : BufTy).Contents (Elt F) → (⟨S8192, .i32⟩ : BufTy).Contents (Elt F) → (⟨S8192, .i32⟩ : BufTy).Contents (Elt F)),
    StableHlo.ternary main_v274 main_v276 main_v272 main_v277 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v277 main_v278 (broadcastInDim S8192x1 ![0] bcast_S8192_S8192x1_0 : (⟨S8192, .i32⟩ : BufTy).Contents (Elt F) → (⟨S8192x1, .i32⟩ : BufTy).Contents (Elt F)),
    StableHlo.binary main_arg8 main_v278 main_v279 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v270 main_v279 main_v280 (addf : (⟨S8192x300, .f32⟩ : BufTy).Contents (Elt F) → (⟨S8192x300, .f32⟩ : BufTy).Contents (Elt F) → (⟨S8192x300, .f32⟩ : BufTy).Contents (Elt F)) ]
abbrev tokS27_W : List (Ref sig .tc) := [main_v271, main_v272, main_c_53, main_v273, main_v274, main_c_54, main_v275, main_v276, main_v277, main_v278, main_v279, main_v280]
theorem tokS27_writes : (tokS27 : List (HloOp τ sig (Elt F))).Forall fun op => op.writes ⊆ (tokS27_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 338 … 349 of the host stretch. -/
abbrev tokS28 : List (HloOp τ sig (Elt F)) :=
  [ StableHlo.unary main_arg0 main_v281 ((extractStridedSlice S8192x1 ![0, 28] · slices_S8192x32_S8192x1_0_28) : (⟨S8192x32, .i32⟩ : BufTy).Contents (Elt F) → (⟨S8192x1, .i32⟩ : BufTy).Contents (Elt F)),
    StableHlo.reshape main_v281 main_v282 rfl shapeCasts_S8192x1_S8192,
    StableHlo.nullary main_c_55 (constantI S_ 32 0#32),
    StableHlo.unary main_c_55 main_v283 (broadcastInDim S8192 ![] bcast_S_S8192 : (⟨S_, .i32⟩ : BufTy).Contents (Elt F) → (⟨S8192, .i32⟩ : BufTy).Contents (Elt F)),
    StableHlo.binary main_v282 main_v283 main_v284 (cmpi .slt : (⟨S8192, .i32⟩ : BufTy).Contents (Elt F) → (⟨S8192, .i32⟩ : BufTy).Contents (Elt F) → (⟨S8192, .i1⟩ : BufTy).Contents (Elt F)),
    StableHlo.nullary main_c_56 (constantI S_ 32 50000#32),
    StableHlo.unary main_c_56 main_v285 (broadcastInDim S8192 ![] bcast_S_S8192 : (⟨S_, .i32⟩ : BufTy).Contents (Elt F) → (⟨S8192, .i32⟩ : BufTy).Contents (Elt F)),
    StableHlo.binary main_v282 main_v285 main_v286 (addi : (⟨S8192, .i32⟩ : BufTy).Contents (Elt F) → (⟨S8192, .i32⟩ : BufTy).Contents (Elt F) → (⟨S8192, .i32⟩ : BufTy).Contents (Elt F)),
    StableHlo.ternary main_v284 main_v286 main_v282 main_v287 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v287 main_v288 (broadcastInDim S8192x1 ![0] bcast_S8192_S8192x1_0 : (⟨S8192, .i32⟩ : BufTy).Contents (Elt F) → (⟨S8192x1, .i32⟩ : BufTy).Contents (Elt F)),
    StableHlo.binary main_arg8 main_v288 main_v289 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v280 main_v289 main_v290 (addf : (⟨S8192x300, .f32⟩ : BufTy).Contents (Elt F) → (⟨S8192x300, .f32⟩ : BufTy).Contents (Elt F) → (⟨S8192x300, .f32⟩ : BufTy).Contents (Elt F)) ]
abbrev tokS28_W : List (Ref sig .tc) := [main_v281, main_v282, main_c_55, main_v283, main_v284, main_c_56, main_v285, main_v286, main_v287, main_v288, main_v289, main_v290]
theorem tokS28_writes : (tokS28 : List (HloOp τ sig (Elt F))).Forall fun op => op.writes ⊆ (tokS28_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 350 … 361 of the host stretch. -/
abbrev tokS29 : List (HloOp τ sig (Elt F)) :=
  [ StableHlo.unary main_arg0 main_v291 ((extractStridedSlice S8192x1 ![0, 29] · slices_S8192x32_S8192x1_0_29) : (⟨S8192x32, .i32⟩ : BufTy).Contents (Elt F) → (⟨S8192x1, .i32⟩ : BufTy).Contents (Elt F)),
    StableHlo.reshape main_v291 main_v292 rfl shapeCasts_S8192x1_S8192,
    StableHlo.nullary main_c_57 (constantI S_ 32 0#32),
    StableHlo.unary main_c_57 main_v293 (broadcastInDim S8192 ![] bcast_S_S8192 : (⟨S_, .i32⟩ : BufTy).Contents (Elt F) → (⟨S8192, .i32⟩ : BufTy).Contents (Elt F)),
    StableHlo.binary main_v292 main_v293 main_v294 (cmpi .slt : (⟨S8192, .i32⟩ : BufTy).Contents (Elt F) → (⟨S8192, .i32⟩ : BufTy).Contents (Elt F) → (⟨S8192, .i1⟩ : BufTy).Contents (Elt F)),
    StableHlo.nullary main_c_58 (constantI S_ 32 50000#32),
    StableHlo.unary main_c_58 main_v295 (broadcastInDim S8192 ![] bcast_S_S8192 : (⟨S_, .i32⟩ : BufTy).Contents (Elt F) → (⟨S8192, .i32⟩ : BufTy).Contents (Elt F)),
    StableHlo.binary main_v292 main_v295 main_v296 (addi : (⟨S8192, .i32⟩ : BufTy).Contents (Elt F) → (⟨S8192, .i32⟩ : BufTy).Contents (Elt F) → (⟨S8192, .i32⟩ : BufTy).Contents (Elt F)),
    StableHlo.ternary main_v294 main_v296 main_v292 main_v297 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v297 main_v298 (broadcastInDim S8192x1 ![0] bcast_S8192_S8192x1_0 : (⟨S8192, .i32⟩ : BufTy).Contents (Elt F) → (⟨S8192x1, .i32⟩ : BufTy).Contents (Elt F)),
    StableHlo.binary main_arg8 main_v298 main_v299 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v290 main_v299 main_v300 (addf : (⟨S8192x300, .f32⟩ : BufTy).Contents (Elt F) → (⟨S8192x300, .f32⟩ : BufTy).Contents (Elt F) → (⟨S8192x300, .f32⟩ : BufTy).Contents (Elt F)) ]
abbrev tokS29_W : List (Ref sig .tc) := [main_v291, main_v292, main_c_57, main_v293, main_v294, main_c_58, main_v295, main_v296, main_v297, main_v298, main_v299, main_v300]
theorem tokS29_writes : (tokS29 : List (HloOp τ sig (Elt F))).Forall fun op => op.writes ⊆ (tokS29_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 362 … 373 of the host stretch. -/
abbrev tokS30 : List (HloOp τ sig (Elt F)) :=
  [ StableHlo.unary main_arg0 main_v301 ((extractStridedSlice S8192x1 ![0, 30] · slices_S8192x32_S8192x1_0_30) : (⟨S8192x32, .i32⟩ : BufTy).Contents (Elt F) → (⟨S8192x1, .i32⟩ : BufTy).Contents (Elt F)),
    StableHlo.reshape main_v301 main_v302 rfl shapeCasts_S8192x1_S8192,
    StableHlo.nullary main_c_59 (constantI S_ 32 0#32),
    StableHlo.unary main_c_59 main_v303 (broadcastInDim S8192 ![] bcast_S_S8192 : (⟨S_, .i32⟩ : BufTy).Contents (Elt F) → (⟨S8192, .i32⟩ : BufTy).Contents (Elt F)),
    StableHlo.binary main_v302 main_v303 main_v304 (cmpi .slt : (⟨S8192, .i32⟩ : BufTy).Contents (Elt F) → (⟨S8192, .i32⟩ : BufTy).Contents (Elt F) → (⟨S8192, .i1⟩ : BufTy).Contents (Elt F)),
    StableHlo.nullary main_c_60 (constantI S_ 32 50000#32),
    StableHlo.unary main_c_60 main_v305 (broadcastInDim S8192 ![] bcast_S_S8192 : (⟨S_, .i32⟩ : BufTy).Contents (Elt F) → (⟨S8192, .i32⟩ : BufTy).Contents (Elt F)),
    StableHlo.binary main_v302 main_v305 main_v306 (addi : (⟨S8192, .i32⟩ : BufTy).Contents (Elt F) → (⟨S8192, .i32⟩ : BufTy).Contents (Elt F) → (⟨S8192, .i32⟩ : BufTy).Contents (Elt F)),
    StableHlo.ternary main_v304 main_v306 main_v302 main_v307 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v307 main_v308 (broadcastInDim S8192x1 ![0] bcast_S8192_S8192x1_0 : (⟨S8192, .i32⟩ : BufTy).Contents (Elt F) → (⟨S8192x1, .i32⟩ : BufTy).Contents (Elt F)),
    StableHlo.binary main_arg8 main_v308 main_v309 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v300 main_v309 main_v310 (addf : (⟨S8192x300, .f32⟩ : BufTy).Contents (Elt F) → (⟨S8192x300, .f32⟩ : BufTy).Contents (Elt F) → (⟨S8192x300, .f32⟩ : BufTy).Contents (Elt F)) ]
abbrev tokS30_W : List (Ref sig .tc) := [main_v301, main_v302, main_c_59, main_v303, main_v304, main_c_60, main_v305, main_v306, main_v307, main_v308, main_v309, main_v310]
theorem tokS30_writes : (tokS30 : List (HloOp τ sig (Elt F))).Forall fun op => op.writes ⊆ (tokS30_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 374 … 385 of the host stretch. -/
abbrev tokS31 : List (HloOp τ sig (Elt F)) :=
  [ StableHlo.unary main_arg0 main_v311 ((extractStridedSlice S8192x1 ![0, 31] · slices_S8192x32_S8192x1_0_31) : (⟨S8192x32, .i32⟩ : BufTy).Contents (Elt F) → (⟨S8192x1, .i32⟩ : BufTy).Contents (Elt F)),
    StableHlo.reshape main_v311 main_v312 rfl shapeCasts_S8192x1_S8192,
    StableHlo.nullary main_c_61 (constantI S_ 32 0#32),
    StableHlo.unary main_c_61 main_v313 (broadcastInDim S8192 ![] bcast_S_S8192 : (⟨S_, .i32⟩ : BufTy).Contents (Elt F) → (⟨S8192, .i32⟩ : BufTy).Contents (Elt F)),
    StableHlo.binary main_v312 main_v313 main_v314 (cmpi .slt : (⟨S8192, .i32⟩ : BufTy).Contents (Elt F) → (⟨S8192, .i32⟩ : BufTy).Contents (Elt F) → (⟨S8192, .i1⟩ : BufTy).Contents (Elt F)),
    StableHlo.nullary main_c_62 (constantI S_ 32 50000#32),
    StableHlo.unary main_c_62 main_v315 (broadcastInDim S8192 ![] bcast_S_S8192 : (⟨S_, .i32⟩ : BufTy).Contents (Elt F) → (⟨S8192, .i32⟩ : BufTy).Contents (Elt F)),
    StableHlo.binary main_v312 main_v315 main_v316 (addi : (⟨S8192, .i32⟩ : BufTy).Contents (Elt F) → (⟨S8192, .i32⟩ : BufTy).Contents (Elt F) → (⟨S8192, .i32⟩ : BufTy).Contents (Elt F)),
    StableHlo.ternary main_v314 main_v316 main_v312 main_v317 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v317 main_v318 (broadcastInDim S8192x1 ![0] bcast_S8192_S8192x1_0 : (⟨S8192, .i32⟩ : BufTy).Contents (Elt F) → (⟨S8192x1, .i32⟩ : BufTy).Contents (Elt F)),
    StableHlo.binary main_arg8 main_v318 main_v319 ((fun x i => Host.gather gather_S50000x300_S8192x1_S8192x300_1_0_n_n_0_1_1300 x i) : (⟨S50000x300, .f32⟩ : BufTy).Contents (Elt F) → (⟨S8192x1, .i32⟩ : BufTy).Contents (Elt F) → (⟨S8192x300, .f32⟩ : BufTy).Contents (Elt F)),
    StableHlo.binary main_v310 main_v319 main_v320 (addf : (⟨S8192x300, .f32⟩ : BufTy).Contents (Elt F) → (⟨S8192x300, .f32⟩ : BufTy).Contents (Elt F) → (⟨S8192x300, .f32⟩ : BufTy).Contents (Elt F)) ]
abbrev tokS31_W : List (Ref sig .tc) := [main_v311, main_v312, main_c_61, main_v313, main_v314, main_c_62, main_v315, main_v316, main_v317, main_v318, main_v319, main_v320]
theorem tokS31_writes : (tokS31 : List (HloOp τ sig (Elt F))).Forall fun op => op.writes ⊆ (tokS31_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 386 … 388 of the host stretch. -/
abbrev tokT : List (HloOp τ sig (Elt F)) :=
  [ StableHlo.nullary main_cst_63 (constant S_ .f32 0x42000000#32),
    StableHlo.unary main_cst_63 main_v321 (broadcastInDim S8192x300 ![] bcast_S_S8192x300 : (⟨S_, .f32⟩ : BufTy).Contents (Elt F) → (⟨S8192x300, .f32⟩ : BufTy).Contents (Elt F)),
    StableHlo.binary main_v320 main_v321 main_v322 (Host.divf : (⟨S8192x300, .f32⟩ : BufTy).Contents (Elt F) → (⟨S8192x300, .f32⟩ : BufTy).Contents (Elt F) → (⟨S8192x300, .f32⟩ : BufTy).Contents (Elt F)) ]
abbrev tokT_W : List (Ref sig .tc) := [main_cst_63, main_v321, main_v322]
theorem tokT_writes : (tokT : List (HloOp τ sig (Elt F))).Forall fun op => op.writes ⊆ (tokT_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

end Cert.WideDeep.Glue

end
-- ==== Proof.GlueOpsE1.lean ====
/-
  The host stretch's operations 389 … 637, cut into short lists (each a sublist of the program's own list,
  in order), with the buffers each list writes.
-/
import proofs.«151196_j43095701848227_2_alg».proof.Proof.Gen.KernelIdeal.Launch
import proofs.«151196_j43095701848227_2_alg».proof.Proof.KArgs
import proofs.«151196_j43095701848227_2_alg».proof.Proof.GlueLib

set_option maxRecDepth 8192

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable {F : FTy → Type} [FloatOps F]

/-- Operations 389 … 391 of the host stretch. -/
abbrev e1H : List (HloOp τ sig (Elt F)) :=
  [ StableHlo.binary main_arg9 main_arg16 main_v323 ((fun a b => concatenate S1000x65 1 [⟨S1000x64, a⟩, ⟨S1000x1, b⟩] concatenates_S1000x64_S1000x1_S1000x65_d1) : (⟨S1000x64, .f32⟩ : BufTy).Contents (Elt F) → (⟨S1000x1, .f32⟩ : BufTy).Contents (Elt F) → (⟨S1000x65, .f32⟩ : BufTy).Contents (Elt F)),
    StableHlo.nullary main_cst_64 (constant S_ .f32 0x00000000#32),
    StableHlo.unary main_cst_64 main_v324 (broadcastInDim S8192x65 ![] bcast_S_S8192x65 : (⟨S_, .f32⟩ : BufTy).Contents (Elt F) → (⟨S8192x65, .f32⟩ : BufTy).Contents (Elt F)) ]
abbrev e1H_W : List (Ref sig .tc) := [main_v323, main_cst_64, main_v324]
theorem e1H_writes : (e1H : List (HloOp τ sig (Elt F))).Forall fun op => op.writes ⊆ (e1H_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 392 … 403 of the host stretch. -/
abbrev e1S0 : List (HloOp τ sig (Elt F)) :=
  [ StableHlo.unary main_arg1 main_v325 ((extractStridedSlice S8192x1 ![0, 0] · slices_S8192x20_S8192x1_0_0) : (⟨S8192x20, .i32⟩ : BufTy).Contents (Elt F) → (⟨S8192x1, .i32⟩ : BufTy).Contents (Elt F)),
    StableHlo.reshape main_v325 main_v326 rfl shapeCasts_S8192x1_S8192,
    StableHlo.nullary main_c_65 (constantI S_ 32 0#32),
    StableHlo.unary main_c_65 main_v327 (broadcastInDim S8192 ![] bcast_S_S8192 : (⟨S_, .i32⟩ : BufTy).Contents (Elt F) → (⟨S8192, .i32⟩ : BufTy).Contents (Elt F)),
    StableHlo.binary main_v326 main_v327 main_v328 (cmpi .slt : (⟨S8192, .i32⟩ : BufTy).Contents (Elt F) → (⟨S8192, .i32⟩ : BufTy).Contents (Elt F) → (⟨S8192, .i1⟩ : BufTy).Contents (Elt F)),
    StableHlo.nullary main_c_66 (constantI S_ 32 1000#32),
    StableHlo.unary main_c_66 main_v329 (broadcastInDim S8192 ![] bcast_S_S8192 : (⟨S_, .i32⟩ : BufTy).Contents (Elt F) → (⟨S8192, .i32⟩ : BufTy).Contents (Elt F)),
    StableHlo.binary main_v326 main_v329 main_v330 (addi : (⟨S8192, .i32⟩ : BufTy).Contents (Elt F) → (⟨S8192, .i32⟩ : BufTy).Contents (Elt F) → (⟨S8192, .i32⟩ : BufTy).Contents (Elt F)),
    StableHlo.ternary main_v328 main_v330 main_v326 main_v331 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v331 main_v332 (broadcastInDim S8192x1 ![0] bcast_S8192_S8192x1_0 : (⟨S8192, .i32⟩ : BufTy).Contents (Elt F) → (⟨S8192x1, .i32⟩ : BufTy).Contents (Elt F)),
    StableHlo.binary main_v323 main_v332 main_v333 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v324 main_v333 main_v334 (addf : (⟨S8192x65, .f32⟩ : BufTy).Contents (Elt F) → (⟨S8192x65, .f32⟩ : BufTy).Contents (Elt F) → (⟨S8192x65, .f32⟩ : BufTy).Contents (Elt F)) ]
abbrev e1S0_W : List (Ref sig .tc) := [main_v325, main_v326, main_c_65, main_v327, main_v328, main_c_66, main_v329, main_v330, main_v331, main_v332, main_v333, main_v334]
theorem e1S0_writes : (e1S0 : List (HloOp τ sig (Elt F))).Forall fun op => op.writes ⊆ (e1S0_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 404 … 415 of the host stretch. -/
abbrev e1S1 : List (HloOp τ sig (Elt F)) :=
  [ StableHlo.unary main_arg1 main_v335 ((extractStridedSlice S8192x1 ![0, 1] · slices_S8192x20_S8192x1_0_1) : (⟨S8192x20, .i32⟩ : BufTy).Contents (Elt F) → (⟨S8192x1, .i32⟩ : BufTy).Contents (Elt F)),
    StableHlo.reshape main_v335 main_v336 rfl shapeCasts_S8192x1_S8192,
    StableHlo.nullary main_c_67 (constantI S_ 32 0#32),
    StableHlo.unary main_c_67 main_v337 (broadcastInDim S8192 ![] bcast_S_S8192 : (⟨S_, .i32⟩ : BufTy).Contents (Elt F) → (⟨S8192, .i32⟩ : BufTy).Contents (Elt F)),
    StableHlo.binary main_v336 main_v337 main_v338 (cmpi .slt : (⟨S8192, .i32⟩ : BufTy).Contents (Elt F) → (⟨S8192, .i32⟩ : BufTy).Contents (Elt F) → (⟨S8192, .i1⟩ : BufTy).Contents (Elt F)),
    StableHlo.nullary main_c_68 (constantI S_ 32 1000#32),
    StableHlo.unary main_c_68 main_v339 (broadcastInDim S8192 ![] bcast_S_S8192 : (⟨S_, .i32⟩ : BufTy).Contents (Elt F) → (⟨S8192, .i32⟩ : BufTy).Contents (Elt F)),
    StableHlo.binary main_v336 main_v339 main_v340 (addi : (⟨S8192, .i32⟩ : BufTy).Contents (Elt F) → (⟨S8192, .i32⟩ : BufTy).Contents (Elt F) → (⟨S8192, .i32⟩ : BufTy).Contents (Elt F)),
    StableHlo.ternary main_v338 main_v340 main_v336 main_v341 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v341 main_v342 (broadcastInDim S8192x1 ![0] bcast_S8192_S8192x1_0 : (⟨S8192, .i32⟩ : BufTy).Contents (Elt F) → (⟨S8192x1, .i32⟩ : BufTy).Contents (Elt F)),
    StableHlo.binary main_v323 main_v342 main_v343 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v334 main_v343 main_v344 (addf : (⟨S8192x65, .f32⟩ : BufTy).Contents (Elt F) → (⟨S8192x65, .f32⟩ : BufTy).Contents (Elt F) → (⟨S8192x65, .f32⟩ : BufTy).Contents (Elt F)) ]
abbrev e1S1_W : List (Ref sig .tc) := [main_v335, main_v336, main_c_67, main_v337, main_v338, main_c_68, main_v339, main_v340, main_v341, main_v342, main_v343, main_v344]
theorem e1S1_writes : (e1S1 : List (HloOp τ sig (Elt F))).Forall fun op => op.writes ⊆ (e1S1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 416 … 427 of the host stretch. -/
abbrev e1S2 : List (HloOp τ sig (Elt F)) :=
  [ StableHlo.unary main_arg1 main_v345 ((extractStridedSlice S8192x1 ![0, 2] · slices_S8192x20_S8192x1_0_2) : (⟨S8192x20, .i32⟩ : BufTy).Contents (Elt F) → (⟨S8192x1, .i32⟩ : BufTy).Contents (Elt F)),
    StableHlo.reshape main_v345 main_v346 rfl shapeCasts_S8192x1_S8192,
    StableHlo.nullary main_c_69 (constantI S_ 32 0#32),
    StableHlo.unary main_c_69 main_v347 (broadcastInDim S8192 ![] bcast_S_S8192 : (⟨S_, .i32⟩ : BufTy).Contents (Elt F) → (⟨S8192, .i32⟩ : BufTy).Contents (Elt F)),
    StableHlo.binary main_v346 main_v347 main_v348 (cmpi .slt : (⟨S8192, .i32⟩ : BufTy).Contents (Elt F) → (⟨S8192, .i32⟩ : BufTy).Contents (Elt F) → (⟨S8192, .i1⟩ : BufTy).Contents (Elt F)),
    StableHlo.nullary main_c_70 (constantI S_ 32 1000#32),
    StableHlo.unary main_c_70 main_v349 (broadcastInDim S8192 ![] bcast_S_S8192 : (⟨S_, .i32⟩ : BufTy).Contents (Elt F) → (⟨S8192, .i32⟩ : BufTy).Contents (Elt F)),
    StableHlo.binary main_v346 main_v349 main_v350 (addi : (⟨S8192, .i32⟩ : BufTy).Contents (Elt F) → (⟨S8192, .i32⟩ : BufTy).Contents (Elt F) → (⟨S8192, .i32⟩ : BufTy).Contents (Elt F)),
    StableHlo.ternary main_v348 main_v350 main_v346 main_v351 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v351 main_v352 (broadcastInDim S8192x1 ![0] bcast_S8192_S8192x1_0 : (⟨S8192, .i32⟩ : BufTy).Contents (Elt F) → (⟨S8192x1, .i32⟩ : BufTy).Contents (Elt F)),
    StableHlo.binary main_v323 main_v352 main_v353 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v344 main_v353 main_v354 (addf : (⟨S8192x65, .f32⟩ : BufTy).Contents (Elt F) → (⟨S8192x65, .f32⟩ : BufTy).Contents (Elt F) → (⟨S8192x65, .f32⟩ : BufTy).Contents (Elt F)) ]
abbrev e1S2_W : List (Ref sig .tc) := [main_v345, main_v346, main_c_69, main_v347, main_v348, main_c_70, main_v349, main_v350, main_v351, main_v352, main_v353, main_v354]
theorem e1S2_writes : (e1S2 : List (HloOp τ sig (Elt F))).Forall fun op => op.writes ⊆ (e1S2_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 428 … 439 of the host stretch. -/
abbrev e1S3 : List (HloOp τ sig (Elt F)) :=
  [ StableHlo.unary main_arg1 main_v355 ((extractStridedSlice S8192x1 ![0, 3] · slices_S8192x20_S8192x1_0_3) : (⟨S8192x20, .i32⟩ : BufTy).Contents (Elt F) → (⟨S8192x1, .i32⟩ : BufTy).Contents (Elt F)),
    StableHlo.reshape main_v355 main_v356 rfl shapeCasts_S8192x1_S8192,
    StableHlo.nullary main_c_71 (constantI S_ 32 0#32),
    StableHlo.unary main_c_71 main_v357 (broadcastInDim S8192 ![] bcast_S_S8192 : (⟨S_, .i32⟩ : BufTy).Contents (Elt F) → (⟨S8192, .i32⟩ : BufTy).Contents (Elt F)),
    StableHlo.binary main_v356 main_v357 main_v358 (cmpi .slt : (⟨S8192, .i32⟩ : BufTy).Contents (Elt F) → (⟨S8192, .i32⟩ : BufTy).Contents (Elt F) → (⟨S8192, .i1⟩ : BufTy).Contents (Elt F)),
    StableHlo.nullary main_c_72 (constantI S_ 32 1000#32),
    StableHlo.unary main_c_72 main_v359 (broadcastInDim S8192 ![] bcast_S_S8192 : (⟨S_, .i32⟩ : BufTy).Contents (Elt F) → (⟨S8192, .i32⟩ : BufTy).Contents (Elt F)),
    StableHlo.binary main_v356 main_v359 main_v360 (addi : (⟨S8192, .i32⟩ : BufTy).Contents (Elt F) → (⟨S8192, .i32⟩ : BufTy).Contents (Elt F) → (⟨S8192, .i32⟩ : BufTy).Contents (Elt F)),
    StableHlo.ternary main_v358 main_v360 main_v356 main_v361 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v361 main_v362 (broadcastInDim S8192x1 ![0] bcast_S8192_S8192x1_0 : (⟨S8192, .i32⟩ : BufTy).Contents (Elt F) → (⟨S8192x1, .i32⟩ : BufTy).Contents (Elt F)),
    StableHlo.binary main_v323 main_v362 main_v363 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v354 main_v363 main_v364 (addf : (⟨S8192x65, .f32⟩ : BufTy).Contents (Elt F) → (⟨S8192x65, .f32⟩ : BufTy).Contents (Elt F) → (⟨S8192x65, .f32⟩ : BufTy).Contents (Elt F)) ]
abbrev e1S3_W : List (Ref sig .tc) := [main_v355, main_v356, main_c_71, main_v357, main_v358, main_c_72, main_v359, main_v360, main_v361, main_v362, main_v363, main_v364]
theorem e1S3_writes : (e1S3 : List (HloOp τ sig (Elt F))).Forall fun op => op.writes ⊆ (e1S3_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 440 … 451 of the host stretch. -/
abbrev e1S4 : List (HloOp τ sig (Elt F)) :=
  [ StableHlo.unary main_arg1 main_v365 ((extractStridedSlice S8192x1 ![0, 4] · slices_S8192x20_S8192x1_0_4) : (⟨S8192x20, .i32⟩ : BufTy).Contents (Elt F) → (⟨S8192x1, .i32⟩ : BufTy).Contents (Elt F)),
    StableHlo.reshape main_v365 main_v366 rfl shapeCasts_S8192x1_S8192,
    StableHlo.nullary main_c_73 (constantI S_ 32 0#32),
    StableHlo.unary main_c_73 main_v367 (broadcastInDim S8192 ![] bcast_S_S8192 : (⟨S_, .i32⟩ : BufTy).Contents (Elt F) → (⟨S8192, .i32⟩ : BufTy).Contents (Elt F)),
    StableHlo.binary main_v366 main_v367 main_v368 (cmpi .slt : (⟨S8192, .i32⟩ : BufTy).Contents (Elt F) → (⟨S8192, .i32⟩ : BufTy).Contents (Elt F) → (⟨S8192, .i1⟩ : BufTy).Contents (Elt F)),
    StableHlo.nullary main_c_74 (constantI S_ 32 1000#32),
    StableHlo.unary main_c_74 main_v369 (broadcastInDim S8192 ![] bcast_S_S8192 : (⟨S_, .i32⟩ : BufTy).Contents (Elt F) → (⟨S8192, .i32⟩ : BufTy).Contents (Elt F)),
    StableHlo.binary main_v366 main_v369 main_v370 (addi : (⟨S8192, .i32⟩ : BufTy).Contents (Elt F) → (⟨S8192, .i32⟩ : BufTy).Contents (Elt F) → (⟨S8192, .i32⟩ : BufTy).Contents (Elt F)),
    StableHlo.ternary main_v368 main_v370 main_v366 main_v371 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v371 main_v372 (broadcastInDim S8192x1 ![0] bcast_S8192_S8192x1_0 : (⟨S8192, .i32⟩ : BufTy).Contents (Elt F) → (⟨S8192x1, .i32⟩ : BufTy).Contents (Elt F)),
    StableHlo.binary main_v323 main_v372 main_v373 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v364 main_v373 main_v374 (addf : (⟨S8192x65, .f32⟩ : BufTy).Contents (Elt F) → (⟨S8192x65, .f32⟩ : BufTy).Contents (Elt F) → (⟨S8192x65, .f32⟩ : BufTy).Contents (Elt F)) ]
abbrev e1S4_W : List (Ref sig .tc) := [main_v365, main_v366, main_c_73, main_v367, main_v368, main_c_74, main_v369, main_v370, main_v371, main_v372, main_v373, main_v374]
theorem e1S4_writes : (e1S4 : List (HloOp τ sig (Elt F))).Forall fun op => op.writes ⊆ (e1S4_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 452 … 463 of the host stretch. -/
abbrev e1S5 : List (HloOp τ sig (Elt F)) :=
  [ StableHlo.unary main_arg1 main_v375 ((extractStridedSlice S8192x1 ![0, 5] · slices_S8192x20_S8192x1_0_5) : (⟨S8192x20, .i32⟩ : BufTy).Contents (Elt F) → (⟨S8192x1, .i32⟩ : BufTy).Contents (Elt F)),
    StableHlo.reshape main_v375 main_v376 rfl shapeCasts_S8192x1_S8192,
    StableHlo.nullary main_c_75 (constantI S_ 32 0#32),
    StableHlo.unary main_c_75 main_v377 (broadcastInDim S8192 ![] bcast_S_S8192 : (⟨S_, .i32⟩ : BufTy).Contents (Elt F) → (⟨S8192, .i32⟩ : BufTy).Contents (Elt F)),
    StableHlo.binary main_v376 main_v377 main_v378 (cmpi .slt : (⟨S8192, .i32⟩ : BufTy).Contents (Elt F) → (⟨S8192, .i32⟩ : BufTy).Contents (Elt F) → (⟨S8192, .i1⟩ : BufTy).Contents (Elt F)),
    StableHlo.nullary main_c_76 (constantI S_ 32 1000#32),
    StableHlo.unary main_c_76 main_v379 (broadcastInDim S8192 ![] bcast_S_S8192 : (⟨S_, .i32⟩ : BufTy).Contents (Elt F) → (⟨S8192, .i32⟩ : BufTy).Contents (Elt F)),
    StableHlo.binary main_v376 main_v379 main_v380 (addi : (⟨S8192, .i32⟩ : BufTy).Contents (Elt F) → (⟨S8192, .i32⟩ : BufTy).Contents (Elt F) → (⟨S8192, .i32⟩ : BufTy).Contents (Elt F)),
    StableHlo.ternary main_v378 main_v380 main_v376 main_v381 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v381 main_v382 (broadcastInDim S8192x1 ![0] bcast_S8192_S8192x1_0 : (⟨S8192, .i32⟩ : BufTy).Contents (Elt F) → (⟨S8192x1, .i32⟩ : BufTy).Contents (Elt F)),
    StableHlo.binary main_v323 main_v382 main_v383 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v374 main_v383 main_v384 (addf : (⟨S8192x65, .f32⟩ : BufTy).Contents (Elt F) → (⟨S8192x65, .f32⟩ : BufTy).Contents (Elt F) → (⟨S8192x65, .f32⟩ : BufTy).Contents (Elt F)) ]
abbrev e1S5_W : List (Ref sig .tc) := [main_v375, main_v376, main_c_75, main_v377, main_v378, main_c_76, main_v379, main_v380, main_v381, main_v382, main_v383, main_v384]
theorem e1S5_writes : (e1S5 : List (HloOp τ sig (Elt F))).Forall fun op => op.writes ⊆ (e1S5_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 464 … 475 of the host stretch. -/
abbrev e1S6 : List (HloOp τ sig (Elt F)) :=
  [ StableHlo.unary main_arg1 main_v385 ((extractStridedSlice S8192x1 ![0, 6] · slices_S8192x20_S8192x1_0_6) : (⟨S8192x20, .i32⟩ : BufTy).Contents (Elt F) → (⟨S8192x1, .i32⟩ : BufTy).Contents (Elt F)),
    StableHlo.reshape main_v385 main_v386 rfl shapeCasts_S8192x1_S8192,
    StableHlo.nullary main_c_77 (constantI S_ 32 0#32),
    StableHlo.unary main_c_77 main_v387 (broadcastInDim S8192 ![] bcast_S_S8192 : (⟨S_, .i32⟩ : BufTy).Contents (Elt F) → (⟨S8192, .i32⟩ : BufTy).Contents (Elt F)),
    StableHlo.binary main_v386 main_v387 main_v388 (cmpi .slt : (⟨S8192, .i32⟩ : BufTy).Contents (Elt F) → (⟨S8192, .i32⟩ : BufTy).Contents (Elt F) → (⟨S8192, .i1⟩ : BufTy).Contents (Elt F)),
    StableHlo.nullary main_c_78 (constantI S_ 32 1000#32),
    StableHlo.unary main_c_78 main_v389 (broadcastInDim S8192 ![] bcast_S_S8192 : (⟨S_, .i32⟩ : BufTy).Contents (Elt F) → (⟨S8192, .i32⟩ : BufTy).Contents (Elt F)),
    StableHlo.binary main_v386 main_v389 main_v390 (addi : (⟨S8192, .i32⟩ : BufTy).Contents (Elt F) → (⟨S8192, .i32⟩ : BufTy).Contents (Elt F) → (⟨S8192, .i32⟩ : BufTy).Contents (Elt F)),
    StableHlo.ternary main_v388 main_v390 main_v386 main_v391 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v391 main_v392 (broadcastInDim S8192x1 ![0] bcast_S8192_S8192x1_0 : (⟨S8192, .i32⟩ : BufTy).Contents (Elt F) → (⟨S8192x1, .i32⟩ : BufTy).Contents (Elt F)),
    StableHlo.binary main_v323 main_v392 main_v393 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v384 main_v393 main_v394 (addf : (⟨S8192x65, .f32⟩ : BufTy).Contents (Elt F) → (⟨S8192x65, .f32⟩ : BufTy).Contents (Elt F) → (⟨S8192x65, .f32⟩ : BufTy).Contents (Elt F)) ]
abbrev e1S6_W : List (Ref sig .tc) := [main_v385, main_v386, main_c_77, main_v387, main_v388, main_c_78, main_v389, main_v390, main_v391, main_v392, main_v393, main_v394]
theorem e1S6_writes : (e1S6 : List (HloOp τ sig (Elt F))).Forall fun op => op.writes ⊆ (e1S6_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 476 … 487 of the host stretch. -/
abbrev e1S7 : List (HloOp τ sig (Elt F)) :=
  [ StableHlo.unary main_arg1 main_v395 ((extractStridedSlice S8192x1 ![0, 7] · slices_S8192x20_S8192x1_0_7) : (⟨S8192x20, .i32⟩ : BufTy).Contents (Elt F) → (⟨S8192x1, .i32⟩ : BufTy).Contents (Elt F)),
    StableHlo.reshape main_v395 main_v396 rfl shapeCasts_S8192x1_S8192,
    StableHlo.nullary main_c_79 (constantI S_ 32 0#32),
    StableHlo.unary main_c_79 main_v397 (broadcastInDim S8192 ![] bcast_S_S8192 : (⟨S_, .i32⟩ : BufTy).Contents (Elt F) → (⟨S8192, .i32⟩ : BufTy).Contents (Elt F)),
    StableHlo.binary main_v396 main_v397 main_v398 (cmpi .slt : (⟨S8192, .i32⟩ : BufTy).Contents (Elt F) → (⟨S8192, .i32⟩ : BufTy).Contents (Elt F) → (⟨S8192, .i1⟩ : BufTy).Contents (Elt F)),
    StableHlo.nullary main_c_80 (constantI S_ 32 1000#32),
    StableHlo.unary main_c_80 main_v399 (broadcastInDim S8192 ![] bcast_S_S8192 : (⟨S_, .i32⟩ : BufTy).Contents (Elt F) → (⟨S8192, .i32⟩ : BufTy).Contents (Elt F)),
    StableHlo.binary main_v396 main_v399 main_v400 (addi : (⟨S8192, .i32⟩ : BufTy).Contents (Elt F) → (⟨S8192, .i32⟩ : BufTy).Contents (Elt F) → (⟨S8192, .i32⟩ : BufTy).Contents (Elt F)),
    StableHlo.ternary main_v398 main_v400 main_v396 main_v401 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v401 main_v402 (broadcastInDim S8192x1 ![0] bcast_S8192_S8192x1_0 : (⟨S8192, .i32⟩ : BufTy).Contents (Elt F) → (⟨S8192x1, .i32⟩ : BufTy).Contents (Elt F)),
    StableHlo.binary main_v323 main_v402 main_v403 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v394 main_v403 main_v404 (addf : (⟨S8192x65, .f32⟩ : BufTy).Contents (Elt F) → (⟨S8192x65, .f32⟩ : BufTy).Contents (Elt F) → (⟨S8192x65, .f32⟩ : BufTy).Contents (Elt F)) ]
abbrev e1S7_W : List (Ref sig .tc) := [main_v395, main_v396, main_c_79, main_v397, main_v398, main_c_80, main_v399, main_v400, main_v401, main_v402, main_v403, main_v404]
theorem e1S7_writes : (e1S7 : List (HloOp τ sig (Elt F))).Forall fun op => op.writes ⊆ (e1S7_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 488 … 499 of the host stretch. -/
abbrev e1S8 : List (HloOp τ sig (Elt F)) :=
  [ StableHlo.unary main_arg1 main_v405 ((extractStridedSlice S8192x1 ![0, 8] · slices_S8192x20_S8192x1_0_8) : (⟨S8192x20, .i32⟩ : BufTy).Contents (Elt F) → (⟨S8192x1, .i32⟩ : BufTy).Contents (Elt F)),
    StableHlo.reshape main_v405 main_v406 rfl shapeCasts_S8192x1_S8192,
    StableHlo.nullary main_c_81 (constantI S_ 32 0#32),
    StableHlo.unary main_c_81 main_v407 (broadcastInDim S8192 ![] bcast_S_S8192 : (⟨S_, .i32⟩ : BufTy).Contents (Elt F) → (⟨S8192, .i32⟩ : BufTy).Contents (Elt F)),
    StableHlo.binary main_v406 main_v407 main_v408 (cmpi .slt : (⟨S8192, .i32⟩ : BufTy).Contents (Elt F) → (⟨S8192, .i32⟩ : BufTy).Contents (Elt F) → (⟨S8192, .i1⟩ : BufTy).Contents (Elt F)),
    StableHlo.nullary main_c_82 (constantI S_ 32 1000#32),
    StableHlo.unary main_c_82 main_v409 (broadcastInDim S8192 ![] bcast_S_S8192 : (⟨S_, .i32⟩ : BufTy).Contents (Elt F) → (⟨S8192, .i32⟩ : BufTy).Contents (Elt F)),
    StableHlo.binary main_v406 main_v409 main_v410 (addi : (⟨S8192, .i32⟩ : BufTy).Contents (Elt F) → (⟨S8192, .i32⟩ : BufTy).Contents (Elt F) → (⟨S8192, .i32⟩ : BufTy).Contents (Elt F)),
    StableHlo.ternary main_v408 main_v410 main_v406 main_v411 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v411 main_v412 (broadcastInDim S8192x1 ![0] bcast_S8192_S8192x1_0 : (⟨S8192, .i32⟩ : BufTy).Contents (Elt F) → (⟨S8192x1, .i32⟩ : BufTy).Contents (Elt F)),
    StableHlo.binary main_v323 main_v412 main_v413 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v404 main_v413 main_v414 (addf : (⟨S8192x65, .f32⟩ : BufTy).Contents (Elt F) → (⟨S8192x65, .f32⟩ : BufTy).Contents (Elt F) → (⟨S8192x65, .f32⟩ : BufTy).Contents (Elt F)) ]
abbrev e1S8_W : List (Ref sig .tc) := [main_v405, main_v406, main_c_81, main_v407, main_v408, main_c_82, main_v409, main_v410, main_v411, main_v412, main_v413, main_v414]
theorem e1S8_writes : (e1S8 : List (HloOp τ sig (Elt F))).Forall fun op => op.writes ⊆ (e1S8_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 500 … 511 of the host stretch. -/
abbrev e1S9 : List (HloOp τ sig (Elt F)) :=
  [ StableHlo.unary main_arg1 main_v415 ((extractStridedSlice S8192x1 ![0, 9] · slices_S8192x20_S8192x1_0_9) : (⟨S8192x20, .i32⟩ : BufTy).Contents (Elt F) → (⟨S8192x1, .i32⟩ : BufTy).Contents (Elt F)),
    StableHlo.reshape main_v415 main_v416 rfl shapeCasts_S8192x1_S8192,
    StableHlo.nullary main_c_83 (constantI S_ 32 0#32),
    StableHlo.unary main_c_83 main_v417 (broadcastInDim S8192 ![] bcast_S_S8192 : (⟨S_, .i32⟩ : BufTy).Contents (Elt F) → (⟨S8192, .i32⟩ : BufTy).Contents (Elt F)),
    StableHlo.binary main_v416 main_v417 main_v418 (cmpi .slt : (⟨S8192, .i32⟩ : BufTy).Contents (Elt F) → (⟨S8192, .i32⟩ : BufTy).Contents (Elt F) → (⟨S8192, .i1⟩ : BufTy).Contents (Elt F)),
    StableHlo.nullary main_c_84 (constantI S_ 32 1000#32),
    StableHlo.unary main_c_84 main_v419 (broadcastInDim S8192 ![] bcast_S_S8192 : (⟨S_, .i32⟩ : BufTy).Contents (Elt F) → (⟨S8192, .i32⟩ : BufTy).Contents (Elt F)),
    StableHlo.binary main_v416 main_v419 main_v420 (addi : (⟨S8192, .i32⟩ : BufTy).Contents (Elt F) → (⟨S8192, .i32⟩ : BufTy).Contents (Elt F) → (⟨S8192, .i32⟩ : BufTy).Contents (Elt F)),
    StableHlo.ternary main_v418 main_v420 main_v416 main_v421 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v421 main_v422 (broadcastInDim S8192x1 ![0] bcast_S8192_S8192x1_0 : (⟨S8192, .i32⟩ : BufTy).Contents (Elt F) → (⟨S8192x1, .i32⟩ : BufTy).Contents (Elt F)),
    StableHlo.binary main_v323 main_v422 main_v423 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v414 main_v423 main_v424 (addf : (⟨S8192x65, .f32⟩ : BufTy).Contents (Elt F) → (⟨S8192x65, .f32⟩ : BufTy).Contents (Elt F) → (⟨S8192x65, .f32⟩ : BufTy).Contents (Elt F)) ]
abbrev e1S9_W : List (Ref sig .tc) := [main_v415, main_v416, main_c_83, main_v417, main_v418, main_c_84, main_v419, main_v420, main_v421, main_v422, main_v423, main_v424]
theorem e1S9_writes : (e1S9 : List (HloOp τ sig (Elt F))).Forall fun op => op.writes ⊆ (e1S9_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 512 … 523 of the host stretch. -/
abbrev e1S10 : List (HloOp τ sig (Elt F)) :=
  [ StableHlo.unary main_arg1 main_v425 ((extractStridedSlice S8192x1 ![0, 10] · slices_S8192x20_S8192x1_0_10) : (⟨S8192x20, .i32⟩ : BufTy).Contents (Elt F) → (⟨S8192x1, .i32⟩ : BufTy).Contents (Elt F)),
    StableHlo.reshape main_v425 main_v426 rfl shapeCasts_S8192x1_S8192,
    StableHlo.nullary main_c_85 (constantI S_ 32 0#32),
    StableHlo.unary main_c_85 main_v427 (broadcastInDim S8192 ![] bcast_S_S8192 : (⟨S_, .i32⟩ : BufTy).Contents (Elt F) → (⟨S8192, .i32⟩ : BufTy).Contents (Elt F)),
    StableHlo.binary main_v426 main_v427 main_v428 (cmpi .slt : (⟨S8192, .i32⟩ : BufTy).Contents (Elt F) → (⟨S8192, .i32⟩ : BufTy).Contents (Elt F) → (⟨S8192, .i1⟩ : BufTy).Contents (Elt F)),
    StableHlo.nullary main_c_86 (constantI S_ 32 1000#32),
    StableHlo.unary main_c_86 main_v429 (broadcastInDim S8192 ![] bcast_S_S8192 : (⟨S_, .i32⟩ : BufTy).Contents (Elt F) → (⟨S8192, .i32⟩ : BufTy).Contents (Elt F)),
    StableHlo.binary main_v426 main_v429 main_v430 (addi : (⟨S8192, .i32⟩ : BufTy).Contents (Elt F) → (⟨S8192, .i32⟩ : BufTy).Contents (Elt F) → (⟨S8192, .i32⟩ : BufTy).Contents (Elt F)),
    StableHlo.ternary main_v428 main_v430 main_v426 main_v431 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v431 main_v432 (broadcastInDim S8192x1 ![0] bcast_S8192_S8192x1_0 : (⟨S8192, .i32⟩ : BufTy).Contents (Elt F) → (⟨S8192x1, .i32⟩ : BufTy).Contents (Elt F)),
    StableHlo.binary main_v323 main_v432 main_v433 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v424 main_v433 main_v434 (addf : (⟨S8192x65, .f32⟩ : BufTy).Contents (Elt F) → (⟨S8192x65, .f32⟩ : BufTy).Contents (Elt F) → (⟨S8192x65, .f32⟩ : BufTy).Contents (Elt F)) ]
abbrev e1S10_W : List (Ref sig .tc) := [main_v425, main_v426, main_c_85, main_v427, main_v428, main_c_86, main_v429, main_v430, main_v431, main_v432, main_v433, main_v434]
theorem e1S10_writes : (e1S10 : List (HloOp τ sig (Elt F))).Forall fun op => op.writes ⊆ (e1S10_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 524 … 535 of the host stretch. -/
abbrev e1S11 : List (HloOp τ sig (Elt F)) :=
  [ StableHlo.unary main_arg1 main_v435 ((extractStridedSlice S8192x1 ![0, 11] · slices_S8192x20_S8192x1_0_11) : (⟨S8192x20, .i32⟩ : BufTy).Contents (Elt F) → (⟨S8192x1, .i32⟩ : BufTy).Contents (Elt F)),
    StableHlo.reshape main_v435 main_v436 rfl shapeCasts_S8192x1_S8192,
    StableHlo.nullary main_c_87 (constantI S_ 32 0#32),
    StableHlo.unary main_c_87 main_v437 (broadcastInDim S8192 ![] bcast_S_S8192 : (⟨S_, .i32⟩ : BufTy).Contents (Elt F) → (⟨S8192, .i32⟩ : BufTy).Contents (Elt F)),
    StableHlo.binary main_v436 main_v437 main_v438 (cmpi .slt : (⟨S8192, .i32⟩ : BufTy).Contents (Elt F) → (⟨S8192, .i32⟩ : BufTy).Contents (Elt F) → (⟨S8192, .i1⟩ : BufTy).Contents (Elt F)),
    StableHlo.nullary main_c_88 (constantI S_ 32 1000#32),
    StableHlo.unary main_c_88 main_v439 (broadcastInDim S8192 ![] bcast_S_S8192 : (⟨S_, .i32⟩ : BufTy).Contents (Elt F) → (⟨S8192, .i32⟩ : BufTy).Contents (Elt F)),
    StableHlo.binary main_v436 main_v439 main_v440 (addi : (⟨S8192, .i32⟩ : BufTy).Contents (Elt F) → (⟨S8192, .i32⟩ : BufTy).Contents (Elt F) → (⟨S8192, .i32⟩ : BufTy).Contents (Elt F)),
    StableHlo.ternary main_v438 main_v440 main_v436 main_v441 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v441 main_v442 (broadcastInDim S8192x1 ![0] bcast_S8192_S8192x1_0 : (⟨S8192, .i32⟩ : BufTy).Contents (Elt F) → (⟨S8192x1, .i32⟩ : BufTy).Contents (Elt F)),
    StableHlo.binary main_v323 main_v442 main_v443 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v434 main_v443 main_v444 (addf : (⟨S8192x65, .f32⟩ : BufTy).Contents (Elt F) → (⟨S8192x65, .f32⟩ : BufTy).Contents (Elt F) → (⟨S8192x65, .f32⟩ : BufTy).Contents (Elt F)) ]
abbrev e1S11_W : List (Ref sig .tc) := [main_v435, main_v436, main_c_87, main_v437, main_v438, main_c_88, main_v439, main_v440, main_v441, main_v442, main_v443, main_v444]
theorem e1S11_writes : (e1S11 : List (HloOp τ sig (Elt F))).Forall fun op => op.writes ⊆ (e1S11_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 536 … 547 of the host stretch. -/
abbrev e1S12 : List (HloOp τ sig (Elt F)) :=
  [ StableHlo.unary main_arg1 main_v445 ((extractStridedSlice S8192x1 ![0, 12] · slices_S8192x20_S8192x1_0_12) : (⟨S8192x20, .i32⟩ : BufTy).Contents (Elt F) → (⟨S8192x1, .i32⟩ : BufTy).Contents (Elt F)),
    StableHlo.reshape main_v445 main_v446 rfl shapeCasts_S8192x1_S8192,
    StableHlo.nullary main_c_89 (constantI S_ 32 0#32),
    StableHlo.unary main_c_89 main_v447 (broadcastInDim S8192 ![] bcast_S_S8192 : (⟨S_, .i32⟩ : BufTy).Contents (Elt F) → (⟨S8192, .i32⟩ : BufTy).Contents (Elt F)),
    StableHlo.binary main_v446 main_v447 main_v448 (cmpi .slt : (⟨S8192, .i32⟩ : BufTy).Contents (Elt F) → (⟨S8192, .i32⟩ : BufTy).Contents (Elt F) → (⟨S8192, .i1⟩ : BufTy).Contents (Elt F)),
    StableHlo.nullary main_c_90 (constantI S_ 32 1000#32),
    StableHlo.unary main_c_90 main_v449 (broadcastInDim S8192 ![] bcast_S_S8192 : (⟨S_, .i32⟩ : BufTy).Contents (Elt F) → (⟨S8192, .i32⟩ : BufTy).Contents (Elt F)),
    StableHlo.binary main_v446 main_v449 main_v450 (addi : (⟨S8192, .i32⟩ : BufTy).Contents (Elt F) → (⟨S8192, .i32⟩ : BufTy).Contents (Elt F) → (⟨S8192, .i32⟩ : BufTy).Contents (Elt F)),
    StableHlo.ternary main_v448 main_v450 main_v446 main_v451 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v451 main_v452 (broadcastInDim S8192x1 ![0] bcast_S8192_S8192x1_0 : (⟨S8192, .i32⟩ : BufTy).Contents (Elt F) → (⟨S8192x1, .i32⟩ : BufTy).Contents (Elt F)),
    StableHlo.binary main_v323 main_v452 main_v453 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v444 main_v453 main_v454 (addf : (⟨S8192x65, .f32⟩ : BufTy).Contents (Elt F) → (⟨S8192x65, .f32⟩ : BufTy).Contents (Elt F) → (⟨S8192x65, .f32⟩ : BufTy).Contents (Elt F)) ]
abbrev e1S12_W : List (Ref sig .tc) := [main_v445, main_v446, main_c_89, main_v447, main_v448, main_c_90, main_v449, main_v450, main_v451, main_v452, main_v453, main_v454]
theorem e1S12_writes : (e1S12 : List (HloOp τ sig (Elt F))).Forall fun op => op.writes ⊆ (e1S12_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 548 … 559 of the host stretch. -/
abbrev e1S13 : List (HloOp τ sig (Elt F)) :=
  [ StableHlo.unary main_arg1 main_v455 ((extractStridedSlice S8192x1 ![0, 13] · slices_S8192x20_S8192x1_0_13) : (⟨S8192x20, .i32⟩ : BufTy).Contents (Elt F) → (⟨S8192x1, .i32⟩ : BufTy).Contents (Elt F)),
    StableHlo.reshape main_v455 main_v456 rfl shapeCasts_S8192x1_S8192,
    StableHlo.nullary main_c_91 (constantI S_ 32 0#32),
    StableHlo.unary main_c_91 main_v457 (broadcastInDim S8192 ![] bcast_S_S8192 : (⟨S_, .i32⟩ : BufTy).Contents (Elt F) → (⟨S8192, .i32⟩ : BufTy).Contents (Elt F)),
    StableHlo.binary main_v456 main_v457 main_v458 (cmpi .slt : (⟨S8192, .i32⟩ : BufTy).Contents (Elt F) → (⟨S8192, .i32⟩ : BufTy).Contents (Elt F) → (⟨S8192, .i1⟩ : BufTy).Contents (Elt F)),
    StableHlo.nullary main_c_92 (constantI S_ 32 1000#32),
    StableHlo.unary main_c_92 main_v459 (broadcastInDim S8192 ![] bcast_S_S8192 : (⟨S_, .i32⟩ : BufTy).Contents (Elt F) → (⟨S8192, .i32⟩ : BufTy).Contents (Elt F)),
    StableHlo.binary main_v456 main_v459 main_v460 (addi : (⟨S8192, .i32⟩ : BufTy).Contents (Elt F) → (⟨S8192, .i32⟩ : BufTy).Contents (Elt F) → (⟨S8192, .i32⟩ : BufTy).Contents (Elt F)),
    StableHlo.ternary main_v458 main_v460 main_v456 main_v461 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v461 main_v462 (broadcastInDim S8192x1 ![0] bcast_S8192_S8192x1_0 : (⟨S8192, .i32⟩ : BufTy).Contents (Elt F) → (⟨S8192x1, .i32⟩ : BufTy).Contents (Elt F)),
    StableHlo.binary main_v323 main_v462 main_v463 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v454 main_v463 main_v464 (addf : (⟨S8192x65, .f32⟩ : BufTy).Contents (Elt F) → (⟨S8192x65, .f32⟩ : BufTy).Contents (Elt F) → (⟨S8192x65, .f32⟩ : BufTy).Contents (Elt F)) ]
abbrev e1S13_W : List (Ref sig .tc) := [main_v455, main_v456, main_c_91, main_v457, main_v458, main_c_92, main_v459, main_v460, main_v461, main_v462, main_v463, main_v464]
theorem e1S13_writes : (e1S13 : List (HloOp τ sig (Elt F))).Forall fun op => op.writes ⊆ (e1S13_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 560 … 571 of the host stretch. -/
abbrev e1S14 : List (HloOp τ sig (Elt F)) :=
  [ StableHlo.unary main_arg1 main_v465 ((extractStridedSlice S8192x1 ![0, 14] · slices_S8192x20_S8192x1_0_14) : (⟨S8192x20, .i32⟩ : BufTy).Contents (Elt F) → (⟨S8192x1, .i32⟩ : BufTy).Contents (Elt F)),
    StableHlo.reshape main_v465 main_v466 rfl shapeCasts_S8192x1_S8192,
    StableHlo.nullary main_c_93 (constantI S_ 32 0#32),
    StableHlo.unary main_c_93 main_v467 (broadcastInDim S8192 ![] bcast_S_S8192 : (⟨S_, .i32⟩ : BufTy).Contents (Elt F) → (⟨S8192, .i32⟩ : BufTy).Contents (Elt F)),
    StableHlo.binary main_v466 main_v467 main_v468 (cmpi .slt : (⟨S8192, .i32⟩ : BufTy).Contents (Elt F) → (⟨S8192, .i32⟩ : BufTy).Contents (Elt F) → (⟨S8192, .i1⟩ : BufTy).Contents (Elt F)),
    StableHlo.nullary main_c_94 (constantI S_ 32 1000#32),
    StableHlo.unary main_c_94 main_v469 (broadcastInDim S8192 ![] bcast_S_S8192 : (⟨S_, .i32⟩ : BufTy).Contents (Elt F) → (⟨S8192, .i32⟩ : BufTy).Contents (Elt F)),
    StableHlo.binary main_v466 main_v469 main_v470 (addi : (⟨S8192, .i32⟩ : BufTy).Contents (Elt F) → (⟨S8192, .i32⟩ : BufTy).Contents (Elt F) → (⟨S8192, .i32⟩ : BufTy).Contents (Elt F)),
    StableHlo.ternary main_v468 main_v470 main_v466 main_v471 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v471 main_v472 (broadcastInDim S8192x1 ![0] bcast_S8192_S8192x1_0 : (⟨S8192, .i32⟩ : BufTy).Contents (Elt F) → (⟨S8192x1, .i32⟩ : BufTy).Contents (Elt F)),
    StableHlo.binary main_v323 main_v472 main_v473 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v464 main_v473 main_v474 (addf : (⟨S8192x65, .f32⟩ : BufTy).Contents (Elt F) → (⟨S8192x65, .f32⟩ : BufTy).Contents (Elt F) → (⟨S8192x65, .f32⟩ : BufTy).Contents (Elt F)) ]
abbrev e1S14_W : List (Ref sig .tc) := [main_v465, main_v466, main_c_93, main_v467, main_v468, main_c_94, main_v469, main_v470, main_v471, main_v472, main_v473, main_v474]
theorem e1S14_writes : (e1S14 : List (HloOp τ sig (Elt F))).Forall fun op => op.writes ⊆ (e1S14_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 572 … 583 of the host stretch. -/
abbrev e1S15 : List (HloOp τ sig (Elt F)) :=
  [ StableHlo.unary main_arg1 main_v475 ((extractStridedSlice S8192x1 ![0, 15] · slices_S8192x20_S8192x1_0_15) : (⟨S8192x20, .i32⟩ : BufTy).Contents (Elt F) → (⟨S8192x1, .i32⟩ : BufTy).Contents (Elt F)),
    StableHlo.reshape main_v475 main_v476 rfl shapeCasts_S8192x1_S8192,
    StableHlo.nullary main_c_95 (constantI S_ 32 0#32),
    StableHlo.unary main_c_95 main_v477 (broadcastInDim S8192 ![] bcast_S_S8192 : (⟨S_, .i32⟩ : BufTy).Contents (Elt F) → (⟨S8192, .i32⟩ : BufTy).Contents (Elt F)),
    StableHlo.binary main_v476 main_v477 main_v478 (cmpi .slt : (⟨S8192, .i32⟩ : BufTy).Contents (Elt F) → (⟨S8192, .i32⟩ : BufTy).Contents (Elt F) → (⟨S8192, .i1⟩ : BufTy).Contents (Elt F)),
    StableHlo.nullary main_c_96 (constantI S_ 32 1000#32),
    StableHlo.unary main_c_96 main_v479 (broadcastInDim S8192 ![] bcast_S_S8192 : (⟨S_, .i32⟩ : BufTy).Contents (Elt F) → (⟨S8192, .i32⟩ : BufTy).Contents (Elt F)),
    StableHlo.binary main_v476 main_v479 main_v480 (addi : (⟨S8192, .i32⟩ : BufTy).Contents (Elt F) → (⟨S8192, .i32⟩ : BufTy).Contents (Elt F) → (⟨S8192, .i32⟩ : BufTy).Contents (Elt F)),
    StableHlo.ternary main_v478 main_v480 main_v476 main_v481 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v481 main_v482 (broadcastInDim S8192x1 ![0] bcast_S8192_S8192x1_0 : (⟨S8192, .i32⟩ : BufTy).Contents (Elt F) → (⟨S8192x1, .i32⟩ : BufTy).Contents (Elt F)),
    StableHlo.binary main_v323 main_v482 main_v483 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v474 main_v483 main_v484 (addf : (⟨S8192x65, .f32⟩ : BufTy).Contents (Elt F) → (⟨S8192x65, .f32⟩ : BufTy).Contents (Elt F) → (⟨S8192x65, .f32⟩ : BufTy).Contents (Elt F)) ]
abbrev e1S15_W : List (Ref sig .tc) := [main_v475, main_v476, main_c_95, main_v477, main_v478, main_c_96, main_v479, main_v480, main_v481, main_v482, main_v483, main_v484]
theorem e1S15_writes : (e1S15 : List (HloOp τ sig (Elt F))).Forall fun op => op.writes ⊆ (e1S15_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 584 … 595 of the host stretch. -/
abbrev e1S16 : List (HloOp τ sig (Elt F)) :=
  [ StableHlo.unary main_arg1 main_v485 ((extractStridedSlice S8192x1 ![0, 16] · slices_S8192x20_S8192x1_0_16) : (⟨S8192x20, .i32⟩ : BufTy).Contents (Elt F) → (⟨S8192x1, .i32⟩ : BufTy).Contents (Elt F)),
    StableHlo.reshape main_v485 main_v486 rfl shapeCasts_S8192x1_S8192,
    StableHlo.nullary main_c_97 (constantI S_ 32 0#32),
    StableHlo.unary main_c_97 main_v487 (broadcastInDim S8192 ![] bcast_S_S8192 : (⟨S_, .i32⟩ : BufTy).Contents (Elt F) → (⟨S8192, .i32⟩ : BufTy).Contents (Elt F)),
    StableHlo.binary main_v486 main_v487 main_v488 (cmpi .slt : (⟨S8192, .i32⟩ : BufTy).Contents (Elt F) → (⟨S8192, .i32⟩ : BufTy).Contents (Elt F) → (⟨S8192, .i1⟩ : BufTy).Contents (Elt F)),
    StableHlo.nullary main_c_98 (constantI S_ 32 1000#32),
    StableHlo.unary main_c_98 main_v489 (broadcastInDim S8192 ![] bcast_S_S8192 : (⟨S_, .i32⟩ : BufTy).Contents (Elt F) → (⟨S8192, .i32⟩ : BufTy).Contents (Elt F)),
    StableHlo.binary main_v486 main_v489 main_v490 (addi : (⟨S8192, .i32⟩ : BufTy).Contents (Elt F) → (⟨S8192, .i32⟩ : BufTy).Contents (Elt F) → (⟨S8192, .i32⟩ : BufTy).Contents (Elt F)),
    StableHlo.ternary main_v488 main_v490 main_v486 main_v491 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v491 main_v492 (broadcastInDim S8192x1 ![0] bcast_S8192_S8192x1_0 : (⟨S8192, .i32⟩ : BufTy).Contents (Elt F) → (⟨S8192x1, .i32⟩ : BufTy).Contents (Elt F)),
    StableHlo.binary main_v323 main_v492 main_v493 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v484 main_v493 main_v494 (addf : (⟨S8192x65, .f32⟩ : BufTy).Contents (Elt F) → (⟨S8192x65, .f32⟩ : BufTy).Contents (Elt F) → (⟨S8192x65, .f32⟩ : BufTy).Contents (Elt F)) ]
abbrev e1S16_W : List (Ref sig .tc) := [main_v485, main_v486, main_c_97, main_v487, main_v488, main_c_98, main_v489, main_v490, main_v491, main_v492, main_v493, main_v494]
theorem e1S16_writes : (e1S16 : List (HloOp τ sig (Elt F))).Forall fun op => op.writes ⊆ (e1S16_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 596 … 607 of the host stretch. -/
abbrev e1S17 : List (HloOp τ sig (Elt F)) :=
  [ StableHlo.unary main_arg1 main_v495 ((extractStridedSlice S8192x1 ![0, 17] · slices_S8192x20_S8192x1_0_17) : (⟨S8192x20, .i32⟩ : BufTy).Contents (Elt F) → (⟨S8192x1, .i32⟩ : BufTy).Contents (Elt F)),
    StableHlo.reshape main_v495 main_v496 rfl shapeCasts_S8192x1_S8192,
    StableHlo.nullary main_c_99 (constantI S_ 32 0#32),
    StableHlo.unary main_c_99 main_v497 (broadcastInDim S8192 ![] bcast_S_S8192 : (⟨S_, .i32⟩ : BufTy).Contents (Elt F) → (⟨S8192, .i32⟩ : BufTy).Contents (Elt F)),
    StableHlo.binary main_v496 main_v497 main_v498 (cmpi .slt : (⟨S8192, .i32⟩ : BufTy).Contents (Elt F) → (⟨S8192, .i32⟩ : BufTy).Contents (Elt F) → (⟨S8192, .i1⟩ : BufTy).Contents (Elt F)),
    StableHlo.nullary main_c_100 (constantI S_ 32 1000#32),
    StableHlo.unary main_c_100 main_v499 (broadcastInDim S8192 ![] bcast_S_S8192 : (⟨S_, .i32⟩ : BufTy).Contents (Elt F) → (⟨S8192, .i32⟩ : BufTy).Contents (Elt F)),
    StableHlo.binary main_v496 main_v499 main_v500 (addi : (⟨S8192, .i32⟩ : BufTy).Contents (Elt F) → (⟨S8192, .i32⟩ : BufTy).Contents (Elt F) → (⟨S8192, .i32⟩ : BufTy).Contents (Elt F)),
    StableHlo.ternary main_v498 main_v500 main_v496 main_v501 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v501 main_v502 (broadcastInDim S8192x1 ![0] bcast_S8192_S8192x1_0 : (⟨S8192, .i32⟩ : BufTy).Contents (Elt F) → (⟨S8192x1, .i32⟩ : BufTy).Contents (Elt F)),
    StableHlo.binary main_v323 main_v502 main_v503 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v494 main_v503 main_v504 (addf : (⟨S8192x65, .f32⟩ : BufTy).Contents (Elt F) → (⟨S8192x65, .f32⟩ : BufTy).Contents (Elt F) → (⟨S8192x65, .f32⟩ : BufTy).Contents (Elt F)) ]
abbrev e1S17_W : List (Ref sig .tc) := [main_v495, main_v496, main_c_99, main_v497, main_v498, main_c_100, main_v499, main_v500, main_v501, main_v502, main_v503, main_v504]
theorem e1S17_writes : (e1S17 : List (HloOp τ sig (Elt F))).Forall fun op => op.writes ⊆ (e1S17_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 608 … 619 of the host stretch. -/
abbrev e1S18 : List (HloOp τ sig (Elt F)) :=
  [ StableHlo.unary main_arg1 main_v505 ((extractStridedSlice S8192x1 ![0, 18] · slices_S8192x20_S8192x1_0_18) : (⟨S8192x20, .i32⟩ : BufTy).Contents (Elt F) → (⟨S8192x1, .i32⟩ : BufTy).Contents (Elt F)),
    StableHlo.reshape main_v505 main_v506 rfl shapeCasts_S8192x1_S8192,
    StableHlo.nullary main_c_101 (constantI S_ 32 0#32),
    StableHlo.unary main_c_101 main_v507 (broadcastInDim S8192 ![] bcast_S_S8192 : (⟨S_, .i32⟩ : BufTy).Contents (Elt F) → (⟨S8192, .i32⟩ : BufTy).Contents (Elt F)),
    StableHlo.binary main_v506 main_v507 main_v508 (cmpi .slt : (⟨S8192, .i32⟩ : BufTy).Contents (Elt F) → (⟨S8192, .i32⟩ : BufTy).Contents (Elt F) → (⟨S8192, .i1⟩ : BufTy).Contents (Elt F)),
    StableHlo.nullary main_c_102 (constantI S_ 32 1000#32),
    StableHlo.unary main_c_102 main_v509 (broadcastInDim S8192 ![] bcast_S_S8192 : (⟨S_, .i32⟩ : BufTy).Contents (Elt F) → (⟨S8192, .i32⟩ : BufTy).Contents (Elt F)),
    StableHlo.binary main_v506 main_v509 main_v510 (addi : (⟨S8192, .i32⟩ : BufTy).Contents (Elt F) → (⟨S8192, .i32⟩ : BufTy).Contents (Elt F) → (⟨S8192, .i32⟩ : BufTy).Contents (Elt F)),
    StableHlo.ternary main_v508 main_v510 main_v506 main_v511 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v511 main_v512 (broadcastInDim S8192x1 ![0] bcast_S8192_S8192x1_0 : (⟨S8192, .i32⟩ : BufTy).Contents (Elt F) → (⟨S8192x1, .i32⟩ : BufTy).Contents (Elt F)),
    StableHlo.binary main_v323 main_v512 main_v513 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v504 main_v513 main_v514 (addf : (⟨S8192x65, .f32⟩ : BufTy).Contents (Elt F) → (⟨S8192x65, .f32⟩ : BufTy).Contents (Elt F) → (⟨S8192x65, .f32⟩ : BufTy).Contents (Elt F)) ]
abbrev e1S18_W : List (Ref sig .tc) := [main_v505, main_v506, main_c_101, main_v507, main_v508, main_c_102, main_v509, main_v510, main_v511, main_v512, main_v513, main_v514]
theorem e1S18_writes : (e1S18 : List (HloOp τ sig (Elt F))).Forall fun op => op.writes ⊆ (e1S18_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 620 … 631 of the host stretch. -/
abbrev e1S19 : List (HloOp τ sig (Elt F)) :=
  [ StableHlo.unary main_arg1 main_v515 ((extractStridedSlice S8192x1 ![0, 19] · slices_S8192x20_S8192x1_0_19) : (⟨S8192x20, .i32⟩ : BufTy).Contents (Elt F) → (⟨S8192x1, .i32⟩ : BufTy).Contents (Elt F)),
    StableHlo.reshape main_v515 main_v516 rfl shapeCasts_S8192x1_S8192,
    StableHlo.nullary main_c_103 (constantI S_ 32 0#32),
    StableHlo.unary main_c_103 main_v517 (broadcastInDim S8192 ![] bcast_S_S8192 : (⟨S_, .i32⟩ : BufTy).Contents (Elt F) → (⟨S8192, .i32⟩ : BufTy).Contents (Elt F)),
    StableHlo.binary main_v516 main_v517 main_v518 (cmpi .slt : (⟨S8192, .i32⟩ : BufTy).Contents (Elt F) → (⟨S8192, .i32⟩ : BufTy).Contents (Elt F) → (⟨S8192, .i1⟩ : BufTy).Contents (Elt F)),
    StableHlo.nullary main_c_104 (constantI S_ 32 1000#32),
    StableHlo.unary main_c_104 main_v519 (broadcastInDim S8192 ![] bcast_S_S8192 : (⟨S_, .i32⟩ : BufTy).Contents (Elt F) → (⟨S8192, .i32⟩ : BufTy).Contents (Elt F)),
    StableHlo.binary main_v516 main_v519 main_v520 (addi : (⟨S8192, .i32⟩ : BufTy).Contents (Elt F) → (⟨S8192, .i32⟩ : BufTy).Contents (Elt F) → (⟨S8192, .i32⟩ : BufTy).Contents (Elt F)),
    StableHlo.ternary main_v518 main_v520 main_v516 main_v521 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v521 main_v522 (broadcastInDim S8192x1 ![0] bcast_S8192_S8192x1_0 : (⟨S8192, .i32⟩ : BufTy).Contents (Elt F) → (⟨S8192x1, .i32⟩ : BufTy).Contents (Elt F)),
    StableHlo.binary main_v323 main_v522 main_v523 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.binary main_v514 main_v523 main_v524 (addf : (⟨S8192x65, .f32⟩ : BufTy).Contents (Elt F) → (⟨S8192x65, .f32⟩ : BufTy).Contents (Elt F) → (⟨S8192x65, .f32⟩ : BufTy).Contents (Elt F)) ]
abbrev e1S19_W : List (Ref sig .tc) := [main_v515, main_v516, main_c_103, main_v517, main_v518, main_c_104, main_v519, main_v520, main_v521, main_v522, main_v523, main_v524]
theorem e1S19_writes : (e1S19 : List (HloOp τ sig (Elt F))).Forall fun op => op.writes ⊆ (e1S19_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 632 … 637 of the host stretch. -/
abbrev e1T : List (HloOp τ sig (Elt F)) :=
  [ StableHlo.unary main_v524 main_v525 ((extractStridedSlice S8192x64 ![0, 0] · slices_S8192x65_S8192x64_0_0) : (⟨S8192x65, .f32⟩ : BufTy).Contents (Elt F) → (⟨S8192x64, .f32⟩ : BufTy).Contents (Elt F)),
    StableHlo.nullary main_cst_105 (constant S_ .f32 0x41A00000#32),
    StableHlo.unary main_cst_105 main_v526 (broadcastInDim S8192x64 ![] bcast_S_S8192x64 : (⟨S_, .f32⟩ : BufTy).Contents (Elt F) → (⟨S8192x64, .f32⟩ : BufTy).Contents (Elt F)),
    StableHlo.binary main_v525 main_v526 main_v527 (Host.divf : (⟨S8192x64, .f32⟩ : BufTy).Contents (Elt F) → (⟨S8192x64, .f32⟩ : BufTy).Contents (Elt F) → (⟨S8192x64, .f32⟩ : BufTy).Contents (Elt F)),
    StableHlo.unary main_v524 main_v528 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v528 main_v529 rfl shapeCasts_S8192x1_S8192 ]
abbrev e1T_W : List (Ref sig .tc) := [main_v525, main_cst_105, main_v526, main_v527, main_v528, main_v529]
theorem e1T_writes : (e1T : List (HloOp τ sig (Elt F))).Forall fun op => op.writes ⊆ (e1T_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

end Cert.WideDeep.Glue

end
-- ==== Proof.GlueOpsE2.lean ====
/-
  The host stretch's operations 638 … 886, cut into short lists (each a sublist of the program's own list,
  in order), with the buffers each list writes.
-/
import proofs.«151196_j43095701848227_2_alg».proof.Proof.Gen.KernelIdeal.Launch
import proofs.«151196_j43095701848227_2_alg».proof.Proof.KArgs
import proofs.«151196_j43095701848227_2_alg».proof.Proof.GlueLib

set_option maxRecDepth 8192

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable {F : FTy → Type} [FloatOps F]

/-- Operations 638 … 640 of the host stretch. -/
abbrev e2H : List (HloOp τ sig (Elt F)) :=
  [ StableHlo.binary main_arg10 main_arg17 main_v530 ((fun a b => concatenate S5000x65 1 [⟨S5000x64, a⟩, ⟨S5000x1, b⟩] concatenates_S5000x64_S5000x1_S5000x65_d1) : (⟨S5000x64, .f32⟩ : BufTy).Contents (Elt F) → (⟨S5000x1, .f32⟩ : BufTy).Contents (Elt F) → (⟨S5000x65, .f32⟩ : BufTy).Contents (Elt F)),
    StableHlo.nullary main_cst_106 (constant S_ .f32 0x00000000#32),
    StableHlo.unary main_cst_106 main_v531 (broadcastInDim S8192x65 ![] bcast_S_S8192x65 : (⟨S_, .f32⟩ : BufTy).Contents (Elt F) → (⟨S8192x65, .f32⟩ : BufTy).Contents (Elt F)) ]
abbrev e2H_W : List (Ref sig .tc) := [main_v530, main_cst_106, main_v531]
theorem e2H_writes : (e2H : List (HloOp τ sig (Elt F))).Forall fun op => op.writes ⊆ (e2H_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 641 … 652 of the host stretch. -/
abbrev e2S0 : List (HloOp τ sig (Elt F)) :=
  [ StableHlo.unary main_arg2 main_v532 ((extractStridedSlice S8192x1 ![0, 0] · slices_S8192x20_S8192x1_0_0) : (⟨S8192x20, .i32⟩ : BufTy).Contents (Elt F) → (⟨S8192x1, .i32⟩ : BufTy).Contents (Elt F)),
    StableHlo.reshape main_v532 main_v533 rfl shapeCasts_S8192x1_S8192,
    StableHlo.nullary main_c_107 (constantI S_ 32 0#32),
    StableHlo.unary main_c_107 main_v534 (broadcastInDim S8192 ![] bcast_S_S8192 : (⟨S_, .i32⟩ : BufTy).Contents (Elt F) → (⟨S8192, .i32⟩ : BufTy).Contents (Elt F)),
    StableHlo.binary main_v533 main_v534 main_v535 (cmpi .slt : (⟨S8192, .i32⟩ : BufTy).Contents (Elt F) → (⟨S8192, .i32⟩ : BufTy).Contents (Elt F) → (⟨S8192, .i1⟩ : BufTy).Contents (Elt F)),
    StableHlo.nullary main_c_108 (constantI S_ 32 5000#32),
    StableHlo.unary main_c_108 main_v536 (broadcastInDim S8192 ![] bcast_S_S8192 : (⟨S_, .i32⟩ : BufTy).Contents (Elt F) → (⟨S8192, .i32⟩ : BufTy).Contents (Elt F)),
    StableHlo.binary main_v533 main_v536 main_v537 (addi : (⟨S8192, .i32⟩ : BufTy).Contents (Elt F) → (⟨S8192, .i32⟩ : BufTy).Contents (Elt F) → (⟨S8192, .i32⟩ : BufTy).Contents (Elt F)),
    StableHlo.ternary main_v535 main_v537 main_v533 main_v538 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v538 main_v539 (broadcastInDim S8192x1 ![0] bcast_S8192_S8192x1_0 : (⟨S8192, .i32⟩ : BufTy).Contents (Elt F) → (⟨S8192x1, .i32⟩ : BufTy).Contents (Elt F)),
    StableHlo.binary main_v530 main_v539 main_v540 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v531 main_v540 main_v541 (addf : (⟨S8192x65, .f32⟩ : BufTy).Contents (Elt F) → (⟨S8192x65, .f32⟩ : BufTy).Contents (Elt F) → (⟨S8192x65, .f32⟩ : BufTy).Contents (Elt F)) ]
abbrev e2S0_W : List (Ref sig .tc) := [main_v532, main_v533, main_c_107, main_v534, main_v535, main_c_108, main_v536, main_v537, main_v538, main_v539, main_v540, main_v541]
theorem e2S0_writes : (e2S0 : List (HloOp τ sig (Elt F))).Forall fun op => op.writes ⊆ (e2S0_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 653 … 664 of the host stretch. -/
abbrev e2S1 : List (HloOp τ sig (Elt F)) :=
  [ StableHlo.unary main_arg2 main_v542 ((extractStridedSlice S8192x1 ![0, 1] · slices_S8192x20_S8192x1_0_1) : (⟨S8192x20, .i32⟩ : BufTy).Contents (Elt F) → (⟨S8192x1, .i32⟩ : BufTy).Contents (Elt F)),
    StableHlo.reshape main_v542 main_v543 rfl shapeCasts_S8192x1_S8192,
    StableHlo.nullary main_c_109 (constantI S_ 32 0#32),
    StableHlo.unary main_c_109 main_v544 (broadcastInDim S8192 ![] bcast_S_S8192 : (⟨S_, .i32⟩ : BufTy).Contents (Elt F) → (⟨S8192, .i32⟩ : BufTy).Contents (Elt F)),
    StableHlo.binary main_v543 main_v544 main_v545 (cmpi .slt : (⟨S8192, .i32⟩ : BufTy).Contents (Elt F) → (⟨S8192, .i32⟩ : BufTy).Contents (Elt F) → (⟨S8192, .i1⟩ : BufTy).Contents (Elt F)),
    StableHlo.nullary main_c_110 (constantI S_ 32 5000#32),
    StableHlo.unary main_c_110 main_v546 (broadcastInDim S8192 ![] bcast_S_S8192 : (⟨S_, .i32⟩ : BufTy).Contents (Elt F) → (⟨S8192, .i32⟩ : BufTy).Contents (Elt F)),
    StableHlo.binary main_v543 main_v546 main_v547 (addi : (⟨S8192, .i32⟩ : BufTy).Contents (Elt F) → (⟨S8192, .i32⟩ : BufTy).Contents (Elt F) → (⟨S8192, .i32⟩ : BufTy).Contents (Elt F)),
    StableHlo.ternary main_v545 main_v547 main_v543 main_v548 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v548 main_v549 (broadcastInDim S8192x1 ![0] bcast_S8192_S8192x1_0 : (⟨S8192, .i32⟩ : BufTy).Contents (Elt F) → (⟨S8192x1, .i32⟩ : BufTy).Contents (Elt F)),
    StableHlo.binary main_v530 main_v549 main_v550 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v541 main_v550 main_v551 (addf : (⟨S8192x65, .f32⟩ : BufTy).Contents (Elt F) → (⟨S8192x65, .f32⟩ : BufTy).Contents (Elt F) → (⟨S8192x65, .f32⟩ : BufTy).Contents (Elt F)) ]
abbrev e2S1_W : List (Ref sig .tc) := [main_v542, main_v543, main_c_109, main_v544, main_v545, main_c_110, main_v546, main_v547, main_v548, main_v549, main_v550, main_v551]
theorem e2S1_writes : (e2S1 : List (HloOp τ sig (Elt F))).Forall fun op => op.writes ⊆ (e2S1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 665 … 676 of the host stretch. -/
abbrev e2S2 : List (HloOp τ sig (Elt F)) :=
  [ StableHlo.unary main_arg2 main_v552 ((extractStridedSlice S8192x1 ![0, 2] · slices_S8192x20_S8192x1_0_2) : (⟨S8192x20, .i32⟩ : BufTy).Contents (Elt F) → (⟨S8192x1, .i32⟩ : BufTy).Contents (Elt F)),
    StableHlo.reshape main_v552 main_v553 rfl shapeCasts_S8192x1_S8192,
    StableHlo.nullary main_c_111 (constantI S_ 32 0#32),
    StableHlo.unary main_c_111 main_v554 (broadcastInDim S8192 ![] bcast_S_S8192 : (⟨S_, .i32⟩ : BufTy).Contents (Elt F) → (⟨S8192, .i32⟩ : BufTy).Contents (Elt F)),
    StableHlo.binary main_v553 main_v554 main_v555 (cmpi .slt : (⟨S8192, .i32⟩ : BufTy).Contents (Elt F) → (⟨S8192, .i32⟩ : BufTy).Contents (Elt F) → (⟨S8192, .i1⟩ : BufTy).Contents (Elt F)),
    StableHlo.nullary main_c_112 (constantI S_ 32 5000#32),
    StableHlo.unary main_c_112 main_v556 (broadcastInDim S8192 ![] bcast_S_S8192 : (⟨S_, .i32⟩ : BufTy).Contents (Elt F) → (⟨S8192, .i32⟩ : BufTy).Contents (Elt F)),
    StableHlo.binary main_v553 main_v556 main_v557 (addi : (⟨S8192, .i32⟩ : BufTy).Contents (Elt F) → (⟨S8192, .i32⟩ : BufTy).Contents (Elt F) → (⟨S8192, .i32⟩ : BufTy).Contents (Elt F)),
    StableHlo.ternary main_v555 main_v557 main_v553 main_v558 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v558 main_v559 (broadcastInDim S8192x1 ![0] bcast_S8192_S8192x1_0 : (⟨S8192, .i32⟩ : BufTy).Contents (Elt F) → (⟨S8192x1, .i32⟩ : BufTy).Contents (Elt F)),
    StableHlo.binary main_v530 main_v559 main_v560 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v551 main_v560 main_v561 (addf : (⟨S8192x65, .f32⟩ : BufTy).Contents (Elt F) → (⟨S8192x65, .f32⟩ : BufTy).Contents (Elt F) → (⟨S8192x65, .f32⟩ : BufTy).Contents (Elt F)) ]
abbrev e2S2_W : List (Ref sig .tc) := [main_v552, main_v553, main_c_111, main_v554, main_v555, main_c_112, main_v556, main_v557, main_v558, main_v559, main_v560, main_v561]
theorem e2S2_writes : (e2S2 : List (HloOp τ sig (Elt F))).Forall fun op => op.writes ⊆ (e2S2_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 677 … 688 of the host stretch. -/
abbrev e2S3 : List (HloOp τ sig (Elt F)) :=
  [ StableHlo.unary main_arg2 main_v562 ((extractStridedSlice S8192x1 ![0, 3] · slices_S8192x20_S8192x1_0_3) : (⟨S8192x20, .i32⟩ : BufTy).Contents (Elt F) → (⟨S8192x1, .i32⟩ : BufTy).Contents (Elt F)),
    StableHlo.reshape main_v562 main_v563 rfl shapeCasts_S8192x1_S8192,
    StableHlo.nullary main_c_113 (constantI S_ 32 0#32),
    StableHlo.unary main_c_113 main_v564 (broadcastInDim S8192 ![] bcast_S_S8192 : (⟨S_, .i32⟩ : BufTy).Contents (Elt F) → (⟨S8192, .i32⟩ : BufTy).Contents (Elt F)),
    StableHlo.binary main_v563 main_v564 main_v565 (cmpi .slt : (⟨S8192, .i32⟩ : BufTy).Contents (Elt F) → (⟨S8192, .i32⟩ : BufTy).Contents (Elt F) → (⟨S8192, .i1⟩ : BufTy).Contents (Elt F)),
    StableHlo.nullary main_c_114 (constantI S_ 32 5000#32),
    StableHlo.unary main_c_114 main_v566 (broadcastInDim S8192 ![] bcast_S_S8192 : (⟨S_, .i32⟩ : BufTy).Contents (Elt F) → (⟨S8192, .i32⟩ : BufTy).Contents (Elt F)),
    StableHlo.binary main_v563 main_v566 main_v567 (addi : (⟨S8192, .i32⟩ : BufTy).Contents (Elt F) → (⟨S8192, .i32⟩ : BufTy).Contents (Elt F) → (⟨S8192, .i32⟩ : BufTy).Contents (Elt F)),
    StableHlo.ternary main_v565 main_v567 main_v563 main_v568 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v568 main_v569 (broadcastInDim S8192x1 ![0] bcast_S8192_S8192x1_0 : (⟨S8192, .i32⟩ : BufTy).Contents (Elt F) → (⟨S8192x1, .i32⟩ : BufTy).Contents (Elt F)),
    StableHlo.binary main_v530 main_v569 main_v570 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v561 main_v570 main_v571 (addf : (⟨S8192x65, .f32⟩ : BufTy).Contents (Elt F) → (⟨S8192x65, .f32⟩ : BufTy).Contents (Elt F) → (⟨S8192x65, .f32⟩ : BufTy).Contents (Elt F)) ]
abbrev e2S3_W : List (Ref sig .tc) := [main_v562, main_v563, main_c_113, main_v564, main_v565, main_c_114, main_v566, main_v567, main_v568, main_v569, main_v570, main_v571]
theorem e2S3_writes : (e2S3 : List (HloOp τ sig (Elt F))).Forall fun op => op.writes ⊆ (e2S3_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 689 … 700 of the host stretch. -/
abbrev e2S4 : List (HloOp τ sig (Elt F)) :=
  [ StableHlo.unary main_arg2 main_v572 ((extractStridedSlice S8192x1 ![0, 4] · slices_S8192x20_S8192x1_0_4) : (⟨S8192x20, .i32⟩ : BufTy).Contents (Elt F) → (⟨S8192x1, .i32⟩ : BufTy).Contents (Elt F)),
    StableHlo.reshape main_v572 main_v573 rfl shapeCasts_S8192x1_S8192,
    StableHlo.nullary main_c_115 (constantI S_ 32 0#32),
    StableHlo.unary main_c_115 main_v574 (broadcastInDim S8192 ![] bcast_S_S8192 : (⟨S_, .i32⟩ : BufTy).Contents (Elt F) → (⟨S8192, .i32⟩ : BufTy).Contents (Elt F)),
    StableHlo.binary main_v573 main_v574 main_v575 (cmpi .slt : (⟨S8192, .i32⟩ : BufTy).Contents (Elt F) → (⟨S8192, .i32⟩ : BufTy).Contents (Elt F) → (⟨S8192, .i1⟩ : BufTy).Contents (Elt F)),
    StableHlo.nullary main_c_116 (constantI S_ 32 5000#32),
    StableHlo.unary main_c_116 main_v576 (broadcastInDim S8192 ![] bcast_S_S8192 : (⟨S_, .i32⟩ : BufTy).Contents (Elt F) → (⟨S8192, .i32⟩ : BufTy).Contents (Elt F)),
    StableHlo.binary main_v573 main_v576 main_v577 (addi : (⟨S8192, .i32⟩ : BufTy).Contents (Elt F) → (⟨S8192, .i32⟩ : BufTy).Contents (Elt F) → (⟨S8192, .i32⟩ : BufTy).Contents (Elt F)),
    StableHlo.ternary main_v575 main_v577 main_v573 main_v578 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v578 main_v579 (broadcastInDim S8192x1 ![0] bcast_S8192_S8192x1_0 : (⟨S8192, .i32⟩ : BufTy).Contents (Elt F) → (⟨S8192x1, .i32⟩ : BufTy).Contents (Elt F)),
    StableHlo.binary main_v530 main_v579 main_v580 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v571 main_v580 main_v581 (addf : (⟨S8192x65, .f32⟩ : BufTy).Contents (Elt F) → (⟨S8192x65, .f32⟩ : BufTy).Contents (Elt F) → (⟨S8192x65, .f32⟩ : BufTy).Contents (Elt F)) ]
abbrev e2S4_W : List (Ref sig .tc) := [main_v572, main_v573, main_c_115, main_v574, main_v575, main_c_116, main_v576, main_v577, main_v578, main_v579, main_v580, main_v581]
theorem e2S4_writes : (e2S4 : List (HloOp τ sig (Elt F))).Forall fun op => op.writes ⊆ (e2S4_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 701 … 712 of the host stretch. -/
abbrev e2S5 : List (HloOp τ sig (Elt F)) :=
  [ StableHlo.unary main_arg2 main_v582 ((extractStridedSlice S8192x1 ![0, 5] · slices_S8192x20_S8192x1_0_5) : (⟨S8192x20, .i32⟩ : BufTy).Contents (Elt F) → (⟨S8192x1, .i32⟩ : BufTy).Contents (Elt F)),
    StableHlo.reshape main_v582 main_v583 rfl shapeCasts_S8192x1_S8192,
    StableHlo.nullary main_c_117 (constantI S_ 32 0#32),
    StableHlo.unary main_c_117 main_v584 (broadcastInDim S8192 ![] bcast_S_S8192 : (⟨S_, .i32⟩ : BufTy).Contents (Elt F) → (⟨S8192, .i32⟩ : BufTy).Contents (Elt F)),
    StableHlo.binary main_v583 main_v584 main_v585 (cmpi .slt : (⟨S8192, .i32⟩ : BufTy).Contents (Elt F) → (⟨S8192, .i32⟩ : BufTy).Contents (Elt F) → (⟨S8192, .i1⟩ : BufTy).Contents (Elt F)),
    StableHlo.nullary main_c_118 (constantI S_ 32 5000#32),
    StableHlo.unary main_c_118 main_v586 (broadcastInDim S8192 ![] bcast_S_S8192 : (⟨S_, .i32⟩ : BufTy).Contents (Elt F) → (⟨S8192, .i32⟩ : BufTy).Contents (Elt F)),
    StableHlo.binary main_v583 main_v586 main_v587 (addi : (⟨S8192, .i32⟩ : BufTy).Contents (Elt F) → (⟨S8192, .i32⟩ : BufTy).Contents (Elt F) → (⟨S8192, .i32⟩ : BufTy).Contents (Elt F)),
    StableHlo.ternary main_v585 main_v587 main_v583 main_v588 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v588 main_v589 (broadcastInDim S8192x1 ![0] bcast_S8192_S8192x1_0 : (⟨S8192, .i32⟩ : BufTy).Contents (Elt F) → (⟨S8192x1, .i32⟩ : BufTy).Contents (Elt F)),
    StableHlo.binary main_v530 main_v589 main_v590 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v581 main_v590 main_v591 (addf : (⟨S8192x65, .f32⟩ : BufTy).Contents (Elt F) → (⟨S8192x65, .f32⟩ : BufTy).Contents (Elt F) → (⟨S8192x65, .f32⟩ : BufTy).Contents (Elt F)) ]
abbrev e2S5_W : List (Ref sig .tc) := [main_v582, main_v583, main_c_117, main_v584, main_v585, main_c_118, main_v586, main_v587, main_v588, main_v589, main_v590, main_v591]
theorem e2S5_writes : (e2S5 : List (HloOp τ sig (Elt F))).Forall fun op => op.writes ⊆ (e2S5_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 713 … 724 of the host stretch. -/
abbrev e2S6 : List (HloOp τ sig (Elt F)) :=
  [ StableHlo.unary main_arg2 main_v592 ((extractStridedSlice S8192x1 ![0, 6] · slices_S8192x20_S8192x1_0_6) : (⟨S8192x20, .i32⟩ : BufTy).Contents (Elt F) → (⟨S8192x1, .i32⟩ : BufTy).Contents (Elt F)),
    StableHlo.reshape main_v592 main_v593 rfl shapeCasts_S8192x1_S8192,
    StableHlo.nullary main_c_119 (constantI S_ 32 0#32),
    StableHlo.unary main_c_119 main_v594 (broadcastInDim S8192 ![] bcast_S_S8192 : (⟨S_, .i32⟩ : BufTy).Contents (Elt F) → (⟨S8192, .i32⟩ : BufTy).Contents (Elt F)),
    StableHlo.binary main_v593 main_v594 main_v595 (cmpi .slt : (⟨S8192, .i32⟩ : BufTy).Contents (Elt F) → (⟨S8192, .i32⟩ : BufTy).Contents (Elt F) → (⟨S8192, .i1⟩ : BufTy).Contents (Elt F)),
    StableHlo.nullary main_c_120 (constantI S_ 32 5000#32),
    StableHlo.unary main_c_120 main_v596 (broadcastInDim S8192 ![] bcast_S_S8192 : (⟨S_, .i32⟩ : BufTy).Contents (Elt F) → (⟨S8192, .i32⟩ : BufTy).Contents (Elt F)),
    StableHlo.binary main_v593 main_v596 main_v597 (addi : (⟨S8192, .i32⟩ : BufTy).Contents (Elt F) → (⟨S8192, .i32⟩ : BufTy).Contents (Elt F) → (⟨S8192, .i32⟩ : BufTy).Contents (Elt F)),
    StableHlo.ternary main_v595 main_v597 main_v593 main_v598 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v598 main_v599 (broadcastInDim S8192x1 ![0] bcast_S8192_S8192x1_0 : (⟨S8192, .i32⟩ : BufTy).Contents (Elt F) → (⟨S8192x1, .i32⟩ : BufTy).Contents (Elt F)),
    StableHlo.binary main_v530 main_v599 main_v600 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v591 main_v600 main_v601 (addf : (⟨S8192x65, .f32⟩ : BufTy).Contents (Elt F) → (⟨S8192x65, .f32⟩ : BufTy).Contents (Elt F) → (⟨S8192x65, .f32⟩ : BufTy).Contents (Elt F)) ]
abbrev e2S6_W : List (Ref sig .tc) := [main_v592, main_v593, main_c_119, main_v594, main_v595, main_c_120, main_v596, main_v597, main_v598, main_v599, main_v600, main_v601]
theorem e2S6_writes : (e2S6 : List (HloOp τ sig (Elt F))).Forall fun op => op.writes ⊆ (e2S6_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 725 … 736 of the host stretch. -/
abbrev e2S7 : List (HloOp τ sig (Elt F)) :=
  [ StableHlo.unary main_arg2 main_v602 ((extractStridedSlice S8192x1 ![0, 7] · slices_S8192x20_S8192x1_0_7) : (⟨S8192x20, .i32⟩ : BufTy).Contents (Elt F) → (⟨S8192x1, .i32⟩ : BufTy).Contents (Elt F)),
    StableHlo.reshape main_v602 main_v603 rfl shapeCasts_S8192x1_S8192,
    StableHlo.nullary main_c_121 (constantI S_ 32 0#32),
    StableHlo.unary main_c_121 main_v604 (broadcastInDim S8192 ![] bcast_S_S8192 : (⟨S_, .i32⟩ : BufTy).Contents (Elt F) → (⟨S8192, .i32⟩ : BufTy).Contents (Elt F)),
    StableHlo.binary main_v603 main_v604 main_v605 (cmpi .slt : (⟨S8192, .i32⟩ : BufTy).Contents (Elt F) → (⟨S8192, .i32⟩ : BufTy).Contents (Elt F) → (⟨S8192, .i1⟩ : BufTy).Contents (Elt F)),
    StableHlo.nullary main_c_122 (constantI S_ 32 5000#32),
    StableHlo.unary main_c_122 main_v606 (broadcastInDim S8192 ![] bcast_S_S8192 : (⟨S_, .i32⟩ : BufTy).Contents (Elt F) → (⟨S8192, .i32⟩ : BufTy).Contents (Elt F)),
    StableHlo.binary main_v603 main_v606 main_v607 (addi : (⟨S8192, .i32⟩ : BufTy).Contents (Elt F) → (⟨S8192, .i32⟩ : BufTy).Contents (Elt F) → (⟨S8192, .i32⟩ : BufTy).Contents (Elt F)),
    StableHlo.ternary main_v605 main_v607 main_v603 main_v608 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v608 main_v609 (broadcastInDim S8192x1 ![0] bcast_S8192_S8192x1_0 : (⟨S8192, .i32⟩ : BufTy).Contents (Elt F) → (⟨S8192x1, .i32⟩ : BufTy).Contents (Elt F)),
    StableHlo.binary main_v530 main_v609 main_v610 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v601 main_v610 main_v611 (addf : (⟨S8192x65, .f32⟩ : BufTy).Contents (Elt F) → (⟨S8192x65, .f32⟩ : BufTy).Contents (Elt F) → (⟨S8192x65, .f32⟩ : BufTy).Contents (Elt F)) ]
abbrev e2S7_W : List (Ref sig .tc) := [main_v602, main_v603, main_c_121, main_v604, main_v605, main_c_122, main_v606, main_v607, main_v608, main_v609, main_v610, main_v611]
theorem e2S7_writes : (e2S7 : List (HloOp τ sig (Elt F))).Forall fun op => op.writes ⊆ (e2S7_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 737 … 748 of the host stretch. -/
abbrev e2S8 : List (HloOp τ sig (Elt F)) :=
  [ StableHlo.unary main_arg2 main_v612 ((extractStridedSlice S8192x1 ![0, 8] · slices_S8192x20_S8192x1_0_8) : (⟨S8192x20, .i32⟩ : BufTy).Contents (Elt F) → (⟨S8192x1, .i32⟩ : BufTy).Contents (Elt F)),
    StableHlo.reshape main_v612 main_v613 rfl shapeCasts_S8192x1_S8192,
    StableHlo.nullary main_c_123 (constantI S_ 32 0#32),
    StableHlo.unary main_c_123 main_v614 (broadcastInDim S8192 ![] bcast_S_S8192 : (⟨S_, .i32⟩ : BufTy).Contents (Elt F) → (⟨S8192, .i32⟩ : BufTy).Contents (Elt F)),
    StableHlo.binary main_v613 main_v614 main_v615 (cmpi .slt : (⟨S8192, .i32⟩ : BufTy).Contents (Elt F) → (⟨S8192, .i32⟩ : BufTy).Contents (Elt F) → (⟨S8192, .i1⟩ : BufTy).Contents (Elt F)),
    StableHlo.nullary main_c_124 (constantI S_ 32 5000#32),
    StableHlo.unary main_c_124 main_v616 (broadcastInDim S8192 ![] bcast_S_S8192 : (⟨S_, .i32⟩ : BufTy).Contents (Elt F) → (⟨S8192, .i32⟩ : BufTy).Contents (Elt F)),
    StableHlo.binary main_v613 main_v616 main_v617 (addi : (⟨S8192, .i32⟩ : BufTy).Contents (Elt F) → (⟨S8192, .i32⟩ : BufTy).Contents (Elt F) → (⟨S8192, .i32⟩ : BufTy).Contents (Elt F)),
    StableHlo.ternary main_v615 main_v617 main_v613 main_v618 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v618 main_v619 (broadcastInDim S8192x1 ![0] bcast_S8192_S8192x1_0 : (⟨S8192, .i32⟩ : BufTy).Contents (Elt F) → (⟨S8192x1, .i32⟩ : BufTy).Contents (Elt F)),
    StableHlo.binary main_v530 main_v619 main_v620 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v611 main_v620 main_v621 (addf : (⟨S8192x65, .f32⟩ : BufTy).Contents (Elt F) → (⟨S8192x65, .f32⟩ : BufTy).Contents (Elt F) → (⟨S8192x65, .f32⟩ : BufTy).Contents (Elt F)) ]
abbrev e2S8_W : List (Ref sig .tc) := [main_v612, main_v613, main_c_123, main_v614, main_v615, main_c_124, main_v616, main_v617, main_v618, main_v619, main_v620, main_v621]
theorem e2S8_writes : (e2S8 : List (HloOp τ sig (Elt F))).Forall fun op => op.writes ⊆ (e2S8_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 749 … 760 of the host stretch. -/
abbrev e2S9 : List (HloOp τ sig (Elt F)) :=
  [ StableHlo.unary main_arg2 main_v622 ((extractStridedSlice S8192x1 ![0, 9] · slices_S8192x20_S8192x1_0_9) : (⟨S8192x20, .i32⟩ : BufTy).Contents (Elt F) → (⟨S8192x1, .i32⟩ : BufTy).Contents (Elt F)),
    StableHlo.reshape main_v622 main_v623 rfl shapeCasts_S8192x1_S8192,
    StableHlo.nullary main_c_125 (constantI S_ 32 0#32),
    StableHlo.unary main_c_125 main_v624 (broadcastInDim S8192 ![] bcast_S_S8192 : (⟨S_, .i32⟩ : BufTy).Contents (Elt F) → (⟨S8192, .i32⟩ : BufTy).Contents (Elt F)),
    StableHlo.binary main_v623 main_v624 main_v625 (cmpi .slt : (⟨S8192, .i32⟩ : BufTy).Contents (Elt F) → (⟨S8192, .i32⟩ : BufTy).Contents (Elt F) → (⟨S8192, .i1⟩ : BufTy).Contents (Elt F)),
    StableHlo.nullary main_c_126 (constantI S_ 32 5000#32),
    StableHlo.unary main_c_126 main_v626 (broadcastInDim S8192 ![] bcast_S_S8192 : (⟨S_, .i32⟩ : BufTy).Contents (Elt F) → (⟨S8192, .i32⟩ : BufTy).Contents (Elt F)),
    StableHlo.binary main_v623 main_v626 main_v627 (addi : (⟨S8192, .i32⟩ : BufTy).Contents (Elt F) → (⟨S8192, .i32⟩ : BufTy).Contents (Elt F) → (⟨S8192, .i32⟩ : BufTy).Contents (Elt F)),
    StableHlo.ternary main_v625 main_v627 main_v623 main_v628 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v628 main_v629 (broadcastInDim S8192x1 ![0] bcast_S8192_S8192x1_0 : (⟨S8192, .i32⟩ : BufTy).Contents (Elt F) → (⟨S8192x1, .i32⟩ : BufTy).Contents (Elt F)),
    StableHlo.binary main_v530 main_v629 main_v630 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v621 main_v630 main_v631 (addf : (⟨S8192x65, .f32⟩ : BufTy).Contents (Elt F) → (⟨S8192x65, .f32⟩ : BufTy).Contents (Elt F) → (⟨S8192x65, .f32⟩ : BufTy).Contents (Elt F)) ]
abbrev e2S9_W : List (Ref sig .tc) := [main_v622, main_v623, main_c_125, main_v624, main_v625, main_c_126, main_v626, main_v627, main_v628, main_v629, main_v630, main_v631]
theorem e2S9_writes : (e2S9 : List (HloOp τ sig (Elt F))).Forall fun op => op.writes ⊆ (e2S9_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 761 … 772 of the host stretch. -/
abbrev e2S10 : List (HloOp τ sig (Elt F)) :=
  [ StableHlo.unary main_arg2 main_v632 ((extractStridedSlice S8192x1 ![0, 10] · slices_S8192x20_S8192x1_0_10) : (⟨S8192x20, .i32⟩ : BufTy).Contents (Elt F) → (⟨S8192x1, .i32⟩ : BufTy).Contents (Elt F)),
    StableHlo.reshape main_v632 main_v633 rfl shapeCasts_S8192x1_S8192,
    StableHlo.nullary main_c_127 (constantI S_ 32 0#32),
    StableHlo.unary main_c_127 main_v634 (broadcastInDim S8192 ![] bcast_S_S8192 : (⟨S_, .i32⟩ : BufTy).Contents (Elt F) → (⟨S8192, .i32⟩ : BufTy).Contents (Elt F)),
    StableHlo.binary main_v633 main_v634 main_v635 (cmpi .slt : (⟨S8192, .i32⟩ : BufTy).Contents (Elt F) → (⟨S8192, .i32⟩ : BufTy).Contents (Elt F) → (⟨S8192, .i1⟩ : BufTy).Contents (Elt F)),
    StableHlo.nullary main_c_128 (constantI S_ 32 5000#32),
    StableHlo.unary main_c_128 main_v636 (broadcastInDim S8192 ![] bcast_S_S8192 : (⟨S_, .i32⟩ : BufTy).Contents (Elt F) → (⟨S8192, .i32⟩ : BufTy).Contents (Elt F)),
    StableHlo.binary main_v633 main_v636 main_v637 (addi : (⟨S8192, .i32⟩ : BufTy).Contents (Elt F) → (⟨S8192, .i32⟩ : BufTy).Contents (Elt F) → (⟨S8192, .i32⟩ : BufTy).Contents (Elt F)),
    StableHlo.ternary main_v635 main_v637 main_v633 main_v638 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v638 main_v639 (broadcastInDim S8192x1 ![0] bcast_S8192_S8192x1_0 : (⟨S8192, .i32⟩ : BufTy).Contents (Elt F) → (⟨S8192x1, .i32⟩ : BufTy).Contents (Elt F)),
    StableHlo.binary main_v530 main_v639 main_v640 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v631 main_v640 main_v641 (addf : (⟨S8192x65, .f32⟩ : BufTy).Contents (Elt F) → (⟨S8192x65, .f32⟩ : BufTy).Contents (Elt F) → (⟨S8192x65, .f32⟩ : BufTy).Contents (Elt F)) ]
abbrev e2S10_W : List (Ref sig .tc) := [main_v632, main_v633, main_c_127, main_v634, main_v635, main_c_128, main_v636, main_v637, main_v638, main_v639, main_v640, main_v641]
theorem e2S10_writes : (e2S10 : List (HloOp τ sig (Elt F))).Forall fun op => op.writes ⊆ (e2S10_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 773 … 784 of the host stretch. -/
abbrev e2S11 : List (HloOp τ sig (Elt F)) :=
  [ StableHlo.unary main_arg2 main_v642 ((extractStridedSlice S8192x1 ![0, 11] · slices_S8192x20_S8192x1_0_11) : (⟨S8192x20, .i32⟩ : BufTy).Contents (Elt F) → (⟨S8192x1, .i32⟩ : BufTy).Contents (Elt F)),
    StableHlo.reshape main_v642 main_v643 rfl shapeCasts_S8192x1_S8192,
    StableHlo.nullary main_c_129 (constantI S_ 32 0#32),
    StableHlo.unary main_c_129 main_v644 (broadcastInDim S8192 ![] bcast_S_S8192 : (⟨S_, .i32⟩ : BufTy).Contents (Elt F) → (⟨S8192, .i32⟩ : BufTy).Contents (Elt F)),
    StableHlo.binary main_v643 main_v644 main_v645 (cmpi .slt : (⟨S8192, .i32⟩ : BufTy).Contents (Elt F) → (⟨S8192, .i32⟩ : BufTy).Contents (Elt F) → (⟨S8192, .i1⟩ : BufTy).Contents (Elt F)),
    StableHlo.nullary main_c_130 (constantI S_ 32 5000#32),
    StableHlo.unary main_c_130 main_v646 (broadcastInDim S8192 ![] bcast_S_S8192 : (⟨S_, .i32⟩ : BufTy).Contents (Elt F) → (⟨S8192, .i32⟩ : BufTy).Contents (Elt F)),
    StableHlo.binary main_v643 main_v646 main_v647 (addi : (⟨S8192, .i32⟩ : BufTy).Contents (Elt F) → (⟨S8192, .i32⟩ : BufTy).Contents (Elt F) → (⟨S8192, .i32⟩ : BufTy).Contents (Elt F)),
    StableHlo.ternary main_v645 main_v647 main_v643 main_v648 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v648 main_v649 (broadcastInDim S8192x1 ![0] bcast_S8192_S8192x1_0 : (⟨S8192, .i32⟩ : BufTy).Contents (Elt F) → (⟨S8192x1, .i32⟩ : BufTy).Contents (Elt F)),
    StableHlo.binary main_v530 main_v649 main_v650 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v641 main_v650 main_v651 (addf : (⟨S8192x65, .f32⟩ : BufTy).Contents (Elt F) → (⟨S8192x65, .f32⟩ : BufTy).Contents (Elt F) → (⟨S8192x65, .f32⟩ : BufTy).Contents (Elt F)) ]
abbrev e2S11_W : List (Ref sig .tc) := [main_v642, main_v643, main_c_129, main_v644, main_v645, main_c_130, main_v646, main_v647, main_v648, main_v649, main_v650, main_v651]
theorem e2S11_writes : (e2S11 : List (HloOp τ sig (Elt F))).Forall fun op => op.writes ⊆ (e2S11_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 785 … 796 of the host stretch. -/
abbrev e2S12 : List (HloOp τ sig (Elt F)) :=
  [ StableHlo.unary main_arg2 main_v652 ((extractStridedSlice S8192x1 ![0, 12] · slices_S8192x20_S8192x1_0_12) : (⟨S8192x20, .i32⟩ : BufTy).Contents (Elt F) → (⟨S8192x1, .i32⟩ : BufTy).Contents (Elt F)),
    StableHlo.reshape main_v652 main_v653 rfl shapeCasts_S8192x1_S8192,
    StableHlo.nullary main_c_131 (constantI S_ 32 0#32),
    StableHlo.unary main_c_131 main_v654 (broadcastInDim S8192 ![] bcast_S_S8192 : (⟨S_, .i32⟩ : BufTy).Contents (Elt F) → (⟨S8192, .i32⟩ : BufTy).Contents (Elt F)),
    StableHlo.binary main_v653 main_v654 main_v655 (cmpi .slt : (⟨S8192, .i32⟩ : BufTy).Contents (Elt F) → (⟨S8192, .i32⟩ : BufTy).Contents (Elt F) → (⟨S8192, .i1⟩ : BufTy).Contents (Elt F)),
    StableHlo.nullary main_c_132 (constantI S_ 32 5000#32),
    StableHlo.unary main_c_132 main_v656 (broadcastInDim S8192 ![] bcast_S_S8192 : (⟨S_, .i32⟩ : BufTy).Contents (Elt F) → (⟨S8192, .i32⟩ : BufTy).Contents (Elt F)),
    StableHlo.binary main_v653 main_v656 main_v657 (addi : (⟨S8192, .i32⟩ : BufTy).Contents (Elt F) → (⟨S8192, .i32⟩ : BufTy).Contents (Elt F) → (⟨S8192, .i32⟩ : BufTy).Contents (Elt F)),
    StableHlo.ternary main_v655 main_v657 main_v653 main_v658 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v658 main_v659 (broadcastInDim S8192x1 ![0] bcast_S8192_S8192x1_0 : (⟨S8192, .i32⟩ : BufTy).Contents (Elt F) → (⟨S8192x1, .i32⟩ : BufTy).Contents (Elt F)),
    StableHlo.binary main_v530 main_v659 main_v660 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v651 main_v660 main_v661 (addf : (⟨S8192x65, .f32⟩ : BufTy).Contents (Elt F) → (⟨S8192x65, .f32⟩ : BufTy).Contents (Elt F) → (⟨S8192x65, .f32⟩ : BufTy).Contents (Elt F)) ]
abbrev e2S12_W : List (Ref sig .tc) := [main_v652, main_v653, main_c_131, main_v654, main_v655, main_c_132, main_v656, main_v657, main_v658, main_v659, main_v660, main_v661]
theorem e2S12_writes : (e2S12 : List (HloOp τ sig (Elt F))).Forall fun op => op.writes ⊆ (e2S12_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 797 … 808 of the host stretch. -/
abbrev e2S13 : List (HloOp τ sig (Elt F)) :=
  [ StableHlo.unary main_arg2 main_v662 ((extractStridedSlice S8192x1 ![0, 13] · slices_S8192x20_S8192x1_0_13) : (⟨S8192x20, .i32⟩ : BufTy).Contents (Elt F) → (⟨S8192x1, .i32⟩ : BufTy).Contents (Elt F)),
    StableHlo.reshape main_v662 main_v663 rfl shapeCasts_S8192x1_S8192,
    StableHlo.nullary main_c_133 (constantI S_ 32 0#32),
    StableHlo.unary main_c_133 main_v664 (broadcastInDim S8192 ![] bcast_S_S8192 : (⟨S_, .i32⟩ : BufTy).Contents (Elt F) → (⟨S8192, .i32⟩ : BufTy).Contents (Elt F)),
    StableHlo.binary main_v663 main_v664 main_v665 (cmpi .slt : (⟨S8192, .i32⟩ : BufTy).Contents (Elt F) → (⟨S8192, .i32⟩ : BufTy).Contents (Elt F) → (⟨S8192, .i1⟩ : BufTy).Contents (Elt F)),
    StableHlo.nullary main_c_134 (constantI S_ 32 5000#32),
    StableHlo.unary main_c_134 main_v666 (broadcastInDim S8192 ![] bcast_S_S8192 : (⟨S_, .i32⟩ : BufTy).Contents (Elt F) → (⟨S8192, .i32⟩ : BufTy).Contents (Elt F)),
    StableHlo.binary main_v663 main_v666 main_v667 (addi : (⟨S8192, .i32⟩ : BufTy).Contents (Elt F) → (⟨S8192, .i32⟩ : BufTy).Contents (Elt F) → (⟨S8192, .i32⟩ : BufTy).Contents (Elt F)),
    StableHlo.ternary main_v665 main_v667 main_v663 main_v668 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v668 main_v669 (broadcastInDim S8192x1 ![0] bcast_S8192_S8192x1_0 : (⟨S8192, .i32⟩ : BufTy).Contents (Elt F) → (⟨S8192x1, .i32⟩ : BufTy).Contents (Elt F)),
    StableHlo.binary main_v530 main_v669 main_v670 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v661 main_v670 main_v671 (addf : (⟨S8192x65, .f32⟩ : BufTy).Contents (Elt F) → (⟨S8192x65, .f32⟩ : BufTy).Contents (Elt F) → (⟨S8192x65, .f32⟩ : BufTy).Contents (Elt F)) ]
abbrev e2S13_W : List (Ref sig .tc) := [main_v662, main_v663, main_c_133, main_v664, main_v665, main_c_134, main_v666, main_v667, main_v668, main_v669, main_v670, main_v671]
theorem e2S13_writes : (e2S13 : List (HloOp τ sig (Elt F))).Forall fun op => op.writes ⊆ (e2S13_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 809 … 820 of the host stretch. -/
abbrev e2S14 : List (HloOp τ sig (Elt F)) :=
  [ StableHlo.unary main_arg2 main_v672 ((extractStridedSlice S8192x1 ![0, 14] · slices_S8192x20_S8192x1_0_14) : (⟨S8192x20, .i32⟩ : BufTy).Contents (Elt F) → (⟨S8192x1, .i32⟩ : BufTy).Contents (Elt F)),
    StableHlo.reshape main_v672 main_v673 rfl shapeCasts_S8192x1_S8192,
    StableHlo.nullary main_c_135 (constantI S_ 32 0#32),
    StableHlo.unary main_c_135 main_v674 (broadcastInDim S8192 ![] bcast_S_S8192 : (⟨S_, .i32⟩ : BufTy).Contents (Elt F) → (⟨S8192, .i32⟩ : BufTy).Contents (Elt F)),
    StableHlo.binary main_v673 main_v674 main_v675 (cmpi .slt : (⟨S8192, .i32⟩ : BufTy).Contents (Elt F) → (⟨S8192, .i32⟩ : BufTy).Contents (Elt F) → (⟨S8192, .i1⟩ : BufTy).Contents (Elt F)),
    StableHlo.nullary main_c_136 (constantI S_ 32 5000#32),
    StableHlo.unary main_c_136 main_v676 (broadcastInDim S8192 ![] bcast_S_S8192 : (⟨S_, .i32⟩ : BufTy).Contents (Elt F) → (⟨S8192, .i32⟩ : BufTy).Contents (Elt F)),
    StableHlo.binary main_v673 main_v676 main_v677 (addi : (⟨S8192, .i32⟩ : BufTy).Contents (Elt F) → (⟨S8192, .i32⟩ : BufTy).Contents (Elt F) → (⟨S8192, .i32⟩ : BufTy).Contents (Elt F)),
    StableHlo.ternary main_v675 main_v677 main_v673 main_v678 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v678 main_v679 (broadcastInDim S8192x1 ![0] bcast_S8192_S8192x1_0 : (⟨S8192, .i32⟩ : BufTy).Contents (Elt F) → (⟨S8192x1, .i32⟩ : BufTy).Contents (Elt F)),
    StableHlo.binary main_v530 main_v679 main_v680 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v671 main_v680 main_v681 (addf : (⟨S8192x65, .f32⟩ : BufTy).Contents (Elt F) → (⟨S8192x65, .f32⟩ : BufTy).Contents (Elt F) → (⟨S8192x65, .f32⟩ : BufTy).Contents (Elt F)) ]
abbrev e2S14_W : List (Ref sig .tc) := [main_v672, main_v673, main_c_135, main_v674, main_v675, main_c_136, main_v676, main_v677, main_v678, main_v679, main_v680, main_v681]
theorem e2S14_writes : (e2S14 : List (HloOp τ sig (Elt F))).Forall fun op => op.writes ⊆ (e2S14_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 821 … 832 of the host stretch. -/
abbrev e2S15 : List (HloOp τ sig (Elt F)) :=
  [ StableHlo.unary main_arg2 main_v682 ((extractStridedSlice S8192x1 ![0, 15] · slices_S8192x20_S8192x1_0_15) : (⟨S8192x20, .i32⟩ : BufTy).Contents (Elt F) → (⟨S8192x1, .i32⟩ : BufTy).Contents (Elt F)),
    StableHlo.reshape main_v682 main_v683 rfl shapeCasts_S8192x1_S8192,
    StableHlo.nullary main_c_137 (constantI S_ 32 0#32),
    StableHlo.unary main_c_137 main_v684 (broadcastInDim S8192 ![] bcast_S_S8192 : (⟨S_, .i32⟩ : BufTy).Contents (Elt F) → (⟨S8192, .i32⟩ : BufTy).Contents (Elt F)),
    StableHlo.binary main_v683 main_v684 main_v685 (cmpi .slt : (⟨S8192, .i32⟩ : BufTy).Contents (Elt F) → (⟨S8192, .i32⟩ : BufTy).Contents (Elt F) → (⟨S8192, .i1⟩ : BufTy).Contents (Elt F)),
    StableHlo.nullary main_c_138 (constantI S_ 32 5000#32),
    StableHlo.unary main_c_138 main_v686 (broadcastInDim S8192 ![] bcast_S_S8192 : (⟨S_, .i32⟩ : BufTy).Contents (Elt F) → (⟨S8192, .i32⟩ : BufTy).Contents (Elt F)),
    StableHlo.binary main_v683 main_v686 main_v687 (addi : (⟨S8192, .i32⟩ : BufTy).Contents (Elt F) → (⟨S8192, .i32⟩ : BufTy).Contents (Elt F) → (⟨S8192, .i32⟩ : BufTy).Contents (Elt F)),
    StableHlo.ternary main_v685 main_v687 main_v683 main_v688 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v688 main_v689 (broadcastInDim S8192x1 ![0] bcast_S8192_S8192x1_0 : (⟨S8192, .i32⟩ : BufTy).Contents (Elt F) → (⟨S8192x1, .i32⟩ : BufTy).Contents (Elt F)),
    StableHlo.binary main_v530 main_v689 main_v690 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v681 main_v690 main_v691 (addf : (⟨S8192x65, .f32⟩ : BufTy).Contents (Elt F) → (⟨S8192x65, .f32⟩ : BufTy).Contents (Elt F) → (⟨S8192x65, .f32⟩ : BufTy).Contents (Elt F)) ]
abbrev e2S15_W : List (Ref sig .tc) := [main_v682, main_v683, main_c_137, main_v684, main_v685, main_c_138, main_v686, main_v687, main_v688, main_v689, main_v690, main_v691]
theorem e2S15_writes : (e2S15 : List (HloOp τ sig (Elt F))).Forall fun op => op.writes ⊆ (e2S15_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 833 … 844 of the host stretch. -/
abbrev e2S16 : List (HloOp τ sig (Elt F)) :=
  [ StableHlo.unary main_arg2 main_v692 ((extractStridedSlice S8192x1 ![0, 16] · slices_S8192x20_S8192x1_0_16) : (⟨S8192x20, .i32⟩ : BufTy).Contents (Elt F) → (⟨S8192x1, .i32⟩ : BufTy).Contents (Elt F)),
    StableHlo.reshape main_v692 main_v693 rfl shapeCasts_S8192x1_S8192,
    StableHlo.nullary main_c_139 (constantI S_ 32 0#32),
    StableHlo.unary main_c_139 main_v694 (broadcastInDim S8192 ![] bcast_S_S8192 : (⟨S_, .i32⟩ : BufTy).Contents (Elt F) → (⟨S8192, .i32⟩ : BufTy).Contents (Elt F)),
    StableHlo.binary main_v693 main_v694 main_v695 (cmpi .slt : (⟨S8192, .i32⟩ : BufTy).Contents (Elt F) → (⟨S8192, .i32⟩ : BufTy).Contents (Elt F) → (⟨S8192, .i1⟩ : BufTy).Contents (Elt F)),
    StableHlo.nullary main_c_140 (constantI S_ 32 5000#32),
    StableHlo.unary main_c_140 main_v696 (broadcastInDim S8192 ![] bcast_S_S8192 : (⟨S_, .i32⟩ : BufTy).Contents (Elt F) → (⟨S8192, .i32⟩ : BufTy).Contents (Elt F)),
    StableHlo.binary main_v693 main_v696 main_v697 (addi : (⟨S8192, .i32⟩ : BufTy).Contents (Elt F) → (⟨S8192, .i32⟩ : BufTy).Contents (Elt F) → (⟨S8192, .i32⟩ : BufTy).Contents (Elt F)),
    StableHlo.ternary main_v695 main_v697 main_v693 main_v698 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v698 main_v699 (broadcastInDim S8192x1 ![0] bcast_S8192_S8192x1_0 : (⟨S8192, .i32⟩ : BufTy).Contents (Elt F) → (⟨S8192x1, .i32⟩ : BufTy).Contents (Elt F)),
    StableHlo.binary main_v530 main_v699 main_v700 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v691 main_v700 main_v701 (addf : (⟨S8192x65, .f32⟩ : BufTy).Contents (Elt F) → (⟨S8192x65, .f32⟩ : BufTy).Contents (Elt F) → (⟨S8192x65, .f32⟩ : BufTy).Contents (Elt F)) ]
abbrev e2S16_W : List (Ref sig .tc) := [main_v692, main_v693, main_c_139, main_v694, main_v695, main_c_140, main_v696, main_v697, main_v698, main_v699, main_v700, main_v701]
theorem e2S16_writes : (e2S16 : List (HloOp τ sig (Elt F))).Forall fun op => op.writes ⊆ (e2S16_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 845 … 856 of the host stretch. -/
abbrev e2S17 : List (HloOp τ sig (Elt F)) :=
  [ StableHlo.unary main_arg2 main_v702 ((extractStridedSlice S8192x1 ![0, 17] · slices_S8192x20_S8192x1_0_17) : (⟨S8192x20, .i32⟩ : BufTy).Contents (Elt F) → (⟨S8192x1, .i32⟩ : BufTy).Contents (Elt F)),
    StableHlo.reshape main_v702 main_v703 rfl shapeCasts_S8192x1_S8192,
    StableHlo.nullary main_c_141 (constantI S_ 32 0#32),
    StableHlo.unary main_c_141 main_v704 (broadcastInDim S8192 ![] bcast_S_S8192 : (⟨S_, .i32⟩ : BufTy).Contents (Elt F) → (⟨S8192, .i32⟩ : BufTy).Contents (Elt F)),
    StableHlo.binary main_v703 main_v704 main_v705 (cmpi .slt : (⟨S8192, .i32⟩ : BufTy).Contents (Elt F) → (⟨S8192, .i32⟩ : BufTy).Contents (Elt F) → (⟨S8192, .i1⟩ : BufTy).Contents (Elt F)),
    StableHlo.nullary main_c_142 (constantI S_ 32 5000#32),
    StableHlo.unary main_c_142 main_v706 (broadcastInDim S8192 ![] bcast_S_S8192 : (⟨S_, .i32⟩ : BufTy).Contents (Elt F) → (⟨S8192, .i32⟩ : BufTy).Contents (Elt F)),
    StableHlo.binary main_v703 main_v706 main_v707 (addi : (⟨S8192, .i32⟩ : BufTy).Contents (Elt F) → (⟨S8192, .i32⟩ : BufTy).Contents (Elt F) → (⟨S8192, .i32⟩ : BufTy).Contents (Elt F)),
    StableHlo.ternary main_v705 main_v707 main_v703 main_v708 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v708 main_v709 (broadcastInDim S8192x1 ![0] bcast_S8192_S8192x1_0 : (⟨S8192, .i32⟩ : BufTy).Contents (Elt F) → (⟨S8192x1, .i32⟩ : BufTy).Contents (Elt F)),
    StableHlo.binary main_v530 main_v709 main_v710 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v701 main_v710 main_v711 (addf : (⟨S8192x65, .f32⟩ : BufTy).Contents (Elt F) → (⟨S8192x65, .f32⟩ : BufTy).Contents (Elt F) → (⟨S8192x65, .f32⟩ : BufTy).Contents (Elt F)) ]
abbrev e2S17_W : List (Ref sig .tc) := [main_v702, main_v703, main_c_141, main_v704, main_v705, main_c_142, main_v706, main_v707, main_v708, main_v709, main_v710, main_v711]
theorem e2S17_writes : (e2S17 : List (HloOp τ sig (Elt F))).Forall fun op => op.writes ⊆ (e2S17_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 857 … 868 of the host stretch. -/
abbrev e2S18 : List (HloOp τ sig (Elt F)) :=
  [ StableHlo.unary main_arg2 main_v712 ((extractStridedSlice S8192x1 ![0, 18] · slices_S8192x20_S8192x1_0_18) : (⟨S8192x20, .i32⟩ : BufTy).Contents (Elt F) → (⟨S8192x1, .i32⟩ : BufTy).Contents (Elt F)),
    StableHlo.reshape main_v712 main_v713 rfl shapeCasts_S8192x1_S8192,
    StableHlo.nullary main_c_143 (constantI S_ 32 0#32),
    StableHlo.unary main_c_143 main_v714 (broadcastInDim S8192 ![] bcast_S_S8192 : (⟨S_, .i32⟩ : BufTy).Contents (Elt F) → (⟨S8192, .i32⟩ : BufTy).Contents (Elt F)),
    StableHlo.binary main_v713 main_v714 main_v715 (cmpi .slt : (⟨S8192, .i32⟩ : BufTy).Contents (Elt F) → (⟨S8192, .i32⟩ : BufTy).Contents (Elt F) → (⟨S8192, .i1⟩ : BufTy).Contents (Elt F)),
    StableHlo.nullary main_c_144 (constantI S_ 32 5000#32),
    StableHlo.unary main_c_144 main_v716 (broadcastInDim S8192 ![] bcast_S_S8192 : (⟨S_, .i32⟩ : BufTy).Contents (Elt F) → (⟨S8192, .i32⟩ : BufTy).Contents (Elt F)),
    StableHlo.binary main_v713 main_v716 main_v717 (addi : (⟨S8192, .i32⟩ : BufTy).Contents (Elt F) → (⟨S8192, .i32⟩ : BufTy).Contents (Elt F) → (⟨S8192, .i32⟩ : BufTy).Contents (Elt F)),
    StableHlo.ternary main_v715 main_v717 main_v713 main_v718 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v718 main_v719 (broadcastInDim S8192x1 ![0] bcast_S8192_S8192x1_0 : (⟨S8192, .i32⟩ : BufTy).Contents (Elt F) → (⟨S8192x1, .i32⟩ : BufTy).Contents (Elt F)),
    StableHlo.binary main_v530 main_v719 main_v720 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v711 main_v720 main_v721 (addf : (⟨S8192x65, .f32⟩ : BufTy).Contents (Elt F) → (⟨S8192x65, .f32⟩ : BufTy).Contents (Elt F) → (⟨S8192x65, .f32⟩ : BufTy).Contents (Elt F)) ]
abbrev e2S18_W : List (Ref sig .tc) := [main_v712, main_v713, main_c_143, main_v714, main_v715, main_c_144, main_v716, main_v717, main_v718, main_v719, main_v720, main_v721]
theorem e2S18_writes : (e2S18 : List (HloOp τ sig (Elt F))).Forall fun op => op.writes ⊆ (e2S18_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 869 … 880 of the host stretch. -/
abbrev e2S19 : List (HloOp τ sig (Elt F)) :=
  [ StableHlo.unary main_arg2 main_v722 ((extractStridedSlice S8192x1 ![0, 19] · slices_S8192x20_S8192x1_0_19) : (⟨S8192x20, .i32⟩ : BufTy).Contents (Elt F) → (⟨S8192x1, .i32⟩ : BufTy).Contents (Elt F)),
    StableHlo.reshape main_v722 main_v723 rfl shapeCasts_S8192x1_S8192,
    StableHlo.nullary main_c_145 (constantI S_ 32 0#32),
    StableHlo.unary main_c_145 main_v724 (broadcastInDim S8192 ![] bcast_S_S8192 : (⟨S_, .i32⟩ : BufTy).Contents (Elt F) → (⟨S8192, .i32⟩ : BufTy).Contents (Elt F)),
    StableHlo.binary main_v723 main_v724 main_v725 (cmpi .slt : (⟨S8192, .i32⟩ : BufTy).Contents (Elt F) → (⟨S8192, .i32⟩ : BufTy).Contents (Elt F) → (⟨S8192, .i1⟩ : BufTy).Contents (Elt F)),
    StableHlo.nullary main_c_146 (constantI S_ 32 5000#32),
    StableHlo.unary main_c_146 main_v726 (broadcastInDim S8192 ![] bcast_S_S8192 : (⟨S_, .i32⟩ : BufTy).Contents (Elt F) → (⟨S8192, .i32⟩ : BufTy).Contents (Elt F)),
    StableHlo.binary main_v723 main_v726 main_v727 (addi : (⟨S8192, .i32⟩ : BufTy).Contents (Elt F) → (⟨S8192, .i32⟩ : BufTy).Contents (Elt F) → (⟨S8192, .i32⟩ : BufTy).Contents (Elt F)),
    StableHlo.ternary main_v725 main_v727 main_v723 main_v728 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v728 main_v729 (broadcastInDim S8192x1 ![0] bcast_S8192_S8192x1_0 : (⟨S8192, .i32⟩ : BufTy).Contents (Elt F) → (⟨S8192x1, .i32⟩ : BufTy).Contents (Elt F)),
    StableHlo.binary main_v530 main_v729 main_v730 ((fun x i => Host.gather gather_S5000x65_S8192x1_S8192x65_1_0_n_n_0_1_165 x i) : (⟨S5000x65, .f32⟩ : BufTy).Contents (Elt F) → (⟨S8192x1, .i32⟩ : BufTy).Contents (Elt F) → (⟨S8192x65, .f32⟩ : BufTy).Contents (Elt F)),
    StableHlo.binary main_v721 main_v730 main_v731 (addf : (⟨S8192x65, .f32⟩ : BufTy).Contents (Elt F) → (⟨S8192x65, .f32⟩ : BufTy).Contents (Elt F) → (⟨S8192x65, .f32⟩ : BufTy).Contents (Elt F)) ]
abbrev e2S19_W : List (Ref sig .tc) := [main_v722, main_v723, main_c_145, main_v724, main_v725, main_c_146, main_v726, main_v727, main_v728, main_v729, main_v730, main_v731]
theorem e2S19_writes : (e2S19 : List (HloOp τ sig (Elt F))).Forall fun op => op.writes ⊆ (e2S19_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 881 … 886 of the host stretch. -/
abbrev e2T : List (HloOp τ sig (Elt F)) :=
  [ StableHlo.unary main_v731 main_v732 ((extractStridedSlice S8192x64 ![0, 0] · slices_S8192x65_S8192x64_0_0) : (⟨S8192x65, .f32⟩ : BufTy).Contents (Elt F) → (⟨S8192x64, .f32⟩ : BufTy).Contents (Elt F)),
    StableHlo.nullary main_cst_147 (constant S_ .f32 0x41A00000#32),
    StableHlo.unary main_cst_147 main_v733 (broadcastInDim S8192x64 ![] bcast_S_S8192x64 : (⟨S_, .f32⟩ : BufTy).Contents (Elt F) → (⟨S8192x64, .f32⟩ : BufTy).Contents (Elt F)),
    StableHlo.binary main_v732 main_v733 main_v734 (Host.divf : (⟨S8192x64, .f32⟩ : BufTy).Contents (Elt F) → (⟨S8192x64, .f32⟩ : BufTy).Contents (Elt F) → (⟨S8192x64, .f32⟩ : BufTy).Contents (Elt F)),
    StableHlo.unary main_v731 main_v735 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v735 main_v736 rfl shapeCasts_S8192x1_S8192 ]
abbrev e2T_W : List (Ref sig .tc) := [main_v732, main_cst_147, main_v733, main_v734, main_v735, main_v736]
theorem e2T_writes : (e2T : List (HloOp τ sig (Elt F))).Forall fun op => op.writes ⊆ (e2T_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

end Cert.WideDeep.Glue

end
-- ==== Proof.GlueOpsE3.lean ====
/-
  The host stretch's operations 887 … 1135, cut into short lists (each a sublist of the program's own list,
  in order), with the buffers each list writes.
-/
import proofs.«151196_j43095701848227_2_alg».proof.Proof.Gen.KernelIdeal.Launch
import proofs.«151196_j43095701848227_2_alg».proof.Proof.KArgs
import proofs.«151196_j43095701848227_2_alg».proof.Proof.GlueLib

set_option maxRecDepth 8192

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable {F : FTy → Type} [FloatOps F]

/-- Operations 887 … 889 of the host stretch. -/
abbrev e3H : List (HloOp τ sig (Elt F)) :=
  [ StableHlo.binary main_arg11 main_arg18 main_v737 ((fun a b => concatenate S10000x65 1 [⟨S10000x64, a⟩, ⟨S10000x1, b⟩] concatenates_S10000x64_S10000x1_S10000x65_d1) : (⟨S10000x64, .f32⟩ : BufTy).Contents (Elt F) → (⟨S10000x1, .f32⟩ : BufTy).Contents (Elt F) → (⟨S10000x65, .f32⟩ : BufTy).Contents (Elt F)),
    StableHlo.nullary main_cst_148 (constant S_ .f32 0x00000000#32),
    StableHlo.unary main_cst_148 main_v738 (broadcastInDim S8192x65 ![] bcast_S_S8192x65 : (⟨S_, .f32⟩ : BufTy).Contents (Elt F) → (⟨S8192x65, .f32⟩ : BufTy).Contents (Elt F)) ]
abbrev e3H_W : List (Ref sig .tc) := [main_v737, main_cst_148, main_v738]
theorem e3H_writes : (e3H : List (HloOp τ sig (Elt F))).Forall fun op => op.writes ⊆ (e3H_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 890 … 901 of the host stretch. -/
abbrev e3S0 : List (HloOp τ sig (Elt F)) :=
  [ StableHlo.unary main_arg3 main_v739 ((extractStridedSlice S8192x1 ![0, 0] · slices_S8192x20_S8192x1_0_0) : (⟨S8192x20, .i32⟩ : BufTy).Contents (Elt F) → (⟨S8192x1, .i32⟩ : BufTy).Contents (Elt F)),
    StableHlo.reshape main_v739 main_v740 rfl shapeCasts_S8192x1_S8192,
    StableHlo.nullary main_c_149 (constantI S_ 32 0#32),
    StableHlo.unary main_c_149 main_v741 (broadcastInDim S8192 ![] bcast_S_S8192 : (⟨S_, .i32⟩ : BufTy).Contents (Elt F) → (⟨S8192, .i32⟩ : BufTy).Contents (Elt F)),
    StableHlo.binary main_v740 main_v741 main_v742 (cmpi .slt : (⟨S8192, .i32⟩ : BufTy).Contents (Elt F) → (⟨S8192, .i32⟩ : BufTy).Contents (Elt F) → (⟨S8192, .i1⟩ : BufTy).Contents (Elt F)),
    StableHlo.nullary main_c_150 (constantI S_ 32 10000#32),
    StableHlo.unary main_c_150 main_v743 (broadcastInDim S8192 ![] bcast_S_S8192 : (⟨S_, .i32⟩ : BufTy).Contents (Elt F) → (⟨S8192, .i32⟩ : BufTy).Contents (Elt F)),
    StableHlo.binary main_v740 main_v743 main_v744 (addi : (⟨S8192, .i32⟩ : BufTy).Contents (Elt F) → (⟨S8192, .i32⟩ : BufTy).Contents (Elt F) → (⟨S8192, .i32⟩ : BufTy).Contents (Elt F)),
    StableHlo.ternary main_v742 main_v744 main_v740 main_v745 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v745 main_v746 (broadcastInDim S8192x1 ![0] bcast_S8192_S8192x1_0 : (⟨S8192, .i32⟩ : BufTy).Contents (Elt F) → (⟨S8192x1, .i32⟩ : BufTy).Contents (Elt F)),
    StableHlo.binary main_v737 main_v746 main_v747 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v738 main_v747 main_v748 (addf : (⟨S8192x65, .f32⟩ : BufTy).Contents (Elt F) → (⟨S8192x65, .f32⟩ : BufTy).Contents (Elt F) → (⟨S8192x65, .f32⟩ : BufTy).Contents (Elt F)) ]
abbrev e3S0_W : List (Ref sig .tc) := [main_v739, main_v740, main_c_149, main_v741, main_v742, main_c_150, main_v743, main_v744, main_v745, main_v746, main_v747, main_v748]
theorem e3S0_writes : (e3S0 : List (HloOp τ sig (Elt F))).Forall fun op => op.writes ⊆ (e3S0_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 902 … 913 of the host stretch. -/
abbrev e3S1 : List (HloOp τ sig (Elt F)) :=
  [ StableHlo.unary main_arg3 main_v749 ((extractStridedSlice S8192x1 ![0, 1] · slices_S8192x20_S8192x1_0_1) : (⟨S8192x20, .i32⟩ : BufTy).Contents (Elt F) → (⟨S8192x1, .i32⟩ : BufTy).Contents (Elt F)),
    StableHlo.reshape main_v749 main_v750 rfl shapeCasts_S8192x1_S8192,
    StableHlo.nullary main_c_151 (constantI S_ 32 0#32),
    StableHlo.unary main_c_151 main_v751 (broadcastInDim S8192 ![] bcast_S_S8192 : (⟨S_, .i32⟩ : BufTy).Contents (Elt F) → (⟨S8192, .i32⟩ : BufTy).Contents (Elt F)),
    StableHlo.binary main_v750 main_v751 main_v752 (cmpi .slt : (⟨S8192, .i32⟩ : BufTy).Contents (Elt F) → (⟨S8192, .i32⟩ : BufTy).Contents (Elt F) → (⟨S8192, .i1⟩ : BufTy).Contents (Elt F)),
    StableHlo.nullary main_c_152 (constantI S_ 32 10000#32),
    StableHlo.unary main_c_152 main_v753 (broadcastInDim S8192 ![] bcast_S_S8192 : (⟨S_, .i32⟩ : BufTy).Contents (Elt F) → (⟨S8192, .i32⟩ : BufTy).Contents (Elt F)),
    StableHlo.binary main_v750 main_v753 main_v754 (addi : (⟨S8192, .i32⟩ : BufTy).Contents (Elt F) → (⟨S8192, .i32⟩ : BufTy).Contents (Elt F) → (⟨S8192, .i32⟩ : BufTy).Contents (Elt F)),
    StableHlo.ternary main_v752 main_v754 main_v750 main_v755 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v755 main_v756 (broadcastInDim S8192x1 ![0] bcast_S8192_S8192x1_0 : (⟨S8192, .i32⟩ : BufTy).Contents (Elt F) → (⟨S8192x1, .i32⟩ : BufTy).Contents (Elt F)),
    StableHlo.binary main_v737 main_v756 main_v757 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v748 main_v757 main_v758 (addf : (⟨S8192x65, .f32⟩ : BufTy).Contents (Elt F) → (⟨S8192x65, .f32⟩ : BufTy).Contents (Elt F) → (⟨S8192x65, .f32⟩ : BufTy).Contents (Elt F)) ]
abbrev e3S1_W : List (Ref sig .tc) := [main_v749, main_v750, main_c_151, main_v751, main_v752, main_c_152, main_v753, main_v754, main_v755, main_v756, main_v757, main_v758]
theorem e3S1_writes : (e3S1 : List (HloOp τ sig (Elt F))).Forall fun op => op.writes ⊆ (e3S1_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 914 … 925 of the host stretch. -/
abbrev e3S2 : List (HloOp τ sig (Elt F)) :=
  [ StableHlo.unary main_arg3 main_v759 ((extractStridedSlice S8192x1 ![0, 2] · slices_S8192x20_S8192x1_0_2) : (⟨S8192x20, .i32⟩ : BufTy).Contents (Elt F) → (⟨S8192x1, .i32⟩ : BufTy).Contents (Elt F)),
    StableHlo.reshape main_v759 main_v760 rfl shapeCasts_S8192x1_S8192,
    StableHlo.nullary main_c_153 (constantI S_ 32 0#32),
    StableHlo.unary main_c_153 main_v761 (broadcastInDim S8192 ![] bcast_S_S8192 : (⟨S_, .i32⟩ : BufTy).Contents (Elt F) → (⟨S8192, .i32⟩ : BufTy).Contents (Elt F)),
    StableHlo.binary main_v760 main_v761 main_v762 (cmpi .slt : (⟨S8192, .i32⟩ : BufTy).Contents (Elt F) → (⟨S8192, .i32⟩ : BufTy).Contents (Elt F) → (⟨S8192, .i1⟩ : BufTy).Contents (Elt F)),
    StableHlo.nullary main_c_154 (constantI S_ 32 10000#32),
    StableHlo.unary main_c_154 main_v763 (broadcastInDim S8192 ![] bcast_S_S8192 : (⟨S_, .i32⟩ : BufTy).Contents (Elt F) → (⟨S8192, .i32⟩ : BufTy).Contents (Elt F)),
    StableHlo.binary main_v760 main_v763 main_v764 (addi : (⟨S8192, .i32⟩ : BufTy).Contents (Elt F) → (⟨S8192, .i32⟩ : BufTy).Contents (Elt F) → (⟨S8192, .i32⟩ : BufTy).Contents (Elt F)),
    StableHlo.ternary main_v762 main_v764 main_v760 main_v765 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v765 main_v766 (broadcastInDim S8192x1 ![0] bcast_S8192_S8192x1_0 : (⟨S8192, .i32⟩ : BufTy).Contents (Elt F) → (⟨S8192x1, .i32⟩ : BufTy).Contents (Elt F)),
    StableHlo.binary main_v737 main_v766 main_v767 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v758 main_v767 main_v768 (addf : (⟨S8192x65, .f32⟩ : BufTy).Contents (Elt F) → (⟨S8192x65, .f32⟩ : BufTy).Contents (Elt F) → (⟨S8192x65, .f32⟩ : BufTy).Contents (Elt F)) ]
abbrev e3S2_W : List (Ref sig .tc) := [main_v759, main_v760, main_c_153, main_v761, main_v762, main_c_154, main_v763, main_v764, main_v765, main_v766, main_v767, main_v768]
theorem e3S2_writes : (e3S2 : List (HloOp τ sig (Elt F))).Forall fun op => op.writes ⊆ (e3S2_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 926 … 937 of the host stretch. -/
abbrev e3S3 : List (HloOp τ sig (Elt F)) :=
  [ StableHlo.unary main_arg3 main_v769 ((extractStridedSlice S8192x1 ![0, 3] · slices_S8192x20_S8192x1_0_3) : (⟨S8192x20, .i32⟩ : BufTy).Contents (Elt F) → (⟨S8192x1, .i32⟩ : BufTy).Contents (Elt F)),
    StableHlo.reshape main_v769 main_v770 rfl shapeCasts_S8192x1_S8192,
    StableHlo.nullary main_c_155 (constantI S_ 32 0#32),
    StableHlo.unary main_c_155 main_v771 (broadcastInDim S8192 ![] bcast_S_S8192 : (⟨S_, .i32⟩ : BufTy).Contents (Elt F) → (⟨S8192, .i32⟩ : BufTy).Contents (Elt F)),
    StableHlo.binary main_v770 main_v771 main_v772 (cmpi .slt : (⟨S8192, .i32⟩ : BufTy).Contents (Elt F) → (⟨S8192, .i32⟩ : BufTy).Contents (Elt F) → (⟨S8192, .i1⟩ : BufTy).Contents (Elt F)),
    StableHlo.nullary main_c_156 (constantI S_ 32 10000#32),
    StableHlo.unary main_c_156 main_v773 (broadcastInDim S8192 ![] bcast_S_S8192 : (⟨S_, .i32⟩ : BufTy).Contents (Elt F) → (⟨S8192, .i32⟩ : BufTy).Contents (Elt F)),
    StableHlo.binary main_v770 main_v773 main_v774 (addi : (⟨S8192, .i32⟩ : BufTy).Contents (Elt F) → (⟨S8192, .i32⟩ : BufTy).Contents (Elt F) → (⟨S8192, .i32⟩ : BufTy).Contents (Elt F)),
    StableHlo.ternary main_v772 main_v774 main_v770 main_v775 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v775 main_v776 (broadcastInDim S8192x1 ![0] bcast_S8192_S8192x1_0 : (⟨S8192, .i32⟩ : BufTy).Contents (Elt F) → (⟨S8192x1, .i32⟩ : BufTy).Contents (Elt F)),
    StableHlo.binary main_v737 main_v776 main_v777 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v768 main_v777 main_v778 (addf : (⟨S8192x65, .f32⟩ : BufTy).Contents (Elt F) → (⟨S8192x65, .f32⟩ : BufTy).Contents (Elt F) → (⟨S8192x65, .f32⟩ : BufTy).Contents (Elt F)) ]
abbrev e3S3_W : List (Ref sig .tc) := [main_v769, main_v770, main_c_155, main_v771, main_v772, main_c_156, main_v773, main_v774, main_v775, main_v776, main_v777, main_v778]
theorem e3S3_writes : (e3S3 : List (HloOp τ sig (Elt F))).Forall fun op => op.writes ⊆ (e3S3_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 938 … 949 of the host stretch. -/
abbrev e3S4 : List (HloOp τ sig (Elt F)) :=
  [ StableHlo.unary main_arg3 main_v779 ((extractStridedSlice S8192x1 ![0, 4] · slices_S8192x20_S8192x1_0_4) : (⟨S8192x20, .i32⟩ : BufTy).Contents (Elt F) → (⟨S8192x1, .i32⟩ : BufTy).Contents (Elt F)),
    StableHlo.reshape main_v779 main_v780 rfl shapeCasts_S8192x1_S8192,
    StableHlo.nullary main_c_157 (constantI S_ 32 0#32),
    StableHlo.unary main_c_157 main_v781 (broadcastInDim S8192 ![] bcast_S_S8192 : (⟨S_, .i32⟩ : BufTy).Contents (Elt F) → (⟨S8192, .i32⟩ : BufTy).Contents (Elt F)),
    StableHlo.binary main_v780 main_v781 main_v782 (cmpi .slt : (⟨S8192, .i32⟩ : BufTy).Contents (Elt F) → (⟨S8192, .i32⟩ : BufTy).Contents (Elt F) → (⟨S8192, .i1⟩ : BufTy).Contents (Elt F)),
    StableHlo.nullary main_c_158 (constantI S_ 32 10000#32),
    StableHlo.unary main_c_158 main_v783 (broadcastInDim S8192 ![] bcast_S_S8192 : (⟨S_, .i32⟩ : BufTy).Contents (Elt F) → (⟨S8192, .i32⟩ : BufTy).Contents (Elt F)),
    StableHlo.binary main_v780 main_v783 main_v784 (addi : (⟨S8192, .i32⟩ : BufTy).Contents (Elt F) → (⟨S8192, .i32⟩ : BufTy).Contents (Elt F) → (⟨S8192, .i32⟩ : BufTy).Contents (Elt F)),
    StableHlo.ternary main_v782 main_v784 main_v780 main_v785 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v785 main_v786 (broadcastInDim S8192x1 ![0] bcast_S8192_S8192x1_0 : (⟨S8192, .i32⟩ : BufTy).Contents (Elt F) → (⟨S8192x1, .i32⟩ : BufTy).Contents (Elt F)),
    StableHlo.binary main_v737 main_v786 main_v787 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v778 main_v787 main_v788 (addf : (⟨S8192x65, .f32⟩ : BufTy).Contents (Elt F) → (⟨S8192x65, .f32⟩ : BufTy).Contents (Elt F) → (⟨S8192x65, .f32⟩ : BufTy).Contents (Elt F)) ]
abbrev e3S4_W : List (Ref sig .tc) := [main_v779, main_v780, main_c_157, main_v781, main_v782, main_c_158, main_v783, main_v784, main_v785, main_v786, main_v787, main_v788]
theorem e3S4_writes : (e3S4 : List (HloOp τ sig (Elt F))).Forall fun op => op.writes ⊆ (e3S4_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 950 … 961 of the host stretch. -/
abbrev e3S5 : List (HloOp τ sig (Elt F)) :=
  [ StableHlo.unary main_arg3 main_v789 ((extractStridedSlice S8192x1 ![0, 5] · slices_S8192x20_S8192x1_0_5) : (⟨S8192x20, .i32⟩ : BufTy).Contents (Elt F) → (⟨S8192x1, .i32⟩ : BufTy).Contents (Elt F)),
    StableHlo.reshape main_v789 main_v790 rfl shapeCasts_S8192x1_S8192,
    StableHlo.nullary main_c_159 (constantI S_ 32 0#32),
    StableHlo.unary main_c_159 main_v791 (broadcastInDim S8192 ![] bcast_S_S8192 : (⟨S_, .i32⟩ : BufTy).Contents (Elt F) → (⟨S8192, .i32⟩ : BufTy).Contents (Elt F)),
    StableHlo.binary main_v790 main_v791 main_v792 (cmpi .slt : (⟨S8192, .i32⟩ : BufTy).Contents (Elt F) → (⟨S8192, .i32⟩ : BufTy).Contents (Elt F) → (⟨S8192, .i1⟩ : BufTy).Contents (Elt F)),
    StableHlo.nullary main_c_160 (constantI S_ 32 10000#32),
    StableHlo.unary main_c_160 main_v793 (broadcastInDim S8192 ![] bcast_S_S8192 : (⟨S_, .i32⟩ : BufTy).Contents (Elt F) → (⟨S8192, .i32⟩ : BufTy).Contents (Elt F)),
    StableHlo.binary main_v790 main_v793 main_v794 (addi : (⟨S8192, .i32⟩ : BufTy).Contents (Elt F) → (⟨S8192, .i32⟩ : BufTy).Contents (Elt F) → (⟨S8192, .i32⟩ : BufTy).Contents (Elt F)),
    StableHlo.ternary main_v792 main_v794 main_v790 main_v795 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v795 main_v796 (broadcastInDim S8192x1 ![0] bcast_S8192_S8192x1_0 : (⟨S8192, .i32⟩ : BufTy).Contents (Elt F) → (⟨S8192x1, .i32⟩ : BufTy).Contents (Elt F)),
    StableHlo.binary main_v737 main_v796 main_v797 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v788 main_v797 main_v798 (addf : (⟨S8192x65, .f32⟩ : BufTy).Contents (Elt F) → (⟨S8192x65, .f32⟩ : BufTy).Contents (Elt F) → (⟨S8192x65, .f32⟩ : BufTy).Contents (Elt F)) ]
abbrev e3S5_W : List (Ref sig .tc) := [main_v789, main_v790, main_c_159, main_v791, main_v792, main_c_160, main_v793, main_v794, main_v795, main_v796, main_v797, main_v798]
theorem e3S5_writes : (e3S5 : List (HloOp τ sig (Elt F))).Forall fun op => op.writes ⊆ (e3S5_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 962 … 973 of the host stretch. -/
abbrev e3S6 : List (HloOp τ sig (Elt F)) :=
  [ StableHlo.unary main_arg3 main_v799 ((extractStridedSlice S8192x1 ![0, 6] · slices_S8192x20_S8192x1_0_6) : (⟨S8192x20, .i32⟩ : BufTy).Contents (Elt F) → (⟨S8192x1, .i32⟩ : BufTy).Contents (Elt F)),
    StableHlo.reshape main_v799 main_v800 rfl shapeCasts_S8192x1_S8192,
    StableHlo.nullary main_c_161 (constantI S_ 32 0#32),
    StableHlo.unary main_c_161 main_v801 (broadcastInDim S8192 ![] bcast_S_S8192 : (⟨S_, .i32⟩ : BufTy).Contents (Elt F) → (⟨S8192, .i32⟩ : BufTy).Contents (Elt F)),
    StableHlo.binary main_v800 main_v801 main_v802 (cmpi .slt : (⟨S8192, .i32⟩ : BufTy).Contents (Elt F) → (⟨S8192, .i32⟩ : BufTy).Contents (Elt F) → (⟨S8192, .i1⟩ : BufTy).Contents (Elt F)),
    StableHlo.nullary main_c_162 (constantI S_ 32 10000#32),
    StableHlo.unary main_c_162 main_v803 (broadcastInDim S8192 ![] bcast_S_S8192 : (⟨S_, .i32⟩ : BufTy).Contents (Elt F) → (⟨S8192, .i32⟩ : BufTy).Contents (Elt F)),
    StableHlo.binary main_v800 main_v803 main_v804 (addi : (⟨S8192, .i32⟩ : BufTy).Contents (Elt F) → (⟨S8192, .i32⟩ : BufTy).Contents (Elt F) → (⟨S8192, .i32⟩ : BufTy).Contents (Elt F)),
    StableHlo.ternary main_v802 main_v804 main_v800 main_v805 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v805 main_v806 (broadcastInDim S8192x1 ![0] bcast_S8192_S8192x1_0 : (⟨S8192, .i32⟩ : BufTy).Contents (Elt F) → (⟨S8192x1, .i32⟩ : BufTy).Contents (Elt F)),
    StableHlo.binary main_v737 main_v806 main_v807 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v798 main_v807 main_v808 (addf : (⟨S8192x65, .f32⟩ : BufTy).Contents (Elt F) → (⟨S8192x65, .f32⟩ : BufTy).Contents (Elt F) → (⟨S8192x65, .f32⟩ : BufTy).Contents (Elt F)) ]
abbrev e3S6_W : List (Ref sig .tc) := [main_v799, main_v800, main_c_161, main_v801, main_v802, main_c_162, main_v803, main_v804, main_v805, main_v806, main_v807, main_v808]
theorem e3S6_writes : (e3S6 : List (HloOp τ sig (Elt F))).Forall fun op => op.writes ⊆ (e3S6_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 974 … 985 of the host stretch. -/
abbrev e3S7 : List (HloOp τ sig (Elt F)) :=
  [ StableHlo.unary main_arg3 main_v809 ((extractStridedSlice S8192x1 ![0, 7] · slices_S8192x20_S8192x1_0_7) : (⟨S8192x20, .i32⟩ : BufTy).Contents (Elt F) → (⟨S8192x1, .i32⟩ : BufTy).Contents (Elt F)),
    StableHlo.reshape main_v809 main_v810 rfl shapeCasts_S8192x1_S8192,
    StableHlo.nullary main_c_163 (constantI S_ 32 0#32),
    StableHlo.unary main_c_163 main_v811 (broadcastInDim S8192 ![] bcast_S_S8192 : (⟨S_, .i32⟩ : BufTy).Contents (Elt F) → (⟨S8192, .i32⟩ : BufTy).Contents (Elt F)),
    StableHlo.binary main_v810 main_v811 main_v812 (cmpi .slt : (⟨S8192, .i32⟩ : BufTy).Contents (Elt F) → (⟨S8192, .i32⟩ : BufTy).Contents (Elt F) → (⟨S8192, .i1⟩ : BufTy).Contents (Elt F)),
    StableHlo.nullary main_c_164 (constantI S_ 32 10000#32),
    StableHlo.unary main_c_164 main_v813 (broadcastInDim S8192 ![] bcast_S_S8192 : (⟨S_, .i32⟩ : BufTy).Contents (Elt F) → (⟨S8192, .i32⟩ : BufTy).Contents (Elt F)),
    StableHlo.binary main_v810 main_v813 main_v814 (addi : (⟨S8192, .i32⟩ : BufTy).Contents (Elt F) → (⟨S8192, .i32⟩ : BufTy).Contents (Elt F) → (⟨S8192, .i32⟩ : BufTy).Contents (Elt F)),
    StableHlo.ternary main_v812 main_v814 main_v810 main_v815 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v815 main_v816 (broadcastInDim S8192x1 ![0] bcast_S8192_S8192x1_0 : (⟨S8192, .i32⟩ : BufTy).Contents (Elt F) → (⟨S8192x1, .i32⟩ : BufTy).Contents (Elt F)),
    StableHlo.binary main_v737 main_v816 main_v817 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v808 main_v817 main_v818 (addf : (⟨S8192x65, .f32⟩ : BufTy).Contents (Elt F) → (⟨S8192x65, .f32⟩ : BufTy).Contents (Elt F) → (⟨S8192x65, .f32⟩ : BufTy).Contents (Elt F)) ]
abbrev e3S7_W : List (Ref sig .tc) := [main_v809, main_v810, main_c_163, main_v811, main_v812, main_c_164, main_v813, main_v814, main_v815, main_v816, main_v817, main_v818]
theorem e3S7_writes : (e3S7 : List (HloOp τ sig (Elt F))).Forall fun op => op.writes ⊆ (e3S7_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 986 … 997 of the host stretch. -/
abbrev e3S8 : List (HloOp τ sig (Elt F)) :=
  [ StableHlo.unary main_arg3 main_v819 ((extractStridedSlice S8192x1 ![0, 8] · slices_S8192x20_S8192x1_0_8) : (⟨S8192x20, .i32⟩ : BufTy).Contents (Elt F) → (⟨S8192x1, .i32⟩ : BufTy).Contents (Elt F)),
    StableHlo.reshape main_v819 main_v820 rfl shapeCasts_S8192x1_S8192,
    StableHlo.nullary main_c_165 (constantI S_ 32 0#32),
    StableHlo.unary main_c_165 main_v821 (broadcastInDim S8192 ![] bcast_S_S8192 : (⟨S_, .i32⟩ : BufTy).Contents (Elt F) → (⟨S8192, .i32⟩ : BufTy).Contents (Elt F)),
    StableHlo.binary main_v820 main_v821 main_v822 (cmpi .slt : (⟨S8192, .i32⟩ : BufTy).Contents (Elt F) → (⟨S8192, .i32⟩ : BufTy).Contents (Elt F) → (⟨S8192, .i1⟩ : BufTy).Contents (Elt F)),
    StableHlo.nullary main_c_166 (constantI S_ 32 10000#32),
    StableHlo.unary main_c_166 main_v823 (broadcastInDim S8192 ![] bcast_S_S8192 : (⟨S_, .i32⟩ : BufTy).Contents (Elt F) → (⟨S8192, .i32⟩ : BufTy).Contents (Elt F)),
    StableHlo.binary main_v820 main_v823 main_v824 (addi : (⟨S8192, .i32⟩ : BufTy).Contents (Elt F) → (⟨S8192, .i32⟩ : BufTy).Contents (Elt F) → (⟨S8192, .i32⟩ : BufTy).Contents (Elt F)),
    StableHlo.ternary main_v822 main_v824 main_v820 main_v825 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v825 main_v826 (broadcastInDim S8192x1 ![0] bcast_S8192_S8192x1_0 : (⟨S8192, .i32⟩ : BufTy).Contents (Elt F) → (⟨S8192x1, .i32⟩ : BufTy).Contents (Elt F)),
    StableHlo.binary main_v737 main_v826 main_v827 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v818 main_v827 main_v828 (addf : (⟨S8192x65, .f32⟩ : BufTy).Contents (Elt F) → (⟨S8192x65, .f32⟩ : BufTy).Contents (Elt F) → (⟨S8192x65, .f32⟩ : BufTy).Contents (Elt F)) ]
abbrev e3S8_W : List (Ref sig .tc) := [main_v819, main_v820, main_c_165, main_v821, main_v822, main_c_166, main_v823, main_v824, main_v825, main_v826, main_v827, main_v828]
theorem e3S8_writes : (e3S8 : List (HloOp τ sig (Elt F))).Forall fun op => op.writes ⊆ (e3S8_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 998 … 1009 of the host stretch. -/
abbrev e3S9 : List (HloOp τ sig (Elt F)) :=
  [ StableHlo.unary main_arg3 main_v829 ((extractStridedSlice S8192x1 ![0, 9] · slices_S8192x20_S8192x1_0_9) : (⟨S8192x20, .i32⟩ : BufTy).Contents (Elt F) → (⟨S8192x1, .i32⟩ : BufTy).Contents (Elt F)),
    StableHlo.reshape main_v829 main_v830 rfl shapeCasts_S8192x1_S8192,
    StableHlo.nullary main_c_167 (constantI S_ 32 0#32),
    StableHlo.unary main_c_167 main_v831 (broadcastInDim S8192 ![] bcast_S_S8192 : (⟨S_, .i32⟩ : BufTy).Contents (Elt F) → (⟨S8192, .i32⟩ : BufTy).Contents (Elt F)),
    StableHlo.binary main_v830 main_v831 main_v832 (cmpi .slt : (⟨S8192, .i32⟩ : BufTy).Contents (Elt F) → (⟨S8192, .i32⟩ : BufTy).Contents (Elt F) → (⟨S8192, .i1⟩ : BufTy).Contents (Elt F)),
    StableHlo.nullary main_c_168 (constantI S_ 32 10000#32),
    StableHlo.unary main_c_168 main_v833 (broadcastInDim S8192 ![] bcast_S_S8192 : (⟨S_, .i32⟩ : BufTy).Contents (Elt F) → (⟨S8192, .i32⟩ : BufTy).Contents (Elt F)),
    StableHlo.binary main_v830 main_v833 main_v834 (addi : (⟨S8192, .i32⟩ : BufTy).Contents (Elt F) → (⟨S8192, .i32⟩ : BufTy).Contents (Elt F) → (⟨S8192, .i32⟩ : BufTy).Contents (Elt F)),
    StableHlo.ternary main_v832 main_v834 main_v830 main_v835 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v835 main_v836 (broadcastInDim S8192x1 ![0] bcast_S8192_S8192x1_0 : (⟨S8192, .i32⟩ : BufTy).Contents (Elt F) → (⟨S8192x1, .i32⟩ : BufTy).Contents (Elt F)),
    StableHlo.binary main_v737 main_v836 main_v837 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v828 main_v837 main_v838 (addf : (⟨S8192x65, .f32⟩ : BufTy).Contents (Elt F) → (⟨S8192x65, .f32⟩ : BufTy).Contents (Elt F) → (⟨S8192x65, .f32⟩ : BufTy).Contents (Elt F)) ]
abbrev e3S9_W : List (Ref sig .tc) := [main_v829, main_v830, main_c_167, main_v831, main_v832, main_c_168, main_v833, main_v834, main_v835, main_v836, main_v837, main_v838]
theorem e3S9_writes : (e3S9 : List (HloOp τ sig (Elt F))).Forall fun op => op.writes ⊆ (e3S9_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1010 … 1021 of the host stretch. -/
abbrev e3S10 : List (HloOp τ sig (Elt F)) :=
  [ StableHlo.unary main_arg3 main_v839 ((extractStridedSlice S8192x1 ![0, 10] · slices_S8192x20_S8192x1_0_10) : (⟨S8192x20, .i32⟩ : BufTy).Contents (Elt F) → (⟨S8192x1, .i32⟩ : BufTy).Contents (Elt F)),
    StableHlo.reshape main_v839 main_v840 rfl shapeCasts_S8192x1_S8192,
    StableHlo.nullary main_c_169 (constantI S_ 32 0#32),
    StableHlo.unary main_c_169 main_v841 (broadcastInDim S8192 ![] bcast_S_S8192 : (⟨S_, .i32⟩ : BufTy).Contents (Elt F) → (⟨S8192, .i32⟩ : BufTy).Contents (Elt F)),
    StableHlo.binary main_v840 main_v841 main_v842 (cmpi .slt : (⟨S8192, .i32⟩ : BufTy).Contents (Elt F) → (⟨S8192, .i32⟩ : BufTy).Contents (Elt F) → (⟨S8192, .i1⟩ : BufTy).Contents (Elt F)),
    StableHlo.nullary main_c_170 (constantI S_ 32 10000#32),
    StableHlo.unary main_c_170 main_v843 (broadcastInDim S8192 ![] bcast_S_S8192 : (⟨S_, .i32⟩ : BufTy).Contents (Elt F) → (⟨S8192, .i32⟩ : BufTy).Contents (Elt F)),
    StableHlo.binary main_v840 main_v843 main_v844 (addi : (⟨S8192, .i32⟩ : BufTy).Contents (Elt F) → (⟨S8192, .i32⟩ : BufTy).Contents (Elt F) → (⟨S8192, .i32⟩ : BufTy).Contents (Elt F)),
    StableHlo.ternary main_v842 main_v844 main_v840 main_v845 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v845 main_v846 (broadcastInDim S8192x1 ![0] bcast_S8192_S8192x1_0 : (⟨S8192, .i32⟩ : BufTy).Contents (Elt F) → (⟨S8192x1, .i32⟩ : BufTy).Contents (Elt F)),
    StableHlo.binary main_v737 main_v846 main_v847 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v838 main_v847 main_v848 (addf : (⟨S8192x65, .f32⟩ : BufTy).Contents (Elt F) → (⟨S8192x65, .f32⟩ : BufTy).Contents (Elt F) → (⟨S8192x65, .f32⟩ : BufTy).Contents (Elt F)) ]
abbrev e3S10_W : List (Ref sig .tc) := [main_v839, main_v840, main_c_169, main_v841, main_v842, main_c_170, main_v843, main_v844, main_v845, main_v846, main_v847, main_v848]
theorem e3S10_writes : (e3S10 : List (HloOp τ sig (Elt F))).Forall fun op => op.writes ⊆ (e3S10_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1022 … 1033 of the host stretch. -/
abbrev e3S11 : List (HloOp τ sig (Elt F)) :=
  [ StableHlo.unary main_arg3 main_v849 ((extractStridedSlice S8192x1 ![0, 11] · slices_S8192x20_S8192x1_0_11) : (⟨S8192x20, .i32⟩ : BufTy).Contents (Elt F) → (⟨S8192x1, .i32⟩ : BufTy).Contents (Elt F)),
    StableHlo.reshape main_v849 main_v850 rfl shapeCasts_S8192x1_S8192,
    StableHlo.nullary main_c_171 (constantI S_ 32 0#32),
    StableHlo.unary main_c_171 main_v851 (broadcastInDim S8192 ![] bcast_S_S8192 : (⟨S_, .i32⟩ : BufTy).Contents (Elt F) → (⟨S8192, .i32⟩ : BufTy).Contents (Elt F)),
    StableHlo.binary main_v850 main_v851 main_v852 (cmpi .slt : (⟨S8192, .i32⟩ : BufTy).Contents (Elt F) → (⟨S8192, .i32⟩ : BufTy).Contents (Elt F) → (⟨S8192, .i1⟩ : BufTy).Contents (Elt F)),
    StableHlo.nullary main_c_172 (constantI S_ 32 10000#32),
    StableHlo.unary main_c_172 main_v853 (broadcastInDim S8192 ![] bcast_S_S8192 : (⟨S_, .i32⟩ : BufTy).Contents (Elt F) → (⟨S8192, .i32⟩ : BufTy).Contents (Elt F)),
    StableHlo.binary main_v850 main_v853 main_v854 (addi : (⟨S8192, .i32⟩ : BufTy).Contents (Elt F) → (⟨S8192, .i32⟩ : BufTy).Contents (Elt F) → (⟨S8192, .i32⟩ : BufTy).Contents (Elt F)),
    StableHlo.ternary main_v852 main_v854 main_v850 main_v855 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v855 main_v856 (broadcastInDim S8192x1 ![0] bcast_S8192_S8192x1_0 : (⟨S8192, .i32⟩ : BufTy).Contents (Elt F) → (⟨S8192x1, .i32⟩ : BufTy).Contents (Elt F)),
    StableHlo.binary main_v737 main_v856 main_v857 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v848 main_v857 main_v858 (addf : (⟨S8192x65, .f32⟩ : BufTy).Contents (Elt F) → (⟨S8192x65, .f32⟩ : BufTy).Contents (Elt F) → (⟨S8192x65, .f32⟩ : BufTy).Contents (Elt F)) ]
abbrev e3S11_W : List (Ref sig .tc) := [main_v849, main_v850, main_c_171, main_v851, main_v852, main_c_172, main_v853, main_v854, main_v855, main_v856, main_v857, main_v858]
theorem e3S11_writes : (e3S11 : List (HloOp τ sig (Elt F))).Forall fun op => op.writes ⊆ (e3S11_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1034 … 1045 of the host stretch. -/
abbrev e3S12 : List (HloOp τ sig (Elt F)) :=
  [ StableHlo.unary main_arg3 main_v859 ((extractStridedSlice S8192x1 ![0, 12] · slices_S8192x20_S8192x1_0_12) : (⟨S8192x20, .i32⟩ : BufTy).Contents (Elt F) → (⟨S8192x1, .i32⟩ : BufTy).Contents (Elt F)),
    StableHlo.reshape main_v859 main_v860 rfl shapeCasts_S8192x1_S8192,
    StableHlo.nullary main_c_173 (constantI S_ 32 0#32),
    StableHlo.unary main_c_173 main_v861 (broadcastInDim S8192 ![] bcast_S_S8192 : (⟨S_, .i32⟩ : BufTy).Contents (Elt F) → (⟨S8192, .i32⟩ : BufTy).Contents (Elt F)),
    StableHlo.binary main_v860 main_v861 main_v862 (cmpi .slt : (⟨S8192, .i32⟩ : BufTy).Contents (Elt F) → (⟨S8192, .i32⟩ : BufTy).Contents (Elt F) → (⟨S8192, .i1⟩ : BufTy).Contents (Elt F)),
    StableHlo.nullary main_c_174 (constantI S_ 32 10000#32),
    StableHlo.unary main_c_174 main_v863 (broadcastInDim S8192 ![] bcast_S_S8192 : (⟨S_, .i32⟩ : BufTy).Contents (Elt F) → (⟨S8192, .i32⟩ : BufTy).Contents (Elt F)),
    StableHlo.binary main_v860 main_v863 main_v864 (addi : (⟨S8192, .i32⟩ : BufTy).Contents (Elt F) → (⟨S8192, .i32⟩ : BufTy).Contents (Elt F) → (⟨S8192, .i32⟩ : BufTy).Contents (Elt F)),
    StableHlo.ternary main_v862 main_v864 main_v860 main_v865 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v865 main_v866 (broadcastInDim S8192x1 ![0] bcast_S8192_S8192x1_0 : (⟨S8192, .i32⟩ : BufTy).Contents (Elt F) → (⟨S8192x1, .i32⟩ : BufTy).Contents (Elt F)),
    StableHlo.binary main_v737 main_v866 main_v867 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v858 main_v867 main_v868 (addf : (⟨S8192x65, .f32⟩ : BufTy).Contents (Elt F) → (⟨S8192x65, .f32⟩ : BufTy).Contents (Elt F) → (⟨S8192x65, .f32⟩ : BufTy).Contents (Elt F)) ]
abbrev e3S12_W : List (Ref sig .tc) := [main_v859, main_v860, main_c_173, main_v861, main_v862, main_c_174, main_v863, main_v864, main_v865, main_v866, main_v867, main_v868]
theorem e3S12_writes : (e3S12 : List (HloOp τ sig (Elt F))).Forall fun op => op.writes ⊆ (e3S12_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1046 … 1057 of the host stretch. -/
abbrev e3S13 : List (HloOp τ sig (Elt F)) :=
  [ StableHlo.unary main_arg3 main_v869 ((extractStridedSlice S8192x1 ![0, 13] · slices_S8192x20_S8192x1_0_13) : (⟨S8192x20, .i32⟩ : BufTy).Contents (Elt F) → (⟨S8192x1, .i32⟩ : BufTy).Contents (Elt F)),
    StableHlo.reshape main_v869 main_v870 rfl shapeCasts_S8192x1_S8192,
    StableHlo.nullary main_c_175 (constantI S_ 32 0#32),
    StableHlo.unary main_c_175 main_v871 (broadcastInDim S8192 ![] bcast_S_S8192 : (⟨S_, .i32⟩ : BufTy).Contents (Elt F) → (⟨S8192, .i32⟩ : BufTy).Contents (Elt F)),
    StableHlo.binary main_v870 main_v871 main_v872 (cmpi .slt : (⟨S8192, .i32⟩ : BufTy).Contents (Elt F) → (⟨S8192, .i32⟩ : BufTy).Contents (Elt F) → (⟨S8192, .i1⟩ : BufTy).Contents (Elt F)),
    StableHlo.nullary main_c_176 (constantI S_ 32 10000#32),
    StableHlo.unary main_c_176 main_v873 (broadcastInDim S8192 ![] bcast_S_S8192 : (⟨S_, .i32⟩ : BufTy).Contents (Elt F) → (⟨S8192, .i32⟩ : BufTy).Contents (Elt F)),
    StableHlo.binary main_v870 main_v873 main_v874 (addi : (⟨S8192, .i32⟩ : BufTy).Contents (Elt F) → (⟨S8192, .i32⟩ : BufTy).Contents (Elt F) → (⟨S8192, .i32⟩ : BufTy).Contents (Elt F)),
    StableHlo.ternary main_v872 main_v874 main_v870 main_v875 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v875 main_v876 (broadcastInDim S8192x1 ![0] bcast_S8192_S8192x1_0 : (⟨S8192, .i32⟩ : BufTy).Contents (Elt F) → (⟨S8192x1, .i32⟩ : BufTy).Contents (Elt F)),
    StableHlo.binary main_v737 main_v876 main_v877 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v868 main_v877 main_v878 (addf : (⟨S8192x65, .f32⟩ : BufTy).Contents (Elt F) → (⟨S8192x65, .f32⟩ : BufTy).Contents (Elt F) → (⟨S8192x65, .f32⟩ : BufTy).Contents (Elt F)) ]
abbrev e3S13_W : List (Ref sig .tc) := [main_v869, main_v870, main_c_175, main_v871, main_v872, main_c_176, main_v873, main_v874, main_v875, main_v876, main_v877, main_v878]
theorem e3S13_writes : (e3S13 : List (HloOp τ sig (Elt F))).Forall fun op => op.writes ⊆ (e3S13_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1058 … 1069 of the host stretch. -/
abbrev e3S14 : List (HloOp τ sig (Elt F)) :=
  [ StableHlo.unary main_arg3 main_v879 ((extractStridedSlice S8192x1 ![0, 14] · slices_S8192x20_S8192x1_0_14) : (⟨S8192x20, .i32⟩ : BufTy).Contents (Elt F) → (⟨S8192x1, .i32⟩ : BufTy).Contents (Elt F)),
    StableHlo.reshape main_v879 main_v880 rfl shapeCasts_S8192x1_S8192,
    StableHlo.nullary main_c_177 (constantI S_ 32 0#32),
    StableHlo.unary main_c_177 main_v881 (broadcastInDim S8192 ![] bcast_S_S8192 : (⟨S_, .i32⟩ : BufTy).Contents (Elt F) → (⟨S8192, .i32⟩ : BufTy).Contents (Elt F)),
    StableHlo.binary main_v880 main_v881 main_v882 (cmpi .slt : (⟨S8192, .i32⟩ : BufTy).Contents (Elt F) → (⟨S8192, .i32⟩ : BufTy).Contents (Elt F) → (⟨S8192, .i1⟩ : BufTy).Contents (Elt F)),
    StableHlo.nullary main_c_178 (constantI S_ 32 10000#32),
    StableHlo.unary main_c_178 main_v883 (broadcastInDim S8192 ![] bcast_S_S8192 : (⟨S_, .i32⟩ : BufTy).Contents (Elt F) → (⟨S8192, .i32⟩ : BufTy).Contents (Elt F)),
    StableHlo.binary main_v880 main_v883 main_v884 (addi : (⟨S8192, .i32⟩ : BufTy).Contents (Elt F) → (⟨S8192, .i32⟩ : BufTy).Contents (Elt F) → (⟨S8192, .i32⟩ : BufTy).Contents (Elt F)),
    StableHlo.ternary main_v882 main_v884 main_v880 main_v885 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v885 main_v886 (broadcastInDim S8192x1 ![0] bcast_S8192_S8192x1_0 : (⟨S8192, .i32⟩ : BufTy).Contents (Elt F) → (⟨S8192x1, .i32⟩ : BufTy).Contents (Elt F)),
    StableHlo.binary main_v737 main_v886 main_v887 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v878 main_v887 main_v888 (addf : (⟨S8192x65, .f32⟩ : BufTy).Contents (Elt F) → (⟨S8192x65, .f32⟩ : BufTy).Contents (Elt F) → (⟨S8192x65, .f32⟩ : BufTy).Contents (Elt F)) ]
abbrev e3S14_W : List (Ref sig .tc) := [main_v879, main_v880, main_c_177, main_v881, main_v882, main_c_178, main_v883, main_v884, main_v885, main_v886, main_v887, main_v888]
theorem e3S14_writes : (e3S14 : List (HloOp τ sig (Elt F))).Forall fun op => op.writes ⊆ (e3S14_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1070 … 1081 of the host stretch. -/
abbrev e3S15 : List (HloOp τ sig (Elt F)) :=
  [ StableHlo.unary main_arg3 main_v889 ((extractStridedSlice S8192x1 ![0, 15] · slices_S8192x20_S8192x1_0_15) : (⟨S8192x20, .i32⟩ : BufTy).Contents (Elt F) → (⟨S8192x1, .i32⟩ : BufTy).Contents (Elt F)),
    StableHlo.reshape main_v889 main_v890 rfl shapeCasts_S8192x1_S8192,
    StableHlo.nullary main_c_179 (constantI S_ 32 0#32),
    StableHlo.unary main_c_179 main_v891 (broadcastInDim S8192 ![] bcast_S_S8192 : (⟨S_, .i32⟩ : BufTy).Contents (Elt F) → (⟨S8192, .i32⟩ : BufTy).Contents (Elt F)),
    StableHlo.binary main_v890 main_v891 main_v892 (cmpi .slt : (⟨S8192, .i32⟩ : BufTy).Contents (Elt F) → (⟨S8192, .i32⟩ : BufTy).Contents (Elt F) → (⟨S8192, .i1⟩ : BufTy).Contents (Elt F)),
    StableHlo.nullary main_c_180 (constantI S_ 32 10000#32),
    StableHlo.unary main_c_180 main_v893 (broadcastInDim S8192 ![] bcast_S_S8192 : (⟨S_, .i32⟩ : BufTy).Contents (Elt F) → (⟨S8192, .i32⟩ : BufTy).Contents (Elt F)),
    StableHlo.binary main_v890 main_v893 main_v894 (addi : (⟨S8192, .i32⟩ : BufTy).Contents (Elt F) → (⟨S8192, .i32⟩ : BufTy).Contents (Elt F) → (⟨S8192, .i32⟩ : BufTy).Contents (Elt F)),
    StableHlo.ternary main_v892 main_v894 main_v890 main_v895 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v895 main_v896 (broadcastInDim S8192x1 ![0] bcast_S8192_S8192x1_0 : (⟨S8192, .i32⟩ : BufTy).Contents (Elt F) → (⟨S8192x1, .i32⟩ : BufTy).Contents (Elt F)),
    StableHlo.binary main_v737 main_v896 main_v897 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v888 main_v897 main_v898 (addf : (⟨S8192x65, .f32⟩ : BufTy).Contents (Elt F) → (⟨S8192x65, .f32⟩ : BufTy).Contents (Elt F) → (⟨S8192x65, .f32⟩ : BufTy).Contents (Elt F)) ]
abbrev e3S15_W : List (Ref sig .tc) := [main_v889, main_v890, main_c_179, main_v891, main_v892, main_c_180, main_v893, main_v894, main_v895, main_v896, main_v897, main_v898]
theorem e3S15_writes : (e3S15 : List (HloOp τ sig (Elt F))).Forall fun op => op.writes ⊆ (e3S15_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1082 … 1093 of the host stretch. -/
abbrev e3S16 : List (HloOp τ sig (Elt F)) :=
  [ StableHlo.unary main_arg3 main_v899 ((extractStridedSlice S8192x1 ![0, 16] · slices_S8192x20_S8192x1_0_16) : (⟨S8192x20, .i32⟩ : BufTy).Contents (Elt F) → (⟨S8192x1, .i32⟩ : BufTy).Contents (Elt F)),
    StableHlo.reshape main_v899 main_v900 rfl shapeCasts_S8192x1_S8192,
    StableHlo.nullary main_c_181 (constantI S_ 32 0#32),
    StableHlo.unary main_c_181 main_v901 (broadcastInDim S8192 ![] bcast_S_S8192 : (⟨S_, .i32⟩ : BufTy).Contents (Elt F) → (⟨S8192, .i32⟩ : BufTy).Contents (Elt F)),
    StableHlo.binary main_v900 main_v901 main_v902 (cmpi .slt : (⟨S8192, .i32⟩ : BufTy).Contents (Elt F) → (⟨S8192, .i32⟩ : BufTy).Contents (Elt F) → (⟨S8192, .i1⟩ : BufTy).Contents (Elt F)),
    StableHlo.nullary main_c_182 (constantI S_ 32 10000#32),
    StableHlo.unary main_c_182 main_v903 (broadcastInDim S8192 ![] bcast_S_S8192 : (⟨S_, .i32⟩ : BufTy).Contents (Elt F) → (⟨S8192, .i32⟩ : BufTy).Contents (Elt F)),
    StableHlo.binary main_v900 main_v903 main_v904 (addi : (⟨S8192, .i32⟩ : BufTy).Contents (Elt F) → (⟨S8192, .i32⟩ : BufTy).Contents (Elt F) → (⟨S8192, .i32⟩ : BufTy).Contents (Elt F)),
    StableHlo.ternary main_v902 main_v904 main_v900 main_v905 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v905 main_v906 (broadcastInDim S8192x1 ![0] bcast_S8192_S8192x1_0 : (⟨S8192, .i32⟩ : BufTy).Contents (Elt F) → (⟨S8192x1, .i32⟩ : BufTy).Contents (Elt F)),
    StableHlo.binary main_v737 main_v906 main_v907 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v898 main_v907 main_v908 (addf : (⟨S8192x65, .f32⟩ : BufTy).Contents (Elt F) → (⟨S8192x65, .f32⟩ : BufTy).Contents (Elt F) → (⟨S8192x65, .f32⟩ : BufTy).Contents (Elt F)) ]
abbrev e3S16_W : List (Ref sig .tc) := [main_v899, main_v900, main_c_181, main_v901, main_v902, main_c_182, main_v903, main_v904, main_v905, main_v906, main_v907, main_v908]
theorem e3S16_writes : (e3S16 : List (HloOp τ sig (Elt F))).Forall fun op => op.writes ⊆ (e3S16_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1094 … 1105 of the host stretch. -/
abbrev e3S17 : List (HloOp τ sig (Elt F)) :=
  [ StableHlo.unary main_arg3 main_v909 ((extractStridedSlice S8192x1 ![0, 17] · slices_S8192x20_S8192x1_0_17) : (⟨S8192x20, .i32⟩ : BufTy).Contents (Elt F) → (⟨S8192x1, .i32⟩ : BufTy).Contents (Elt F)),
    StableHlo.reshape main_v909 main_v910 rfl shapeCasts_S8192x1_S8192,
    StableHlo.nullary main_c_183 (constantI S_ 32 0#32),
    StableHlo.unary main_c_183 main_v911 (broadcastInDim S8192 ![] bcast_S_S8192 : (⟨S_, .i32⟩ : BufTy).Contents (Elt F) → (⟨S8192, .i32⟩ : BufTy).Contents (Elt F)),
    StableHlo.binary main_v910 main_v911 main_v912 (cmpi .slt : (⟨S8192, .i32⟩ : BufTy).Contents (Elt F) → (⟨S8192, .i32⟩ : BufTy).Contents (Elt F) → (⟨S8192, .i1⟩ : BufTy).Contents (Elt F)),
    StableHlo.nullary main_c_184 (constantI S_ 32 10000#32),
    StableHlo.unary main_c_184 main_v913 (broadcastInDim S8192 ![] bcast_S_S8192 : (⟨S_, .i32⟩ : BufTy).Contents (Elt F) → (⟨S8192, .i32⟩ : BufTy).Contents (Elt F)),
    StableHlo.binary main_v910 main_v913 main_v914 (addi : (⟨S8192, .i32⟩ : BufTy).Contents (Elt F) → (⟨S8192, .i32⟩ : BufTy).Contents (Elt F) → (⟨S8192, .i32⟩ : BufTy).Contents (Elt F)),
    StableHlo.ternary main_v912 main_v914 main_v910 main_v915 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v915 main_v916 (broadcastInDim S8192x1 ![0] bcast_S8192_S8192x1_0 : (⟨S8192, .i32⟩ : BufTy).Contents (Elt F) → (⟨S8192x1, .i32⟩ : BufTy).Contents (Elt F)),
    StableHlo.binary main_v737 main_v916 main_v917 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v908 main_v917 main_v918 (addf : (⟨S8192x65, .f32⟩ : BufTy).Contents (Elt F) → (⟨S8192x65, .f32⟩ : BufTy).Contents (Elt F) → (⟨S8192x65, .f32⟩ : BufTy).Contents (Elt F)) ]
abbrev e3S17_W : List (Ref sig .tc) := [main_v909, main_v910, main_c_183, main_v911, main_v912, main_c_184, main_v913, main_v914, main_v915, main_v916, main_v917, main_v918]
theorem e3S17_writes : (e3S17 : List (HloOp τ sig (Elt F))).Forall fun op => op.writes ⊆ (e3S17_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1106 … 1117 of the host stretch. -/
abbrev e3S18 : List (HloOp τ sig (Elt F)) :=
  [ StableHlo.unary main_arg3 main_v919 ((extractStridedSlice S8192x1 ![0, 18] · slices_S8192x20_S8192x1_0_18) : (⟨S8192x20, .i32⟩ : BufTy).Contents (Elt F) → (⟨S8192x1, .i32⟩ : BufTy).Contents (Elt F)),
    StableHlo.reshape main_v919 main_v920 rfl shapeCasts_S8192x1_S8192,
    StableHlo.nullary main_c_185 (constantI S_ 32 0#32),
    StableHlo.unary main_c_185 main_v921 (broadcastInDim S8192 ![] bcast_S_S8192 : (⟨S_, .i32⟩ : BufTy).Contents (Elt F) → (⟨S8192, .i32⟩ : BufTy).Contents (Elt F)),
    StableHlo.binary main_v920 main_v921 main_v922 (cmpi .slt : (⟨S8192, .i32⟩ : BufTy).Contents (Elt F) → (⟨S8192, .i32⟩ : BufTy).Contents (Elt F) → (⟨S8192, .i1⟩ : BufTy).Contents (Elt F)),
    StableHlo.nullary main_c_186 (constantI S_ 32 10000#32),
    StableHlo.unary main_c_186 main_v923 (broadcastInDim S8192 ![] bcast_S_S8192 : (⟨S_, .i32⟩ : BufTy).Contents (Elt F) → (⟨S8192, .i32⟩ : BufTy).Contents (Elt F)),
    StableHlo.binary main_v920 main_v923 main_v924 (addi : (⟨S8192, .i32⟩ : BufTy).Contents (Elt F) → (⟨S8192, .i32⟩ : BufTy).Contents (Elt F) → (⟨S8192, .i32⟩ : BufTy).Contents (Elt F)),
    StableHlo.ternary main_v922 main_v924 main_v920 main_v925 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v925 main_v926 (broadcastInDim S8192x1 ![0] bcast_S8192_S8192x1_0 : (⟨S8192, .i32⟩ : BufTy).Contents (Elt F) → (⟨S8192x1, .i32⟩ : BufTy).Contents (Elt F)),
    StableHlo.binary main_v737 main_v926 main_v927 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v918 main_v927 main_v928 (addf : (⟨S8192x65, .f32⟩ : BufTy).Contents (Elt F) → (⟨S8192x65, .f32⟩ : BufTy).Contents (Elt F) → (⟨S8192x65, .f32⟩ : BufTy).Contents (Elt F)) ]
abbrev e3S18_W : List (Ref sig .tc) := [main_v919, main_v920, main_c_185, main_v921, main_v922, main_c_186, main_v923, main_v924, main_v925, main_v926, main_v927, main_v928]
theorem e3S18_writes : (e3S18 : List (HloOp τ sig (Elt F))).Forall fun op => op.writes ⊆ (e3S18_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1118 … 1129 of the host stretch. -/
abbrev e3S19 : List (HloOp τ sig (Elt F)) :=
  [ StableHlo.unary main_arg3 main_v929 ((extractStridedSlice S8192x1 ![0, 19] · slices_S8192x20_S8192x1_0_19) : (⟨S8192x20, .i32⟩ : BufTy).Contents (Elt F) → (⟨S8192x1, .i32⟩ : BufTy).Contents (Elt F)),
    StableHlo.reshape main_v929 main_v930 rfl shapeCasts_S8192x1_S8192,
    StableHlo.nullary main_c_187 (constantI S_ 32 0#32),
    StableHlo.unary main_c_187 main_v931 (broadcastInDim S8192 ![] bcast_S_S8192 : (⟨S_, .i32⟩ : BufTy).Contents (Elt F) → (⟨S8192, .i32⟩ : BufTy).Contents (Elt F)),
    StableHlo.binary main_v930 main_v931 main_v932 (cmpi .slt : (⟨S8192, .i32⟩ : BufTy).Contents (Elt F) → (⟨S8192, .i32⟩ : BufTy).Contents (Elt F) → (⟨S8192, .i1⟩ : BufTy).Contents (Elt F)),
    StableHlo.nullary main_c_188 (constantI S_ 32 10000#32),
    StableHlo.unary main_c_188 main_v933 (broadcastInDim S8192 ![] bcast_S_S8192 : (⟨S_, .i32⟩ : BufTy).Contents (Elt F) → (⟨S8192, .i32⟩ : BufTy).Contents (Elt F)),
    StableHlo.binary main_v930 main_v933 main_v934 (addi : (⟨S8192, .i32⟩ : BufTy).Contents (Elt F) → (⟨S8192, .i32⟩ : BufTy).Contents (Elt F) → (⟨S8192, .i32⟩ : BufTy).Contents (Elt F)),
    StableHlo.ternary main_v932 main_v934 main_v930 main_v935 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v935 main_v936 (broadcastInDim S8192x1 ![0] bcast_S8192_S8192x1_0 : (⟨S8192, .i32⟩ : BufTy).Contents (Elt F) → (⟨S8192x1, .i32⟩ : BufTy).Contents (Elt F)),
    StableHlo.binary main_v737 main_v936 main_v937 ((fun x i => Host.gather gather_S10000x65_S8192x1_S8192x65_1_0_n_n_0_1_165 x i) : (⟨S10000x65, .f32⟩ : BufTy).Contents (Elt F) → (⟨S8192x1, .i32⟩ : BufTy).Contents (Elt F) → (⟨S8192x65, .f32⟩ : BufTy).Contents (Elt F)),
    StableHlo.binary main_v928 main_v937 main_v938 (addf : (⟨S8192x65, .f32⟩ : BufTy).Contents (Elt F) → (⟨S8192x65, .f32⟩ : BufTy).Contents (Elt F) → (⟨S8192x65, .f32⟩ : BufTy).Contents (Elt F)) ]
abbrev e3S19_W : List (Ref sig .tc) := [main_v929, main_v930, main_c_187, main_v931, main_v932, main_c_188, main_v933, main_v934, main_v935, main_v936, main_v937, main_v938]
theorem e3S19_writes : (e3S19 : List (HloOp τ sig (Elt F))).Forall fun op => op.writes ⊆ (e3S19_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1130 … 1135 of the host stretch. -/
abbrev e3T : List (HloOp τ sig (Elt F)) :=
  [ StableHlo.unary main_v938 main_v939 ((extractStridedSlice S8192x64 ![0, 0] · slices_S8192x65_S8192x64_0_0) : (⟨S8192x65, .f32⟩ : BufTy).Contents (Elt F) → (⟨S8192x64, .f32⟩ : BufTy).Contents (Elt F)),
    StableHlo.nullary main_cst_189 (constant S_ .f32 0x41A00000#32),
    StableHlo.unary main_cst_189 main_v940 (broadcastInDim S8192x64 ![] bcast_S_S8192x64 : (⟨S_, .f32⟩ : BufTy).Contents (Elt F) → (⟨S8192x64, .f32⟩ : BufTy).Contents (Elt F)),
    StableHlo.binary main_v939 main_v940 main_v941 (Host.divf : (⟨S8192x64, .f32⟩ : BufTy).Contents (Elt F) → (⟨S8192x64, .f32⟩ : BufTy).Contents (Elt F) → (⟨S8192x64, .f32⟩ : BufTy).Contents (Elt F)),
    StableHlo.unary main_v938 main_v942 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v942 main_v943 rfl shapeCasts_S8192x1_S8192 ]
abbrev e3T_W : List (Ref sig .tc) := [main_v939, main_cst_189, main_v940, main_v941, main_v942, main_v943]
theorem e3T_writes : (e3T : List (HloOp τ sig (Elt F))).Forall fun op => op.writes ⊆ (e3T_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

end Cert.WideDeep.Glue

end
-- ==== Proof.GlueOpsRest.lean ====
/-
  The host stretch's operations 1136 … 1217, cut into short lists (each a sublist of the program's own list,
  in order), with the buffers each list writes.
-/
import proofs.«151196_j43095701848227_2_alg».proof.Proof.Gen.KernelIdeal.Launch
import proofs.«151196_j43095701848227_2_alg».proof.Proof.KArgs
import proofs.«151196_j43095701848227_2_alg».proof.Proof.GlueLib

set_option maxRecDepth 8192

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable {F : FTy → Type} [FloatOps F]

/-- Operations 1136 … 1148 of the host stretch. -/
abbrev o1K : List (HloOp τ sig (Elt F)) :=
  [ StableHlo.binary main_arg12 main_arg19 main_v944 ((fun a b => concatenate S100x65 1 [⟨S100x64, a⟩, ⟨S100x1, b⟩] concatenates_S100x64_S100x1_S100x65_d1) : (⟨S100x64, .f32⟩ : BufTy).Contents (Elt F) → (⟨S100x1, .f32⟩ : BufTy).Contents (Elt F) → (⟨S100x65, .f32⟩ : BufTy).Contents (Elt F)),
    StableHlo.nullary main_c_190 (constantI S_ 32 0#32),
    StableHlo.unary main_c_190 main_v945 (broadcastInDim S8192 ![] bcast_S_S8192 : (⟨S_, .i32⟩ : BufTy).Contents (Elt F) → (⟨S8192, .i32⟩ : BufTy).Contents (Elt F)),
    StableHlo.binary main_arg4 main_v945 main_v946 (cmpi .slt : (⟨S8192, .i32⟩ : BufTy).Contents (Elt F) → (⟨S8192, .i32⟩ : BufTy).Contents (Elt F) → (⟨S8192, .i1⟩ : BufTy).Contents (Elt F)),
    StableHlo.nullary main_c_191 (constantI S_ 32 100#32),
    StableHlo.unary main_c_191 main_v947 (broadcastInDim S8192 ![] bcast_S_S8192 : (⟨S_, .i32⟩ : BufTy).Contents (Elt F) → (⟨S8192, .i32⟩ : BufTy).Contents (Elt F)),
    StableHlo.binary main_arg4 main_v947 main_v948 (addi : (⟨S8192, .i32⟩ : BufTy).Contents (Elt F) → (⟨S8192, .i32⟩ : BufTy).Contents (Elt F) → (⟨S8192, .i32⟩ : BufTy).Contents (Elt F)),
    StableHlo.ternary main_v946 main_v948 main_arg4 main_v949 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v949 main_v950 (broadcastInDim S8192x1 ![0] bcast_S8192_S8192x1_0 : (⟨S8192, .i32⟩ : BufTy).Contents (Elt F) → (⟨S8192x1, .i32⟩ : BufTy).Contents (Elt F)),
    StableHlo.binary main_v944 main_v950 main_v951 ((fun x i => Host.gather gather_S100x65_S8192x1_S8192x65_1_0_n_n_0_1_165 x i) : (⟨S100x65, .f32⟩ : BufTy).Contents (Elt F) → (⟨S8192x1, .i32⟩ : BufTy).Contents (Elt F) → (⟨S8192x65, .f32⟩ : BufTy).Contents (Elt F)),
    StableHlo.unary main_v951 main_v952 ((extractStridedSlice S8192x64 ![0, 0] · slices_S8192x65_S8192x64_0_0) : (⟨S8192x65, .f32⟩ : BufTy).Contents (Elt F) → (⟨S8192x64, .f32⟩ : BufTy).Contents (Elt F)),
    StableHlo.unary main_v951 main_v953 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v953 main_v954 rfl shapeCasts_S8192x1_S8192 ]
abbrev o1K_W : List (Ref sig .tc) := [main_v944, main_c_190, main_v945, main_v946, main_c_191, main_v947, main_v948, main_v949, main_v950, main_v951, main_v952, main_v953, main_v954]
theorem o1K_writes : (o1K : List (HloOp τ sig (Elt F))).Forall fun op => op.writes ⊆ (o1K_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1149 … 1161 of the host stretch. -/
abbrev o2K : List (HloOp τ sig (Elt F)) :=
  [ StableHlo.binary main_arg13 main_arg20 main_v955 ((fun a b => concatenate S50x65 1 [⟨S50x64, a⟩, ⟨S50x1, b⟩] concatenates_S50x64_S50x1_S50x65_d1) : (⟨S50x64, .f32⟩ : BufTy).Contents (Elt F) → (⟨S50x1, .f32⟩ : BufTy).Contents (Elt F) → (⟨S50x65, .f32⟩ : BufTy).Contents (Elt F)),
    StableHlo.nullary main_c_192 (constantI S_ 32 0#32),
    StableHlo.unary main_c_192 main_v956 (broadcastInDim S8192 ![] bcast_S_S8192 : (⟨S_, .i32⟩ : BufTy).Contents (Elt F) → (⟨S8192, .i32⟩ : BufTy).Contents (Elt F)),
    StableHlo.binary main_arg5 main_v956 main_v957 (cmpi .slt : (⟨S8192, .i32⟩ : BufTy).Contents (Elt F) → (⟨S8192, .i32⟩ : BufTy).Contents (Elt F) → (⟨S8192, .i1⟩ : BufTy).Contents (Elt F)),
    StableHlo.nullary main_c_193 (constantI S_ 32 50#32),
    StableHlo.unary main_c_193 main_v958 (broadcastInDim S8192 ![] bcast_S_S8192 : (⟨S_, .i32⟩ : BufTy).Contents (Elt F) → (⟨S8192, .i32⟩ : BufTy).Contents (Elt F)),
    StableHlo.binary main_arg5 main_v958 main_v959 (addi : (⟨S8192, .i32⟩ : BufTy).Contents (Elt F) → (⟨S8192, .i32⟩ : BufTy).Contents (Elt F) → (⟨S8192, .i32⟩ : BufTy).Contents (Elt F)),
    StableHlo.ternary main_v957 main_v959 main_arg5 main_v960 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v960 main_v961 (broadcastInDim S8192x1 ![0] bcast_S8192_S8192x1_0 : (⟨S8192, .i32⟩ : BufTy).Contents (Elt F) → (⟨S8192x1, .i32⟩ : BufTy).Contents (Elt F)),
    StableHlo.binary main_v955 main_v961 main_v962 ((fun x i => Host.gather gather_S50x65_S8192x1_S8192x65_1_0_n_n_0_1_165 x i) : (⟨S50x65, .f32⟩ : BufTy).Contents (Elt F) → (⟨S8192x1, .i32⟩ : BufTy).Contents (Elt F) → (⟨S8192x65, .f32⟩ : BufTy).Contents (Elt F)),
    StableHlo.unary main_v962 main_v963 ((extractStridedSlice S8192x64 ![0, 0] · slices_S8192x65_S8192x64_0_0) : (⟨S8192x65, .f32⟩ : BufTy).Contents (Elt F) → (⟨S8192x64, .f32⟩ : BufTy).Contents (Elt F)),
    StableHlo.unary main_v962 main_v964 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v964 main_v965 rfl shapeCasts_S8192x1_S8192 ]
abbrev o2K_W : List (Ref sig .tc) := [main_v955, main_c_192, main_v956, main_v957, main_c_193, main_v958, main_v959, main_v960, main_v961, main_v962, main_v963, main_v964, main_v965]
theorem o2K_writes : (o2K : List (HloOp τ sig (Elt F))).Forall fun op => op.writes ⊆ (o2K_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1162 … 1174 of the host stretch. -/
abbrev o3K : List (HloOp τ sig (Elt F)) :=
  [ StableHlo.binary main_arg14 main_arg21 main_v966 ((fun a b => concatenate S20x65 1 [⟨S20x64, a⟩, ⟨S20x1, b⟩] concatenates_S20x64_S20x1_S20x65_d1) : (⟨S20x64, .f32⟩ : BufTy).Contents (Elt F) → (⟨S20x1, .f32⟩ : BufTy).Contents (Elt F) → (⟨S20x65, .f32⟩ : BufTy).Contents (Elt F)),
    StableHlo.nullary main_c_194 (constantI S_ 32 0#32),
    StableHlo.unary main_c_194 main_v967 (broadcastInDim S8192 ![] bcast_S_S8192 : (⟨S_, .i32⟩ : BufTy).Contents (Elt F) → (⟨S8192, .i32⟩ : BufTy).Contents (Elt F)),
    StableHlo.binary main_arg6 main_v967 main_v968 (cmpi .slt : (⟨S8192, .i32⟩ : BufTy).Contents (Elt F) → (⟨S8192, .i32⟩ : BufTy).Contents (Elt F) → (⟨S8192, .i1⟩ : BufTy).Contents (Elt F)),
    StableHlo.nullary main_c_195 (constantI S_ 32 20#32),
    StableHlo.unary main_c_195 main_v969 (broadcastInDim S8192 ![] bcast_S_S8192 : (⟨S_, .i32⟩ : BufTy).Contents (Elt F) → (⟨S8192, .i32⟩ : BufTy).Contents (Elt F)),
    StableHlo.binary main_arg6 main_v969 main_v970 (addi : (⟨S8192, .i32⟩ : BufTy).Contents (Elt F) → (⟨S8192, .i32⟩ : BufTy).Contents (Elt F) → (⟨S8192, .i32⟩ : BufTy).Contents (Elt F)),
    StableHlo.ternary main_v968 main_v970 main_arg6 main_v971 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v971 main_v972 (broadcastInDim S8192x1 ![0] bcast_S8192_S8192x1_0 : (⟨S8192, .i32⟩ : BufTy).Contents (Elt F) → (⟨S8192x1, .i32⟩ : BufTy).Contents (Elt F)),
    StableHlo.binary main_v966 main_v972 main_v973 ((fun x i => Host.gather gather_S20x65_S8192x1_S8192x65_1_0_n_n_0_1_165 x i) : (⟨S20x65, .f32⟩ : BufTy).Contents (Elt F) → (⟨S8192x1, .i32⟩ : BufTy).Contents (Elt F) → (⟨S8192x65, .f32⟩ : BufTy).Contents (Elt F)),
    StableHlo.unary main_v973 main_v974 ((extractStridedSlice S8192x64 ![0, 0] · slices_S8192x65_S8192x64_0_0) : (⟨S8192x65, .f32⟩ : BufTy).Contents (Elt F) → (⟨S8192x64, .f32⟩ : BufTy).Contents (Elt F)),
    StableHlo.unary main_v973 main_v975 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v975 main_v976 rfl shapeCasts_S8192x1_S8192 ]
abbrev o3K_W : List (Ref sig .tc) := [main_v966, main_c_194, main_v967, main_v968, main_c_195, main_v969, main_v970, main_v971, main_v972, main_v973, main_v974, main_v975, main_v976]
theorem o3K_writes : (o3K : List (HloOp τ sig (Elt F))).Forall fun op => op.writes ⊆ (o3K_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1175 … 1187 of the host stretch. -/
abbrev o4K : List (HloOp τ sig (Elt F)) :=
  [ StableHlo.binary main_arg15 main_arg22 main_v977 ((fun a b => concatenate S1000x65 1 [⟨S1000x64, a⟩, ⟨S1000x1, b⟩] concatenates_S1000x64_S1000x1_S1000x65_d1) : (⟨S1000x64, .f32⟩ : BufTy).Contents (Elt F) → (⟨S1000x1, .f32⟩ : BufTy).Contents (Elt F) → (⟨S1000x65, .f32⟩ : BufTy).Contents (Elt F)),
    StableHlo.nullary main_c_196 (constantI S_ 32 0#32),
    StableHlo.unary main_c_196 main_v978 (broadcastInDim S8192 ![] bcast_S_S8192 : (⟨S_, .i32⟩ : BufTy).Contents (Elt F) → (⟨S8192, .i32⟩ : BufTy).Contents (Elt F)),
    StableHlo.binary main_arg7 main_v978 main_v979 (cmpi .slt : (⟨S8192, .i32⟩ : BufTy).Contents (Elt F) → (⟨S8192, .i32⟩ : BufTy).Contents (Elt F) → (⟨S8192, .i1⟩ : BufTy).Contents (Elt F)),
    StableHlo.nullary main_c_197 (constantI S_ 32 1000#32),
    StableHlo.unary main_c_197 main_v980 (broadcastInDim S8192 ![] bcast_S_S8192 : (⟨S_, .i32⟩ : BufTy).Contents (Elt F) → (⟨S8192, .i32⟩ : BufTy).Contents (Elt F)),
    StableHlo.binary main_arg7 main_v980 main_v981 (addi : (⟨S8192, .i32⟩ : BufTy).Contents (Elt F) → (⟨S8192, .i32⟩ : BufTy).Contents (Elt F) → (⟨S8192, .i32⟩ : BufTy).Contents (Elt F)),
    StableHlo.ternary main_v979 main_v981 main_arg7 main_v982 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v982 main_v983 (broadcastInDim S8192x1 ![0] bcast_S8192_S8192x1_0 : (⟨S8192, .i32⟩ : BufTy).Contents (Elt F) → (⟨S8192x1, .i32⟩ : BufTy).Contents (Elt F)),
    StableHlo.binary main_v977 main_v983 main_v984 ((fun x i => Host.gather gather_S1000x65_S8192x1_S8192x65_1_0_n_n_0_1_165 x i) : (⟨S1000x65, .f32⟩ : BufTy).Contents (Elt F) → (⟨S8192x1, .i32⟩ : BufTy).Contents (Elt F) → (⟨S8192x65, .f32⟩ : BufTy).Contents (Elt F)),
    StableHlo.unary main_v984 main_v985 ((extractStridedSlice S8192x64 ![0, 0] · slices_S8192x65_S8192x64_0_0) : (⟨S8192x65, .f32⟩ : BufTy).Contents (Elt F) → (⟨S8192x64, .f32⟩ : BufTy).Contents (Elt F)),
    StableHlo.unary main_v984 main_v986 ((extractStridedSlice S8192x1 ![0, 64] · slices_S8192x65_S8192x1_0_64) : (⟨S8192x65, .f32⟩ : BufTy).Contents (Elt F) → (⟨S8192x1, .f32⟩ : BufTy).Contents (Elt F)),
    StableHlo.reshape main_v986 main_v987 rfl shapeCasts_S8192x1_S8192 ]
abbrev o4K_W : List (Ref sig .tc) := [main_v977, main_c_196, main_v978, main_v979, main_c_197, main_v980, main_v981, main_v982, main_v983, main_v984, main_v985, main_v986, main_v987]
theorem o4K_writes : (o4K : List (HloOp τ sig (Elt F))).Forall fun op => op.writes ⊆ (o4K_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1188 … 1194 of the host stretch. -/
abbrev wideK : List (HloOp τ sig (Elt F)) :=
  [ StableHlo.binary main_v529 main_v736 main_v988 (addf : (⟨S8192, .f32⟩ : BufTy).Contents (Elt F) → (⟨S8192, .f32⟩ : BufTy).Contents (Elt F) → (⟨S8192, .f32⟩ : BufTy).Contents (Elt F)),
    StableHlo.binary main_v988 main_v943 main_v989 (addf : (⟨S8192, .f32⟩ : BufTy).Contents (Elt F) → (⟨S8192, .f32⟩ : BufTy).Contents (Elt F) → (⟨S8192, .f32⟩ : BufTy).Contents (Elt F)),
    StableHlo.binary main_v989 main_v954 main_v990 (addf : (⟨S8192, .f32⟩ : BufTy).Contents (Elt F) → (⟨S8192, .f32⟩ : BufTy).Contents (Elt F) → (⟨S8192, .f32⟩ : BufTy).Contents (Elt F)),
    StableHlo.binary main_v990 main_v965 main_v991 (addf : (⟨S8192, .f32⟩ : BufTy).Contents (Elt F) → (⟨S8192, .f32⟩ : BufTy).Contents (Elt F) → (⟨S8192, .f32⟩ : BufTy).Contents (Elt F)),
    StableHlo.binary main_v991 main_v976 main_v992 (addf : (⟨S8192, .f32⟩ : BufTy).Contents (Elt F) → (⟨S8192, .f32⟩ : BufTy).Contents (Elt F) → (⟨S8192, .f32⟩ : BufTy).Contents (Elt F)),
    StableHlo.binary main_v992 main_v987 main_v993 (addf : (⟨S8192, .f32⟩ : BufTy).Contents (Elt F) → (⟨S8192, .f32⟩ : BufTy).Contents (Elt F) → (⟨S8192, .f32⟩ : BufTy).Contents (Elt F)),
    StableHlo.unary main_v993 main_v994 (broadcastInDim S8192x1 ![0] bcast_S8192_S8192x1_0 : (⟨S8192, .f32⟩ : BufTy).Contents (Elt F) → (⟨S8192x1, .f32⟩ : BufTy).Contents (Elt F)) ]
abbrev wideK_W : List (Ref sig .tc) := [main_v988, main_v989, main_v990, main_v991, main_v992, main_v993, main_v994]
theorem wideK_writes : (wideK : List (HloOp τ sig (Elt F))).Forall fun op => op.writes ⊆ (wideK_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

/-- Operations 1195 … 1217 of the host stretch. -/
abbrev lastK : List (HloOp τ sig (Elt F)) :=
  [ StableHlo.unary main_arg23 main_v995 ((extractStridedSlice S300x1024 ![0, 0] · slices_S748x1024_S300x1024_0_0) : (⟨S748x1024, .f32⟩ : BufTy).Contents (Elt F) → (⟨S300x1024, .f32⟩ : BufTy).Contents (Elt F)),
    StableHlo.unary main_v995 main_v996 ((truncf .bf16 · bitsLt_bf16_f32) : (⟨S300x1024, .f32⟩ : BufTy).Contents (Elt F) → (⟨S300x1024, .bf16⟩ : BufTy).Contents (Elt F)),
    StableHlo.unary main_arg23 main_v997 ((extractStridedSlice S64x1024 ![300, 0] · slices_S748x1024_S64x1024_300_0) : (⟨S748x1024, .f32⟩ : BufTy).Contents (Elt F) → (⟨S64x1024, .f32⟩ : BufTy).Contents (Elt F)),
    StableHlo.unary main_v997 main_v998 ((truncf .bf16 · bitsLt_bf16_f32) : (⟨S64x1024, .f32⟩ : BufTy).Contents (Elt F) → (⟨S64x1024, .bf16⟩ : BufTy).Contents (Elt F)),
    StableHlo.unary main_arg23 main_v999 ((extractStridedSlice S64x1024 ![364, 0] · slices_S748x1024_S64x1024_364_0) : (⟨S748x1024, .f32⟩ : BufTy).Contents (Elt F) → (⟨S64x1024, .f32⟩ : BufTy).Contents (Elt F)),
    StableHlo.unary main_v999 main_v1000 ((truncf .bf16 · bitsLt_bf16_f32) : (⟨S64x1024, .f32⟩ : BufTy).Contents (Elt F) → (⟨S64x1024, .bf16⟩ : BufTy).Contents (Elt F)),
    StableHlo.unary main_arg23 main_v1001 ((extractStridedSlice S64x1024 ![428, 0] · slices_S748x1024_S64x1024_428_0) : (⟨S748x1024, .f32⟩ : BufTy).Contents (Elt F) → (⟨S64x1024, .f32⟩ : BufTy).Contents (Elt F)),
    StableHlo.unary main_v1001 main_v1002 ((truncf .bf16 · bitsLt_bf16_f32) : (⟨S64x1024, .f32⟩ : BufTy).Contents (Elt F) → (⟨S64x1024, .bf16⟩ : BufTy).Contents (Elt F)),
    StableHlo.unary main_arg23 main_v1003 ((extractStridedSlice S64x1024 ![492, 0] · slices_S748x1024_S64x1024_492_0) : (⟨S748x1024, .f32⟩ : BufTy).Contents (Elt F) → (⟨S64x1024, .f32⟩ : BufTy).Contents (Elt F)),
    StableHlo.unary main_v1003 main_v1004 ((truncf .bf16 · bitsLt_bf16_f32) : (⟨S64x1024, .f32⟩ : BufTy).Contents (Elt F) → (⟨S64x1024, .bf16⟩ : BufTy).Contents (Elt F)),
    StableHlo.unary main_arg23 main_v1005 ((extractStridedSlice S64x1024 ![556, 0] · slices_S748x1024_S64x1024_556_0) : (⟨S748x1024, .f32⟩ : BufTy).Contents (Elt F) → (⟨S64x1024, .f32⟩ : BufTy).Contents (Elt F)),
    StableHlo.unary main_v1005 main_v1006 ((truncf .bf16 · bitsLt_bf16_f32) : (⟨S64x1024, .f32⟩ : BufTy).Contents (Elt F) → (⟨S64x1024, .bf16⟩ : BufTy).Contents (Elt F)),
    StableHlo.unary main_arg23 main_v1007 ((extractStridedSlice S64x1024 ![620, 0] · slices_S748x1024_S64x1024_620_0) : (⟨S748x1024, .f32⟩ : BufTy).Contents (Elt F) → (⟨S64x1024, .f32⟩ : BufTy).Contents (Elt F)),
    StableHlo.unary main_v1007 main_v1008 ((truncf .bf16 · bitsLt_bf16_f32) : (⟨S64x1024, .f32⟩ : BufTy).Contents (Elt F) → (⟨S64x1024, .bf16⟩ : BufTy).Contents (Elt F)),
    StableHlo.unary main_arg23 main_v1009 ((extractStridedSlice S64x1024 ![684, 0] · slices_S748x1024_S64x1024_684_0) : (⟨S748x1024, .f32⟩ : BufTy).Contents (Elt F) → (⟨S64x1024, .f32⟩ : BufTy).Contents (Elt F)),
    StableHlo.unary main_v1009 main_v1010 ((truncf .bf16 · bitsLt_bf16_f32) : (⟨S64x1024, .f32⟩ : BufTy).Contents (Elt F) → (⟨S64x1024, .bf16⟩ : BufTy).Contents (Elt F)),
    StableHlo.unary main_arg25 main_v1011 ((truncf .bf16 · bitsLt_bf16_f32) : (⟨S1024x512, .f32⟩ : BufTy).Contents (Elt F) → (⟨S1024x512, .bf16⟩ : BufTy).Contents (Elt F)),
    StableHlo.unary main_arg27 main_v1012 ((truncf .bf16 · bitsLt_bf16_f32) : (⟨S512x256, .f32⟩ : BufTy).Contents (Elt F) → (⟨S512x256, .bf16⟩ : BufTy).Contents (Elt F)),
    StableHlo.unary main_arg29 main_v1013 ((truncf .bf16 · bitsLt_bf16_f32) : (⟨S256x1, .f32⟩ : BufTy).Contents (Elt F) → (⟨S256x1, .bf16⟩ : BufTy).Contents (Elt F)),
    StableHlo.reshape main_arg24 main_v1014 rfl shapeCasts_S1024_S1x1024,
    StableHlo.reshape main_arg26 main_v1015 rfl shapeCasts_S512_S1x512,
    StableHlo.reshape main_arg28 main_v1016 rfl shapeCasts_S256_S1x256,
    StableHlo.reshape main_arg30 main_v1017 rfl shapeCasts_S1_S1x1 ]
abbrev lastK_W : List (Ref sig .tc) := [main_v995, main_v996, main_v997, main_v998, main_v999, main_v1000, main_v1001, main_v1002, main_v1003, main_v1004, main_v1005, main_v1006, main_v1007, main_v1008, main_v1009, main_v1010, main_v1011, main_v1012, main_v1013, main_v1014, main_v1015, main_v1016, main_v1017]
theorem lastK_writes : (lastK : List (HloOp τ sig (Elt F))).Forall fun op => op.writes ⊆ (lastK_W.map (Proc.devRef (τ := τ) .tc)).toFinset := by
  simp only [List.Forall]; exact ⟨by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide), by simp only [StableHlo.nullary_writes, StableHlo.unary_writes, StableHlo.binary_writes, StableHlo.ternary_writes, StableHlo.reshape_writes, Finset.singleton_subset_iff, List.mem_toFinset]; exact List.mem_map_of_mem (by decide)⟩

end Cert.WideDeep.Glue

end
-- ==== Proof.GlueCut.lean ====
/-
  The host stretch as the concatenation of its short lists, field by field, and the buffer contents after each field's
  stretch: a buffer a stretch does not write passes through it unchanged.
-/
import proofs.«151196_j43095701848227_2_alg».proof.Proof.GlueOpsTok
import proofs.«151196_j43095701848227_2_alg».proof.Proof.GlueOpsE1
import proofs.«151196_j43095701848227_2_alg».proof.Proof.GlueOpsE2
import proofs.«151196_j43095701848227_2_alg».proof.Proof.GlueOpsE3
import proofs.«151196_j43095701848227_2_alg».proof.Proof.GlueOpsRest

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable {F : FTy → Type} [FloatOps F]

/-- The stretch that computes field tok. -/
def tokK : List (HloOp τ sig (Elt F)) :=
  tokH ++ (tokS0 ++ (tokS1 ++ (tokS2 ++ (tokS3 ++ (tokS4 ++ (tokS5 ++ (tokS6 ++ (tokS7 ++ (tokS8 ++ (tokS9 ++ (tokS10 ++ (tokS11 ++ (tokS12 ++ (tokS13 ++ (tokS14 ++ (tokS15 ++ (tokS16 ++ (tokS17 ++ (tokS18 ++ (tokS19 ++ (tokS20 ++ (tokS21 ++ (tokS22 ++ (tokS23 ++ (tokS24 ++ (tokS25 ++ (tokS26 ++ (tokS27 ++ (tokS28 ++ (tokS29 ++ (tokS30 ++ (tokS31 ++ (tokT)))))))))))))))))))))))))))))))))
abbrev tokK_W : List (Ref sig .tc) :=
  tokH_W ++ (tokS0_W ++ (tokS1_W ++ (tokS2_W ++ (tokS3_W ++ (tokS4_W ++ (tokS5_W ++ (tokS6_W ++ (tokS7_W ++ (tokS8_W ++ (tokS9_W ++ (tokS10_W ++ (tokS11_W ++ (tokS12_W ++ (tokS13_W ++ (tokS14_W ++ (tokS15_W ++ (tokS16_W ++ (tokS17_W ++ (tokS18_W ++ (tokS19_W ++ (tokS20_W ++ (tokS21_W ++ (tokS22_W ++ (tokS23_W ++ (tokS24_W ++ (tokS25_W ++ (tokS26_W ++ (tokS27_W ++ (tokS28_W ++ (tokS29_W ++ (tokS30_W ++ (tokS31_W ++ (tokT_W)))))))))))))))))))))))))))))))))
theorem tokK_writes : (tokK : List (HloOp τ sig (Elt F))).Forall fun op => op.writes ⊆ (tokK_W.map (Proc.devRef (τ := τ) .tc)).toFinset :=
  writes_append tokH_writes (writes_append tokS0_writes (writes_append tokS1_writes (writes_append tokS2_writes (writes_append tokS3_writes (writes_append tokS4_writes (writes_append tokS5_writes (writes_append tokS6_writes (writes_append tokS7_writes (writes_append tokS8_writes (writes_append tokS9_writes (writes_append tokS10_writes (writes_append tokS11_writes (writes_append tokS12_writes (writes_append tokS13_writes (writes_append tokS14_writes (writes_append tokS15_writes (writes_append tokS16_writes (writes_append tokS17_writes (writes_append tokS18_writes (writes_append tokS19_writes (writes_append tokS20_writes (writes_append tokS21_writes (writes_append tokS22_writes (writes_append tokS23_writes (writes_append tokS24_writes (writes_append tokS25_writes (writes_append tokS26_writes (writes_append tokS27_writes (writes_append tokS28_writes (writes_append tokS29_writes (writes_append tokS30_writes (writes_append tokS31_writes (tokT_writes)))))))))))))))))))))))))))))))))

/-- The stretch that computes field e1. -/
def e1K : List (HloOp τ sig (Elt F)) :=
  e1H ++ (e1S0 ++ (e1S1 ++ (e1S2 ++ (e1S3 ++ (e1S4 ++ (e1S5 ++ (e1S6 ++ (e1S7 ++ (e1S8 ++ (e1S9 ++ (e1S10 ++ (e1S11 ++ (e1S12 ++ (e1S13 ++ (e1S14 ++ (e1S15 ++ (e1S16 ++ (e1S17 ++ (e1S18 ++ (e1S19 ++ (e1T)))))))))))))))))))))
abbrev e1K_W : List (Ref sig .tc) :=
  e1H_W ++ (e1S0_W ++ (e1S1_W ++ (e1S2_W ++ (e1S3_W ++ (e1S4_W ++ (e1S5_W ++ (e1S6_W ++ (e1S7_W ++ (e1S8_W ++ (e1S9_W ++ (e1S10_W ++ (e1S11_W ++ (e1S12_W ++ (e1S13_W ++ (e1S14_W ++ (e1S15_W ++ (e1S16_W ++ (e1S17_W ++ (e1S18_W ++ (e1S19_W ++ (e1T_W)))))))))))))))))))))
theorem e1K_writes : (e1K : List (HloOp τ sig (Elt F))).Forall fun op => op.writes ⊆ (e1K_W.map (Proc.devRef (τ := τ) .tc)).toFinset :=
  writes_append e1H_writes (writes_append e1S0_writes (writes_append e1S1_writes (writes_append e1S2_writes (writes_append e1S3_writes (writes_append e1S4_writes (writes_append e1S5_writes (writes_append e1S6_writes (writes_append e1S7_writes (writes_append e1S8_writes (writes_append e1S9_writes (writes_append e1S10_writes (writes_append e1S11_writes (writes_append e1S12_writes (writes_append e1S13_writes (writes_append e1S14_writes (writes_append e1S15_writes (writes_append e1S16_writes (writes_append e1S17_writes (writes_append e1S18_writes (writes_append e1S19_writes (e1T_writes)))))))))))))))))))))

/-- The stretch that computes field e2. -/
def e2K : List (HloOp τ sig (Elt F)) :=
  e2H ++ (e2S0 ++ (e2S1 ++ (e2S2 ++ (e2S3 ++ (e2S4 ++ (e2S5 ++ (e2S6 ++ (e2S7 ++ (e2S8 ++ (e2S9 ++ (e2S10 ++ (e2S11 ++ (e2S12 ++ (e2S13 ++ (e2S14 ++ (e2S15 ++ (e2S16 ++ (e2S17 ++ (e2S18 ++ (e2S19 ++ (e2T)))))))))))))))))))))
abbrev e2K_W : List (Ref sig .tc) :=
  e2H_W ++ (e2S0_W ++ (e2S1_W ++ (e2S2_W ++ (e2S3_W ++ (e2S4_W ++ (e2S5_W ++ (e2S6_W ++ (e2S7_W ++ (e2S8_W ++ (e2S9_W ++ (e2S10_W ++ (e2S11_W ++ (e2S12_W ++ (e2S13_W ++ (e2S14_W ++ (e2S15_W ++ (e2S16_W ++ (e2S17_W ++ (e2S18_W ++ (e2S19_W ++ (e2T_W)))))))))))))))))))))
theorem e2K_writes : (e2K : List (HloOp τ sig (Elt F))).Forall fun op => op.writes ⊆ (e2K_W.map (Proc.devRef (τ := τ) .tc)).toFinset :=
  writes_append e2H_writes (writes_append e2S0_writes (writes_append e2S1_writes (writes_append e2S2_writes (writes_append e2S3_writes (writes_append e2S4_writes (writes_append e2S5_writes (writes_append e2S6_writes (writes_append e2S7_writes (writes_append e2S8_writes (writes_append e2S9_writes (writes_append e2S10_writes (writes_append e2S11_writes (writes_append e2S12_writes (writes_append e2S13_writes (writes_append e2S14_writes (writes_append e2S15_writes (writes_append e2S16_writes (writes_append e2S17_writes (writes_append e2S18_writes (writes_append e2S19_writes (e2T_writes)))))))))))))))))))))

/-- The stretch that computes field e3. -/
def e3K : List (HloOp τ sig (Elt F)) :=
  e3H ++ (e3S0 ++ (e3S1 ++ (e3S2 ++ (e3S3 ++ (e3S4 ++ (e3S5 ++ (e3S6 ++ (e3S7 ++ (e3S8 ++ (e3S9 ++ (e3S10 ++ (e3S11 ++ (e3S12 ++ (e3S13 ++ (e3S14 ++ (e3S15 ++ (e3S16 ++ (e3S17 ++ (e3S18 ++ (e3S19 ++ (e3T)))))))))))))))))))))
abbrev e3K_W : List (Ref sig .tc) :=
  e3H_W ++ (e3S0_W ++ (e3S1_W ++ (e3S2_W ++ (e3S3_W ++ (e3S4_W ++ (e3S5_W ++ (e3S6_W ++ (e3S7_W ++ (e3S8_W ++ (e3S9_W ++ (e3S10_W ++ (e3S11_W ++ (e3S12_W ++ (e3S13_W ++ (e3S14_W ++ (e3S15_W ++ (e3S16_W ++ (e3S17_W ++ (e3S18_W ++ (e3S19_W ++ (e3T_W)))))))))))))))))))))
theorem e3K_writes : (e3K : List (HloOp τ sig (Elt F))).Forall fun op => op.writes ⊆ (e3K_W.map (Proc.devRef (τ := τ) .tc)).toFinset :=
  writes_append e3H_writes (writes_append e3S0_writes (writes_append e3S1_writes (writes_append e3S2_writes (writes_append e3S3_writes (writes_append e3S4_writes (writes_append e3S5_writes (writes_append e3S6_writes (writes_append e3S7_writes (writes_append e3S8_writes (writes_append e3S9_writes (writes_append e3S10_writes (writes_append e3S11_writes (writes_append e3S12_writes (writes_append e3S13_writes (writes_append e3S14_writes (writes_append e3S15_writes (writes_append e3S16_writes (writes_append e3S17_writes (writes_append e3S18_writes (writes_append e3S19_writes (e3T_writes)))))))))))))))))))))

set_option maxRecDepth 40000 in
set_option maxHeartbeats 4000000 in
/-- The host stretch is its ten stretches in order. -/
theorem hostOps0_cut : (hostOps0 : List (HloOp τ sig (Elt F))) = tokK ++ (e1K ++ (e2K ++ (e3K ++ (o1K ++ (o2K ++ (o3K ++ (o4K ++ (wideK ++ (lastK))))))))) := rfl

/-- The buffer contents after the first k stretches, from contents V0. -/
abbrev A1 (V0 : Valuation τ sig (Elt F)) : Valuation τ sig (Elt F) := after tokK (V0)
abbrev A2 (V0 : Valuation τ sig (Elt F)) : Valuation τ sig (Elt F) := after e1K (A1 V0)
abbrev A3 (V0 : Valuation τ sig (Elt F)) : Valuation τ sig (Elt F) := after e2K (A2 V0)
abbrev A4 (V0 : Valuation τ sig (Elt F)) : Valuation τ sig (Elt F) := after e3K (A3 V0)
abbrev A5 (V0 : Valuation τ sig (Elt F)) : Valuation τ sig (Elt F) := after o1K (A4 V0)
abbrev A6 (V0 : Valuation τ sig (Elt F)) : Valuation τ sig (Elt F) := after o2K (A5 V0)
abbrev A7 (V0 : Valuation τ sig (Elt F)) : Valuation τ sig (Elt F) := after o3K (A6 V0)
abbrev A8 (V0 : Valuation τ sig (Elt F)) : Valuation τ sig (Elt F) := after o4K (A7 V0)
abbrev A9 (V0 : Valuation τ sig (Elt F)) : Valuation τ sig (Elt F) := after wideK (A8 V0)
abbrev A10 (V0 : Valuation τ sig (Elt F)) : Valuation τ sig (Elt F) := after lastK (A9 V0)

theorem after_cut (V0 : Valuation τ sig (Elt F)) : after hostOps0 V0 = A10 V0 := by
  rw [hostOps0_cut]; simp only [after_append]

theorem A1_keep (V0 : Valuation τ sig (Elt F)) (r : Ref sig .tc) (h : r ∉ (tokK_W : List (Ref sig .tc))) :
    A1 V0 (Proc.devRef .tc r) = V0 (Proc.devRef .tc r) :=
  after_of_writes_sub tokK _ tokK_writes h
theorem A2_keep (V0 : Valuation τ sig (Elt F)) (r : Ref sig .tc) (h : r ∉ (e1K_W : List (Ref sig .tc))) :
    A2 V0 (Proc.devRef .tc r) = A1 V0 (Proc.devRef .tc r) :=
  after_of_writes_sub e1K _ e1K_writes h
theorem A3_keep (V0 : Valuation τ sig (Elt F)) (r : Ref sig .tc) (h : r ∉ (e2K_W : List (Ref sig .tc))) :
    A3 V0 (Proc.devRef .tc r) = A2 V0 (Proc.devRef .tc r) :=
  after_of_writes_sub e2K _ e2K_writes h
theorem A4_keep (V0 : Valuation τ sig (Elt F)) (r : Ref sig .tc) (h : r ∉ (e3K_W : List (Ref sig .tc))) :
    A4 V0 (Proc.devRef .tc r) = A3 V0 (Proc.devRef .tc r) :=
  after_of_writes_sub e3K _ e3K_writes h
theorem A5_keep (V0 : Valuation τ sig (Elt F)) (r : Ref sig .tc) (h : r ∉ (o1K_W : List (Ref sig .tc))) :
    A5 V0 (Proc.devRef .tc r) = A4 V0 (Proc.devRef .tc r) :=
  after_of_writes_sub o1K _ o1K_writes h
theorem A6_keep (V0 : Valuation τ sig (Elt F)) (r : Ref sig .tc) (h : r ∉ (o2K_W : List (Ref sig .tc))) :
    A6 V0 (Proc.devRef .tc r) = A5 V0 (Proc.devRef .tc r) :=
  after_of_writes_sub o2K _ o2K_writes h
theorem A7_keep (V0 : Valuation τ sig (Elt F)) (r : Ref sig .tc) (h : r ∉ (o3K_W : List (Ref sig .tc))) :
    A7 V0 (Proc.devRef .tc r) = A6 V0 (Proc.devRef .tc r) :=
  after_of_writes_sub o3K _ o3K_writes h
theorem A8_keep (V0 : Valuation τ sig (Elt F)) (r : Ref sig .tc) (h : r ∉ (o4K_W : List (Ref sig .tc))) :
    A8 V0 (Proc.devRef .tc r) = A7 V0 (Proc.devRef .tc r) :=
  after_of_writes_sub o4K _ o4K_writes h
theorem A9_keep (V0 : Valuation τ sig (Elt F)) (r : Ref sig .tc) (h : r ∉ (wideK_W : List (Ref sig .tc))) :
    A9 V0 (Proc.devRef .tc r) = A8 V0 (Proc.devRef .tc r) :=
  after_of_writes_sub wideK _ wideK_writes h
theorem A10_keep (V0 : Valuation τ sig (Elt F)) (r : Ref sig .tc) (h : r ∉ (lastK_W : List (Ref sig .tc))) :
    A10 V0 (Proc.devRef .tc r) = A9 V0 (Proc.devRef .tc r) :=
  after_of_writes_sub lastK _ lastK_writes h

/-- The launch contents of core c's buffers. -/
abbrev L0 (m : (ℓ : Loc nD τ sig) → Buf (Elt F) ℓ) (c : Dev nD) : Valuation τ sig (Elt F) := fun b => m (c, b)

/-- Core c's buffers when the region is entered: the contents after the whole host stretch. -/
abbrev VK (m : (ℓ : Loc nD τ sig) → Buf (Elt Ideal) ℓ) (c : Dev nD) (b : Ref sig .tc) :
    Buf (Elt Ideal) ((c : Thread nD τ).loc b) :=
  StableHlo.after hostOps0 (fun b => m (c, b)) b

/-- What the region finds at a reference: the contents after the ten stretches, from the launch contents. -/
theorem V_cut (m : (ℓ : Loc nD τ sig) → Buf (Elt Ideal) ℓ) (c : Dev nD) (r : Ref sig .tc) :
    VK m c r = A10 (L0 m c) (Proc.devRef .tc r) := by
  show after hostOps0 _ _ = _
  rw [after_cut]

end Cert.WideDeep.Glue

end
-- ==== Proof.GlueRest.lean ====
/-
  The one-hot fields, the row groups of the first weight matrix, the other weights and the biases, as the region finds
  them: each is read off its own short stretch of host operations, and no other stretch writes it.
-/
import proofs.«151196_j43095701848227_2_alg».proof.Proof.GlueCut

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

variable (m : (ℓ : Loc nD τ sig) → Buf (Elt Ideal) ℓ) (c : Dev nD)

/-! ## The one-hot fields -/

/-- One-hot field 1: one row of the joined table, its first 64 columns and its last one. -/
theorem o1K_run (W : Valuation τ sig (Elt Ideal)) :
    (after o1K W (Proc.devRef .tc main_v952) : S8192x64.Idx → EReal)
        = (fun i => pick (by decide : 0 < 100) (W (Proc.devRef .tc main_arg4) : S8192.Idx → BitVec 32) (W (Proc.devRef .tc main_arg12) : S100x64.Idx → EReal) (i 0) (i 1))
    ∧ (after o1K W (Proc.devRef .tc main_v954) : S8192.Idx → EReal)
        = (fun i => pick (by decide : 0 < 100) (W (Proc.devRef .tc main_arg4) : S8192.Idx → BitVec 32) (W (Proc.devRef .tc main_arg19) : S100x1.Idx → EReal) (i 0) (0 : Fin 1)) := by
  refine ⟨?_, ?_⟩
  · dsimp only [o1K]
    after_results
    exact oneHotEmb (by decide) _ _ _ _ _ _ rfl _ _ _
  · dsimp only [o1K]
    after_results
    funext i
    obtain ⟨b, rfl⟩ : ∃ b : Fin 8192, i = ix1 b := ⟨i 0, eq_ix1 i⟩
    exact oneHotWide (by decide) _ _ _ _ _ _ rfl _ _ _ _ b

/-- One-hot field 2: one row of the joined table, its first 64 columns and its last one. -/
theorem o2K_run (W : Valuation τ sig (Elt Ideal)) :
    (after o2K W (Proc.devRef .tc main_v963) : S8192x64.Idx → EReal)
        = (fun i => pick (by decide : 0 < 50) (W (Proc.devRef .tc main_arg5) : S8192.Idx → BitVec 32) (W (Proc.devRef .tc main_arg13) : S50x64.Idx → EReal) (i 0) (i 1))
    ∧ (after o2K W (Proc.devRef .tc main_v965) : S8192.Idx → EReal)
        = (fun i => pick (by decide : 0 < 50) (W (Proc.devRef .tc main_arg5) : S8192.Idx → BitVec 32) (W (Proc.devRef .tc main_arg20) : S50x1.Idx → EReal) (i 0) (0 : Fin 1)) := by
  refine ⟨?_, ?_⟩
  · dsimp only [o2K]
    after_results
    exact oneHotEmb (by decide) _ _ _ _ _ _ rfl _ _ _
  · dsimp only [o2K]
    after_results
    funext i
    obtain ⟨b, rfl⟩ : ∃ b : Fin 8192, i = ix1 b := ⟨i 0, eq_ix1 i⟩
    exact oneHotWide (by decide) _ _ _ _ _ _ rfl _ _ _ _ b

/-- One-hot field 3: one row of the joined table, its first 64 columns and its last one. -/
theorem o3K_run (W : Valuation τ sig (Elt Ideal)) :
    (after o3K W (Proc.devRef .tc main_v974) : S8192x64.Idx → EReal)
        = (fun i => pick (by decide : 0 < 20) (W (Proc.devRef .tc main_arg6) : S8192.Idx → BitVec 32) (W (Proc.devRef .tc main_arg14) : S20x64.Idx → EReal) (i 0) (i 1))
    ∧ (after o3K W (Proc.devRef .tc main_v976) : S8192.Idx → EReal)
        = (fun i => pick (by decide : 0 < 20) (W (Proc.devRef .tc main_arg6) : S8192.Idx → BitVec 32) (W (Proc.devRef .tc main_arg21) : S20x1.Idx → EReal) (i 0) (0 : Fin 1)) := by
  refine ⟨?_, ?_⟩
  · dsimp only [o3K]
    after_results
    exact oneHotEmb (by decide) _ _ _ _ _ _ rfl _ _ _
  · dsimp only [o3K]
    after_results
    funext i
    obtain ⟨b, rfl⟩ : ∃ b : Fin 8192, i = ix1 b := ⟨i 0, eq_ix1 i⟩
    exact oneHotWide (by decide) _ _ _ _ _ _ rfl _ _ _ _ b

/-- One-hot field 4: one row of the joined table, its first 64 columns and its last one. -/
theorem o4K_run (W : Valuation τ sig (Elt Ideal)) :
    (after o4K W (Proc.devRef .tc main_v985) : S8192x64.Idx → EReal)
        = (fun i => pick (by decide : 0 < 1000) (W (Proc.devRef .tc main_arg7) : S8192.Idx → BitVec 32) (W (Proc.devRef .tc main_arg15) : S1000x64.Idx → EReal) (i 0) (i 1))
    ∧ (after o4K W (Proc.devRef .tc main_v987) : S8192.Idx → EReal)
        = (fun i => pick (by decide : 0 < 1000) (W (Proc.devRef .tc main_arg7) : S8192.Idx → BitVec 32) (W (Proc.devRef .tc main_arg22) : S1000x1.Idx → EReal) (i 0) (0 : Fin 1)) := by
  refine ⟨?_, ?_⟩
  · dsimp only [o4K]
    after_results
    exact oneHotEmb (by decide) _ _ _ _ _ _ rfl _ _ _
  · dsimp only [o4K]
    after_results
    funext i
    obtain ⟨b, rfl⟩ : ∃ b : Fin 8192, i = ix1 b := ⟨i 0, eq_ix1 i⟩
    exact oneHotWide (by decide) _ _ _ _ _ _ rfl _ _ _ _ b

/-! ## Arguments pass through every stretch -/

theorem A1_arg (V0 : Valuation τ sig (Elt Ideal)) (r : Ref sig .tc) (h1 : r ∉ (tokK_W : List (Ref sig .tc))) :
    A1 V0 (Proc.devRef .tc r) = V0 (Proc.devRef .tc r) :=
  (A1_keep V0 r h1)
theorem A2_arg (V0 : Valuation τ sig (Elt Ideal)) (r : Ref sig .tc) (h1 : r ∉ (tokK_W : List (Ref sig .tc))) (h2 : r ∉ (e1K_W : List (Ref sig .tc))) :
    A2 V0 (Proc.devRef .tc r) = V0 (Proc.devRef .tc r) :=
  (A2_keep V0 r h2).trans ((A1_keep V0 r h1))
theorem A3_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) :
    A3 V0 (Proc.devRef .tc r) = V0 (Proc.devRef .tc r) :=
  (A3_keep V0 r h3).trans ((A2_keep V0 r h2).trans ((A1_keep V0 r h1)))
theorem A4_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) (h4 : r ∉ (e3K_W : List (Ref sig .tc))) :
    A4 V0 (Proc.devRef .tc r) = V0 (Proc.devRef .tc r) :=
  (A4_keep V0 r h4).trans ((A3_keep V0 r h3).trans ((A2_keep V0 r h2).trans ((A1_keep V0 r h1))))
theorem A5_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) (h4 : r ∉ (e3K_W : List (Ref sig .tc))) (h5 : r ∉ (o1K_W : List (Ref sig .tc))) :
    A5 V0 (Proc.devRef .tc r) = V0 (Proc.devRef .tc r) :=
  (A5_keep V0 r h5).trans ((A4_keep V0 r h4).trans ((A3_keep V0 r h3).trans ((A2_keep V0 r h2).trans ((A1_keep V0 r h1)))))
theorem A6_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) (h4 : r ∉ (e3K_W : List (Ref sig .tc))) (h5 : r ∉ (o1K_W : List (Ref sig .tc))) (h6 : r ∉ (o2K_W : List (Ref sig .tc))) :
    A6 V0 (Proc.devRef .tc r) = V0 (Proc.devRef .tc r) :=
  (A6_keep V0 r h6).trans ((A5_keep V0 r h5).trans ((A4_keep V0 r h4).trans ((A3_keep V0 r h3).trans ((A2_keep V0 r h2).trans ((A1_keep V0 r h1))))))
theorem A7_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) (h4 : r ∉ (e3K_W : List (Ref sig .tc))) (h5 : r ∉ (o1K_W : List (Ref sig .tc))) (h6 : r ∉ (o2K_W : List (Ref sig .tc))) (h7 : r ∉ (o3K_W : List (Ref sig .tc))) :
    A7 V0 (Proc.devRef .tc r) = V0 (Proc.devRef .tc r) :=
  (A7_keep V0 r h7).trans ((A6_keep V0 r h6).trans ((A5_keep V0 r h5).trans ((A4_keep V0 r h4).trans ((A3_keep V0 r h3).trans ((A2_keep V0 r h2).trans ((A1_keep V0 r h1)))))))
theorem A8_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) (h4 : r ∉ (e3K_W : List (Ref sig .tc))) (h5 : r ∉ (o1K_W : List (Ref sig .tc))) (h6 : r ∉ (o2K_W : List (Ref sig .tc))) (h7 : r ∉ (o3K_W : List (Ref sig .tc))) (h8 : r ∉ (o4K_W : List (Ref sig .tc))) :
    A8 V0 (Proc.devRef .tc r) = V0 (Proc.devRef .tc r) :=
  (A8_keep V0 r h8).trans ((A7_keep V0 r h7).trans ((A6_keep V0 r h6).trans ((A5_keep V0 r h5).trans ((A4_keep V0 r h4).trans ((A3_keep V0 r h3).trans ((A2_keep V0 r h2).trans ((A1_keep V0 r h1))))))))
theorem A9_arg (V0 : Valuation τ sig (Elt Ideal)) (r : Ref sig .tc) (h1 : r ∉ (tokK_W : List (Ref sig .tc))) (h2 : r ∉ (e1K_W : List (Ref sig .tc))) (h3 : r ∉ (e2K_W : List (Ref sig .tc))) (h4 : r ∉ (e3K_W : List (Ref sig .tc))) (h5 : r ∉ (o1K_W : List (Ref sig .tc))) (h6 : r ∉ (o2K_W : List (Ref sig .tc))) (h7 : r ∉ (o3K_W : List (Ref sig .tc))) (h8 : r ∉ (o4K_W : List (Ref sig .tc))) (h9 : r ∉ (wideK_W : List (Ref sig .tc))) :
    A9 V0 (Proc.devRef .tc r) = V0 (Proc.devRef .tc r) :=
  (A9_keep V0 r h9).trans ((A8_keep V0 r h8).trans ((A7_keep V0 r h7).trans ((A6_keep V0 r h6).trans ((A5_keep V0 r h5).trans ((A4_keep V0 r h4).trans ((A3_keep V0 r h3).trans ((A2_keep V0 r h2).trans ((A1_keep V0 r h1)))))))))

/-! ## The one-hot fields as the region finds them -/

theorem o1_eq : (VK m c main_v952 : S8192x64.Idx → EReal) = fun i => o1 (kArgs m c) (i 0) (i 1) := by
  refine (V_cut m c main_v952).trans ?_
  refine ((A10_keep _ _ (by decide)).trans ((A9_keep _ _ (by decide)).trans ((A8_keep _ _ (by decide)).trans ((A7_keep _ _ (by decide)).trans ((A6_keep _ _ (by decide))))))).trans ?_
  refine (o1K_run (A4 (L0 m c))).1.trans ?_
  rw [A4_arg (L0 m c) main_arg4 (by decide) (by decide) (by decide) (by decide), A4_arg (L0 m c) main_arg12 (by decide) (by decide) (by decide) (by decide)]
  rfl

/-- The wide entry of one-hot field 1, after its stretch. -/
theorem o1_wide : (A5 (L0 m c) (Proc.devRef .tc main_v954) : S8192.Idx → EReal)
    = fun i => pick (by decide : 0 < 100) (kArgs m c).oh1Idx (kArgs m c).wideOh1 (i 0) (0 : Fin 1) := by
  refine (o1K_run (A4 (L0 m c))).2.trans ?_
  rw [A4_arg (L0 m c) main_arg4 (by decide) (by decide) (by decide) (by decide), A4_arg (L0 m c) main_arg19 (by decide) (by decide) (by decide) (by decide)]
  rfl

theorem o2_eq : (VK m c main_v963 : S8192x64.Idx → EReal) = fun i => o2 (kArgs m c) (i 0) (i 1) := by
  refine (V_cut m c main_v963).trans ?_
  refine ((A10_keep _ _ (by decide)).trans ((A9_keep _ _ (by decide)).trans ((A8_keep _ _ (by decide)).trans ((A7_keep _ _ (by decide)))))).trans ?_
  refine (o2K_run (A5 (L0 m c))).1.trans ?_
  rw [A5_arg (L0 m c) main_arg5 (by decide) (by decide) (by decide) (by decide) (by decide), A5_arg (L0 m c) main_arg13 (by decide) (by decide) (by decide) (by decide) (by decide)]
  rfl

/-- The wide entry of one-hot field 2, after its stretch. -/
theorem o2_wide : (A6 (L0 m c) (Proc.devRef .tc main_v965) : S8192.Idx → EReal)
    = fun i => pick (by decide : 0 < 50) (kArgs m c).oh2Idx (kArgs m c).wideOh2 (i 0) (0 : Fin 1) := by
  refine (o2K_run (A5 (L0 m c))).2.trans ?_
  rw [A5_arg (L0 m c) main_arg5 (by decide) (by decide) (by decide) (by decide) (by decide), A5_arg (L0 m c) main_arg20 (by decide) (by decide) (by decide) (by decide) (by decide)]
  rfl

theorem o3_eq : (VK m c main_v974 : S8192x64.Idx → EReal) = fun i => o3 (kArgs m c) (i 0) (i 1) := by
  refine (V_cut m c main_v974).trans ?_
  refine ((A10_keep _ _ (by decide)).trans ((A9_keep _ _ (by decide)).trans ((A8_keep _ _ (by decide))))).trans ?_
  refine (o3K_run (A6 (L0 m c))).1.trans ?_
  rw [A6_arg (L0 m c) main_arg6 (by decide) (by decide) (by decide) (by decide) (by decide) (by decide), A6_arg (L0 m c) main_arg14 (by decide) (by decide) (by decide) (by decide) (by decide) (by decide)]
  rfl

/-- The wide entry of one-hot field 3, after its stretch. -/
theorem o3_wide : (A7 (L0 m c) (Proc.devRef .tc main_v976) : S8192.Idx → EReal)
    = fun i => pick (by decide : 0 < 20) (kArgs m c).oh3Idx (kArgs m c).wideOh3 (i 0) (0 : Fin 1) := by
  refine (o3K_run (A6 (L0 m c))).2.trans ?_
  rw [A6_arg (L0 m c) main_arg6 (by decide) (by decide) (by decide) (by decide) (by decide) (by decide), A6_arg (L0 m c) main_arg21 (by decide) (by decide) (by decide) (by decide) (by decide) (by decide)]
  rfl

theorem o4_eq : (VK m c main_v985 : S8192x64.Idx → EReal) = fun i => o4 (kArgs m c) (i 0) (i 1) := by
  refine (V_cut m c main_v985).trans ?_
  refine ((A10_keep _ _ (by decide)).trans ((A9_keep _ _ (by decide)))).trans ?_
  refine (o4K_run (A7 (L0 m c))).1.trans ?_
  rw [A7_arg (L0 m c) main_arg7 (by decide) (by decide) (by decide) (by decide) (by decide) (by decide) (by decide), A7_arg (L0 m c) main_arg15 (by decide) (by decide) (by decide) (by decide) (by decide) (by decide) (by decide)]
  rfl

/-- The wide entry of one-hot field 4, after its stretch. -/
theorem o4_wide : (A8 (L0 m c) (Proc.devRef .tc main_v987) : S8192.Idx → EReal)
    = fun i => pick (by decide : 0 < 1000) (kArgs m c).oh4Idx (kArgs m c).wideOh4 (i 0) (0 : Fin 1) := by
  refine (o4K_run (A7 (L0 m c))).2.trans ?_
  rw [A7_arg (L0 m c) main_arg7 (by decide) (by decide) (by decide) (by decide) (by decide) (by decide) (by decide), A7_arg (L0 m c) main_arg22 (by decide) (by decide) (by decide) (by decide) (by decide) (by decide) (by decide)]
  rfl

/-! ## The weights and the biases -/

/-- Row group 0 of the first weight matrix: its rows from 0 on. -/
theorem w1_0_run (W : Valuation τ sig (Elt Ideal)) :
    (after lastK W (Proc.devRef .tc main_v996) : S300x1024.Idx → EReal)
      = fun i => (W (Proc.devRef .tc main_arg23) : S748x1024.Idx → EReal) (ix2 ⟨(i 0).val, by have := idx2_lt0 i; omega⟩ (i 1)) := by
  dsimp only [lastK]
  after_results
  funext i
  rw [truncf_apply]
  exact extractStridedSlice_apply _ _ _ i _ (fun a => by
    match a with
    | ⟨0, _⟩ => show (i 0).val = 0 + (i 0).val; omega
    | ⟨1, _⟩ => show (i 1).val = 0 + (i 1).val; omega)
theorem w1_0_eq : (VK m c main_v996 : S300x1024.Idx → EReal)
    = fun i => (kArgs m c).W1 (ix2 ⟨(i 0).val, by have := idx2_lt0 i; omega⟩ (i 1)) := by
  refine (V_cut m c main_v996).trans ?_
  refine (w1_0_run (A9 (L0 m c))).trans ?_
  rw [A9_arg (L0 m c) main_arg23 (by decide) (by decide) (by decide) (by decide) (by decide) (by decide) (by decide) (by decide) (by decide)]
  rfl

/-- Row group 1 of the first weight matrix: its rows from 300 on. -/
theorem w1_1_run (W : Valuation τ sig (Elt Ideal)) :
    (after lastK W (Proc.devRef .tc main_v998) : S64x1024.Idx → EReal)
      = fun i => (W (Proc.devRef .tc main_arg23) : S748x1024.Idx → EReal) (ix2 ⟨300 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_1_eq : (VK m c main_v998 : S64x1024.Idx → EReal)
    = fun i => (kArgs m c).W1 (ix2 ⟨300 + (i 0).val, by have := idx2_lt0 i; omega⟩ (i 1)) := by
  refine (V_cut m c main_v998).trans ?_
  refine (w1_1_run (A9 (L0 m c))).trans ?_
  rw [A9_arg (L0 m c) main_arg23 (by decide) (by decide) (by decide) (by decide) (by decide) (by decide) (by decide) (by decide) (by decide)]
  rfl

/-- Row group 2 of the first weight matrix: its rows from 364 on. -/
theorem w1_2_run (W : Valuation τ sig (Elt Ideal)) :
    (after lastK W (Proc.devRef .tc main_v1000) : S64x1024.Idx → EReal)
      = fun i => (W (Proc.devRef .tc main_arg23) : S748x1024.Idx → EReal) (ix2 ⟨364 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_2_eq : (VK m c main_v1000 : S64x1024.Idx → EReal)
    = fun i => (kArgs m c).W1 (ix2 ⟨364 + (i 0).val, by have := idx2_lt0 i; omega⟩ (i 1)) := by
  refine (V_cut m c main_v1000).trans ?_
  refine (w1_2_run (A9 (L0 m c))).trans ?_
  rw [A9_arg (L0 m c) main_arg23 (by decide) (by decide) (by decide) (by decide) (by decide) (by decide) (by decide) (by decide) (by decide)]
  rfl

/-- Row group 3 of the first weight matrix: its rows from 428 on. -/
theorem w1_3_run (W : Valuation τ sig (Elt Ideal)) :
    (after lastK W (Proc.devRef .tc main_v1002) : S64x1024.Idx → EReal)
      = fun i => (W (Proc.devRef .tc main_arg23) : S748x1024.Idx → EReal) (ix2 ⟨428 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_3_eq : (VK m c main_v1002 : S64x1024.Idx → EReal)
    = fun i => (kArgs m c).W1 (ix2 ⟨428 + (i 0).val, by have := idx2_lt0 i; omega⟩ (i 1)) := by
  refine (V_cut m c main_v1002).trans ?_
  refine (w1_3_run (A9 (L0 m c))).trans ?_
  rw [A9_arg (L0 m c) main_arg23 (by decide) (by decide) (by decide) (by decide) (by decide) (by decide) (by decide) (by decide) (by decide)]
  rfl

/-- Row group 4 of the first weight matrix: its rows from 492 on. -/
theorem w1_4_run (W : Valuation τ sig (Elt Ideal)) :
    (after lastK W (Proc.devRef .tc main_v1004) : S64x1024.Idx → EReal)
      = fun i => (W (Proc.devRef .tc main_arg23) : S748x1024.Idx → EReal) (ix2 ⟨492 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_4_eq : (VK m c main_v1004 : S64x1024.Idx → EReal)
    = fun i => (kArgs m c).W1 (ix2 ⟨492 + (i 0).val, by have := idx2_lt0 i; omega⟩ (i 1)) := by
  refine (V_cut m c main_v1004).trans ?_
  refine (w1_4_run (A9 (L0 m c))).trans ?_
  rw [A9_arg (L0 m c) main_arg23 (by decide) (by decide) (by decide) (by decide) (by decide) (by decide) (by decide) (by decide) (by decide)]
  rfl

/-- Row group 5 of the first weight matrix: its rows from 556 on. -/
theorem w1_5_run (W : Valuation τ sig (Elt Ideal)) :
    (after lastK W (Proc.devRef .tc main_v1006) : S64x1024.Idx → EReal)
      = fun i => (W (Proc.devRef .tc main_arg23) : S748x1024.Idx → EReal) (ix2 ⟨556 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_5_eq : (VK m c main_v1006 : S64x1024.Idx → EReal)
    = fun i => (kArgs m c).W1 (ix2 ⟨556 + (i 0).val, by have := idx2_lt0 i; omega⟩ (i 1)) := by
  refine (V_cut m c main_v1006).trans ?_
  refine (w1_5_run (A9 (L0 m c))).trans ?_
  rw [A9_arg (L0 m c) main_arg23 (by decide) (by decide) (by decide) (by decide) (by decide) (by decide) (by decide) (by decide) (by decide)]
  rfl

/-- Row group 6 of the first weight matrix: its rows from 620 on. -/
theorem w1_6_run (W : Valuation τ sig (Elt Ideal)) :
    (after lastK W (Proc.devRef .tc main_v1008) : S64x1024.Idx → EReal)
      = fun i => (W (Proc.devRef .tc main_arg23) : S748x1024.Idx → EReal) (ix2 ⟨620 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_6_eq : (VK m c main_v1008 : S64x1024.Idx → EReal)
    = fun i => (kArgs m c).W1 (ix2 ⟨620 + (i 0).val, by have := idx2_lt0 i; omega⟩ (i 1)) := by
  refine (V_cut m c main_v1008).trans ?_
  refine (w1_6_run (A9 (L0 m c))).trans ?_
  rw [A9_arg (L0 m c) main_arg23 (by decide) (by decide) (by decide) (by decide) (by decide) (by decide) (by decide) (by decide) (by decide)]
  rfl

/-- Row group 7 of the first weight matrix: its rows from 684 on. -/
theorem w1_7_run (W : Valuation τ sig (Elt Ideal)) :
    (after lastK W (Proc.devRef .tc main_v1010) : S64x1024.Idx → EReal)
      = fun i => (W (Proc.devRef .tc main_arg23) : S748x1024.Idx → EReal) (ix2 ⟨684 + (i 0).val, by have := idx2_lt0 i; omega⟩ (i 1)) := by
  dsimp only [lastK]
  after_results
  funext i
  rw [truncf_apply]
  exact extractStridedSlice_apply _ _ _ i _ (fun a => by
    match a with
    | ⟨0, _⟩ => rfl
    | ⟨1, _⟩ => show (i 1).val = 0 + (i 1).val; omega)
theorem w1_7_eq : (VK m c main_v1010 : S64x1024.Idx → EReal)
    = fun i => (kArgs m c).W1 (ix2 ⟨684 + (i 0).val, by have := idx2_lt0 i; omega⟩ (i 1)) := by
  refine (V_cut m c main_v1010).trans ?_
  refine (w1_7_run (A9 (L0 m c))).trans ?_
  rw [A9_arg (L0 m c) main_arg23 (by decide) (by decide) (by decide) (by decide) (by decide) (by decide) (by decide) (by decide) (by decide)]
  rfl

theorem w2_run (W : Valuation τ sig (Elt Ideal)) :
    (after lastK W (Proc.devRef .tc main_v1011) : S1024x512.Idx → EReal) = (W (Proc.devRef .tc main_arg25) : S1024x512.Idx → EReal) := by
  dsimp only [lastK]
  after_results
  rfl
theorem w2_eq : (VK m c main_v1011 : S1024x512.Idx → EReal) = (kArgs m c).W2 := by
  refine (V_cut m c main_v1011).trans ?_
  refine (w2_run (A9 (L0 m c))).trans ?_
  rw [A9_arg (L0 m c) main_arg25 (by decide) (by decide) (by decide) (by decide) (by decide) (by decide) (by decide) (by decide) (by decide)]
  rfl

theorem w3_run (W : Valuation τ sig (Elt Ideal)) :
    (after lastK W (Proc.devRef .tc main_v1012) : S512x256.Idx → EReal) = (W (Proc.devRef .tc main_arg27) : S512x256.Idx → EReal) := by
  dsimp only [lastK]
  after_results
  rfl
theorem w3_eq : (VK m c main_v1012 : S512x256.Idx → EReal) = (kArgs m c).W3 := by
  refine (V_cut m c main_v1012).trans ?_
  refine (w3_run (A9 (L0 m c))).trans ?_
  rw [A9_arg (L0 m c) main_arg27 (by decide) (by decide) (by decide) (by decide) (by decide) (by decide) (by decide) (by decide) (by decide)]
  rfl

theorem wd_run (W : Valuation τ sig (Elt Ideal)) :
    (after lastK W (Proc.devRef .tc main_v1013) : S256x1.Idx → EReal) = (W (Proc.devRef .tc main_arg29) : S256x1.Idx → EReal) := by
  dsimp only [lastK]
  after_results
  rfl
theorem wd_eq : (VK m c main_v1013 : S256x1.Idx → EReal) = (kArgs m c).Wd := by
  refine (V_cut m c main_v1013).trans ?_
  refine (wd_run (A9 (L0 m c))).trans ?_
  rw [A9_arg (L0 m c) main_arg29 (by decide) (by decide) (by decide) (by decide) (by decide) (by decide) (by decide) (by decide) (by decide)]
  rfl

/-- A bias laid out as one row. -/
theorem b1_run (W : Valuation τ sig (Elt Ideal)) :
    (after lastK W (Proc.devRef .tc main_v1014) : S1x1024.Idx → EReal) = fun i => (W (Proc.devRef .tc main_arg24) : S1024.Idx → EReal) (ix1 (i 1)) := by
  dsimp only [lastK]
  after_results
  funext (i : S1x1024.Idx)
  have h0 : (i 0).val = 0 := by have := idx2_lt0 i; omega
  refine shapeCast_apply (s := S1024) (t := S1x1024) _ shapeCasts_S1024_S1x1024 i (ix1 (i 1)) ?_
  rw [Shape.rowMajor_val_one, Shape.rowMajor_val_two, h0]
  show (i 1).val = 0 * 1024 + (i 1).val
  omega
theorem b1_eq : (VK m c main_v1014 : S1x1024.Idx → EReal) = fun i => (kArgs m c).b1 (ix1 (i 1)) := by
  refine (V_cut m c main_v1014).trans ?_
  refine (b1_run (A9 (L0 m c))).trans ?_
  rw [A9_arg (L0 m c) main_arg24 (by decide) (by decide) (by decide) (by decide) (by decide) (by decide) (by decide) (by decide) (by decide)]
  rfl

/-- A bias laid out as one row. -/
theorem b2_run (W : Valuation τ sig (Elt Ideal)) :
    (after lastK W (Proc.devRef .tc main_v1015) : S1x512.Idx → EReal) = fun i => (W (Proc.devRef .tc main_arg26) : S512.Idx → EReal) (ix1 (i 1)) := by
  dsimp only [lastK]
  after_results
  funext (i : S1x512.Idx)
  have h0 : (i 0).val = 0 := by have := idx2_lt0 i; omega
  refine shapeCast_apply (s := S512) (t := S1x512) _ shapeCasts_S512_S1x512 i (ix1 (i 1)) ?_
  rw [Shape.rowMajor_val_one, Shape.rowMajor_val_two, h0]
  show (i 1).val = 0 * 512 + (i 1).val
  omega
theorem b2_eq : (VK m c main_v1015 : S1x512.Idx → EReal) = fun i => (kArgs m c).b2 (ix1 (i 1)) := by
  refine (V_cut m c main_v1015).trans ?_
  refine (b2_run (A9 (L0 m c))).trans ?_
  rw [A9_arg (L0 m c) main_arg26 (by decide) (by decide) (by decide) (by decide) (by decide) (by decide) (by decide) (by decide) (by decide)]
  rfl

/-- A bias laid out as one row. -/
theorem b3_run (W : Valuation τ sig (Elt Ideal)) :
    (after lastK W (Proc.devRef .tc main_v1016) : S1x256.Idx → EReal) = fun i => (W (Proc.devRef .tc main_arg28) : S256.Idx → EReal) (ix1 (i 1)) := by
  dsimp only [lastK]
  after_results
  funext (i : S1x256.Idx)
  have h0 : (i 0).val = 0 := by have := idx2_lt0 i; omega
  refine shapeCast_apply (s := S256) (t := S1x256) _ shapeCasts_S256_S1x256 i (ix1 (i 1)) ?_
  rw [Shape.rowMajor_val_one, Shape.rowMajor_val_two, h0]
  show (i 1).val = 0 * 256 + (i 1).val
  omega
theorem b3_eq : (VK m c main_v1016 : S1x256.Idx → EReal) = fun i => (kArgs m c).b3 (ix1 (i 1)) := by
  refine (V_cut m c main_v1016).trans ?_
  refine (b3_run (A9 (L0 m c))).trans ?_
  rw [A9_arg (L0 m c) main_arg28 (by decide) (by decide) (by decide) (by decide) (by decide) (by decide) (by decide) (by decide) (by decide)]
  rfl

/-- A bias laid out as one row. -/
theorem bd_run (W : Valuation τ sig (Elt Ideal)) :
    (after lastK W (Proc.devRef .tc main_v1017) : S1x1.Idx → EReal) = fun i => (W (Proc.devRef .tc main_arg30) : S1.Idx → EReal) (ix1 (i 1)) := by
  dsimp only [lastK]
  after_results
  funext (i : S1x1.Idx)
  have h0 : (i 0).val = 0 := by have := idx2_lt0 i; omega
  refine shapeCast_apply (s := S1) (t := S1x1) _ shapeCasts_S1_S1x1 i (ix1 (i 1)) ?_
  rw [Shape.rowMajor_val_one, Shape.rowMajor_val_two, h0]
  show (i 1).val = 0 * 1 + (i 1).val
  omega
theorem bd_eq : (VK m c main_v1017 : S1x1.Idx → EReal) = fun i => (kArgs m c).bd (ix1 (i 1)) := by
  refine (V_cut m c main_v1017).trans ?_
  refine (bd_run (A9 (L0 m c))).trans ?_
  rw [A9_arg (L0 m c) main_arg30 (by decide) (by decide) (by decide) (by decide) (by decide) (by decide) (by decide) (by decide) (by decide)]
  rfl

end Cert.WideDeep.Glue

end
-- ==== Proof.GlueTok.lean ====
/-
  Field tok: the accumulator after n of its 32 bag steps is the n-th partial bag sum; the field is
  the full sum divided by the bag size.
-/
import proofs.«151196_j43095701848227_2_alg».proof.Proof.GlueCut
import proofs.«151196_j43095701848227_2_alg».proof.Proof.GlueRest

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

/-! ## The start: the tables and the zero accumulator -/

theorem tokH_run (W : Valuation τ sig (Elt Ideal)) :
    (after tokH W (Proc.devRef .tc main_arg0) : S8192x32.Idx → BitVec 32) = (W (Proc.devRef .tc main_arg0) : S8192x32.Idx → BitVec 32)
    ∧ (after tokH W (Proc.devRef .tc main_arg8) : S50000x300.Idx → EReal) = (W (Proc.devRef .tc main_arg8) : S50000x300.Idx → EReal)
    ∧ (after tokH W (Proc.devRef .tc main_v0) : S8192x300.Idx → EReal)
        = fun i => bagPart (by decide : 0 < 50000) (W (Proc.devRef .tc main_arg0) : S8192x32.Idx → BitVec 32) (W (Proc.devRef .tc main_arg8) : S50000x300.Idx → EReal) (i 0) (i 1) 0 := by
  refine ⟨after_of_writes_sub tokH W tokH_writes (by decide), ?_, ?_⟩
  · exact after_of_writes_sub tokH W tokH_writes (by decide)
  · dsimp only [tokH]
    after_results
    exact zeros_eq _ _ _ _

/-! ## The bag steps -/

/-- Bag step 0: partial sum 0 becomes partial sum 1. -/
theorem tokS0_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v0) : S8192x300.Idx → EReal) = fun i => bagPart (by decide : 0 < 50000) I T (i 0) (i 1) 0) :
    (after tokS0 W (Proc.devRef .tc main_arg0) : S8192x32.Idx → BitVec 32) = I
    ∧ (after tokS0 W (Proc.devRef .tc main_arg8) : S50000x300.Idx → EReal) = T
    ∧ (after tokS0 W (Proc.devRef .tc main_v10) : S8192x300.Idx → EReal) = fun i => bagPart (by decide : 0 < 50000) I T (i 0) (i 1) 1 := by
  refine ⟨(after_of_writes_sub tokS0 W tokS0_writes (by decide)).trans hI,
    (after_of_writes_sub tokS0 W tokS0_writes (by decide)).trans hT, ?_⟩
  dsimp only [tokS0]
  after_results
  exact bagStepInv (by decide) _ _ rfl _ _ T _ I 0 (by decide) _ _ _
    (fun b => column_apply (W (Proc.devRef .tc main_arg0) : S8192x32.Idx → BitVec 32) 0 (by decide) _ _ b) hI hT hA

/-- Bag step 1: partial sum 1 becomes partial sum 2. -/
theorem tokS1_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v10) : S8192x300.Idx → EReal) = fun i => bagPart (by decide : 0 < 50000) I T (i 0) (i 1) 1) :
    (after tokS1 W (Proc.devRef .tc main_arg0) : S8192x32.Idx → BitVec 32) = I
    ∧ (after tokS1 W (Proc.devRef .tc main_arg8) : S50000x300.Idx → EReal) = T
    ∧ (after tokS1 W (Proc.devRef .tc main_v20) : S8192x300.Idx → EReal) = fun i => bagPart (by decide : 0 < 50000) I T (i 0) (i 1) 2 := by
  refine ⟨(after_of_writes_sub tokS1 W tokS1_writes (by decide)).trans hI,
    (after_of_writes_sub tokS1 W tokS1_writes (by decide)).trans hT, ?_⟩
  dsimp only [tokS1]
  after_results
  exact bagStepInv (by decide) _ _ rfl _ _ T _ I 1 (by decide) _ _ _
    (fun b => column_apply (W (Proc.devRef .tc main_arg0) : S8192x32.Idx → BitVec 32) 1 (by decide) _ _ b) hI hT hA

/-- Bag step 2: partial sum 2 becomes partial sum 3. -/
theorem tokS2_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v20) : S8192x300.Idx → EReal) = fun i => bagPart (by decide : 0 < 50000) I T (i 0) (i 1) 2) :
    (after tokS2 W (Proc.devRef .tc main_arg0) : S8192x32.Idx → BitVec 32) = I
    ∧ (after tokS2 W (Proc.devRef .tc main_arg8) : S50000x300.Idx → EReal) = T
    ∧ (after tokS2 W (Proc.devRef .tc main_v30) : S8192x300.Idx → EReal) = fun i => bagPart (by decide : 0 < 50000) I T (i 0) (i 1) 3 := by
  refine ⟨(after_of_writes_sub tokS2 W tokS2_writes (by decide)).trans hI,
    (after_of_writes_sub tokS2 W tokS2_writes (by decide)).trans hT, ?_⟩
  dsimp only [tokS2]
  after_results
  exact bagStepInv (by decide) _ _ rfl _ _ T _ I 2 (by decide) _ _ _
    (fun b => column_apply (W (Proc.devRef .tc main_arg0) : S8192x32.Idx → BitVec 32) 2 (by decide) _ _ b) hI hT hA

/-- Bag step 3: partial sum 3 becomes partial sum 4. -/
theorem tokS3_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v30) : S8192x300.Idx → EReal) = fun i => bagPart (by decide : 0 < 50000) I T (i 0) (i 1) 3) :
    (after tokS3 W (Proc.devRef .tc main_arg0) : S8192x32.Idx → BitVec 32) = I
    ∧ (after tokS3 W (Proc.devRef .tc main_arg8) : S50000x300.Idx → EReal) = T
    ∧ (after tokS3 W (Proc.devRef .tc main_v40) : S8192x300.Idx → EReal) = fun i => bagPart (by decide : 0 < 50000) I T (i 0) (i 1) 4 := by
  refine ⟨(after_of_writes_sub tokS3 W tokS3_writes (by decide)).trans hI,
    (after_of_writes_sub tokS3 W tokS3_writes (by decide)).trans hT, ?_⟩
  dsimp only [tokS3]
  after_results
  exact bagStepInv (by decide) _ _ rfl _ _ T _ I 3 (by decide) _ _ _
    (fun b => column_apply (W (Proc.devRef .tc main_arg0) : S8192x32.Idx → BitVec 32) 3 (by decide) _ _ b) hI hT hA

/-- Bag step 4: partial sum 4 becomes partial sum 5. -/
theorem tokS4_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v40) : S8192x300.Idx → EReal) = fun i => bagPart (by decide : 0 < 50000) I T (i 0) (i 1) 4) :
    (after tokS4 W (Proc.devRef .tc main_arg0) : S8192x32.Idx → BitVec 32) = I
    ∧ (after tokS4 W (Proc.devRef .tc main_arg8) : S50000x300.Idx → EReal) = T
    ∧ (after tokS4 W (Proc.devRef .tc main_v50) : S8192x300.Idx → EReal) = fun i => bagPart (by decide : 0 < 50000) I T (i 0) (i 1) 5 := by
  refine ⟨(after_of_writes_sub tokS4 W tokS4_writes (by decide)).trans hI,
    (after_of_writes_sub tokS4 W tokS4_writes (by decide)).trans hT, ?_⟩
  dsimp only [tokS4]
  after_results
  exact bagStepInv (by decide) _ _ rfl _ _ T _ I 4 (by decide) _ _ _
    (fun b => column_apply (W (Proc.devRef .tc main_arg0) : S8192x32.Idx → BitVec 32) 4 (by decide) _ _ b) hI hT hA

/-- Bag step 5: partial sum 5 becomes partial sum 6. -/
theorem tokS5_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v50) : S8192x300.Idx → EReal) = fun i => bagPart (by decide : 0 < 50000) I T (i 0) (i 1) 5) :
    (after tokS5 W (Proc.devRef .tc main_arg0) : S8192x32.Idx → BitVec 32) = I
    ∧ (after tokS5 W (Proc.devRef .tc main_arg8) : S50000x300.Idx → EReal) = T
    ∧ (after tokS5 W (Proc.devRef .tc main_v60) : S8192x300.Idx → EReal) = fun i => bagPart (by decide : 0 < 50000) I T (i 0) (i 1) 6 := by
  refine ⟨(after_of_writes_sub tokS5 W tokS5_writes (by decide)).trans hI,
    (after_of_writes_sub tokS5 W tokS5_writes (by decide)).trans hT, ?_⟩
  dsimp only [tokS5]
  after_results
  exact bagStepInv (by decide) _ _ rfl _ _ T _ I 5 (by decide) _ _ _
    (fun b => column_apply (W (Proc.devRef .tc main_arg0) : S8192x32.Idx → BitVec 32) 5 (by decide) _ _ b) hI hT hA

/-- Bag step 6: partial sum 6 becomes partial sum 7. -/
theorem tokS6_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v60) : S8192x300.Idx → EReal) = fun i => bagPart (by decide : 0 < 50000) I T (i 0) (i 1) 6) :
    (after tokS6 W (Proc.devRef .tc main_arg0) : S8192x32.Idx → BitVec 32) = I
    ∧ (after tokS6 W (Proc.devRef .tc main_arg8) : S50000x300.Idx → EReal) = T
    ∧ (after tokS6 W (Proc.devRef .tc main_v70) : S8192x300.Idx → EReal) = fun i => bagPart (by decide : 0 < 50000) I T (i 0) (i 1) 7 := by
  refine ⟨(after_of_writes_sub tokS6 W tokS6_writes (by decide)).trans hI,
    (after_of_writes_sub tokS6 W tokS6_writes (by decide)).trans hT, ?_⟩
  dsimp only [tokS6]
  after_results
  exact bagStepInv (by decide) _ _ rfl _ _ T _ I 6 (by decide) _ _ _
    (fun b => column_apply (W (Proc.devRef .tc main_arg0) : S8192x32.Idx → BitVec 32) 6 (by decide) _ _ b) hI hT hA

/-- Bag step 7: partial sum 7 becomes partial sum 8. -/
theorem tokS7_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v70) : S8192x300.Idx → EReal) = fun i => bagPart (by decide : 0 < 50000) I T (i 0) (i 1) 7) :
    (after tokS7 W (Proc.devRef .tc main_arg0) : S8192x32.Idx → BitVec 32) = I
    ∧ (after tokS7 W (Proc.devRef .tc main_arg8) : S50000x300.Idx → EReal) = T
    ∧ (after tokS7 W (Proc.devRef .tc main_v80) : S8192x300.Idx → EReal) = fun i => bagPart (by decide : 0 < 50000) I T (i 0) (i 1) 8 := by
  refine ⟨(after_of_writes_sub tokS7 W tokS7_writes (by decide)).trans hI,
    (after_of_writes_sub tokS7 W tokS7_writes (by decide)).trans hT, ?_⟩
  dsimp only [tokS7]
  after_results
  exact bagStepInv (by decide) _ _ rfl _ _ T _ I 7 (by decide) _ _ _
    (fun b => column_apply (W (Proc.devRef .tc main_arg0) : S8192x32.Idx → BitVec 32) 7 (by decide) _ _ b) hI hT hA

/-- Bag step 8: partial sum 8 becomes partial sum 9. -/
theorem tokS8_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v80) : S8192x300.Idx → EReal) = fun i => bagPart (by decide : 0 < 50000) I T (i 0) (i 1) 8) :
    (after tokS8 W (Proc.devRef .tc main_arg0) : S8192x32.Idx → BitVec 32) = I
    ∧ (after tokS8 W (Proc.devRef .tc main_arg8) : S50000x300.Idx → EReal) = T
    ∧ (after tokS8 W (Proc.devRef .tc main_v90) : S8192x300.Idx → EReal) = fun i => bagPart (by decide : 0 < 50000) I T (i 0) (i 1) 9 := by
  refine ⟨(after_of_writes_sub tokS8 W tokS8_writes (by decide)).trans hI,
    (after_of_writes_sub tokS8 W tokS8_writes (by decide)).trans hT, ?_⟩
  dsimp only [tokS8]
  after_results
  exact bagStepInv (by decide) _ _ rfl _ _ T _ I 8 (by decide) _ _ _
    (fun b => column_apply (W (Proc.devRef .tc main_arg0) : S8192x32.Idx → BitVec 32) 8 (by decide) _ _ b) hI hT hA

/-- Bag step 9: partial sum 9 becomes partial sum 10. -/
theorem tokS9_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v90) : S8192x300.Idx → EReal) = fun i => bagPart (by decide : 0 < 50000) I T (i 0) (i 1) 9) :
    (after tokS9 W (Proc.devRef .tc main_arg0) : S8192x32.Idx → BitVec 32) = I
    ∧ (after tokS9 W (Proc.devRef .tc main_arg8) : S50000x300.Idx → EReal) = T
    ∧ (after tokS9 W (Proc.devRef .tc main_v100) : S8192x300.Idx → EReal) = fun i => bagPart (by decide : 0 < 50000) I T (i 0) (i 1) 10 := by
  refine ⟨(after_of_writes_sub tokS9 W tokS9_writes (by decide)).trans hI,
    (after_of_writes_sub tokS9 W tokS9_writes (by decide)).trans hT, ?_⟩
  dsimp only [tokS9]
  after_results
  exact bagStepInv (by decide) _ _ rfl _ _ T _ I 9 (by decide) _ _ _
    (fun b => column_apply (W (Proc.devRef .tc main_arg0) : S8192x32.Idx → BitVec 32) 9 (by decide) _ _ b) hI hT hA

/-- Bag step 10: partial sum 10 becomes partial sum 11. -/
theorem tokS10_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v100) : S8192x300.Idx → EReal) = fun i => bagPart (by decide : 0 < 50000) I T (i 0) (i 1) 10) :
    (after tokS10 W (Proc.devRef .tc main_arg0) : S8192x32.Idx → BitVec 32) = I
    ∧ (after tokS10 W (Proc.devRef .tc main_arg8) : S50000x300.Idx → EReal) = T
    ∧ (after tokS10 W (Proc.devRef .tc main_v110) : S8192x300.Idx → EReal) = fun i => bagPart (by decide : 0 < 50000) I T (i 0) (i 1) 11 := by
  refine ⟨(after_of_writes_sub tokS10 W tokS10_writes (by decide)).trans hI,
    (after_of_writes_sub tokS10 W tokS10_writes (by decide)).trans hT, ?_⟩
  dsimp only [tokS10]
  after_results
  exact bagStepInv (by decide) _ _ rfl _ _ T _ I 10 (by decide) _ _ _
    (fun b => column_apply (W (Proc.devRef .tc main_arg0) : S8192x32.Idx → BitVec 32) 10 (by decide) _ _ b) hI hT hA

/-- Bag step 11: partial sum 11 becomes partial sum 12. -/
theorem tokS11_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v110) : S8192x300.Idx → EReal) = fun i => bagPart (by decide : 0 < 50000) I T (i 0) (i 1) 11) :
    (after tokS11 W (Proc.devRef .tc main_arg0) : S8192x32.Idx → BitVec 32) = I
    ∧ (after tokS11 W (Proc.devRef .tc main_arg8) : S50000x300.Idx → EReal) = T
    ∧ (after tokS11 W (Proc.devRef .tc main_v120) : S8192x300.Idx → EReal) = fun i => bagPart (by decide : 0 < 50000) I T (i 0) (i 1) 12 := by
  refine ⟨(after_of_writes_sub tokS11 W tokS11_writes (by decide)).trans hI,
    (after_of_writes_sub tokS11 W tokS11_writes (by decide)).trans hT, ?_⟩
  dsimp only [tokS11]
  after_results
  exact bagStepInv (by decide) _ _ rfl _ _ T _ I 11 (by decide) _ _ _
    (fun b => column_apply (W (Proc.devRef .tc main_arg0) : S8192x32.Idx → BitVec 32) 11 (by decide) _ _ b) hI hT hA

/-- Bag step 12: partial sum 12 becomes partial sum 13. -/
theorem tokS12_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v120) : S8192x300.Idx → EReal) = fun i => bagPart (by decide : 0 < 50000) I T (i 0) (i 1) 12) :
    (after tokS12 W (Proc.devRef .tc main_arg0) : S8192x32.Idx → BitVec 32) = I
    ∧ (after tokS12 W (Proc.devRef .tc main_arg8) : S50000x300.Idx → EReal) = T
    ∧ (after tokS12 W (Proc.devRef .tc main_v130) : S8192x300.Idx → EReal) = fun i => bagPart (by decide : 0 < 50000) I T (i 0) (i 1) 13 := by
  refine ⟨(after_of_writes_sub tokS12 W tokS12_writes (by decide)).trans hI,
    (after_of_writes_sub tokS12 W tokS12_writes (by decide)).trans hT, ?_⟩
  dsimp only [tokS12]
  after_results
  exact bagStepInv (by decide) _ _ rfl _ _ T _ I 12 (by decide) _ _ _
    (fun b => column_apply (W (Proc.devRef .tc main_arg0) : S8192x32.Idx → BitVec 32) 12 (by decide) _ _ b) hI hT hA

/-- Bag step 13: partial sum 13 becomes partial sum 14. -/
theorem tokS13_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v130) : S8192x300.Idx → EReal) = fun i => bagPart (by decide : 0 < 50000) I T (i 0) (i 1) 13) :
    (after tokS13 W (Proc.devRef .tc main_arg0) : S8192x32.Idx → BitVec 32) = I
    ∧ (after tokS13 W (Proc.devRef .tc main_arg8) : S50000x300.Idx → EReal) = T
    ∧ (after tokS13 W (Proc.devRef .tc main_v140) : S8192x300.Idx → EReal) = fun i => bagPart (by decide : 0 < 50000) I T (i 0) (i 1) 14 := by
  refine ⟨(after_of_writes_sub tokS13 W tokS13_writes (by decide)).trans hI,
    (after_of_writes_sub tokS13 W tokS13_writes (by decide)).trans hT, ?_⟩
  dsimp only [tokS13]
  after_results
  exact bagStepInv (by decide) _ _ rfl _ _ T _ I 13 (by decide) _ _ _
    (fun b => column_apply (W (Proc.devRef .tc main_arg0) : S8192x32.Idx → BitVec 32) 13 (by decide) _ _ b) hI hT hA

/-- Bag step 14: partial sum 14 becomes partial sum 15. -/
theorem tokS14_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v140) : S8192x300.Idx → EReal) = fun i => bagPart (by decide : 0 < 50000) I T (i 0) (i 1) 14) :
    (after tokS14 W (Proc.devRef .tc main_arg0) : S8192x32.Idx → BitVec 32) = I
    ∧ (after tokS14 W (Proc.devRef .tc main_arg8) : S50000x300.Idx → EReal) = T
    ∧ (after tokS14 W (Proc.devRef .tc main_v150) : S8192x300.Idx → EReal) = fun i => bagPart (by decide : 0 < 50000) I T (i 0) (i 1) 15 := by
  refine ⟨(after_of_writes_sub tokS14 W tokS14_writes (by decide)).trans hI,
    (after_of_writes_sub tokS14 W tokS14_writes (by decide)).trans hT, ?_⟩
  dsimp only [tokS14]
  after_results
  exact bagStepInv (by decide) _ _ rfl _ _ T _ I 14 (by decide) _ _ _
    (fun b => column_apply (W (Proc.devRef .tc main_arg0) : S8192x32.Idx → BitVec 32) 14 (by decide) _ _ b) hI hT hA

/-- Bag step 15: partial sum 15 becomes partial sum 16. -/
theorem tokS15_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v150) : S8192x300.Idx → EReal) = fun i => bagPart (by decide : 0 < 50000) I T (i 0) (i 1) 15) :
    (after tokS15 W (Proc.devRef .tc main_arg0) : S8192x32.Idx → BitVec 32) = I
    ∧ (after tokS15 W (Proc.devRef .tc main_arg8) : S50000x300.Idx → EReal) = T
    ∧ (after tokS15 W (Proc.devRef .tc main_v160) : S8192x300.Idx → EReal) = fun i => bagPart (by decide : 0 < 50000) I T (i 0) (i 1) 16 := by
  refine ⟨(after_of_writes_sub tokS15 W tokS15_writes (by decide)).trans hI,
    (after_of_writes_sub tokS15 W tokS15_writes (by decide)).trans hT, ?_⟩
  dsimp only [tokS15]
  after_results
  exact bagStepInv (by decide) _ _ rfl _ _ T _ I 15 (by decide) _ _ _
    (fun b => column_apply (W (Proc.devRef .tc main_arg0) : S8192x32.Idx → BitVec 32) 15 (by decide) _ _ b) hI hT hA

/-- Bag step 16: partial sum 16 becomes partial sum 17. -/
theorem tokS16_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v160) : S8192x300.Idx → EReal) = fun i => bagPart (by decide : 0 < 50000) I T (i 0) (i 1) 16) :
    (after tokS16 W (Proc.devRef .tc main_arg0) : S8192x32.Idx → BitVec 32) = I
    ∧ (after tokS16 W (Proc.devRef .tc main_arg8) : S50000x300.Idx → EReal) = T
    ∧ (after tokS16 W (Proc.devRef .tc main_v170) : S8192x300.Idx → EReal) = fun i => bagPart (by decide : 0 < 50000) I T (i 0) (i 1) 17 := by
  refine ⟨(after_of_writes_sub tokS16 W tokS16_writes (by decide)).trans hI,
    (after_of_writes_sub tokS16 W tokS16_writes (by decide)).trans hT, ?_⟩
  dsimp only [tokS16]
  after_results
  exact bagStepInv (by decide) _ _ rfl _ _ T _ I 16 (by decide) _ _ _
    (fun b => column_apply (W (Proc.devRef .tc main_arg0) : S8192x32.Idx → BitVec 32) 16 (by decide) _ _ b) hI hT hA

/-- Bag step 17: partial sum 17 becomes partial sum 18. -/
theorem tokS17_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v170) : S8192x300.Idx → EReal) = fun i => bagPart (by decide : 0 < 50000) I T (i 0) (i 1) 17) :
    (after tokS17 W (Proc.devRef .tc main_arg0) : S8192x32.Idx → BitVec 32) = I
    ∧ (after tokS17 W (Proc.devRef .tc main_arg8) : S50000x300.Idx → EReal) = T
    ∧ (after tokS17 W (Proc.devRef .tc main_v180) : S8192x300.Idx → EReal) = fun i => bagPart (by decide : 0 < 50000) I T (i 0) (i 1) 18 := by
  refine ⟨(after_of_writes_sub tokS17 W tokS17_writes (by decide)).trans hI,
    (after_of_writes_sub tokS17 W tokS17_writes (by decide)).trans hT, ?_⟩
  dsimp only [tokS17]
  after_results
  exact bagStepInv (by decide) _ _ rfl _ _ T _ I 17 (by decide) _ _ _
    (fun b => column_apply (W (Proc.devRef .tc main_arg0) : S8192x32.Idx → BitVec 32) 17 (by decide) _ _ b) hI hT hA

/-- Bag step 18: partial sum 18 becomes partial sum 19. -/
theorem tokS18_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v180) : S8192x300.Idx → EReal) = fun i => bagPart (by decide : 0 < 50000) I T (i 0) (i 1) 18) :
    (after tokS18 W (Proc.devRef .tc main_arg0) : S8192x32.Idx → BitVec 32) = I
    ∧ (after tokS18 W (Proc.devRef .tc main_arg8) : S50000x300.Idx → EReal) = T
    ∧ (after tokS18 W (Proc.devRef .tc main_v190) : S8192x300.Idx → EReal) = fun i => bagPart (by decide : 0 < 50000) I T (i 0) (i 1) 19 := by
  refine ⟨(after_of_writes_sub tokS18 W tokS18_writes (by decide)).trans hI,
    (after_of_writes_sub tokS18 W tokS18_writes (by decide)).trans hT, ?_⟩
  dsimp only [tokS18]
  after_results
  exact bagStepInv (by decide) _ _ rfl _ _ T _ I 18 (by decide) _ _ _
    (fun b => column_apply (W (Proc.devRef .tc main_arg0) : S8192x32.Idx → BitVec 32) 18 (by decide) _ _ b) hI hT hA

/-- Bag step 19: partial sum 19 becomes partial sum 20. -/
theorem tokS19_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v190) : S8192x300.Idx → EReal) = fun i => bagPart (by decide : 0 < 50000) I T (i 0) (i 1) 19) :
    (after tokS19 W (Proc.devRef .tc main_arg0) : S8192x32.Idx → BitVec 32) = I
    ∧ (after tokS19 W (Proc.devRef .tc main_arg8) : S50000x300.Idx → EReal) = T
    ∧ (after tokS19 W (Proc.devRef .tc main_v200) : S8192x300.Idx → EReal) = fun i => bagPart (by decide : 0 < 50000) I T (i 0) (i 1) 20 := by
  refine ⟨(after_of_writes_sub tokS19 W tokS19_writes (by decide)).trans hI,
    (after_of_writes_sub tokS19 W tokS19_writes (by decide)).trans hT, ?_⟩
  dsimp only [tokS19]
  after_results
  exact bagStepInv (by decide) _ _ rfl _ _ T _ I 19 (by decide) _ _ _
    (fun b => column_apply (W (Proc.devRef .tc main_arg0) : S8192x32.Idx → BitVec 32) 19 (by decide) _ _ b) hI hT hA

/-- Bag step 20: partial sum 20 becomes partial sum 21. -/
theorem tokS20_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v200) : S8192x300.Idx → EReal) = fun i => bagPart (by decide : 0 < 50000) I T (i 0) (i 1) 20) :
    (after tokS20 W (Proc.devRef .tc main_arg0) : S8192x32.Idx → BitVec 32) = I
    ∧ (after tokS20 W (Proc.devRef .tc main_arg8) : S50000x300.Idx → EReal) = T
    ∧ (after tokS20 W (Proc.devRef .tc main_v210) : S8192x300.Idx → EReal) = fun i => bagPart (by decide : 0 < 50000) I T (i 0) (i 1) 21 := by
  refine ⟨(after_of_writes_sub tokS20 W tokS20_writes (by decide)).trans hI,
    (after_of_writes_sub tokS20 W tokS20_writes (by decide)).trans hT, ?_⟩
  dsimp only [tokS20]
  after_results
  exact bagStepInv (by decide) _ _ rfl _ _ T _ I 20 (by decide) _ _ _
    (fun b => column_apply (W (Proc.devRef .tc main_arg0) : S8192x32.Idx → BitVec 32) 20 (by decide) _ _ b) hI hT hA

/-- Bag step 21: partial sum 21 becomes partial sum 22. -/
theorem tokS21_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v210) : S8192x300.Idx → EReal) = fun i => bagPart (by decide : 0 < 50000) I T (i 0) (i 1) 21) :
    (after tokS21 W (Proc.devRef .tc main_arg0) : S8192x32.Idx → BitVec 32) = I
    ∧ (after tokS21 W (Proc.devRef .tc main_arg8) : S50000x300.Idx → EReal) = T
    ∧ (after tokS21 W (Proc.devRef .tc main_v220) : S8192x300.Idx → EReal) = fun i => bagPart (by decide : 0 < 50000) I T (i 0) (i 1) 22 := by
  refine ⟨(after_of_writes_sub tokS21 W tokS21_writes (by decide)).trans hI,
    (after_of_writes_sub tokS21 W tokS21_writes (by decide)).trans hT, ?_⟩
  dsimp only [tokS21]
  after_results
  exact bagStepInv (by decide) _ _ rfl _ _ T _ I 21 (by decide) _ _ _
    (fun b => column_apply (W (Proc.devRef .tc main_arg0) : S8192x32.Idx → BitVec 32) 21 (by decide) _ _ b) hI hT hA

/-- Bag step 22: partial sum 22 becomes partial sum 23. -/
theorem tokS22_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v220) : S8192x300.Idx → EReal) = fun i => bagPart (by decide : 0 < 50000) I T (i 0) (i 1) 22) :
    (after tokS22 W (Proc.devRef .tc main_arg0) : S8192x32.Idx → BitVec 32) = I
    ∧ (after tokS22 W (Proc.devRef .tc main_arg8) : S50000x300.Idx → EReal) = T
    ∧ (after tokS22 W (Proc.devRef .tc main_v230) : S8192x300.Idx → EReal) = fun i => bagPart (by decide : 0 < 50000) I T (i 0) (i 1) 23 := by
  refine ⟨(after_of_writes_sub tokS22 W tokS22_writes (by decide)).trans hI,
    (after_of_writes_sub tokS22 W tokS22_writes (by decide)).trans hT, ?_⟩
  dsimp only [tokS22]
  after_results
  exact bagStepInv (by decide) _ _ rfl _ _ T _ I 22 (by decide) _ _ _
    (fun b => column_apply (W (Proc.devRef .tc main_arg0) : S8192x32.Idx → BitVec 32) 22 (by decide) _ _ b) hI hT hA

/-- Bag step 23: partial sum 23 becomes partial sum 24. -/
theorem tokS23_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v230) : S8192x300.Idx → EReal) = fun i => bagPart (by decide : 0 < 50000) I T (i 0) (i 1) 23) :
    (after tokS23 W (Proc.devRef .tc main_arg0) : S8192x32.Idx → BitVec 32) = I
    ∧ (after tokS23 W (Proc.devRef .tc main_arg8) : S50000x300.Idx → EReal) = T
    ∧ (after tokS23 W (Proc.devRef .tc main_v240) : S8192x300.Idx → EReal) = fun i => bagPart (by decide : 0 < 50000) I T (i 0) (i 1) 24 := by
  refine ⟨(after_of_writes_sub tokS23 W tokS23_writes (by decide)).trans hI,
    (after_of_writes_sub tokS23 W tokS23_writes (by decide)).trans hT, ?_⟩
  dsimp only [tokS23]
  after_results
  exact bagStepInv (by decide) _ _ rfl _ _ T _ I 23 (by decide) _ _ _
    (fun b => column_apply (W (Proc.devRef .tc main_arg0) : S8192x32.Idx → BitVec 32) 23 (by decide) _ _ b) hI hT hA

/-- Bag step 24: partial sum 24 becomes partial sum 25. -/
theorem tokS24_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v240) : S8192x300.Idx → EReal) = fun i => bagPart (by decide : 0 < 50000) I T (i 0) (i 1) 24) :
    (after tokS24 W (Proc.devRef .tc main_arg0) : S8192x32.Idx → BitVec 32) = I
    ∧ (after tokS24 W (Proc.devRef .tc main_arg8) : S50000x300.Idx → EReal) = T
    ∧ (after tokS24 W (Proc.devRef .tc main_v250) : S8192x300.Idx → EReal) = fun i => bagPart (by decide : 0 < 50000) I T (i 0) (i 1) 25 := by
  refine ⟨(after_of_writes_sub tokS24 W tokS24_writes (by decide)).trans hI,
    (after_of_writes_sub tokS24 W tokS24_writes (by decide)).trans hT, ?_⟩
  dsimp only [tokS24]
  after_results
  exact bagStepInv (by decide) _ _ rfl _ _ T _ I 24 (by decide) _ _ _
    (fun b => column_apply (W (Proc.devRef .tc main_arg0) : S8192x32.Idx → BitVec 32) 24 (by decide) _ _ b) hI hT hA

/-- Bag step 25: partial sum 25 becomes partial sum 26. -/
theorem tokS25_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v250) : S8192x300.Idx → EReal) = fun i => bagPart (by decide : 0 < 50000) I T (i 0) (i 1) 25) :
    (after tokS25 W (Proc.devRef .tc main_arg0) : S8192x32.Idx → BitVec 32) = I
    ∧ (after tokS25 W (Proc.devRef .tc main_arg8) : S50000x300.Idx → EReal) = T
    ∧ (after tokS25 W (Proc.devRef .tc main_v260) : S8192x300.Idx → EReal) = fun i => bagPart (by decide : 0 < 50000) I T (i 0) (i 1) 26 := by
  refine ⟨(after_of_writes_sub tokS25 W tokS25_writes (by decide)).trans hI,
    (after_of_writes_sub tokS25 W tokS25_writes (by decide)).trans hT, ?_⟩
  dsimp only [tokS25]
  after_results
  exact bagStepInv (by decide) _ _ rfl _ _ T _ I 25 (by decide) _ _ _
    (fun b => column_apply (W (Proc.devRef .tc main_arg0) : S8192x32.Idx → BitVec 32) 25 (by decide) _ _ b) hI hT hA

/-- Bag step 26: partial sum 26 becomes partial sum 27. -/
theorem tokS26_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v260) : S8192x300.Idx → EReal) = fun i => bagPart (by decide : 0 < 50000) I T (i 0) (i 1) 26) :
    (after tokS26 W (Proc.devRef .tc main_arg0) : S8192x32.Idx → BitVec 32) = I
    ∧ (after tokS26 W (Proc.devRef .tc main_arg8) : S50000x300.Idx → EReal) = T
    ∧ (after tokS26 W (Proc.devRef .tc main_v270) : S8192x300.Idx → EReal) = fun i => bagPart (by decide : 0 < 50000) I T (i 0) (i 1) 27 := by
  refine ⟨(after_of_writes_sub tokS26 W tokS26_writes (by decide)).trans hI,
    (after_of_writes_sub tokS26 W tokS26_writes (by decide)).trans hT, ?_⟩
  dsimp only [tokS26]
  after_results
  exact bagStepInv (by decide) _ _ rfl _ _ T _ I 26 (by decide) _ _ _
    (fun b => column_apply (W (Proc.devRef .tc main_arg0) : S8192x32.Idx → BitVec 32) 26 (by decide) _ _ b) hI hT hA

/-- Bag step 27: partial sum 27 becomes partial sum 28. -/
theorem tokS27_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v270) : S8192x300.Idx → EReal) = fun i => bagPart (by decide : 0 < 50000) I T (i 0) (i 1) 27) :
    (after tokS27 W (Proc.devRef .tc main_arg0) : S8192x32.Idx → BitVec 32) = I
    ∧ (after tokS27 W (Proc.devRef .tc main_arg8) : S50000x300.Idx → EReal) = T
    ∧ (after tokS27 W (Proc.devRef .tc main_v280) : S8192x300.Idx → EReal) = fun i => bagPart (by decide : 0 < 50000) I T (i 0) (i 1) 28 := by
  refine ⟨(after_of_writes_sub tokS27 W tokS27_writes (by decide)).trans hI,
    (after_of_writes_sub tokS27 W tokS27_writes (by decide)).trans hT, ?_⟩
  dsimp only [tokS27]
  after_results
  exact bagStepInv (by decide) _ _ rfl _ _ T _ I 27 (by decide) _ _ _
    (fun b => column_apply (W (Proc.devRef .tc main_arg0) : S8192x32.Idx → BitVec 32) 27 (by decide) _ _ b) hI hT hA

/-- Bag step 28: partial sum 28 becomes partial sum 29. -/
theorem tokS28_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v280) : S8192x300.Idx → EReal) = fun i => bagPart (by decide : 0 < 50000) I T (i 0) (i 1) 28) :
    (after tokS28 W (Proc.devRef .tc main_arg0) : S8192x32.Idx → BitVec 32) = I
    ∧ (after tokS28 W (Proc.devRef .tc main_arg8) : S50000x300.Idx → EReal) = T
    ∧ (after tokS28 W (Proc.devRef .tc main_v290) : S8192x300.Idx → EReal) = fun i => bagPart (by decide : 0 < 50000) I T (i 0) (i 1) 29 := by
  refine ⟨(after_of_writes_sub tokS28 W tokS28_writes (by decide)).trans hI,
    (after_of_writes_sub tokS28 W tokS28_writes (by decide)).trans hT, ?_⟩
  dsimp only [tokS28]
  after_results
  exact bagStepInv (by decide) _ _ rfl _ _ T _ I 28 (by decide) _ _ _
    (fun b => column_apply (W (Proc.devRef .tc main_arg0) : S8192x32.Idx → BitVec 32) 28 (by decide) _ _ b) hI hT hA

/-- Bag step 29: partial sum 29 becomes partial sum 30. -/
theorem tokS29_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v290) : S8192x300.Idx → EReal) = fun i => bagPart (by decide : 0 < 50000) I T (i 0) (i 1) 29) :
    (after tokS29 W (Proc.devRef .tc main_arg0) : S8192x32.Idx → BitVec 32) = I
    ∧ (after tokS29 W (Proc.devRef .tc main_arg8) : S50000x300.Idx → EReal) = T
    ∧ (after tokS29 W (Proc.devRef .tc main_v300) : S8192x300.Idx → EReal) = fun i => bagPart (by decide : 0 < 50000) I T (i 0) (i 1) 30 := by
  refine ⟨(after_of_writes_sub tokS29 W tokS29_writes (by decide)).trans hI,
    (after_of_writes_sub tokS29 W tokS29_writes (by decide)).trans hT, ?_⟩
  dsimp only [tokS29]
  after_results
  exact bagStepInv (by decide) _ _ rfl _ _ T _ I 29 (by decide) _ _ _
    (fun b => column_apply (W (Proc.devRef .tc main_arg0) : S8192x32.Idx → BitVec 32) 29 (by decide) _ _ b) hI hT hA

/-- Bag step 30: partial sum 30 becomes partial sum 31. -/
theorem tokS30_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v300) : S8192x300.Idx → EReal) = fun i => bagPart (by decide : 0 < 50000) I T (i 0) (i 1) 30) :
    (after tokS30 W (Proc.devRef .tc main_arg0) : S8192x32.Idx → BitVec 32) = I
    ∧ (after tokS30 W (Proc.devRef .tc main_arg8) : S50000x300.Idx → EReal) = T
    ∧ (after tokS30 W (Proc.devRef .tc main_v310) : S8192x300.Idx → EReal) = fun i => bagPart (by decide : 0 < 50000) I T (i 0) (i 1) 31 := by
  refine ⟨(after_of_writes_sub tokS30 W tokS30_writes (by decide)).trans hI,
    (after_of_writes_sub tokS30 W tokS30_writes (by decide)).trans hT, ?_⟩
  dsimp only [tokS30]
  after_results
  exact bagStepInv (by decide) _ _ rfl _ _ T _ I 30 (by decide) _ _ _
    (fun b => column_apply (W (Proc.devRef .tc main_arg0) : S8192x32.Idx → BitVec 32) 30 (by decide) _ _ b) hI hT hA

/-- Bag step 31: partial sum 31 becomes partial sum 32. -/
theorem tokS31_run (W : Valuation τ sig (Elt Ideal)) (I : IVec ⟨2, ![8192, 32]⟩ 32) (T : FVec Ideal ⟨2, ![50000, 300]⟩ .f32)
    (hI : (W (Proc.devRef .tc main_arg0) : S8192x32.Idx → BitVec 32) = I) (hT : (W (Proc.devRef .tc main_arg8) : S50000x300.Idx → EReal) = T)
    (hA : (W (Proc.devRef .tc main_v310) : S8192x300.Idx → EReal) = fun i => bagPart (by decide : 0 < 50000) I T (i 0) (i 1) 31) :
    (after tokS31 W (Proc.devRef .tc main_arg0) : S8192x32.Idx → BitVec 32) = I
    ∧ (after tokS31 W (Proc.devRef .tc main_arg8) : S50000x300.Idx → EReal) = T
    ∧ (after tokS31 W (Proc.devRef .tc main_v320) : S8192x300.Idx → EReal) = fun i => bagPart (by decide : 0 < 50000) I T (i 0) (i 1) 32 := by
  refine ⟨(after_of_writes_sub tokS31 W tokS31_writes (by decide)).trans hI,
    (after_of_writes_sub tokS31 W tokS31_writes (by decide)).trans hT, ?_⟩
  dsimp only [tokS31]
  after_results
  exact bagStepInv (by decide) _ _ rfl _ _ T _ I 31 (by decide) _ _ _
    (fun b => column_apply (W (Proc.devRef .tc main_arg0) : S8192x32.Idx → BitVec 32) 31 (by decide) _ _ b) hI hT hA

/-! ## The end -/

theorem tokT_run (W : Valuation τ sig (Elt Ideal)) (I : IVec ⟨2, ![8192, 32]⟩ 32) (T : FVec Ideal ⟨2, ![50000, 300]⟩ .f32)
    (hA : (W (Proc.devRef .tc main_v320) : S8192x300.Idx → EReal) = fun i => bagPart (by decide : 0 < 50000) I T (i 0) (i 1) 32) :
    (after tokT W (Proc.devRef .tc main_v322) : S8192x300.Idx → EReal)
      = fun i => Ideal.div (bagSum (by decide : 0 < 50000) I T (i 0) (i 1)) (Ideal.ofBits .f32 0x42000000#32) := by
  dsimp only [tokT]
  after_results
  exact meanPlain (by decide) I T _ _ hA _

/-! ## The whole stretch -/

theorem tokK_run (W : Valuation τ sig (Elt Ideal)) :
    (after tokK W (Proc.devRef .tc main_v322) : S8192x300.Idx → EReal)
      = fun i => Ideal.div (bagSum (by decide : 0 < 50000) (W (Proc.devRef .tc main_arg0) : S8192x32.Idx → BitVec 32) (W (Proc.devRef .tc main_arg8) : S50000x300.Idx → EReal) (i 0) (i 1)) (Ideal.ofBits .f32 0x42000000#32) := by
  have h0 := tokH_run W
  have h1 := tokS0_run _ _ _ h0.1 h0.2.1 h0.2.2
  have h2 := tokS1_run _ _ _ h1.1 h1.2.1 h1.2.2
  have h3 := tokS2_run _ _ _ h2.1 h2.2.1 h2.2.2
  have h4 := tokS3_run _ _ _ h3.1 h3.2.1 h3.2.2
  have h5 := tokS4_run _ _ _ h4.1 h4.2.1 h4.2.2
  have h6 := tokS5_run _ _ _ h5.1 h5.2.1 h5.2.2
  have h7 := tokS6_run _ _ _ h6.1 h6.2.1 h6.2.2
  have h8 := tokS7_run _ _ _ h7.1 h7.2.1 h7.2.2
  have h9 := tokS8_run _ _ _ h8.1 h8.2.1 h8.2.2
  have h10 := tokS9_run _ _ _ h9.1 h9.2.1 h9.2.2
  have h11 := tokS10_run _ _ _ h10.1 h10.2.1 h10.2.2
  have h12 := tokS11_run _ _ _ h11.1 h11.2.1 h11.2.2
  have h13 := tokS12_run _ _ _ h12.1 h12.2.1 h12.2.2
  have h14 := tokS13_run _ _ _ h13.1 h13.2.1 h13.2.2
  have h15 := tokS14_run _ _ _ h14.1 h14.2.1 h14.2.2
  have h16 := tokS15_run _ _ _ h15.1 h15.2.1 h15.2.2
  have h17 := tokS16_run _ _ _ h16.1 h16.2.1 h16.2.2
  have h18 := tokS17_run _ _ _ h17.1 h17.2.1 h17.2.2
  have h19 := tokS18_run _ _ _ h18.1 h18.2.1 h18.2.2
  have h20 := tokS19_run _ _ _ h19.1 h19.2.1 h19.2.2
  have h21 := tokS20_run _ _ _ h20.1 h20.2.1 h20.2.2
  have h22 := tokS21_run _ _ _ h21.1 h21.2.1 h21.2.2
  have h23 := tokS22_run _ _ _ h22.1 h22.2.1 h22.2.2
  have h24 := tokS23_run _ _ _ h23.1 h23.2.1 h23.2.2
  have h25 := tokS24_run _ _ _ h24.1 h24.2.1 h24.2.2
  have h26 := tokS25_run _ _ _ h25.1 h25.2.1 h25.2.2
  have h27 := tokS26_run _ _ _ h26.1 h26.2.1 h26.2.2
  have h28 := tokS27_run _ _ _ h27.1 h27.2.1 h27.2.2
  have h29 := tokS28_run _ _ _ h28.1 h28.2.1 h28.2.2
  have h30 := tokS29_run _ _ _ h29.1 h29.2.1 h29.2.2
  have h31 := tokS30_run _ _ _ h30.1 h30.2.1 h30.2.2
  have h32 := tokS31_run _ _ _ h31.1 h31.2.1 h31.2.2
  have ht := tokT_run _ _ _ h32.2.2
  simp only [tokK, after_append]
  exact ht

/-! ## As the region finds it -/

variable (m : (ℓ : Loc nD τ sig) → Buf (Elt Ideal) ℓ) (c : Dev nD)

theorem tok_eq : (VK m c main_v322 : S8192x300.Idx → EReal) = fun i => tok (kArgs m c) (i 0) (i 1) := by
  refine (V_cut m c main_v322).trans ?_
  refine ((A10_keep _ _ (by decide)).trans ((A9_keep _ _ (by decide)).trans ((A8_keep _ _ (by decide)).trans ((A7_keep _ _ (by decide)).trans ((A6_keep _ _ (by decide)).trans ((A5_keep _ _ (by decide)).trans ((A4_keep _ _ (by decide)).trans ((A3_keep _ _ (by decide)).trans ((A2_keep _ _ (by decide))))))))))).trans ?_
  refine (tokK_run (L0 m c)).trans ?_
  rfl

end Cert.WideDeep.Glue

end
-- ==== Proof.GlueE1.lean ====
/-
  Field e1: the accumulator after n of its 20 bag steps is the n-th partial bag sum over the joined table; the field is
  the full sum divided by the bag size, and its wide entry is column 64 of the full sum.
-/
import proofs.«151196_j43095701848227_2_alg».proof.Proof.GlueCut
import proofs.«151196_j43095701848227_2_alg».proof.Proof.GlueRest

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

/-! ## The start: the tables and the zero accumulator -/

theorem e1H_run (W : Valuation τ sig (Elt Ideal)) :
    (after e1H W (Proc.devRef .tc main_arg1) : S8192x20.Idx → BitVec 32) = (W (Proc.devRef .tc main_arg1) : S8192x20.Idx → BitVec 32)
    ∧ (after e1H W (Proc.devRef .tc main_v323) : S1000x65.Idx → EReal) = (concatenate S1000x65 1 [⟨S1000x64, (W (Proc.devRef .tc main_arg9) : S1000x64.Idx → EReal)⟩, ⟨S1000x1, (W (Proc.devRef .tc main_arg16) : S1000x1.Idx → EReal)⟩] concatenates_S1000x64_S1000x1_S1000x65_d1)
    ∧ (after e1H W (Proc.devRef .tc main_v324) : S8192x65.Idx → EReal)
        = fun i => bagPart (by decide : 0 < 1000) (W (Proc.devRef .tc main_arg1) : S8192x20.Idx → BitVec 32) (concatenate S1000x65 1 [⟨S1000x64, (W (Proc.devRef .tc main_arg9) : S1000x64.Idx → EReal)⟩, ⟨S1000x1, (W (Proc.devRef .tc main_arg16) : S1000x1.Idx → EReal)⟩] concatenates_S1000x64_S1000x1_S1000x65_d1) (i 0) (i 1) 0 := by
  refine ⟨after_of_writes_sub e1H W e1H_writes (by decide), ?_, ?_⟩
  · dsimp only [e1H]
    after_results
  · dsimp only [e1H]
    after_results
    exact zeros_eq _ _ _ _

/-! ## The bag steps -/

/-- Bag step 0: partial sum 0 becomes partial sum 1. -/
theorem e1S0_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v324) : S8192x65.Idx → EReal) = fun i => bagPart (by decide : 0 < 1000) I T (i 0) (i 1) 0) :
    (after e1S0 W (Proc.devRef .tc main_arg1) : S8192x20.Idx → BitVec 32) = I
    ∧ (after e1S0 W (Proc.devRef .tc main_v323) : S1000x65.Idx → EReal) = T
    ∧ (after e1S0 W (Proc.devRef .tc main_v334) : S8192x65.Idx → EReal) = fun i => bagPart (by decide : 0 < 1000) I T (i 0) (i 1) 1 := by
  refine ⟨(after_of_writes_sub e1S0 W e1S0_writes (by decide)).trans hI,
    (after_of_writes_sub e1S0 W e1S0_writes (by decide)).trans hT, ?_⟩
  dsimp only [e1S0]
  after_results
  exact bagStepInv (by decide) _ _ rfl _ _ T _ I 0 (by decide) _ _ _
    (fun b => column_apply (W (Proc.devRef .tc main_arg1) : S8192x20.Idx → BitVec 32) 0 (by decide) _ _ b) hI hT hA

/-- Bag step 1: partial sum 1 becomes partial sum 2. -/
theorem e1S1_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v334) : S8192x65.Idx → EReal) = fun i => bagPart (by decide : 0 < 1000) I T (i 0) (i 1) 1) :
    (after e1S1 W (Proc.devRef .tc main_arg1) : S8192x20.Idx → BitVec 32) = I
    ∧ (after e1S1 W (Proc.devRef .tc main_v323) : S1000x65.Idx → EReal) = T
    ∧ (after e1S1 W (Proc.devRef .tc main_v344) : S8192x65.Idx → EReal) = fun i => bagPart (by decide : 0 < 1000) I T (i 0) (i 1) 2 := by
  refine ⟨(after_of_writes_sub e1S1 W e1S1_writes (by decide)).trans hI,
    (after_of_writes_sub e1S1 W e1S1_writes (by decide)).trans hT, ?_⟩
  dsimp only [e1S1]
  after_results
  exact bagStepInv (by decide) _ _ rfl _ _ T _ I 1 (by decide) _ _ _
    (fun b => column_apply (W (Proc.devRef .tc main_arg1) : S8192x20.Idx → BitVec 32) 1 (by decide) _ _ b) hI hT hA

/-- Bag step 2: partial sum 2 becomes partial sum 3. -/
theorem e1S2_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v344) : S8192x65.Idx → EReal) = fun i => bagPart (by decide : 0 < 1000) I T (i 0) (i 1) 2) :
    (after e1S2 W (Proc.devRef .tc main_arg1) : S8192x20.Idx → BitVec 32) = I
    ∧ (after e1S2 W (Proc.devRef .tc main_v323) : S1000x65.Idx → EReal) = T
    ∧ (after e1S2 W (Proc.devRef .tc main_v354) : S8192x65.Idx → EReal) = fun i => bagPart (by decide : 0 < 1000) I T (i 0) (i 1) 3 := by
  refine ⟨(after_of_writes_sub e1S2 W e1S2_writes (by decide)).trans hI,
    (after_of_writes_sub e1S2 W e1S2_writes (by decide)).trans hT, ?_⟩
  dsimp only [e1S2]
  after_results
  exact bagStepInv (by decide) _ _ rfl _ _ T _ I 2 (by decide) _ _ _
    (fun b => column_apply (W (Proc.devRef .tc main_arg1) : S8192x20.Idx → BitVec 32) 2 (by decide) _ _ b) hI hT hA

/-- Bag step 3: partial sum 3 becomes partial sum 4. -/
theorem e1S3_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v354) : S8192x65.Idx → EReal) = fun i => bagPart (by decide : 0 < 1000) I T (i 0) (i 1) 3) :
    (after e1S3 W (Proc.devRef .tc main_arg1) : S8192x20.Idx → BitVec 32) = I
    ∧ (after e1S3 W (Proc.devRef .tc main_v323) : S1000x65.Idx → EReal) = T
    ∧ (after e1S3 W (Proc.devRef .tc main_v364) : S8192x65.Idx → EReal) = fun i => bagPart (by decide : 0 < 1000) I T (i 0) (i 1) 4 := by
  refine ⟨(after_of_writes_sub e1S3 W e1S3_writes (by decide)).trans hI,
    (after_of_writes_sub e1S3 W e1S3_writes (by decide)).trans hT, ?_⟩
  dsimp only [e1S3]
  after_results
  exact bagStepInv (by decide) _ _ rfl _ _ T _ I 3 (by decide) _ _ _
    (fun b => column_apply (W (Proc.devRef .tc main_arg1) : S8192x20.Idx → BitVec 32) 3 (by decide) _ _ b) hI hT hA

/-- Bag step 4: partial sum 4 becomes partial sum 5. -/
theorem e1S4_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v364) : S8192x65.Idx → EReal) = fun i => bagPart (by decide : 0 < 1000) I T (i 0) (i 1) 4) :
    (after e1S4 W (Proc.devRef .tc main_arg1) : S8192x20.Idx → BitVec 32) = I
    ∧ (after e1S4 W (Proc.devRef .tc main_v323) : S1000x65.Idx → EReal) = T
    ∧ (after e1S4 W (Proc.devRef .tc main_v374) : S8192x65.Idx → EReal) = fun i => bagPart (by decide : 0 < 1000) I T (i 0) (i 1) 5 := by
  refine ⟨(after_of_writes_sub e1S4 W e1S4_writes (by decide)).trans hI,
    (after_of_writes_sub e1S4 W e1S4_writes (by decide)).trans hT, ?_⟩
  dsimp only [e1S4]
  after_results
  exact bagStepInv (by decide) _ _ rfl _ _ T _ I 4 (by decide) _ _ _
    (fun b => column_apply (W (Proc.devRef .tc main_arg1) : S8192x20.Idx → BitVec 32) 4 (by decide) _ _ b) hI hT hA

/-- Bag step 5: partial sum 5 becomes partial sum 6. -/
theorem e1S5_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v374) : S8192x65.Idx → EReal) = fun i => bagPart (by decide : 0 < 1000) I T (i 0) (i 1) 5) :
    (after e1S5 W (Proc.devRef .tc main_arg1) : S8192x20.Idx → BitVec 32) = I
    ∧ (after e1S5 W (Proc.devRef .tc main_v323) : S1000x65.Idx → EReal) = T
    ∧ (after e1S5 W (Proc.devRef .tc main_v384) : S8192x65.Idx → EReal) = fun i => bagPart (by decide : 0 < 1000) I T (i 0) (i 1) 6 := by
  refine ⟨(after_of_writes_sub e1S5 W e1S5_writes (by decide)).trans hI,
    (after_of_writes_sub e1S5 W e1S5_writes (by decide)).trans hT, ?_⟩
  dsimp only [e1S5]
  after_results
  exact bagStepInv (by decide) _ _ rfl _ _ T _ I 5 (by decide) _ _ _
    (fun b => column_apply (W (Proc.devRef .tc main_arg1) : S8192x20.Idx → BitVec 32) 5 (by decide) _ _ b) hI hT hA

/-- Bag step 6: partial sum 6 becomes partial sum 7. -/
theorem e1S6_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v384) : S8192x65.Idx → EReal) = fun i => bagPart (by decide : 0 < 1000) I T (i 0) (i 1) 6) :
    (after e1S6 W (Proc.devRef .tc main_arg1) : S8192x20.Idx → BitVec 32) = I
    ∧ (after e1S6 W (Proc.devRef .tc main_v323) : S1000x65.Idx → EReal) = T
    ∧ (after e1S6 W (Proc.devRef .tc main_v394) : S8192x65.Idx → EReal) = fun i => bagPart (by decide : 0 < 1000) I T (i 0) (i 1) 7 := by
  refine ⟨(after_of_writes_sub e1S6 W e1S6_writes (by decide)).trans hI,
    (after_of_writes_sub e1S6 W e1S6_writes (by decide)).trans hT, ?_⟩
  dsimp only [e1S6]
  after_results
  exact bagStepInv (by decide) _ _ rfl _ _ T _ I 6 (by decide) _ _ _
    (fun b => column_apply (W (Proc.devRef .tc main_arg1) : S8192x20.Idx → BitVec 32) 6 (by decide) _ _ b) hI hT hA

/-- Bag step 7: partial sum 7 becomes partial sum 8. -/
theorem e1S7_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v394) : S8192x65.Idx → EReal) = fun i => bagPart (by decide : 0 < 1000) I T (i 0) (i 1) 7) :
    (after e1S7 W (Proc.devRef .tc main_arg1) : S8192x20.Idx → BitVec 32) = I
    ∧ (after e1S7 W (Proc.devRef .tc main_v323) : S1000x65.Idx → EReal) = T
    ∧ (after e1S7 W (Proc.devRef .tc main_v404) : S8192x65.Idx → EReal) = fun i => bagPart (by decide : 0 < 1000) I T (i 0) (i 1) 8 := by
  refine ⟨(after_of_writes_sub e1S7 W e1S7_writes (by decide)).trans hI,
    (after_of_writes_sub e1S7 W e1S7_writes (by decide)).trans hT, ?_⟩
  dsimp only [e1S7]
  after_results
  exact bagStepInv (by decide) _ _ rfl _ _ T _ I 7 (by decide) _ _ _
    (fun b => column_apply (W (Proc.devRef .tc main_arg1) : S8192x20.Idx → BitVec 32) 7 (by decide) _ _ b) hI hT hA

/-- Bag step 8: partial sum 8 becomes partial sum 9. -/
theorem e1S8_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v404) : S8192x65.Idx → EReal) = fun i => bagPart (by decide : 0 < 1000) I T (i 0) (i 1) 8) :
    (after e1S8 W (Proc.devRef .tc main_arg1) : S8192x20.Idx → BitVec 32) = I
    ∧ (after e1S8 W (Proc.devRef .tc main_v323) : S1000x65.Idx → EReal) = T
    ∧ (after e1S8 W (Proc.devRef .tc main_v414) : S8192x65.Idx → EReal) = fun i => bagPart (by decide : 0 < 1000) I T (i 0) (i 1) 9 := by
  refine ⟨(after_of_writes_sub e1S8 W e1S8_writes (by decide)).trans hI,
    (after_of_writes_sub e1S8 W e1S8_writes (by decide)).trans hT, ?_⟩
  dsimp only [e1S8]
  after_results
  exact bagStepInv (by decide) _ _ rfl _ _ T _ I 8 (by decide) _ _ _
    (fun b => column_apply (W (Proc.devRef .tc main_arg1) : S8192x20.Idx → BitVec 32) 8 (by decide) _ _ b) hI hT hA

/-- Bag step 9: partial sum 9 becomes partial sum 10. -/
theorem e1S9_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v414) : S8192x65.Idx → EReal) = fun i => bagPart (by decide : 0 < 1000) I T (i 0) (i 1) 9) :
    (after e1S9 W (Proc.devRef .tc main_arg1) : S8192x20.Idx → BitVec 32) = I
    ∧ (after e1S9 W (Proc.devRef .tc main_v323) : S1000x65.Idx → EReal) = T
    ∧ (after e1S9 W (Proc.devRef .tc main_v424) : S8192x65.Idx → EReal) = fun i => bagPart (by decide : 0 < 1000) I T (i 0) (i 1) 10 := by
  refine ⟨(after_of_writes_sub e1S9 W e1S9_writes (by decide)).trans hI,
    (after_of_writes_sub e1S9 W e1S9_writes (by decide)).trans hT, ?_⟩
  dsimp only [e1S9]
  after_results
  exact bagStepInv (by decide) _ _ rfl _ _ T _ I 9 (by decide) _ _ _
    (fun b => column_apply (W (Proc.devRef .tc main_arg1) : S8192x20.Idx → BitVec 32) 9 (by decide) _ _ b) hI hT hA

/-- Bag step 10: partial sum 10 becomes partial sum 11. -/
theorem e1S10_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v424) : S8192x65.Idx → EReal) = fun i => bagPart (by decide : 0 < 1000) I T (i 0) (i 1) 10) :
    (after e1S10 W (Proc.devRef .tc main_arg1) : S8192x20.Idx → BitVec 32) = I
    ∧ (after e1S10 W (Proc.devRef .tc main_v323) : S1000x65.Idx → EReal) = T
    ∧ (after e1S10 W (Proc.devRef .tc main_v434) : S8192x65.Idx → EReal) = fun i => bagPart (by decide : 0 < 1000) I T (i 0) (i 1) 11 := by
  refine ⟨(after_of_writes_sub e1S10 W e1S10_writes (by decide)).trans hI,
    (after_of_writes_sub e1S10 W e1S10_writes (by decide)).trans hT, ?_⟩
  dsimp only [e1S10]
  after_results
  exact bagStepInv (by decide) _ _ rfl _ _ T _ I 10 (by decide) _ _ _
    (fun b => column_apply (W (Proc.devRef .tc main_arg1) : S8192x20.Idx → BitVec 32) 10 (by decide) _ _ b) hI hT hA

/-- Bag step 11: partial sum 11 becomes partial sum 12. -/
theorem e1S11_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v434) : S8192x65.Idx → EReal) = fun i => bagPart (by decide : 0 < 1000) I T (i 0) (i 1) 11) :
    (after e1S11 W (Proc.devRef .tc main_arg1) : S8192x20.Idx → BitVec 32) = I
    ∧ (after e1S11 W (Proc.devRef .tc main_v323) : S1000x65.Idx → EReal) = T
    ∧ (after e1S11 W (Proc.devRef .tc main_v444) : S8192x65.Idx → EReal) = fun i => bagPart (by decide : 0 < 1000) I T (i 0) (i 1) 12 := by
  refine ⟨(after_of_writes_sub e1S11 W e1S11_writes (by decide)).trans hI,
    (after_of_writes_sub e1S11 W e1S11_writes (by decide)).trans hT, ?_⟩
  dsimp only [e1S11]
  after_results
  exact bagStepInv (by decide) _ _ rfl _ _ T _ I 11 (by decide) _ _ _
    (fun b => column_apply (W (Proc.devRef .tc main_arg1) : S8192x20.Idx → BitVec 32) 11 (by decide) _ _ b) hI hT hA

/-- Bag step 12: partial sum 12 becomes partial sum 13. -/
theorem e1S12_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v444) : S8192x65.Idx → EReal) = fun i => bagPart (by decide : 0 < 1000) I T (i 0) (i 1) 12) :
    (after e1S12 W (Proc.devRef .tc main_arg1) : S8192x20.Idx → BitVec 32) = I
    ∧ (after e1S12 W (Proc.devRef .tc main_v323) : S1000x65.Idx → EReal) = T
    ∧ (after e1S12 W (Proc.devRef .tc main_v454) : S8192x65.Idx → EReal) = fun i => bagPart (by decide : 0 < 1000) I T (i 0) (i 1) 13 := by
  refine ⟨(after_of_writes_sub e1S12 W e1S12_writes (by decide)).trans hI,
    (after_of_writes_sub e1S12 W e1S12_writes (by decide)).trans hT, ?_⟩
  dsimp only [e1S12]
  after_results
  exact bagStepInv (by decide) _ _ rfl _ _ T _ I 12 (by decide) _ _ _
    (fun b => column_apply (W (Proc.devRef .tc main_arg1) : S8192x20.Idx → BitVec 32) 12 (by decide) _ _ b) hI hT hA

/-- Bag step 13: partial sum 13 becomes partial sum 14. -/
theorem e1S13_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v454) : S8192x65.Idx → EReal) = fun i => bagPart (by decide : 0 < 1000) I T (i 0) (i 1) 13) :
    (after e1S13 W (Proc.devRef .tc main_arg1) : S8192x20.Idx → BitVec 32) = I
    ∧ (after e1S13 W (Proc.devRef .tc main_v323) : S1000x65.Idx → EReal) = T
    ∧ (after e1S13 W (Proc.devRef .tc main_v464) : S8192x65.Idx → EReal) = fun i => bagPart (by decide : 0 < 1000) I T (i 0) (i 1) 14 := by
  refine ⟨(after_of_writes_sub e1S13 W e1S13_writes (by decide)).trans hI,
    (after_of_writes_sub e1S13 W e1S13_writes (by decide)).trans hT, ?_⟩
  dsimp only [e1S13]
  after_results
  exact bagStepInv (by decide) _ _ rfl _ _ T _ I 13 (by decide) _ _ _
    (fun b => column_apply (W (Proc.devRef .tc main_arg1) : S8192x20.Idx → BitVec 32) 13 (by decide) _ _ b) hI hT hA

/-- Bag step 14: partial sum 14 becomes partial sum 15. -/
theorem e1S14_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v464) : S8192x65.Idx → EReal) = fun i => bagPart (by decide : 0 < 1000) I T (i 0) (i 1) 14) :
    (after e1S14 W (Proc.devRef .tc main_arg1) : S8192x20.Idx → BitVec 32) = I
    ∧ (after e1S14 W (Proc.devRef .tc main_v323) : S1000x65.Idx → EReal) = T
    ∧ (after e1S14 W (Proc.devRef .tc main_v474) : S8192x65.Idx → EReal) = fun i => bagPart (by decide : 0 < 1000) I T (i 0) (i 1) 15 := by
  refine ⟨(after_of_writes_sub e1S14 W e1S14_writes (by decide)).trans hI,
    (after_of_writes_sub e1S14 W e1S14_writes (by decide)).trans hT, ?_⟩
  dsimp only [e1S14]
  after_results
  exact bagStepInv (by decide) _ _ rfl _ _ T _ I 14 (by decide) _ _ _
    (fun b => column_apply (W (Proc.devRef .tc main_arg1) : S8192x20.Idx → BitVec 32) 14 (by decide) _ _ b) hI hT hA

/-- Bag step 15: partial sum 15 becomes partial sum 16. -/
theorem e1S15_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v474) : S8192x65.Idx → EReal) = fun i => bagPart (by decide : 0 < 1000) I T (i 0) (i 1) 15) :
    (after e1S15 W (Proc.devRef .tc main_arg1) : S8192x20.Idx → BitVec 32) = I
    ∧ (after e1S15 W (Proc.devRef .tc main_v323) : S1000x65.Idx → EReal) = T
    ∧ (after e1S15 W (Proc.devRef .tc main_v484) : S8192x65.Idx → EReal) = fun i => bagPart (by decide : 0 < 1000) I T (i 0) (i 1) 16 := by
  refine ⟨(after_of_writes_sub e1S15 W e1S15_writes (by decide)).trans hI,
    (after_of_writes_sub e1S15 W e1S15_writes (by decide)).trans hT, ?_⟩
  dsimp only [e1S15]
  after_results
  exact bagStepInv (by decide) _ _ rfl _ _ T _ I 15 (by decide) _ _ _
    (fun b => column_apply (W (Proc.devRef .tc main_arg1) : S8192x20.Idx → BitVec 32) 15 (by decide) _ _ b) hI hT hA

/-- Bag step 16: partial sum 16 becomes partial sum 17. -/
theorem e1S16_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v484) : S8192x65.Idx → EReal) = fun i => bagPart (by decide : 0 < 1000) I T (i 0) (i 1) 16) :
    (after e1S16 W (Proc.devRef .tc main_arg1) : S8192x20.Idx → BitVec 32) = I
    ∧ (after e1S16 W (Proc.devRef .tc main_v323) : S1000x65.Idx → EReal) = T
    ∧ (after e1S16 W (Proc.devRef .tc main_v494) : S8192x65.Idx → EReal) = fun i => bagPart (by decide : 0 < 1000) I T (i 0) (i 1) 17 := by
  refine ⟨(after_of_writes_sub e1S16 W e1S16_writes (by decide)).trans hI,
    (after_of_writes_sub e1S16 W e1S16_writes (by decide)).trans hT, ?_⟩
  dsimp only [e1S16]
  after_results
  exact bagStepInv (by decide) _ _ rfl _ _ T _ I 16 (by decide) _ _ _
    (fun b => column_apply (W (Proc.devRef .tc main_arg1) : S8192x20.Idx → BitVec 32) 16 (by decide) _ _ b) hI hT hA

/-- Bag step 17: partial sum 17 becomes partial sum 18. -/
theorem e1S17_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v494) : S8192x65.Idx → EReal) = fun i => bagPart (by decide : 0 < 1000) I T (i 0) (i 1) 17) :
    (after e1S17 W (Proc.devRef .tc main_arg1) : S8192x20.Idx → BitVec 32) = I
    ∧ (after e1S17 W (Proc.devRef .tc main_v323) : S1000x65.Idx → EReal) = T
    ∧ (after e1S17 W (Proc.devRef .tc main_v504) : S8192x65.Idx → EReal) = fun i => bagPart (by decide : 0 < 1000) I T (i 0) (i 1) 18 := by
  refine ⟨(after_of_writes_sub e1S17 W e1S17_writes (by decide)).trans hI,
    (after_of_writes_sub e1S17 W e1S17_writes (by decide)).trans hT, ?_⟩
  dsimp only [e1S17]
  after_results
  exact bagStepInv (by decide) _ _ rfl _ _ T _ I 17 (by decide) _ _ _
    (fun b => column_apply (W (Proc.devRef .tc main_arg1) : S8192x20.Idx → BitVec 32) 17 (by decide) _ _ b) hI hT hA

/-- Bag step 18: partial sum 18 becomes partial sum 19. -/
theorem e1S18_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v504) : S8192x65.Idx → EReal) = fun i => bagPart (by decide : 0 < 1000) I T (i 0) (i 1) 18) :
    (after e1S18 W (Proc.devRef .tc main_arg1) : S8192x20.Idx → BitVec 32) = I
    ∧ (after e1S18 W (Proc.devRef .tc main_v323) : S1000x65.Idx → EReal) = T
    ∧ (after e1S18 W (Proc.devRef .tc main_v514) : S8192x65.Idx → EReal) = fun i => bagPart (by decide : 0 < 1000) I T (i 0) (i 1) 19 := by
  refine ⟨(after_of_writes_sub e1S18 W e1S18_writes (by decide)).trans hI,
    (after_of_writes_sub e1S18 W e1S18_writes (by decide)).trans hT, ?_⟩
  dsimp only [e1S18]
  after_results
  exact bagStepInv (by decide) _ _ rfl _ _ T _ I 18 (by decide) _ _ _
    (fun b => column_apply (W (Proc.devRef .tc main_arg1) : S8192x20.Idx → BitVec 32) 18 (by decide) _ _ b) hI hT hA

/-- Bag step 19: partial sum 19 becomes partial sum 20. -/
theorem e1S19_run (W : Valuation τ sig (Elt Ideal)) (I : IVec ⟨2, ![8192, 20]⟩ 32) (T : FVec Ideal ⟨2, ![1000, 65]⟩ .f32)
    (hI : (W (Proc.devRef .tc main_arg1) : S8192x20.Idx → BitVec 32) = I) (hT : (W (Proc.devRef .tc main_v323) : S1000x65.Idx → EReal) = T)
    (hA : (W (Proc.devRef .tc main_v514) : S8192x65.Idx → EReal) = fun i => bagPart (by decide : 0 < 1000) I T (i 0) (i 1) 19) :
    (after e1S19 W (Proc.devRef .tc main_arg1) : S8192x20.Idx → BitVec 32) = I
    ∧ (after e1S19 W (Proc.devRef .tc main_v323) : S1000x65.Idx → EReal) = T
    ∧ (after e1S19 W (Proc.devRef .tc main_v524) : S8192x65.Idx → EReal) = fun i => bagPart (by decide : 0 < 1000) I T (i 0) (i 1) 20 := by
  refine ⟨(after_of_writes_sub e1S19 W e1S19_writes (by decide)).trans hI,
    (after_of_writes_sub e1S19 W e1S19_writes (by decide)).trans hT, ?_⟩
  dsimp only [e1S19]
  after_results
  exact bagStepInv (by decide) _ _ rfl _ _ T _ I 19 (by decide) _ _ _
    (fun b => column_apply (W (Proc.devRef .tc main_arg1) : S8192x20.Idx → BitVec 32) 19 (by decide) _ _ b) hI hT hA

/-! ## The end -/

theorem e1T_run (W : Valuation τ sig (Elt Ideal)) (I : IVec ⟨2, ![8192, 20]⟩ 32) (E : FVec Ideal ⟨2, ![1000, 64]⟩ .f32) (Wd : FVec Ideal ⟨2, ![1000, 1]⟩ .f32)
    (hA : (W (Proc.devRef .tc main_v524) : S8192x65.Idx → EReal) = fun i => bagPart (by decide : 0 < 1000) I (concatenate S1000x65 1 [⟨S1000x64, E⟩, ⟨S1000x1, Wd⟩] concatenates_S1000x64_S1000x1_S1000x65_d1) (i 0) (i 1) 20) :
    (after e1T W (Proc.devRef .tc main_v527) : S8192x64.Idx → EReal)
        = (fun i => Ideal.div (bagSum (by decide : 0 < 1000) I E (i 0) (i 1)) (Ideal.ofBits .f32 0x41A00000#32))
    ∧ (after e1T W (Proc.devRef .tc main_v529) : S8192.Idx → EReal)
        = (fun i => bagSum (by decide : 0 < 1000) I Wd (i 0) (0 : Fin 1)) := by
  refine ⟨?_, ?_⟩
  · dsimp only [e1T]
    after_results
    exact meanTail (by decide) I E Wd _ _ _ hA _ _
  · dsimp only [e1T]
    after_results
    funext i
    obtain ⟨b, rfl⟩ : ∃ b : Fin 8192, i = ix1 b := ⟨i 0, eq_ix1 i⟩
    exact wideTail (by decide) I E Wd _ _ hA _ _ b

/-! ## The whole stretch -/

theorem e1K_run (W : Valuation τ sig (Elt Ideal)) :
    (after e1K W (Proc.devRef .tc main_v527) : S8192x64.Idx → EReal)
        = (fun i => Ideal.div (bagSum (by decide : 0 < 1000) (W (Proc.devRef .tc main_arg1) : S8192x20.Idx → BitVec 32) (W (Proc.devRef .tc main_arg9) : S1000x64.Idx → EReal) (i 0) (i 1)) (Ideal.ofBits .f32 0x41A00000#32))
    ∧ (after e1K W (Proc.devRef .tc main_v529) : S8192.Idx → EReal)
        = (fun i => bagSum (by decide : 0 < 1000) (W (Proc.devRef .tc main_arg1) : S8192x20.Idx → BitVec 32) (W (Proc.devRef .tc main_arg16) : S1000x1.Idx → EReal) (i 0) (0 : Fin 1)) := by
  have h0 := e1H_run W
  have h1 := e1S0_run _ _ _ h0.1 h0.2.1 h0.2.2
  have h2 := e1S1_run _ _ _ h1.1 h1.2.1 h1.2.2
  have h3 := e1S2_run _ _ _ h2.1 h2.2.1 h2.2.2
  have h4 := e1S3_run _ _ _ h3.1 h3.2.1 h3.2.2
  have h5 := e1S4_run _ _ _ h4.1 h4.2.1 h4.2.2
  have h6 := e1S5_run _ _ _ h5.1 h5.2.1 h5.2.2
  have h7 := e1S6_run _ _ _ h6.1 h6.2.1 h6.2.2
  have h8 := e1S7_run _ _ _ h7.1 h7.2.1 h7.2.2
  have h9 := e1S8_run _ _ _ h8.1 h8.2.1 h8.2.2
  have h10 := e1S9_run _ _ _ h9.1 h9.2.1 h9.2.2
  have h11 := e1S10_run _ _ _ h10.1 h10.2.1 h10.2.2
  have h12 := e1S11_run _ _ _ h11.1 h11.2.1 h11.2.2
  have h13 := e1S12_run _ _ _ h12.1 h12.2.1 h12.2.2
  have h14 := e1S13_run _ _ _ h13.1 h13.2.1 h13.2.2
  have h15 := e1S14_run _ _ _ h14.1 h14.2.1 h14.2.2
  have h16 := e1S15_run _ _ _ h15.1 h15.2.1 h15.2.2
  have h17 := e1S16_run _ _ _ h16.1 h16.2.1 h16.2.2
  have h18 := e1S17_run _ _ _ h17.1 h17.2.1 h17.2.2
  have h19 := e1S18_run _ _ _ h18.1 h18.2.1 h18.2.2
  have h20 := e1S19_run _ _ _ h19.1 h19.2.1 h19.2.2
  have ht := e1T_run _ _ _ _ h20.2.2
  simp only [e1K, after_append]
  exact ht

/-! ## As the region finds it -/

variable (m : (ℓ : Loc nD τ sig) → Buf (Elt Ideal) ℓ) (c : Dev nD)

theorem e1_eq : (VK m c main_v527 : S8192x64.Idx → EReal) = fun i => e1 (kArgs m c) (i 0) (i 1) := by
  refine (V_cut m c main_v527).trans ?_
  refine ((A10_keep _ _ (by decide)).trans ((A9_keep _ _ (by decide)).trans ((A8_keep _ _ (by decide)).trans ((A7_keep _ _ (by decide)).trans ((A6_keep _ _ (by decide)).trans ((A5_keep _ _ (by decide)).trans ((A4_keep _ _ (by decide)).trans ((A3_keep _ _ (by decide)))))))))).trans ?_
  refine (e1K_run (A1 (L0 m c))).1.trans ?_
  rw [A1_arg (L0 m c) main_arg1 (by decide), A1_arg (L0 m c) main_arg9 (by decide)]
  rfl

/-- The wide entry of field e1, after its stretch. -/
theorem e1_wide : (A2 (L0 m c) (Proc.devRef .tc main_v529) : S8192.Idx → EReal)
    = fun i => bagSum (by decide : 0 < 1000) (kArgs m c).mh1Idx (kArgs m c).wideMh1 (i 0) (0 : Fin 1) := by
  refine (e1K_run (A1 (L0 m c))).2.trans ?_
  rw [A1_arg (L0 m c) main_arg1 (by decide), A1_arg (L0 m c) main_arg16 (by decide)]
  rfl

end Cert.WideDeep.Glue

end
-- ==== Proof.GlueE2.lean ====
/-
  Field e2: the accumulator after n of its 20 bag steps is the n-th partial bag sum over the joined table; the field is
  the full sum divided by the bag size, and its wide entry is column 64 of the full sum.
-/
import proofs.«151196_j43095701848227_2_alg».proof.Proof.GlueCut
import proofs.«151196_j43095701848227_2_alg».proof.Proof.GlueRest

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

/-! ## The start: the tables and the zero accumulator -/

theorem e2H_run (W : Valuation τ sig (Elt Ideal)) :
    (after e2H W (Proc.devRef .tc main_arg2) : S8192x20.Idx → BitVec 32) = (W (Proc.devRef .tc main_arg2) : S8192x20.Idx → BitVec 32)
    ∧ (after e2H W (Proc.devRef .tc main_v530) : S5000x65.Idx → EReal) = (concatenate S5000x65 1 [⟨S5000x64, (W (Proc.devRef .tc main_arg10) : S5000x64.Idx → EReal)⟩, ⟨S5000x1, (W (Proc.devRef .tc main_arg17) : S5000x1.Idx → EReal)⟩] concatenates_S5000x64_S5000x1_S5000x65_d1)
    ∧ (after e2H W (Proc.devRef .tc main_v531) : S8192x65.Idx → EReal)
        = fun i => bagPart (by decide : 0 < 5000) (W (Proc.devRef .tc main_arg2) : S8192x20.Idx → BitVec 32) (concatenate S5000x65 1 [⟨S5000x64, (W (Proc.devRef .tc main_arg10) : S5000x64.Idx → EReal)⟩, ⟨S5000x1, (W (Proc.devRef .tc main_arg17) : S5000x1.Idx → EReal)⟩] concatenates_S5000x64_S5000x1_S5000x65_d1) (i 0) (i 1) 0 := by
  refine ⟨after_of_writes_sub e2H W e2H_writes (by decide), ?_, ?_⟩
  · dsimp only [e2H]
    after_results
  · dsimp only [e2H]
    after_results
    exact zeros_eq _ _ _ _

/-! ## The bag steps -/

/-- Bag step 0: partial sum 0 becomes partial sum 1. -/
theorem e2S0_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v531) : S8192x65.Idx → EReal) = fun i => bagPart (by decide : 0 < 5000) I T (i 0) (i 1) 0) :
    (after e2S0 W (Proc.devRef .tc main_arg2) : S8192x20.Idx → BitVec 32) = I
    ∧ (after e2S0 W (Proc.devRef .tc main_v530) : S5000x65.Idx → EReal) = T
    ∧ (after e2S0 W (Proc.devRef .tc main_v541) : S8192x65.Idx → EReal) = fun i => bagPart (by decide : 0 < 5000) I T (i 0) (i 1) 1 := by
  refine ⟨(after_of_writes_sub e2S0 W e2S0_writes (by decide)).trans hI,
    (after_of_writes_sub e2S0 W e2S0_writes (by decide)).trans hT, ?_⟩
  dsimp only [e2S0]
  after_results
  exact bagStepInv (by decide) _ _ rfl _ _ T _ I 0 (by decide) _ _ _
    (fun b => column_apply (W (Proc.devRef .tc main_arg2) : S8192x20.Idx → BitVec 32) 0 (by decide) _ _ b) hI hT hA

/-- Bag step 1: partial sum 1 becomes partial sum 2. -/
theorem e2S1_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v541) : S8192x65.Idx → EReal) = fun i => bagPart (by decide : 0 < 5000) I T (i 0) (i 1) 1) :
    (after e2S1 W (Proc.devRef .tc main_arg2) : S8192x20.Idx → BitVec 32) = I
    ∧ (after e2S1 W (Proc.devRef .tc main_v530) : S5000x65.Idx → EReal) = T
    ∧ (after e2S1 W (Proc.devRef .tc main_v551) : S8192x65.Idx → EReal) = fun i => bagPart (by decide : 0 < 5000) I T (i 0) (i 1) 2 := by
  refine ⟨(after_of_writes_sub e2S1 W e2S1_writes (by decide)).trans hI,
    (after_of_writes_sub e2S1 W e2S1_writes (by decide)).trans hT, ?_⟩
  dsimp only [e2S1]
  after_results
  exact bagStepInv (by decide) _ _ rfl _ _ T _ I 1 (by decide) _ _ _
    (fun b => column_apply (W (Proc.devRef .tc main_arg2) : S8192x20.Idx → BitVec 32) 1 (by decide) _ _ b) hI hT hA

/-- Bag step 2: partial sum 2 becomes partial sum 3. -/
theorem e2S2_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v551) : S8192x65.Idx → EReal) = fun i => bagPart (by decide : 0 < 5000) I T (i 0) (i 1) 2) :
    (after e2S2 W (Proc.devRef .tc main_arg2) : S8192x20.Idx → BitVec 32) = I
    ∧ (after e2S2 W (Proc.devRef .tc main_v530) : S5000x65.Idx → EReal) = T
    ∧ (after e2S2 W (Proc.devRef .tc main_v561) : S8192x65.Idx → EReal) = fun i => bagPart (by decide : 0 < 5000) I T (i 0) (i 1) 3 := by
  refine ⟨(after_of_writes_sub e2S2 W e2S2_writes (by decide)).trans hI,
    (after_of_writes_sub e2S2 W e2S2_writes (by decide)).trans hT, ?_⟩
  dsimp only [e2S2]
  after_results
  exact bagStepInv (by decide) _ _ rfl _ _ T _ I 2 (by decide) _ _ _
    (fun b => column_apply (W (Proc.devRef .tc main_arg2) : S8192x20.Idx → BitVec 32) 2 (by decide) _ _ b) hI hT hA

/-- Bag step 3: partial sum 3 becomes partial sum 4. -/
theorem e2S3_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v561) : S8192x65.Idx → EReal) = fun i => bagPart (by decide : 0 < 5000) I T (i 0) (i 1) 3) :
    (after e2S3 W (Proc.devRef .tc main_arg2) : S8192x20.Idx → BitVec 32) = I
    ∧ (after e2S3 W (Proc.devRef .tc main_v530) : S5000x65.Idx → EReal) = T
    ∧ (after e2S3 W (Proc.devRef .tc main_v571) : S8192x65.Idx → EReal) = fun i => bagPart (by decide : 0 < 5000) I T (i 0) (i 1) 4 := by
  refine ⟨(after_of_writes_sub e2S3 W e2S3_writes (by decide)).trans hI,
    (after_of_writes_sub e2S3 W e2S3_writes (by decide)).trans hT, ?_⟩
  dsimp only [e2S3]
  after_results
  exact bagStepInv (by decide) _ _ rfl _ _ T _ I 3 (by decide) _ _ _
    (fun b => column_apply (W (Proc.devRef .tc main_arg2) : S8192x20.Idx → BitVec 32) 3 (by decide) _ _ b) hI hT hA

/-- Bag step 4: partial sum 4 becomes partial sum 5. -/
theorem e2S4_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v571) : S8192x65.Idx → EReal) = fun i => bagPart (by decide : 0 < 5000) I T (i 0) (i 1) 4) :
    (after e2S4 W (Proc.devRef .tc main_arg2) : S8192x20.Idx → BitVec 32) = I
    ∧ (after e2S4 W (Proc.devRef .tc main_v530) : S5000x65.Idx → EReal) = T
    ∧ (after e2S4 W (Proc.devRef .tc main_v581) : S8192x65.Idx → EReal) = fun i => bagPart (by decide : 0 < 5000) I T (i 0) (i 1) 5 := by
  refine ⟨(after_of_writes_sub e2S4 W e2S4_writes (by decide)).trans hI,
    (after_of_writes_sub e2S4 W e2S4_writes (by decide)).trans hT, ?_⟩
  dsimp only [e2S4]
  after_results
  exact bagStepInv (by decide) _ _ rfl _ _ T _ I 4 (by decide) _ _ _
    (fun b => column_apply (W (Proc.devRef .tc main_arg2) : S8192x20.Idx → BitVec 32) 4 (by decide) _ _ b) hI hT hA

/-- Bag step 5: partial sum 5 becomes partial sum 6. -/
theorem e2S5_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v581) : S8192x65.Idx → EReal) = fun i => bagPart (by decide : 0 < 5000) I T (i 0) (i 1) 5) :
    (after e2S5 W (Proc.devRef .tc main_arg2) : S8192x20.Idx → BitVec 32) = I
    ∧ (after e2S5 W (Proc.devRef .tc main_v530) : S5000x65.Idx → EReal) = T
    ∧ (after e2S5 W (Proc.devRef .tc main_v591) : S8192x65.Idx → EReal) = fun i => bagPart (by decide : 0 < 5000) I T (i 0) (i 1) 6 := by
  refine ⟨(after_of_writes_sub e2S5 W e2S5_writes (by decide)).trans hI,
    (after_of_writes_sub e2S5 W e2S5_writes (by decide)).trans hT, ?_⟩
  dsimp only [e2S5]
  after_results
  exact bagStepInv (by decide) _ _ rfl _ _ T _ I 5 (by decide) _ _ _
    (fun b => column_apply (W (Proc.devRef .tc main_arg2) : S8192x20.Idx → BitVec 32) 5 (by decide) _ _ b) hI hT hA

/-- Bag step 6: partial sum 6 becomes partial sum 7. -/
theorem e2S6_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v591) : S8192x65.Idx → EReal) = fun i => bagPart (by decide : 0 < 5000) I T (i 0) (i 1) 6) :
    (after e2S6 W (Proc.devRef .tc main_arg2) : S8192x20.Idx → BitVec 32) = I
    ∧ (after e2S6 W (Proc.devRef .tc main_v530) : S5000x65.Idx → EReal) = T
    ∧ (after e2S6 W (Proc.devRef .tc main_v601) : S8192x65.Idx → EReal) = fun i => bagPart (by decide : 0 < 5000) I T (i 0) (i 1) 7 := by
  refine ⟨(after_of_writes_sub e2S6 W e2S6_writes (by decide)).trans hI,
    (after_of_writes_sub e2S6 W e2S6_writes (by decide)).trans hT, ?_⟩
  dsimp only [e2S6]
  after_results
  exact bagStepInv (by decide) _ _ rfl _ _ T _ I 6 (by decide) _ _ _
    (fun b => column_apply (W (Proc.devRef .tc main_arg2) : S8192x20.Idx → BitVec 32) 6 (by decide) _ _ b) hI hT hA

/-- Bag step 7: partial sum 7 becomes partial sum 8. -/
theorem e2S7_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v601) : S8192x65.Idx → EReal) = fun i => bagPart (by decide : 0 < 5000) I T (i 0) (i 1) 7) :
    (after e2S7 W (Proc.devRef .tc main_arg2) : S8192x20.Idx → BitVec 32) = I
    ∧ (after e2S7 W (Proc.devRef .tc main_v530) : S5000x65.Idx → EReal) = T
    ∧ (after e2S7 W (Proc.devRef .tc main_v611) : S8192x65.Idx → EReal) = fun i => bagPart (by decide : 0 < 5000) I T (i 0) (i 1) 8 := by
  refine ⟨(after_of_writes_sub e2S7 W e2S7_writes (by decide)).trans hI,
    (after_of_writes_sub e2S7 W e2S7_writes (by decide)).trans hT, ?_⟩
  dsimp only [e2S7]
  after_results
  exact bagStepInv (by decide) _ _ rfl _ _ T _ I 7 (by decide) _ _ _
    (fun b => column_apply (W (Proc.devRef .tc main_arg2) : S8192x20.Idx → BitVec 32) 7 (by decide) _ _ b) hI hT hA

/-- Bag step 8: partial sum 8 becomes partial sum 9. -/
theorem e2S8_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v611) : S8192x65.Idx → EReal) = fun i => bagPart (by decide : 0 < 5000) I T (i 0) (i 1) 8) :
    (after e2S8 W (Proc.devRef .tc main_arg2) : S8192x20.Idx → BitVec 32) = I
    ∧ (after e2S8 W (Proc.devRef .tc main_v530) : S5000x65.Idx → EReal) = T
    ∧ (after e2S8 W (Proc.devRef .tc main_v621) : S8192x65.Idx → EReal) = fun i => bagPart (by decide : 0 < 5000) I T (i 0) (i 1) 9 := by
  refine ⟨(after_of_writes_sub e2S8 W e2S8_writes (by decide)).trans hI,
    (after_of_writes_sub e2S8 W e2S8_writes (by decide)).trans hT, ?_⟩
  dsimp only [e2S8]
  after_results
  exact bagStepInv (by decide) _ _ rfl _ _ T _ I 8 (by decide) _ _ _
    (fun b => column_apply (W (Proc.devRef .tc main_arg2) : S8192x20.Idx → BitVec 32) 8 (by decide) _ _ b) hI hT hA

/-- Bag step 9: partial sum 9 becomes partial sum 10. -/
theorem e2S9_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v621) : S8192x65.Idx → EReal) = fun i => bagPart (by decide : 0 < 5000) I T (i 0) (i 1) 9) :
    (after e2S9 W (Proc.devRef .tc main_arg2) : S8192x20.Idx → BitVec 32) = I
    ∧ (after e2S9 W (Proc.devRef .tc main_v530) : S5000x65.Idx → EReal) = T
    ∧ (after e2S9 W (Proc.devRef .tc main_v631) : S8192x65.Idx → EReal) = fun i => bagPart (by decide : 0 < 5000) I T (i 0) (i 1) 10 := by
  refine ⟨(after_of_writes_sub e2S9 W e2S9_writes (by decide)).trans hI,
    (after_of_writes_sub e2S9 W e2S9_writes (by decide)).trans hT, ?_⟩
  dsimp only [e2S9]
  after_results
  exact bagStepInv (by decide) _ _ rfl _ _ T _ I 9 (by decide) _ _ _
    (fun b => column_apply (W (Proc.devRef .tc main_arg2) : S8192x20.Idx → BitVec 32) 9 (by decide) _ _ b) hI hT hA

/-- Bag step 10: partial sum 10 becomes partial sum 11. -/
theorem e2S10_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v631) : S8192x65.Idx → EReal) = fun i => bagPart (by decide : 0 < 5000) I T (i 0) (i 1) 10) :
    (after e2S10 W (Proc.devRef .tc main_arg2) : S8192x20.Idx → BitVec 32) = I
    ∧ (after e2S10 W (Proc.devRef .tc main_v530) : S5000x65.Idx → EReal) = T
    ∧ (after e2S10 W (Proc.devRef .tc main_v641) : S8192x65.Idx → EReal) = fun i => bagPart (by decide : 0 < 5000) I T (i 0) (i 1) 11 := by
  refine ⟨(after_of_writes_sub e2S10 W e2S10_writes (by decide)).trans hI,
    (after_of_writes_sub e2S10 W e2S10_writes (by decide)).trans hT, ?_⟩
  dsimp only [e2S10]
  after_results
  exact bagStepInv (by decide) _ _ rfl _ _ T _ I 10 (by decide) _ _ _
    (fun b => column_apply (W (Proc.devRef .tc main_arg2) : S8192x20.Idx → BitVec 32) 10 (by decide) _ _ b) hI hT hA

/-- Bag step 11: partial sum 11 becomes partial sum 12. -/
theorem e2S11_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v641) : S8192x65.Idx → EReal) = fun i => bagPart (by decide : 0 < 5000) I T (i 0) (i 1) 11) :
    (after e2S11 W (Proc.devRef .tc main_arg2) : S8192x20.Idx → BitVec 32) = I
    ∧ (after e2S11 W (Proc.devRef .tc main_v530) : S5000x65.Idx → EReal) = T
    ∧ (after e2S11 W (Proc.devRef .tc main_v651) : S8192x65.Idx → EReal) = fun i => bagPart (by decide : 0 < 5000) I T (i 0) (i 1) 12 := by
  refine ⟨(after_of_writes_sub e2S11 W e2S11_writes (by decide)).trans hI,
    (after_of_writes_sub e2S11 W e2S11_writes (by decide)).trans hT, ?_⟩
  dsimp only [e2S11]
  after_results
  exact bagStepInv (by decide) _ _ rfl _ _ T _ I 11 (by decide) _ _ _
    (fun b => column_apply (W (Proc.devRef .tc main_arg2) : S8192x20.Idx → BitVec 32) 11 (by decide) _ _ b) hI hT hA

/-- Bag step 12: partial sum 12 becomes partial sum 13. -/
theorem e2S12_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v651) : S8192x65.Idx → EReal) = fun i => bagPart (by decide : 0 < 5000) I T (i 0) (i 1) 12) :
    (after e2S12 W (Proc.devRef .tc main_arg2) : S8192x20.Idx → BitVec 32) = I
    ∧ (after e2S12 W (Proc.devRef .tc main_v530) : S5000x65.Idx → EReal) = T
    ∧ (after e2S12 W (Proc.devRef .tc main_v661) : S8192x65.Idx → EReal) = fun i => bagPart (by decide : 0 < 5000) I T (i 0) (i 1) 13 := by
  refine ⟨(after_of_writes_sub e2S12 W e2S12_writes (by decide)).trans hI,
    (after_of_writes_sub e2S12 W e2S12_writes (by decide)).trans hT, ?_⟩
  dsimp only [e2S12]
  after_results
  exact bagStepInv (by decide) _ _ rfl _ _ T _ I 12 (by decide) _ _ _
    (fun b => column_apply (W (Proc.devRef .tc main_arg2) : S8192x20.Idx → BitVec 32) 12 (by decide) _ _ b) hI hT hA

/-- Bag step 13: partial sum 13 becomes partial sum 14. -/
theorem e2S13_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v661) : S8192x65.Idx → EReal) = fun i => bagPart (by decide : 0 < 5000) I T (i 0) (i 1) 13) :
    (after e2S13 W (Proc.devRef .tc main_arg2) : S8192x20.Idx → BitVec 32) = I
    ∧ (after e2S13 W (Proc.devRef .tc main_v530) : S5000x65.Idx → EReal) = T
    ∧ (after e2S13 W (Proc.devRef .tc main_v671) : S8192x65.Idx → EReal) = fun i => bagPart (by decide : 0 < 5000) I T (i 0) (i 1) 14 := by
  refine ⟨(after_of_writes_sub e2S13 W e2S13_writes (by decide)).trans hI,
    (after_of_writes_sub e2S13 W e2S13_writes (by decide)).trans hT, ?_⟩
  dsimp only [e2S13]
  after_results
  exact bagStepInv (by decide) _ _ rfl _ _ T _ I 13 (by decide) _ _ _
    (fun b => column_apply (W (Proc.devRef .tc main_arg2) : S8192x20.Idx → BitVec 32) 13 (by decide) _ _ b) hI hT hA

/-- Bag step 14: partial sum 14 becomes partial sum 15. -/
theorem e2S14_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v671) : S8192x65.Idx → EReal) = fun i => bagPart (by decide : 0 < 5000) I T (i 0) (i 1) 14) :
    (after e2S14 W (Proc.devRef .tc main_arg2) : S8192x20.Idx → BitVec 32) = I
    ∧ (after e2S14 W (Proc.devRef .tc main_v530) : S5000x65.Idx → EReal) = T
    ∧ (after e2S14 W (Proc.devRef .tc main_v681) : S8192x65.Idx → EReal) = fun i => bagPart (by decide : 0 < 5000) I T (i 0) (i 1) 15 := by
  refine ⟨(after_of_writes_sub e2S14 W e2S14_writes (by decide)).trans hI,
    (after_of_writes_sub e2S14 W e2S14_writes (by decide)).trans hT, ?_⟩
  dsimp only [e2S14]
  after_results
  exact bagStepInv (by decide) _ _ rfl _ _ T _ I 14 (by decide) _ _ _
    (fun b => column_apply (W (Proc.devRef .tc main_arg2) : S8192x20.Idx → BitVec 32) 14 (by decide) _ _ b) hI hT hA

/-- Bag step 15: partial sum 15 becomes partial sum 16. -/
theorem e2S15_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v681) : S8192x65.Idx → EReal) = fun i => bagPart (by decide : 0 < 5000) I T (i 0) (i 1) 15) :
    (after e2S15 W (Proc.devRef .tc main_arg2) : S8192x20.Idx → BitVec 32) = I
    ∧ (after e2S15 W (Proc.devRef .tc main_v530) : S5000x65.Idx → EReal) = T
    ∧ (after e2S15 W (Proc.devRef .tc main_v691) : S8192x65.Idx → EReal) = fun i => bagPart (by decide : 0 < 5000) I T (i 0) (i 1) 16 := by
  refine ⟨(after_of_writes_sub e2S15 W e2S15_writes (by decide)).trans hI,
    (after_of_writes_sub e2S15 W e2S15_writes (by decide)).trans hT, ?_⟩
  dsimp only [e2S15]
  after_results
  exact bagStepInv (by decide) _ _ rfl _ _ T _ I 15 (by decide) _ _ _
    (fun b => column_apply (W (Proc.devRef .tc main_arg2) : S8192x20.Idx → BitVec 32) 15 (by decide) _ _ b) hI hT hA

/-- Bag step 16: partial sum 16 becomes partial sum 17. -/
theorem e2S16_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v691) : S8192x65.Idx → EReal) = fun i => bagPart (by decide : 0 < 5000) I T (i 0) (i 1) 16) :
    (after e2S16 W (Proc.devRef .tc main_arg2) : S8192x20.Idx → BitVec 32) = I
    ∧ (after e2S16 W (Proc.devRef .tc main_v530) : S5000x65.Idx → EReal) = T
    ∧ (after e2S16 W (Proc.devRef .tc main_v701) : S8192x65.Idx → EReal) = fun i => bagPart (by decide : 0 < 5000) I T (i 0) (i 1) 17 := by
  refine ⟨(after_of_writes_sub e2S16 W e2S16_writes (by decide)).trans hI,
    (after_of_writes_sub e2S16 W e2S16_writes (by decide)).trans hT, ?_⟩
  dsimp only [e2S16]
  after_results
  exact bagStepInv (by decide) _ _ rfl _ _ T _ I 16 (by decide) _ _ _
    (fun b => column_apply (W (Proc.devRef .tc main_arg2) : S8192x20.Idx → BitVec 32) 16 (by decide) _ _ b) hI hT hA

/-- Bag step 17: partial sum 17 becomes partial sum 18. -/
theorem e2S17_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v701) : S8192x65.Idx → EReal) = fun i => bagPart (by decide : 0 < 5000) I T (i 0) (i 1) 17) :
    (after e2S17 W (Proc.devRef .tc main_arg2) : S8192x20.Idx → BitVec 32) = I
    ∧ (after e2S17 W (Proc.devRef .tc main_v530) : S5000x65.Idx → EReal) = T
    ∧ (after e2S17 W (Proc.devRef .tc main_v711) : S8192x65.Idx → EReal) = fun i => bagPart (by decide : 0 < 5000) I T (i 0) (i 1) 18 := by
  refine ⟨(after_of_writes_sub e2S17 W e2S17_writes (by decide)).trans hI,
    (after_of_writes_sub e2S17 W e2S17_writes (by decide)).trans hT, ?_⟩
  dsimp only [e2S17]
  after_results
  exact bagStepInv (by decide) _ _ rfl _ _ T _ I 17 (by decide) _ _ _
    (fun b => column_apply (W (Proc.devRef .tc main_arg2) : S8192x20.Idx → BitVec 32) 17 (by decide) _ _ b) hI hT hA

/-- Bag step 18: partial sum 18 becomes partial sum 19. -/
theorem e2S18_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v711) : S8192x65.Idx → EReal) = fun i => bagPart (by decide : 0 < 5000) I T (i 0) (i 1) 18) :
    (after e2S18 W (Proc.devRef .tc main_arg2) : S8192x20.Idx → BitVec 32) = I
    ∧ (after e2S18 W (Proc.devRef .tc main_v530) : S5000x65.Idx → EReal) = T
    ∧ (after e2S18 W (Proc.devRef .tc main_v721) : S8192x65.Idx → EReal) = fun i => bagPart (by decide : 0 < 5000) I T (i 0) (i 1) 19 := by
  refine ⟨(after_of_writes_sub e2S18 W e2S18_writes (by decide)).trans hI,
    (after_of_writes_sub e2S18 W e2S18_writes (by decide)).trans hT, ?_⟩
  dsimp only [e2S18]
  after_results
  exact bagStepInv (by decide) _ _ rfl _ _ T _ I 18 (by decide) _ _ _
    (fun b => column_apply (W (Proc.devRef .tc main_arg2) : S8192x20.Idx → BitVec 32) 18 (by decide) _ _ b) hI hT hA

/-- Bag step 19: partial sum 19 becomes partial sum 20. -/
theorem e2S19_run (W : Valuation τ sig (Elt Ideal)) (I : IVec ⟨2, ![8192, 20]⟩ 32) (T : FVec Ideal ⟨2, ![5000, 65]⟩ .f32)
    (hI : (W (Proc.devRef .tc main_arg2) : S8192x20.Idx → BitVec 32) = I) (hT : (W (Proc.devRef .tc main_v530) : S5000x65.Idx → EReal) = T)
    (hA : (W (Proc.devRef .tc main_v721) : S8192x65.Idx → EReal) = fun i => bagPart (by decide : 0 < 5000) I T (i 0) (i 1) 19) :
    (after e2S19 W (Proc.devRef .tc main_arg2) : S8192x20.Idx → BitVec 32) = I
    ∧ (after e2S19 W (Proc.devRef .tc main_v530) : S5000x65.Idx → EReal) = T
    ∧ (after e2S19 W (Proc.devRef .tc main_v731) : S8192x65.Idx → EReal) = fun i => bagPart (by decide : 0 < 5000) I T (i 0) (i 1) 20 := by
  refine ⟨(after_of_writes_sub e2S19 W e2S19_writes (by decide)).trans hI,
    (after_of_writes_sub e2S19 W e2S19_writes (by decide)).trans hT, ?_⟩
  dsimp only [e2S19]
  after_results
  exact bagStepInv (by decide) _ _ rfl _ _ T _ I 19 (by decide) _ _ _
    (fun b => column_apply (W (Proc.devRef .tc main_arg2) : S8192x20.Idx → BitVec 32) 19 (by decide) _ _ b) hI hT hA

/-! ## The end -/

theorem e2T_run (W : Valuation τ sig (Elt Ideal)) (I : IVec ⟨2, ![8192, 20]⟩ 32) (E : FVec Ideal ⟨2, ![5000, 64]⟩ .f32) (Wd : FVec Ideal ⟨2, ![5000, 1]⟩ .f32)
    (hA : (W (Proc.devRef .tc main_v731) : S8192x65.Idx → EReal) = fun i => bagPart (by decide : 0 < 5000) I (concatenate S5000x65 1 [⟨S5000x64, E⟩, ⟨S5000x1, Wd⟩] concatenates_S5000x64_S5000x1_S5000x65_d1) (i 0) (i 1) 20) :
    (after e2T W (Proc.devRef .tc main_v734) : S8192x64.Idx → EReal)
        = (fun i => Ideal.div (bagSum (by decide : 0 < 5000) I E (i 0) (i 1)) (Ideal.ofBits .f32 0x41A00000#32))
    ∧ (after e2T W (Proc.devRef .tc main_v736) : S8192.Idx → EReal)
        = (fun i => bagSum (by decide : 0 < 5000) I Wd (i 0) (0 : Fin 1)) := by
  refine ⟨?_, ?_⟩
  · dsimp only [e2T]
    after_results
    exact meanTail (by decide) I E Wd _ _ _ hA _ _
  · dsimp only [e2T]
    after_results
    funext i
    obtain ⟨b, rfl⟩ : ∃ b : Fin 8192, i = ix1 b := ⟨i 0, eq_ix1 i⟩
    exact wideTail (by decide) I E Wd _ _ hA _ _ b

/-! ## The whole stretch -/

theorem e2K_run (W : Valuation τ sig (Elt Ideal)) :
    (after e2K W (Proc.devRef .tc main_v734) : S8192x64.Idx → EReal)
        = (fun i => Ideal.div (bagSum (by decide : 0 < 5000) (W (Proc.devRef .tc main_arg2) : S8192x20.Idx → BitVec 32) (W (Proc.devRef .tc main_arg10) : S5000x64.Idx → EReal) (i 0) (i 1)) (Ideal.ofBits .f32 0x41A00000#32))
    ∧ (after e2K W (Proc.devRef .tc main_v736) : S8192.Idx → EReal)
        = (fun i => bagSum (by decide : 0 < 5000) (W (Proc.devRef .tc main_arg2) : S8192x20.Idx → BitVec 32) (W (Proc.devRef .tc main_arg17) : S5000x1.Idx → EReal) (i 0) (0 : Fin 1)) := by
  have h0 := e2H_run W
  have h1 := e2S0_run _ _ _ h0.1 h0.2.1 h0.2.2
  have h2 := e2S1_run _ _ _ h1.1 h1.2.1 h1.2.2
  have h3 := e2S2_run _ _ _ h2.1 h2.2.1 h2.2.2
  have h4 := e2S3_run _ _ _ h3.1 h3.2.1 h3.2.2
  have h5 := e2S4_run _ _ _ h4.1 h4.2.1 h4.2.2
  have h6 := e2S5_run _ _ _ h5.1 h5.2.1 h5.2.2
  have h7 := e2S6_run _ _ _ h6.1 h6.2.1 h6.2.2
  have h8 := e2S7_run _ _ _ h7.1 h7.2.1 h7.2.2
  have h9 := e2S8_run _ _ _ h8.1 h8.2.1 h8.2.2
  have h10 := e2S9_run _ _ _ h9.1 h9.2.1 h9.2.2
  have h11 := e2S10_run _ _ _ h10.1 h10.2.1 h10.2.2
  have h12 := e2S11_run _ _ _ h11.1 h11.2.1 h11.2.2
  have h13 := e2S12_run _ _ _ h12.1 h12.2.1 h12.2.2
  have h14 := e2S13_run _ _ _ h13.1 h13.2.1 h13.2.2
  have h15 := e2S14_run _ _ _ h14.1 h14.2.1 h14.2.2
  have h16 := e2S15_run _ _ _ h15.1 h15.2.1 h15.2.2
  have h17 := e2S16_run _ _ _ h16.1 h16.2.1 h16.2.2
  have h18 := e2S17_run _ _ _ h17.1 h17.2.1 h17.2.2
  have h19 := e2S18_run _ _ _ h18.1 h18.2.1 h18.2.2
  have h20 := e2S19_run _ _ _ h19.1 h19.2.1 h19.2.2
  have ht := e2T_run _ _ _ _ h20.2.2
  simp only [e2K, after_append]
  exact ht

/-! ## As the region finds it -/

variable (m : (ℓ : Loc nD τ sig) → Buf (Elt Ideal) ℓ) (c : Dev nD)

theorem e2_eq : (VK m c main_v734 : S8192x64.Idx → EReal) = fun i => e2 (kArgs m c) (i 0) (i 1) := by
  refine (V_cut m c main_v734).trans ?_
  refine ((A10_keep _ _ (by decide)).trans ((A9_keep _ _ (by decide)).trans ((A8_keep _ _ (by decide)).trans ((A7_keep _ _ (by decide)).trans ((A6_keep _ _ (by decide)).trans ((A5_keep _ _ (by decide)).trans ((A4_keep _ _ (by decide))))))))).trans ?_
  refine (e2K_run (A2 (L0 m c))).1.trans ?_
  rw [A2_arg (L0 m c) main_arg2 (by decide) (by decide), A2_arg (L0 m c) main_arg10 (by decide) (by decide)]
  rfl

/-- The wide entry of field e2, after its stretch. -/
theorem e2_wide : (A3 (L0 m c) (Proc.devRef .tc main_v736) : S8192.Idx → EReal)
    = fun i => bagSum (by decide : 0 < 5000) (kArgs m c).mh2Idx (kArgs m c).wideMh2 (i 0) (0 : Fin 1) := by
  refine (e2K_run (A2 (L0 m c))).2.trans ?_
  rw [A2_arg (L0 m c) main_arg2 (by decide) (by decide), A2_arg (L0 m c) main_arg17 (by decide) (by decide)]
  rfl

end Cert.WideDeep.Glue

end
-- ==== Proof.GlueE3.lean ====
/-
  Field e3: the accumulator after n of its 20 bag steps is the n-th partial bag sum over the joined table; the field is
  the full sum divided by the bag size, and its wide entry is column 64 of the full sum.
-/
import proofs.«151196_j43095701848227_2_alg».proof.Proof.GlueCut
import proofs.«151196_j43095701848227_2_alg».proof.Proof.GlueRest

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

/-! ## The start: the tables and the zero accumulator -/

theorem e3H_run (W : Valuation τ sig (Elt Ideal)) :
    (after e3H W (Proc.devRef .tc main_arg3) : S8192x20.Idx → BitVec 32) = (W (Proc.devRef .tc main_arg3) : S8192x20.Idx → BitVec 32)
    ∧ (after e3H W (Proc.devRef .tc main_v737) : S10000x65.Idx → EReal) = (concatenate S10000x65 1 [⟨S10000x64, (W (Proc.devRef .tc main_arg11) : S10000x64.Idx → EReal)⟩, ⟨S10000x1, (W (Proc.devRef .tc main_arg18) : S10000x1.Idx → EReal)⟩] concatenates_S10000x64_S10000x1_S10000x65_d1)
    ∧ (after e3H W (Proc.devRef .tc main_v738) : S8192x65.Idx → EReal)
        = fun i => bagPart (by decide : 0 < 10000) (W (Proc.devRef .tc main_arg3) : S8192x20.Idx → BitVec 32) (concatenate S10000x65 1 [⟨S10000x64, (W (Proc.devRef .tc main_arg11) : S10000x64.Idx → EReal)⟩, ⟨S10000x1, (W (Proc.devRef .tc main_arg18) : S10000x1.Idx → EReal)⟩] concatenates_S10000x64_S10000x1_S10000x65_d1) (i 0) (i 1) 0 := by
  refine ⟨after_of_writes_sub e3H W e3H_writes (by decide), ?_, ?_⟩
  · dsimp only [e3H]
    after_results
  · dsimp only [e3H]
    after_results
    exact zeros_eq _ _ _ _

/-! ## The bag steps -/

/-- Bag step 0: partial sum 0 becomes partial sum 1. -/
theorem e3S0_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v738) : S8192x65.Idx → EReal) = fun i => bagPart (by decide : 0 < 10000) I T (i 0) (i 1) 0) :
    (after e3S0 W (Proc.devRef .tc main_arg3) : S8192x20.Idx → BitVec 32) = I
    ∧ (after e3S0 W (Proc.devRef .tc main_v737) : S10000x65.Idx → EReal) = T
    ∧ (after e3S0 W (Proc.devRef .tc main_v748) : S8192x65.Idx → EReal) = fun i => bagPart (by decide : 0 < 10000) I T (i 0) (i 1) 1 := by
  refine ⟨(after_of_writes_sub e3S0 W e3S0_writes (by decide)).trans hI,
    (after_of_writes_sub e3S0 W e3S0_writes (by decide)).trans hT, ?_⟩
  dsimp only [e3S0]
  after_results
  exact bagStepInv (by decide) _ _ rfl _ _ T _ I 0 (by decide) _ _ _
    (fun b => column_apply (W (Proc.devRef .tc main_arg3) : S8192x20.Idx → BitVec 32) 0 (by decide) _ _ b) hI hT hA

/-- Bag step 1: partial sum 1 becomes partial sum 2. -/
theorem e3S1_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v748) : S8192x65.Idx → EReal) = fun i => bagPart (by decide : 0 < 10000) I T (i 0) (i 1) 1) :
    (after e3S1 W (Proc.devRef .tc main_arg3) : S8192x20.Idx → BitVec 32) = I
    ∧ (after e3S1 W (Proc.devRef .tc main_v737) : S10000x65.Idx → EReal) = T
    ∧ (after e3S1 W (Proc.devRef .tc main_v758) : S8192x65.Idx → EReal) = fun i => bagPart (by decide : 0 < 10000) I T (i 0) (i 1) 2 := by
  refine ⟨(after_of_writes_sub e3S1 W e3S1_writes (by decide)).trans hI,
    (after_of_writes_sub e3S1 W e3S1_writes (by decide)).trans hT, ?_⟩
  dsimp only [e3S1]
  after_results
  exact bagStepInv (by decide) _ _ rfl _ _ T _ I 1 (by decide) _ _ _
    (fun b => column_apply (W (Proc.devRef .tc main_arg3) : S8192x20.Idx → BitVec 32) 1 (by decide) _ _ b) hI hT hA

/-- Bag step 2: partial sum 2 becomes partial sum 3. -/
theorem e3S2_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v758) : S8192x65.Idx → EReal) = fun i => bagPart (by decide : 0 < 10000) I T (i 0) (i 1) 2) :
    (after e3S2 W (Proc.devRef .tc main_arg3) : S8192x20.Idx → BitVec 32) = I
    ∧ (after e3S2 W (Proc.devRef .tc main_v737) : S10000x65.Idx → EReal) = T
    ∧ (after e3S2 W (Proc.devRef .tc main_v768) : S8192x65.Idx → EReal) = fun i => bagPart (by decide : 0 < 10000) I T (i 0) (i 1) 3 := by
  refine ⟨(after_of_writes_sub e3S2 W e3S2_writes (by decide)).trans hI,
    (after_of_writes_sub e3S2 W e3S2_writes (by decide)).trans hT, ?_⟩
  dsimp only [e3S2]
  after_results
  exact bagStepInv (by decide) _ _ rfl _ _ T _ I 2 (by decide) _ _ _
    (fun b => column_apply (W (Proc.devRef .tc main_arg3) : S8192x20.Idx → BitVec 32) 2 (by decide) _ _ b) hI hT hA

/-- Bag step 3: partial sum 3 becomes partial sum 4. -/
theorem e3S3_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v768) : S8192x65.Idx → EReal) = fun i => bagPart (by decide : 0 < 10000) I T (i 0) (i 1) 3) :
    (after e3S3 W (Proc.devRef .tc main_arg3) : S8192x20.Idx → BitVec 32) = I
    ∧ (after e3S3 W (Proc.devRef .tc main_v737) : S10000x65.Idx → EReal) = T
    ∧ (after e3S3 W (Proc.devRef .tc main_v778) : S8192x65.Idx → EReal) = fun i => bagPart (by decide : 0 < 10000) I T (i 0) (i 1) 4 := by
  refine ⟨(after_of_writes_sub e3S3 W e3S3_writes (by decide)).trans hI,
    (after_of_writes_sub e3S3 W e3S3_writes (by decide)).trans hT, ?_⟩
  dsimp only [e3S3]
  after_results
  exact bagStepInv (by decide) _ _ rfl _ _ T _ I 3 (by decide) _ _ _
    (fun b => column_apply (W (Proc.devRef .tc main_arg3) : S8192x20.Idx → BitVec 32) 3 (by decide) _ _ b) hI hT hA

/-- Bag step 4: partial sum 4 becomes partial sum 5. -/
theorem e3S4_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v778) : S8192x65.Idx → EReal) = fun i => bagPart (by decide : 0 < 10000) I T (i 0) (i 1) 4) :
    (after e3S4 W (Proc.devRef .tc main_arg3) : S8192x20.Idx → BitVec 32) = I
    ∧ (after e3S4 W (Proc.devRef .tc main_v737) : S10000x65.Idx → EReal) = T
    ∧ (after e3S4 W (Proc.devRef .tc main_v788) : S8192x65.Idx → EReal) = fun i => bagPart (by decide : 0 < 10000) I T (i 0) (i 1) 5 := by
  refine ⟨(after_of_writes_sub e3S4 W e3S4_writes (by decide)).trans hI,
    (after_of_writes_sub e3S4 W e3S4_writes (by decide)).trans hT, ?_⟩
  dsimp only [e3S4]
  after_results
  exact bagStepInv (by decide) _ _ rfl _ _ T _ I 4 (by decide) _ _ _
    (fun b => column_apply (W (Proc.devRef .tc main_arg3) : S8192x20.Idx → BitVec 32) 4 (by decide) _ _ b) hI hT hA

/-- Bag step 5: partial sum 5 becomes partial sum 6. -/
theorem e3S5_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v788) : S8192x65.Idx → EReal) = fun i => bagPart (by decide : 0 < 10000) I T (i 0) (i 1) 5) :
    (after e3S5 W (Proc.devRef .tc main_arg3) : S8192x20.Idx → BitVec 32) = I
    ∧ (after e3S5 W (Proc.devRef .tc main_v737) : S10000x65.Idx → EReal) = T
    ∧ (after e3S5 W (Proc.devRef .tc main_v798) : S8192x65.Idx → EReal) = fun i => bagPart (by decide : 0 < 10000) I T (i 0) (i 1) 6 := by
  refine ⟨(after_of_writes_sub e3S5 W e3S5_writes (by decide)).trans hI,
    (after_of_writes_sub e3S5 W e3S5_writes (by decide)).trans hT, ?_⟩
  dsimp only [e3S5]
  after_results
  exact bagStepInv (by decide) _ _ rfl _ _ T _ I 5 (by decide) _ _ _
    (fun b => column_apply (W (Proc.devRef .tc main_arg3) : S8192x20.Idx → BitVec 32) 5 (by decide) _ _ b) hI hT hA

/-- Bag step 6: partial sum 6 becomes partial sum 7. -/
theorem e3S6_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v798) : S8192x65.Idx → EReal) = fun i => bagPart (by decide : 0 < 10000) I T (i 0) (i 1) 6) :
    (after e3S6 W (Proc.devRef .tc main_arg3) : S8192x20.Idx → BitVec 32) = I
    ∧ (after e3S6 W (Proc.devRef .tc main_v737) : S10000x65.Idx → EReal) = T
    ∧ (after e3S6 W (Proc.devRef .tc main_v808) : S8192x65.Idx → EReal) = fun i => bagPart (by decide : 0 < 10000) I T (i 0) (i 1) 7 := by
  refine ⟨(after_of_writes_sub e3S6 W e3S6_writes (by decide)).trans hI,
    (after_of_writes_sub e3S6 W e3S6_writes (by decide)).trans hT, ?_⟩
  dsimp only [e3S6]
  after_results
  exact bagStepInv (by decide) _ _ rfl _ _ T _ I 6 (by decide) _ _ _
    (fun b => column_apply (W (Proc.devRef .tc main_arg3) : S8192x20.Idx → BitVec 32) 6 (by decide) _ _ b) hI hT hA

/-- Bag step 7: partial sum 7 becomes partial sum 8. -/
theorem e3S7_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v808) : S8192x65.Idx → EReal) = fun i => bagPart (by decide : 0 < 10000) I T (i 0) (i 1) 7) :
    (after e3S7 W (Proc.devRef .tc main_arg3) : S8192x20.Idx → BitVec 32) = I
    ∧ (after e3S7 W (Proc.devRef .tc main_v737) : S10000x65.Idx → EReal) = T
    ∧ (after e3S7 W (Proc.devRef .tc main_v818) : S8192x65.Idx → EReal) = fun i => bagPart (by decide : 0 < 10000) I T (i 0) (i 1) 8 := by
  refine ⟨(after_of_writes_sub e3S7 W e3S7_writes (by decide)).trans hI,
    (after_of_writes_sub e3S7 W e3S7_writes (by decide)).trans hT, ?_⟩
  dsimp only [e3S7]
  after_results
  exact bagStepInv (by decide) _ _ rfl _ _ T _ I 7 (by decide) _ _ _
    (fun b => column_apply (W (Proc.devRef .tc main_arg3) : S8192x20.Idx → BitVec 32) 7 (by decide) _ _ b) hI hT hA

/-- Bag step 8: partial sum 8 becomes partial sum 9. -/
theorem e3S8_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v818) : S8192x65.Idx → EReal) = fun i => bagPart (by decide : 0 < 10000) I T (i 0) (i 1) 8) :
    (after e3S8 W (Proc.devRef .tc main_arg3) : S8192x20.Idx → BitVec 32) = I
    ∧ (after e3S8 W (Proc.devRef .tc main_v737) : S10000x65.Idx → EReal) = T
    ∧ (after e3S8 W (Proc.devRef .tc main_v828) : S8192x65.Idx → EReal) = fun i => bagPart (by decide : 0 < 10000) I T (i 0) (i 1) 9 := by
  refine ⟨(after_of_writes_sub e3S8 W e3S8_writes (by decide)).trans hI,
    (after_of_writes_sub e3S8 W e3S8_writes (by decide)).trans hT, ?_⟩
  dsimp only [e3S8]
  after_results
  exact bagStepInv (by decide) _ _ rfl _ _ T _ I 8 (by decide) _ _ _
    (fun b => column_apply (W (Proc.devRef .tc main_arg3) : S8192x20.Idx → BitVec 32) 8 (by decide) _ _ b) hI hT hA

/-- Bag step 9: partial sum 9 becomes partial sum 10. -/
theorem e3S9_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v828) : S8192x65.Idx → EReal) = fun i => bagPart (by decide : 0 < 10000) I T (i 0) (i 1) 9) :
    (after e3S9 W (Proc.devRef .tc main_arg3) : S8192x20.Idx → BitVec 32) = I
    ∧ (after e3S9 W (Proc.devRef .tc main_v737) : S10000x65.Idx → EReal) = T
    ∧ (after e3S9 W (Proc.devRef .tc main_v838) : S8192x65.Idx → EReal) = fun i => bagPart (by decide : 0 < 10000) I T (i 0) (i 1) 10 := by
  refine ⟨(after_of_writes_sub e3S9 W e3S9_writes (by decide)).trans hI,
    (after_of_writes_sub e3S9 W e3S9_writes (by decide)).trans hT, ?_⟩
  dsimp only [e3S9]
  after_results
  exact bagStepInv (by decide) _ _ rfl _ _ T _ I 9 (by decide) _ _ _
    (fun b => column_apply (W (Proc.devRef .tc main_arg3) : S8192x20.Idx → BitVec 32) 9 (by decide) _ _ b) hI hT hA

/-- Bag step 10: partial sum 10 becomes partial sum 11. -/
theorem e3S10_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v838) : S8192x65.Idx → EReal) = fun i => bagPart (by decide : 0 < 10000) I T (i 0) (i 1) 10) :
    (after e3S10 W (Proc.devRef .tc main_arg3) : S8192x20.Idx → BitVec 32) = I
    ∧ (after e3S10 W (Proc.devRef .tc main_v737) : S10000x65.Idx → EReal) = T
    ∧ (after e3S10 W (Proc.devRef .tc main_v848) : S8192x65.Idx → EReal) = fun i => bagPart (by decide : 0 < 10000) I T (i 0) (i 1) 11 := by
  refine ⟨(after_of_writes_sub e3S10 W e3S10_writes (by decide)).trans hI,
    (after_of_writes_sub e3S10 W e3S10_writes (by decide)).trans hT, ?_⟩
  dsimp only [e3S10]
  after_results
  exact bagStepInv (by decide) _ _ rfl _ _ T _ I 10 (by decide) _ _ _
    (fun b => column_apply (W (Proc.devRef .tc main_arg3) : S8192x20.Idx → BitVec 32) 10 (by decide) _ _ b) hI hT hA

/-- Bag step 11: partial sum 11 becomes partial sum 12. -/
theorem e3S11_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v848) : S8192x65.Idx → EReal) = fun i => bagPart (by decide : 0 < 10000) I T (i 0) (i 1) 11) :
    (after e3S11 W (Proc.devRef .tc main_arg3) : S8192x20.Idx → BitVec 32) = I
    ∧ (after e3S11 W (Proc.devRef .tc main_v737) : S10000x65.Idx → EReal) = T
    ∧ (after e3S11 W (Proc.devRef .tc main_v858) : S8192x65.Idx → EReal) = fun i => bagPart (by decide : 0 < 10000) I T (i 0) (i 1) 12 := by
  refine ⟨(after_of_writes_sub e3S11 W e3S11_writes (by decide)).trans hI,
    (after_of_writes_sub e3S11 W e3S11_writes (by decide)).trans hT, ?_⟩
  dsimp only [e3S11]
  after_results
  exact bagStepInv (by decide) _ _ rfl _ _ T _ I 11 (by decide) _ _ _
    (fun b => column_apply (W (Proc.devRef .tc main_arg3) : S8192x20.Idx → BitVec 32) 11 (by decide) _ _ b) hI hT hA

/-- Bag step 12: partial sum 12 becomes partial sum 13. -/
theorem e3S12_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v858) : S8192x65.Idx → EReal) = fun i => bagPart (by decide : 0 < 10000) I T (i 0) (i 1) 12) :
    (after e3S12 W (Proc.devRef .tc main_arg3) : S8192x20.Idx → BitVec 32) = I
    ∧ (after e3S12 W (Proc.devRef .tc main_v737) : S10000x65.Idx → EReal) = T
    ∧ (after e3S12 W (Proc.devRef .tc main_v868) : S8192x65.Idx → EReal) = fun i => bagPart (by decide : 0 < 10000) I T (i 0) (i 1) 13 := by
  refine ⟨(after_of_writes_sub e3S12 W e3S12_writes (by decide)).trans hI,
    (after_of_writes_sub e3S12 W e3S12_writes (by decide)).trans hT, ?_⟩
  dsimp only [e3S12]
  after_results
  exact bagStepInv (by decide) _ _ rfl _ _ T _ I 12 (by decide) _ _ _
    (fun b => column_apply (W (Proc.devRef .tc main_arg3) : S8192x20.Idx → BitVec 32) 12 (by decide) _ _ b) hI hT hA

/-- Bag step 13: partial sum 13 becomes partial sum 14. -/
theorem e3S13_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v868) : S8192x65.Idx → EReal) = fun i => bagPart (by decide : 0 < 10000) I T (i 0) (i 1) 13) :
    (after e3S13 W (Proc.devRef .tc main_arg3) : S8192x20.Idx → BitVec 32) = I
    ∧ (after e3S13 W (Proc.devRef .tc main_v737) : S10000x65.Idx → EReal) = T
    ∧ (after e3S13 W (Proc.devRef .tc main_v878) : S8192x65.Idx → EReal) = fun i => bagPart (by decide : 0 < 10000) I T (i 0) (i 1) 14 := by
  refine ⟨(after_of_writes_sub e3S13 W e3S13_writes (by decide)).trans hI,
    (after_of_writes_sub e3S13 W e3S13_writes (by decide)).trans hT, ?_⟩
  dsimp only [e3S13]
  after_results
  exact bagStepInv (by decide) _ _ rfl _ _ T _ I 13 (by decide) _ _ _
    (fun b => column_apply (W (Proc.devRef .tc main_arg3) : S8192x20.Idx → BitVec 32) 13 (by decide) _ _ b) hI hT hA

/-- Bag step 14: partial sum 14 becomes partial sum 15. -/
theorem e3S14_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v878) : S8192x65.Idx → EReal) = fun i => bagPart (by decide : 0 < 10000) I T (i 0) (i 1) 14) :
    (after e3S14 W (Proc.devRef .tc main_arg3) : S8192x20.Idx → BitVec 32) = I
    ∧ (after e3S14 W (Proc.devRef .tc main_v737) : S10000x65.Idx → EReal) = T
    ∧ (after e3S14 W (Proc.devRef .tc main_v888) : S8192x65.Idx → EReal) = fun i => bagPart (by decide : 0 < 10000) I T (i 0) (i 1) 15 := by
  refine ⟨(after_of_writes_sub e3S14 W e3S14_writes (by decide)).trans hI,
    (after_of_writes_sub e3S14 W e3S14_writes (by decide)).trans hT, ?_⟩
  dsimp only [e3S14]
  after_results
  exact bagStepInv (by decide) _ _ rfl _ _ T _ I 14 (by decide) _ _ _
    (fun b => column_apply (W (Proc.devRef .tc main_arg3) : S8192x20.Idx → BitVec 32) 14 (by decide) _ _ b) hI hT hA

/-- Bag step 15: partial sum 15 becomes partial sum 16. -/
theorem e3S15_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v888) : S8192x65.Idx → EReal) = fun i => bagPart (by decide : 0 < 10000) I T (i 0) (i 1) 15) :
    (after e3S15 W (Proc.devRef .tc main_arg3) : S8192x20.Idx → BitVec 32) = I
    ∧ (after e3S15 W (Proc.devRef .tc main_v737) : S10000x65.Idx → EReal) = T
    ∧ (after e3S15 W (Proc.devRef .tc main_v898) : S8192x65.Idx → EReal) = fun i => bagPart (by decide : 0 < 10000) I T (i 0) (i 1) 16 := by
  refine ⟨(after_of_writes_sub e3S15 W e3S15_writes (by decide)).trans hI,
    (after_of_writes_sub e3S15 W e3S15_writes (by decide)).trans hT, ?_⟩
  dsimp only [e3S15]
  after_results
  exact bagStepInv (by decide) _ _ rfl _ _ T _ I 15 (by decide) _ _ _
    (fun b => column_apply (W (Proc.devRef .tc main_arg3) : S8192x20.Idx → BitVec 32) 15 (by decide) _ _ b) hI hT hA

/-- Bag step 16: partial sum 16 becomes partial sum 17. -/
theorem e3S16_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v898) : S8192x65.Idx → EReal) = fun i => bagPart (by decide : 0 < 10000) I T (i 0) (i 1) 16) :
    (after e3S16 W (Proc.devRef .tc main_arg3) : S8192x20.Idx → BitVec 32) = I
    ∧ (after e3S16 W (Proc.devRef .tc main_v737) : S10000x65.Idx → EReal) = T
    ∧ (after e3S16 W (Proc.devRef .tc main_v908) : S8192x65.Idx → EReal) = fun i => bagPart (by decide : 0 < 10000) I T (i 0) (i 1) 17 := by
  refine ⟨(after_of_writes_sub e3S16 W e3S16_writes (by decide)).trans hI,
    (after_of_writes_sub e3S16 W e3S16_writes (by decide)).trans hT, ?_⟩
  dsimp only [e3S16]
  after_results
  exact bagStepInv (by decide) _ _ rfl _ _ T _ I 16 (by decide) _ _ _
    (fun b => column_apply (W (Proc.devRef .tc main_arg3) : S8192x20.Idx → BitVec 32) 16 (by decide) _ _ b) hI hT hA

/-- Bag step 17: partial sum 17 becomes partial sum 18. -/
theorem e3S17_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v908) : S8192x65.Idx → EReal) = fun i => bagPart (by decide : 0 < 10000) I T (i 0) (i 1) 17) :
    (after e3S17 W (Proc.devRef .tc main_arg3) : S8192x20.Idx → BitVec 32) = I
    ∧ (after e3S17 W (Proc.devRef .tc main_v737) : S10000x65.Idx → EReal) = T
    ∧ (after e3S17 W (Proc.devRef .tc main_v918) : S8192x65.Idx → EReal) = fun i => bagPart (by decide : 0 < 10000) I T (i 0) (i 1) 18 := by
  refine ⟨(after_of_writes_sub e3S17 W e3S17_writes (by decide)).trans hI,
    (after_of_writes_sub e3S17 W e3S17_writes (by decide)).trans hT, ?_⟩
  dsimp only [e3S17]
  after_results
  exact bagStepInv (by decide) _ _ rfl _ _ T _ I 17 (by decide) _ _ _
    (fun b => column_apply (W (Proc.devRef .tc main_arg3) : S8192x20.Idx → BitVec 32) 17 (by decide) _ _ b) hI hT hA

/-- Bag step 18: partial sum 18 becomes partial sum 19. -/
theorem e3S18_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v918) : S8192x65.Idx → EReal) = fun i => bagPart (by decide : 0 < 10000) I T (i 0) (i 1) 18) :
    (after e3S18 W (Proc.devRef .tc main_arg3) : S8192x20.Idx → BitVec 32) = I
    ∧ (after e3S18 W (Proc.devRef .tc main_v737) : S10000x65.Idx → EReal) = T
    ∧ (after e3S18 W (Proc.devRef .tc main_v928) : S8192x65.Idx → EReal) = fun i => bagPart (by decide : 0 < 10000) I T (i 0) (i 1) 19 := by
  refine ⟨(after_of_writes_sub e3S18 W e3S18_writes (by decide)).trans hI,
    (after_of_writes_sub e3S18 W e3S18_writes (by decide)).trans hT, ?_⟩
  dsimp only [e3S18]
  after_results
  exact bagStepInv (by decide) _ _ rfl _ _ T _ I 18 (by decide) _ _ _
    (fun b => column_apply (W (Proc.devRef .tc main_arg3) : S8192x20.Idx → BitVec 32) 18 (by decide) _ _ b) hI hT hA

/-- Bag step 19: partial sum 19 becomes partial sum 20. -/
theorem e3S19_run (W : Valuation τ sig (Elt Ideal)) (I : IVec ⟨2, ![8192, 20]⟩ 32) (T : FVec Ideal ⟨2, ![10000, 65]⟩ .f32)
    (hI : (W (Proc.devRef .tc main_arg3) : S8192x20.Idx → BitVec 32) = I) (hT : (W (Proc.devRef .tc main_v737) : S10000x65.Idx → EReal) = T)
    (hA : (W (Proc.devRef .tc main_v928) : S8192x65.Idx → EReal) = fun i => bagPart (by decide : 0 < 10000) I T (i 0) (i 1) 19) :
    (after e3S19 W (Proc.devRef .tc main_arg3) : S8192x20.Idx → BitVec 32) = I
    ∧ (after e3S19 W (Proc.devRef .tc main_v737) : S10000x65.Idx → EReal) = T
    ∧ (after e3S19 W (Proc.devRef .tc main_v938) : S8192x65.Idx → EReal) = fun i => bagPart (by decide : 0 < 10000) I T (i 0) (i 1) 20 := by
  refine ⟨(after_of_writes_sub e3S19 W e3S19_writes (by decide)).trans hI,
    (after_of_writes_sub e3S19 W e3S19_writes (by decide)).trans hT, ?_⟩
  dsimp only [e3S19]
  after_results
  exact bagStepInv (by decide) _ _ rfl _ _ T _ I 19 (by decide) _ _ _
    (fun b => column_apply (W (Proc.devRef .tc main_arg3) : S8192x20.Idx → BitVec 32) 19 (by decide) _ _ b) hI hT hA

/-! ## The end -/

theorem e3T_run (W : Valuation τ sig (Elt Ideal)) (I : IVec ⟨2, ![8192, 20]⟩ 32) (E : FVec Ideal ⟨2, ![10000, 64]⟩ .f32) (Wd : FVec Ideal ⟨2, ![10000, 1]⟩ .f32)
    (hA : (W (Proc.devRef .tc main_v938) : S8192x65.Idx → EReal) = fun i => bagPart (by decide : 0 < 10000) I (concatenate S10000x65 1 [⟨S10000x64, E⟩, ⟨S10000x1, Wd⟩] concatenates_S10000x64_S10000x1_S10000x65_d1) (i 0) (i 1) 20) :
    (after e3T W (Proc.devRef .tc main_v941) : S8192x64.Idx → EReal)
        = (fun i => Ideal.div (bagSum (by decide : 0 < 10000) I E (i 0) (i 1)) (Ideal.ofBits .f32 0x41A00000#32))
    ∧ (after e3T W (Proc.devRef .tc main_v943) : S8192.Idx → EReal)
        = (fun i => bagSum (by decide : 0 < 10000) I Wd (i 0) (0 : Fin 1)) := by
  refine ⟨?_, ?_⟩
  · dsimp only [e3T]
    after_results
    exact meanTail (by decide) I E Wd _ _ _ hA _ _
  · dsimp only [e3T]
    after_results
    funext i
    obtain ⟨b, rfl⟩ : ∃ b : Fin 8192, i = ix1 b := ⟨i 0, eq_ix1 i⟩
    exact wideTail (by decide) I E Wd _ _ hA _ _ b

/-! ## The whole stretch -/

theorem e3K_run (W : Valuation τ sig (Elt Ideal)) :
    (after e3K W (Proc.devRef .tc main_v941) : S8192x64.Idx → EReal)
        = (fun i => Ideal.div (bagSum (by decide : 0 < 10000) (W (Proc.devRef .tc main_arg3) : S8192x20.Idx → BitVec 32) (W (Proc.devRef .tc main_arg11) : S10000x64.Idx → EReal) (i 0) (i 1)) (Ideal.ofBits .f32 0x41A00000#32))
    ∧ (after e3K W (Proc.devRef .tc main_v943) : S8192.Idx → EReal)
        = (fun i => bagSum (by decide : 0 < 10000) (W (Proc.devRef .tc main_arg3) : S8192x20.Idx → BitVec 32) (W (Proc.devRef .tc main_arg18) : S10000x1.Idx → EReal) (i 0) (0 : Fin 1)) := by
  have h0 := e3H_run W
  have h1 := e3S0_run _ _ _ h0.1 h0.2.1 h0.2.2
  have h2 := e3S1_run _ _ _ h1.1 h1.2.1 h1.2.2
  have h3 := e3S2_run _ _ _ h2.1 h2.2.1 h2.2.2
  have h4 := e3S3_run _ _ _ h3.1 h3.2.1 h3.2.2
  have h5 := e3S4_run _ _ _ h4.1 h4.2.1 h4.2.2
  have h6 := e3S5_run _ _ _ h5.1 h5.2.1 h5.2.2
  have h7 := e3S6_run _ _ _ h6.1 h6.2.1 h6.2.2
  have h8 := e3S7_run _ _ _ h7.1 h7.2.1 h7.2.2
  have h9 := e3S8_run _ _ _ h8.1 h8.2.1 h8.2.2
  have h10 := e3S9_run _ _ _ h9.1 h9.2.1 h9.2.2
  have h11 := e3S10_run _ _ _ h10.1 h10.2.1 h10.2.2
  have h12 := e3S11_run _ _ _ h11.1 h11.2.1 h11.2.2
  have h13 := e3S12_run _ _ _ h12.1 h12.2.1 h12.2.2
  have h14 := e3S13_run _ _ _ h13.1 h13.2.1 h13.2.2
  have h15 := e3S14_run _ _ _ h14.1 h14.2.1 h14.2.2
  have h16 := e3S15_run _ _ _ h15.1 h15.2.1 h15.2.2
  have h17 := e3S16_run _ _ _ h16.1 h16.2.1 h16.2.2
  have h18 := e3S17_run _ _ _ h17.1 h17.2.1 h17.2.2
  have h19 := e3S18_run _ _ _ h18.1 h18.2.1 h18.2.2
  have h20 := e3S19_run _ _ _ h19.1 h19.2.1 h19.2.2
  have ht := e3T_run _ _ _ _ h20.2.2
  simp only [e3K, after_append]
  exact ht

/-! ## As the region finds it -/

variable (m : (ℓ : Loc nD τ sig) → Buf (Elt Ideal) ℓ) (c : Dev nD)

theorem e3_eq : (VK m c main_v941 : S8192x64.Idx → EReal) = fun i => e3 (kArgs m c) (i 0) (i 1) := by
  refine (V_cut m c main_v941).trans ?_
  refine ((A10_keep _ _ (by decide)).trans ((A9_keep _ _ (by decide)).trans ((A8_keep _ _ (by decide)).trans ((A7_keep _ _ (by decide)).trans ((A6_keep _ _ (by decide)).trans ((A5_keep _ _ (by decide)))))))).trans ?_
  refine (e3K_run (A3 (L0 m c))).1.trans ?_
  rw [A3_arg (L0 m c) main_arg3 (by decide) (by decide) (by decide), A3_arg (L0 m c) main_arg11 (by decide) (by decide) (by decide)]
  rfl

/-- The wide entry of field e3, after its stretch. -/
theorem e3_wide : (A4 (L0 m c) (Proc.devRef .tc main_v943) : S8192.Idx → EReal)
    = fun i => bagSum (by decide : 0 < 10000) (kArgs m c).mh3Idx (kArgs m c).wideMh3 (i 0) (0 : Fin 1) := by
  refine (e3K_run (A3 (L0 m c))).2.trans ?_
  rw [A3_arg (L0 m c) main_arg3 (by decide) (by decide) (by decide), A3_arg (L0 m c) main_arg18 (by decide) (by decide) (by decide)]
  rfl

end Cert.WideDeep.Glue

end
-- ==== Proof.GlueWide.lean ====
/-
  The wide sum as the region finds it: the seven wide entries, each left as its own stretch computed it, added left to
  right and laid out as a column.
-/
import proofs.«151196_j43095701848227_2_alg».proof.Proof.GlueE1
import proofs.«151196_j43095701848227_2_alg».proof.Proof.GlueE2
import proofs.«151196_j43095701848227_2_alg».proof.Proof.GlueE3
import proofs.«151196_j43095701848227_2_alg».proof.Proof.GlueRest

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

/-- Seven vectors added entry by entry, left to right, as a column. -/
abbrev wideCol (a1 a2 a3 a4 a5 a6 a7 : S8192.Idx → EReal) : S8192x1.Idx → EReal :=
  fun i => a1 (ix1 (i 0)) + a2 (ix1 (i 0)) + a3 (ix1 (i 0)) + a4 (ix1 (i 0)) + a5 (ix1 (i 0)) + a6 (ix1 (i 0)) + a7 (ix1 (i 0))

theorem wideK_run (W : Valuation τ sig (Elt Ideal)) :
    (after wideK W (Proc.devRef .tc main_v994) : S8192x1.Idx → EReal)
      = wideCol (W (Proc.devRef .tc main_v529))
          (W (Proc.devRef .tc main_v736))
          (W (Proc.devRef .tc main_v943))
          (W (Proc.devRef .tc main_v954))
          (W (Proc.devRef .tc main_v965))
          (W (Proc.devRef .tc main_v976))
          (W (Proc.devRef .tc main_v987)) := by
  dsimp only [wideK]
  after_results
  funext (i : S8192x1.Idx)
  refine (broadcastInDim_apply (s := S8192) (t := S8192x1) _ _ _ i (ix1 (i 0)) (fun a => by
    match a with
    | ⟨0, _⟩ => rfl)).trans ?_
  rfl

variable (m : (ℓ : Loc nD τ sig) → Buf (Elt Ideal) ℓ) (c : Dev nD)

theorem wide_eq : (VK m c main_v994 : S8192x1.Idx → EReal) = fun i => wide (kArgs m c) (i 0) := by
  refine (V_cut m c main_v994).trans ?_
  refine (A10_keep _ _ (by decide)).trans ?_
  refine (wideK_run (A8 (L0 m c))).trans ?_
  rw [((A8_keep _ _ (by decide)).trans ((A7_keep _ _ (by decide)).trans ((A6_keep _ _ (by decide)).trans ((A5_keep _ _ (by decide)).trans ((A4_keep _ _ (by decide)).trans ((A3_keep _ _ (by decide)))))))).trans (e1_wide m c),
    ((A8_keep _ _ (by decide)).trans ((A7_keep _ _ (by decide)).trans ((A6_keep _ _ (by decide)).trans ((A5_keep _ _ (by decide)).trans ((A4_keep _ _ (by decide))))))).trans (e2_wide m c),
    ((A8_keep _ _ (by decide)).trans ((A7_keep _ _ (by decide)).trans ((A6_keep _ _ (by decide)).trans ((A5_keep _ _ (by decide)))))).trans (e3_wide m c),
    ((A8_keep _ _ (by decide)).trans ((A7_keep _ _ (by decide)).trans ((A6_keep _ _ (by decide))))).trans (o1_wide m c),
    ((A8_keep _ _ (by decide)).trans ((A7_keep _ _ (by decide)))).trans (o2_wide m c),
    ((A8_keep _ _ (by decide))).trans (o3_wide m c),
    o4_wide m c]
  rfl

end Cert.WideDeep.Glue

end
-- ==== Proof.Glue.lean ====
/-
  What the region finds in its twenty-four operand arrays: the eight fields, the wide sums, the row groups of the first
  weight matrix, the other weights and the biases, collected.
-/
import proofs.«151196_j43095701848227_2_alg».proof.Proof.GlueTok
import proofs.«151196_j43095701848227_2_alg».proof.Proof.GlueWide
import proofs.«151196_j43095701848227_2_alg».proof.Proof.Staged

set_option maxRecDepth 40000
set_option maxHeartbeats 4000000

noncomputable section

namespace Cert.WideDeep.Glue

open Idealize.ShloMosaic Idealize.ShloMosaic.TcCoe Idealize.ShloMosaic.ValueIdx Idealize.ShloMosaic.StableHlo Idealize.SL.Sem
open Cert.KernelIdeal Cert.KernelIdeal.Gen Cert.LibGatherRows3

/-- The region's operand arrays on core c are the specification's fields, wide sums, weights and biases. -/
theorem staged (m : (ℓ : Loc nD τ sig) → Buf (Elt Ideal) ℓ) (c : Dev nD) : Cert.WideDeep.Staged m c where
  tok := tok_eq m c
  e1 := e1_eq m c
  e2 := e2_eq m c
  e3 := e3_eq m c
  o1 := o1_eq m c
  o2 := o2_eq m c
  o3 := o3_eq m c
  o4 := o4_eq m c
  wide := wide_eq m c
  w1_0 := w1_0_eq m c
  w1_1 := w1_1_eq m c
  w1_2 := w1_2_eq m c
  w1_3 := w1_3_eq m c
  w1_4 := w1_4_eq m c
  w1_5 := w1_5_eq m c
  w1_6 := w1_6_eq m c
  w1_7 := w1_7_eq m c
  b1 := b1_eq m c
  w2 := w2_eq m c
  b2 := b2_eq m c
  w3 := w3_eq m c
  b3 := b3_eq m c
  wd := wd_eq m c
  bd := bd_eq m c

end Cert.WideDeep.Glue

end
-- ==== Proof.RefGather.lean ====
/-
  Two readings at an index that the model's lookups need, for any extents.

  A lookup x[idx] at a VECTOR of indices: the table is [N, C], the start indices are laid out as [A, 1], the result is
  [A, C]. Entry (a, q) of the result is the table at column q of the row that the word idx[a, 0] selects: the word read
  as a signed integer and clamped into [0, N - 1].

  A sum over the last two axes of an array [8192, 20, 1], started from a value init: at a it is init plus the sum
  over j < 20 of the entries (a, j, 0), because the last axis has one coordinate only.
-/
import Idealize.ShloMosaic.PureOps.ShapeOps
import Idealize.ShloMosaic.PureOps.Ideal.Laws
import Idealize.ShloMosaic.Lib.ValueIdx
import proofs.«151196_j43095701848227_2_alg».proof.Proof.LibGatherRows3

noncomputable section

namespace Cert.WideDeep.Ref

open Idealize.ShloMosaic Idealize.ShloMosaic.ValueIdx Cert.LibGatherRows3

variable {α : Type}

/-- The dimension numbers of x[idx] along axis 0 of a rank-2 table at a vector of indices:
    table [N, C], start indices [A, 1], result [A, C]. -/
abbrev rows2Dims (N C A : Nat)
    (wf : GatherDims.WF ⟨2, ![N, C]⟩ ⟨2, ![A, 1]⟩ ⟨2, ![A, C]⟩ [1] [0] [] [0] [] 1 ![1, C]) :
    GatherDims ⟨2, ![N, C]⟩ ⟨2, ![A, 1]⟩ ⟨2, ![A, C]⟩ where
  offsetDims := [1]
  collapsedSliceDims := [0]
  operandBatchingDims := []
  startIndicesBatchingDims := []
  startIndexMap := [0]
  indexVectorDim := 1
  sliceSizes := ![1, C]
  wf := wf

/-- The lookup at (a, q): the table at the clamped row idx[a, 0] and column q. -/
theorem rows2_apply {N C A w : Nat} (hN : 0 < N)
    (wf : GatherDims.WF ⟨2, ![N, C]⟩ ⟨2, ![A, 1]⟩ ⟨2, ![A, C]⟩ [1] [0] [] [0] [] 1 ![1, C])
    (x : (⟨2, ![N, C]⟩ : Shape).Idx → α) (idx : IVec ⟨2, ![A, 1]⟩ w) (a : Fin A) (q : Fin C) :
    Host.gather (rows2Dims N C A wf) x idx (ix2 a q)
      = x (ix2 (clampRow N hN (idx (ix2 a (0 : Fin 1)))) q) := by
  unfold Host.gather
  congr 1
  funext ax
  refine Fin.ext ?_
  match ax with
  | ⟨0, _⟩ =>
    show (rows2Dims N C A wf).start (ix2 a q) idx 0 + (rows2Dims N C A wf).batchCoord (ix2 a q) 0
      + (rows2Dims N C A wf).offCoord (ix2 a q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2Dims N C A wf).startIndexMap from List.mem_singleton.mpr rfl)]
    have hsi : (rows2Dims N C A wf).siIdx (ix2 a q) ⟨List.idxOf (0 : Fin 2) (rows2Dims N C A wf).startIndexMap,
        List.idxOf_lt_length_iff.2 (List.mem_singleton.mpr rfl)⟩ = ix2 a (0 : Fin 1) := by
      funext c; refine Fin.ext ?_
      match c with
      | ⟨0, _⟩ => rfl
      | ⟨1, _⟩ => rfl
    rw [hsi]
    rfl
  | ⟨1, _⟩ =>
    show (rows2Dims N C A wf).start (ix2 a q) idx 1 + (rows2Dims N C A wf).batchCoord (ix2 a q) 1
      + (rows2Dims N C A wf).offCoord (ix2 a q) 1 = q.val
    rw [GatherDims.batchCoord_eq_zero _ _ _ List.not_mem_nil]
    unfold GatherDims.start
    rw [dif_neg (show (1 : Fin 2) ∉ (rows2Dims N C A wf).startIndexMap from
      (by decide : (1 : Fin 2) ∉ ([0] : List (Fin 2))))]
    simp only [Nat.add_zero, Nat.zero_add]
    rfl

/-- The sum over the two last axes of an array [8192, 20, 1], started from init, at a: init plus the sum over j of the
    entries (a, j, 0). The indices that drop to a are exactly the (a, j, 0), one for each j. (Stated at the model's
    extents; only the rank and the reduced axes enter the proof.) -/
theorem sum_last_two (h : (⟨3, ![8192, 20, 1]⟩ : Shape).ReducesTo [1, 2] ⟨1, ![8192]⟩)
    (x : (⟨3, ![8192, 20, 1]⟩ : Shape).Idx → EReal) (init : EReal) (a : Fin 8192) :
    Ideal.hostReduceAdd h x init (ix1 a) = init + ∑ j : Fin 20, x (ix3 a j (0 : Fin 1)) := by
  unfold Ideal.hostReduceAdd
  congr 1
  symm
  refine Finset.sum_bij (fun j _ => ix3 a j (0 : Fin 1)) ?_ ?_ ?_ ?_
  · intro j _
    rw [Finset.mem_filter]
    refine ⟨Finset.mem_univ _, ?_⟩
    funext c
    match c with
    | ⟨0, _⟩ => exact Fin.ext (h.drop_apply_val_of_eq (ix3 a j (0 : Fin 1)) 0 0)
  · intro j _ j' _ e
    exact congrFun e 1
  · intro i hi
    rw [Finset.mem_filter] at hi
    refine ⟨i 1, Finset.mem_univ _, ?_⟩
    funext c
    match c with
    | ⟨0, _⟩ =>
      exact Fin.ext ((congrArg Fin.val (congrFun hi.2 0)).symm.trans (h.drop_apply_val_of_eq i 0 0))
    | ⟨1, _⟩ => rfl
    | ⟨2, _⟩ =>
      refine Fin.ext ?_
      have h2 : (i 2).val < 1 := (i 2).isLt
      show 0 = (i 2).val
      omega
  · intro j _
    rfl

end Cert.WideDeep.Ref

end
-- ==== Proof.RefFields.lean ====
/-
  The reference's embedding fields and its wide sum, entry by entry.

  Each lookup stage of the reference first repairs its index words (a negative word has the table's row count added
  once), then gathers table rows at them; the gather clamps the repaired word into the table. A multi-hot field sums
  the gathered rows of a bag, starting from the zero word, and divides by the bag size; a one-hot field is the gathered
  row. The wide part sums the gathered one-wide entries of each bag over the bag (and over the one-wide last axis), and
  adds the seven results left to right. So every stage, read at an index, is the specification's bagSum / pick of the
  same argument arrays.
-/
import proofs.«151196_j43095701848227_2_alg».proof.Proof.Gen.ReferenceIdeal.Read
import proofs.«151196_j43095701848227_2_alg».proof.Proof.Spec
import proofs.«151196_j43095701848227_2_alg».proof.Proof.RefGather
import Idealize.ShloMosaic.Lib.IdealHost

noncomputable section

namespace Cert.WideDeep.Ref

open Cert.ReferenceIdeal Cert.ReferenceIdeal.Gen Cert.ReferenceIdeal.Read
open Idealize.ShloMosaic Idealize.ShloMosaic.ValueIdx Cert.LibGatherRows3 Cert.WideDeep

/-- The index word of stage v4 at an index: the argument's word, with 50000 added once when it is negative. -/
theorem wrap_v4 (x0 : (⟨S8192x32, .i32⟩ : BufTy).Contents (Elt Ideal)) (i : S8192x32.Idx) :
    val_main_v4 (F := Ideal) x0 i
      = Scalar.select (IntOp.cmpi .slt (x0 i) 0#32) (IntOp.addi (x0 i) 50000#32) (x0 i) := by
  rw [val_main_v4_apply, val_main_v1_apply, val_main_v3_apply, val_main_v0_apply, val_main_v2_apply,
    val_main_c_apply, val_main_c_0_apply]

/-- The looked-up rows of stage v6 at (b, j, d): the table at the row the j-th word of bag b selects. -/
theorem v6_at (x0 : (⟨S8192x32, .i32⟩ : BufTy).Contents (Elt Ideal)) (x8 : (⟨S50000x300, .f32⟩ : BufTy).Contents (Elt Ideal))
    (b : Fin 8192) (j : Fin 32) (d : Fin 300) :
    val_main_v6 (F := Ideal) x0 x8 (ix3 b j d)
      = x8 (ix2 (rowOf 50000 (by decide) (x0 (ix2 b j))) d) := by
  have hi : idx_main_v5 (ix3 b j (0 : Fin 1)) = ix2 b j :=
    funext fun a => by match a with | ⟨0, _⟩ => rfl | ⟨1, _⟩ => rfl
  unfold val_main_v6
  refine (rows3_apply (by decide : 0 < 50000) gather_S50000x300_S8192x32x1_S8192x32x300_2_0_n_n_0_2_1300_wf x8
    (val_main_v5 (F := Ideal) x0) b j d).trans ?_
  rewrite [val_main_v5_apply, hi, wrap_v4]
  rfl

/-- Stage v9 at (b, d): the mean of the bag's rows, entry d. -/
theorem v9_at (x0 : (⟨S8192x32, .i32⟩ : BufTy).Contents (Elt Ideal)) (x8 : (⟨S50000x300, .f32⟩ : BufTy).Contents (Elt Ideal))
    (b : Fin 8192) (d : Fin 300) :
    val_main_v9 (F := Ideal) x0 x8 (ix2 b d)
      = Ideal.div (bagSum (N := 50000) (D := 300) (by decide) x0 x8 b d) (Ideal.ofBits .f32 w32) := by
  have hi : ∀ k : Fin 32, idx_main_v7 (ix2 b d) k = ix3 b k d := fun k =>
    funext fun a => by match a with | ⟨0, _⟩ => rfl | ⟨1, _⟩ => rfl | ⟨2, _⟩ => rfl
  rw [val_main_v9_apply, val_main_v7_apply, val_main_v8_apply, val_main_cst_apply, val_main_cst_1_apply]
  show Ideal.div (Ideal.ofBits .f32 0x00000000#32
      + ∑ k : Fin 32, val_main_v6 (F := Ideal) x0 x8 (idx_main_v7 (ix2 b d) k))
    (Ideal.ofBits .f32 0x42000000#32) = _
  rw [Ideal.ofBits_zero_f32, zero_add]
  unfold bagSum
  congr 1
  refine Finset.sum_congr rfl fun k _ => ?_
  rw [hi k, v6_at]

/-- The index word of stage v14 at an index: the argument's word, with 1000 added once when it is negative. -/
theorem wrap_v14 (x1 : (⟨S8192x20, .i32⟩ : BufTy).Contents (Elt Ideal)) (i : S8192x20.Idx) :
    val_main_v14 (F := Ideal) x1 i
      = Scalar.select (IntOp.cmpi .slt (x1 i) 0#32) (IntOp.addi (x1 i) 1000#32) (x1 i) := by
  rw [val_main_v14_apply, val_main_v11_apply, val_main_v13_apply, val_main_v10_apply, val_main_v12_apply,
    val_main_c_2_apply, val_main_c_3_apply]

/-- The looked-up rows of stage v16 at (b, j, d): the table at the row the j-th word of bag b selects. -/
theorem v16_at (x1 : (⟨S8192x20, .i32⟩ : BufTy).Contents (Elt Ideal)) (x9 : (⟨S1000x64, .f32⟩ : BufTy).Contents (Elt Ideal))
    (b : Fin 8192) (j : Fin 20) (d : Fin 64) :
    val_main_v16 (F := Ideal) x1 x9 (ix3 b j d)
      = x9 (ix2 (rowOf 1000 (by decide) (x1 (ix2 b j))) d) := by
  have hi : idx_main_v15 (ix3 b j (0 : Fin 1)) = ix2 b j :=
    funext fun a => by match a with | ⟨0, _⟩ => rfl | ⟨1, _⟩ => rfl
  unfold val_main_v16
  refine (rows3_apply (by decide : 0 < 1000) gather_S1000x64_S8192x20x1_S8192x20x64_2_0_n_n_0_2_164_wf x9
    (val_main_v15 (F := Ideal) x1) b j d).trans ?_
  rewrite [val_main_v15_apply, hi, wrap_v14]
  rfl

/-- Stage v19 at (b, d): the mean of the bag's rows, entry d. -/
theorem v19_at (x1 : (⟨S8192x20, .i32⟩ : BufTy).Contents (Elt Ideal)) (x9 : (⟨S1000x64, .f32⟩ : BufTy).Contents (Elt Ideal))
    (b : Fin 8192) (d : Fin 64) :
    val_main_v19 (F := Ideal) x1 x9 (ix2 b d)
      = Ideal.div (bagSum (N := 1000) (D := 64) (by decide) x1 x9 b d) (Ideal.ofBits .f32 w20) := by
  have hi : ∀ k : Fin 20, idx_main_v17 (ix2 b d) k = ix3 b k d := fun k =>
    funext fun a => by match a with | ⟨0, _⟩ => rfl | ⟨1, _⟩ => rfl | ⟨2, _⟩ => rfl
  rw [val_main_v19_apply, val_main_v17_apply, val_main_v18_apply, val_main_cst_4_apply, val_main_cst_5_apply]
  show Ideal.div (Ideal.ofBits .f32 0x00000000#32
      + ∑ k : Fin 20, val_main_v16 (F := Ideal) x1 x9 (idx_main_v17 (ix2 b d) k))
    (Ideal.ofBits .f32 0x41A00000#32) = _
  rw [Ideal.ofBits_zero_f32, zero_add]
  unfold bagSum
  congr 1
  refine Finset.sum_congr rfl fun k _ => ?_
  rw [hi k, v16_at]

/-- The index word of stage v24 at an index: the argument's word, with 5000 added once when it is negative. -/
theorem wrap_v24 (x2 : (⟨S8192x20, .i32⟩ : BufTy).Contents (Elt Ideal)) (i : S8192x20.Idx) :
    val_main_v24 (F := Ideal) x2 i
      = Scalar.select (IntOp.cmpi .slt (x2 i) 0#32) (IntOp.addi (x2 i) 5000#32) (x2 i) := by
  rw [val_main_v24_apply, val_main_v21_apply, val_main_v23_apply, val_main_v20_apply, val_main_v22_apply,
    val_main_c_6_apply, val_main_c_7_apply]

/-- The looked-up rows of stage v26 at (b, j, d): the table at the row the j-th word of bag b selects. -/
theorem v26_at (x2 : (⟨S8192x20, .i32⟩ : BufTy).Contents (Elt Ideal)) (x10 : (⟨S5000x64, .f32⟩ : BufTy).Contents (Elt Ideal))
    (b : Fin 8192) (j : Fin 20) (d : Fin 64) :
    val_main_v26 (F := Ideal) x2 x10 (ix3 b j d)
      = x10 (ix2 (rowOf 5000 (by decide) (x2 (ix2 b j))) d) := by
  have hi : idx_main_v25 (ix3 b j (0 : Fin 1)) = ix2 b j :=
    funext fun a => by match a with | ⟨0, _⟩ => rfl | ⟨1, _⟩ => rfl
  unfold val_main_v26
  refine (rows3_apply (by decide : 0 < 5000) gather_S5000x64_S8192x20x1_S8192x20x64_2_0_n_n_0_2_164_wf x10
    (val_main_v25 (F := Ideal) x2) b j d).trans ?_
  rewrite [val_main_v25_apply, hi, wrap_v24]
  rfl

/-- Stage v29 at (b, d): the mean of the bag's rows, entry d. -/
theorem v29_at (x2 : (⟨S8192x20, .i32⟩ : BufTy).Contents (Elt Ideal)) (x10 : (⟨S5000x64, .f32⟩ : BufTy).Contents (Elt Ideal))
    (b : Fin 8192) (d : Fin 64) :
    val_main_v29 (F := Ideal) x2 x10 (ix2 b d)
      = Ideal.div (bagSum (N := 5000) (D := 64) (by decide) x2 x10 b d) (Ideal.ofBits .f32 w20) := by
  have hi : ∀ k : Fin 20, idx_main_v27 (ix2 b d) k = ix3 b k d := fun k =>
    funext fun a => by match a with | ⟨0, _⟩ => rfl | ⟨1, _⟩ => rfl | ⟨2, _⟩ => rfl
  rw [val_main_v29_apply, val_main_v27_apply, val_main_v28_apply, val_main_cst_8_apply, val_main_cst_9_apply]
  show Ideal.div (Ideal.ofBits .f32 0x00000000#32
      + ∑ k : Fin 20, val_main_v26 (F := Ideal) x2 x10 (idx_main_v27 (ix2 b d) k))
    (Ideal.ofBits .f32 0x41A00000#32) = _
  rw [Ideal.ofBits_zero_f32, zero_add]
  unfold bagSum
  congr 1
  refine Finset.sum_congr rfl fun k _ => ?_
  rw [hi k, v26_at]

/-- The index word of stage v34 at an index: the argument's word, with 10000 added once when it is negative. -/
theorem wrap_v34 (x3 : (⟨S8192x20, .i32⟩ : BufTy).Contents (Elt Ideal)) (i : S8192x20.Idx) :
    val_main_v34 (F := Ideal) x3 i
      = Scalar.select (IntOp.cmpi .slt (x3 i) 0#32) (IntOp.addi (x3 i) 10000#32) (x3 i) := by
  rw [val_main_v34_apply, val_main_v31_apply, val_main_v33_apply, val_main_v30_apply, val_main_v32_apply,
    val_main_c_10_apply, val_main_c_11_apply]

/-- The looked-up rows of stage v36 at (b, j, d): the table at the row the j-th word of bag b selects. -/
theorem v36_at (x3 : (⟨S8192x20, .i32⟩ : BufTy).Contents (Elt Ideal)) (x11 : (⟨S10000x64, .f32⟩ : BufTy).Contents (Elt Ideal))
    (b : Fin 8192) (j : Fin 20) (d : Fin 64) :
    val_main_v36 (F := Ideal) x3 x11 (ix3 b j d)
      = x11 (ix2 (rowOf 10000 (by decide) (x3 (ix2 b j))) d) := by
  have hi : idx_main_v35 (ix3 b j (0 : Fin 1)) = ix2 b j :=
    funext fun a => by match a with | ⟨0, _⟩ => rfl | ⟨1, _⟩ => rfl
  unfold val_main_v36
  refine (rows3_apply (by decide : 0 < 10000) gather_S10000x64_S8192x20x1_S8192x20x64_2_0_n_n_0_2_164_wf x11
    (val_main_v35 (F := Ideal) x3) b j d).trans ?_
  rewrite [val_main_v35_apply, hi, wrap_v34]
  rfl

/-- Stage v39 at (b, d): the mean of the bag's rows, entry d. -/
theorem v39_at (x3 : (⟨S8192x20, .i32⟩ : BufTy).Contents (Elt Ideal)) (x11 : (⟨S10000x64, .f32⟩ : BufTy).Contents (Elt Ideal))
    (b : Fin 8192) (d : Fin 64) :
    val_main_v39 (F := Ideal) x3 x11 (ix2 b d)
      = Ideal.div (bagSum (N := 10000) (D := 64) (by decide) x3 x11 b d) (Ideal.ofBits .f32 w20) := by
  have hi : ∀ k : Fin 20, idx_main_v37 (ix2 b d) k = ix3 b k d := fun k =>
    funext fun a => by match a with | ⟨0, _⟩ => rfl | ⟨1, _⟩ => rfl | ⟨2, _⟩ => rfl
  rw [val_main_v39_apply, val_main_v37_apply, val_main_v38_apply, val_main_cst_12_apply, val_main_cst_13_apply]
  show Ideal.div (Ideal.ofBits .f32 0x00000000#32
      + ∑ k : Fin 20, val_main_v36 (F := Ideal) x3 x11 (idx_main_v37 (ix2 b d) k))
    (Ideal.ofBits .f32 0x41A00000#32) = _
  rw [Ideal.ofBits_zero_f32, zero_add]
  unfold bagSum
  congr 1
  refine Finset.sum_congr rfl fun k _ => ?_
  rw [hi k, v36_at]

/-- The index word of stage v44 at an index: the argument's word, with 100 added once when it is negative. -/
theorem wrap_v44 (x4 : (⟨S8192, .i32⟩ : BufTy).Contents (Elt Ideal)) (i : S8192.Idx) :
    val_main_v44 (F := Ideal) x4 i
      = Scalar.select (IntOp.cmpi .slt (x4 i) 0#32) (IntOp.addi (x4 i) 100#32) (x4 i) := by
  rw [val_main_v44_apply, val_main_v41_apply, val_main_v43_apply, val_main_v40_apply, val_main_v42_apply,
    val_main_c_14_apply, val_main_c_15_apply]

/-- The looked-up row of stage v46 at (b, d): the table at the row the word of b selects. -/
theorem v46_at (x4 : (⟨S8192, .i32⟩ : BufTy).Contents (Elt Ideal)) (x12 : (⟨S100x64, .f32⟩ : BufTy).Contents (Elt Ideal))
    (b : Fin 8192) (d : Fin 64) :
    val_main_v46 (F := Ideal) x4 x12 (ix2 b d) = pick (N := 100) (D := 64) (by decide) x4 x12 b d := by
  have hi : idx_main_v45 (ix2 b (0 : Fin 1)) = ix1 b :=
    funext fun a => by match a with | ⟨0, _⟩ => rfl
  unfold val_main_v46
  refine (rows2_apply (by decide : 0 < 100) gather_S100x64_S8192x1_S8192x64_1_0_n_n_0_1_164_wf x12
    (val_main_v45 (F := Ideal) x4) b d).trans ?_
  rewrite [val_main_v45_apply, hi, wrap_v44]
  rfl

/-- The index word of stage v51 at an index: the argument's word, with 50 added once when it is negative. -/
theorem wrap_v51 (x5 : (⟨S8192, .i32⟩ : BufTy).Contents (Elt Ideal)) (i : S8192.Idx) :
    val_main_v51 (F := Ideal) x5 i
      = Scalar.select (IntOp.cmpi .slt (x5 i) 0#32) (IntOp.addi (x5 i) 50#32) (x5 i) := by
  rw [val_main_v51_apply, val_main_v48_apply, val_main_v50_apply, val_main_v47_apply, val_main_v49_apply,
    val_main_c_16_apply, val_main_c_17_apply]

/-- The looked-up row of stage v53 at (b, d): the table at the row the word of b selects. -/
theorem v53_at (x5 : (⟨S8192, .i32⟩ : BufTy).Contents (Elt Ideal)) (x13 : (⟨S50x64, .f32⟩ : BufTy).Contents (Elt Ideal))
    (b : Fin 8192) (d : Fin 64) :
    val_main_v53 (F := Ideal) x5 x13 (ix2 b d) = pick (N := 50) (D := 64) (by decide) x5 x13 b d := by
  have hi : idx_main_v52 (ix2 b (0 : Fin 1)) = ix1 b :=
    funext fun a => by match a with | ⟨0, _⟩ => rfl
  unfold val_main_v53
  refine (rows2_apply (by decide : 0 < 50) gather_S50x64_S8192x1_S8192x64_1_0_n_n_0_1_164_wf x13
    (val_main_v52 (F := Ideal) x5) b d).trans ?_
  rewrite [val_main_v52_apply, hi, wrap_v51]
  rfl

/-- The index word of stage v58 at an index: the argument's word, with 20 added once when it is negative. -/
theorem wrap_v58 (x6 : (⟨S8192, .i32⟩ : BufTy).Contents (Elt Ideal)) (i : S8192.Idx) :
    val_main_v58 (F := Ideal) x6 i
      = Scalar.select (IntOp.cmpi .slt (x6 i) 0#32) (IntOp.addi (x6 i) 20#32) (x6 i) := by
  rw [val_main_v58_apply, val_main_v55_apply, val_main_v57_apply, val_main_v54_apply, val_main_v56_apply,
    val_main_c_18_apply, val_main_c_19_apply]

/-- The looked-up row of stage v60 at (b, d): the table at the row the word of b selects. -/
theorem v60_at (x6 : (⟨S8192, .i32⟩ : BufTy).Contents (Elt Ideal)) (x14 : (⟨S20x64, .f32⟩ : BufTy).Contents (Elt Ideal))
    (b : Fin 8192) (d : Fin 64) :
    val_main_v60 (F := Ideal) x6 x14 (ix2 b d) = pick (N := 20) (D := 64) (by decide) x6 x14 b d := by
  have hi : idx_main_v59 (ix2 b (0 : Fin 1)) = ix1 b :=
    funext fun a => by match a with | ⟨0, _⟩ => rfl
  unfold val_main_v60
  refine (rows2_apply (by decide : 0 < 20) gather_S20x64_S8192x1_S8192x64_1_0_n_n_0_1_164_wf x14
    (val_main_v59 (F := Ideal) x6) b d).trans ?_
  rewrite [val_main_v59_apply, hi, wrap_v58]
  rfl

/-- The index word of stage v65 at an index: the argument's word, with 1000 added once when it is negative. -/
theorem wrap_v65 (x7 : (⟨S8192, .i32⟩ : BufTy).Contents (Elt Ideal)) (i : S8192.Idx) :
    val_main_v65 (F := Ideal) x7 i
      = Scalar.select (IntOp.cmpi .slt (x7 i) 0#32) (IntOp.addi (x7 i) 1000#32) (x7 i) := by
  rw [val_main_v65_apply, val_main_v62_apply, val_main_v64_apply, val_main_v61_apply, val_main_v63_apply,
    val_main_c_20_apply, val_main_c_21_apply]

/-- The looked-up row of stage v67 at (b, d): the table at the row the word of b selects. -/
theorem v67_at (x7 : (⟨S8192, .i32⟩ : BufTy).Contents (Elt Ideal)) (x15 : (⟨S1000x64, .f32⟩ : BufTy).Contents (Elt Ideal))
    (b : Fin 8192) (d : Fin 64) :
    val_main_v67 (F := Ideal) x7 x15 (ix2 b d) = pick (N := 1000) (D := 64) (by decide) x7 x15 b d := by
  have hi : idx_main_v66 (ix2 b (0 : Fin 1)) = ix1 b :=
    funext fun a => by match a with | ⟨0, _⟩ => rfl
  unfold val_main_v67
  refine (rows2_apply (by decide : 0 < 1000) gather_S1000x64_S8192x1_S8192x64_1_0_n_n_0_1_164_wf x15
    (val_main_v66 (F := Ideal) x7) b d).trans ?_
  rewrite [val_main_v66_apply, hi, wrap_v65]
  rfl

/-- The index word of stage v73 at an index: the argument's word, with 1000 added once when it is negative. -/
theorem wrap_v73 (x1 : (⟨S8192x20, .i32⟩ : BufTy).Contents (Elt Ideal)) (i : S8192x20.Idx) :
    val_main_v73 (F := Ideal) x1 i
      = Scalar.select (IntOp.cmpi .slt (x1 i) 0#32) (IntOp.addi (x1 i) 1000#32) (x1 i) := by
  rw [val_main_v73_apply, val_main_v70_apply, val_main_v72_apply, val_main_v69_apply, val_main_v71_apply,
    val_main_c_22_apply, val_main_c_23_apply]

/-- The looked-up rows of stage v75 at (b, j, d): the table at the row the j-th word of bag b selects. -/
theorem v75_at (x1 : (⟨S8192x20, .i32⟩ : BufTy).Contents (Elt Ideal)) (x16 : (⟨S1000x1, .f32⟩ : BufTy).Contents (Elt Ideal))
    (b : Fin 8192) (j : Fin 20) (d : Fin 1) :
    val_main_v75 (F := Ideal) x1 x16 (ix3 b j d)
      = x16 (ix2 (rowOf 1000 (by decide) (x1 (ix2 b j))) d) := by
  have hi : idx_main_v74 (ix3 b j (0 : Fin 1)) = ix2 b j :=
    funext fun a => by match a with | ⟨0, _⟩ => rfl | ⟨1, _⟩ => rfl
  unfold val_main_v75
  refine (rows3_apply (by decide : 0 < 1000) gather_S1000x1_S8192x20x1_S8192x20x1_2_0_n_n_0_2_11_wf x16
    (val_main_v74 (F := Ideal) x1) b j d).trans ?_
  rewrite [val_main_v74_apply, hi, wrap_v73]
  rfl

/-- Stage v76 at b: the sum of the bag's wide entries. -/
theorem v76_at (x1 : (⟨S8192x20, .i32⟩ : BufTy).Contents (Elt Ideal)) (x16 : (⟨S1000x1, .f32⟩ : BufTy).Contents (Elt Ideal)) (b : Fin 8192) :
    val_main_v76 (F := Ideal) x1 x16 (ix1 b)
      = bagSum (N := 1000) (D := 1) (by decide) x1 x16 b (0 : Fin 1) := by
  unfold val_main_v76
  simp only [Host.reduceAdd, Ideal.hostReduceAdd_def]
  refine (sum_last_two reducesTo_S8192x20x1_S8192_d1_2 _ _ b).trans ?_
  rw [val_main_cst_24_apply]
  show Ideal.ofBits .f32 0x00000000#32 + _ = _
  rw [Ideal.ofBits_zero_f32, zero_add]
  unfold bagSum
  refine Finset.sum_congr rfl fun j _ => ?_
  exact v75_at x1 x16 b j (0 : Fin 1)

/-- The index word of stage v81 at an index: the argument's word, with 5000 added once when it is negative. -/
theorem wrap_v81 (x2 : (⟨S8192x20, .i32⟩ : BufTy).Contents (Elt Ideal)) (i : S8192x20.Idx) :
    val_main_v81 (F := Ideal) x2 i
      = Scalar.select (IntOp.cmpi .slt (x2 i) 0#32) (IntOp.addi (x2 i) 5000#32) (x2 i) := by
  rw [val_main_v81_apply, val_main_v78_apply, val_main_v80_apply, val_main_v77_apply, val_main_v79_apply,
    val_main_c_25_apply, val_main_c_26_apply]

/-- The looked-up rows of stage v83 at (b, j, d): the table at the row the j-th word of bag b selects. -/
theorem v83_at (x2 : (⟨S8192x20, .i32⟩ : BufTy).Contents (Elt Ideal)) (x17 : (⟨S5000x1, .f32⟩ : BufTy).Contents (Elt Ideal))
    (b : Fin 8192) (j : Fin 20) (d : Fin 1) :
    val_main_v83 (F := Ideal) x2 x17 (ix3 b j d)
      = x17 (ix2 (rowOf 5000 (by decide) (x2 (ix2 b j))) d) := by
  have hi : idx_main_v82 (ix3 b j (0 : Fin 1)) = ix2 b j :=
    funext fun a => by match a with | ⟨0, _⟩ => rfl | ⟨1, _⟩ => rfl
  unfold val_main_v83
  refine (rows3_apply (by decide : 0 < 5000) gather_S5000x1_S8192x20x1_S8192x20x1_2_0_n_n_0_2_11_wf x17
    (val_main_v82 (F := Ideal) x2) b j d).trans ?_
  rewrite [val_main_v82_apply, hi, wrap_v81]
  rfl

/-- Stage v84 at b: the sum of the bag's wide entries. -/
theorem v84_at (x2 : (⟨S8192x20, .i32⟩ : BufTy).Contents (Elt Ideal)) (x17 : (⟨S5000x1, .f32⟩ : BufTy).Contents (Elt Ideal)) (b : Fin 8192) :
    val_main_v84 (F := Ideal) x2 x17 (ix1 b)
      = bagSum (N := 5000) (D := 1) (by decide) x2 x17 b (0 : Fin 1) := by
  unfold val_main_v84
  simp only [Host.reduceAdd, Ideal.hostReduceAdd_def]
  refine (sum_last_two reducesTo_S8192x20x1_S8192_d1_2 _ _ b).trans ?_
  rw [val_main_cst_27_apply]
  show Ideal.ofBits .f32 0x00000000#32 + _ = _
  rw [Ideal.ofBits_zero_f32, zero_add]
  unfold bagSum
  refine Finset.sum_congr rfl fun j _ => ?_
  exact v83_at x2 x17 b j (0 : Fin 1)

/-- The index word of stage v90 at an index: the argument's word, with 10000 added once when it is negative. -/
theorem wrap_v90 (x3 : (⟨S8192x20, .i32⟩ : BufTy).Contents (Elt Ideal)) (i : S8192x20.Idx) :
    val_main_v90 (F := Ideal) x3 i
      = Scalar.select (IntOp.cmpi .slt (x3 i) 0#32) (IntOp.addi (x3 i) 10000#32) (x3 i) := by
  rw [val_main_v90_apply, val_main_v87_apply, val_main_v89_apply, val_main_v86_apply, val_main_v88_apply,
    val_main_c_28_apply, val_main_c_29_apply]

/-- The looked-up rows of stage v92 at (b, j, d): the table at the row the j-th word of bag b selects. -/
theorem v92_at (x3 : (⟨S8192x20, .i32⟩ : BufTy).Contents (Elt Ideal)) (x18 : (⟨S10000x1, .f32⟩ : BufTy).Contents (Elt Ideal))
    (b : Fin 8192) (j : Fin 20) (d : Fin 1) :
    val_main_v92 (F := Ideal) x3 x18 (ix3 b j d)
      = x18 (ix2 (rowOf 10000 (by decide) (x3 (ix2 b j))) d) := by
  have hi : idx_main_v91 (ix3 b j (0 : Fin 1)) = ix2 b j :=
    funext fun a => by match a with | ⟨0, _⟩ => rfl | ⟨1, _⟩ => rfl
  unfold val_main_v92
  refine (rows3_apply (by decide : 0 < 10000) gather_S10000x1_S8192x20x1_S8192x20x1_2_0_n_n_0_2_11_wf x18
    (val_main_v91 (F := Ideal) x3) b j d).trans ?_
  rewrite [val_main_v91_apply, hi, wrap_v90]
  rfl

/-- Stage v93 at b: the sum of the bag's wide entries. -/
theorem v93_at (x3 : (⟨S8192x20, .i32⟩ : BufTy).Contents (Elt Ideal)) (x18 : (⟨S10000x1, .f32⟩ : BufTy).Contents (Elt Ideal)) (b : Fin 8192) :
    val_main_v93 (F := Ideal) x3 x18 (ix1 b)
      = bagSum (N := 10000) (D := 1) (by decide) x3 x18 b (0 : Fin 1) := by
  unfold val_main_v93
  simp only [Host.reduceAdd, Ideal.hostReduceAdd_def]
  refine (sum_last_two reducesTo_S8192x20x1_S8192_d1_2 _ _ b).trans ?_
  rw [val_main_cst_30_apply]
  show Ideal.ofBits .f32 0x00000000#32 + _ = _
  rw [Ideal.ofBits_zero_f32, zero_add]
  unfold bagSum
  refine Finset.sum_congr rfl fun j _ => ?_
  exact v92_at x3 x18 b j (0 : Fin 1)

/-- The index word of stage v99 at an index: the argument's word, with 100 added once when it is negative. -/
theorem wrap_v99 (x4 : (⟨S8192, .i32⟩ : BufTy).Contents (Elt Ideal)) (i : S8192.Idx) :
    val_main_v99 (F := Ideal) x4 i
      = Scalar.select (IntOp.cmpi .slt (x4 i) 0#32) (IntOp.addi (x4 i) 100#32) (x4 i) := by
  rw [val_main_v99_apply, val_main_v96_apply, val_main_v98_apply, val_main_v95_apply, val_main_v97_apply,
    val_main_c_31_apply, val_main_c_32_apply]

/-- The looked-up row of stage v101 at (b, d): the table at the row the word of b selects. -/
theorem v101_at (x4 : (⟨S8192, .i32⟩ : BufTy).Contents (Elt Ideal)) (x19 : (⟨S100x1, .f32⟩ : BufTy).Contents (Elt Ideal))
    (b : Fin 8192) (d : Fin 1) :
    val_main_v101 (F := Ideal) x4 x19 (ix2 b d) = pick (N := 100) (D := 1) (by decide) x4 x19 b d := by
  have hi : idx_main_v100 (ix2 b (0 : Fin 1)) = ix1 b :=
    funext fun a => by match a with | ⟨0, _⟩ => rfl
  unfold val_main_v101
  refine (rows2_apply (by decide : 0 < 100) gather_S100x1_S8192x1_S8192x1_1_0_n_n_0_1_11_wf x19
    (val_main_v100 (F := Ideal) x4) b d).trans ?_
  rewrite [val_main_v100_apply, hi, wrap_v99]
  rfl

/-- Stage v102 at b: the wide entry the word of b selects. -/
theorem v102_at (x4 : (⟨S8192, .i32⟩ : BufTy).Contents (Elt Ideal)) (x19 : (⟨S100x1, .f32⟩ : BufTy).Contents (Elt Ideal)) (b : Fin 8192) :
    val_main_v102 (F := Ideal) x4 x19 (ix1 b) = pick (N := 100) (D := 1) (by decide) x4 x19 b (0 : Fin 1) := by
  have hi : idx_main_v102 (ix1 b) = ix2 b (0 : Fin 1) :=
    funext fun a => Fin.ext (by match a with | ⟨0, _⟩ => exact Nat.div_one _ | ⟨1, _⟩ => rfl)
  rw [val_main_v102_apply, hi, v101_at]

/-- The index word of stage v108 at an index: the argument's word, with 50 added once when it is negative. -/
theorem wrap_v108 (x5 : (⟨S8192, .i32⟩ : BufTy).Contents (Elt Ideal)) (i : S8192.Idx) :
    val_main_v108 (F := Ideal) x5 i
      = Scalar.select (IntOp.cmpi .slt (x5 i) 0#32) (IntOp.addi (x5 i) 50#32) (x5 i) := by
  rw [val_main_v108_apply, val_main_v105_apply, val_main_v107_apply, val_main_v104_apply, val_main_v106_apply,
    val_main_c_33_apply, val_main_c_34_apply]

/-- The looked-up row of stage v110 at (b, d): the table at the row the word of b selects. -/
theorem v110_at (x5 : (⟨S8192, .i32⟩ : BufTy).Contents (Elt Ideal)) (x20 : (⟨S50x1, .f32⟩ : BufTy).Contents (Elt Ideal))
    (b : Fin 8192) (d : Fin 1) :
    val_main_v110 (F := Ideal) x5 x20 (ix2 b d) = pick (N := 50) (D := 1) (by decide) x5 x20 b d := by
  have hi : idx_main_v109 (ix2 b (0 : Fin 1)) = ix1 b :=
    funext fun a => by match a with | ⟨0, _⟩ => rfl
  unfold val_main_v110
  refine (rows2_apply (by decide : 0 < 50) gather_S50x1_S8192x1_S8192x1_1_0_n_n_0_1_11_wf x20
    (val_main_v109 (F := Ideal) x5) b d).trans ?_
  rewrite [val_main_v109_apply, hi, wrap_v108]
  rfl

/-- Stage v111 at b: the wide entry the word of b selects. -/
theorem v111_at (x5 : (⟨S8192, .i32⟩ : BufTy).Contents (Elt Ideal)) (x20 : (⟨S50x1, .f32⟩ : BufTy).Contents (Elt Ideal)) (b : Fin 8192) :
    val_main_v111 (F := Ideal) x5 x20 (ix1 b) = pick (N := 50) (D := 1) (by decide) x5 x20 b (0 : Fin 1) := by
  have hi : idx_main_v111 (ix1 b) = ix2 b (0 : Fin 1) :=
    funext fun a => Fin.ext (by match a with | ⟨0, _⟩ => exact Nat.div_one _ | ⟨1, _⟩ => rfl)
  rw [val_main_v111_apply, hi, v110_at]

/-- The index word of stage v117 at an index: the argument's word, with 20 added once when it is negative. -/
theorem wrap_v117 (x6 : (⟨S8192, .i32⟩ : BufTy).Contents (Elt Ideal)) (i : S8192.Idx) :
    val_main_v117 (F := Ideal) x6 i
      = Scalar.select (IntOp.cmpi .slt (x6 i) 0#32) (IntOp.addi (x6 i) 20#32) (x6 i) := by
  rw [val_main_v117_apply, val_main_v114_apply, val_main_v116_apply, val_main_v113_apply, val_main_v115_apply,
    val_main_c_35_apply, val_main_c_36_apply]

/-- The looked-up row of stage v119 at (b, d): the table at the row the word of b selects. -/
theorem v119_at (x6 : (⟨S8192, .i32⟩ : BufTy).Contents (Elt Ideal)) (x21 : (⟨S20x1, .f32⟩ : BufTy).Contents (Elt Ideal))
    (b : Fin 8192) (d : Fin 1) :
    val_main_v119 (F := Ideal) x6 x21 (ix2 b d) = pick (N := 20) (D := 1) (by decide) x6 x21 b d := by
  have hi : idx_main_v118 (ix2 b (0 : Fin 1)) = ix1 b :=
    funext fun a => by match a with | ⟨0, _⟩ => rfl
  unfold val_main_v119
  refine (rows2_apply (by decide : 0 < 20) gather_S20x1_S8192x1_S8192x1_1_0_n_n_0_1_11_wf x21
    (val_main_v118 (F := Ideal) x6) b d).trans ?_
  rewrite [val_main_v118_apply, hi, wrap_v117]
  rfl

/-- Stage v120 at b: the wide entry the word of b selects. -/
theorem v120_at (x6 : (⟨S8192, .i32⟩ : BufTy).Contents (Elt Ideal)) (x21 : (⟨S20x1, .f32⟩ : BufTy).Contents (Elt Ideal)) (b : Fin 8192) :
    val_main_v120 (F := Ideal) x6 x21 (ix1 b) = pick (N := 20) (D := 1) (by decide) x6 x21 b (0 : Fin 1) := by
  have hi : idx_main_v120 (ix1 b) = ix2 b (0 : Fin 1) :=
    funext fun a => Fin.ext (by match a with | ⟨0, _⟩ => exact Nat.div_one _ | ⟨1, _⟩ => rfl)
  rw [val_main_v120_apply, hi, v119_at]

/-- The index word of stage v126 at an index: the argument's word, with 1000 added once when it is negative. -/
theorem wrap_v126 (x7 : (⟨S8192, .i32⟩ : BufTy).Contents (Elt Ideal)) (i : S8192.Idx) :
    val_main_v126 (F := Ideal) x7 i
      = Scalar.select (IntOp.cmpi .slt (x7 i) 0#32) (IntOp.addi (x7 i) 1000#32) (x7 i) := by
  rw [val_main_v126_apply, val_main_v123_apply, val_main_v125_apply, val_main_v122_apply, val_main_v124_apply,
    val_main_c_37_apply, val_main_c_38_apply]

/-- The looked-up row of stage v128 at (b, d): the table at the row the word of b selects. -/
theorem v128_at (x7 : (⟨S8192, .i32⟩ : BufTy).Contents (Elt Ideal)) (x22 : (⟨S1000x1, .f32⟩ : BufTy).Contents (Elt Ideal))
    (b : Fin 8192) (d : Fin 1) :
    val_main_v128 (F := Ideal) x7 x22 (ix2 b d) = pick (N := 1000) (D := 1) (by decide) x7 x22 b d := by
  have hi : idx_main_v127 (ix2 b (0 : Fin 1)) = ix1 b :=
    funext fun a => by match a with | ⟨0, _⟩ => rfl
  unfold val_main_v128
  refine (rows2_apply (by decide : 0 < 1000) gather_S1000x1_S8192x1_S8192x1_1_0_n_n_0_1_11_wf x22
    (val_main_v127 (F := Ideal) x7) b d).trans ?_
  rewrite [val_main_v127_apply, hi, wrap_v126]
  rfl

/-- Stage v129 at b: the wide entry the word of b selects. -/
theorem v129_at (x7 : (⟨S8192, .i32⟩ : BufTy).Contents (Elt Ideal)) (x22 : (⟨S1000x1, .f32⟩ : BufTy).Contents (Elt Ideal)) (b : Fin 8192) :
    val_main_v129 (F := Ideal) x7 x22 (ix1 b) = pick (N := 1000) (D := 1) (by decide) x7 x22 b (0 : Fin 1) := by
  have hi : idx_main_v129 (ix1 b) = ix2 b (0 : Fin 1) :=
    funext fun a => Fin.ext (by match a with | ⟨0, _⟩ => exact Nat.div_one _ | ⟨1, _⟩ => rfl)
  rw [val_main_v129_apply, hi, v128_at]

/-- Stage v130 at b: the seven wide contributions added left to right. -/
theorem v130_at (x1 x2 x3 : (⟨S8192x20, .i32⟩ : BufTy).Contents (Elt Ideal)) (x4 x5 x6 x7 : (⟨S8192, .i32⟩ : BufTy).Contents (Elt Ideal))
    (x16 : (⟨S1000x1, .f32⟩ : BufTy).Contents (Elt Ideal)) (x17 : (⟨S5000x1, .f32⟩ : BufTy).Contents (Elt Ideal)) (x18 : (⟨S10000x1, .f32⟩ : BufTy).Contents (Elt Ideal))
    (x19 : (⟨S100x1, .f32⟩ : BufTy).Contents (Elt Ideal)) (x20 : (⟨S50x1, .f32⟩ : BufTy).Contents (Elt Ideal)) (x21 : (⟨S20x1, .f32⟩ : BufTy).Contents (Elt Ideal))
    (x22 : (⟨S1000x1, .f32⟩ : BufTy).Contents (Elt Ideal)) (b : Fin 8192) :
    val_main_v130 (F := Ideal) x1 x2 x3 x4 x5 x6 x7 x16 x17 x18 x19 x20 x21 x22 (ix1 b)
      = bagSum (N := 1000) (D := 1) (by decide) x1 x16 b (0 : Fin 1)
        + bagSum (N := 5000) (D := 1) (by decide) x2 x17 b (0 : Fin 1)
        + bagSum (N := 10000) (D := 1) (by decide) x3 x18 b (0 : Fin 1)
        + pick (N := 100) (D := 1) (by decide) x4 x19 b (0 : Fin 1)
        + pick (N := 50) (D := 1) (by decide) x5 x20 b (0 : Fin 1)
        + pick (N := 20) (D := 1) (by decide) x6 x21 b (0 : Fin 1)
        + pick (N := 1000) (D := 1) (by decide) x7 x22 b (0 : Fin 1) := by
  rewrite [val_main_v130_apply, val_main_v121_apply, val_main_v112_apply, val_main_v103_apply, val_main_v94_apply,
    val_main_v85_apply, v76_at, v84_at, v93_at, v102_at, v111_at, v120_at, v129_at]
  rfl

end Cert.WideDeep.Ref

end
-- ==== Proof.RefEmb.lean ====
/-
  The reference's deep input, entry by entry.

  The reference joins its eight field arrays along the second axis: 300 + 7 * 64 = 748 columns. Column k of the join
  lies in exactly one piece, the one whose span of columns holds k, at k less the widths of the pieces before it; the
  specification's emb picks the same piece by the same bounds. Each piece, read at an index, is the specification's
  field (the previous module), so the join is emb.
-/
import proofs.«151196_j43095701848227_2_alg».proof.Proof.RefFields

noncomputable section

namespace Cert.WideDeep.Ref

open Cert.ReferenceIdeal Cert.ReferenceIdeal.Gen Cert.ReferenceIdeal.Read
open Idealize.ShloMosaic Idealize.ShloMosaic.ValueIdx Cert.WideDeep

variable (a : Args)

/-- The eight field stages, each with its shape, in the order they are joined. -/
def pieces : List ((s : Shape) × (s.Idx → Ideal .f32)) :=
  [⟨S8192x300, val_main_v9 (F := Ideal) a.tokIdx a.wordEmb⟩,
   ⟨S8192x64, val_main_v19 (F := Ideal) a.mh1Idx a.embMh1⟩,
   ⟨S8192x64, val_main_v29 (F := Ideal) a.mh2Idx a.embMh2⟩,
   ⟨S8192x64, val_main_v39 (F := Ideal) a.mh3Idx a.embMh3⟩,
   ⟨S8192x64, val_main_v46 (F := Ideal) a.oh1Idx a.embOh1⟩,
   ⟨S8192x64, val_main_v53 (F := Ideal) a.oh2Idx a.embOh2⟩,
   ⟨S8192x64, val_main_v60 (F := Ideal) a.oh3Idx a.embOh3⟩,
   ⟨S8192x64, val_main_v67 (F := Ideal) a.oh4Idx a.embOh4⟩]

/-- The join stage is the join of these pieces. -/
theorem v68_eq :
    val_main_v68 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4
      = concatenate S8192x748 1 (pieces a) concatenates_S8192x300_S8192x64_S8192x64_S8192x64_S8192x64_S8192x64_S8192x64_S8192x64_S8192x748_d1 := rfl

/-- The join at (b, k), for k inside the span [pre, pre + D) of piece n: that piece at (b, k - pre). -/
theorem piece_at (b : Fin 8192) (k : Fin 748) (n : Nat) (hn : n < 8) (D : Nat)
    (x₁ : (⟨2, ![8192, D]⟩ : Shape).Idx → Ideal .f32) (hx : (pieces a)[n]'hn = ⟨⟨2, ![8192, D]⟩, x₁⟩) (pre : Nat)
    (hpre : ((((pieces a).take n).map (·.1)).map fun s =>
      if h : s.rank = S8192x748.rank then s.size ((1 : Fin S8192x748.rank).cast h.symm) else 0).sum = pre)
    (hlo : pre ≤ k.val) (hhi : k.val < pre + D) :
    concatenate S8192x748 1 (pieces a) concatenates_S8192x300_S8192x64_S8192x64_S8192x64_S8192x64_S8192x64_S8192x64_S8192x64_S8192x748_d1 (ix2 b k)
      = x₁ (ix2 b ⟨k.val - pre, by omega⟩) :=
  concatenate_apply_piece (1 : Fin S8192x748.rank) (pieces a) _ (ix2 b k) n hn ⟨2, ![8192, D]⟩ x₁ hx rfl pre hpre
    (ix2 b ⟨k.val - pre, by omega⟩)
    (fun c hc => by match c with | ⟨0, _⟩ => rfl | ⟨1, _⟩ => exact absurd rfl hc)
    (by show pre + (k.val - pre) = k.val; omega)

/-- The join stage at (b, k) is the specification's deep input. -/
theorem v68_at (b : Fin 8192) (k : Fin 748) :
    val_main_v68 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 (ix2 b k) = emb a b k := by
  rw [v68_eq]
  unfold emb
  by_cases h0 : k.val < 300
  · rw [dif_pos h0]
    exact (piece_at a b k 0 (by decide) 300 (val_main_v9 (F := Ideal) a.tokIdx a.wordEmb) rfl 0 rfl
      (by omega) (by omega)).trans (v9_at a.tokIdx a.wordEmb b _)
  by_cases h1 : k.val < 364
  · rw [dif_neg h0, dif_pos h1]
    exact (piece_at a b k 1 (by decide) 64 (val_main_v19 (F := Ideal) a.mh1Idx a.embMh1) rfl 300 rfl
      (by omega) (by omega)).trans (v19_at a.mh1Idx a.embMh1 b _)
  by_cases h2 : k.val < 428
  · rw [dif_neg h0, dif_neg h1, dif_pos h2]
    exact (piece_at a b k 2 (by decide) 64 (val_main_v29 (F := Ideal) a.mh2Idx a.embMh2) rfl 364 rfl
      (by omega) (by omega)).trans (v29_at a.mh2Idx a.embMh2 b _)
  by_cases h3 : k.val < 492
  · rw [dif_neg h0, dif_neg h1, dif_neg h2, dif_pos h3]
    exact (piece_at a b k 3 (by decide) 64 (val_main_v39 (F := Ideal) a.mh3Idx a.embMh3) rfl 428 rfl
      (by omega) (by omega)).trans (v39_at a.mh3Idx a.embMh3 b _)
  by_cases h4 : k.val < 556
  · rw [dif_neg h0, dif_neg h1, dif_neg h2, dif_neg h3, dif_pos h4]
    exact (piece_at a b k 4 (by decide) 64 (val_main_v46 (F := Ideal) a.oh1Idx a.embOh1) rfl 492 rfl
      (by omega) (by omega)).trans (v46_at a.oh1Idx a.embOh1 b _)
  by_cases h5 : k.val < 620
  · rw [dif_neg h0, dif_neg h1, dif_neg h2, dif_neg h3, dif_neg h4, dif_pos h5]
    exact (piece_at a b k 5 (by decide) 64 (val_main_v53 (F := Ideal) a.oh2Idx a.embOh2) rfl 556 rfl
      (by omega) (by omega)).trans (v53_at a.oh2Idx a.embOh2 b _)
  by_cases h6 : k.val < 684
  · rw [dif_neg h0, dif_neg h1, dif_neg h2, dif_neg h3, dif_neg h4, dif_neg h5, dif_pos h6]
    exact (piece_at a b k 6 (by decide) 64 (val_main_v60 (F := Ideal) a.oh3Idx a.embOh3) rfl 620 rfl
      (by omega) (by omega)).trans (v60_at a.oh3Idx a.embOh3 b _)
  rw [dif_neg h0, dif_neg h1, dif_neg h2, dif_neg h3, dif_neg h4, dif_neg h5, dif_neg h6]
  exact (piece_at a b k 7 (by decide) 64 (val_main_v67 (F := Ideal) a.oh4Idx a.embOh4) rfl 684 rfl
    (by omega) (by have := k.isLt; omega)).trans (v67_at a.oh4Idx a.embOh4 b _)

end Cert.WideDeep.Ref

end
-- ==== Proof.RefSpec.lean ====
/-
  The reference computes the specification.

  From the deep input on, the reference is three dense layers — a matrix product, a bias row added, the result
  clipped below at zero —, then a product with a column, its bias, and the wide sum, and at the end the quotient
  1 / (1 + e^(-x)) spelled out with the float word of one. A product stage at an index is the sum over the contracted
  coordinate of the products of entries; the bias row is read at the column; the clip is the maximum with the zero
  word. The quotient is the logistic function by its definition, the word of one being one. So the last stage is
  the specification's result, index by index.
-/
import proofs.«151196_j43095701848227_2_alg».proof.Proof.RefEmb

noncomputable section

namespace Cert.WideDeep.Ref

open Cert.ReferenceIdeal Cert.ReferenceIdeal.Gen Cert.ReferenceIdeal.Read
open Idealize.ShloMosaic Idealize.ShloMosaic.ValueIdx Cert.WideDeep

section
variable (a : Args)

/-- Stage v136 at (b, n): the first dense layer of the specification. -/
theorem v136_at (b : Fin 8192) (n : Fin 1024) :
    val_main_v136 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.W1 a.b1 (ix2 b n) = h1 a b n := by
  have hl : ∀ k : Fin 748, lidx_main_v132 (ix2 b n) k = ix2 b k := fun k =>
    funext fun c => by match c with | ⟨0, _⟩ => rfl | ⟨1, _⟩ => rfl
  have hr : ∀ k : Fin 748, ridx_main_v132 (ix2 b n) k = ix2 k n := fun k =>
    funext fun c => by match c with | ⟨0, _⟩ => rfl | ⟨1, _⟩ => rfl
  have hb : idx_main_v133 (idx_main_v134 (ix2 b n)) = ix1 n :=
    funext fun c => by match c with | ⟨0, _⟩ => rfl
  rw [val_main_v136_apply, val_main_v135_apply, val_main_v132_apply, val_main_v134_apply, val_main_v133_apply, hb,
    val_main_call0_v0_apply, val_main_call0_cst_apply]
  show max ((∑ k : Fin 748, val_main_v68 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 (lidx_main_v132 (ix2 b n) k)
      * a.W1 (ridx_main_v132 (ix2 b n) k)) + a.b1 (ix1 n)) (Ideal.ofBits .f32 0x00000000#32) = _
  unfold h1
  refine congrArg (fun s => max (s + a.b1 (ix1 n)) z) (Finset.sum_congr rfl fun k _ => ?_)
  rw [hl k, hr k, v68_at]

/-- Stage v141 at (b, n): the second dense layer of the specification. -/
theorem v141_at (b : Fin 8192) (n : Fin 512) :
    val_main_v141 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.W1 a.b1 a.W2 a.b2 (ix2 b n) = h2 a b n := by
  have hl : ∀ k : Fin 1024, lidx_main_v137 (ix2 b n) k = ix2 b k := fun k =>
    funext fun c => by match c with | ⟨0, _⟩ => rfl | ⟨1, _⟩ => rfl
  have hr : ∀ k : Fin 1024, ridx_main_v137 (ix2 b n) k = ix2 k n := fun k =>
    funext fun c => by match c with | ⟨0, _⟩ => rfl | ⟨1, _⟩ => rfl
  have hb : idx_main_v138 (idx_main_v139 (ix2 b n)) = ix1 n :=
    funext fun c => by match c with | ⟨0, _⟩ => rfl
  rw [val_main_v141_apply, val_main_v140_apply, val_main_v137_apply, val_main_v139_apply, val_main_v138_apply, hb,
    val_main_call1_v0_apply, val_main_call1_cst_apply]
  show max ((∑ k : Fin 1024, val_main_v136 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.W1 a.b1 (lidx_main_v137 (ix2 b n) k)
      * a.W2 (ridx_main_v137 (ix2 b n) k)) + a.b2 (ix1 n)) (Ideal.ofBits .f32 0x00000000#32) = _
  unfold h2
  refine congrArg (fun s => max (s + a.b2 (ix1 n)) z) (Finset.sum_congr rfl fun k _ => ?_)
  rw [hl k, hr k, v136_at]

/-- Stage v146 at (b, n): the third dense layer of the specification. -/
theorem v146_at (b : Fin 8192) (n : Fin 256) :
    val_main_v146 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.W1 a.b1 a.W2 a.b2 a.W3 a.b3 (ix2 b n) = h3 a b n := by
  have hl : ∀ k : Fin 512, lidx_main_v142 (ix2 b n) k = ix2 b k := fun k =>
    funext fun c => by match c with | ⟨0, _⟩ => rfl | ⟨1, _⟩ => rfl
  have hr : ∀ k : Fin 512, ridx_main_v142 (ix2 b n) k = ix2 k n := fun k =>
    funext fun c => by match c with | ⟨0, _⟩ => rfl | ⟨1, _⟩ => rfl
  have hb : idx_main_v143 (idx_main_v144 (ix2 b n)) = ix1 n :=
    funext fun c => by match c with | ⟨0, _⟩ => rfl
  rw [val_main_v146_apply, val_main_v145_apply, val_main_v142_apply, val_main_v144_apply, val_main_v143_apply, hb,
    val_main_call2_v0_apply, val_main_call2_cst_apply]
  show max ((∑ k : Fin 512, val_main_v141 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.W1 a.b1 a.W2 a.b2 (lidx_main_v142 (ix2 b n) k)
      * a.W3 (ridx_main_v142 (ix2 b n) k)) + a.b3 (ix1 n)) (Ideal.ofBits .f32 0x00000000#32) = _
  unfold h3
  refine congrArg (fun s => max (s + a.b3 (ix1 n)) z) (Finset.sum_congr rfl fun k _ => ?_)
  rw [hl k, hr k, v141_at]

/-- Stage v151 at (b, 0): the specification's value before the logistic function. -/
theorem v151_at (b : Fin 8192) (q : Fin 1) :
    val_main_v151 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.wideMh1 a.wideMh2 a.wideMh3 a.wideOh1 a.wideOh2 a.wideOh3 a.wideOh4 a.W1 a.b1 a.W2 a.b2 a.W3 a.b3 a.Wd a.bd (ix2 b q) = logit a b := by
  obtain rfl : q = 0 := Subsingleton.elim _ _
  have hl : ∀ k : Fin 256, lidx_main_v147 (ix2 b (0 : Fin 1)) k = ix2 b k := fun k =>
    funext fun c => by match c with | ⟨0, _⟩ => rfl | ⟨1, _⟩ => rfl
  have hr : ∀ k : Fin 256, ridx_main_v147 (ix2 b (0 : Fin 1)) k = ix2 k (0 : Fin 1) := fun k =>
    funext fun c => by match c with | ⟨0, _⟩ => rfl | ⟨1, _⟩ => rfl
  have hb : idx_main_v148 (idx_main_v149 (ix2 b (0 : Fin 1))) = ix1 (0 : Fin 1) :=
    funext fun c => by match c with | ⟨0, _⟩ => rfl
  have hw : idx_main_v131 (ix2 b (0 : Fin 1)) = ix1 b :=
    funext fun c => by match c with | ⟨0, _⟩ => rfl
  rw [val_main_v151_apply, val_main_v150_apply, val_main_v147_apply, val_main_v149_apply, val_main_v148_apply, hb,
    val_main_v131_apply, hw, v130_at]
  show (∑ k : Fin 256, val_main_v146 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.W1 a.b1 a.W2 a.b2 a.W3 a.b3 (lidx_main_v147 (ix2 b (0 : Fin 1)) k)
      * a.Wd (ridx_main_v147 (ix2 b (0 : Fin 1)) k)) + a.bd (ix1 (0 : Fin 1)) + wide a b = _
  unfold logit
  refine congrArg (fun s => s + a.bd (ix1 (0 : Fin 1)) + wide a b) (Finset.sum_congr rfl fun k _ => ?_)
  rw [hl k, hr k, v146_at]

/-- The last stage at (b, 0): the logistic function of that value. -/
theorem v157_at (b : Fin 8192) (q : Fin 1) :
    val_main_v157 (F := Ideal) a.tokIdx a.mh1Idx a.mh2Idx a.mh3Idx a.oh1Idx a.oh2Idx a.oh3Idx a.oh4Idx a.wordEmb a.embMh1 a.embMh2 a.embMh3 a.embOh1 a.embOh2 a.embOh3 a.embOh4 a.wideMh1 a.wideMh2 a.wideMh3 a.wideOh1 a.wideOh2 a.wideOh3 a.wideOh4 a.W1 a.b1 a.W2 a.b2 a.W3 a.b3 a.Wd a.bd (ix2 b q) = Ideal.logistic (logit a b) := by
  rw [val_main_v157_apply, val_main_v156_apply, val_main_cst_40_apply, val_main_v155_apply, val_main_v154_apply,
    val_main_cst_39_apply, val_main_v153_apply, val_main_v152_apply, v151_at]
  show Ideal.div (Ideal.ofBits .f32 0x3F800000#32) (Ideal.ofBits .f32 0x3F800000#32 + Ideal.exp (-(logit a b))) = _
  rewrite [Ideal.ofBits_one_f32]
  rfl

end

/-- The reference's result is the specification's, as functions of the thirty-one argument arrays. -/
theorem out_eq (x0 : (⟨S8192x32, .i32⟩ : BufTy).Contents (Elt Ideal)) (x1 x2 x3 : (⟨S8192x20, .i32⟩ : BufTy).Contents (Elt Ideal))
    (x4 x5 x6 x7 : (⟨S8192, .i32⟩ : BufTy).Contents (Elt Ideal)) (x8 : (⟨S50000x300, .f32⟩ : BufTy).Contents (Elt Ideal))
    (x9 : (⟨S1000x64, .f32⟩ : BufTy).Contents (Elt Ideal)) (x10 : (⟨S5000x64, .f32⟩ : BufTy).Contents (Elt Ideal)) (x11 : (⟨S10000x64, .f32⟩ : BufTy).Contents (Elt Ideal))
    (x12 : (⟨S100x64, .f32⟩ : BufTy).Contents (Elt Ideal)) (x13 : (⟨S50x64, .f32⟩ : BufTy).Contents (Elt Ideal)) (x14 : (⟨S20x64, .f32⟩ : BufTy).Contents (Elt Ideal))
    (x15 : (⟨S1000x64, .f32⟩ : BufTy).Contents (Elt Ideal)) (x16 : (⟨S1000x1, .f32⟩ : BufTy).Contents (Elt Ideal)) (x17 : (⟨S5000x1, .f32⟩ : BufTy).Contents (Elt Ideal))
    (x18 : (⟨S10000x1, .f32⟩ : BufTy).Contents (Elt Ideal)) (x19 : (⟨S100x1, .f32⟩ : BufTy).Contents (Elt Ideal)) (x20 : (⟨S50x1, .f32⟩ : BufTy).Contents (Elt Ideal))
    (x21 : (⟨S20x1, .f32⟩ : BufTy).Contents (Elt Ideal)) (x22 : (⟨S1000x1, .f32⟩ : BufTy).Contents (Elt Ideal)) (x23 : (⟨S748x1024, .f32⟩ : BufTy).Contents (Elt Ideal))
    (x24 : (⟨S1024, .f32⟩ : BufTy).Contents (Elt Ideal)) (x25 : (⟨S1024x512, .f32⟩ : BufTy).Contents (Elt Ideal)) (x26 : (⟨S512, .f32⟩ : BufTy).Contents (Elt Ideal))
    (x27 : (⟨S512x256, .f32⟩ : BufTy).Contents (Elt Ideal)) (x28 : (⟨S256, .f32⟩ : BufTy).Contents (Elt Ideal)) (x29 : (⟨S256x1, .f32⟩ : BufTy).Contents (Elt Ideal))
    (x30 : (⟨S1, .f32⟩ : BufTy).Contents (Elt Ideal)) :
    val_main_v157 (F := Ideal) x0 x1 x2 x3 x4 x5 x6 x7 x8 x9 x10 x11 x12 x13 x14 x15 x16 x17 x18 x19 x20 x21 x22 x23 x24 x25 x26 x27 x28 x29 x30
      = Cert.WideDeep.out ⟨x0, x1, x2, x3, x4, x5, x6, x7, x8, x9, x10, x11, x12, x13, x14, x15, x16, x17, x18, x19, x20, x21, x22, x23, x24, x25, x26, x27, x28, x29, x30⟩ := by
  funext i
  obtain ⟨b, q, rfl⟩ : ∃ (b : Fin 8192) (q : Fin 1), i = ix2 b q := ⟨i 0, i 1, eq_ix2 i⟩
  exact v157_at ⟨x0, x1, x2, x3, x4, x5, x6, x7, x8, x9, x10, x11, x12, x13, x14, x15, x16, x17, x18, x19, x20, x21, x22, x23, x24, x25, x26, x27, x28, x29, x30⟩ b q

end Cert.WideDeep.Ref

end
-- ==== Proof.RefRun.lean ====
/-
  The reference program's two claims at the exact instance, from its generated run: it terminates and leaves its
  thirty-one argument arrays unchanged; and its result array ends as the specification's result of the argument
  arrays it started from (the generated run gives the result as the composed stages, which the previous module
  identifies with the specification).
-/
import proofs.«151196_j43095701848227_2_alg».proof.Defs
import proofs.«151196_j43095701848227_2_alg».proof.Proof.RefSpec

noncomputable section

namespace Cert.WideDeep.Ref

open Idealize.ShloMosaic Idealize.SL.Sem

/-- The reference runs and its arguments end unchanged. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2)
    (Cert.ReferenceIdeal.Value.run (F := Ideal) m ρ)

/-- The reference runs, ends with the specification's result of its starting arguments, and its arguments end
    unchanged. -/
theorem ref_run [hReferenceIdeal : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v157)
          = Cert.WideDeep.out ⟨m' ((c.tc : Thread Cert.ReferenceIdeal.nD Cert.ReferenceIdeal.τ).loc Cert.ReferenceIdeal.main_arg0),
          m' ((c.tc : Thread Cert.ReferenceIdeal.nD Cert.ReferenceIdeal.τ).loc Cert.ReferenceIdeal.main_arg1),
          m' ((c.tc : Thread Cert.ReferenceIdeal.nD Cert.ReferenceIdeal.τ).loc Cert.ReferenceIdeal.main_arg2),
          m' ((c.tc : Thread Cert.ReferenceIdeal.nD Cert.ReferenceIdeal.τ).loc Cert.ReferenceIdeal.main_arg3),
          m' ((c.tc : Thread Cert.ReferenceIdeal.nD Cert.ReferenceIdeal.τ).loc Cert.ReferenceIdeal.main_arg4),
          m' ((c.tc : Thread Cert.ReferenceIdeal.nD Cert.ReferenceIdeal.τ).loc Cert.ReferenceIdeal.main_arg5),
          m' ((c.tc : Thread Cert.ReferenceIdeal.nD Cert.ReferenceIdeal.τ).loc Cert.ReferenceIdeal.main_arg6),
          m' ((c.tc : Thread Cert.ReferenceIdeal.nD Cert.ReferenceIdeal.τ).loc Cert.ReferenceIdeal.main_arg7),
          m' ((c.tc : Thread Cert.ReferenceIdeal.nD Cert.ReferenceIdeal.τ).loc Cert.ReferenceIdeal.main_arg8),
          m' ((c.tc : Thread Cert.ReferenceIdeal.nD Cert.ReferenceIdeal.τ).loc Cert.ReferenceIdeal.main_arg9),
          m' ((c.tc : Thread Cert.ReferenceIdeal.nD Cert.ReferenceIdeal.τ).loc Cert.ReferenceIdeal.main_arg10),
          m' ((c.tc : Thread Cert.ReferenceIdeal.nD Cert.ReferenceIdeal.τ).loc Cert.ReferenceIdeal.main_arg11),
          m' ((c.tc : Thread Cert.ReferenceIdeal.nD Cert.ReferenceIdeal.τ).loc Cert.ReferenceIdeal.main_arg12),
          m' ((c.tc : Thread Cert.ReferenceIdeal.nD Cert.ReferenceIdeal.τ).loc Cert.ReferenceIdeal.main_arg13),
          m' ((c.tc : Thread Cert.ReferenceIdeal.nD Cert.ReferenceIdeal.τ).loc Cert.ReferenceIdeal.main_arg14),
          m' ((c.tc : Thread Cert.ReferenceIdeal.nD Cert.ReferenceIdeal.τ).loc Cert.ReferenceIdeal.main_arg15),
          m' ((c.tc : Thread Cert.ReferenceIdeal.nD Cert.ReferenceIdeal.τ).loc Cert.ReferenceIdeal.main_arg16),
          m' ((c.tc : Thread Cert.ReferenceIdeal.nD Cert.ReferenceIdeal.τ).loc Cert.ReferenceIdeal.main_arg17),
          m' ((c.tc : Thread Cert.ReferenceIdeal.nD Cert.ReferenceIdeal.τ).loc Cert.ReferenceIdeal.main_arg18),
          m' ((c.tc : Thread Cert.ReferenceIdeal.nD Cert.ReferenceIdeal.τ).loc Cert.ReferenceIdeal.main_arg19),
          m' ((c.tc : Thread Cert.ReferenceIdeal.nD Cert.ReferenceIdeal.τ).loc Cert.ReferenceIdeal.main_arg20),
          m' ((c.tc : Thread Cert.ReferenceIdeal.nD Cert.ReferenceIdeal.τ).loc Cert.ReferenceIdeal.main_arg21),
          m' ((c.tc : Thread Cert.ReferenceIdeal.nD Cert.ReferenceIdeal.τ).loc Cert.ReferenceIdeal.main_arg22),
          m' ((c.tc : Thread Cert.ReferenceIdeal.nD Cert.ReferenceIdeal.τ).loc Cert.ReferenceIdeal.main_arg23),
          m' ((c.tc : Thread Cert.ReferenceIdeal.nD Cert.ReferenceIdeal.τ).loc Cert.ReferenceIdeal.main_arg24),
          m' ((c.tc : Thread Cert.ReferenceIdeal.nD Cert.ReferenceIdeal.τ).loc Cert.ReferenceIdeal.main_arg25),
          m' ((c.tc : Thread Cert.ReferenceIdeal.nD Cert.ReferenceIdeal.τ).loc Cert.ReferenceIdeal.main_arg26),
          m' ((c.tc : Thread Cert.ReferenceIdeal.nD Cert.ReferenceIdeal.τ).loc Cert.ReferenceIdeal.main_arg27),
          m' ((c.tc : Thread Cert.ReferenceIdeal.nD Cert.ReferenceIdeal.τ).loc Cert.ReferenceIdeal.main_arg28),
          m' ((c.tc : Thread Cert.ReferenceIdeal.nD Cert.ReferenceIdeal.τ).loc Cert.ReferenceIdeal.main_arg29),
          m' ((c.tc : Thread Cert.ReferenceIdeal.nD Cert.ReferenceIdeal.τ).loc Cert.ReferenceIdeal.main_arg30)⟩
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
        ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
        ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
        ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
        ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
        ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
        ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
        ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
        ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
        ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)) :=
  (θ_run Cert.ReferenceIdeal.defs _ _).mono
    (fun _ h c => ⟨by rw [(h c).1, Cert.ReferenceIdeal.Read.val_main_v157_eq, out_eq], (h c).2⟩)
    (Cert.ReferenceIdeal.Value.run (F := Ideal) m' g')

end Cert.WideDeep.Ref

end
-- ==== Proof.lean ====
/-
  The certificate of the wide-and-deep kernel against its reference.

  Both programs are run at the ideal instance, where a float is an extended real and every operation is exact.  The
  reference's run ends with its result at the specification's function `out` of its argument arrays (the reference is
  the specification read operation by operation).  The kernel's host operations hand its one region the specification's
  eight fields, wide sums and weights; each of the region's eight grid points writes 1024 rows of the result, row p being
  the tower's row function of row p of the loaded blocks; splitting the 748-term first-layer sum field by field identifies
  that with the specification, and the eight blocks cover the array.  From memories that agree on the arguments the two
  results are therefore one array.  The word-level kernel and its idealization run to the end without a fault and leave
  their arguments unchanged; the idealization rewrote no operation, so nothing is owed for it.
-/
import proofs.«151196_j43095701848227_2_alg».proof.Defs
import proofs.«151196_j43095701848227_2_alg».proof.Proof.Gen.Kernel
import proofs.«151196_j43095701848227_2_alg».proof.Proof.Gen.KernelIdeal
import proofs.«151196_j43095701848227_2_alg».proof.Proof.Gen.ReferenceIdeal
import proofs.«151196_j43095701848227_2_alg».proof.Proof.Gen.Pre_finite_inputs
import proofs.«151196_j43095701848227_2_alg».proof.Proof.KernelP.Frame
import proofs.«151196_j43095701848227_2_alg».proof.Proof.Final
import proofs.«151196_j43095701848227_2_alg».proof.Proof.Glue
import proofs.«151196_j43095701848227_2_alg».proof.Proof.RefRun

noncomputable section

namespace Cert.Proof

open Idealize.ShloMosaic Idealize.ShloMosaic.TcCoe Idealize.SL.Sem Cert.WideDeep

/-- The word-level kernel runs to the end, faults nowhere and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- And the reference: its run, with the result dropped. -/
theorem frame_reference : Cert.frame_ReferenceIdeal := Cert.WideDeep.Ref.frame_ri

/-- From memories agreeing on the arguments both programs end with the specification's result of those arguments. -/
theorem algebraic : Cert.algebraic_KernelIdeal_ReferenceIdeal := by
  intro m ρ m' ρ' _ hagree
  refine ⟨fun c => out (kArgs m c), ?_, ?_⟩
  · exact (θ_run Cert.KernelIdeal.defs _ _).mono
      (fun r h c => ⟨(h c).1.trans (Final.final m c (Glue.staged m c)), (h c).2⟩)
      (Cert.KernelIdeal.ValueP.run_blocks m ρ)
  · refine (θ_run Cert.ReferenceIdeal.defs _ _).mono (fun r h c => ⟨(h c).1.trans ?_, (h c).2⟩)
      (Cert.WideDeep.Ref.ref_run m' ρ')
    obtain ⟨h0, h1, h2, h3, h4, h5, h6, h7, h8, h9, h10, h11, h12, h13, h14, h15, h16, h17, h18, h19, h20, h21, h22, h23, h24, h25, h26, h27, h28, h29, h30⟩ := hagree c
    unfold kArgs
    rw [h0, h1, h2, h3, h4, h5, h6, h7, h8, h9, h10, h11, h12, h13, h14, h15, h16, h17, h18, h19, h20, h21, h22, h23, h24, h25, h26, h27, h28, h29, h30]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
